-- ==== Defs.lean ====
def Pre_Kernel [hPre_input_domain : Cert.Pre_input_domain.Facts] (m : (ℓ : Loc Cert.Kernel.nD Cert.Kernel.τ Cert.Kernel.sig) → Buf (Elt Bits) ℓ) : Prop :=
  ∀ c : Dev Cert.Kernel.nD,
    (Cert.Pre_input_domain.fn (F := Bits) (m ((c.tc : Thread Cert.Kernel.nD Cert.Kernel.τ).loc Cert.Kernel.main_arg0))) = (fun _ => 1#1)

def Pre_KernelIdeal [hPre_input_domain : Cert.Pre_input_domain.Facts] (m : (ℓ : Loc Cert.KernelIdeal.nD Cert.KernelIdeal.τ Cert.KernelIdeal.sig) → Buf (Elt Ideal) ℓ) : Prop :=
  ∀ c : Dev Cert.KernelIdeal.nD,
    (Cert.Pre_input_domain.fn (F := Ideal) (m ((c.tc : Thread Cert.KernelIdeal.nD Cert.KernelIdeal.τ).loc Cert.KernelIdeal.main_arg0))) = (fun _ => 1#1)

def Pre_ReferenceIdeal [hPre_input_domain : Cert.Pre_input_domain.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_input_domain.fn (F := Ideal) (m ((c.tc : Thread Cert.ReferenceIdeal.nD Cert.ReferenceIdeal.τ).loc Cert.ReferenceIdeal.main_arg0))) = (fun _ => 1#1)

def frame_Kernel [hKernel : Cert.Kernel.Facts] [hPre_input_domain : Cert.Pre_input_domain.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))

def frame_KernelIdeal [hKernelIdeal : Cert.KernelIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))

def frame_ReferenceIdeal [hReferenceIdeal : Cert.ReferenceIdeal.Facts] [hPre_input_domain : Cert.Pre_input_domain.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))

def preserves_Kernel_KernelIdeal : Prop :=
  True

def algebraic_KernelIdeal_ReferenceIdeal [hKernelIdeal : Cert.KernelIdeal.Facts] [hReferenceIdeal : Cert.ReferenceIdeal.Facts] [hPre_input_domain : Cert.Pre_input_domain.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v2)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v2) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v80) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts) (hPre_input_domain : Cert.Pre_input_domain.Facts),
    frame_Kernel (hKernel := hKernel) (hPre_input_domain := hPre_input_domain)
    ∧ frame_KernelIdeal (hKernelIdeal := hKernelIdeal) (hPre_input_domain := hPre_input_domain)
    ∧ frame_ReferenceIdeal (hReferenceIdeal := hReferenceIdeal) (hPre_input_domain := hPre_input_domain)
    ∧ preserves_Kernel_KernelIdeal
    ∧ algebraic_KernelIdeal_ReferenceIdeal (hKernelIdeal := hKernelIdeal) (hReferenceIdeal := hReferenceIdeal) (hPre_input_domain := hPre_input_domain)
-- ==== Pre_input_domain.lean ====
abbrev S16384x26 : Shape := ⟨2, ![16384, 26]⟩
abbrev S_ : Shape := ⟨0, ![]⟩

class Facts : Prop where
  bcast_S_S16384x26 : S_.BroadcastsInDim S16384x26 (![] : Fin 0 → Fin S16384x26.rank)
  reducesTo_S16384x26_S_d0_1 : S16384x26.ReducesTo [0, 1] S_
  h_S_ : 0 < S_.numel

variable [Facts]

def fn {F : FTy → Type} [FloatOps F] (main_arg0 : IVec S16384x26 32) : IVec S_ 1 :=
  let main_c : IVec S_ 32 := constantI S_ 32 0#32
  let main_v0 : IVec S16384x26 32 := broadcastInDim S16384x26 ![] bcast_S_S16384x26 main_c
  let main_v1 : IVec S16384x26 1 := cmpi .sge main_arg0 main_v0
  let main_c_0 : IVec S_ 32 := constantI S_ 32 99#32
  let main_v2 : IVec S16384x26 32 := broadcastInDim S16384x26 ![] bcast_S_S16384x26 main_c_0
  let main_v3 : IVec S16384x26 1 := cmpi .sle main_arg0 main_v2
  let main_v4 : IVec S16384x26 1 := andi main_v1 main_v3
  let main_c_1 : IVec S_ 1 := constantI S_ 1 1#1
  let main_v5 : IVec S_ 1 := (fun x v => Host.reduce IntOp.andi x v reducesTo_S16384x26_S_d0_1 h_S_) main_v4 main_c_1
  main_v5
-- ==== Kernel.lean ====
abbrev S16384x26 : Shape := ⟨2, ![16384, 26]⟩
abbrev S26x16384 : Shape := ⟨2, ![26, 16384]⟩
abbrev S2600x16384 : Shape := ⟨2, ![2600, 16384]⟩
abbrev S26x512 : Shape := ⟨2, ![26, 512]⟩
abbrev S200x256 : Shape := ⟨2, ![200, 256]⟩
abbrev S_ : Shape := ⟨0, ![]⟩
abbrev S16 : Shape := ⟨1, ![16]⟩
abbrev S1x16 : Shape := ⟨2, ![1, 16]⟩
abbrev S16384x2600 : Shape := ⟨2, ![16384, 2600]⟩

abbrev nBuf : Table → Nat
  | .hbm => 4
  | .local .scVector .vmem => 3
  | _ => 0

abbrev bufTy : (tb : Table) → Fin (nBuf tb) → BufTy
  | .hbm, ⟨0, _⟩ => ⟨S16384x26, .i32⟩
  | .hbm, ⟨1, _⟩ => ⟨S26x16384, .i32⟩
  | .hbm, ⟨2, _⟩ => ⟨S2600x16384, .i32⟩
  | .hbm, ⟨3, _⟩ => ⟨S16384x2600, .i32⟩
  | .local .scVector .vmem, ⟨0, _⟩ => ⟨S26x512, .i32⟩
  | .local .scVector .vmem, ⟨1, _⟩ => ⟨S200x256, .i32⟩
  | .local .scVector .vmem, ⟨2, _⟩ => ⟨S200x256, .i32⟩
  | _, _ => ⟨S16384x26, .i32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 3 → Bool
  | ⟨0, _⟩ => false
  | ⟨1, _⟩ => false
  | ⟨2, _⟩ => false
  | _ => false

abbrev sig : RefSig :=
  ofTables nBuf rfl bufTy 4 3 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v0_scv : Ref sig .scVector := ⟨.hbm, 1, rfl⟩
abbrev main_v1_scv : Ref sig .scVector := ⟨.hbm, 2, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_off1 (i : grid0.Coords) : Fin 2 → Nat :=
  let c0_i32_0 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  ![0, v5.toNat]
@[reducible] def k0_t1_loop : Scf.Loop 32 :=
  let c0_i32_3 : BitVec 32 := 0#32
  let c16_i32 : BitVec 32 := 16#32
  let v8 : BitVec 32 := Scalar.addi c0_i32_3 c16_i32
  let c1_i32_4 : BitVec 32 := 1#32
  ⟨c0_i32_3, v8, c1_i32_4⟩

def k0_chk1 (v411 : IVec S16 32) (v412 : IVec S16 32) : Prop :=
  (∀ a x, ((![v412, v411] : Fin 2 → IVec S16 32) a x).toNat < S200x256.size a)
instance k0_chk1.dec : ∀ (v411 : IVec S16 32) (v412 : IVec S16 32), Decidable (k0_chk1 v411 v412) := fun v411 v412 => decidable_of_iff' _ (Iff.of_eq (k0_chk1.eq_1 v411 v412))
theorem k0_idx1_inb : ∀ (v411 : IVec S16 32) (v412 : IVec S16 32) (k0_hw1 : k0_chk1 v411 v412), ∀ a x, ((![v412, v411] : Fin 2 → IVec S16 32) a x).toNat < S200x256.size a := fun v411 v412 k0_hw1 => k0_hw1

def k0_chk2 (v411 : IVec S16 32) (v413 : IVec S16 32) : Prop :=
  (∀ a x, ((![v413, v411] : Fin 2 → IVec S16 32) a x).toNat < S200x256.size a)
instance k0_chk2.dec : ∀ (v411 : IVec S16 32) (v413 : IVec S16 32), Decidable (k0_chk2 v411 v413) := fun v411 v413 => decidable_of_iff' _ (Iff.of_eq (k0_chk2.eq_1 v411 v413))
theorem k0_idx2_inb : ∀ (v411 : IVec S16 32) (v413 : IVec S16 32) (k0_hw2 : k0_chk2 v411 v413), ∀ a x, ((![v413, v411] : Fin 2 → IVec S16 32) a x).toNat < S200x256.size a := fun v411 v413 k0_hw2 => k0_hw2

def k0_chk3 (v411 : IVec S16 32) (v414 : IVec S16 32) : Prop :=
  (∀ a x, ((![v414, v411] : Fin 2 → IVec S16 32) a x).toNat < S200x256.size a)
instance k0_chk3.dec : ∀ (v411 : IVec S16 32) (v414 : IVec S16 32), Decidable (k0_chk3 v411 v414) := fun v411 v414 => decidable_of_iff' _ (Iff.of_eq (k0_chk3.eq_1 v411 v414))
theorem k0_idx3_inb : ∀ (v411 : IVec S16 32) (v414 : IVec S16 32) (k0_hw3 : k0_chk3 v411 v414), ∀ a x, ((![v414, v411] : Fin 2 → IVec S16 32) a x).toNat < S200x256.size a := fun v411 v414 k0_hw3 => k0_hw3

def k0_chk4 (v411 : IVec S16 32) (v415 : IVec S16 32) : Prop :=
  (∀ a x, ((![v415, v411] : Fin 2 → IVec S16 32) a x).toNat < S200x256.size a)
instance k0_chk4.dec : ∀ (v411 : IVec S16 32) (v415 : IVec S16 32), Decidable (k0_chk4 v411 v415) := fun v411 v415 => decidable_of_iff' _ (Iff.of_eq (k0_chk4.eq_1 v411 v415))
theorem k0_idx4_inb : ∀ (v411 : IVec S16 32) (v415 : IVec S16 32) (k0_hw4 : k0_chk4 v411 v415), ∀ a x, ((![v415, v411] : Fin 2 → IVec S16 32) a x).toNat < S200x256.size a := fun v411 v415 k0_hw4 => k0_hw4

def k0_chk5 (v411 : IVec S16 32) (v416 : IVec S16 32) : Prop :=
  (∀ a x, ((![v416, v411] : Fin 2 → IVec S16 32) a x).toNat < S200x256.size a)
instance k0_chk5.dec : ∀ (v411 : IVec S16 32) (v416 : IVec S16 32), Decidable (k0_chk5 v411 v416) := fun v411 v416 => decidable_of_iff' _ (Iff.of_eq (k0_chk5.eq_1 v411 v416))
theorem k0_idx5_inb : ∀ (v411 : IVec S16 32) (v416 : IVec S16 32) (k0_hw5 : k0_chk5 v411 v416), ∀ a x, ((![v416, v411] : Fin 2 → IVec S16 32) a x).toNat < S200x256.size a := fun v411 v416 k0_hw5 => k0_hw5

def k0_chk6 (v411 : IVec S16 32) (v417 : IVec S16 32) : Prop :=
  (∀ a x, ((![v417, v411] : Fin 2 → IVec S16 32) a x).toNat < S200x256.size a)
instance k0_chk6.dec : ∀ (v411 : IVec S16 32) (v417 : IVec S16 32), Decidable (k0_chk6 v411 v417) := fun v411 v417 => decidable_of_iff' _ (Iff.of_eq (k0_chk6.eq_1 v411 v417))
theorem k0_idx6_inb : ∀ (v411 : IVec S16 32) (v417 : IVec S16 32) (k0_hw6 : k0_chk6 v411 v417), ∀ a x, ((![v417, v411] : Fin 2 → IVec S16 32) a x).toNat < S200x256.size a := fun v411 v417 k0_hw6 => k0_hw6

def k0_chk7 (v411 : IVec S16 32) (v418 : IVec S16 32) : Prop :=
  (∀ a x, ((![v418, v411] : Fin 2 → IVec S16 32) a x).toNat < S200x256.size a)
instance k0_chk7.dec : ∀ (v411 : IVec S16 32) (v418 : IVec S16 32), Decidable (k0_chk7 v411 v418) := fun v411 v418 => decidable_of_iff' _ (Iff.of_eq (k0_chk7.eq_1 v411 v418))
theorem k0_idx7_inb : ∀ (v411 : IVec S16 32) (v418 : IVec S16 32) (k0_hw7 : k0_chk7 v411 v418), ∀ a x, ((![v418, v411] : Fin 2 → IVec S16 32) a x).toNat < S200x256.size a := fun v411 v418 k0_hw7 => k0_hw7

def k0_chk8 (v411 : IVec S16 32) (v419 : IVec S16 32) : Prop :=
  (∀ a x, ((![v419, v411] : Fin 2 → IVec S16 32) a x).toNat < S200x256.size a)
instance k0_chk8.dec : ∀ (v411 : IVec S16 32) (v419 : IVec S16 32), Decidable (k0_chk8 v411 v419) := fun v411 v419 => decidable_of_iff' _ (Iff.of_eq (k0_chk8.eq_1 v411 v419))
theorem k0_idx8_inb : ∀ (v411 : IVec S16 32) (v419 : IVec S16 32) (k0_hw8 : k0_chk8 v411 v419), ∀ a x, ((![v419, v411] : Fin 2 → IVec S16 32) a x).toNat < S200x256.size a := fun v411 v419 k0_hw8 => k0_hw8

def k0_chk9 (v411 : IVec S16 32) (v420 : IVec S16 32) : Prop :=
  (∀ a x, ((![v420, v411] : Fin 2 → IVec S16 32) a x).toNat < S200x256.size a)
instance k0_chk9.dec : ∀ (v411 : IVec S16 32) (v420 : IVec S16 32), Decidable (k0_chk9 v411 v420) := fun v411 v420 => decidable_of_iff' _ (Iff.of_eq (k0_chk9.eq_1 v411 v420))
theorem k0_idx9_inb : ∀ (v411 : IVec S16 32) (v420 : IVec S16 32) (k0_hw9 : k0_chk9 v411 v420), ∀ a x, ((![v420, v411] : Fin 2 → IVec S16 32) a x).toNat < S200x256.size a := fun v411 v420 k0_hw9 => k0_hw9

def k0_chk10 (v411 : IVec S16 32) (v421 : IVec S16 32) : Prop :=
  (∀ a x, ((![v421, v411] : Fin 2 → IVec S16 32) a x).toNat < S200x256.size a)
instance k0_chk10.dec : ∀ (v411 : IVec S16 32) (v421 : IVec S16 32), Decidable (k0_chk10 v411 v421) := fun v411 v421 => decidable_of_iff' _ (Iff.of_eq (k0_chk10.eq_1 v411 v421))
theorem k0_idx10_inb : ∀ (v411 : IVec S16 32) (v421 : IVec S16 32) (k0_hw10 : k0_chk10 v411 v421), ∀ a x, ((![v421, v411] : Fin 2 → IVec S16 32) a x).toNat < S200x256.size a := fun v411 v421 k0_hw10 => k0_hw10

def k0_chk11 (v411 : IVec S16 32) (v422 : IVec S16 32) : Prop :=
  (∀ a x, ((![v422, v411] : Fin 2 → IVec S16 32) a x).toNat < S200x256.size a)
instance k0_chk11.dec : ∀ (v411 : IVec S16 32) (v422 : IVec S16 32), Decidable (k0_chk11 v411 v422) := fun v411 v422 => decidable_of_iff' _ (Iff.of_eq (k0_chk11.eq_1 v411 v422))
theorem k0_idx11_inb : ∀ (v411 : IVec S16 32) (v422 : IVec S16 32) (k0_hw11 : k0_chk11 v411 v422), ∀ a x, ((![v422, v411] : Fin 2 → IVec S16 32) a x).toNat < S200x256.size a := fun v411 v422 k0_hw11 => k0_hw11

def k0_chk12 (v411 : IVec S16 32) (v423 : IVec S16 32) : Prop :=
  (∀ a x, ((![v423, v411] : Fin 2 → IVec S16 32) a x).toNat < S200x256.size a)
instance k0_chk12.dec : ∀ (v411 : IVec S16 32) (v423 : IVec S16 32), Decidable (k0_chk12 v411 v423) := fun v411 v423 => decidable_of_iff' _ (Iff.of_eq (k0_chk12.eq_1 v411 v423))
theorem k0_idx12_inb : ∀ (v411 : IVec S16 32) (v423 : IVec S16 32) (k0_hw12 : k0_chk12 v411 v423), ∀ a x, ((![v423, v411] : Fin 2 → IVec S16 32) a x).toNat < S200x256.size a := fun v411 v423 k0_hw12 => k0_hw12

def k0_chk13 (v411 : IVec S16 32) (v424 : IVec S16 32) : Prop :=
  (∀ a x, ((![v424, v411] : Fin 2 → IVec S16 32) a x).toNat < S200x256.size a)
instance k0_chk13.dec : ∀ (v411 : IVec S16 32) (v424 : IVec S16 32), Decidable (k0_chk13 v411 v424) := fun v411 v424 => decidable_of_iff' _ (Iff.of_eq (k0_chk13.eq_1 v411 v424))
theorem k0_idx13_inb : ∀ (v411 : IVec S16 32) (v424 : IVec S16 32) (k0_hw13 : k0_chk13 v411 v424), ∀ a x, ((![v424, v411] : Fin 2 → IVec S16 32) a x).toNat < S200x256.size a := fun v411 v424 k0_hw13 => k0_hw13

def k0_chk14 (v411 : IVec S16 32) (v425 : IVec S16 32) : Prop :=
  (∀ a x, ((![v425, v411] : Fin 2 → IVec S16 32) a x).toNat < S200x256.size a)
instance k0_chk14.dec : ∀ (v411 : IVec S16 32) (v425 : IVec S16 32), Decidable (k0_chk14 v411 v425) := fun v411 v425 => decidable_of_iff' _ (Iff.of_eq (k0_chk14.eq_1 v411 v425))
theorem k0_idx14_inb : ∀ (v411 : IVec S16 32) (v425 : IVec S16 32) (k0_hw14 : k0_chk14 v411 v425), ∀ a x, ((![v425, v411] : Fin 2 → IVec S16 32) a x).toNat < S200x256.size a := fun v411 v425 k0_hw14 => k0_hw14

def k0_chk15 (v411 : IVec S16 32) (v426 : IVec S16 32) : Prop :=
  (∀ a x, ((![v426, v411] : Fin 2 → IVec S16 32) a x).toNat < S200x256.size a)
instance k0_chk15.dec : ∀ (v411 : IVec S16 32) (v426 : IVec S16 32), Decidable (k0_chk15 v411 v426) := fun v411 v426 => decidable_of_iff' _ (Iff.of_eq (k0_chk15.eq_1 v411 v426))
theorem k0_idx15_inb : ∀ (v411 : IVec S16 32) (v426 : IVec S16 32) (k0_hw15 : k0_chk15 v411 v426), ∀ a x, ((![v426, v411] : Fin 2 → IVec S16 32) a x).toNat < S200x256.size a := fun v411 v426 k0_hw15 => k0_hw15

def k0_chk16 (v411 : IVec S16 32) (v427 : IVec S16 32) : Prop :=
  (∀ a x, ((![v427, v411] : Fin 2 → IVec S16 32) a x).toNat < S200x256.size a)
instance k0_chk16.dec : ∀ (v411 : IVec S16 32) (v427 : IVec S16 32), Decidable (k0_chk16 v411 v427) := fun v411 v427 => decidable_of_iff' _ (Iff.of_eq (k0_chk16.eq_1 v411 v427))
theorem k0_idx16_inb : ∀ (v411 : IVec S16 32) (v427 : IVec S16 32) (k0_hw16 : k0_chk16 v411 v427), ∀ a x, ((![v427, v411] : Fin 2 → IVec S16 32) a x).toNat < S200x256.size a := fun v411 v427 k0_hw16 => k0_hw16

def k0_chk17 (v411 : IVec S16 32) (v428 : IVec S16 32) : Prop :=
  (∀ a x, ((![v428, v411] : Fin 2 → IVec S16 32) a x).toNat < S200x256.size a)
instance k0_chk17.dec : ∀ (v411 : IVec S16 32) (v428 : IVec S16 32), Decidable (k0_chk17 v411 v428) := fun v411 v428 => decidable_of_iff' _ (Iff.of_eq (k0_chk17.eq_1 v411 v428))
theorem k0_idx17_inb : ∀ (v411 : IVec S16 32) (v428 : IVec S16 32) (k0_hw17 : k0_chk17 v411 v428), ∀ a x, ((![v428, v411] : Fin 2 → IVec S16 32) a x).toNat < S200x256.size a := fun v411 v428 k0_hw17 => k0_hw17

def k0_chk18 (v411 : IVec S16 32) (v429 : IVec S16 32) : Prop :=
  (∀ a x, ((![v429, v411] : Fin 2 → IVec S16 32) a x).toNat < S200x256.size a)
instance k0_chk18.dec : ∀ (v411 : IVec S16 32) (v429 : IVec S16 32), Decidable (k0_chk18 v411 v429) := fun v411 v429 => decidable_of_iff' _ (Iff.of_eq (k0_chk18.eq_1 v411 v429))
theorem k0_idx18_inb : ∀ (v411 : IVec S16 32) (v429 : IVec S16 32) (k0_hw18 : k0_chk18 v411 v429), ∀ a x, ((![v429, v411] : Fin 2 → IVec S16 32) a x).toNat < S200x256.size a := fun v411 v429 k0_hw18 => k0_hw18

def k0_chk19 (v411 : IVec S16 32) (v430 : IVec S16 32) : Prop :=
  (∀ a x, ((![v430, v411] : Fin 2 → IVec S16 32) a x).toNat < S200x256.size a)
instance k0_chk19.dec : ∀ (v411 : IVec S16 32) (v430 : IVec S16 32), Decidable (k0_chk19 v411 v430) := fun v411 v430 => decidable_of_iff' _ (Iff.of_eq (k0_chk19.eq_1 v411 v430))
theorem k0_idx19_inb : ∀ (v411 : IVec S16 32) (v430 : IVec S16 32) (k0_hw19 : k0_chk19 v411 v430), ∀ a x, ((![v430, v411] : Fin 2 → IVec S16 32) a x).toNat < S200x256.size a := fun v411 v430 k0_hw19 => k0_hw19

def k0_chk20 (v411 : IVec S16 32) (v431 : IVec S16 32) : Prop :=
  (∀ a x, ((![v431, v411] : Fin 2 → IVec S16 32) a x).toNat < S200x256.size a)
instance k0_chk20.dec : ∀ (v411 : IVec S16 32) (v431 : IVec S16 32), Decidable (k0_chk20 v411 v431) := fun v411 v431 => decidable_of_iff' _ (Iff.of_eq (k0_chk20.eq_1 v411 v431))
theorem k0_idx20_inb : ∀ (v411 : IVec S16 32) (v431 : IVec S16 32) (k0_hw20 : k0_chk20 v411 v431), ∀ a x, ((![v431, v411] : Fin 2 → IVec S16 32) a x).toNat < S200x256.size a := fun v411 v431 k0_hw20 => k0_hw20

def k0_chk21 (v411 : IVec S16 32) (v432 : IVec S16 32) : Prop :=
  (∀ a x, ((![v432, v411] : Fin 2 → IVec S16 32) a x).toNat < S200x256.size a)
instance k0_chk21.dec : ∀ (v411 : IVec S16 32) (v432 : IVec S16 32), Decidable (k0_chk21 v411 v432) := fun v411 v432 => decidable_of_iff' _ (Iff.of_eq (k0_chk21.eq_1 v411 v432))
theorem k0_idx21_inb : ∀ (v411 : IVec S16 32) (v432 : IVec S16 32) (k0_hw21 : k0_chk21 v411 v432), ∀ a x, ((![v432, v411] : Fin 2 → IVec S16 32) a x).toNat < S200x256.size a := fun v411 v432 k0_hw21 => k0_hw21

def k0_chk22 (v411 : IVec S16 32) (v433 : IVec S16 32) : Prop :=
  (∀ a x, ((![v433, v411] : Fin 2 → IVec S16 32) a x).toNat < S200x256.size a)
instance k0_chk22.dec : ∀ (v411 : IVec S16 32) (v433 : IVec S16 32), Decidable (k0_chk22 v411 v433) := fun v411 v433 => decidable_of_iff' _ (Iff.of_eq (k0_chk22.eq_1 v411 v433))
theorem k0_idx22_inb : ∀ (v411 : IVec S16 32) (v433 : IVec S16 32) (k0_hw22 : k0_chk22 v411 v433), ∀ a x, ((![v433, v411] : Fin 2 → IVec S16 32) a x).toNat < S200x256.size a := fun v411 v433 k0_hw22 => k0_hw22

def k0_chk23 (v411 : IVec S16 32) (v434 : IVec S16 32) : Prop :=
  (∀ a x, ((![v434, v411] : Fin 2 → IVec S16 32) a x).toNat < S200x256.size a)
instance k0_chk23.dec : ∀ (v411 : IVec S16 32) (v434 : IVec S16 32), Decidable (k0_chk23 v411 v434) := fun v411 v434 => decidable_of_iff' _ (Iff.of_eq (k0_chk23.eq_1 v411 v434))
theorem k0_idx23_inb : ∀ (v411 : IVec S16 32) (v434 : IVec S16 32) (k0_hw23 : k0_chk23 v411 v434), ∀ a x, ((![v434, v411] : Fin 2 → IVec S16 32) a x).toNat < S200x256.size a := fun v411 v434 k0_hw23 => k0_hw23

def k0_chk24 (v411 : IVec S16 32) (v435 : IVec S16 32) : Prop :=
  (∀ a x, ((![v435, v411] : Fin 2 → IVec S16 32) a x).toNat < S200x256.size a)
instance k0_chk24.dec : ∀ (v411 : IVec S16 32) (v435 : IVec S16 32), Decidable (k0_chk24 v411 v435) := fun v411 v435 => decidable_of_iff' _ (Iff.of_eq (k0_chk24.eq_1 v411 v435))
theorem k0_idx24_inb : ∀ (v411 : IVec S16 32) (v435 : IVec S16 32) (k0_hw24 : k0_chk24 v411 v435), ∀ a x, ((![v435, v411] : Fin 2 → IVec S16 32) a x).toNat < S200x256.size a := fun v411 v435 k0_hw24 => k0_hw24

def k0_chk25 (v411 : IVec S16 32) (v436 : IVec S16 32) : Prop :=
  (∀ a x, ((![v436, v411] : Fin 2 → IVec S16 32) a x).toNat < S200x256.size a)
instance k0_chk25.dec : ∀ (v411 : IVec S16 32) (v436 : IVec S16 32), Decidable (k0_chk25 v411 v436) := fun v411 v436 => decidable_of_iff' _ (Iff.of_eq (k0_chk25.eq_1 v411 v436))
theorem k0_idx25_inb : ∀ (v411 : IVec S16 32) (v436 : IVec S16 32) (k0_hw25 : k0_chk25 v411 v436), ∀ a x, ((![v436, v411] : Fin 2 → IVec S16 32) a x).toNat < S200x256.size a := fun v411 v436 k0_hw25 => k0_hw25

def k0_chk26 (v411 : IVec S16 32) (v437 : IVec S16 32) : Prop :=
  (∀ a x, ((![v437, v411] : Fin 2 → IVec S16 32) a x).toNat < S200x256.size a)
instance k0_chk26.dec : ∀ (v411 : IVec S16 32) (v437 : IVec S16 32), Decidable (k0_chk26 v411 v437) := fun v411 v437 => decidable_of_iff' _ (Iff.of_eq (k0_chk26.eq_1 v411 v437))
theorem k0_idx26_inb : ∀ (v411 : IVec S16 32) (v437 : IVec S16 32) (k0_hw26 : k0_chk26 v411 v437), ∀ a x, ((![v437, v411] : Fin 2 → IVec S16 32) a x).toNat < S200x256.size a := fun v411 v437 k0_hw26 => k0_hw26

def k0_chk27 (v411 : IVec S16 32) (v438 : IVec S16 32) : Prop :=
  (∀ a x, ((![v438, v411] : Fin 2 → IVec S16 32) a x).toNat < S200x256.size a)
instance k0_chk27.dec : ∀ (v411 : IVec S16 32) (v438 : IVec S16 32), Decidable (k0_chk27 v411 v438) := fun v411 v438 => decidable_of_iff' _ (Iff.of_eq (k0_chk27.eq_1 v411 v438))
theorem k0_idx27_inb : ∀ (v411 : IVec S16 32) (v438 : IVec S16 32) (k0_hw27 : k0_chk27 v411 v438), ∀ a x, ((![v438, v411] : Fin 2 → IVec S16 32) a x).toNat < S200x256.size a := fun v411 v438 k0_hw27 => k0_hw27

def k0_chk28 (v411 : IVec S16 32) (v439 : IVec S16 32) : Prop :=
  (∀ a x, ((![v439, v411] : Fin 2 → IVec S16 32) a x).toNat < S200x256.size a)
instance k0_chk28.dec : ∀ (v411 : IVec S16 32) (v439 : IVec S16 32), Decidable (k0_chk28 v411 v439) := fun v411 v439 => decidable_of_iff' _ (Iff.of_eq (k0_chk28.eq_1 v411 v439))
theorem k0_idx28_inb : ∀ (v411 : IVec S16 32) (v439 : IVec S16 32) (k0_hw28 : k0_chk28 v411 v439), ∀ a x, ((![v439, v411] : Fin 2 → IVec S16 32) a x).toNat < S200x256.size a := fun v411 v439 k0_hw28 => k0_hw28

def k0_chk29 (v411 : IVec S16 32) (v440 : IVec S16 32) : Prop :=
  (∀ a x, ((![v440, v411] : Fin 2 → IVec S16 32) a x).toNat < S200x256.size a)
instance k0_chk29.dec : ∀ (v411 : IVec S16 32) (v440 : IVec S16 32), Decidable (k0_chk29 v411 v440) := fun v411 v440 => decidable_of_iff' _ (Iff.of_eq (k0_chk29.eq_1 v411 v440))
theorem k0_idx29_inb : ∀ (v411 : IVec S16 32) (v440 : IVec S16 32) (k0_hw29 : k0_chk29 v411 v440), ∀ a x, ((![v440, v411] : Fin 2 → IVec S16 32) a x).toNat < S200x256.size a := fun v411 v440 k0_hw29 => k0_hw29

def k0_chk30 (v411 : IVec S16 32) (v441 : IVec S16 32) : Prop :=
  (∀ a x, ((![v441, v411] : Fin 2 → IVec S16 32) a x).toNat < S200x256.size a)
instance k0_chk30.dec : ∀ (v411 : IVec S16 32) (v441 : IVec S16 32), Decidable (k0_chk30 v411 v441) := fun v411 v441 => decidable_of_iff' _ (Iff.of_eq (k0_chk30.eq_1 v411 v441))
theorem k0_idx30_inb : ∀ (v411 : IVec S16 32) (v441 : IVec S16 32) (k0_hw30 : k0_chk30 v411 v441), ∀ a x, ((![v441, v411] : Fin 2 → IVec S16 32) a x).toNat < S200x256.size a := fun v411 v441 k0_hw30 => k0_hw30

def k0_chk31 (v411 : IVec S16 32) (v442 : IVec S16 32) : Prop :=
  (∀ a x, ((![v442, v411] : Fin 2 → IVec S16 32) a x).toNat < S200x256.size a)
instance k0_chk31.dec : ∀ (v411 : IVec S16 32) (v442 : IVec S16 32), Decidable (k0_chk31 v411 v442) := fun v411 v442 => decidable_of_iff' _ (Iff.of_eq (k0_chk31.eq_1 v411 v442))
theorem k0_idx31_inb : ∀ (v411 : IVec S16 32) (v442 : IVec S16 32) (k0_hw31 : k0_chk31 v411 v442), ∀ a x, ((![v442, v411] : Fin 2 → IVec S16 32) a x).toNat < S200x256.size a := fun v411 v442 k0_hw31 => k0_hw31

def k0_chk32 (v411 : IVec S16 32) (v443 : IVec S16 32) : Prop :=
  (∀ a x, ((![v443, v411] : Fin 2 → IVec S16 32) a x).toNat < S200x256.size a)
instance k0_chk32.dec : ∀ (v411 : IVec S16 32) (v443 : IVec S16 32), Decidable (k0_chk32 v411 v443) := fun v411 v443 => decidable_of_iff' _ (Iff.of_eq (k0_chk32.eq_1 v411 v443))
theorem k0_idx32_inb : ∀ (v411 : IVec S16 32) (v443 : IVec S16 32) (k0_hw32 : k0_chk32 v411 v443), ∀ a x, ((![v443, v411] : Fin 2 → IVec S16 32) a x).toNat < S200x256.size a := fun v411 v443 k0_hw32 => k0_hw32

def k0_chk33 (v411 : IVec S16 32) (v444 : IVec S16 32) : Prop :=
  (∀ a x, ((![v444, v411] : Fin 2 → IVec S16 32) a x).toNat < S200x256.size a)
instance k0_chk33.dec : ∀ (v411 : IVec S16 32) (v444 : IVec S16 32), Decidable (k0_chk33 v411 v444) := fun v411 v444 => decidable_of_iff' _ (Iff.of_eq (k0_chk33.eq_1 v411 v444))
theorem k0_idx33_inb : ∀ (v411 : IVec S16 32) (v444 : IVec S16 32) (k0_hw33 : k0_chk33 v411 v444), ∀ a x, ((![v444, v411] : Fin 2 → IVec S16 32) a x).toNat < S200x256.size a := fun v411 v444 k0_hw33 => k0_hw33

def k0_chk34 (v411 : IVec S16 32) (v445 : IVec S16 32) : Prop :=
  (∀ a x, ((![v445, v411] : Fin 2 → IVec S16 32) a x).toNat < S200x256.size a)
instance k0_chk34.dec : ∀ (v411 : IVec S16 32) (v445 : IVec S16 32), Decidable (k0_chk34 v411 v445) := fun v411 v445 => decidable_of_iff' _ (Iff.of_eq (k0_chk34.eq_1 v411 v445))
theorem k0_idx34_inb : ∀ (v411 : IVec S16 32) (v445 : IVec S16 32) (k0_hw34 : k0_chk34 v411 v445), ∀ a x, ((![v445, v411] : Fin 2 → IVec S16 32) a x).toNat < S200x256.size a := fun v411 v445 k0_hw34 => k0_hw34

def k0_chk35 (v411 : IVec S16 32) (v446 : IVec S16 32) : Prop :=
  (∀ a x, ((![v446, v411] : Fin 2 → IVec S16 32) a x).toNat < S200x256.size a)
instance k0_chk35.dec : ∀ (v411 : IVec S16 32) (v446 : IVec S16 32), Decidable (k0_chk35 v411 v446) := fun v411 v446 => decidable_of_iff' _ (Iff.of_eq (k0_chk35.eq_1 v411 v446))
theorem k0_idx35_inb : ∀ (v411 : IVec S16 32) (v446 : IVec S16 32) (k0_hw35 : k0_chk35 v411 v446), ∀ a x, ((![v446, v411] : Fin 2 → IVec S16 32) a x).toNat < S200x256.size a := fun v411 v446 k0_hw35 => k0_hw35

def k0_chk36 (v411 : IVec S16 32) (v447 : IVec S16 32) : Prop :=
  (∀ a x, ((![v447, v411] : Fin 2 → IVec S16 32) a x).toNat < S200x256.size a)
instance k0_chk36.dec : ∀ (v411 : IVec S16 32) (v447 : IVec S16 32), Decidable (k0_chk36 v411 v447) := fun v411 v447 => decidable_of_iff' _ (Iff.of_eq (k0_chk36.eq_1 v411 v447))
theorem k0_idx36_inb : ∀ (v411 : IVec S16 32) (v447 : IVec S16 32) (k0_hw36 : k0_chk36 v411 v447), ∀ a x, ((![v447, v411] : Fin 2 → IVec S16 32) a x).toNat < S200x256.size a := fun v411 v447 k0_hw36 => k0_hw36

def k0_chk37 (v411 : IVec S16 32) (v448 : IVec S16 32) : Prop :=
  (∀ a x, ((![v448, v411] : Fin 2 → IVec S16 32) a x).toNat < S200x256.size a)
instance k0_chk37.dec : ∀ (v411 : IVec S16 32) (v448 : IVec S16 32), Decidable (k0_chk37 v411 v448) := fun v411 v448 => decidable_of_iff' _ (Iff.of_eq (k0_chk37.eq_1 v411 v448))
theorem k0_idx37_inb : ∀ (v411 : IVec S16 32) (v448 : IVec S16 32) (k0_hw37 : k0_chk37 v411 v448), ∀ a x, ((![v448, v411] : Fin 2 → IVec S16 32) a x).toNat < S200x256.size a := fun v411 v448 k0_hw37 => k0_hw37

def k0_chk38 (v411 : IVec S16 32) (v449 : IVec S16 32) : Prop :=
  (∀ a x, ((![v449, v411] : Fin 2 → IVec S16 32) a x).toNat < S200x256.size a)
instance k0_chk38.dec : ∀ (v411 : IVec S16 32) (v449 : IVec S16 32), Decidable (k0_chk38 v411 v449) := fun v411 v449 => decidable_of_iff' _ (Iff.of_eq (k0_chk38.eq_1 v411 v449))
theorem k0_idx38_inb : ∀ (v411 : IVec S16 32) (v449 : IVec S16 32) (k0_hw38 : k0_chk38 v411 v449), ∀ a x, ((![v449, v411] : Fin 2 → IVec S16 32) a x).toNat < S200x256.size a := fun v411 v449 k0_hw38 => k0_hw38

def k0_chk39 (v411 : IVec S16 32) (v450 : IVec S16 32) : Prop :=
  (∀ a x, ((![v450, v411] : Fin 2 → IVec S16 32) a x).toNat < S200x256.size a)
instance k0_chk39.dec : ∀ (v411 : IVec S16 32) (v450 : IVec S16 32), Decidable (k0_chk39 v411 v450) := fun v411 v450 => decidable_of_iff' _ (Iff.of_eq (k0_chk39.eq_1 v411 v450))
theorem k0_idx39_inb : ∀ (v411 : IVec S16 32) (v450 : IVec S16 32) (k0_hw39 : k0_chk39 v411 v450), ∀ a x, ((![v450, v411] : Fin 2 → IVec S16 32) a x).toNat < S200x256.size a := fun v411 v450 k0_hw39 => k0_hw39

def k0_chk40 (v411 : IVec S16 32) (v451 : IVec S16 32) : Prop :=
  (∀ a x, ((![v451, v411] : Fin 2 → IVec S16 32) a x).toNat < S200x256.size a)
instance k0_chk40.dec : ∀ (v411 : IVec S16 32) (v451 : IVec S16 32), Decidable (k0_chk40 v411 v451) := fun v411 v451 => decidable_of_iff' _ (Iff.of_eq (k0_chk40.eq_1 v411 v451))
theorem k0_idx40_inb : ∀ (v411 : IVec S16 32) (v451 : IVec S16 32) (k0_hw40 : k0_chk40 v411 v451), ∀ a x, ((![v451, v411] : Fin 2 → IVec S16 32) a x).toNat < S200x256.size a := fun v411 v451 k0_hw40 => k0_hw40

def k0_chk41 (v411 : IVec S16 32) (v452 : IVec S16 32) : Prop :=
  (∀ a x, ((![v452, v411] : Fin 2 → IVec S16 32) a x).toNat < S200x256.size a)
instance k0_chk41.dec : ∀ (v411 : IVec S16 32) (v452 : IVec S16 32), Decidable (k0_chk41 v411 v452) := fun v411 v452 => decidable_of_iff' _ (Iff.of_eq (k0_chk41.eq_1 v411 v452))
theorem k0_idx41_inb : ∀ (v411 : IVec S16 32) (v452 : IVec S16 32) (k0_hw41 : k0_chk41 v411 v452), ∀ a x, ((![v452, v411] : Fin 2 → IVec S16 32) a x).toNat < S200x256.size a := fun v411 v452 k0_hw41 => k0_hw41

def k0_chk42 (v411 : IVec S16 32) (v453 : IVec S16 32) : Prop :=
  (∀ a x, ((![v453, v411] : Fin 2 → IVec S16 32) a x).toNat < S200x256.size a)
instance k0_chk42.dec : ∀ (v411 : IVec S16 32) (v453 : IVec S16 32), Decidable (k0_chk42 v411 v453) := fun v411 v453 => decidable_of_iff' _ (Iff.of_eq (k0_chk42.eq_1 v411 v453))
theorem k0_idx42_inb : ∀ (v411 : IVec S16 32) (v453 : IVec S16 32) (k0_hw42 : k0_chk42 v411 v453), ∀ a x, ((![v453, v411] : Fin 2 → IVec S16 32) a x).toNat < S200x256.size a := fun v411 v453 k0_hw42 => k0_hw42

def k0_chk43 (v411 : IVec S16 32) (v454 : IVec S16 32) : Prop :=
  (∀ a x, ((![v454, v411] : Fin 2 → IVec S16 32) a x).toNat < S200x256.size a)
instance k0_chk43.dec : ∀ (v411 : IVec S16 32) (v454 : IVec S16 32), Decidable (k0_chk43 v411 v454) := fun v411 v454 => decidable_of_iff' _ (Iff.of_eq (k0_chk43.eq_1 v411 v454))
theorem k0_idx43_inb : ∀ (v411 : IVec S16 32) (v454 : IVec S16 32) (k0_hw43 : k0_chk43 v411 v454), ∀ a x, ((![v454, v411] : Fin 2 → IVec S16 32) a x).toNat < S200x256.size a := fun v411 v454 k0_hw43 => k0_hw43

def k0_chk44 (v411 : IVec S16 32) (v455 : IVec S16 32) : Prop :=
  (∀ a x, ((![v455, v411] : Fin 2 → IVec S16 32) a x).toNat < S200x256.size a)
instance k0_chk44.dec : ∀ (v411 : IVec S16 32) (v455 : IVec S16 32), Decidable (k0_chk44 v411 v455) := fun v411 v455 => decidable_of_iff' _ (Iff.of_eq (k0_chk44.eq_1 v411 v455))
theorem k0_idx44_inb : ∀ (v411 : IVec S16 32) (v455 : IVec S16 32) (k0_hw44 : k0_chk44 v411 v455), ∀ a x, ((![v455, v411] : Fin 2 → IVec S16 32) a x).toNat < S200x256.size a := fun v411 v455 k0_hw44 => k0_hw44

def k0_chk45 (v411 : IVec S16 32) (v456 : IVec S16 32) : Prop :=
  (∀ a x, ((![v456, v411] : Fin 2 → IVec S16 32) a x).toNat < S200x256.size a)
instance k0_chk45.dec : ∀ (v411 : IVec S16 32) (v456 : IVec S16 32), Decidable (k0_chk45 v411 v456) := fun v411 v456 => decidable_of_iff' _ (Iff.of_eq (k0_chk45.eq_1 v411 v456))
theorem k0_idx45_inb : ∀ (v411 : IVec S16 32) (v456 : IVec S16 32) (k0_hw45 : k0_chk45 v411 v456), ∀ a x, ((![v456, v411] : Fin 2 → IVec S16 32) a x).toNat < S200x256.size a := fun v411 v456 k0_hw45 => k0_hw45

def k0_chk46 (v411 : IVec S16 32) (v457 : IVec S16 32) : Prop :=
  (∀ a x, ((![v457, v411] : Fin 2 → IVec S16 32) a x).toNat < S200x256.size a)
instance k0_chk46.dec : ∀ (v411 : IVec S16 32) (v457 : IVec S16 32), Decidable (k0_chk46 v411 v457) := fun v411 v457 => decidable_of_iff' _ (Iff.of_eq (k0_chk46.eq_1 v411 v457))
theorem k0_idx46_inb : ∀ (v411 : IVec S16 32) (v457 : IVec S16 32) (k0_hw46 : k0_chk46 v411 v457), ∀ a x, ((![v457, v411] : Fin 2 → IVec S16 32) a x).toNat < S200x256.size a := fun v411 v457 k0_hw46 => k0_hw46

def k0_chk47 (v411 : IVec S16 32) (v458 : IVec S16 32) : Prop :=
  (∀ a x, ((![v458, v411] : Fin 2 → IVec S16 32) a x).toNat < S200x256.size a)
instance k0_chk47.dec : ∀ (v411 : IVec S16 32) (v458 : IVec S16 32), Decidable (k0_chk47 v411 v458) := fun v411 v458 => decidable_of_iff' _ (Iff.of_eq (k0_chk47.eq_1 v411 v458))
theorem k0_idx47_inb : ∀ (v411 : IVec S16 32) (v458 : IVec S16 32) (k0_hw47 : k0_chk47 v411 v458), ∀ a x, ((![v458, v411] : Fin 2 → IVec S16 32) a x).toNat < S200x256.size a := fun v411 v458 k0_hw47 => k0_hw47

def k0_chk48 (v411 : IVec S16 32) (v459 : IVec S16 32) : Prop :=
  (∀ a x, ((![v459, v411] : Fin 2 → IVec S16 32) a x).toNat < S200x256.size a)
instance k0_chk48.dec : ∀ (v411 : IVec S16 32) (v459 : IVec S16 32), Decidable (k0_chk48 v411 v459) := fun v411 v459 => decidable_of_iff' _ (Iff.of_eq (k0_chk48.eq_1 v411 v459))
theorem k0_idx48_inb : ∀ (v411 : IVec S16 32) (v459 : IVec S16 32) (k0_hw48 : k0_chk48 v411 v459), ∀ a x, ((![v459, v411] : Fin 2 → IVec S16 32) a x).toNat < S200x256.size a := fun v411 v459 k0_hw48 => k0_hw48

def k0_chk49 (v411 : IVec S16 32) (v460 : IVec S16 32) : Prop :=
  (∀ a x, ((![v460, v411] : Fin 2 → IVec S16 32) a x).toNat < S200x256.size a)
instance k0_chk49.dec : ∀ (v411 : IVec S16 32) (v460 : IVec S16 32), Decidable (k0_chk49 v411 v460) := fun v411 v460 => decidable_of_iff' _ (Iff.of_eq (k0_chk49.eq_1 v411 v460))
theorem k0_idx49_inb : ∀ (v411 : IVec S16 32) (v460 : IVec S16 32) (k0_hw49 : k0_chk49 v411 v460), ∀ a x, ((![v460, v411] : Fin 2 → IVec S16 32) a x).toNat < S200x256.size a := fun v411 v460 k0_hw49 => k0_hw49

def k0_chk50 (v411 : IVec S16 32) (v461 : IVec S16 32) : Prop :=
  (∀ a x, ((![v461, v411] : Fin 2 → IVec S16 32) a x).toNat < S200x256.size a)
instance k0_chk50.dec : ∀ (v411 : IVec S16 32) (v461 : IVec S16 32), Decidable (k0_chk50 v411 v461) := fun v411 v461 => decidable_of_iff' _ (Iff.of_eq (k0_chk50.eq_1 v411 v461))
theorem k0_idx50_inb : ∀ (v411 : IVec S16 32) (v461 : IVec S16 32) (k0_hw50 : k0_chk50 v411 v461), ∀ a x, ((![v461, v411] : Fin 2 → IVec S16 32) a x).toNat < S200x256.size a := fun v411 v461 k0_hw50 => k0_hw50

def k0_chk51 (v411 : IVec S16 32) (v462 : IVec S16 32) : Prop :=
  (∀ a x, ((![v462, v411] : Fin 2 → IVec S16 32) a x).toNat < S200x256.size a)
instance k0_chk51.dec : ∀ (v411 : IVec S16 32) (v462 : IVec S16 32), Decidable (k0_chk51 v411 v462) := fun v411 v462 => decidable_of_iff' _ (Iff.of_eq (k0_chk51.eq_1 v411 v462))
theorem k0_idx51_inb : ∀ (v411 : IVec S16 32) (v462 : IVec S16 32) (k0_hw51 : k0_chk51 v411 v462), ∀ a x, ((![v462, v411] : Fin 2 → IVec S16 32) a x).toNat < S200x256.size a := fun v411 v462 k0_hw51 => k0_hw51

def k0_chk52 (v411 : IVec S16 32) (v463 : IVec S16 32) : Prop :=
  (∀ a x, ((![v463, v411] : Fin 2 → IVec S16 32) a x).toNat < S200x256.size a)
instance k0_chk52.dec : ∀ (v411 : IVec S16 32) (v463 : IVec S16 32), Decidable (k0_chk52 v411 v463) := fun v411 v463 => decidable_of_iff' _ (Iff.of_eq (k0_chk52.eq_1 v411 v463))
theorem k0_idx52_inb : ∀ (v411 : IVec S16 32) (v463 : IVec S16 32) (k0_hw52 : k0_chk52 v411 v463), ∀ a x, ((![v463, v411] : Fin 2 → IVec S16 32) a x).toNat < S200x256.size a := fun v411 v463 k0_hw52 => k0_hw52

def k0_chk53 (v411 : IVec S16 32) (v464 : IVec S16 32) : Prop :=
  (∀ a x, ((![v464, v411] : Fin 2 → IVec S16 32) a x).toNat < S200x256.size a)
instance k0_chk53.dec : ∀ (v411 : IVec S16 32) (v464 : IVec S16 32), Decidable (k0_chk53 v411 v464) := fun v411 v464 => decidable_of_iff' _ (Iff.of_eq (k0_chk53.eq_1 v411 v464))
theorem k0_idx53_inb : ∀ (v411 : IVec S16 32) (v464 : IVec S16 32) (k0_hw53 : k0_chk53 v411 v464), ∀ a x, ((![v464, v411] : Fin 2 → IVec S16 32) a x).toNat < S200x256.size a := fun v411 v464 k0_hw53 => k0_hw53

def k0_chk54 (v411 : IVec S16 32) (v465 : IVec S16 32) : Prop :=
  (∀ a x, ((![v465, v411] : Fin 2 → IVec S16 32) a x).toNat < S200x256.size a)
instance k0_chk54.dec : ∀ (v411 : IVec S16 32) (v465 : IVec S16 32), Decidable (k0_chk54 v411 v465) := fun v411 v465 => decidable_of_iff' _ (Iff.of_eq (k0_chk54.eq_1 v411 v465))
theorem k0_idx54_inb : ∀ (v411 : IVec S16 32) (v465 : IVec S16 32) (k0_hw54 : k0_chk54 v411 v465), ∀ a x, ((![v465, v411] : Fin 2 → IVec S16 32) a x).toNat < S200x256.size a := fun v411 v465 k0_hw54 => k0_hw54

def k0_chk55 (v411 : IVec S16 32) (v466 : IVec S16 32) : Prop :=
  (∀ a x, ((![v466, v411] : Fin 2 → IVec S16 32) a x).toNat < S200x256.size a)
instance k0_chk55.dec : ∀ (v411 : IVec S16 32) (v466 : IVec S16 32), Decidable (k0_chk55 v411 v466) := fun v411 v466 => decidable_of_iff' _ (Iff.of_eq (k0_chk55.eq_1 v411 v466))
theorem k0_idx55_inb : ∀ (v411 : IVec S16 32) (v466 : IVec S16 32) (k0_hw55 : k0_chk55 v411 v466), ∀ a x, ((![v466, v411] : Fin 2 → IVec S16 32) a x).toNat < S200x256.size a := fun v411 v466 k0_hw55 => k0_hw55

def k0_chk56 (v411 : IVec S16 32) (v467 : IVec S16 32) : Prop :=
  (∀ a x, ((![v467, v411] : Fin 2 → IVec S16 32) a x).toNat < S200x256.size a)
instance k0_chk56.dec : ∀ (v411 : IVec S16 32) (v467 : IVec S16 32), Decidable (k0_chk56 v411 v467) := fun v411 v467 => decidable_of_iff' _ (Iff.of_eq (k0_chk56.eq_1 v411 v467))
theorem k0_idx56_inb : ∀ (v411 : IVec S16 32) (v467 : IVec S16 32) (k0_hw56 : k0_chk56 v411 v467), ∀ a x, ((![v467, v411] : Fin 2 → IVec S16 32) a x).toNat < S200x256.size a := fun v411 v467 k0_hw56 => k0_hw56

def k0_chk57 (v411 : IVec S16 32) (v468 : IVec S16 32) : Prop :=
  (∀ a x, ((![v468, v411] : Fin 2 → IVec S16 32) a x).toNat < S200x256.size a)
instance k0_chk57.dec : ∀ (v411 : IVec S16 32) (v468 : IVec S16 32), Decidable (k0_chk57 v411 v468) := fun v411 v468 => decidable_of_iff' _ (Iff.of_eq (k0_chk57.eq_1 v411 v468))
theorem k0_idx57_inb : ∀ (v411 : IVec S16 32) (v468 : IVec S16 32) (k0_hw57 : k0_chk57 v411 v468), ∀ a x, ((![v468, v411] : Fin 2 → IVec S16 32) a x).toNat < S200x256.size a := fun v411 v468 k0_hw57 => k0_hw57

def k0_chk58 (v411 : IVec S16 32) (v469 : IVec S16 32) : Prop :=
  (∀ a x, ((![v469, v411] : Fin 2 → IVec S16 32) a x).toNat < S200x256.size a)
instance k0_chk58.dec : ∀ (v411 : IVec S16 32) (v469 : IVec S16 32), Decidable (k0_chk58 v411 v469) := fun v411 v469 => decidable_of_iff' _ (Iff.of_eq (k0_chk58.eq_1 v411 v469))
theorem k0_idx58_inb : ∀ (v411 : IVec S16 32) (v469 : IVec S16 32) (k0_hw58 : k0_chk58 v411 v469), ∀ a x, ((![v469, v411] : Fin 2 → IVec S16 32) a x).toNat < S200x256.size a := fun v411 v469 k0_hw58 => k0_hw58

def k0_chk59 (v411 : IVec S16 32) (v470 : IVec S16 32) : Prop :=
  (∀ a x, ((![v470, v411] : Fin 2 → IVec S16 32) a x).toNat < S200x256.size a)
instance k0_chk59.dec : ∀ (v411 : IVec S16 32) (v470 : IVec S16 32), Decidable (k0_chk59 v411 v470) := fun v411 v470 => decidable_of_iff' _ (Iff.of_eq (k0_chk59.eq_1 v411 v470))
theorem k0_idx59_inb : ∀ (v411 : IVec S16 32) (v470 : IVec S16 32) (k0_hw59 : k0_chk59 v411 v470), ∀ a x, ((![v470, v411] : Fin 2 → IVec S16 32) a x).toNat < S200x256.size a := fun v411 v470 k0_hw59 => k0_hw59

def k0_chk60 (v411 : IVec S16 32) (v471 : IVec S16 32) : Prop :=
  (∀ a x, ((![v471, v411] : Fin 2 → IVec S16 32) a x).toNat < S200x256.size a)
instance k0_chk60.dec : ∀ (v411 : IVec S16 32) (v471 : IVec S16 32), Decidable (k0_chk60 v411 v471) := fun v411 v471 => decidable_of_iff' _ (Iff.of_eq (k0_chk60.eq_1 v411 v471))
theorem k0_idx60_inb : ∀ (v411 : IVec S16 32) (v471 : IVec S16 32) (k0_hw60 : k0_chk60 v411 v471), ∀ a x, ((![v471, v411] : Fin 2 → IVec S16 32) a x).toNat < S200x256.size a := fun v411 v471 k0_hw60 => k0_hw60

def k0_chk61 (v411 : IVec S16 32) (v472 : IVec S16 32) : Prop :=
  (∀ a x, ((![v472, v411] : Fin 2 → IVec S16 32) a x).toNat < S200x256.size a)
instance k0_chk61.dec : ∀ (v411 : IVec S16 32) (v472 : IVec S16 32), Decidable (k0_chk61 v411 v472) := fun v411 v472 => decidable_of_iff' _ (Iff.of_eq (k0_chk61.eq_1 v411 v472))
theorem k0_idx61_inb : ∀ (v411 : IVec S16 32) (v472 : IVec S16 32) (k0_hw61 : k0_chk61 v411 v472), ∀ a x, ((![v472, v411] : Fin 2 → IVec S16 32) a x).toNat < S200x256.size a := fun v411 v472 k0_hw61 => k0_hw61

def k0_chk62 (v411 : IVec S16 32) (v473 : IVec S16 32) : Prop :=
  (∀ a x, ((![v473, v411] : Fin 2 → IVec S16 32) a x).toNat < S200x256.size a)
instance k0_chk62.dec : ∀ (v411 : IVec S16 32) (v473 : IVec S16 32), Decidable (k0_chk62 v411 v473) := fun v411 v473 => decidable_of_iff' _ (Iff.of_eq (k0_chk62.eq_1 v411 v473))
theorem k0_idx62_inb : ∀ (v411 : IVec S16 32) (v473 : IVec S16 32) (k0_hw62 : k0_chk62 v411 v473), ∀ a x, ((![v473, v411] : Fin 2 → IVec S16 32) a x).toNat < S200x256.size a := fun v411 v473 k0_hw62 => k0_hw62

def k0_chk63 (v411 : IVec S16 32) (v474 : IVec S16 32) : Prop :=
  (∀ a x, ((![v474, v411] : Fin 2 → IVec S16 32) a x).toNat < S200x256.size a)
instance k0_chk63.dec : ∀ (v411 : IVec S16 32) (v474 : IVec S16 32), Decidable (k0_chk63 v411 v474) := fun v411 v474 => decidable_of_iff' _ (Iff.of_eq (k0_chk63.eq_1 v411 v474))
theorem k0_idx63_inb : ∀ (v411 : IVec S16 32) (v474 : IVec S16 32) (k0_hw63 : k0_chk63 v411 v474), ∀ a x, ((![v474, v411] : Fin 2 → IVec S16 32) a x).toNat < S200x256.size a := fun v411 v474 k0_hw63 => k0_hw63

def k0_chk64 (v411 : IVec S16 32) (v475 : IVec S16 32) : Prop :=
  (∀ a x, ((![v475, v411] : Fin 2 → IVec S16 32) a x).toNat < S200x256.size a)
instance k0_chk64.dec : ∀ (v411 : IVec S16 32) (v475 : IVec S16 32), Decidable (k0_chk64 v411 v475) := fun v411 v475 => decidable_of_iff' _ (Iff.of_eq (k0_chk64.eq_1 v411 v475))
theorem k0_idx64_inb : ∀ (v411 : IVec S16 32) (v475 : IVec S16 32) (k0_hw64 : k0_chk64 v411 v475), ∀ a x, ((![v475, v411] : Fin 2 → IVec S16 32) a x).toNat < S200x256.size a := fun v411 v475 k0_hw64 => k0_hw64

def k0_chk65 (v411 : IVec S16 32) (v476 : IVec S16 32) : Prop :=
  (∀ a x, ((![v476, v411] : Fin 2 → IVec S16 32) a x).toNat < S200x256.size a)
instance k0_chk65.dec : ∀ (v411 : IVec S16 32) (v476 : IVec S16 32), Decidable (k0_chk65 v411 v476) := fun v411 v476 => decidable_of_iff' _ (Iff.of_eq (k0_chk65.eq_1 v411 v476))
theorem k0_idx65_inb : ∀ (v411 : IVec S16 32) (v476 : IVec S16 32) (k0_hw65 : k0_chk65 v411 v476), ∀ a x, ((![v476, v411] : Fin 2 → IVec S16 32) a x).toNat < S200x256.size a := fun v411 v476 k0_hw65 => k0_hw65

def k0_chk66 (v411 : IVec S16 32) (v477 : IVec S16 32) : Prop :=
  (∀ a x, ((![v477, v411] : Fin 2 → IVec S16 32) a x).toNat < S200x256.size a)
instance k0_chk66.dec : ∀ (v411 : IVec S16 32) (v477 : IVec S16 32), Decidable (k0_chk66 v411 v477) := fun v411 v477 => decidable_of_iff' _ (Iff.of_eq (k0_chk66.eq_1 v411 v477))
theorem k0_idx66_inb : ∀ (v411 : IVec S16 32) (v477 : IVec S16 32) (k0_hw66 : k0_chk66 v411 v477), ∀ a x, ((![v477, v411] : Fin 2 → IVec S16 32) a x).toNat < S200x256.size a := fun v411 v477 k0_hw66 => k0_hw66

def k0_chk67 (v411 : IVec S16 32) (v478 : IVec S16 32) : Prop :=
  (∀ a x, ((![v478, v411] : Fin 2 → IVec S16 32) a x).toNat < S200x256.size a)
instance k0_chk67.dec : ∀ (v411 : IVec S16 32) (v478 : IVec S16 32), Decidable (k0_chk67 v411 v478) := fun v411 v478 => decidable_of_iff' _ (Iff.of_eq (k0_chk67.eq_1 v411 v478))
theorem k0_idx67_inb : ∀ (v411 : IVec S16 32) (v478 : IVec S16 32) (k0_hw67 : k0_chk67 v411 v478), ∀ a x, ((![v478, v411] : Fin 2 → IVec S16 32) a x).toNat < S200x256.size a := fun v411 v478 k0_hw67 => k0_hw67

def k0_chk68 (v411 : IVec S16 32) (v479 : IVec S16 32) : Prop :=
  (∀ a x, ((![v479, v411] : Fin 2 → IVec S16 32) a x).toNat < S200x256.size a)
instance k0_chk68.dec : ∀ (v411 : IVec S16 32) (v479 : IVec S16 32), Decidable (k0_chk68 v411 v479) := fun v411 v479 => decidable_of_iff' _ (Iff.of_eq (k0_chk68.eq_1 v411 v479))
theorem k0_idx68_inb : ∀ (v411 : IVec S16 32) (v479 : IVec S16 32) (k0_hw68 : k0_chk68 v411 v479), ∀ a x, ((![v479, v411] : Fin 2 → IVec S16 32) a x).toNat < S200x256.size a := fun v411 v479 k0_hw68 => k0_hw68

def k0_chk69 (v411 : IVec S16 32) (v480 : IVec S16 32) : Prop :=
  (∀ a x, ((![v480, v411] : Fin 2 → IVec S16 32) a x).toNat < S200x256.size a)
instance k0_chk69.dec : ∀ (v411 : IVec S16 32) (v480 : IVec S16 32), Decidable (k0_chk69 v411 v480) := fun v411 v480 => decidable_of_iff' _ (Iff.of_eq (k0_chk69.eq_1 v411 v480))
theorem k0_idx69_inb : ∀ (v411 : IVec S16 32) (v480 : IVec S16 32) (k0_hw69 : k0_chk69 v411 v480), ∀ a x, ((![v480, v411] : Fin 2 → IVec S16 32) a x).toNat < S200x256.size a := fun v411 v480 k0_hw69 => k0_hw69

def k0_chk70 (v411 : IVec S16 32) (v481 : IVec S16 32) : Prop :=
  (∀ a x, ((![v481, v411] : Fin 2 → IVec S16 32) a x).toNat < S200x256.size a)
instance k0_chk70.dec : ∀ (v411 : IVec S16 32) (v481 : IVec S16 32), Decidable (k0_chk70 v411 v481) := fun v411 v481 => decidable_of_iff' _ (Iff.of_eq (k0_chk70.eq_1 v411 v481))
theorem k0_idx70_inb : ∀ (v411 : IVec S16 32) (v481 : IVec S16 32) (k0_hw70 : k0_chk70 v411 v481), ∀ a x, ((![v481, v411] : Fin 2 → IVec S16 32) a x).toNat < S200x256.size a := fun v411 v481 k0_hw70 => k0_hw70

def k0_chk71 (v411 : IVec S16 32) (v482 : IVec S16 32) : Prop :=
  (∀ a x, ((![v482, v411] : Fin 2 → IVec S16 32) a x).toNat < S200x256.size a)
instance k0_chk71.dec : ∀ (v411 : IVec S16 32) (v482 : IVec S16 32), Decidable (k0_chk71 v411 v482) := fun v411 v482 => decidable_of_iff' _ (Iff.of_eq (k0_chk71.eq_1 v411 v482))
theorem k0_idx71_inb : ∀ (v411 : IVec S16 32) (v482 : IVec S16 32) (k0_hw71 : k0_chk71 v411 v482), ∀ a x, ((![v482, v411] : Fin 2 → IVec S16 32) a x).toNat < S200x256.size a := fun v411 v482 k0_hw71 => k0_hw71

def k0_chk72 (v411 : IVec S16 32) (v483 : IVec S16 32) : Prop :=
  (∀ a x, ((![v483, v411] : Fin 2 → IVec S16 32) a x).toNat < S200x256.size a)
instance k0_chk72.dec : ∀ (v411 : IVec S16 32) (v483 : IVec S16 32), Decidable (k0_chk72 v411 v483) := fun v411 v483 => decidable_of_iff' _ (Iff.of_eq (k0_chk72.eq_1 v411 v483))
theorem k0_idx72_inb : ∀ (v411 : IVec S16 32) (v483 : IVec S16 32) (k0_hw72 : k0_chk72 v411 v483), ∀ a x, ((![v483, v411] : Fin 2 → IVec S16 32) a x).toNat < S200x256.size a := fun v411 v483 k0_hw72 => k0_hw72

def k0_chk73 (v411 : IVec S16 32) (v484 : IVec S16 32) : Prop :=
  (∀ a x, ((![v484, v411] : Fin 2 → IVec S16 32) a x).toNat < S200x256.size a)
instance k0_chk73.dec : ∀ (v411 : IVec S16 32) (v484 : IVec S16 32), Decidable (k0_chk73 v411 v484) := fun v411 v484 => decidable_of_iff' _ (Iff.of_eq (k0_chk73.eq_1 v411 v484))
theorem k0_idx73_inb : ∀ (v411 : IVec S16 32) (v484 : IVec S16 32) (k0_hw73 : k0_chk73 v411 v484), ∀ a x, ((![v484, v411] : Fin 2 → IVec S16 32) a x).toNat < S200x256.size a := fun v411 v484 k0_hw73 => k0_hw73

def k0_chk74 (v411 : IVec S16 32) (v485 : IVec S16 32) : Prop :=
  (∀ a x, ((![v485, v411] : Fin 2 → IVec S16 32) a x).toNat < S200x256.size a)
instance k0_chk74.dec : ∀ (v411 : IVec S16 32) (v485 : IVec S16 32), Decidable (k0_chk74 v411 v485) := fun v411 v485 => decidable_of_iff' _ (Iff.of_eq (k0_chk74.eq_1 v411 v485))
theorem k0_idx74_inb : ∀ (v411 : IVec S16 32) (v485 : IVec S16 32) (k0_hw74 : k0_chk74 v411 v485), ∀ a x, ((![v485, v411] : Fin 2 → IVec S16 32) a x).toNat < S200x256.size a := fun v411 v485 k0_hw74 => k0_hw74

def k0_chk75 (v411 : IVec S16 32) (v486 : IVec S16 32) : Prop :=
  (∀ a x, ((![v486, v411] : Fin 2 → IVec S16 32) a x).toNat < S200x256.size a)
instance k0_chk75.dec : ∀ (v411 : IVec S16 32) (v486 : IVec S16 32), Decidable (k0_chk75 v411 v486) := fun v411 v486 => decidable_of_iff' _ (Iff.of_eq (k0_chk75.eq_1 v411 v486))
theorem k0_idx75_inb : ∀ (v411 : IVec S16 32) (v486 : IVec S16 32) (k0_hw75 : k0_chk75 v411 v486), ∀ a x, ((![v486, v411] : Fin 2 → IVec S16 32) a x).toNat < S200x256.size a := fun v411 v486 k0_hw75 => k0_hw75

def k0_chk76 (v411 : IVec S16 32) (v487 : IVec S16 32) : Prop :=
  (∀ a x, ((![v487, v411] : Fin 2 → IVec S16 32) a x).toNat < S200x256.size a)
instance k0_chk76.dec : ∀ (v411 : IVec S16 32) (v487 : IVec S16 32), Decidable (k0_chk76 v411 v487) := fun v411 v487 => decidable_of_iff' _ (Iff.of_eq (k0_chk76.eq_1 v411 v487))
theorem k0_idx76_inb : ∀ (v411 : IVec S16 32) (v487 : IVec S16 32) (k0_hw76 : k0_chk76 v411 v487), ∀ a x, ((![v487, v411] : Fin 2 → IVec S16 32) a x).toNat < S200x256.size a := fun v411 v487 k0_hw76 => k0_hw76

def k0_chk77 (v411 : IVec S16 32) (v488 : IVec S16 32) : Prop :=
  (∀ a x, ((![v488, v411] : Fin 2 → IVec S16 32) a x).toNat < S200x256.size a)
instance k0_chk77.dec : ∀ (v411 : IVec S16 32) (v488 : IVec S16 32), Decidable (k0_chk77 v411 v488) := fun v411 v488 => decidable_of_iff' _ (Iff.of_eq (k0_chk77.eq_1 v411 v488))
theorem k0_idx77_inb : ∀ (v411 : IVec S16 32) (v488 : IVec S16 32) (k0_hw77 : k0_chk77 v411 v488), ∀ a x, ((![v488, v411] : Fin 2 → IVec S16 32) a x).toNat < S200x256.size a := fun v411 v488 k0_hw77 => k0_hw77

def k0_chk78 (v411 : IVec S16 32) (v489 : IVec S16 32) : Prop :=
  (∀ a x, ((![v489, v411] : Fin 2 → IVec S16 32) a x).toNat < S200x256.size a)
instance k0_chk78.dec : ∀ (v411 : IVec S16 32) (v489 : IVec S16 32), Decidable (k0_chk78 v411 v489) := fun v411 v489 => decidable_of_iff' _ (Iff.of_eq (k0_chk78.eq_1 v411 v489))
theorem k0_idx78_inb : ∀ (v411 : IVec S16 32) (v489 : IVec S16 32) (k0_hw78 : k0_chk78 v411 v489), ∀ a x, ((![v489, v411] : Fin 2 → IVec S16 32) a x).toNat < S200x256.size a := fun v411 v489 k0_hw78 => k0_hw78

def k0_chk79 (v411 : IVec S16 32) (v490 : IVec S16 32) : Prop :=
  (∀ a x, ((![v490, v411] : Fin 2 → IVec S16 32) a x).toNat < S200x256.size a)
instance k0_chk79.dec : ∀ (v411 : IVec S16 32) (v490 : IVec S16 32), Decidable (k0_chk79 v411 v490) := fun v411 v490 => decidable_of_iff' _ (Iff.of_eq (k0_chk79.eq_1 v411 v490))
theorem k0_idx79_inb : ∀ (v411 : IVec S16 32) (v490 : IVec S16 32) (k0_hw79 : k0_chk79 v411 v490), ∀ a x, ((![v490, v411] : Fin 2 → IVec S16 32) a x).toNat < S200x256.size a := fun v411 v490 k0_hw79 => k0_hw79

def k0_chk80 (v411 : IVec S16 32) (v491 : IVec S16 32) : Prop :=
  (∀ a x, ((![v491, v411] : Fin 2 → IVec S16 32) a x).toNat < S200x256.size a)
instance k0_chk80.dec : ∀ (v411 : IVec S16 32) (v491 : IVec S16 32), Decidable (k0_chk80 v411 v491) := fun v411 v491 => decidable_of_iff' _ (Iff.of_eq (k0_chk80.eq_1 v411 v491))
theorem k0_idx80_inb : ∀ (v411 : IVec S16 32) (v491 : IVec S16 32) (k0_hw80 : k0_chk80 v411 v491), ∀ a x, ((![v491, v411] : Fin 2 → IVec S16 32) a x).toNat < S200x256.size a := fun v411 v491 k0_hw80 => k0_hw80

def k0_chk81 (v411 : IVec S16 32) (v492 : IVec S16 32) : Prop :=
  (∀ a x, ((![v492, v411] : Fin 2 → IVec S16 32) a x).toNat < S200x256.size a)
instance k0_chk81.dec : ∀ (v411 : IVec S16 32) (v492 : IVec S16 32), Decidable (k0_chk81 v411 v492) := fun v411 v492 => decidable_of_iff' _ (Iff.of_eq (k0_chk81.eq_1 v411 v492))
theorem k0_idx81_inb : ∀ (v411 : IVec S16 32) (v492 : IVec S16 32) (k0_hw81 : k0_chk81 v411 v492), ∀ a x, ((![v492, v411] : Fin 2 → IVec S16 32) a x).toNat < S200x256.size a := fun v411 v492 k0_hw81 => k0_hw81

def k0_chk82 (v411 : IVec S16 32) (v493 : IVec S16 32) : Prop :=
  (∀ a x, ((![v493, v411] : Fin 2 → IVec S16 32) a x).toNat < S200x256.size a)
instance k0_chk82.dec : ∀ (v411 : IVec S16 32) (v493 : IVec S16 32), Decidable (k0_chk82 v411 v493) := fun v411 v493 => decidable_of_iff' _ (Iff.of_eq (k0_chk82.eq_1 v411 v493))
theorem k0_idx82_inb : ∀ (v411 : IVec S16 32) (v493 : IVec S16 32) (k0_hw82 : k0_chk82 v411 v493), ∀ a x, ((![v493, v411] : Fin 2 → IVec S16 32) a x).toNat < S200x256.size a := fun v411 v493 k0_hw82 => k0_hw82

def k0_chk83 (v411 : IVec S16 32) (v494 : IVec S16 32) : Prop :=
  (∀ a x, ((![v494, v411] : Fin 2 → IVec S16 32) a x).toNat < S200x256.size a)
instance k0_chk83.dec : ∀ (v411 : IVec S16 32) (v494 : IVec S16 32), Decidable (k0_chk83 v411 v494) := fun v411 v494 => decidable_of_iff' _ (Iff.of_eq (k0_chk83.eq_1 v411 v494))
theorem k0_idx83_inb : ∀ (v411 : IVec S16 32) (v494 : IVec S16 32) (k0_hw83 : k0_chk83 v411 v494), ∀ a x, ((![v494, v411] : Fin 2 → IVec S16 32) a x).toNat < S200x256.size a := fun v411 v494 k0_hw83 => k0_hw83

def k0_chk84 (v411 : IVec S16 32) (v495 : IVec S16 32) : Prop :=
  (∀ a x, ((![v495, v411] : Fin 2 → IVec S16 32) a x).toNat < S200x256.size a)
instance k0_chk84.dec : ∀ (v411 : IVec S16 32) (v495 : IVec S16 32), Decidable (k0_chk84 v411 v495) := fun v411 v495 => decidable_of_iff' _ (Iff.of_eq (k0_chk84.eq_1 v411 v495))
theorem k0_idx84_inb : ∀ (v411 : IVec S16 32) (v495 : IVec S16 32) (k0_hw84 : k0_chk84 v411 v495), ∀ a x, ((![v495, v411] : Fin 2 → IVec S16 32) a x).toNat < S200x256.size a := fun v411 v495 k0_hw84 => k0_hw84

def k0_chk85 (v411 : IVec S16 32) (v496 : IVec S16 32) : Prop :=
  (∀ a x, ((![v496, v411] : Fin 2 → IVec S16 32) a x).toNat < S200x256.size a)
instance k0_chk85.dec : ∀ (v411 : IVec S16 32) (v496 : IVec S16 32), Decidable (k0_chk85 v411 v496) := fun v411 v496 => decidable_of_iff' _ (Iff.of_eq (k0_chk85.eq_1 v411 v496))
theorem k0_idx85_inb : ∀ (v411 : IVec S16 32) (v496 : IVec S16 32) (k0_hw85 : k0_chk85 v411 v496), ∀ a x, ((![v496, v411] : Fin 2 → IVec S16 32) a x).toNat < S200x256.size a := fun v411 v496 k0_hw85 => k0_hw85

def k0_chk86 (v411 : IVec S16 32) (v497 : IVec S16 32) : Prop :=
  (∀ a x, ((![v497, v411] : Fin 2 → IVec S16 32) a x).toNat < S200x256.size a)
instance k0_chk86.dec : ∀ (v411 : IVec S16 32) (v497 : IVec S16 32), Decidable (k0_chk86 v411 v497) := fun v411 v497 => decidable_of_iff' _ (Iff.of_eq (k0_chk86.eq_1 v411 v497))
theorem k0_idx86_inb : ∀ (v411 : IVec S16 32) (v497 : IVec S16 32) (k0_hw86 : k0_chk86 v411 v497), ∀ a x, ((![v497, v411] : Fin 2 → IVec S16 32) a x).toNat < S200x256.size a := fun v411 v497 k0_hw86 => k0_hw86

def k0_chk87 (v411 : IVec S16 32) (v498 : IVec S16 32) : Prop :=
  (∀ a x, ((![v498, v411] : Fin 2 → IVec S16 32) a x).toNat < S200x256.size a)
instance k0_chk87.dec : ∀ (v411 : IVec S16 32) (v498 : IVec S16 32), Decidable (k0_chk87 v411 v498) := fun v411 v498 => decidable_of_iff' _ (Iff.of_eq (k0_chk87.eq_1 v411 v498))
theorem k0_idx87_inb : ∀ (v411 : IVec S16 32) (v498 : IVec S16 32) (k0_hw87 : k0_chk87 v411 v498), ∀ a x, ((![v498, v411] : Fin 2 → IVec S16 32) a x).toNat < S200x256.size a := fun v411 v498 k0_hw87 => k0_hw87

def k0_chk88 (v411 : IVec S16 32) (v499 : IVec S16 32) : Prop :=
  (∀ a x, ((![v499, v411] : Fin 2 → IVec S16 32) a x).toNat < S200x256.size a)
instance k0_chk88.dec : ∀ (v411 : IVec S16 32) (v499 : IVec S16 32), Decidable (k0_chk88 v411 v499) := fun v411 v499 => decidable_of_iff' _ (Iff.of_eq (k0_chk88.eq_1 v411 v499))
theorem k0_idx88_inb : ∀ (v411 : IVec S16 32) (v499 : IVec S16 32) (k0_hw88 : k0_chk88 v411 v499), ∀ a x, ((![v499, v411] : Fin 2 → IVec S16 32) a x).toNat < S200x256.size a := fun v411 v499 k0_hw88 => k0_hw88

def k0_chk89 (v411 : IVec S16 32) (v500 : IVec S16 32) : Prop :=
  (∀ a x, ((![v500, v411] : Fin 2 → IVec S16 32) a x).toNat < S200x256.size a)
instance k0_chk89.dec : ∀ (v411 : IVec S16 32) (v500 : IVec S16 32), Decidable (k0_chk89 v411 v500) := fun v411 v500 => decidable_of_iff' _ (Iff.of_eq (k0_chk89.eq_1 v411 v500))
theorem k0_idx89_inb : ∀ (v411 : IVec S16 32) (v500 : IVec S16 32) (k0_hw89 : k0_chk89 v411 v500), ∀ a x, ((![v500, v411] : Fin 2 → IVec S16 32) a x).toNat < S200x256.size a := fun v411 v500 k0_hw89 => k0_hw89

def k0_chk90 (v411 : IVec S16 32) (v501 : IVec S16 32) : Prop :=
  (∀ a x, ((![v501, v411] : Fin 2 → IVec S16 32) a x).toNat < S200x256.size a)
instance k0_chk90.dec : ∀ (v411 : IVec S16 32) (v501 : IVec S16 32), Decidable (k0_chk90 v411 v501) := fun v411 v501 => decidable_of_iff' _ (Iff.of_eq (k0_chk90.eq_1 v411 v501))
theorem k0_idx90_inb : ∀ (v411 : IVec S16 32) (v501 : IVec S16 32) (k0_hw90 : k0_chk90 v411 v501), ∀ a x, ((![v501, v411] : Fin 2 → IVec S16 32) a x).toNat < S200x256.size a := fun v411 v501 k0_hw90 => k0_hw90

def k0_chk91 (v411 : IVec S16 32) (v502 : IVec S16 32) : Prop :=
  (∀ a x, ((![v502, v411] : Fin 2 → IVec S16 32) a x).toNat < S200x256.size a)
instance k0_chk91.dec : ∀ (v411 : IVec S16 32) (v502 : IVec S16 32), Decidable (k0_chk91 v411 v502) := fun v411 v502 => decidable_of_iff' _ (Iff.of_eq (k0_chk91.eq_1 v411 v502))
theorem k0_idx91_inb : ∀ (v411 : IVec S16 32) (v502 : IVec S16 32) (k0_hw91 : k0_chk91 v411 v502), ∀ a x, ((![v502, v411] : Fin 2 → IVec S16 32) a x).toNat < S200x256.size a := fun v411 v502 k0_hw91 => k0_hw91

def k0_chk92 (v411 : IVec S16 32) (v503 : IVec S16 32) : Prop :=
  (∀ a x, ((![v503, v411] : Fin 2 → IVec S16 32) a x).toNat < S200x256.size a)
instance k0_chk92.dec : ∀ (v411 : IVec S16 32) (v503 : IVec S16 32), Decidable (k0_chk92 v411 v503) := fun v411 v503 => decidable_of_iff' _ (Iff.of_eq (k0_chk92.eq_1 v411 v503))
theorem k0_idx92_inb : ∀ (v411 : IVec S16 32) (v503 : IVec S16 32) (k0_hw92 : k0_chk92 v411 v503), ∀ a x, ((![v503, v411] : Fin 2 → IVec S16 32) a x).toNat < S200x256.size a := fun v411 v503 k0_hw92 => k0_hw92

def k0_chk93 (v411 : IVec S16 32) (v504 : IVec S16 32) : Prop :=
  (∀ a x, ((![v504, v411] : Fin 2 → IVec S16 32) a x).toNat < S200x256.size a)
instance k0_chk93.dec : ∀ (v411 : IVec S16 32) (v504 : IVec S16 32), Decidable (k0_chk93 v411 v504) := fun v411 v504 => decidable_of_iff' _ (Iff.of_eq (k0_chk93.eq_1 v411 v504))
theorem k0_idx93_inb : ∀ (v411 : IVec S16 32) (v504 : IVec S16 32) (k0_hw93 : k0_chk93 v411 v504), ∀ a x, ((![v504, v411] : Fin 2 → IVec S16 32) a x).toNat < S200x256.size a := fun v411 v504 k0_hw93 => k0_hw93

def k0_chk94 (v411 : IVec S16 32) (v505 : IVec S16 32) : Prop :=
  (∀ a x, ((![v505, v411] : Fin 2 → IVec S16 32) a x).toNat < S200x256.size a)
instance k0_chk94.dec : ∀ (v411 : IVec S16 32) (v505 : IVec S16 32), Decidable (k0_chk94 v411 v505) := fun v411 v505 => decidable_of_iff' _ (Iff.of_eq (k0_chk94.eq_1 v411 v505))
theorem k0_idx94_inb : ∀ (v411 : IVec S16 32) (v505 : IVec S16 32) (k0_hw94 : k0_chk94 v411 v505), ∀ a x, ((![v505, v411] : Fin 2 → IVec S16 32) a x).toNat < S200x256.size a := fun v411 v505 k0_hw94 => k0_hw94

def k0_chk95 (v411 : IVec S16 32) (v506 : IVec S16 32) : Prop :=
  (∀ a x, ((![v506, v411] : Fin 2 → IVec S16 32) a x).toNat < S200x256.size a)
instance k0_chk95.dec : ∀ (v411 : IVec S16 32) (v506 : IVec S16 32), Decidable (k0_chk95 v411 v506) := fun v411 v506 => decidable_of_iff' _ (Iff.of_eq (k0_chk95.eq_1 v411 v506))
theorem k0_idx95_inb : ∀ (v411 : IVec S16 32) (v506 : IVec S16 32) (k0_hw95 : k0_chk95 v411 v506), ∀ a x, ((![v506, v411] : Fin 2 → IVec S16 32) a x).toNat < S200x256.size a := fun v411 v506 k0_hw95 => k0_hw95

def k0_chk96 (v411 : IVec S16 32) (v507 : IVec S16 32) : Prop :=
  (∀ a x, ((![v507, v411] : Fin 2 → IVec S16 32) a x).toNat < S200x256.size a)
instance k0_chk96.dec : ∀ (v411 : IVec S16 32) (v507 : IVec S16 32), Decidable (k0_chk96 v411 v507) := fun v411 v507 => decidable_of_iff' _ (Iff.of_eq (k0_chk96.eq_1 v411 v507))
theorem k0_idx96_inb : ∀ (v411 : IVec S16 32) (v507 : IVec S16 32) (k0_hw96 : k0_chk96 v411 v507), ∀ a x, ((![v507, v411] : Fin 2 → IVec S16 32) a x).toNat < S200x256.size a := fun v411 v507 k0_hw96 => k0_hw96

def k0_chk97 (v411 : IVec S16 32) (v508 : IVec S16 32) : Prop :=
  (∀ a x, ((![v508, v411] : Fin 2 → IVec S16 32) a x).toNat < S200x256.size a)
instance k0_chk97.dec : ∀ (v411 : IVec S16 32) (v508 : IVec S16 32), Decidable (k0_chk97 v411 v508) := fun v411 v508 => decidable_of_iff' _ (Iff.of_eq (k0_chk97.eq_1 v411 v508))
theorem k0_idx97_inb : ∀ (v411 : IVec S16 32) (v508 : IVec S16 32) (k0_hw97 : k0_chk97 v411 v508), ∀ a x, ((![v508, v411] : Fin 2 → IVec S16 32) a x).toNat < S200x256.size a := fun v411 v508 k0_hw97 => k0_hw97

def k0_chk98 (v411 : IVec S16 32) (v509 : IVec S16 32) : Prop :=
  (∀ a x, ((![v509, v411] : Fin 2 → IVec S16 32) a x).toNat < S200x256.size a)
instance k0_chk98.dec : ∀ (v411 : IVec S16 32) (v509 : IVec S16 32), Decidable (k0_chk98 v411 v509) := fun v411 v509 => decidable_of_iff' _ (Iff.of_eq (k0_chk98.eq_1 v411 v509))
theorem k0_idx98_inb : ∀ (v411 : IVec S16 32) (v509 : IVec S16 32) (k0_hw98 : k0_chk98 v411 v509), ∀ a x, ((![v509, v411] : Fin 2 → IVec S16 32) a x).toNat < S200x256.size a := fun v411 v509 k0_hw98 => k0_hw98

def k0_chk99 (v411 : IVec S16 32) (v510 : IVec S16 32) : Prop :=
  (∀ a x, ((![v510, v411] : Fin 2 → IVec S16 32) a x).toNat < S200x256.size a)
instance k0_chk99.dec : ∀ (v411 : IVec S16 32) (v510 : IVec S16 32), Decidable (k0_chk99 v411 v510) := fun v411 v510 => decidable_of_iff' _ (Iff.of_eq (k0_chk99.eq_1 v411 v510))
theorem k0_idx99_inb : ∀ (v411 : IVec S16 32) (v510 : IVec S16 32) (k0_hw99 : k0_chk99 v411 v510), ∀ a x, ((![v510, v411] : Fin 2 → IVec S16 32) a x).toNat < S200x256.size a := fun v411 v510 k0_hw99 => k0_hw99

def k0_chk100 (v411 : IVec S16 32) (v511 : IVec S16 32) : Prop :=
  (∀ a x, ((![v511, v411] : Fin 2 → IVec S16 32) a x).toNat < S200x256.size a)
instance k0_chk100.dec : ∀ (v411 : IVec S16 32) (v511 : IVec S16 32), Decidable (k0_chk100 v411 v511) := fun v411 v511 => decidable_of_iff' _ (Iff.of_eq (k0_chk100.eq_1 v411 v511))
theorem k0_idx100_inb : ∀ (v411 : IVec S16 32) (v511 : IVec S16 32) (k0_hw100 : k0_chk100 v411 v511), ∀ a x, ((![v511, v411] : Fin 2 → IVec S16 32) a x).toNat < S200x256.size a := fun v411 v511 k0_hw100 => k0_hw100

def k0_chk101 (v411 : IVec S16 32) (v512 : IVec S16 32) : Prop :=
  (∀ a x, ((![v512, v411] : Fin 2 → IVec S16 32) a x).toNat < S200x256.size a)
instance k0_chk101.dec : ∀ (v411 : IVec S16 32) (v512 : IVec S16 32), Decidable (k0_chk101 v411 v512) := fun v411 v512 => decidable_of_iff' _ (Iff.of_eq (k0_chk101.eq_1 v411 v512))
theorem k0_idx101_inb : ∀ (v411 : IVec S16 32) (v512 : IVec S16 32) (k0_hw101 : k0_chk101 v411 v512), ∀ a x, ((![v512, v411] : Fin 2 → IVec S16 32) a x).toNat < S200x256.size a := fun v411 v512 k0_hw101 => k0_hw101

def k0_chk102 (v411 : IVec S16 32) (v513 : IVec S16 32) : Prop :=
  (∀ a x, ((![v513, v411] : Fin 2 → IVec S16 32) a x).toNat < S200x256.size a)
instance k0_chk102.dec : ∀ (v411 : IVec S16 32) (v513 : IVec S16 32), Decidable (k0_chk102 v411 v513) := fun v411 v513 => decidable_of_iff' _ (Iff.of_eq (k0_chk102.eq_1 v411 v513))
theorem k0_idx102_inb : ∀ (v411 : IVec S16 32) (v513 : IVec S16 32) (k0_hw102 : k0_chk102 v411 v513), ∀ a x, ((![v513, v411] : Fin 2 → IVec S16 32) a x).toNat < S200x256.size a := fun v411 v513 k0_hw102 => k0_hw102

def k0_chk103 (v411 : IVec S16 32) (v514 : IVec S16 32) : Prop :=
  (∀ a x, ((![v514, v411] : Fin 2 → IVec S16 32) a x).toNat < S200x256.size a)
instance k0_chk103.dec : ∀ (v411 : IVec S16 32) (v514 : IVec S16 32), Decidable (k0_chk103 v411 v514) := fun v411 v514 => decidable_of_iff' _ (Iff.of_eq (k0_chk103.eq_1 v411 v514))
theorem k0_idx103_inb : ∀ (v411 : IVec S16 32) (v514 : IVec S16 32) (k0_hw103 : k0_chk103 v411 v514), ∀ a x, ((![v514, v411] : Fin 2 → IVec S16 32) a x).toNat < S200x256.size a := fun v411 v514 k0_hw103 => k0_hw103

def k0_chk104 (v411 : IVec S16 32) (v515 : IVec S16 32) : Prop :=
  (∀ a x, ((![v515, v411] : Fin 2 → IVec S16 32) a x).toNat < S200x256.size a)
instance k0_chk104.dec : ∀ (v411 : IVec S16 32) (v515 : IVec S16 32), Decidable (k0_chk104 v411 v515) := fun v411 v515 => decidable_of_iff' _ (Iff.of_eq (k0_chk104.eq_1 v411 v515))
theorem k0_idx104_inb : ∀ (v411 : IVec S16 32) (v515 : IVec S16 32) (k0_hw104 : k0_chk104 v411 v515), ∀ a x, ((![v515, v411] : Fin 2 → IVec S16 32) a x).toNat < S200x256.size a := fun v411 v515 k0_hw104 => k0_hw104

def k0_chk105 (v411 : IVec S16 32) (v516 : IVec S16 32) : Prop :=
  (∀ a x, ((![v516, v411] : Fin 2 → IVec S16 32) a x).toNat < S200x256.size a)
instance k0_chk105.dec : ∀ (v411 : IVec S16 32) (v516 : IVec S16 32), Decidable (k0_chk105 v411 v516) := fun v411 v516 => decidable_of_iff' _ (Iff.of_eq (k0_chk105.eq_1 v411 v516))
theorem k0_idx105_inb : ∀ (v411 : IVec S16 32) (v516 : IVec S16 32) (k0_hw105 : k0_chk105 v411 v516), ∀ a x, ((![v516, v411] : Fin 2 → IVec S16 32) a x).toNat < S200x256.size a := fun v411 v516 k0_hw105 => k0_hw105

def k0_chk106 (v411 : IVec S16 32) (v517 : IVec S16 32) : Prop :=
  (∀ a x, ((![v517, v411] : Fin 2 → IVec S16 32) a x).toNat < S200x256.size a)
instance k0_chk106.dec : ∀ (v411 : IVec S16 32) (v517 : IVec S16 32), Decidable (k0_chk106 v411 v517) := fun v411 v517 => decidable_of_iff' _ (Iff.of_eq (k0_chk106.eq_1 v411 v517))
theorem k0_idx106_inb : ∀ (v411 : IVec S16 32) (v517 : IVec S16 32) (k0_hw106 : k0_chk106 v411 v517), ∀ a x, ((![v517, v411] : Fin 2 → IVec S16 32) a x).toNat < S200x256.size a := fun v411 v517 k0_hw106 => k0_hw106

def k0_chk107 (v411 : IVec S16 32) (v518 : IVec S16 32) : Prop :=
  (∀ a x, ((![v518, v411] : Fin 2 → IVec S16 32) a x).toNat < S200x256.size a)
instance k0_chk107.dec : ∀ (v411 : IVec S16 32) (v518 : IVec S16 32), Decidable (k0_chk107 v411 v518) := fun v411 v518 => decidable_of_iff' _ (Iff.of_eq (k0_chk107.eq_1 v411 v518))
theorem k0_idx107_inb : ∀ (v411 : IVec S16 32) (v518 : IVec S16 32) (k0_hw107 : k0_chk107 v411 v518), ∀ a x, ((![v518, v411] : Fin 2 → IVec S16 32) a x).toNat < S200x256.size a := fun v411 v518 k0_hw107 => k0_hw107

def k0_chk108 (v411 : IVec S16 32) (v519 : IVec S16 32) : Prop :=
  (∀ a x, ((![v519, v411] : Fin 2 → IVec S16 32) a x).toNat < S200x256.size a)
instance k0_chk108.dec : ∀ (v411 : IVec S16 32) (v519 : IVec S16 32), Decidable (k0_chk108 v411 v519) := fun v411 v519 => decidable_of_iff' _ (Iff.of_eq (k0_chk108.eq_1 v411 v519))
theorem k0_idx108_inb : ∀ (v411 : IVec S16 32) (v519 : IVec S16 32) (k0_hw108 : k0_chk108 v411 v519), ∀ a x, ((![v519, v411] : Fin 2 → IVec S16 32) a x).toNat < S200x256.size a := fun v411 v519 k0_hw108 => k0_hw108

def k0_chk109 (v411 : IVec S16 32) (v520 : IVec S16 32) : Prop :=
  (∀ a x, ((![v520, v411] : Fin 2 → IVec S16 32) a x).toNat < S200x256.size a)
instance k0_chk109.dec : ∀ (v411 : IVec S16 32) (v520 : IVec S16 32), Decidable (k0_chk109 v411 v520) := fun v411 v520 => decidable_of_iff' _ (Iff.of_eq (k0_chk109.eq_1 v411 v520))
theorem k0_idx109_inb : ∀ (v411 : IVec S16 32) (v520 : IVec S16 32) (k0_hw109 : k0_chk109 v411 v520), ∀ a x, ((![v520, v411] : Fin 2 → IVec S16 32) a x).toNat < S200x256.size a := fun v411 v520 k0_hw109 => k0_hw109

def k0_chk110 (v411 : IVec S16 32) (v521 : IVec S16 32) : Prop :=
  (∀ a x, ((![v521, v411] : Fin 2 → IVec S16 32) a x).toNat < S200x256.size a)
instance k0_chk110.dec : ∀ (v411 : IVec S16 32) (v521 : IVec S16 32), Decidable (k0_chk110 v411 v521) := fun v411 v521 => decidable_of_iff' _ (Iff.of_eq (k0_chk110.eq_1 v411 v521))
theorem k0_idx110_inb : ∀ (v411 : IVec S16 32) (v521 : IVec S16 32) (k0_hw110 : k0_chk110 v411 v521), ∀ a x, ((![v521, v411] : Fin 2 → IVec S16 32) a x).toNat < S200x256.size a := fun v411 v521 k0_hw110 => k0_hw110

def k0_chk111 (v411 : IVec S16 32) (v522 : IVec S16 32) : Prop :=
  (∀ a x, ((![v522, v411] : Fin 2 → IVec S16 32) a x).toNat < S200x256.size a)
instance k0_chk111.dec : ∀ (v411 : IVec S16 32) (v522 : IVec S16 32), Decidable (k0_chk111 v411 v522) := fun v411 v522 => decidable_of_iff' _ (Iff.of_eq (k0_chk111.eq_1 v411 v522))
theorem k0_idx111_inb : ∀ (v411 : IVec S16 32) (v522 : IVec S16 32) (k0_hw111 : k0_chk111 v411 v522), ∀ a x, ((![v522, v411] : Fin 2 → IVec S16 32) a x).toNat < S200x256.size a := fun v411 v522 k0_hw111 => k0_hw111

def k0_chk112 (v411 : IVec S16 32) (v523 : IVec S16 32) : Prop :=
  (∀ a x, ((![v523, v411] : Fin 2 → IVec S16 32) a x).toNat < S200x256.size a)
instance k0_chk112.dec : ∀ (v411 : IVec S16 32) (v523 : IVec S16 32), Decidable (k0_chk112 v411 v523) := fun v411 v523 => decidable_of_iff' _ (Iff.of_eq (k0_chk112.eq_1 v411 v523))
theorem k0_idx112_inb : ∀ (v411 : IVec S16 32) (v523 : IVec S16 32) (k0_hw112 : k0_chk112 v411 v523), ∀ a x, ((![v523, v411] : Fin 2 → IVec S16 32) a x).toNat < S200x256.size a := fun v411 v523 k0_hw112 => k0_hw112

def k0_chk113 (v411 : IVec S16 32) (v524 : IVec S16 32) : Prop :=
  (∀ a x, ((![v524, v411] : Fin 2 → IVec S16 32) a x).toNat < S200x256.size a)
instance k0_chk113.dec : ∀ (v411 : IVec S16 32) (v524 : IVec S16 32), Decidable (k0_chk113 v411 v524) := fun v411 v524 => decidable_of_iff' _ (Iff.of_eq (k0_chk113.eq_1 v411 v524))
theorem k0_idx113_inb : ∀ (v411 : IVec S16 32) (v524 : IVec S16 32) (k0_hw113 : k0_chk113 v411 v524), ∀ a x, ((![v524, v411] : Fin 2 → IVec S16 32) a x).toNat < S200x256.size a := fun v411 v524 k0_hw113 => k0_hw113

def k0_chk114 (v411 : IVec S16 32) (v525 : IVec S16 32) : Prop :=
  (∀ a x, ((![v525, v411] : Fin 2 → IVec S16 32) a x).toNat < S200x256.size a)
instance k0_chk114.dec : ∀ (v411 : IVec S16 32) (v525 : IVec S16 32), Decidable (k0_chk114 v411 v525) := fun v411 v525 => decidable_of_iff' _ (Iff.of_eq (k0_chk114.eq_1 v411 v525))
theorem k0_idx114_inb : ∀ (v411 : IVec S16 32) (v525 : IVec S16 32) (k0_hw114 : k0_chk114 v411 v525), ∀ a x, ((![v525, v411] : Fin 2 → IVec S16 32) a x).toNat < S200x256.size a := fun v411 v525 k0_hw114 => k0_hw114

def k0_chk115 (v411 : IVec S16 32) (v526 : IVec S16 32) : Prop :=
  (∀ a x, ((![v526, v411] : Fin 2 → IVec S16 32) a x).toNat < S200x256.size a)
instance k0_chk115.dec : ∀ (v411 : IVec S16 32) (v526 : IVec S16 32), Decidable (k0_chk115 v411 v526) := fun v411 v526 => decidable_of_iff' _ (Iff.of_eq (k0_chk115.eq_1 v411 v526))
theorem k0_idx115_inb : ∀ (v411 : IVec S16 32) (v526 : IVec S16 32) (k0_hw115 : k0_chk115 v411 v526), ∀ a x, ((![v526, v411] : Fin 2 → IVec S16 32) a x).toNat < S200x256.size a := fun v411 v526 k0_hw115 => k0_hw115

def k0_chk116 (v411 : IVec S16 32) (v527 : IVec S16 32) : Prop :=
  (∀ a x, ((![v527, v411] : Fin 2 → IVec S16 32) a x).toNat < S200x256.size a)
instance k0_chk116.dec : ∀ (v411 : IVec S16 32) (v527 : IVec S16 32), Decidable (k0_chk116 v411 v527) := fun v411 v527 => decidable_of_iff' _ (Iff.of_eq (k0_chk116.eq_1 v411 v527))
theorem k0_idx116_inb : ∀ (v411 : IVec S16 32) (v527 : IVec S16 32) (k0_hw116 : k0_chk116 v411 v527), ∀ a x, ((![v527, v411] : Fin 2 → IVec S16 32) a x).toNat < S200x256.size a := fun v411 v527 k0_hw116 => k0_hw116

def k0_chk117 (v411 : IVec S16 32) (v528 : IVec S16 32) : Prop :=
  (∀ a x, ((![v528, v411] : Fin 2 → IVec S16 32) a x).toNat < S200x256.size a)
instance k0_chk117.dec : ∀ (v411 : IVec S16 32) (v528 : IVec S16 32), Decidable (k0_chk117 v411 v528) := fun v411 v528 => decidable_of_iff' _ (Iff.of_eq (k0_chk117.eq_1 v411 v528))
theorem k0_idx117_inb : ∀ (v411 : IVec S16 32) (v528 : IVec S16 32) (k0_hw117 : k0_chk117 v411 v528), ∀ a x, ((![v528, v411] : Fin 2 → IVec S16 32) a x).toNat < S200x256.size a := fun v411 v528 k0_hw117 => k0_hw117

def k0_chk118 (v411 : IVec S16 32) (v529 : IVec S16 32) : Prop :=
  (∀ a x, ((![v529, v411] : Fin 2 → IVec S16 32) a x).toNat < S200x256.size a)
instance k0_chk118.dec : ∀ (v411 : IVec S16 32) (v529 : IVec S16 32), Decidable (k0_chk118 v411 v529) := fun v411 v529 => decidable_of_iff' _ (Iff.of_eq (k0_chk118.eq_1 v411 v529))
theorem k0_idx118_inb : ∀ (v411 : IVec S16 32) (v529 : IVec S16 32) (k0_hw118 : k0_chk118 v411 v529), ∀ a x, ((![v529, v411] : Fin 2 → IVec S16 32) a x).toNat < S200x256.size a := fun v411 v529 k0_hw118 => k0_hw118

def k0_chk119 (v411 : IVec S16 32) (v530 : IVec S16 32) : Prop :=
  (∀ a x, ((![v530, v411] : Fin 2 → IVec S16 32) a x).toNat < S200x256.size a)
instance k0_chk119.dec : ∀ (v411 : IVec S16 32) (v530 : IVec S16 32), Decidable (k0_chk119 v411 v530) := fun v411 v530 => decidable_of_iff' _ (Iff.of_eq (k0_chk119.eq_1 v411 v530))
theorem k0_idx119_inb : ∀ (v411 : IVec S16 32) (v530 : IVec S16 32) (k0_hw119 : k0_chk119 v411 v530), ∀ a x, ((![v530, v411] : Fin 2 → IVec S16 32) a x).toNat < S200x256.size a := fun v411 v530 k0_hw119 => k0_hw119

def k0_chk120 (v411 : IVec S16 32) (v531 : IVec S16 32) : Prop :=
  (∀ a x, ((![v531, v411] : Fin 2 → IVec S16 32) a x).toNat < S200x256.size a)
instance k0_chk120.dec : ∀ (v411 : IVec S16 32) (v531 : IVec S16 32), Decidable (k0_chk120 v411 v531) := fun v411 v531 => decidable_of_iff' _ (Iff.of_eq (k0_chk120.eq_1 v411 v531))
theorem k0_idx120_inb : ∀ (v411 : IVec S16 32) (v531 : IVec S16 32) (k0_hw120 : k0_chk120 v411 v531), ∀ a x, ((![v531, v411] : Fin 2 → IVec S16 32) a x).toNat < S200x256.size a := fun v411 v531 k0_hw120 => k0_hw120

def k0_chk121 (v411 : IVec S16 32) (v532 : IVec S16 32) : Prop :=
  (∀ a x, ((![v532, v411] : Fin 2 → IVec S16 32) a x).toNat < S200x256.size a)
instance k0_chk121.dec : ∀ (v411 : IVec S16 32) (v532 : IVec S16 32), Decidable (k0_chk121 v411 v532) := fun v411 v532 => decidable_of_iff' _ (Iff.of_eq (k0_chk121.eq_1 v411 v532))
theorem k0_idx121_inb : ∀ (v411 : IVec S16 32) (v532 : IVec S16 32) (k0_hw121 : k0_chk121 v411 v532), ∀ a x, ((![v532, v411] : Fin 2 → IVec S16 32) a x).toNat < S200x256.size a := fun v411 v532 k0_hw121 => k0_hw121

def k0_chk122 (v411 : IVec S16 32) (v533 : IVec S16 32) : Prop :=
  (∀ a x, ((![v533, v411] : Fin 2 → IVec S16 32) a x).toNat < S200x256.size a)
instance k0_chk122.dec : ∀ (v411 : IVec S16 32) (v533 : IVec S16 32), Decidable (k0_chk122 v411 v533) := fun v411 v533 => decidable_of_iff' _ (Iff.of_eq (k0_chk122.eq_1 v411 v533))
theorem k0_idx122_inb : ∀ (v411 : IVec S16 32) (v533 : IVec S16 32) (k0_hw122 : k0_chk122 v411 v533), ∀ a x, ((![v533, v411] : Fin 2 → IVec S16 32) a x).toNat < S200x256.size a := fun v411 v533 k0_hw122 => k0_hw122

def k0_chk123 (v411 : IVec S16 32) (v534 : IVec S16 32) : Prop :=
  (∀ a x, ((![v534, v411] : Fin 2 → IVec S16 32) a x).toNat < S200x256.size a)
instance k0_chk123.dec : ∀ (v411 : IVec S16 32) (v534 : IVec S16 32), Decidable (k0_chk123 v411 v534) := fun v411 v534 => decidable_of_iff' _ (Iff.of_eq (k0_chk123.eq_1 v411 v534))
theorem k0_idx123_inb : ∀ (v411 : IVec S16 32) (v534 : IVec S16 32) (k0_hw123 : k0_chk123 v411 v534), ∀ a x, ((![v534, v411] : Fin 2 → IVec S16 32) a x).toNat < S200x256.size a := fun v411 v534 k0_hw123 => k0_hw123

def k0_chk124 (v411 : IVec S16 32) (v535 : IVec S16 32) : Prop :=
  (∀ a x, ((![v535, v411] : Fin 2 → IVec S16 32) a x).toNat < S200x256.size a)
instance k0_chk124.dec : ∀ (v411 : IVec S16 32) (v535 : IVec S16 32), Decidable (k0_chk124 v411 v535) := fun v411 v535 => decidable_of_iff' _ (Iff.of_eq (k0_chk124.eq_1 v411 v535))
theorem k0_idx124_inb : ∀ (v411 : IVec S16 32) (v535 : IVec S16 32) (k0_hw124 : k0_chk124 v411 v535), ∀ a x, ((![v535, v411] : Fin 2 → IVec S16 32) a x).toNat < S200x256.size a := fun v411 v535 k0_hw124 => k0_hw124

def k0_chk125 (v411 : IVec S16 32) (v536 : IVec S16 32) : Prop :=
  (∀ a x, ((![v536, v411] : Fin 2 → IVec S16 32) a x).toNat < S200x256.size a)
instance k0_chk125.dec : ∀ (v411 : IVec S16 32) (v536 : IVec S16 32), Decidable (k0_chk125 v411 v536) := fun v411 v536 => decidable_of_iff' _ (Iff.of_eq (k0_chk125.eq_1 v411 v536))
theorem k0_idx125_inb : ∀ (v411 : IVec S16 32) (v536 : IVec S16 32) (k0_hw125 : k0_chk125 v411 v536), ∀ a x, ((![v536, v411] : Fin 2 → IVec S16 32) a x).toNat < S200x256.size a := fun v411 v536 k0_hw125 => k0_hw125

def k0_chk126 (v411 : IVec S16 32) (v537 : IVec S16 32) : Prop :=
  (∀ a x, ((![v537, v411] : Fin 2 → IVec S16 32) a x).toNat < S200x256.size a)
instance k0_chk126.dec : ∀ (v411 : IVec S16 32) (v537 : IVec S16 32), Decidable (k0_chk126 v411 v537) := fun v411 v537 => decidable_of_iff' _ (Iff.of_eq (k0_chk126.eq_1 v411 v537))
theorem k0_idx126_inb : ∀ (v411 : IVec S16 32) (v537 : IVec S16 32) (k0_hw126 : k0_chk126 v411 v537), ∀ a x, ((![v537, v411] : Fin 2 → IVec S16 32) a x).toNat < S200x256.size a := fun v411 v537 k0_hw126 => k0_hw126

def k0_chk127 (v411 : IVec S16 32) (v538 : IVec S16 32) : Prop :=
  (∀ a x, ((![v538, v411] : Fin 2 → IVec S16 32) a x).toNat < S200x256.size a)
instance k0_chk127.dec : ∀ (v411 : IVec S16 32) (v538 : IVec S16 32), Decidable (k0_chk127 v411 v538) := fun v411 v538 => decidable_of_iff' _ (Iff.of_eq (k0_chk127.eq_1 v411 v538))
theorem k0_idx127_inb : ∀ (v411 : IVec S16 32) (v538 : IVec S16 32) (k0_hw127 : k0_chk127 v411 v538), ∀ a x, ((![v538, v411] : Fin 2 → IVec S16 32) a x).toNat < S200x256.size a := fun v411 v538 k0_hw127 => k0_hw127

def k0_chk128 (v411 : IVec S16 32) (v539 : IVec S16 32) : Prop :=
  (∀ a x, ((![v539, v411] : Fin 2 → IVec S16 32) a x).toNat < S200x256.size a)
instance k0_chk128.dec : ∀ (v411 : IVec S16 32) (v539 : IVec S16 32), Decidable (k0_chk128 v411 v539) := fun v411 v539 => decidable_of_iff' _ (Iff.of_eq (k0_chk128.eq_1 v411 v539))
theorem k0_idx128_inb : ∀ (v411 : IVec S16 32) (v539 : IVec S16 32) (k0_hw128 : k0_chk128 v411 v539), ∀ a x, ((![v539, v411] : Fin 2 → IVec S16 32) a x).toNat < S200x256.size a := fun v411 v539 k0_hw128 => k0_hw128

def k0_chk129 (v411 : IVec S16 32) (v540 : IVec S16 32) : Prop :=
  (∀ a x, ((![v540, v411] : Fin 2 → IVec S16 32) a x).toNat < S200x256.size a)
instance k0_chk129.dec : ∀ (v411 : IVec S16 32) (v540 : IVec S16 32), Decidable (k0_chk129 v411 v540) := fun v411 v540 => decidable_of_iff' _ (Iff.of_eq (k0_chk129.eq_1 v411 v540))
theorem k0_idx129_inb : ∀ (v411 : IVec S16 32) (v540 : IVec S16 32) (k0_hw129 : k0_chk129 v411 v540), ∀ a x, ((![v540, v411] : Fin 2 → IVec S16 32) a x).toNat < S200x256.size a := fun v411 v540 k0_hw129 => k0_hw129

def k0_chk130 (v411 : IVec S16 32) (v541 : IVec S16 32) : Prop :=
  (∀ a x, ((![v541, v411] : Fin 2 → IVec S16 32) a x).toNat < S200x256.size a)
instance k0_chk130.dec : ∀ (v411 : IVec S16 32) (v541 : IVec S16 32), Decidable (k0_chk130 v411 v541) := fun v411 v541 => decidable_of_iff' _ (Iff.of_eq (k0_chk130.eq_1 v411 v541))
theorem k0_idx130_inb : ∀ (v411 : IVec S16 32) (v541 : IVec S16 32) (k0_hw130 : k0_chk130 v411 v541), ∀ a x, ((![v541, v411] : Fin 2 → IVec S16 32) a x).toNat < S200x256.size a := fun v411 v541 k0_hw130 => k0_hw130

def k0_chk131 (v411 : IVec S16 32) (v542 : IVec S16 32) : Prop :=
  (∀ a x, ((![v542, v411] : Fin 2 → IVec S16 32) a x).toNat < S200x256.size a)
instance k0_chk131.dec : ∀ (v411 : IVec S16 32) (v542 : IVec S16 32), Decidable (k0_chk131 v411 v542) := fun v411 v542 => decidable_of_iff' _ (Iff.of_eq (k0_chk131.eq_1 v411 v542))
theorem k0_idx131_inb : ∀ (v411 : IVec S16 32) (v542 : IVec S16 32) (k0_hw131 : k0_chk131 v411 v542), ∀ a x, ((![v542, v411] : Fin 2 → IVec S16 32) a x).toNat < S200x256.size a := fun v411 v542 k0_hw131 => k0_hw131

def k0_chk132 (v411 : IVec S16 32) (v543 : IVec S16 32) : Prop :=
  (∀ a x, ((![v543, v411] : Fin 2 → IVec S16 32) a x).toNat < S200x256.size a)
instance k0_chk132.dec : ∀ (v411 : IVec S16 32) (v543 : IVec S16 32), Decidable (k0_chk132 v411 v543) := fun v411 v543 => decidable_of_iff' _ (Iff.of_eq (k0_chk132.eq_1 v411 v543))
theorem k0_idx132_inb : ∀ (v411 : IVec S16 32) (v543 : IVec S16 32) (k0_hw132 : k0_chk132 v411 v543), ∀ a x, ((![v543, v411] : Fin 2 → IVec S16 32) a x).toNat < S200x256.size a := fun v411 v543 k0_hw132 => k0_hw132

def k0_chk133 (v411 : IVec S16 32) (v544 : IVec S16 32) : Prop :=
  (∀ a x, ((![v544, v411] : Fin 2 → IVec S16 32) a x).toNat < S200x256.size a)
instance k0_chk133.dec : ∀ (v411 : IVec S16 32) (v544 : IVec S16 32), Decidable (k0_chk133 v411 v544) := fun v411 v544 => decidable_of_iff' _ (Iff.of_eq (k0_chk133.eq_1 v411 v544))
theorem k0_idx133_inb : ∀ (v411 : IVec S16 32) (v544 : IVec S16 32) (k0_hw133 : k0_chk133 v411 v544), ∀ a x, ((![v544, v411] : Fin 2 → IVec S16 32) a x).toNat < S200x256.size a := fun v411 v544 k0_hw133 => k0_hw133

def k0_chk134 (v411 : IVec S16 32) (v545 : IVec S16 32) : Prop :=
  (∀ a x, ((![v545, v411] : Fin 2 → IVec S16 32) a x).toNat < S200x256.size a)
instance k0_chk134.dec : ∀ (v411 : IVec S16 32) (v545 : IVec S16 32), Decidable (k0_chk134 v411 v545) := fun v411 v545 => decidable_of_iff' _ (Iff.of_eq (k0_chk134.eq_1 v411 v545))
theorem k0_idx134_inb : ∀ (v411 : IVec S16 32) (v545 : IVec S16 32) (k0_hw134 : k0_chk134 v411 v545), ∀ a x, ((![v545, v411] : Fin 2 → IVec S16 32) a x).toNat < S200x256.size a := fun v411 v545 k0_hw134 => k0_hw134

def k0_chk135 (v411 : IVec S16 32) (v546 : IVec S16 32) : Prop :=
  (∀ a x, ((![v546, v411] : Fin 2 → IVec S16 32) a x).toNat < S200x256.size a)
instance k0_chk135.dec : ∀ (v411 : IVec S16 32) (v546 : IVec S16 32), Decidable (k0_chk135 v411 v546) := fun v411 v546 => decidable_of_iff' _ (Iff.of_eq (k0_chk135.eq_1 v411 v546))
theorem k0_idx135_inb : ∀ (v411 : IVec S16 32) (v546 : IVec S16 32) (k0_hw135 : k0_chk135 v411 v546), ∀ a x, ((![v546, v411] : Fin 2 → IVec S16 32) a x).toNat < S200x256.size a := fun v411 v546 k0_hw135 => k0_hw135

def k0_chk136 (v411 : IVec S16 32) (v547 : IVec S16 32) : Prop :=
  (∀ a x, ((![v547, v411] : Fin 2 → IVec S16 32) a x).toNat < S200x256.size a)
instance k0_chk136.dec : ∀ (v411 : IVec S16 32) (v547 : IVec S16 32), Decidable (k0_chk136 v411 v547) := fun v411 v547 => decidable_of_iff' _ (Iff.of_eq (k0_chk136.eq_1 v411 v547))
theorem k0_idx136_inb : ∀ (v411 : IVec S16 32) (v547 : IVec S16 32) (k0_hw136 : k0_chk136 v411 v547), ∀ a x, ((![v547, v411] : Fin 2 → IVec S16 32) a x).toNat < S200x256.size a := fun v411 v547 k0_hw136 => k0_hw136

def k0_chk137 (v411 : IVec S16 32) (v548 : IVec S16 32) : Prop :=
  (∀ a x, ((![v548, v411] : Fin 2 → IVec S16 32) a x).toNat < S200x256.size a)
instance k0_chk137.dec : ∀ (v411 : IVec S16 32) (v548 : IVec S16 32), Decidable (k0_chk137 v411 v548) := fun v411 v548 => decidable_of_iff' _ (Iff.of_eq (k0_chk137.eq_1 v411 v548))
theorem k0_idx137_inb : ∀ (v411 : IVec S16 32) (v548 : IVec S16 32) (k0_hw137 : k0_chk137 v411 v548), ∀ a x, ((![v548, v411] : Fin 2 → IVec S16 32) a x).toNat < S200x256.size a := fun v411 v548 k0_hw137 => k0_hw137

def k0_chk138 (v411 : IVec S16 32) (v549 : IVec S16 32) : Prop :=
  (∀ a x, ((![v549, v411] : Fin 2 → IVec S16 32) a x).toNat < S200x256.size a)
instance k0_chk138.dec : ∀ (v411 : IVec S16 32) (v549 : IVec S16 32), Decidable (k0_chk138 v411 v549) := fun v411 v549 => decidable_of_iff' _ (Iff.of_eq (k0_chk138.eq_1 v411 v549))
theorem k0_idx138_inb : ∀ (v411 : IVec S16 32) (v549 : IVec S16 32) (k0_hw138 : k0_chk138 v411 v549), ∀ a x, ((![v549, v411] : Fin 2 → IVec S16 32) a x).toNat < S200x256.size a := fun v411 v549 k0_hw138 => k0_hw138

def k0_chk139 (v411 : IVec S16 32) (v550 : IVec S16 32) : Prop :=
  (∀ a x, ((![v550, v411] : Fin 2 → IVec S16 32) a x).toNat < S200x256.size a)
instance k0_chk139.dec : ∀ (v411 : IVec S16 32) (v550 : IVec S16 32), Decidable (k0_chk139 v411 v550) := fun v411 v550 => decidable_of_iff' _ (Iff.of_eq (k0_chk139.eq_1 v411 v550))
theorem k0_idx139_inb : ∀ (v411 : IVec S16 32) (v550 : IVec S16 32) (k0_hw139 : k0_chk139 v411 v550), ∀ a x, ((![v550, v411] : Fin 2 → IVec S16 32) a x).toNat < S200x256.size a := fun v411 v550 k0_hw139 => k0_hw139

def k0_chk140 (v411 : IVec S16 32) (v551 : IVec S16 32) : Prop :=
  (∀ a x, ((![v551, v411] : Fin 2 → IVec S16 32) a x).toNat < S200x256.size a)
instance k0_chk140.dec : ∀ (v411 : IVec S16 32) (v551 : IVec S16 32), Decidable (k0_chk140 v411 v551) := fun v411 v551 => decidable_of_iff' _ (Iff.of_eq (k0_chk140.eq_1 v411 v551))
theorem k0_idx140_inb : ∀ (v411 : IVec S16 32) (v551 : IVec S16 32) (k0_hw140 : k0_chk140 v411 v551), ∀ a x, ((![v551, v411] : Fin 2 → IVec S16 32) a x).toNat < S200x256.size a := fun v411 v551 k0_hw140 => k0_hw140

def k0_chk141 (v411 : IVec S16 32) (v552 : IVec S16 32) : Prop :=
  (∀ a x, ((![v552, v411] : Fin 2 → IVec S16 32) a x).toNat < S200x256.size a)
instance k0_chk141.dec : ∀ (v411 : IVec S16 32) (v552 : IVec S16 32), Decidable (k0_chk141 v411 v552) := fun v411 v552 => decidable_of_iff' _ (Iff.of_eq (k0_chk141.eq_1 v411 v552))
theorem k0_idx141_inb : ∀ (v411 : IVec S16 32) (v552 : IVec S16 32) (k0_hw141 : k0_chk141 v411 v552), ∀ a x, ((![v552, v411] : Fin 2 → IVec S16 32) a x).toNat < S200x256.size a := fun v411 v552 k0_hw141 => k0_hw141

def k0_chk142 (v411 : IVec S16 32) (v553 : IVec S16 32) : Prop :=
  (∀ a x, ((![v553, v411] : Fin 2 → IVec S16 32) a x).toNat < S200x256.size a)
instance k0_chk142.dec : ∀ (v411 : IVec S16 32) (v553 : IVec S16 32), Decidable (k0_chk142 v411 v553) := fun v411 v553 => decidable_of_iff' _ (Iff.of_eq (k0_chk142.eq_1 v411 v553))
theorem k0_idx142_inb : ∀ (v411 : IVec S16 32) (v553 : IVec S16 32) (k0_hw142 : k0_chk142 v411 v553), ∀ a x, ((![v553, v411] : Fin 2 → IVec S16 32) a x).toNat < S200x256.size a := fun v411 v553 k0_hw142 => k0_hw142

def k0_chk143 (v411 : IVec S16 32) (v554 : IVec S16 32) : Prop :=
  (∀ a x, ((![v554, v411] : Fin 2 → IVec S16 32) a x).toNat < S200x256.size a)
instance k0_chk143.dec : ∀ (v411 : IVec S16 32) (v554 : IVec S16 32), Decidable (k0_chk143 v411 v554) := fun v411 v554 => decidable_of_iff' _ (Iff.of_eq (k0_chk143.eq_1 v411 v554))
theorem k0_idx143_inb : ∀ (v411 : IVec S16 32) (v554 : IVec S16 32) (k0_hw143 : k0_chk143 v411 v554), ∀ a x, ((![v554, v411] : Fin 2 → IVec S16 32) a x).toNat < S200x256.size a := fun v411 v554 k0_hw143 => k0_hw143

def k0_chk144 (v411 : IVec S16 32) (v555 : IVec S16 32) : Prop :=
  (∀ a x, ((![v555, v411] : Fin 2 → IVec S16 32) a x).toNat < S200x256.size a)
instance k0_chk144.dec : ∀ (v411 : IVec S16 32) (v555 : IVec S16 32), Decidable (k0_chk144 v411 v555) := fun v411 v555 => decidable_of_iff' _ (Iff.of_eq (k0_chk144.eq_1 v411 v555))
theorem k0_idx144_inb : ∀ (v411 : IVec S16 32) (v555 : IVec S16 32) (k0_hw144 : k0_chk144 v411 v555), ∀ a x, ((![v555, v411] : Fin 2 → IVec S16 32) a x).toNat < S200x256.size a := fun v411 v555 k0_hw144 => k0_hw144

def k0_chk145 (v411 : IVec S16 32) (v556 : IVec S16 32) : Prop :=
  (∀ a x, ((![v556, v411] : Fin 2 → IVec S16 32) a x).toNat < S200x256.size a)
instance k0_chk145.dec : ∀ (v411 : IVec S16 32) (v556 : IVec S16 32), Decidable (k0_chk145 v411 v556) := fun v411 v556 => decidable_of_iff' _ (Iff.of_eq (k0_chk145.eq_1 v411 v556))
theorem k0_idx145_inb : ∀ (v411 : IVec S16 32) (v556 : IVec S16 32) (k0_hw145 : k0_chk145 v411 v556), ∀ a x, ((![v556, v411] : Fin 2 → IVec S16 32) a x).toNat < S200x256.size a := fun v411 v556 k0_hw145 => k0_hw145

def k0_chk146 (v411 : IVec S16 32) (v557 : IVec S16 32) : Prop :=
  (∀ a x, ((![v557, v411] : Fin 2 → IVec S16 32) a x).toNat < S200x256.size a)
instance k0_chk146.dec : ∀ (v411 : IVec S16 32) (v557 : IVec S16 32), Decidable (k0_chk146 v411 v557) := fun v411 v557 => decidable_of_iff' _ (Iff.of_eq (k0_chk146.eq_1 v411 v557))
theorem k0_idx146_inb : ∀ (v411 : IVec S16 32) (v557 : IVec S16 32) (k0_hw146 : k0_chk146 v411 v557), ∀ a x, ((![v557, v411] : Fin 2 → IVec S16 32) a x).toNat < S200x256.size a := fun v411 v557 k0_hw146 => k0_hw146

def k0_chk147 (v411 : IVec S16 32) (v558 : IVec S16 32) : Prop :=
  (∀ a x, ((![v558, v411] : Fin 2 → IVec S16 32) a x).toNat < S200x256.size a)
instance k0_chk147.dec : ∀ (v411 : IVec S16 32) (v558 : IVec S16 32), Decidable (k0_chk147 v411 v558) := fun v411 v558 => decidable_of_iff' _ (Iff.of_eq (k0_chk147.eq_1 v411 v558))
theorem k0_idx147_inb : ∀ (v411 : IVec S16 32) (v558 : IVec S16 32) (k0_hw147 : k0_chk147 v411 v558), ∀ a x, ((![v558, v411] : Fin 2 → IVec S16 32) a x).toNat < S200x256.size a := fun v411 v558 k0_hw147 => k0_hw147

def k0_chk148 (v411 : IVec S16 32) (v559 : IVec S16 32) : Prop :=
  (∀ a x, ((![v559, v411] : Fin 2 → IVec S16 32) a x).toNat < S200x256.size a)
instance k0_chk148.dec : ∀ (v411 : IVec S16 32) (v559 : IVec S16 32), Decidable (k0_chk148 v411 v559) := fun v411 v559 => decidable_of_iff' _ (Iff.of_eq (k0_chk148.eq_1 v411 v559))
theorem k0_idx148_inb : ∀ (v411 : IVec S16 32) (v559 : IVec S16 32) (k0_hw148 : k0_chk148 v411 v559), ∀ a x, ((![v559, v411] : Fin 2 → IVec S16 32) a x).toNat < S200x256.size a := fun v411 v559 k0_hw148 => k0_hw148

def k0_chk149 (v411 : IVec S16 32) (v560 : IVec S16 32) : Prop :=
  (∀ a x, ((![v560, v411] : Fin 2 → IVec S16 32) a x).toNat < S200x256.size a)
instance k0_chk149.dec : ∀ (v411 : IVec S16 32) (v560 : IVec S16 32), Decidable (k0_chk149 v411 v560) := fun v411 v560 => decidable_of_iff' _ (Iff.of_eq (k0_chk149.eq_1 v411 v560))
theorem k0_idx149_inb : ∀ (v411 : IVec S16 32) (v560 : IVec S16 32) (k0_hw149 : k0_chk149 v411 v560), ∀ a x, ((![v560, v411] : Fin 2 → IVec S16 32) a x).toNat < S200x256.size a := fun v411 v560 k0_hw149 => k0_hw149

def k0_chk150 (v411 : IVec S16 32) (v561 : IVec S16 32) : Prop :=
  (∀ a x, ((![v561, v411] : Fin 2 → IVec S16 32) a x).toNat < S200x256.size a)
instance k0_chk150.dec : ∀ (v411 : IVec S16 32) (v561 : IVec S16 32), Decidable (k0_chk150 v411 v561) := fun v411 v561 => decidable_of_iff' _ (Iff.of_eq (k0_chk150.eq_1 v411 v561))
theorem k0_idx150_inb : ∀ (v411 : IVec S16 32) (v561 : IVec S16 32) (k0_hw150 : k0_chk150 v411 v561), ∀ a x, ((![v561, v411] : Fin 2 → IVec S16 32) a x).toNat < S200x256.size a := fun v411 v561 k0_hw150 => k0_hw150

def k0_chk151 (v411 : IVec S16 32) (v562 : IVec S16 32) : Prop :=
  (∀ a x, ((![v562, v411] : Fin 2 → IVec S16 32) a x).toNat < S200x256.size a)
instance k0_chk151.dec : ∀ (v411 : IVec S16 32) (v562 : IVec S16 32), Decidable (k0_chk151 v411 v562) := fun v411 v562 => decidable_of_iff' _ (Iff.of_eq (k0_chk151.eq_1 v411 v562))
theorem k0_idx151_inb : ∀ (v411 : IVec S16 32) (v562 : IVec S16 32) (k0_hw151 : k0_chk151 v411 v562), ∀ a x, ((![v562, v411] : Fin 2 → IVec S16 32) a x).toNat < S200x256.size a := fun v411 v562 k0_hw151 => k0_hw151

def k0_chk152 (v411 : IVec S16 32) (v563 : IVec S16 32) : Prop :=
  (∀ a x, ((![v563, v411] : Fin 2 → IVec S16 32) a x).toNat < S200x256.size a)
instance k0_chk152.dec : ∀ (v411 : IVec S16 32) (v563 : IVec S16 32), Decidable (k0_chk152 v411 v563) := fun v411 v563 => decidable_of_iff' _ (Iff.of_eq (k0_chk152.eq_1 v411 v563))
theorem k0_idx152_inb : ∀ (v411 : IVec S16 32) (v563 : IVec S16 32) (k0_hw152 : k0_chk152 v411 v563), ∀ a x, ((![v563, v411] : Fin 2 → IVec S16 32) a x).toNat < S200x256.size a := fun v411 v563 k0_hw152 => k0_hw152

def k0_chk153 (v411 : IVec S16 32) (v564 : IVec S16 32) : Prop :=
  (∀ a x, ((![v564, v411] : Fin 2 → IVec S16 32) a x).toNat < S200x256.size a)
instance k0_chk153.dec : ∀ (v411 : IVec S16 32) (v564 : IVec S16 32), Decidable (k0_chk153 v411 v564) := fun v411 v564 => decidable_of_iff' _ (Iff.of_eq (k0_chk153.eq_1 v411 v564))
theorem k0_idx153_inb : ∀ (v411 : IVec S16 32) (v564 : IVec S16 32) (k0_hw153 : k0_chk153 v411 v564), ∀ a x, ((![v564, v411] : Fin 2 → IVec S16 32) a x).toNat < S200x256.size a := fun v411 v564 k0_hw153 => k0_hw153

def k0_chk154 (v411 : IVec S16 32) (v565 : IVec S16 32) : Prop :=
  (∀ a x, ((![v565, v411] : Fin 2 → IVec S16 32) a x).toNat < S200x256.size a)
instance k0_chk154.dec : ∀ (v411 : IVec S16 32) (v565 : IVec S16 32), Decidable (k0_chk154 v411 v565) := fun v411 v565 => decidable_of_iff' _ (Iff.of_eq (k0_chk154.eq_1 v411 v565))
theorem k0_idx154_inb : ∀ (v411 : IVec S16 32) (v565 : IVec S16 32) (k0_hw154 : k0_chk154 v411 v565), ∀ a x, ((![v565, v411] : Fin 2 → IVec S16 32) a x).toNat < S200x256.size a := fun v411 v565 k0_hw154 => k0_hw154

def k0_chk155 (v411 : IVec S16 32) (v566 : IVec S16 32) : Prop :=
  (∀ a x, ((![v566, v411] : Fin 2 → IVec S16 32) a x).toNat < S200x256.size a)
instance k0_chk155.dec : ∀ (v411 : IVec S16 32) (v566 : IVec S16 32), Decidable (k0_chk155 v411 v566) := fun v411 v566 => decidable_of_iff' _ (Iff.of_eq (k0_chk155.eq_1 v411 v566))
theorem k0_idx155_inb : ∀ (v411 : IVec S16 32) (v566 : IVec S16 32) (k0_hw155 : k0_chk155 v411 v566), ∀ a x, ((![v566, v411] : Fin 2 → IVec S16 32) a x).toNat < S200x256.size a := fun v411 v566 k0_hw155 => k0_hw155

def k0_chk156 (v411 : IVec S16 32) (v567 : IVec S16 32) : Prop :=
  (∀ a x, ((![v567, v411] : Fin 2 → IVec S16 32) a x).toNat < S200x256.size a)
instance k0_chk156.dec : ∀ (v411 : IVec S16 32) (v567 : IVec S16 32), Decidable (k0_chk156 v411 v567) := fun v411 v567 => decidable_of_iff' _ (Iff.of_eq (k0_chk156.eq_1 v411 v567))
theorem k0_idx156_inb : ∀ (v411 : IVec S16 32) (v567 : IVec S16 32) (k0_hw156 : k0_chk156 v411 v567), ∀ a x, ((![v567, v411] : Fin 2 → IVec S16 32) a x).toNat < S200x256.size a := fun v411 v567 k0_hw156 => k0_hw156

def k0_chk157 (v411 : IVec S16 32) (v568 : IVec S16 32) : Prop :=
  (∀ a x, ((![v568, v411] : Fin 2 → IVec S16 32) a x).toNat < S200x256.size a)
instance k0_chk157.dec : ∀ (v411 : IVec S16 32) (v568 : IVec S16 32), Decidable (k0_chk157 v411 v568) := fun v411 v568 => decidable_of_iff' _ (Iff.of_eq (k0_chk157.eq_1 v411 v568))
theorem k0_idx157_inb : ∀ (v411 : IVec S16 32) (v568 : IVec S16 32) (k0_hw157 : k0_chk157 v411 v568), ∀ a x, ((![v568, v411] : Fin 2 → IVec S16 32) a x).toNat < S200x256.size a := fun v411 v568 k0_hw157 => k0_hw157

def k0_chk158 (v411 : IVec S16 32) (v569 : IVec S16 32) : Prop :=
  (∀ a x, ((![v569, v411] : Fin 2 → IVec S16 32) a x).toNat < S200x256.size a)
instance k0_chk158.dec : ∀ (v411 : IVec S16 32) (v569 : IVec S16 32), Decidable (k0_chk158 v411 v569) := fun v411 v569 => decidable_of_iff' _ (Iff.of_eq (k0_chk158.eq_1 v411 v569))
theorem k0_idx158_inb : ∀ (v411 : IVec S16 32) (v569 : IVec S16 32) (k0_hw158 : k0_chk158 v411 v569), ∀ a x, ((![v569, v411] : Fin 2 → IVec S16 32) a x).toNat < S200x256.size a := fun v411 v569 k0_hw158 => k0_hw158

def k0_chk159 (v411 : IVec S16 32) (v570 : IVec S16 32) : Prop :=
  (∀ a x, ((![v570, v411] : Fin 2 → IVec S16 32) a x).toNat < S200x256.size a)
instance k0_chk159.dec : ∀ (v411 : IVec S16 32) (v570 : IVec S16 32), Decidable (k0_chk159 v411 v570) := fun v411 v570 => decidable_of_iff' _ (Iff.of_eq (k0_chk159.eq_1 v411 v570))
theorem k0_idx159_inb : ∀ (v411 : IVec S16 32) (v570 : IVec S16 32) (k0_hw159 : k0_chk159 v411 v570), ∀ a x, ((![v570, v411] : Fin 2 → IVec S16 32) a x).toNat < S200x256.size a := fun v411 v570 k0_hw159 => k0_hw159

def k0_chk160 (v411 : IVec S16 32) (v571 : IVec S16 32) : Prop :=
  (∀ a x, ((![v571, v411] : Fin 2 → IVec S16 32) a x).toNat < S200x256.size a)
instance k0_chk160.dec : ∀ (v411 : IVec S16 32) (v571 : IVec S16 32), Decidable (k0_chk160 v411 v571) := fun v411 v571 => decidable_of_iff' _ (Iff.of_eq (k0_chk160.eq_1 v411 v571))
theorem k0_idx160_inb : ∀ (v411 : IVec S16 32) (v571 : IVec S16 32) (k0_hw160 : k0_chk160 v411 v571), ∀ a x, ((![v571, v411] : Fin 2 → IVec S16 32) a x).toNat < S200x256.size a := fun v411 v571 k0_hw160 => k0_hw160

def k0_chk161 (v411 : IVec S16 32) (v572 : IVec S16 32) : Prop :=
  (∀ a x, ((![v572, v411] : Fin 2 → IVec S16 32) a x).toNat < S200x256.size a)
instance k0_chk161.dec : ∀ (v411 : IVec S16 32) (v572 : IVec S16 32), Decidable (k0_chk161 v411 v572) := fun v411 v572 => decidable_of_iff' _ (Iff.of_eq (k0_chk161.eq_1 v411 v572))
theorem k0_idx161_inb : ∀ (v411 : IVec S16 32) (v572 : IVec S16 32) (k0_hw161 : k0_chk161 v411 v572), ∀ a x, ((![v572, v411] : Fin 2 → IVec S16 32) a x).toNat < S200x256.size a := fun v411 v572 k0_hw161 => k0_hw161

def k0_chk162 (v411 : IVec S16 32) (v573 : IVec S16 32) : Prop :=
  (∀ a x, ((![v573, v411] : Fin 2 → IVec S16 32) a x).toNat < S200x256.size a)
instance k0_chk162.dec : ∀ (v411 : IVec S16 32) (v573 : IVec S16 32), Decidable (k0_chk162 v411 v573) := fun v411 v573 => decidable_of_iff' _ (Iff.of_eq (k0_chk162.eq_1 v411 v573))
theorem k0_idx162_inb : ∀ (v411 : IVec S16 32) (v573 : IVec S16 32) (k0_hw162 : k0_chk162 v411 v573), ∀ a x, ((![v573, v411] : Fin 2 → IVec S16 32) a x).toNat < S200x256.size a := fun v411 v573 k0_hw162 => k0_hw162

def k0_chk163 (v411 : IVec S16 32) (v574 : IVec S16 32) : Prop :=
  (∀ a x, ((![v574, v411] : Fin 2 → IVec S16 32) a x).toNat < S200x256.size a)
instance k0_chk163.dec : ∀ (v411 : IVec S16 32) (v574 : IVec S16 32), Decidable (k0_chk163 v411 v574) := fun v411 v574 => decidable_of_iff' _ (Iff.of_eq (k0_chk163.eq_1 v411 v574))
theorem k0_idx163_inb : ∀ (v411 : IVec S16 32) (v574 : IVec S16 32) (k0_hw163 : k0_chk163 v411 v574), ∀ a x, ((![v574, v411] : Fin 2 → IVec S16 32) a x).toNat < S200x256.size a := fun v411 v574 k0_hw163 => k0_hw163

def k0_chk164 (v411 : IVec S16 32) (v575 : IVec S16 32) : Prop :=
  (∀ a x, ((![v575, v411] : Fin 2 → IVec S16 32) a x).toNat < S200x256.size a)
instance k0_chk164.dec : ∀ (v411 : IVec S16 32) (v575 : IVec S16 32), Decidable (k0_chk164 v411 v575) := fun v411 v575 => decidable_of_iff' _ (Iff.of_eq (k0_chk164.eq_1 v411 v575))
theorem k0_idx164_inb : ∀ (v411 : IVec S16 32) (v575 : IVec S16 32) (k0_hw164 : k0_chk164 v411 v575), ∀ a x, ((![v575, v411] : Fin 2 → IVec S16 32) a x).toNat < S200x256.size a := fun v411 v575 k0_hw164 => k0_hw164

def k0_chk165 (v411 : IVec S16 32) (v576 : IVec S16 32) : Prop :=
  (∀ a x, ((![v576, v411] : Fin 2 → IVec S16 32) a x).toNat < S200x256.size a)
instance k0_chk165.dec : ∀ (v411 : IVec S16 32) (v576 : IVec S16 32), Decidable (k0_chk165 v411 v576) := fun v411 v576 => decidable_of_iff' _ (Iff.of_eq (k0_chk165.eq_1 v411 v576))
theorem k0_idx165_inb : ∀ (v411 : IVec S16 32) (v576 : IVec S16 32) (k0_hw165 : k0_chk165 v411 v576), ∀ a x, ((![v576, v411] : Fin 2 → IVec S16 32) a x).toNat < S200x256.size a := fun v411 v576 k0_hw165 => k0_hw165

def k0_chk166 (v411 : IVec S16 32) (v577 : IVec S16 32) : Prop :=
  (∀ a x, ((![v577, v411] : Fin 2 → IVec S16 32) a x).toNat < S200x256.size a)
instance k0_chk166.dec : ∀ (v411 : IVec S16 32) (v577 : IVec S16 32), Decidable (k0_chk166 v411 v577) := fun v411 v577 => decidable_of_iff' _ (Iff.of_eq (k0_chk166.eq_1 v411 v577))
theorem k0_idx166_inb : ∀ (v411 : IVec S16 32) (v577 : IVec S16 32) (k0_hw166 : k0_chk166 v411 v577), ∀ a x, ((![v577, v411] : Fin 2 → IVec S16 32) a x).toNat < S200x256.size a := fun v411 v577 k0_hw166 => k0_hw166

def k0_chk167 (v411 : IVec S16 32) (v578 : IVec S16 32) : Prop :=
  (∀ a x, ((![v578, v411] : Fin 2 → IVec S16 32) a x).toNat < S200x256.size a)
instance k0_chk167.dec : ∀ (v411 : IVec S16 32) (v578 : IVec S16 32), Decidable (k0_chk167 v411 v578) := fun v411 v578 => decidable_of_iff' _ (Iff.of_eq (k0_chk167.eq_1 v411 v578))
theorem k0_idx167_inb : ∀ (v411 : IVec S16 32) (v578 : IVec S16 32) (k0_hw167 : k0_chk167 v411 v578), ∀ a x, ((![v578, v411] : Fin 2 → IVec S16 32) a x).toNat < S200x256.size a := fun v411 v578 k0_hw167 => k0_hw167

def k0_chk168 (v411 : IVec S16 32) (v579 : IVec S16 32) : Prop :=
  (∀ a x, ((![v579, v411] : Fin 2 → IVec S16 32) a x).toNat < S200x256.size a)
instance k0_chk168.dec : ∀ (v411 : IVec S16 32) (v579 : IVec S16 32), Decidable (k0_chk168 v411 v579) := fun v411 v579 => decidable_of_iff' _ (Iff.of_eq (k0_chk168.eq_1 v411 v579))
theorem k0_idx168_inb : ∀ (v411 : IVec S16 32) (v579 : IVec S16 32) (k0_hw168 : k0_chk168 v411 v579), ∀ a x, ((![v579, v411] : Fin 2 → IVec S16 32) a x).toNat < S200x256.size a := fun v411 v579 k0_hw168 => k0_hw168

def k0_chk169 (v411 : IVec S16 32) (v580 : IVec S16 32) : Prop :=
  (∀ a x, ((![v580, v411] : Fin 2 → IVec S16 32) a x).toNat < S200x256.size a)
instance k0_chk169.dec : ∀ (v411 : IVec S16 32) (v580 : IVec S16 32), Decidable (k0_chk169 v411 v580) := fun v411 v580 => decidable_of_iff' _ (Iff.of_eq (k0_chk169.eq_1 v411 v580))
theorem k0_idx169_inb : ∀ (v411 : IVec S16 32) (v580 : IVec S16 32) (k0_hw169 : k0_chk169 v411 v580), ∀ a x, ((![v580, v411] : Fin 2 → IVec S16 32) a x).toNat < S200x256.size a := fun v411 v580 k0_hw169 => k0_hw169

def k0_chk170 (v411 : IVec S16 32) (v581 : IVec S16 32) : Prop :=
  (∀ a x, ((![v581, v411] : Fin 2 → IVec S16 32) a x).toNat < S200x256.size a)
instance k0_chk170.dec : ∀ (v411 : IVec S16 32) (v581 : IVec S16 32), Decidable (k0_chk170 v411 v581) := fun v411 v581 => decidable_of_iff' _ (Iff.of_eq (k0_chk170.eq_1 v411 v581))
theorem k0_idx170_inb : ∀ (v411 : IVec S16 32) (v581 : IVec S16 32) (k0_hw170 : k0_chk170 v411 v581), ∀ a x, ((![v581, v411] : Fin 2 → IVec S16 32) a x).toNat < S200x256.size a := fun v411 v581 k0_hw170 => k0_hw170

def k0_chk171 (v411 : IVec S16 32) (v582 : IVec S16 32) : Prop :=
  (∀ a x, ((![v582, v411] : Fin 2 → IVec S16 32) a x).toNat < S200x256.size a)
instance k0_chk171.dec : ∀ (v411 : IVec S16 32) (v582 : IVec S16 32), Decidable (k0_chk171 v411 v582) := fun v411 v582 => decidable_of_iff' _ (Iff.of_eq (k0_chk171.eq_1 v411 v582))
theorem k0_idx171_inb : ∀ (v411 : IVec S16 32) (v582 : IVec S16 32) (k0_hw171 : k0_chk171 v411 v582), ∀ a x, ((![v582, v411] : Fin 2 → IVec S16 32) a x).toNat < S200x256.size a := fun v411 v582 k0_hw171 => k0_hw171

def k0_chk172 (v411 : IVec S16 32) (v583 : IVec S16 32) : Prop :=
  (∀ a x, ((![v583, v411] : Fin 2 → IVec S16 32) a x).toNat < S200x256.size a)
instance k0_chk172.dec : ∀ (v411 : IVec S16 32) (v583 : IVec S16 32), Decidable (k0_chk172 v411 v583) := fun v411 v583 => decidable_of_iff' _ (Iff.of_eq (k0_chk172.eq_1 v411 v583))
theorem k0_idx172_inb : ∀ (v411 : IVec S16 32) (v583 : IVec S16 32) (k0_hw172 : k0_chk172 v411 v583), ∀ a x, ((![v583, v411] : Fin 2 → IVec S16 32) a x).toNat < S200x256.size a := fun v411 v583 k0_hw172 => k0_hw172

def k0_chk173 (v411 : IVec S16 32) (v584 : IVec S16 32) : Prop :=
  (∀ a x, ((![v584, v411] : Fin 2 → IVec S16 32) a x).toNat < S200x256.size a)
instance k0_chk173.dec : ∀ (v411 : IVec S16 32) (v584 : IVec S16 32), Decidable (k0_chk173 v411 v584) := fun v411 v584 => decidable_of_iff' _ (Iff.of_eq (k0_chk173.eq_1 v411 v584))
theorem k0_idx173_inb : ∀ (v411 : IVec S16 32) (v584 : IVec S16 32) (k0_hw173 : k0_chk173 v411 v584), ∀ a x, ((![v584, v411] : Fin 2 → IVec S16 32) a x).toNat < S200x256.size a := fun v411 v584 k0_hw173 => k0_hw173

def k0_chk174 (v411 : IVec S16 32) (v585 : IVec S16 32) : Prop :=
  (∀ a x, ((![v585, v411] : Fin 2 → IVec S16 32) a x).toNat < S200x256.size a)
instance k0_chk174.dec : ∀ (v411 : IVec S16 32) (v585 : IVec S16 32), Decidable (k0_chk174 v411 v585) := fun v411 v585 => decidable_of_iff' _ (Iff.of_eq (k0_chk174.eq_1 v411 v585))
theorem k0_idx174_inb : ∀ (v411 : IVec S16 32) (v585 : IVec S16 32) (k0_hw174 : k0_chk174 v411 v585), ∀ a x, ((![v585, v411] : Fin 2 → IVec S16 32) a x).toNat < S200x256.size a := fun v411 v585 k0_hw174 => k0_hw174

def k0_chk175 (v411 : IVec S16 32) (v586 : IVec S16 32) : Prop :=
  (∀ a x, ((![v586, v411] : Fin 2 → IVec S16 32) a x).toNat < S200x256.size a)
instance k0_chk175.dec : ∀ (v411 : IVec S16 32) (v586 : IVec S16 32), Decidable (k0_chk175 v411 v586) := fun v411 v586 => decidable_of_iff' _ (Iff.of_eq (k0_chk175.eq_1 v411 v586))
theorem k0_idx175_inb : ∀ (v411 : IVec S16 32) (v586 : IVec S16 32) (k0_hw175 : k0_chk175 v411 v586), ∀ a x, ((![v586, v411] : Fin 2 → IVec S16 32) a x).toNat < S200x256.size a := fun v411 v586 k0_hw175 => k0_hw175

def k0_chk176 (v411 : IVec S16 32) (v587 : IVec S16 32) : Prop :=
  (∀ a x, ((![v587, v411] : Fin 2 → IVec S16 32) a x).toNat < S200x256.size a)
instance k0_chk176.dec : ∀ (v411 : IVec S16 32) (v587 : IVec S16 32), Decidable (k0_chk176 v411 v587) := fun v411 v587 => decidable_of_iff' _ (Iff.of_eq (k0_chk176.eq_1 v411 v587))
theorem k0_idx176_inb : ∀ (v411 : IVec S16 32) (v587 : IVec S16 32) (k0_hw176 : k0_chk176 v411 v587), ∀ a x, ((![v587, v411] : Fin 2 → IVec S16 32) a x).toNat < S200x256.size a := fun v411 v587 k0_hw176 => k0_hw176

def k0_chk177 (v411 : IVec S16 32) (v588 : IVec S16 32) : Prop :=
  (∀ a x, ((![v588, v411] : Fin 2 → IVec S16 32) a x).toNat < S200x256.size a)
instance k0_chk177.dec : ∀ (v411 : IVec S16 32) (v588 : IVec S16 32), Decidable (k0_chk177 v411 v588) := fun v411 v588 => decidable_of_iff' _ (Iff.of_eq (k0_chk177.eq_1 v411 v588))
theorem k0_idx177_inb : ∀ (v411 : IVec S16 32) (v588 : IVec S16 32) (k0_hw177 : k0_chk177 v411 v588), ∀ a x, ((![v588, v411] : Fin 2 → IVec S16 32) a x).toNat < S200x256.size a := fun v411 v588 k0_hw177 => k0_hw177

def k0_chk178 (v411 : IVec S16 32) (v589 : IVec S16 32) : Prop :=
  (∀ a x, ((![v589, v411] : Fin 2 → IVec S16 32) a x).toNat < S200x256.size a)
instance k0_chk178.dec : ∀ (v411 : IVec S16 32) (v589 : IVec S16 32), Decidable (k0_chk178 v411 v589) := fun v411 v589 => decidable_of_iff' _ (Iff.of_eq (k0_chk178.eq_1 v411 v589))
theorem k0_idx178_inb : ∀ (v411 : IVec S16 32) (v589 : IVec S16 32) (k0_hw178 : k0_chk178 v411 v589), ∀ a x, ((![v589, v411] : Fin 2 → IVec S16 32) a x).toNat < S200x256.size a := fun v411 v589 k0_hw178 => k0_hw178

def k0_chk179 (v411 : IVec S16 32) (v590 : IVec S16 32) : Prop :=
  (∀ a x, ((![v590, v411] : Fin 2 → IVec S16 32) a x).toNat < S200x256.size a)
instance k0_chk179.dec : ∀ (v411 : IVec S16 32) (v590 : IVec S16 32), Decidable (k0_chk179 v411 v590) := fun v411 v590 => decidable_of_iff' _ (Iff.of_eq (k0_chk179.eq_1 v411 v590))
theorem k0_idx179_inb : ∀ (v411 : IVec S16 32) (v590 : IVec S16 32) (k0_hw179 : k0_chk179 v411 v590), ∀ a x, ((![v590, v411] : Fin 2 → IVec S16 32) a x).toNat < S200x256.size a := fun v411 v590 k0_hw179 => k0_hw179

def k0_chk180 (v411 : IVec S16 32) (v591 : IVec S16 32) : Prop :=
  (∀ a x, ((![v591, v411] : Fin 2 → IVec S16 32) a x).toNat < S200x256.size a)
instance k0_chk180.dec : ∀ (v411 : IVec S16 32) (v591 : IVec S16 32), Decidable (k0_chk180 v411 v591) := fun v411 v591 => decidable_of_iff' _ (Iff.of_eq (k0_chk180.eq_1 v411 v591))
theorem k0_idx180_inb : ∀ (v411 : IVec S16 32) (v591 : IVec S16 32) (k0_hw180 : k0_chk180 v411 v591), ∀ a x, ((![v591, v411] : Fin 2 → IVec S16 32) a x).toNat < S200x256.size a := fun v411 v591 k0_hw180 => k0_hw180

def k0_chk181 (v411 : IVec S16 32) (v592 : IVec S16 32) : Prop :=
  (∀ a x, ((![v592, v411] : Fin 2 → IVec S16 32) a x).toNat < S200x256.size a)
instance k0_chk181.dec : ∀ (v411 : IVec S16 32) (v592 : IVec S16 32), Decidable (k0_chk181 v411 v592) := fun v411 v592 => decidable_of_iff' _ (Iff.of_eq (k0_chk181.eq_1 v411 v592))
theorem k0_idx181_inb : ∀ (v411 : IVec S16 32) (v592 : IVec S16 32) (k0_hw181 : k0_chk181 v411 v592), ∀ a x, ((![v592, v411] : Fin 2 → IVec S16 32) a x).toNat < S200x256.size a := fun v411 v592 k0_hw181 => k0_hw181

def k0_chk182 (v411 : IVec S16 32) (v593 : IVec S16 32) : Prop :=
  (∀ a x, ((![v593, v411] : Fin 2 → IVec S16 32) a x).toNat < S200x256.size a)
instance k0_chk182.dec : ∀ (v411 : IVec S16 32) (v593 : IVec S16 32), Decidable (k0_chk182 v411 v593) := fun v411 v593 => decidable_of_iff' _ (Iff.of_eq (k0_chk182.eq_1 v411 v593))
theorem k0_idx182_inb : ∀ (v411 : IVec S16 32) (v593 : IVec S16 32) (k0_hw182 : k0_chk182 v411 v593), ∀ a x, ((![v593, v411] : Fin 2 → IVec S16 32) a x).toNat < S200x256.size a := fun v411 v593 k0_hw182 => k0_hw182

def k0_chk183 (v411 : IVec S16 32) (v594 : IVec S16 32) : Prop :=
  (∀ a x, ((![v594, v411] : Fin 2 → IVec S16 32) a x).toNat < S200x256.size a)
instance k0_chk183.dec : ∀ (v411 : IVec S16 32) (v594 : IVec S16 32), Decidable (k0_chk183 v411 v594) := fun v411 v594 => decidable_of_iff' _ (Iff.of_eq (k0_chk183.eq_1 v411 v594))
theorem k0_idx183_inb : ∀ (v411 : IVec S16 32) (v594 : IVec S16 32) (k0_hw183 : k0_chk183 v411 v594), ∀ a x, ((![v594, v411] : Fin 2 → IVec S16 32) a x).toNat < S200x256.size a := fun v411 v594 k0_hw183 => k0_hw183

def k0_chk184 (v411 : IVec S16 32) (v595 : IVec S16 32) : Prop :=
  (∀ a x, ((![v595, v411] : Fin 2 → IVec S16 32) a x).toNat < S200x256.size a)
instance k0_chk184.dec : ∀ (v411 : IVec S16 32) (v595 : IVec S16 32), Decidable (k0_chk184 v411 v595) := fun v411 v595 => decidable_of_iff' _ (Iff.of_eq (k0_chk184.eq_1 v411 v595))
theorem k0_idx184_inb : ∀ (v411 : IVec S16 32) (v595 : IVec S16 32) (k0_hw184 : k0_chk184 v411 v595), ∀ a x, ((![v595, v411] : Fin 2 → IVec S16 32) a x).toNat < S200x256.size a := fun v411 v595 k0_hw184 => k0_hw184

def k0_chk185 (v411 : IVec S16 32) (v596 : IVec S16 32) : Prop :=
  (∀ a x, ((![v596, v411] : Fin 2 → IVec S16 32) a x).toNat < S200x256.size a)
instance k0_chk185.dec : ∀ (v411 : IVec S16 32) (v596 : IVec S16 32), Decidable (k0_chk185 v411 v596) := fun v411 v596 => decidable_of_iff' _ (Iff.of_eq (k0_chk185.eq_1 v411 v596))
theorem k0_idx185_inb : ∀ (v411 : IVec S16 32) (v596 : IVec S16 32) (k0_hw185 : k0_chk185 v411 v596), ∀ a x, ((![v596, v411] : Fin 2 → IVec S16 32) a x).toNat < S200x256.size a := fun v411 v596 k0_hw185 => k0_hw185

def k0_chk186 (v411 : IVec S16 32) (v597 : IVec S16 32) : Prop :=
  (∀ a x, ((![v597, v411] : Fin 2 → IVec S16 32) a x).toNat < S200x256.size a)
instance k0_chk186.dec : ∀ (v411 : IVec S16 32) (v597 : IVec S16 32), Decidable (k0_chk186 v411 v597) := fun v411 v597 => decidable_of_iff' _ (Iff.of_eq (k0_chk186.eq_1 v411 v597))
theorem k0_idx186_inb : ∀ (v411 : IVec S16 32) (v597 : IVec S16 32) (k0_hw186 : k0_chk186 v411 v597), ∀ a x, ((![v597, v411] : Fin 2 → IVec S16 32) a x).toNat < S200x256.size a := fun v411 v597 k0_hw186 => k0_hw186

def k0_chk187 (v411 : IVec S16 32) (v598 : IVec S16 32) : Prop :=
  (∀ a x, ((![v598, v411] : Fin 2 → IVec S16 32) a x).toNat < S200x256.size a)
instance k0_chk187.dec : ∀ (v411 : IVec S16 32) (v598 : IVec S16 32), Decidable (k0_chk187 v411 v598) := fun v411 v598 => decidable_of_iff' _ (Iff.of_eq (k0_chk187.eq_1 v411 v598))
theorem k0_idx187_inb : ∀ (v411 : IVec S16 32) (v598 : IVec S16 32) (k0_hw187 : k0_chk187 v411 v598), ∀ a x, ((![v598, v411] : Fin 2 → IVec S16 32) a x).toNat < S200x256.size a := fun v411 v598 k0_hw187 => k0_hw187

def k0_chk188 (v411 : IVec S16 32) (v599 : IVec S16 32) : Prop :=
  (∀ a x, ((![v599, v411] : Fin 2 → IVec S16 32) a x).toNat < S200x256.size a)
instance k0_chk188.dec : ∀ (v411 : IVec S16 32) (v599 : IVec S16 32), Decidable (k0_chk188 v411 v599) := fun v411 v599 => decidable_of_iff' _ (Iff.of_eq (k0_chk188.eq_1 v411 v599))
theorem k0_idx188_inb : ∀ (v411 : IVec S16 32) (v599 : IVec S16 32) (k0_hw188 : k0_chk188 v411 v599), ∀ a x, ((![v599, v411] : Fin 2 → IVec S16 32) a x).toNat < S200x256.size a := fun v411 v599 k0_hw188 => k0_hw188

def k0_chk189 (v411 : IVec S16 32) (v600 : IVec S16 32) : Prop :=
  (∀ a x, ((![v600, v411] : Fin 2 → IVec S16 32) a x).toNat < S200x256.size a)
instance k0_chk189.dec : ∀ (v411 : IVec S16 32) (v600 : IVec S16 32), Decidable (k0_chk189 v411 v600) := fun v411 v600 => decidable_of_iff' _ (Iff.of_eq (k0_chk189.eq_1 v411 v600))
theorem k0_idx189_inb : ∀ (v411 : IVec S16 32) (v600 : IVec S16 32) (k0_hw189 : k0_chk189 v411 v600), ∀ a x, ((![v600, v411] : Fin 2 → IVec S16 32) a x).toNat < S200x256.size a := fun v411 v600 k0_hw189 => k0_hw189

def k0_chk190 (v411 : IVec S16 32) (v601 : IVec S16 32) : Prop :=
  (∀ a x, ((![v601, v411] : Fin 2 → IVec S16 32) a x).toNat < S200x256.size a)
instance k0_chk190.dec : ∀ (v411 : IVec S16 32) (v601 : IVec S16 32), Decidable (k0_chk190 v411 v601) := fun v411 v601 => decidable_of_iff' _ (Iff.of_eq (k0_chk190.eq_1 v411 v601))
theorem k0_idx190_inb : ∀ (v411 : IVec S16 32) (v601 : IVec S16 32) (k0_hw190 : k0_chk190 v411 v601), ∀ a x, ((![v601, v411] : Fin 2 → IVec S16 32) a x).toNat < S200x256.size a := fun v411 v601 k0_hw190 => k0_hw190

def k0_chk191 (v411 : IVec S16 32) (v602 : IVec S16 32) : Prop :=
  (∀ a x, ((![v602, v411] : Fin 2 → IVec S16 32) a x).toNat < S200x256.size a)
instance k0_chk191.dec : ∀ (v411 : IVec S16 32) (v602 : IVec S16 32), Decidable (k0_chk191 v411 v602) := fun v411 v602 => decidable_of_iff' _ (Iff.of_eq (k0_chk191.eq_1 v411 v602))
theorem k0_idx191_inb : ∀ (v411 : IVec S16 32) (v602 : IVec S16 32) (k0_hw191 : k0_chk191 v411 v602), ∀ a x, ((![v602, v411] : Fin 2 → IVec S16 32) a x).toNat < S200x256.size a := fun v411 v602 k0_hw191 => k0_hw191

def k0_chk192 (v411 : IVec S16 32) (v603 : IVec S16 32) : Prop :=
  (∀ a x, ((![v603, v411] : Fin 2 → IVec S16 32) a x).toNat < S200x256.size a)
instance k0_chk192.dec : ∀ (v411 : IVec S16 32) (v603 : IVec S16 32), Decidable (k0_chk192 v411 v603) := fun v411 v603 => decidable_of_iff' _ (Iff.of_eq (k0_chk192.eq_1 v411 v603))
theorem k0_idx192_inb : ∀ (v411 : IVec S16 32) (v603 : IVec S16 32) (k0_hw192 : k0_chk192 v411 v603), ∀ a x, ((![v603, v411] : Fin 2 → IVec S16 32) a x).toNat < S200x256.size a := fun v411 v603 k0_hw192 => k0_hw192

def k0_chk193 (v411 : IVec S16 32) (v604 : IVec S16 32) : Prop :=
  (∀ a x, ((![v604, v411] : Fin 2 → IVec S16 32) a x).toNat < S200x256.size a)
instance k0_chk193.dec : ∀ (v411 : IVec S16 32) (v604 : IVec S16 32), Decidable (k0_chk193 v411 v604) := fun v411 v604 => decidable_of_iff' _ (Iff.of_eq (k0_chk193.eq_1 v411 v604))
theorem k0_idx193_inb : ∀ (v411 : IVec S16 32) (v604 : IVec S16 32) (k0_hw193 : k0_chk193 v411 v604), ∀ a x, ((![v604, v411] : Fin 2 → IVec S16 32) a x).toNat < S200x256.size a := fun v411 v604 k0_hw193 => k0_hw193

def k0_chk194 (v411 : IVec S16 32) (v605 : IVec S16 32) : Prop :=
  (∀ a x, ((![v605, v411] : Fin 2 → IVec S16 32) a x).toNat < S200x256.size a)
instance k0_chk194.dec : ∀ (v411 : IVec S16 32) (v605 : IVec S16 32), Decidable (k0_chk194 v411 v605) := fun v411 v605 => decidable_of_iff' _ (Iff.of_eq (k0_chk194.eq_1 v411 v605))
theorem k0_idx194_inb : ∀ (v411 : IVec S16 32) (v605 : IVec S16 32) (k0_hw194 : k0_chk194 v411 v605), ∀ a x, ((![v605, v411] : Fin 2 → IVec S16 32) a x).toNat < S200x256.size a := fun v411 v605 k0_hw194 => k0_hw194

def k0_chk195 (v411 : IVec S16 32) (v606 : IVec S16 32) : Prop :=
  (∀ a x, ((![v606, v411] : Fin 2 → IVec S16 32) a x).toNat < S200x256.size a)
instance k0_chk195.dec : ∀ (v411 : IVec S16 32) (v606 : IVec S16 32), Decidable (k0_chk195 v411 v606) := fun v411 v606 => decidable_of_iff' _ (Iff.of_eq (k0_chk195.eq_1 v411 v606))
theorem k0_idx195_inb : ∀ (v411 : IVec S16 32) (v606 : IVec S16 32) (k0_hw195 : k0_chk195 v411 v606), ∀ a x, ((![v606, v411] : Fin 2 → IVec S16 32) a x).toNat < S200x256.size a := fun v411 v606 k0_hw195 => k0_hw195

def k0_chk196 (v411 : IVec S16 32) (v607 : IVec S16 32) : Prop :=
  (∀ a x, ((![v607, v411] : Fin 2 → IVec S16 32) a x).toNat < S200x256.size a)
instance k0_chk196.dec : ∀ (v411 : IVec S16 32) (v607 : IVec S16 32), Decidable (k0_chk196 v411 v607) := fun v411 v607 => decidable_of_iff' _ (Iff.of_eq (k0_chk196.eq_1 v411 v607))
theorem k0_idx196_inb : ∀ (v411 : IVec S16 32) (v607 : IVec S16 32) (k0_hw196 : k0_chk196 v411 v607), ∀ a x, ((![v607, v411] : Fin 2 → IVec S16 32) a x).toNat < S200x256.size a := fun v411 v607 k0_hw196 => k0_hw196

def k0_chk197 (v411 : IVec S16 32) (v608 : IVec S16 32) : Prop :=
  (∀ a x, ((![v608, v411] : Fin 2 → IVec S16 32) a x).toNat < S200x256.size a)
instance k0_chk197.dec : ∀ (v411 : IVec S16 32) (v608 : IVec S16 32), Decidable (k0_chk197 v411 v608) := fun v411 v608 => decidable_of_iff' _ (Iff.of_eq (k0_chk197.eq_1 v411 v608))
theorem k0_idx197_inb : ∀ (v411 : IVec S16 32) (v608 : IVec S16 32) (k0_hw197 : k0_chk197 v411 v608), ∀ a x, ((![v608, v411] : Fin 2 → IVec S16 32) a x).toNat < S200x256.size a := fun v411 v608 k0_hw197 => k0_hw197

def k0_chk198 (v411 : IVec S16 32) (v609 : IVec S16 32) : Prop :=
  (∀ a x, ((![v609, v411] : Fin 2 → IVec S16 32) a x).toNat < S200x256.size a)
instance k0_chk198.dec : ∀ (v411 : IVec S16 32) (v609 : IVec S16 32), Decidable (k0_chk198 v411 v609) := fun v411 v609 => decidable_of_iff' _ (Iff.of_eq (k0_chk198.eq_1 v411 v609))
theorem k0_idx198_inb : ∀ (v411 : IVec S16 32) (v609 : IVec S16 32) (k0_hw198 : k0_chk198 v411 v609), ∀ a x, ((![v609, v411] : Fin 2 → IVec S16 32) a x).toNat < S200x256.size a := fun v411 v609 k0_hw198 => k0_hw198

def k0_chk199 (v411 : IVec S16 32) (v610 : IVec S16 32) : Prop :=
  (∀ a x, ((![v610, v411] : Fin 2 → IVec S16 32) a x).toNat < S200x256.size a)
instance k0_chk199.dec : ∀ (v411 : IVec S16 32) (v610 : IVec S16 32), Decidable (k0_chk199 v411 v610) := fun v411 v610 => decidable_of_iff' _ (Iff.of_eq (k0_chk199.eq_1 v411 v610))
theorem k0_idx199_inb : ∀ (v411 : IVec S16 32) (v610 : IVec S16 32) (k0_hw199 : k0_chk199 v411 v610), ∀ a x, ((![v610, v411] : Fin 2 → IVec S16 32) a x).toNat < S200x256.size a := fun v411 v610 k0_hw199 => k0_hw199

def k0_chk200 (v411 : IVec S16 32) (v611 : IVec S16 32) : Prop :=
  (∀ a x, ((![v611, v411] : Fin 2 → IVec S16 32) a x).toNat < S200x256.size a)
instance k0_chk200.dec : ∀ (v411 : IVec S16 32) (v611 : IVec S16 32), Decidable (k0_chk200 v411 v611) := fun v411 v611 => decidable_of_iff' _ (Iff.of_eq (k0_chk200.eq_1 v411 v611))
theorem k0_idx200_inb : ∀ (v411 : IVec S16 32) (v611 : IVec S16 32) (k0_hw200 : k0_chk200 v411 v611), ∀ a x, ((![v611, v411] : Fin 2 → IVec S16 32) a x).toNat < S200x256.size a := fun v411 v611 k0_hw200 => k0_hw200

def k0_chk201 (v14 : IVec S16 32) (v16 : IVec S16 32) : Prop :=
  (∀ a x, ((![v14, v16] : Fin 2 → IVec S16 32) a x).toNat < S200x256.size a)
instance k0_chk201.dec : ∀ (v14 : IVec S16 32) (v16 : IVec S16 32), Decidable (k0_chk201 v14 v16) := fun v14 v16 => decidable_of_iff' _ (Iff.of_eq (k0_chk201.eq_1 v14 v16))
theorem k0_idx201_inb : ∀ (v14 : IVec S16 32) (v16 : IVec S16 32) (k0_hw201 : k0_chk201 v14 v16), ∀ a x, ((![v14, v16] : Fin 2 → IVec S16 32) a x).toNat < S200x256.size a := fun v14 v16 k0_hw201 => k0_hw201

def k0_chk202 (v20 : IVec S16 32) (v22 : IVec S16 32) : Prop :=
  (∀ a x, ((![v20, v22] : Fin 2 → IVec S16 32) a x).toNat < S200x256.size a)
instance k0_chk202.dec : ∀ (v20 : IVec S16 32) (v22 : IVec S16 32), Decidable (k0_chk202 v20 v22) := fun v20 v22 => decidable_of_iff' _ (Iff.of_eq (k0_chk202.eq_1 v20 v22))
theorem k0_idx202_inb : ∀ (v20 : IVec S16 32) (v22 : IVec S16 32) (k0_hw202 : k0_chk202 v20 v22), ∀ a x, ((![v20, v22] : Fin 2 → IVec S16 32) a x).toNat < S200x256.size a := fun v20 v22 k0_hw202 => k0_hw202

def k0_chk203 (v26 : IVec S16 32) (v28 : IVec S16 32) : Prop :=
  (∀ a x, ((![v26, v28] : Fin 2 → IVec S16 32) a x).toNat < S200x256.size a)
instance k0_chk203.dec : ∀ (v26 : IVec S16 32) (v28 : IVec S16 32), Decidable (k0_chk203 v26 v28) := fun v26 v28 => decidable_of_iff' _ (Iff.of_eq (k0_chk203.eq_1 v26 v28))
theorem k0_idx203_inb : ∀ (v26 : IVec S16 32) (v28 : IVec S16 32) (k0_hw203 : k0_chk203 v26 v28), ∀ a x, ((![v26, v28] : Fin 2 → IVec S16 32) a x).toNat < S200x256.size a := fun v26 v28 k0_hw203 => k0_hw203

def k0_chk204 (v32 : IVec S16 32) (v34 : IVec S16 32) : Prop :=
  (∀ a x, ((![v32, v34] : Fin 2 → IVec S16 32) a x).toNat < S200x256.size a)
instance k0_chk204.dec : ∀ (v32 : IVec S16 32) (v34 : IVec S16 32), Decidable (k0_chk204 v32 v34) := fun v32 v34 => decidable_of_iff' _ (Iff.of_eq (k0_chk204.eq_1 v32 v34))
theorem k0_idx204_inb : ∀ (v32 : IVec S16 32) (v34 : IVec S16 32) (k0_hw204 : k0_chk204 v32 v34), ∀ a x, ((![v32, v34] : Fin 2 → IVec S16 32) a x).toNat < S200x256.size a := fun v32 v34 k0_hw204 => k0_hw204

def k0_chk205 (v38 : IVec S16 32) (v40 : IVec S16 32) : Prop :=
  (∀ a x, ((![v38, v40] : Fin 2 → IVec S16 32) a x).toNat < S200x256.size a)
instance k0_chk205.dec : ∀ (v38 : IVec S16 32) (v40 : IVec S16 32), Decidable (k0_chk205 v38 v40) := fun v38 v40 => decidable_of_iff' _ (Iff.of_eq (k0_chk205.eq_1 v38 v40))
theorem k0_idx205_inb : ∀ (v38 : IVec S16 32) (v40 : IVec S16 32) (k0_hw205 : k0_chk205 v38 v40), ∀ a x, ((![v38, v40] : Fin 2 → IVec S16 32) a x).toNat < S200x256.size a := fun v38 v40 k0_hw205 => k0_hw205

def k0_chk206 (v44 : IVec S16 32) (v46 : IVec S16 32) : Prop :=
  (∀ a x, ((![v44, v46] : Fin 2 → IVec S16 32) a x).toNat < S200x256.size a)
instance k0_chk206.dec : ∀ (v44 : IVec S16 32) (v46 : IVec S16 32), Decidable (k0_chk206 v44 v46) := fun v44 v46 => decidable_of_iff' _ (Iff.of_eq (k0_chk206.eq_1 v44 v46))
theorem k0_idx206_inb : ∀ (v44 : IVec S16 32) (v46 : IVec S16 32) (k0_hw206 : k0_chk206 v44 v46), ∀ a x, ((![v44, v46] : Fin 2 → IVec S16 32) a x).toNat < S200x256.size a := fun v44 v46 k0_hw206 => k0_hw206

def k0_chk207 (v50 : IVec S16 32) (v52 : IVec S16 32) : Prop :=
  (∀ a x, ((![v50, v52] : Fin 2 → IVec S16 32) a x).toNat < S200x256.size a)
instance k0_chk207.dec : ∀ (v50 : IVec S16 32) (v52 : IVec S16 32), Decidable (k0_chk207 v50 v52) := fun v50 v52 => decidable_of_iff' _ (Iff.of_eq (k0_chk207.eq_1 v50 v52))
theorem k0_idx207_inb : ∀ (v50 : IVec S16 32) (v52 : IVec S16 32) (k0_hw207 : k0_chk207 v50 v52), ∀ a x, ((![v50, v52] : Fin 2 → IVec S16 32) a x).toNat < S200x256.size a := fun v50 v52 k0_hw207 => k0_hw207

def k0_chk208 (v56 : IVec S16 32) (v58 : IVec S16 32) : Prop :=
  (∀ a x, ((![v56, v58] : Fin 2 → IVec S16 32) a x).toNat < S200x256.size a)
instance k0_chk208.dec : ∀ (v56 : IVec S16 32) (v58 : IVec S16 32), Decidable (k0_chk208 v56 v58) := fun v56 v58 => decidable_of_iff' _ (Iff.of_eq (k0_chk208.eq_1 v56 v58))
theorem k0_idx208_inb : ∀ (v56 : IVec S16 32) (v58 : IVec S16 32) (k0_hw208 : k0_chk208 v56 v58), ∀ a x, ((![v56, v58] : Fin 2 → IVec S16 32) a x).toNat < S200x256.size a := fun v56 v58 k0_hw208 => k0_hw208

def k0_chk209 (v62 : IVec S16 32) (v64 : IVec S16 32) : Prop :=
  (∀ a x, ((![v62, v64] : Fin 2 → IVec S16 32) a x).toNat < S200x256.size a)
instance k0_chk209.dec : ∀ (v62 : IVec S16 32) (v64 : IVec S16 32), Decidable (k0_chk209 v62 v64) := fun v62 v64 => decidable_of_iff' _ (Iff.of_eq (k0_chk209.eq_1 v62 v64))
theorem k0_idx209_inb : ∀ (v62 : IVec S16 32) (v64 : IVec S16 32) (k0_hw209 : k0_chk209 v62 v64), ∀ a x, ((![v62, v64] : Fin 2 → IVec S16 32) a x).toNat < S200x256.size a := fun v62 v64 k0_hw209 => k0_hw209

def k0_chk210 (v68 : IVec S16 32) (v70 : IVec S16 32) : Prop :=
  (∀ a x, ((![v68, v70] : Fin 2 → IVec S16 32) a x).toNat < S200x256.size a)
instance k0_chk210.dec : ∀ (v68 : IVec S16 32) (v70 : IVec S16 32), Decidable (k0_chk210 v68 v70) := fun v68 v70 => decidable_of_iff' _ (Iff.of_eq (k0_chk210.eq_1 v68 v70))
theorem k0_idx210_inb : ∀ (v68 : IVec S16 32) (v70 : IVec S16 32) (k0_hw210 : k0_chk210 v68 v70), ∀ a x, ((![v68, v70] : Fin 2 → IVec S16 32) a x).toNat < S200x256.size a := fun v68 v70 k0_hw210 => k0_hw210

def k0_chk211 (v74 : IVec S16 32) (v76 : IVec S16 32) : Prop :=
  (∀ a x, ((![v74, v76] : Fin 2 → IVec S16 32) a x).toNat < S200x256.size a)
instance k0_chk211.dec : ∀ (v74 : IVec S16 32) (v76 : IVec S16 32), Decidable (k0_chk211 v74 v76) := fun v74 v76 => decidable_of_iff' _ (Iff.of_eq (k0_chk211.eq_1 v74 v76))
theorem k0_idx211_inb : ∀ (v74 : IVec S16 32) (v76 : IVec S16 32) (k0_hw211 : k0_chk211 v74 v76), ∀ a x, ((![v74, v76] : Fin 2 → IVec S16 32) a x).toNat < S200x256.size a := fun v74 v76 k0_hw211 => k0_hw211

def k0_chk212 (v80 : IVec S16 32) (v82 : IVec S16 32) : Prop :=
  (∀ a x, ((![v80, v82] : Fin 2 → IVec S16 32) a x).toNat < S200x256.size a)
instance k0_chk212.dec : ∀ (v80 : IVec S16 32) (v82 : IVec S16 32), Decidable (k0_chk212 v80 v82) := fun v80 v82 => decidable_of_iff' _ (Iff.of_eq (k0_chk212.eq_1 v80 v82))
theorem k0_idx212_inb : ∀ (v80 : IVec S16 32) (v82 : IVec S16 32) (k0_hw212 : k0_chk212 v80 v82), ∀ a x, ((![v80, v82] : Fin 2 → IVec S16 32) a x).toNat < S200x256.size a := fun v80 v82 k0_hw212 => k0_hw212

def k0_chk213 (v86 : IVec S16 32) (v88 : IVec S16 32) : Prop :=
  (∀ a x, ((![v86, v88] : Fin 2 → IVec S16 32) a x).toNat < S200x256.size a)
instance k0_chk213.dec : ∀ (v86 : IVec S16 32) (v88 : IVec S16 32), Decidable (k0_chk213 v86 v88) := fun v86 v88 => decidable_of_iff' _ (Iff.of_eq (k0_chk213.eq_1 v86 v88))
theorem k0_idx213_inb : ∀ (v86 : IVec S16 32) (v88 : IVec S16 32) (k0_hw213 : k0_chk213 v86 v88), ∀ a x, ((![v86, v88] : Fin 2 → IVec S16 32) a x).toNat < S200x256.size a := fun v86 v88 k0_hw213 => k0_hw213

def k0_chk214 (v92 : IVec S16 32) (v94 : IVec S16 32) : Prop :=
  (∀ a x, ((![v92, v94] : Fin 2 → IVec S16 32) a x).toNat < S200x256.size a)
instance k0_chk214.dec : ∀ (v92 : IVec S16 32) (v94 : IVec S16 32), Decidable (k0_chk214 v92 v94) := fun v92 v94 => decidable_of_iff' _ (Iff.of_eq (k0_chk214.eq_1 v92 v94))
theorem k0_idx214_inb : ∀ (v92 : IVec S16 32) (v94 : IVec S16 32) (k0_hw214 : k0_chk214 v92 v94), ∀ a x, ((![v92, v94] : Fin 2 → IVec S16 32) a x).toNat < S200x256.size a := fun v92 v94 k0_hw214 => k0_hw214

def k0_chk215 (v98 : IVec S16 32) (v100 : IVec S16 32) : Prop :=
  (∀ a x, ((![v98, v100] : Fin 2 → IVec S16 32) a x).toNat < S200x256.size a)
instance k0_chk215.dec : ∀ (v98 : IVec S16 32) (v100 : IVec S16 32), Decidable (k0_chk215 v98 v100) := fun v98 v100 => decidable_of_iff' _ (Iff.of_eq (k0_chk215.eq_1 v98 v100))
theorem k0_idx215_inb : ∀ (v98 : IVec S16 32) (v100 : IVec S16 32) (k0_hw215 : k0_chk215 v98 v100), ∀ a x, ((![v98, v100] : Fin 2 → IVec S16 32) a x).toNat < S200x256.size a := fun v98 v100 k0_hw215 => k0_hw215

def k0_chk216 (v104 : IVec S16 32) (v106 : IVec S16 32) : Prop :=
  (∀ a x, ((![v104, v106] : Fin 2 → IVec S16 32) a x).toNat < S200x256.size a)
instance k0_chk216.dec : ∀ (v104 : IVec S16 32) (v106 : IVec S16 32), Decidable (k0_chk216 v104 v106) := fun v104 v106 => decidable_of_iff' _ (Iff.of_eq (k0_chk216.eq_1 v104 v106))
theorem k0_idx216_inb : ∀ (v104 : IVec S16 32) (v106 : IVec S16 32) (k0_hw216 : k0_chk216 v104 v106), ∀ a x, ((![v104, v106] : Fin 2 → IVec S16 32) a x).toNat < S200x256.size a := fun v104 v106 k0_hw216 => k0_hw216

def k0_chk217 (v110 : IVec S16 32) (v112 : IVec S16 32) : Prop :=
  (∀ a x, ((![v110, v112] : Fin 2 → IVec S16 32) a x).toNat < S200x256.size a)
instance k0_chk217.dec : ∀ (v110 : IVec S16 32) (v112 : IVec S16 32), Decidable (k0_chk217 v110 v112) := fun v110 v112 => decidable_of_iff' _ (Iff.of_eq (k0_chk217.eq_1 v110 v112))
theorem k0_idx217_inb : ∀ (v110 : IVec S16 32) (v112 : IVec S16 32) (k0_hw217 : k0_chk217 v110 v112), ∀ a x, ((![v110, v112] : Fin 2 → IVec S16 32) a x).toNat < S200x256.size a := fun v110 v112 k0_hw217 => k0_hw217

def k0_chk218 (v116 : IVec S16 32) (v118 : IVec S16 32) : Prop :=
  (∀ a x, ((![v116, v118] : Fin 2 → IVec S16 32) a x).toNat < S200x256.size a)
instance k0_chk218.dec : ∀ (v116 : IVec S16 32) (v118 : IVec S16 32), Decidable (k0_chk218 v116 v118) := fun v116 v118 => decidable_of_iff' _ (Iff.of_eq (k0_chk218.eq_1 v116 v118))
theorem k0_idx218_inb : ∀ (v116 : IVec S16 32) (v118 : IVec S16 32) (k0_hw218 : k0_chk218 v116 v118), ∀ a x, ((![v116, v118] : Fin 2 → IVec S16 32) a x).toNat < S200x256.size a := fun v116 v118 k0_hw218 => k0_hw218

def k0_chk219 (v122 : IVec S16 32) (v124 : IVec S16 32) : Prop :=
  (∀ a x, ((![v122, v124] : Fin 2 → IVec S16 32) a x).toNat < S200x256.size a)
instance k0_chk219.dec : ∀ (v122 : IVec S16 32) (v124 : IVec S16 32), Decidable (k0_chk219 v122 v124) := fun v122 v124 => decidable_of_iff' _ (Iff.of_eq (k0_chk219.eq_1 v122 v124))
theorem k0_idx219_inb : ∀ (v122 : IVec S16 32) (v124 : IVec S16 32) (k0_hw219 : k0_chk219 v122 v124), ∀ a x, ((![v122, v124] : Fin 2 → IVec S16 32) a x).toNat < S200x256.size a := fun v122 v124 k0_hw219 => k0_hw219

def k0_chk220 (v128 : IVec S16 32) (v130 : IVec S16 32) : Prop :=
  (∀ a x, ((![v128, v130] : Fin 2 → IVec S16 32) a x).toNat < S200x256.size a)
instance k0_chk220.dec : ∀ (v128 : IVec S16 32) (v130 : IVec S16 32), Decidable (k0_chk220 v128 v130) := fun v128 v130 => decidable_of_iff' _ (Iff.of_eq (k0_chk220.eq_1 v128 v130))
theorem k0_idx220_inb : ∀ (v128 : IVec S16 32) (v130 : IVec S16 32) (k0_hw220 : k0_chk220 v128 v130), ∀ a x, ((![v128, v130] : Fin 2 → IVec S16 32) a x).toNat < S200x256.size a := fun v128 v130 k0_hw220 => k0_hw220

def k0_chk221 (v134 : IVec S16 32) (v136 : IVec S16 32) : Prop :=
  (∀ a x, ((![v134, v136] : Fin 2 → IVec S16 32) a x).toNat < S200x256.size a)
instance k0_chk221.dec : ∀ (v134 : IVec S16 32) (v136 : IVec S16 32), Decidable (k0_chk221 v134 v136) := fun v134 v136 => decidable_of_iff' _ (Iff.of_eq (k0_chk221.eq_1 v134 v136))
theorem k0_idx221_inb : ∀ (v134 : IVec S16 32) (v136 : IVec S16 32) (k0_hw221 : k0_chk221 v134 v136), ∀ a x, ((![v134, v136] : Fin 2 → IVec S16 32) a x).toNat < S200x256.size a := fun v134 v136 k0_hw221 => k0_hw221

def k0_chk222 (v140 : IVec S16 32) (v142 : IVec S16 32) : Prop :=
  (∀ a x, ((![v140, v142] : Fin 2 → IVec S16 32) a x).toNat < S200x256.size a)
instance k0_chk222.dec : ∀ (v140 : IVec S16 32) (v142 : IVec S16 32), Decidable (k0_chk222 v140 v142) := fun v140 v142 => decidable_of_iff' _ (Iff.of_eq (k0_chk222.eq_1 v140 v142))
theorem k0_idx222_inb : ∀ (v140 : IVec S16 32) (v142 : IVec S16 32) (k0_hw222 : k0_chk222 v140 v142), ∀ a x, ((![v140, v142] : Fin 2 → IVec S16 32) a x).toNat < S200x256.size a := fun v140 v142 k0_hw222 => k0_hw222

def k0_chk223 (v146 : IVec S16 32) (v148 : IVec S16 32) : Prop :=
  (∀ a x, ((![v146, v148] : Fin 2 → IVec S16 32) a x).toNat < S200x256.size a)
instance k0_chk223.dec : ∀ (v146 : IVec S16 32) (v148 : IVec S16 32), Decidable (k0_chk223 v146 v148) := fun v146 v148 => decidable_of_iff' _ (Iff.of_eq (k0_chk223.eq_1 v146 v148))
theorem k0_idx223_inb : ∀ (v146 : IVec S16 32) (v148 : IVec S16 32) (k0_hw223 : k0_chk223 v146 v148), ∀ a x, ((![v146, v148] : Fin 2 → IVec S16 32) a x).toNat < S200x256.size a := fun v146 v148 k0_hw223 => k0_hw223

def k0_chk224 (v152 : IVec S16 32) (v154 : IVec S16 32) : Prop :=
  (∀ a x, ((![v152, v154] : Fin 2 → IVec S16 32) a x).toNat < S200x256.size a)
instance k0_chk224.dec : ∀ (v152 : IVec S16 32) (v154 : IVec S16 32), Decidable (k0_chk224 v152 v154) := fun v152 v154 => decidable_of_iff' _ (Iff.of_eq (k0_chk224.eq_1 v152 v154))
theorem k0_idx224_inb : ∀ (v152 : IVec S16 32) (v154 : IVec S16 32) (k0_hw224 : k0_chk224 v152 v154), ∀ a x, ((![v152, v154] : Fin 2 → IVec S16 32) a x).toNat < S200x256.size a := fun v152 v154 k0_hw224 => k0_hw224

def k0_chk225 (v158 : IVec S16 32) (v160 : IVec S16 32) : Prop :=
  (∀ a x, ((![v158, v160] : Fin 2 → IVec S16 32) a x).toNat < S200x256.size a)
instance k0_chk225.dec : ∀ (v158 : IVec S16 32) (v160 : IVec S16 32), Decidable (k0_chk225 v158 v160) := fun v158 v160 => decidable_of_iff' _ (Iff.of_eq (k0_chk225.eq_1 v158 v160))
theorem k0_idx225_inb : ∀ (v158 : IVec S16 32) (v160 : IVec S16 32) (k0_hw225 : k0_chk225 v158 v160), ∀ a x, ((![v158, v160] : Fin 2 → IVec S16 32) a x).toNat < S200x256.size a := fun v158 v160 k0_hw225 => k0_hw225

def k0_chk226 (v164 : IVec S16 32) (v166 : IVec S16 32) : Prop :=
  (∀ a x, ((![v164, v166] : Fin 2 → IVec S16 32) a x).toNat < S200x256.size a)
instance k0_chk226.dec : ∀ (v164 : IVec S16 32) (v166 : IVec S16 32), Decidable (k0_chk226 v164 v166) := fun v164 v166 => decidable_of_iff' _ (Iff.of_eq (k0_chk226.eq_1 v164 v166))
theorem k0_idx226_inb : ∀ (v164 : IVec S16 32) (v166 : IVec S16 32) (k0_hw226 : k0_chk226 v164 v166), ∀ a x, ((![v164, v166] : Fin 2 → IVec S16 32) a x).toNat < S200x256.size a := fun v164 v166 k0_hw226 => k0_hw226

def k0_chk227 (v170 : IVec S16 32) (v172 : IVec S16 32) : Prop :=
  (∀ a x, ((![v170, v172] : Fin 2 → IVec S16 32) a x).toNat < S200x256.size a)
instance k0_chk227.dec : ∀ (v170 : IVec S16 32) (v172 : IVec S16 32), Decidable (k0_chk227 v170 v172) := fun v170 v172 => decidable_of_iff' _ (Iff.of_eq (k0_chk227.eq_1 v170 v172))
theorem k0_idx227_inb : ∀ (v170 : IVec S16 32) (v172 : IVec S16 32) (k0_hw227 : k0_chk227 v170 v172), ∀ a x, ((![v170, v172] : Fin 2 → IVec S16 32) a x).toNat < S200x256.size a := fun v170 v172 k0_hw227 => k0_hw227

def k0_chk228 (v176 : IVec S16 32) (v178 : IVec S16 32) : Prop :=
  (∀ a x, ((![v176, v178] : Fin 2 → IVec S16 32) a x).toNat < S200x256.size a)
instance k0_chk228.dec : ∀ (v176 : IVec S16 32) (v178 : IVec S16 32), Decidable (k0_chk228 v176 v178) := fun v176 v178 => decidable_of_iff' _ (Iff.of_eq (k0_chk228.eq_1 v176 v178))
theorem k0_idx228_inb : ∀ (v176 : IVec S16 32) (v178 : IVec S16 32) (k0_hw228 : k0_chk228 v176 v178), ∀ a x, ((![v176, v178] : Fin 2 → IVec S16 32) a x).toNat < S200x256.size a := fun v176 v178 k0_hw228 => k0_hw228

def k0_chk229 (v182 : IVec S16 32) (v184 : IVec S16 32) : Prop :=
  (∀ a x, ((![v182, v184] : Fin 2 → IVec S16 32) a x).toNat < S200x256.size a)
instance k0_chk229.dec : ∀ (v182 : IVec S16 32) (v184 : IVec S16 32), Decidable (k0_chk229 v182 v184) := fun v182 v184 => decidable_of_iff' _ (Iff.of_eq (k0_chk229.eq_1 v182 v184))
theorem k0_idx229_inb : ∀ (v182 : IVec S16 32) (v184 : IVec S16 32) (k0_hw229 : k0_chk229 v182 v184), ∀ a x, ((![v182, v184] : Fin 2 → IVec S16 32) a x).toNat < S200x256.size a := fun v182 v184 k0_hw229 => k0_hw229

def k0_chk230 (v188 : IVec S16 32) (v190 : IVec S16 32) : Prop :=
  (∀ a x, ((![v188, v190] : Fin 2 → IVec S16 32) a x).toNat < S200x256.size a)
instance k0_chk230.dec : ∀ (v188 : IVec S16 32) (v190 : IVec S16 32), Decidable (k0_chk230 v188 v190) := fun v188 v190 => decidable_of_iff' _ (Iff.of_eq (k0_chk230.eq_1 v188 v190))
theorem k0_idx230_inb : ∀ (v188 : IVec S16 32) (v190 : IVec S16 32) (k0_hw230 : k0_chk230 v188 v190), ∀ a x, ((![v188, v190] : Fin 2 → IVec S16 32) a x).toNat < S200x256.size a := fun v188 v190 k0_hw230 => k0_hw230

def k0_chk231 (v194 : IVec S16 32) (v196 : IVec S16 32) : Prop :=
  (∀ a x, ((![v194, v196] : Fin 2 → IVec S16 32) a x).toNat < S200x256.size a)
instance k0_chk231.dec : ∀ (v194 : IVec S16 32) (v196 : IVec S16 32), Decidable (k0_chk231 v194 v196) := fun v194 v196 => decidable_of_iff' _ (Iff.of_eq (k0_chk231.eq_1 v194 v196))
theorem k0_idx231_inb : ∀ (v194 : IVec S16 32) (v196 : IVec S16 32) (k0_hw231 : k0_chk231 v194 v196), ∀ a x, ((![v194, v196] : Fin 2 → IVec S16 32) a x).toNat < S200x256.size a := fun v194 v196 k0_hw231 => k0_hw231

def k0_chk232 (v200 : IVec S16 32) (v202 : IVec S16 32) : Prop :=
  (∀ a x, ((![v200, v202] : Fin 2 → IVec S16 32) a x).toNat < S200x256.size a)
instance k0_chk232.dec : ∀ (v200 : IVec S16 32) (v202 : IVec S16 32), Decidable (k0_chk232 v200 v202) := fun v200 v202 => decidable_of_iff' _ (Iff.of_eq (k0_chk232.eq_1 v200 v202))
theorem k0_idx232_inb : ∀ (v200 : IVec S16 32) (v202 : IVec S16 32) (k0_hw232 : k0_chk232 v200 v202), ∀ a x, ((![v200, v202] : Fin 2 → IVec S16 32) a x).toNat < S200x256.size a := fun v200 v202 k0_hw232 => k0_hw232
def k0_off2 (i : grid0.Coords) : Fin 2 → Nat :=
  let c0_i32_106 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c0_i32_105 : BitVec 32 := 0#32
  let v203 : BitVec 32 := Scalar.addi v5 c0_i32_105
  ![0, v203.toNat]
@[reducible] def k0_t2_loop : Scf.Loop 32 :=
  let c0_i32_109 : BitVec 32 := 0#32
  let c16_i32_110 : BitVec 32 := 16#32
  let v206 : BitVec 32 := Scalar.addi c0_i32_109 c16_i32_110
  let c1_i32_111 : BitVec 32 := 1#32
  ⟨c0_i32_109, v206, c1_i32_111⟩

def k0_chk233 (v411 : IVec S16 32) (v412 : IVec S16 32) : Prop :=
  (∀ a x, ((![v412, v411] : Fin 2 → IVec S16 32) a x).toNat < S200x256.size a)
instance k0_chk233.dec : ∀ (v411 : IVec S16 32) (v412 : IVec S16 32), Decidable (k0_chk233 v411 v412) := fun v411 v412 => decidable_of_iff' _ (Iff.of_eq (k0_chk233.eq_1 v411 v412))
theorem k0_idx233_inb : ∀ (v411 : IVec S16 32) (v412 : IVec S16 32) (k0_hw233 : k0_chk233 v411 v412), ∀ a x, ((![v412, v411] : Fin 2 → IVec S16 32) a x).toNat < S200x256.size a := fun v411 v412 k0_hw233 => k0_hw233

def k0_chk234 (v411 : IVec S16 32) (v413 : IVec S16 32) : Prop :=
  (∀ a x, ((![v413, v411] : Fin 2 → IVec S16 32) a x).toNat < S200x256.size a)
instance k0_chk234.dec : ∀ (v411 : IVec S16 32) (v413 : IVec S16 32), Decidable (k0_chk234 v411 v413) := fun v411 v413 => decidable_of_iff' _ (Iff.of_eq (k0_chk234.eq_1 v411 v413))
theorem k0_idx234_inb : ∀ (v411 : IVec S16 32) (v413 : IVec S16 32) (k0_hw234 : k0_chk234 v411 v413), ∀ a x, ((![v413, v411] : Fin 2 → IVec S16 32) a x).toNat < S200x256.size a := fun v411 v413 k0_hw234 => k0_hw234

def k0_chk235 (v411 : IVec S16 32) (v414 : IVec S16 32) : Prop :=
  (∀ a x, ((![v414, v411] : Fin 2 → IVec S16 32) a x).toNat < S200x256.size a)
instance k0_chk235.dec : ∀ (v411 : IVec S16 32) (v414 : IVec S16 32), Decidable (k0_chk235 v411 v414) := fun v411 v414 => decidable_of_iff' _ (Iff.of_eq (k0_chk235.eq_1 v411 v414))
theorem k0_idx235_inb : ∀ (v411 : IVec S16 32) (v414 : IVec S16 32) (k0_hw235 : k0_chk235 v411 v414), ∀ a x, ((![v414, v411] : Fin 2 → IVec S16 32) a x).toNat < S200x256.size a := fun v411 v414 k0_hw235 => k0_hw235

def k0_chk236 (v411 : IVec S16 32) (v415 : IVec S16 32) : Prop :=
  (∀ a x, ((![v415, v411] : Fin 2 → IVec S16 32) a x).toNat < S200x256.size a)
instance k0_chk236.dec : ∀ (v411 : IVec S16 32) (v415 : IVec S16 32), Decidable (k0_chk236 v411 v415) := fun v411 v415 => decidable_of_iff' _ (Iff.of_eq (k0_chk236.eq_1 v411 v415))
theorem k0_idx236_inb : ∀ (v411 : IVec S16 32) (v415 : IVec S16 32) (k0_hw236 : k0_chk236 v411 v415), ∀ a x, ((![v415, v411] : Fin 2 → IVec S16 32) a x).toNat < S200x256.size a := fun v411 v415 k0_hw236 => k0_hw236

def k0_chk237 (v411 : IVec S16 32) (v416 : IVec S16 32) : Prop :=
  (∀ a x, ((![v416, v411] : Fin 2 → IVec S16 32) a x).toNat < S200x256.size a)
instance k0_chk237.dec : ∀ (v411 : IVec S16 32) (v416 : IVec S16 32), Decidable (k0_chk237 v411 v416) := fun v411 v416 => decidable_of_iff' _ (Iff.of_eq (k0_chk237.eq_1 v411 v416))
theorem k0_idx237_inb : ∀ (v411 : IVec S16 32) (v416 : IVec S16 32) (k0_hw237 : k0_chk237 v411 v416), ∀ a x, ((![v416, v411] : Fin 2 → IVec S16 32) a x).toNat < S200x256.size a := fun v411 v416 k0_hw237 => k0_hw237

def k0_chk238 (v411 : IVec S16 32) (v417 : IVec S16 32) : Prop :=
  (∀ a x, ((![v417, v411] : Fin 2 → IVec S16 32) a x).toNat < S200x256.size a)
instance k0_chk238.dec : ∀ (v411 : IVec S16 32) (v417 : IVec S16 32), Decidable (k0_chk238 v411 v417) := fun v411 v417 => decidable_of_iff' _ (Iff.of_eq (k0_chk238.eq_1 v411 v417))
theorem k0_idx238_inb : ∀ (v411 : IVec S16 32) (v417 : IVec S16 32) (k0_hw238 : k0_chk238 v411 v417), ∀ a x, ((![v417, v411] : Fin 2 → IVec S16 32) a x).toNat < S200x256.size a := fun v411 v417 k0_hw238 => k0_hw238

def k0_chk239 (v411 : IVec S16 32) (v418 : IVec S16 32) : Prop :=
  (∀ a x, ((![v418, v411] : Fin 2 → IVec S16 32) a x).toNat < S200x256.size a)
instance k0_chk239.dec : ∀ (v411 : IVec S16 32) (v418 : IVec S16 32), Decidable (k0_chk239 v411 v418) := fun v411 v418 => decidable_of_iff' _ (Iff.of_eq (k0_chk239.eq_1 v411 v418))
theorem k0_idx239_inb : ∀ (v411 : IVec S16 32) (v418 : IVec S16 32) (k0_hw239 : k0_chk239 v411 v418), ∀ a x, ((![v418, v411] : Fin 2 → IVec S16 32) a x).toNat < S200x256.size a := fun v411 v418 k0_hw239 => k0_hw239

def k0_chk240 (v411 : IVec S16 32) (v419 : IVec S16 32) : Prop :=
  (∀ a x, ((![v419, v411] : Fin 2 → IVec S16 32) a x).toNat < S200x256.size a)
instance k0_chk240.dec : ∀ (v411 : IVec S16 32) (v419 : IVec S16 32), Decidable (k0_chk240 v411 v419) := fun v411 v419 => decidable_of_iff' _ (Iff.of_eq (k0_chk240.eq_1 v411 v419))
theorem k0_idx240_inb : ∀ (v411 : IVec S16 32) (v419 : IVec S16 32) (k0_hw240 : k0_chk240 v411 v419), ∀ a x, ((![v419, v411] : Fin 2 → IVec S16 32) a x).toNat < S200x256.size a := fun v411 v419 k0_hw240 => k0_hw240

def k0_chk241 (v411 : IVec S16 32) (v420 : IVec S16 32) : Prop :=
  (∀ a x, ((![v420, v411] : Fin 2 → IVec S16 32) a x).toNat < S200x256.size a)
instance k0_chk241.dec : ∀ (v411 : IVec S16 32) (v420 : IVec S16 32), Decidable (k0_chk241 v411 v420) := fun v411 v420 => decidable_of_iff' _ (Iff.of_eq (k0_chk241.eq_1 v411 v420))
theorem k0_idx241_inb : ∀ (v411 : IVec S16 32) (v420 : IVec S16 32) (k0_hw241 : k0_chk241 v411 v420), ∀ a x, ((![v420, v411] : Fin 2 → IVec S16 32) a x).toNat < S200x256.size a := fun v411 v420 k0_hw241 => k0_hw241

def k0_chk242 (v411 : IVec S16 32) (v421 : IVec S16 32) : Prop :=
  (∀ a x, ((![v421, v411] : Fin 2 → IVec S16 32) a x).toNat < S200x256.size a)
instance k0_chk242.dec : ∀ (v411 : IVec S16 32) (v421 : IVec S16 32), Decidable (k0_chk242 v411 v421) := fun v411 v421 => decidable_of_iff' _ (Iff.of_eq (k0_chk242.eq_1 v411 v421))
theorem k0_idx242_inb : ∀ (v411 : IVec S16 32) (v421 : IVec S16 32) (k0_hw242 : k0_chk242 v411 v421), ∀ a x, ((![v421, v411] : Fin 2 → IVec S16 32) a x).toNat < S200x256.size a := fun v411 v421 k0_hw242 => k0_hw242

def k0_chk243 (v411 : IVec S16 32) (v422 : IVec S16 32) : Prop :=
  (∀ a x, ((![v422, v411] : Fin 2 → IVec S16 32) a x).toNat < S200x256.size a)
instance k0_chk243.dec : ∀ (v411 : IVec S16 32) (v422 : IVec S16 32), Decidable (k0_chk243 v411 v422) := fun v411 v422 => decidable_of_iff' _ (Iff.of_eq (k0_chk243.eq_1 v411 v422))
theorem k0_idx243_inb : ∀ (v411 : IVec S16 32) (v422 : IVec S16 32) (k0_hw243 : k0_chk243 v411 v422), ∀ a x, ((![v422, v411] : Fin 2 → IVec S16 32) a x).toNat < S200x256.size a := fun v411 v422 k0_hw243 => k0_hw243

def k0_chk244 (v411 : IVec S16 32) (v423 : IVec S16 32) : Prop :=
  (∀ a x, ((![v423, v411] : Fin 2 → IVec S16 32) a x).toNat < S200x256.size a)
instance k0_chk244.dec : ∀ (v411 : IVec S16 32) (v423 : IVec S16 32), Decidable (k0_chk244 v411 v423) := fun v411 v423 => decidable_of_iff' _ (Iff.of_eq (k0_chk244.eq_1 v411 v423))
theorem k0_idx244_inb : ∀ (v411 : IVec S16 32) (v423 : IVec S16 32) (k0_hw244 : k0_chk244 v411 v423), ∀ a x, ((![v423, v411] : Fin 2 → IVec S16 32) a x).toNat < S200x256.size a := fun v411 v423 k0_hw244 => k0_hw244

def k0_chk245 (v411 : IVec S16 32) (v424 : IVec S16 32) : Prop :=
  (∀ a x, ((![v424, v411] : Fin 2 → IVec S16 32) a x).toNat < S200x256.size a)
instance k0_chk245.dec : ∀ (v411 : IVec S16 32) (v424 : IVec S16 32), Decidable (k0_chk245 v411 v424) := fun v411 v424 => decidable_of_iff' _ (Iff.of_eq (k0_chk245.eq_1 v411 v424))
theorem k0_idx245_inb : ∀ (v411 : IVec S16 32) (v424 : IVec S16 32) (k0_hw245 : k0_chk245 v411 v424), ∀ a x, ((![v424, v411] : Fin 2 → IVec S16 32) a x).toNat < S200x256.size a := fun v411 v424 k0_hw245 => k0_hw245

def k0_chk246 (v411 : IVec S16 32) (v425 : IVec S16 32) : Prop :=
  (∀ a x, ((![v425, v411] : Fin 2 → IVec S16 32) a x).toNat < S200x256.size a)
instance k0_chk246.dec : ∀ (v411 : IVec S16 32) (v425 : IVec S16 32), Decidable (k0_chk246 v411 v425) := fun v411 v425 => decidable_of_iff' _ (Iff.of_eq (k0_chk246.eq_1 v411 v425))
theorem k0_idx246_inb : ∀ (v411 : IVec S16 32) (v425 : IVec S16 32) (k0_hw246 : k0_chk246 v411 v425), ∀ a x, ((![v425, v411] : Fin 2 → IVec S16 32) a x).toNat < S200x256.size a := fun v411 v425 k0_hw246 => k0_hw246

def k0_chk247 (v411 : IVec S16 32) (v426 : IVec S16 32) : Prop :=
  (∀ a x, ((![v426, v411] : Fin 2 → IVec S16 32) a x).toNat < S200x256.size a)
instance k0_chk247.dec : ∀ (v411 : IVec S16 32) (v426 : IVec S16 32), Decidable (k0_chk247 v411 v426) := fun v411 v426 => decidable_of_iff' _ (Iff.of_eq (k0_chk247.eq_1 v411 v426))
theorem k0_idx247_inb : ∀ (v411 : IVec S16 32) (v426 : IVec S16 32) (k0_hw247 : k0_chk247 v411 v426), ∀ a x, ((![v426, v411] : Fin 2 → IVec S16 32) a x).toNat < S200x256.size a := fun v411 v426 k0_hw247 => k0_hw247

def k0_chk248 (v411 : IVec S16 32) (v427 : IVec S16 32) : Prop :=
  (∀ a x, ((![v427, v411] : Fin 2 → IVec S16 32) a x).toNat < S200x256.size a)
instance k0_chk248.dec : ∀ (v411 : IVec S16 32) (v427 : IVec S16 32), Decidable (k0_chk248 v411 v427) := fun v411 v427 => decidable_of_iff' _ (Iff.of_eq (k0_chk248.eq_1 v411 v427))
theorem k0_idx248_inb : ∀ (v411 : IVec S16 32) (v427 : IVec S16 32) (k0_hw248 : k0_chk248 v411 v427), ∀ a x, ((![v427, v411] : Fin 2 → IVec S16 32) a x).toNat < S200x256.size a := fun v411 v427 k0_hw248 => k0_hw248

def k0_chk249 (v411 : IVec S16 32) (v428 : IVec S16 32) : Prop :=
  (∀ a x, ((![v428, v411] : Fin 2 → IVec S16 32) a x).toNat < S200x256.size a)
instance k0_chk249.dec : ∀ (v411 : IVec S16 32) (v428 : IVec S16 32), Decidable (k0_chk249 v411 v428) := fun v411 v428 => decidable_of_iff' _ (Iff.of_eq (k0_chk249.eq_1 v411 v428))
theorem k0_idx249_inb : ∀ (v411 : IVec S16 32) (v428 : IVec S16 32) (k0_hw249 : k0_chk249 v411 v428), ∀ a x, ((![v428, v411] : Fin 2 → IVec S16 32) a x).toNat < S200x256.size a := fun v411 v428 k0_hw249 => k0_hw249

def k0_chk250 (v411 : IVec S16 32) (v429 : IVec S16 32) : Prop :=
  (∀ a x, ((![v429, v411] : Fin 2 → IVec S16 32) a x).toNat < S200x256.size a)
instance k0_chk250.dec : ∀ (v411 : IVec S16 32) (v429 : IVec S16 32), Decidable (k0_chk250 v411 v429) := fun v411 v429 => decidable_of_iff' _ (Iff.of_eq (k0_chk250.eq_1 v411 v429))
theorem k0_idx250_inb : ∀ (v411 : IVec S16 32) (v429 : IVec S16 32) (k0_hw250 : k0_chk250 v411 v429), ∀ a x, ((![v429, v411] : Fin 2 → IVec S16 32) a x).toNat < S200x256.size a := fun v411 v429 k0_hw250 => k0_hw250

def k0_chk251 (v411 : IVec S16 32) (v430 : IVec S16 32) : Prop :=
  (∀ a x, ((![v430, v411] : Fin 2 → IVec S16 32) a x).toNat < S200x256.size a)
instance k0_chk251.dec : ∀ (v411 : IVec S16 32) (v430 : IVec S16 32), Decidable (k0_chk251 v411 v430) := fun v411 v430 => decidable_of_iff' _ (Iff.of_eq (k0_chk251.eq_1 v411 v430))
theorem k0_idx251_inb : ∀ (v411 : IVec S16 32) (v430 : IVec S16 32) (k0_hw251 : k0_chk251 v411 v430), ∀ a x, ((![v430, v411] : Fin 2 → IVec S16 32) a x).toNat < S200x256.size a := fun v411 v430 k0_hw251 => k0_hw251

def k0_chk252 (v411 : IVec S16 32) (v431 : IVec S16 32) : Prop :=
  (∀ a x, ((![v431, v411] : Fin 2 → IVec S16 32) a x).toNat < S200x256.size a)
instance k0_chk252.dec : ∀ (v411 : IVec S16 32) (v431 : IVec S16 32), Decidable (k0_chk252 v411 v431) := fun v411 v431 => decidable_of_iff' _ (Iff.of_eq (k0_chk252.eq_1 v411 v431))
theorem k0_idx252_inb : ∀ (v411 : IVec S16 32) (v431 : IVec S16 32) (k0_hw252 : k0_chk252 v411 v431), ∀ a x, ((![v431, v411] : Fin 2 → IVec S16 32) a x).toNat < S200x256.size a := fun v411 v431 k0_hw252 => k0_hw252

def k0_chk253 (v411 : IVec S16 32) (v432 : IVec S16 32) : Prop :=
  (∀ a x, ((![v432, v411] : Fin 2 → IVec S16 32) a x).toNat < S200x256.size a)
instance k0_chk253.dec : ∀ (v411 : IVec S16 32) (v432 : IVec S16 32), Decidable (k0_chk253 v411 v432) := fun v411 v432 => decidable_of_iff' _ (Iff.of_eq (k0_chk253.eq_1 v411 v432))
theorem k0_idx253_inb : ∀ (v411 : IVec S16 32) (v432 : IVec S16 32) (k0_hw253 : k0_chk253 v411 v432), ∀ a x, ((![v432, v411] : Fin 2 → IVec S16 32) a x).toNat < S200x256.size a := fun v411 v432 k0_hw253 => k0_hw253

def k0_chk254 (v411 : IVec S16 32) (v433 : IVec S16 32) : Prop :=
  (∀ a x, ((![v433, v411] : Fin 2 → IVec S16 32) a x).toNat < S200x256.size a)
instance k0_chk254.dec : ∀ (v411 : IVec S16 32) (v433 : IVec S16 32), Decidable (k0_chk254 v411 v433) := fun v411 v433 => decidable_of_iff' _ (Iff.of_eq (k0_chk254.eq_1 v411 v433))
theorem k0_idx254_inb : ∀ (v411 : IVec S16 32) (v433 : IVec S16 32) (k0_hw254 : k0_chk254 v411 v433), ∀ a x, ((![v433, v411] : Fin 2 → IVec S16 32) a x).toNat < S200x256.size a := fun v411 v433 k0_hw254 => k0_hw254

def k0_chk255 (v411 : IVec S16 32) (v434 : IVec S16 32) : Prop :=
  (∀ a x, ((![v434, v411] : Fin 2 → IVec S16 32) a x).toNat < S200x256.size a)
instance k0_chk255.dec : ∀ (v411 : IVec S16 32) (v434 : IVec S16 32), Decidable (k0_chk255 v411 v434) := fun v411 v434 => decidable_of_iff' _ (Iff.of_eq (k0_chk255.eq_1 v411 v434))
theorem k0_idx255_inb : ∀ (v411 : IVec S16 32) (v434 : IVec S16 32) (k0_hw255 : k0_chk255 v411 v434), ∀ a x, ((![v434, v411] : Fin 2 → IVec S16 32) a x).toNat < S200x256.size a := fun v411 v434 k0_hw255 => k0_hw255

def k0_chk256 (v411 : IVec S16 32) (v435 : IVec S16 32) : Prop :=
  (∀ a x, ((![v435, v411] : Fin 2 → IVec S16 32) a x).toNat < S200x256.size a)
instance k0_chk256.dec : ∀ (v411 : IVec S16 32) (v435 : IVec S16 32), Decidable (k0_chk256 v411 v435) := fun v411 v435 => decidable_of_iff' _ (Iff.of_eq (k0_chk256.eq_1 v411 v435))
theorem k0_idx256_inb : ∀ (v411 : IVec S16 32) (v435 : IVec S16 32) (k0_hw256 : k0_chk256 v411 v435), ∀ a x, ((![v435, v411] : Fin 2 → IVec S16 32) a x).toNat < S200x256.size a := fun v411 v435 k0_hw256 => k0_hw256

def k0_chk257 (v411 : IVec S16 32) (v436 : IVec S16 32) : Prop :=
  (∀ a x, ((![v436, v411] : Fin 2 → IVec S16 32) a x).toNat < S200x256.size a)
instance k0_chk257.dec : ∀ (v411 : IVec S16 32) (v436 : IVec S16 32), Decidable (k0_chk257 v411 v436) := fun v411 v436 => decidable_of_iff' _ (Iff.of_eq (k0_chk257.eq_1 v411 v436))
theorem k0_idx257_inb : ∀ (v411 : IVec S16 32) (v436 : IVec S16 32) (k0_hw257 : k0_chk257 v411 v436), ∀ a x, ((![v436, v411] : Fin 2 → IVec S16 32) a x).toNat < S200x256.size a := fun v411 v436 k0_hw257 => k0_hw257

def k0_chk258 (v411 : IVec S16 32) (v437 : IVec S16 32) : Prop :=
  (∀ a x, ((![v437, v411] : Fin 2 → IVec S16 32) a x).toNat < S200x256.size a)
instance k0_chk258.dec : ∀ (v411 : IVec S16 32) (v437 : IVec S16 32), Decidable (k0_chk258 v411 v437) := fun v411 v437 => decidable_of_iff' _ (Iff.of_eq (k0_chk258.eq_1 v411 v437))
theorem k0_idx258_inb : ∀ (v411 : IVec S16 32) (v437 : IVec S16 32) (k0_hw258 : k0_chk258 v411 v437), ∀ a x, ((![v437, v411] : Fin 2 → IVec S16 32) a x).toNat < S200x256.size a := fun v411 v437 k0_hw258 => k0_hw258

def k0_chk259 (v411 : IVec S16 32) (v438 : IVec S16 32) : Prop :=
  (∀ a x, ((![v438, v411] : Fin 2 → IVec S16 32) a x).toNat < S200x256.size a)
instance k0_chk259.dec : ∀ (v411 : IVec S16 32) (v438 : IVec S16 32), Decidable (k0_chk259 v411 v438) := fun v411 v438 => decidable_of_iff' _ (Iff.of_eq (k0_chk259.eq_1 v411 v438))
theorem k0_idx259_inb : ∀ (v411 : IVec S16 32) (v438 : IVec S16 32) (k0_hw259 : k0_chk259 v411 v438), ∀ a x, ((![v438, v411] : Fin 2 → IVec S16 32) a x).toNat < S200x256.size a := fun v411 v438 k0_hw259 => k0_hw259

def k0_chk260 (v411 : IVec S16 32) (v439 : IVec S16 32) : Prop :=
  (∀ a x, ((![v439, v411] : Fin 2 → IVec S16 32) a x).toNat < S200x256.size a)
instance k0_chk260.dec : ∀ (v411 : IVec S16 32) (v439 : IVec S16 32), Decidable (k0_chk260 v411 v439) := fun v411 v439 => decidable_of_iff' _ (Iff.of_eq (k0_chk260.eq_1 v411 v439))
theorem k0_idx260_inb : ∀ (v411 : IVec S16 32) (v439 : IVec S16 32) (k0_hw260 : k0_chk260 v411 v439), ∀ a x, ((![v439, v411] : Fin 2 → IVec S16 32) a x).toNat < S200x256.size a := fun v411 v439 k0_hw260 => k0_hw260

def k0_chk261 (v411 : IVec S16 32) (v440 : IVec S16 32) : Prop :=
  (∀ a x, ((![v440, v411] : Fin 2 → IVec S16 32) a x).toNat < S200x256.size a)
instance k0_chk261.dec : ∀ (v411 : IVec S16 32) (v440 : IVec S16 32), Decidable (k0_chk261 v411 v440) := fun v411 v440 => decidable_of_iff' _ (Iff.of_eq (k0_chk261.eq_1 v411 v440))
theorem k0_idx261_inb : ∀ (v411 : IVec S16 32) (v440 : IVec S16 32) (k0_hw261 : k0_chk261 v411 v440), ∀ a x, ((![v440, v411] : Fin 2 → IVec S16 32) a x).toNat < S200x256.size a := fun v411 v440 k0_hw261 => k0_hw261

def k0_chk262 (v411 : IVec S16 32) (v441 : IVec S16 32) : Prop :=
  (∀ a x, ((![v441, v411] : Fin 2 → IVec S16 32) a x).toNat < S200x256.size a)
instance k0_chk262.dec : ∀ (v411 : IVec S16 32) (v441 : IVec S16 32), Decidable (k0_chk262 v411 v441) := fun v411 v441 => decidable_of_iff' _ (Iff.of_eq (k0_chk262.eq_1 v411 v441))
theorem k0_idx262_inb : ∀ (v411 : IVec S16 32) (v441 : IVec S16 32) (k0_hw262 : k0_chk262 v411 v441), ∀ a x, ((![v441, v411] : Fin 2 → IVec S16 32) a x).toNat < S200x256.size a := fun v411 v441 k0_hw262 => k0_hw262

def k0_chk263 (v411 : IVec S16 32) (v442 : IVec S16 32) : Prop :=
  (∀ a x, ((![v442, v411] : Fin 2 → IVec S16 32) a x).toNat < S200x256.size a)
instance k0_chk263.dec : ∀ (v411 : IVec S16 32) (v442 : IVec S16 32), Decidable (k0_chk263 v411 v442) := fun v411 v442 => decidable_of_iff' _ (Iff.of_eq (k0_chk263.eq_1 v411 v442))
theorem k0_idx263_inb : ∀ (v411 : IVec S16 32) (v442 : IVec S16 32) (k0_hw263 : k0_chk263 v411 v442), ∀ a x, ((![v442, v411] : Fin 2 → IVec S16 32) a x).toNat < S200x256.size a := fun v411 v442 k0_hw263 => k0_hw263

def k0_chk264 (v411 : IVec S16 32) (v443 : IVec S16 32) : Prop :=
  (∀ a x, ((![v443, v411] : Fin 2 → IVec S16 32) a x).toNat < S200x256.size a)
instance k0_chk264.dec : ∀ (v411 : IVec S16 32) (v443 : IVec S16 32), Decidable (k0_chk264 v411 v443) := fun v411 v443 => decidable_of_iff' _ (Iff.of_eq (k0_chk264.eq_1 v411 v443))
theorem k0_idx264_inb : ∀ (v411 : IVec S16 32) (v443 : IVec S16 32) (k0_hw264 : k0_chk264 v411 v443), ∀ a x, ((![v443, v411] : Fin 2 → IVec S16 32) a x).toNat < S200x256.size a := fun v411 v443 k0_hw264 => k0_hw264

def k0_chk265 (v411 : IVec S16 32) (v444 : IVec S16 32) : Prop :=
  (∀ a x, ((![v444, v411] : Fin 2 → IVec S16 32) a x).toNat < S200x256.size a)
instance k0_chk265.dec : ∀ (v411 : IVec S16 32) (v444 : IVec S16 32), Decidable (k0_chk265 v411 v444) := fun v411 v444 => decidable_of_iff' _ (Iff.of_eq (k0_chk265.eq_1 v411 v444))
theorem k0_idx265_inb : ∀ (v411 : IVec S16 32) (v444 : IVec S16 32) (k0_hw265 : k0_chk265 v411 v444), ∀ a x, ((![v444, v411] : Fin 2 → IVec S16 32) a x).toNat < S200x256.size a := fun v411 v444 k0_hw265 => k0_hw265

def k0_chk266 (v411 : IVec S16 32) (v445 : IVec S16 32) : Prop :=
  (∀ a x, ((![v445, v411] : Fin 2 → IVec S16 32) a x).toNat < S200x256.size a)
instance k0_chk266.dec : ∀ (v411 : IVec S16 32) (v445 : IVec S16 32), Decidable (k0_chk266 v411 v445) := fun v411 v445 => decidable_of_iff' _ (Iff.of_eq (k0_chk266.eq_1 v411 v445))
theorem k0_idx266_inb : ∀ (v411 : IVec S16 32) (v445 : IVec S16 32) (k0_hw266 : k0_chk266 v411 v445), ∀ a x, ((![v445, v411] : Fin 2 → IVec S16 32) a x).toNat < S200x256.size a := fun v411 v445 k0_hw266 => k0_hw266

def k0_chk267 (v411 : IVec S16 32) (v446 : IVec S16 32) : Prop :=
  (∀ a x, ((![v446, v411] : Fin 2 → IVec S16 32) a x).toNat < S200x256.size a)
instance k0_chk267.dec : ∀ (v411 : IVec S16 32) (v446 : IVec S16 32), Decidable (k0_chk267 v411 v446) := fun v411 v446 => decidable_of_iff' _ (Iff.of_eq (k0_chk267.eq_1 v411 v446))
theorem k0_idx267_inb : ∀ (v411 : IVec S16 32) (v446 : IVec S16 32) (k0_hw267 : k0_chk267 v411 v446), ∀ a x, ((![v446, v411] : Fin 2 → IVec S16 32) a x).toNat < S200x256.size a := fun v411 v446 k0_hw267 => k0_hw267

def k0_chk268 (v411 : IVec S16 32) (v447 : IVec S16 32) : Prop :=
  (∀ a x, ((![v447, v411] : Fin 2 → IVec S16 32) a x).toNat < S200x256.size a)
instance k0_chk268.dec : ∀ (v411 : IVec S16 32) (v447 : IVec S16 32), Decidable (k0_chk268 v411 v447) := fun v411 v447 => decidable_of_iff' _ (Iff.of_eq (k0_chk268.eq_1 v411 v447))
theorem k0_idx268_inb : ∀ (v411 : IVec S16 32) (v447 : IVec S16 32) (k0_hw268 : k0_chk268 v411 v447), ∀ a x, ((![v447, v411] : Fin 2 → IVec S16 32) a x).toNat < S200x256.size a := fun v411 v447 k0_hw268 => k0_hw268

def k0_chk269 (v411 : IVec S16 32) (v448 : IVec S16 32) : Prop :=
  (∀ a x, ((![v448, v411] : Fin 2 → IVec S16 32) a x).toNat < S200x256.size a)
instance k0_chk269.dec : ∀ (v411 : IVec S16 32) (v448 : IVec S16 32), Decidable (k0_chk269 v411 v448) := fun v411 v448 => decidable_of_iff' _ (Iff.of_eq (k0_chk269.eq_1 v411 v448))
theorem k0_idx269_inb : ∀ (v411 : IVec S16 32) (v448 : IVec S16 32) (k0_hw269 : k0_chk269 v411 v448), ∀ a x, ((![v448, v411] : Fin 2 → IVec S16 32) a x).toNat < S200x256.size a := fun v411 v448 k0_hw269 => k0_hw269

def k0_chk270 (v411 : IVec S16 32) (v449 : IVec S16 32) : Prop :=
  (∀ a x, ((![v449, v411] : Fin 2 → IVec S16 32) a x).toNat < S200x256.size a)
instance k0_chk270.dec : ∀ (v411 : IVec S16 32) (v449 : IVec S16 32), Decidable (k0_chk270 v411 v449) := fun v411 v449 => decidable_of_iff' _ (Iff.of_eq (k0_chk270.eq_1 v411 v449))
theorem k0_idx270_inb : ∀ (v411 : IVec S16 32) (v449 : IVec S16 32) (k0_hw270 : k0_chk270 v411 v449), ∀ a x, ((![v449, v411] : Fin 2 → IVec S16 32) a x).toNat < S200x256.size a := fun v411 v449 k0_hw270 => k0_hw270

def k0_chk271 (v411 : IVec S16 32) (v450 : IVec S16 32) : Prop :=
  (∀ a x, ((![v450, v411] : Fin 2 → IVec S16 32) a x).toNat < S200x256.size a)
instance k0_chk271.dec : ∀ (v411 : IVec S16 32) (v450 : IVec S16 32), Decidable (k0_chk271 v411 v450) := fun v411 v450 => decidable_of_iff' _ (Iff.of_eq (k0_chk271.eq_1 v411 v450))
theorem k0_idx271_inb : ∀ (v411 : IVec S16 32) (v450 : IVec S16 32) (k0_hw271 : k0_chk271 v411 v450), ∀ a x, ((![v450, v411] : Fin 2 → IVec S16 32) a x).toNat < S200x256.size a := fun v411 v450 k0_hw271 => k0_hw271

def k0_chk272 (v411 : IVec S16 32) (v451 : IVec S16 32) : Prop :=
  (∀ a x, ((![v451, v411] : Fin 2 → IVec S16 32) a x).toNat < S200x256.size a)
instance k0_chk272.dec : ∀ (v411 : IVec S16 32) (v451 : IVec S16 32), Decidable (k0_chk272 v411 v451) := fun v411 v451 => decidable_of_iff' _ (Iff.of_eq (k0_chk272.eq_1 v411 v451))
theorem k0_idx272_inb : ∀ (v411 : IVec S16 32) (v451 : IVec S16 32) (k0_hw272 : k0_chk272 v411 v451), ∀ a x, ((![v451, v411] : Fin 2 → IVec S16 32) a x).toNat < S200x256.size a := fun v411 v451 k0_hw272 => k0_hw272

def k0_chk273 (v411 : IVec S16 32) (v452 : IVec S16 32) : Prop :=
  (∀ a x, ((![v452, v411] : Fin 2 → IVec S16 32) a x).toNat < S200x256.size a)
instance k0_chk273.dec : ∀ (v411 : IVec S16 32) (v452 : IVec S16 32), Decidable (k0_chk273 v411 v452) := fun v411 v452 => decidable_of_iff' _ (Iff.of_eq (k0_chk273.eq_1 v411 v452))
theorem k0_idx273_inb : ∀ (v411 : IVec S16 32) (v452 : IVec S16 32) (k0_hw273 : k0_chk273 v411 v452), ∀ a x, ((![v452, v411] : Fin 2 → IVec S16 32) a x).toNat < S200x256.size a := fun v411 v452 k0_hw273 => k0_hw273

def k0_chk274 (v411 : IVec S16 32) (v453 : IVec S16 32) : Prop :=
  (∀ a x, ((![v453, v411] : Fin 2 → IVec S16 32) a x).toNat < S200x256.size a)
instance k0_chk274.dec : ∀ (v411 : IVec S16 32) (v453 : IVec S16 32), Decidable (k0_chk274 v411 v453) := fun v411 v453 => decidable_of_iff' _ (Iff.of_eq (k0_chk274.eq_1 v411 v453))
theorem k0_idx274_inb : ∀ (v411 : IVec S16 32) (v453 : IVec S16 32) (k0_hw274 : k0_chk274 v411 v453), ∀ a x, ((![v453, v411] : Fin 2 → IVec S16 32) a x).toNat < S200x256.size a := fun v411 v453 k0_hw274 => k0_hw274

def k0_chk275 (v411 : IVec S16 32) (v454 : IVec S16 32) : Prop :=
  (∀ a x, ((![v454, v411] : Fin 2 → IVec S16 32) a x).toNat < S200x256.size a)
instance k0_chk275.dec : ∀ (v411 : IVec S16 32) (v454 : IVec S16 32), Decidable (k0_chk275 v411 v454) := fun v411 v454 => decidable_of_iff' _ (Iff.of_eq (k0_chk275.eq_1 v411 v454))
theorem k0_idx275_inb : ∀ (v411 : IVec S16 32) (v454 : IVec S16 32) (k0_hw275 : k0_chk275 v411 v454), ∀ a x, ((![v454, v411] : Fin 2 → IVec S16 32) a x).toNat < S200x256.size a := fun v411 v454 k0_hw275 => k0_hw275

def k0_chk276 (v411 : IVec S16 32) (v455 : IVec S16 32) : Prop :=
  (∀ a x, ((![v455, v411] : Fin 2 → IVec S16 32) a x).toNat < S200x256.size a)
instance k0_chk276.dec : ∀ (v411 : IVec S16 32) (v455 : IVec S16 32), Decidable (k0_chk276 v411 v455) := fun v411 v455 => decidable_of_iff' _ (Iff.of_eq (k0_chk276.eq_1 v411 v455))
theorem k0_idx276_inb : ∀ (v411 : IVec S16 32) (v455 : IVec S16 32) (k0_hw276 : k0_chk276 v411 v455), ∀ a x, ((![v455, v411] : Fin 2 → IVec S16 32) a x).toNat < S200x256.size a := fun v411 v455 k0_hw276 => k0_hw276

def k0_chk277 (v411 : IVec S16 32) (v456 : IVec S16 32) : Prop :=
  (∀ a x, ((![v456, v411] : Fin 2 → IVec S16 32) a x).toNat < S200x256.size a)
instance k0_chk277.dec : ∀ (v411 : IVec S16 32) (v456 : IVec S16 32), Decidable (k0_chk277 v411 v456) := fun v411 v456 => decidable_of_iff' _ (Iff.of_eq (k0_chk277.eq_1 v411 v456))
theorem k0_idx277_inb : ∀ (v411 : IVec S16 32) (v456 : IVec S16 32) (k0_hw277 : k0_chk277 v411 v456), ∀ a x, ((![v456, v411] : Fin 2 → IVec S16 32) a x).toNat < S200x256.size a := fun v411 v456 k0_hw277 => k0_hw277

def k0_chk278 (v411 : IVec S16 32) (v457 : IVec S16 32) : Prop :=
  (∀ a x, ((![v457, v411] : Fin 2 → IVec S16 32) a x).toNat < S200x256.size a)
instance k0_chk278.dec : ∀ (v411 : IVec S16 32) (v457 : IVec S16 32), Decidable (k0_chk278 v411 v457) := fun v411 v457 => decidable_of_iff' _ (Iff.of_eq (k0_chk278.eq_1 v411 v457))
theorem k0_idx278_inb : ∀ (v411 : IVec S16 32) (v457 : IVec S16 32) (k0_hw278 : k0_chk278 v411 v457), ∀ a x, ((![v457, v411] : Fin 2 → IVec S16 32) a x).toNat < S200x256.size a := fun v411 v457 k0_hw278 => k0_hw278

def k0_chk279 (v411 : IVec S16 32) (v458 : IVec S16 32) : Prop :=
  (∀ a x, ((![v458, v411] : Fin 2 → IVec S16 32) a x).toNat < S200x256.size a)
instance k0_chk279.dec : ∀ (v411 : IVec S16 32) (v458 : IVec S16 32), Decidable (k0_chk279 v411 v458) := fun v411 v458 => decidable_of_iff' _ (Iff.of_eq (k0_chk279.eq_1 v411 v458))
theorem k0_idx279_inb : ∀ (v411 : IVec S16 32) (v458 : IVec S16 32) (k0_hw279 : k0_chk279 v411 v458), ∀ a x, ((![v458, v411] : Fin 2 → IVec S16 32) a x).toNat < S200x256.size a := fun v411 v458 k0_hw279 => k0_hw279

def k0_chk280 (v411 : IVec S16 32) (v459 : IVec S16 32) : Prop :=
  (∀ a x, ((![v459, v411] : Fin 2 → IVec S16 32) a x).toNat < S200x256.size a)
instance k0_chk280.dec : ∀ (v411 : IVec S16 32) (v459 : IVec S16 32), Decidable (k0_chk280 v411 v459) := fun v411 v459 => decidable_of_iff' _ (Iff.of_eq (k0_chk280.eq_1 v411 v459))
theorem k0_idx280_inb : ∀ (v411 : IVec S16 32) (v459 : IVec S16 32) (k0_hw280 : k0_chk280 v411 v459), ∀ a x, ((![v459, v411] : Fin 2 → IVec S16 32) a x).toNat < S200x256.size a := fun v411 v459 k0_hw280 => k0_hw280

def k0_chk281 (v411 : IVec S16 32) (v460 : IVec S16 32) : Prop :=
  (∀ a x, ((![v460, v411] : Fin 2 → IVec S16 32) a x).toNat < S200x256.size a)
instance k0_chk281.dec : ∀ (v411 : IVec S16 32) (v460 : IVec S16 32), Decidable (k0_chk281 v411 v460) := fun v411 v460 => decidable_of_iff' _ (Iff.of_eq (k0_chk281.eq_1 v411 v460))
theorem k0_idx281_inb : ∀ (v411 : IVec S16 32) (v460 : IVec S16 32) (k0_hw281 : k0_chk281 v411 v460), ∀ a x, ((![v460, v411] : Fin 2 → IVec S16 32) a x).toNat < S200x256.size a := fun v411 v460 k0_hw281 => k0_hw281

def k0_chk282 (v411 : IVec S16 32) (v461 : IVec S16 32) : Prop :=
  (∀ a x, ((![v461, v411] : Fin 2 → IVec S16 32) a x).toNat < S200x256.size a)
instance k0_chk282.dec : ∀ (v411 : IVec S16 32) (v461 : IVec S16 32), Decidable (k0_chk282 v411 v461) := fun v411 v461 => decidable_of_iff' _ (Iff.of_eq (k0_chk282.eq_1 v411 v461))
theorem k0_idx282_inb : ∀ (v411 : IVec S16 32) (v461 : IVec S16 32) (k0_hw282 : k0_chk282 v411 v461), ∀ a x, ((![v461, v411] : Fin 2 → IVec S16 32) a x).toNat < S200x256.size a := fun v411 v461 k0_hw282 => k0_hw282

def k0_chk283 (v411 : IVec S16 32) (v462 : IVec S16 32) : Prop :=
  (∀ a x, ((![v462, v411] : Fin 2 → IVec S16 32) a x).toNat < S200x256.size a)
instance k0_chk283.dec : ∀ (v411 : IVec S16 32) (v462 : IVec S16 32), Decidable (k0_chk283 v411 v462) := fun v411 v462 => decidable_of_iff' _ (Iff.of_eq (k0_chk283.eq_1 v411 v462))
theorem k0_idx283_inb : ∀ (v411 : IVec S16 32) (v462 : IVec S16 32) (k0_hw283 : k0_chk283 v411 v462), ∀ a x, ((![v462, v411] : Fin 2 → IVec S16 32) a x).toNat < S200x256.size a := fun v411 v462 k0_hw283 => k0_hw283

def k0_chk284 (v411 : IVec S16 32) (v463 : IVec S16 32) : Prop :=
  (∀ a x, ((![v463, v411] : Fin 2 → IVec S16 32) a x).toNat < S200x256.size a)
instance k0_chk284.dec : ∀ (v411 : IVec S16 32) (v463 : IVec S16 32), Decidable (k0_chk284 v411 v463) := fun v411 v463 => decidable_of_iff' _ (Iff.of_eq (k0_chk284.eq_1 v411 v463))
theorem k0_idx284_inb : ∀ (v411 : IVec S16 32) (v463 : IVec S16 32) (k0_hw284 : k0_chk284 v411 v463), ∀ a x, ((![v463, v411] : Fin 2 → IVec S16 32) a x).toNat < S200x256.size a := fun v411 v463 k0_hw284 => k0_hw284

def k0_chk285 (v411 : IVec S16 32) (v464 : IVec S16 32) : Prop :=
  (∀ a x, ((![v464, v411] : Fin 2 → IVec S16 32) a x).toNat < S200x256.size a)
instance k0_chk285.dec : ∀ (v411 : IVec S16 32) (v464 : IVec S16 32), Decidable (k0_chk285 v411 v464) := fun v411 v464 => decidable_of_iff' _ (Iff.of_eq (k0_chk285.eq_1 v411 v464))
theorem k0_idx285_inb : ∀ (v411 : IVec S16 32) (v464 : IVec S16 32) (k0_hw285 : k0_chk285 v411 v464), ∀ a x, ((![v464, v411] : Fin 2 → IVec S16 32) a x).toNat < S200x256.size a := fun v411 v464 k0_hw285 => k0_hw285

def k0_chk286 (v411 : IVec S16 32) (v465 : IVec S16 32) : Prop :=
  (∀ a x, ((![v465, v411] : Fin 2 → IVec S16 32) a x).toNat < S200x256.size a)
instance k0_chk286.dec : ∀ (v411 : IVec S16 32) (v465 : IVec S16 32), Decidable (k0_chk286 v411 v465) := fun v411 v465 => decidable_of_iff' _ (Iff.of_eq (k0_chk286.eq_1 v411 v465))
theorem k0_idx286_inb : ∀ (v411 : IVec S16 32) (v465 : IVec S16 32) (k0_hw286 : k0_chk286 v411 v465), ∀ a x, ((![v465, v411] : Fin 2 → IVec S16 32) a x).toNat < S200x256.size a := fun v411 v465 k0_hw286 => k0_hw286

def k0_chk287 (v411 : IVec S16 32) (v466 : IVec S16 32) : Prop :=
  (∀ a x, ((![v466, v411] : Fin 2 → IVec S16 32) a x).toNat < S200x256.size a)
instance k0_chk287.dec : ∀ (v411 : IVec S16 32) (v466 : IVec S16 32), Decidable (k0_chk287 v411 v466) := fun v411 v466 => decidable_of_iff' _ (Iff.of_eq (k0_chk287.eq_1 v411 v466))
theorem k0_idx287_inb : ∀ (v411 : IVec S16 32) (v466 : IVec S16 32) (k0_hw287 : k0_chk287 v411 v466), ∀ a x, ((![v466, v411] : Fin 2 → IVec S16 32) a x).toNat < S200x256.size a := fun v411 v466 k0_hw287 => k0_hw287

def k0_chk288 (v411 : IVec S16 32) (v467 : IVec S16 32) : Prop :=
  (∀ a x, ((![v467, v411] : Fin 2 → IVec S16 32) a x).toNat < S200x256.size a)
instance k0_chk288.dec : ∀ (v411 : IVec S16 32) (v467 : IVec S16 32), Decidable (k0_chk288 v411 v467) := fun v411 v467 => decidable_of_iff' _ (Iff.of_eq (k0_chk288.eq_1 v411 v467))
theorem k0_idx288_inb : ∀ (v411 : IVec S16 32) (v467 : IVec S16 32) (k0_hw288 : k0_chk288 v411 v467), ∀ a x, ((![v467, v411] : Fin 2 → IVec S16 32) a x).toNat < S200x256.size a := fun v411 v467 k0_hw288 => k0_hw288

def k0_chk289 (v411 : IVec S16 32) (v468 : IVec S16 32) : Prop :=
  (∀ a x, ((![v468, v411] : Fin 2 → IVec S16 32) a x).toNat < S200x256.size a)
instance k0_chk289.dec : ∀ (v411 : IVec S16 32) (v468 : IVec S16 32), Decidable (k0_chk289 v411 v468) := fun v411 v468 => decidable_of_iff' _ (Iff.of_eq (k0_chk289.eq_1 v411 v468))
theorem k0_idx289_inb : ∀ (v411 : IVec S16 32) (v468 : IVec S16 32) (k0_hw289 : k0_chk289 v411 v468), ∀ a x, ((![v468, v411] : Fin 2 → IVec S16 32) a x).toNat < S200x256.size a := fun v411 v468 k0_hw289 => k0_hw289

def k0_chk290 (v411 : IVec S16 32) (v469 : IVec S16 32) : Prop :=
  (∀ a x, ((![v469, v411] : Fin 2 → IVec S16 32) a x).toNat < S200x256.size a)
instance k0_chk290.dec : ∀ (v411 : IVec S16 32) (v469 : IVec S16 32), Decidable (k0_chk290 v411 v469) := fun v411 v469 => decidable_of_iff' _ (Iff.of_eq (k0_chk290.eq_1 v411 v469))
theorem k0_idx290_inb : ∀ (v411 : IVec S16 32) (v469 : IVec S16 32) (k0_hw290 : k0_chk290 v411 v469), ∀ a x, ((![v469, v411] : Fin 2 → IVec S16 32) a x).toNat < S200x256.size a := fun v411 v469 k0_hw290 => k0_hw290

def k0_chk291 (v411 : IVec S16 32) (v470 : IVec S16 32) : Prop :=
  (∀ a x, ((![v470, v411] : Fin 2 → IVec S16 32) a x).toNat < S200x256.size a)
instance k0_chk291.dec : ∀ (v411 : IVec S16 32) (v470 : IVec S16 32), Decidable (k0_chk291 v411 v470) := fun v411 v470 => decidable_of_iff' _ (Iff.of_eq (k0_chk291.eq_1 v411 v470))
theorem k0_idx291_inb : ∀ (v411 : IVec S16 32) (v470 : IVec S16 32) (k0_hw291 : k0_chk291 v411 v470), ∀ a x, ((![v470, v411] : Fin 2 → IVec S16 32) a x).toNat < S200x256.size a := fun v411 v470 k0_hw291 => k0_hw291

def k0_chk292 (v411 : IVec S16 32) (v471 : IVec S16 32) : Prop :=
  (∀ a x, ((![v471, v411] : Fin 2 → IVec S16 32) a x).toNat < S200x256.size a)
instance k0_chk292.dec : ∀ (v411 : IVec S16 32) (v471 : IVec S16 32), Decidable (k0_chk292 v411 v471) := fun v411 v471 => decidable_of_iff' _ (Iff.of_eq (k0_chk292.eq_1 v411 v471))
theorem k0_idx292_inb : ∀ (v411 : IVec S16 32) (v471 : IVec S16 32) (k0_hw292 : k0_chk292 v411 v471), ∀ a x, ((![v471, v411] : Fin 2 → IVec S16 32) a x).toNat < S200x256.size a := fun v411 v471 k0_hw292 => k0_hw292

def k0_chk293 (v411 : IVec S16 32) (v472 : IVec S16 32) : Prop :=
  (∀ a x, ((![v472, v411] : Fin 2 → IVec S16 32) a x).toNat < S200x256.size a)
instance k0_chk293.dec : ∀ (v411 : IVec S16 32) (v472 : IVec S16 32), Decidable (k0_chk293 v411 v472) := fun v411 v472 => decidable_of_iff' _ (Iff.of_eq (k0_chk293.eq_1 v411 v472))
theorem k0_idx293_inb : ∀ (v411 : IVec S16 32) (v472 : IVec S16 32) (k0_hw293 : k0_chk293 v411 v472), ∀ a x, ((![v472, v411] : Fin 2 → IVec S16 32) a x).toNat < S200x256.size a := fun v411 v472 k0_hw293 => k0_hw293

def k0_chk294 (v411 : IVec S16 32) (v473 : IVec S16 32) : Prop :=
  (∀ a x, ((![v473, v411] : Fin 2 → IVec S16 32) a x).toNat < S200x256.size a)
instance k0_chk294.dec : ∀ (v411 : IVec S16 32) (v473 : IVec S16 32), Decidable (k0_chk294 v411 v473) := fun v411 v473 => decidable_of_iff' _ (Iff.of_eq (k0_chk294.eq_1 v411 v473))
theorem k0_idx294_inb : ∀ (v411 : IVec S16 32) (v473 : IVec S16 32) (k0_hw294 : k0_chk294 v411 v473), ∀ a x, ((![v473, v411] : Fin 2 → IVec S16 32) a x).toNat < S200x256.size a := fun v411 v473 k0_hw294 => k0_hw294

def k0_chk295 (v411 : IVec S16 32) (v474 : IVec S16 32) : Prop :=
  (∀ a x, ((![v474, v411] : Fin 2 → IVec S16 32) a x).toNat < S200x256.size a)
instance k0_chk295.dec : ∀ (v411 : IVec S16 32) (v474 : IVec S16 32), Decidable (k0_chk295 v411 v474) := fun v411 v474 => decidable_of_iff' _ (Iff.of_eq (k0_chk295.eq_1 v411 v474))
theorem k0_idx295_inb : ∀ (v411 : IVec S16 32) (v474 : IVec S16 32) (k0_hw295 : k0_chk295 v411 v474), ∀ a x, ((![v474, v411] : Fin 2 → IVec S16 32) a x).toNat < S200x256.size a := fun v411 v474 k0_hw295 => k0_hw295

def k0_chk296 (v411 : IVec S16 32) (v475 : IVec S16 32) : Prop :=
  (∀ a x, ((![v475, v411] : Fin 2 → IVec S16 32) a x).toNat < S200x256.size a)
instance k0_chk296.dec : ∀ (v411 : IVec S16 32) (v475 : IVec S16 32), Decidable (k0_chk296 v411 v475) := fun v411 v475 => decidable_of_iff' _ (Iff.of_eq (k0_chk296.eq_1 v411 v475))
theorem k0_idx296_inb : ∀ (v411 : IVec S16 32) (v475 : IVec S16 32) (k0_hw296 : k0_chk296 v411 v475), ∀ a x, ((![v475, v411] : Fin 2 → IVec S16 32) a x).toNat < S200x256.size a := fun v411 v475 k0_hw296 => k0_hw296

def k0_chk297 (v411 : IVec S16 32) (v476 : IVec S16 32) : Prop :=
  (∀ a x, ((![v476, v411] : Fin 2 → IVec S16 32) a x).toNat < S200x256.size a)
instance k0_chk297.dec : ∀ (v411 : IVec S16 32) (v476 : IVec S16 32), Decidable (k0_chk297 v411 v476) := fun v411 v476 => decidable_of_iff' _ (Iff.of_eq (k0_chk297.eq_1 v411 v476))
theorem k0_idx297_inb : ∀ (v411 : IVec S16 32) (v476 : IVec S16 32) (k0_hw297 : k0_chk297 v411 v476), ∀ a x, ((![v476, v411] : Fin 2 → IVec S16 32) a x).toNat < S200x256.size a := fun v411 v476 k0_hw297 => k0_hw297

def k0_chk298 (v411 : IVec S16 32) (v477 : IVec S16 32) : Prop :=
  (∀ a x, ((![v477, v411] : Fin 2 → IVec S16 32) a x).toNat < S200x256.size a)
instance k0_chk298.dec : ∀ (v411 : IVec S16 32) (v477 : IVec S16 32), Decidable (k0_chk298 v411 v477) := fun v411 v477 => decidable_of_iff' _ (Iff.of_eq (k0_chk298.eq_1 v411 v477))
theorem k0_idx298_inb : ∀ (v411 : IVec S16 32) (v477 : IVec S16 32) (k0_hw298 : k0_chk298 v411 v477), ∀ a x, ((![v477, v411] : Fin 2 → IVec S16 32) a x).toNat < S200x256.size a := fun v411 v477 k0_hw298 => k0_hw298

def k0_chk299 (v411 : IVec S16 32) (v478 : IVec S16 32) : Prop :=
  (∀ a x, ((![v478, v411] : Fin 2 → IVec S16 32) a x).toNat < S200x256.size a)
instance k0_chk299.dec : ∀ (v411 : IVec S16 32) (v478 : IVec S16 32), Decidable (k0_chk299 v411 v478) := fun v411 v478 => decidable_of_iff' _ (Iff.of_eq (k0_chk299.eq_1 v411 v478))
theorem k0_idx299_inb : ∀ (v411 : IVec S16 32) (v478 : IVec S16 32) (k0_hw299 : k0_chk299 v411 v478), ∀ a x, ((![v478, v411] : Fin 2 → IVec S16 32) a x).toNat < S200x256.size a := fun v411 v478 k0_hw299 => k0_hw299

def k0_chk300 (v411 : IVec S16 32) (v479 : IVec S16 32) : Prop :=
  (∀ a x, ((![v479, v411] : Fin 2 → IVec S16 32) a x).toNat < S200x256.size a)
instance k0_chk300.dec : ∀ (v411 : IVec S16 32) (v479 : IVec S16 32), Decidable (k0_chk300 v411 v479) := fun v411 v479 => decidable_of_iff' _ (Iff.of_eq (k0_chk300.eq_1 v411 v479))
theorem k0_idx300_inb : ∀ (v411 : IVec S16 32) (v479 : IVec S16 32) (k0_hw300 : k0_chk300 v411 v479), ∀ a x, ((![v479, v411] : Fin 2 → IVec S16 32) a x).toNat < S200x256.size a := fun v411 v479 k0_hw300 => k0_hw300

def k0_chk301 (v411 : IVec S16 32) (v480 : IVec S16 32) : Prop :=
  (∀ a x, ((![v480, v411] : Fin 2 → IVec S16 32) a x).toNat < S200x256.size a)
instance k0_chk301.dec : ∀ (v411 : IVec S16 32) (v480 : IVec S16 32), Decidable (k0_chk301 v411 v480) := fun v411 v480 => decidable_of_iff' _ (Iff.of_eq (k0_chk301.eq_1 v411 v480))
theorem k0_idx301_inb : ∀ (v411 : IVec S16 32) (v480 : IVec S16 32) (k0_hw301 : k0_chk301 v411 v480), ∀ a x, ((![v480, v411] : Fin 2 → IVec S16 32) a x).toNat < S200x256.size a := fun v411 v480 k0_hw301 => k0_hw301

def k0_chk302 (v411 : IVec S16 32) (v481 : IVec S16 32) : Prop :=
  (∀ a x, ((![v481, v411] : Fin 2 → IVec S16 32) a x).toNat < S200x256.size a)
instance k0_chk302.dec : ∀ (v411 : IVec S16 32) (v481 : IVec S16 32), Decidable (k0_chk302 v411 v481) := fun v411 v481 => decidable_of_iff' _ (Iff.of_eq (k0_chk302.eq_1 v411 v481))
theorem k0_idx302_inb : ∀ (v411 : IVec S16 32) (v481 : IVec S16 32) (k0_hw302 : k0_chk302 v411 v481), ∀ a x, ((![v481, v411] : Fin 2 → IVec S16 32) a x).toNat < S200x256.size a := fun v411 v481 k0_hw302 => k0_hw302

def k0_chk303 (v411 : IVec S16 32) (v482 : IVec S16 32) : Prop :=
  (∀ a x, ((![v482, v411] : Fin 2 → IVec S16 32) a x).toNat < S200x256.size a)
instance k0_chk303.dec : ∀ (v411 : IVec S16 32) (v482 : IVec S16 32), Decidable (k0_chk303 v411 v482) := fun v411 v482 => decidable_of_iff' _ (Iff.of_eq (k0_chk303.eq_1 v411 v482))
theorem k0_idx303_inb : ∀ (v411 : IVec S16 32) (v482 : IVec S16 32) (k0_hw303 : k0_chk303 v411 v482), ∀ a x, ((![v482, v411] : Fin 2 → IVec S16 32) a x).toNat < S200x256.size a := fun v411 v482 k0_hw303 => k0_hw303

def k0_chk304 (v411 : IVec S16 32) (v483 : IVec S16 32) : Prop :=
  (∀ a x, ((![v483, v411] : Fin 2 → IVec S16 32) a x).toNat < S200x256.size a)
instance k0_chk304.dec : ∀ (v411 : IVec S16 32) (v483 : IVec S16 32), Decidable (k0_chk304 v411 v483) := fun v411 v483 => decidable_of_iff' _ (Iff.of_eq (k0_chk304.eq_1 v411 v483))
theorem k0_idx304_inb : ∀ (v411 : IVec S16 32) (v483 : IVec S16 32) (k0_hw304 : k0_chk304 v411 v483), ∀ a x, ((![v483, v411] : Fin 2 → IVec S16 32) a x).toNat < S200x256.size a := fun v411 v483 k0_hw304 => k0_hw304

def k0_chk305 (v411 : IVec S16 32) (v484 : IVec S16 32) : Prop :=
  (∀ a x, ((![v484, v411] : Fin 2 → IVec S16 32) a x).toNat < S200x256.size a)
instance k0_chk305.dec : ∀ (v411 : IVec S16 32) (v484 : IVec S16 32), Decidable (k0_chk305 v411 v484) := fun v411 v484 => decidable_of_iff' _ (Iff.of_eq (k0_chk305.eq_1 v411 v484))
theorem k0_idx305_inb : ∀ (v411 : IVec S16 32) (v484 : IVec S16 32) (k0_hw305 : k0_chk305 v411 v484), ∀ a x, ((![v484, v411] : Fin 2 → IVec S16 32) a x).toNat < S200x256.size a := fun v411 v484 k0_hw305 => k0_hw305

def k0_chk306 (v411 : IVec S16 32) (v485 : IVec S16 32) : Prop :=
  (∀ a x, ((![v485, v411] : Fin 2 → IVec S16 32) a x).toNat < S200x256.size a)
instance k0_chk306.dec : ∀ (v411 : IVec S16 32) (v485 : IVec S16 32), Decidable (k0_chk306 v411 v485) := fun v411 v485 => decidable_of_iff' _ (Iff.of_eq (k0_chk306.eq_1 v411 v485))
theorem k0_idx306_inb : ∀ (v411 : IVec S16 32) (v485 : IVec S16 32) (k0_hw306 : k0_chk306 v411 v485), ∀ a x, ((![v485, v411] : Fin 2 → IVec S16 32) a x).toNat < S200x256.size a := fun v411 v485 k0_hw306 => k0_hw306

def k0_chk307 (v411 : IVec S16 32) (v486 : IVec S16 32) : Prop :=
  (∀ a x, ((![v486, v411] : Fin 2 → IVec S16 32) a x).toNat < S200x256.size a)
instance k0_chk307.dec : ∀ (v411 : IVec S16 32) (v486 : IVec S16 32), Decidable (k0_chk307 v411 v486) := fun v411 v486 => decidable_of_iff' _ (Iff.of_eq (k0_chk307.eq_1 v411 v486))
theorem k0_idx307_inb : ∀ (v411 : IVec S16 32) (v486 : IVec S16 32) (k0_hw307 : k0_chk307 v411 v486), ∀ a x, ((![v486, v411] : Fin 2 → IVec S16 32) a x).toNat < S200x256.size a := fun v411 v486 k0_hw307 => k0_hw307

def k0_chk308 (v411 : IVec S16 32) (v487 : IVec S16 32) : Prop :=
  (∀ a x, ((![v487, v411] : Fin 2 → IVec S16 32) a x).toNat < S200x256.size a)
instance k0_chk308.dec : ∀ (v411 : IVec S16 32) (v487 : IVec S16 32), Decidable (k0_chk308 v411 v487) := fun v411 v487 => decidable_of_iff' _ (Iff.of_eq (k0_chk308.eq_1 v411 v487))
theorem k0_idx308_inb : ∀ (v411 : IVec S16 32) (v487 : IVec S16 32) (k0_hw308 : k0_chk308 v411 v487), ∀ a x, ((![v487, v411] : Fin 2 → IVec S16 32) a x).toNat < S200x256.size a := fun v411 v487 k0_hw308 => k0_hw308

def k0_chk309 (v411 : IVec S16 32) (v488 : IVec S16 32) : Prop :=
  (∀ a x, ((![v488, v411] : Fin 2 → IVec S16 32) a x).toNat < S200x256.size a)
instance k0_chk309.dec : ∀ (v411 : IVec S16 32) (v488 : IVec S16 32), Decidable (k0_chk309 v411 v488) := fun v411 v488 => decidable_of_iff' _ (Iff.of_eq (k0_chk309.eq_1 v411 v488))
theorem k0_idx309_inb : ∀ (v411 : IVec S16 32) (v488 : IVec S16 32) (k0_hw309 : k0_chk309 v411 v488), ∀ a x, ((![v488, v411] : Fin 2 → IVec S16 32) a x).toNat < S200x256.size a := fun v411 v488 k0_hw309 => k0_hw309

def k0_chk310 (v411 : IVec S16 32) (v489 : IVec S16 32) : Prop :=
  (∀ a x, ((![v489, v411] : Fin 2 → IVec S16 32) a x).toNat < S200x256.size a)
instance k0_chk310.dec : ∀ (v411 : IVec S16 32) (v489 : IVec S16 32), Decidable (k0_chk310 v411 v489) := fun v411 v489 => decidable_of_iff' _ (Iff.of_eq (k0_chk310.eq_1 v411 v489))
theorem k0_idx310_inb : ∀ (v411 : IVec S16 32) (v489 : IVec S16 32) (k0_hw310 : k0_chk310 v411 v489), ∀ a x, ((![v489, v411] : Fin 2 → IVec S16 32) a x).toNat < S200x256.size a := fun v411 v489 k0_hw310 => k0_hw310

def k0_chk311 (v411 : IVec S16 32) (v490 : IVec S16 32) : Prop :=
  (∀ a x, ((![v490, v411] : Fin 2 → IVec S16 32) a x).toNat < S200x256.size a)
instance k0_chk311.dec : ∀ (v411 : IVec S16 32) (v490 : IVec S16 32), Decidable (k0_chk311 v411 v490) := fun v411 v490 => decidable_of_iff' _ (Iff.of_eq (k0_chk311.eq_1 v411 v490))
theorem k0_idx311_inb : ∀ (v411 : IVec S16 32) (v490 : IVec S16 32) (k0_hw311 : k0_chk311 v411 v490), ∀ a x, ((![v490, v411] : Fin 2 → IVec S16 32) a x).toNat < S200x256.size a := fun v411 v490 k0_hw311 => k0_hw311

def k0_chk312 (v411 : IVec S16 32) (v491 : IVec S16 32) : Prop :=
  (∀ a x, ((![v491, v411] : Fin 2 → IVec S16 32) a x).toNat < S200x256.size a)
instance k0_chk312.dec : ∀ (v411 : IVec S16 32) (v491 : IVec S16 32), Decidable (k0_chk312 v411 v491) := fun v411 v491 => decidable_of_iff' _ (Iff.of_eq (k0_chk312.eq_1 v411 v491))
theorem k0_idx312_inb : ∀ (v411 : IVec S16 32) (v491 : IVec S16 32) (k0_hw312 : k0_chk312 v411 v491), ∀ a x, ((![v491, v411] : Fin 2 → IVec S16 32) a x).toNat < S200x256.size a := fun v411 v491 k0_hw312 => k0_hw312

def k0_chk313 (v411 : IVec S16 32) (v492 : IVec S16 32) : Prop :=
  (∀ a x, ((![v492, v411] : Fin 2 → IVec S16 32) a x).toNat < S200x256.size a)
instance k0_chk313.dec : ∀ (v411 : IVec S16 32) (v492 : IVec S16 32), Decidable (k0_chk313 v411 v492) := fun v411 v492 => decidable_of_iff' _ (Iff.of_eq (k0_chk313.eq_1 v411 v492))
theorem k0_idx313_inb : ∀ (v411 : IVec S16 32) (v492 : IVec S16 32) (k0_hw313 : k0_chk313 v411 v492), ∀ a x, ((![v492, v411] : Fin 2 → IVec S16 32) a x).toNat < S200x256.size a := fun v411 v492 k0_hw313 => k0_hw313

def k0_chk314 (v411 : IVec S16 32) (v493 : IVec S16 32) : Prop :=
  (∀ a x, ((![v493, v411] : Fin 2 → IVec S16 32) a x).toNat < S200x256.size a)
instance k0_chk314.dec : ∀ (v411 : IVec S16 32) (v493 : IVec S16 32), Decidable (k0_chk314 v411 v493) := fun v411 v493 => decidable_of_iff' _ (Iff.of_eq (k0_chk314.eq_1 v411 v493))
theorem k0_idx314_inb : ∀ (v411 : IVec S16 32) (v493 : IVec S16 32) (k0_hw314 : k0_chk314 v411 v493), ∀ a x, ((![v493, v411] : Fin 2 → IVec S16 32) a x).toNat < S200x256.size a := fun v411 v493 k0_hw314 => k0_hw314

def k0_chk315 (v411 : IVec S16 32) (v494 : IVec S16 32) : Prop :=
  (∀ a x, ((![v494, v411] : Fin 2 → IVec S16 32) a x).toNat < S200x256.size a)
instance k0_chk315.dec : ∀ (v411 : IVec S16 32) (v494 : IVec S16 32), Decidable (k0_chk315 v411 v494) := fun v411 v494 => decidable_of_iff' _ (Iff.of_eq (k0_chk315.eq_1 v411 v494))
theorem k0_idx315_inb : ∀ (v411 : IVec S16 32) (v494 : IVec S16 32) (k0_hw315 : k0_chk315 v411 v494), ∀ a x, ((![v494, v411] : Fin 2 → IVec S16 32) a x).toNat < S200x256.size a := fun v411 v494 k0_hw315 => k0_hw315

def k0_chk316 (v411 : IVec S16 32) (v495 : IVec S16 32) : Prop :=
  (∀ a x, ((![v495, v411] : Fin 2 → IVec S16 32) a x).toNat < S200x256.size a)
instance k0_chk316.dec : ∀ (v411 : IVec S16 32) (v495 : IVec S16 32), Decidable (k0_chk316 v411 v495) := fun v411 v495 => decidable_of_iff' _ (Iff.of_eq (k0_chk316.eq_1 v411 v495))
theorem k0_idx316_inb : ∀ (v411 : IVec S16 32) (v495 : IVec S16 32) (k0_hw316 : k0_chk316 v411 v495), ∀ a x, ((![v495, v411] : Fin 2 → IVec S16 32) a x).toNat < S200x256.size a := fun v411 v495 k0_hw316 => k0_hw316

def k0_chk317 (v411 : IVec S16 32) (v496 : IVec S16 32) : Prop :=
  (∀ a x, ((![v496, v411] : Fin 2 → IVec S16 32) a x).toNat < S200x256.size a)
instance k0_chk317.dec : ∀ (v411 : IVec S16 32) (v496 : IVec S16 32), Decidable (k0_chk317 v411 v496) := fun v411 v496 => decidable_of_iff' _ (Iff.of_eq (k0_chk317.eq_1 v411 v496))
theorem k0_idx317_inb : ∀ (v411 : IVec S16 32) (v496 : IVec S16 32) (k0_hw317 : k0_chk317 v411 v496), ∀ a x, ((![v496, v411] : Fin 2 → IVec S16 32) a x).toNat < S200x256.size a := fun v411 v496 k0_hw317 => k0_hw317

def k0_chk318 (v411 : IVec S16 32) (v497 : IVec S16 32) : Prop :=
  (∀ a x, ((![v497, v411] : Fin 2 → IVec S16 32) a x).toNat < S200x256.size a)
instance k0_chk318.dec : ∀ (v411 : IVec S16 32) (v497 : IVec S16 32), Decidable (k0_chk318 v411 v497) := fun v411 v497 => decidable_of_iff' _ (Iff.of_eq (k0_chk318.eq_1 v411 v497))
theorem k0_idx318_inb : ∀ (v411 : IVec S16 32) (v497 : IVec S16 32) (k0_hw318 : k0_chk318 v411 v497), ∀ a x, ((![v497, v411] : Fin 2 → IVec S16 32) a x).toNat < S200x256.size a := fun v411 v497 k0_hw318 => k0_hw318

def k0_chk319 (v411 : IVec S16 32) (v498 : IVec S16 32) : Prop :=
  (∀ a x, ((![v498, v411] : Fin 2 → IVec S16 32) a x).toNat < S200x256.size a)
instance k0_chk319.dec : ∀ (v411 : IVec S16 32) (v498 : IVec S16 32), Decidable (k0_chk319 v411 v498) := fun v411 v498 => decidable_of_iff' _ (Iff.of_eq (k0_chk319.eq_1 v411 v498))
theorem k0_idx319_inb : ∀ (v411 : IVec S16 32) (v498 : IVec S16 32) (k0_hw319 : k0_chk319 v411 v498), ∀ a x, ((![v498, v411] : Fin 2 → IVec S16 32) a x).toNat < S200x256.size a := fun v411 v498 k0_hw319 => k0_hw319

def k0_chk320 (v411 : IVec S16 32) (v499 : IVec S16 32) : Prop :=
  (∀ a x, ((![v499, v411] : Fin 2 → IVec S16 32) a x).toNat < S200x256.size a)
instance k0_chk320.dec : ∀ (v411 : IVec S16 32) (v499 : IVec S16 32), Decidable (k0_chk320 v411 v499) := fun v411 v499 => decidable_of_iff' _ (Iff.of_eq (k0_chk320.eq_1 v411 v499))
theorem k0_idx320_inb : ∀ (v411 : IVec S16 32) (v499 : IVec S16 32) (k0_hw320 : k0_chk320 v411 v499), ∀ a x, ((![v499, v411] : Fin 2 → IVec S16 32) a x).toNat < S200x256.size a := fun v411 v499 k0_hw320 => k0_hw320

def k0_chk321 (v411 : IVec S16 32) (v500 : IVec S16 32) : Prop :=
  (∀ a x, ((![v500, v411] : Fin 2 → IVec S16 32) a x).toNat < S200x256.size a)
instance k0_chk321.dec : ∀ (v411 : IVec S16 32) (v500 : IVec S16 32), Decidable (k0_chk321 v411 v500) := fun v411 v500 => decidable_of_iff' _ (Iff.of_eq (k0_chk321.eq_1 v411 v500))
theorem k0_idx321_inb : ∀ (v411 : IVec S16 32) (v500 : IVec S16 32) (k0_hw321 : k0_chk321 v411 v500), ∀ a x, ((![v500, v411] : Fin 2 → IVec S16 32) a x).toNat < S200x256.size a := fun v411 v500 k0_hw321 => k0_hw321

def k0_chk322 (v411 : IVec S16 32) (v501 : IVec S16 32) : Prop :=
  (∀ a x, ((![v501, v411] : Fin 2 → IVec S16 32) a x).toNat < S200x256.size a)
instance k0_chk322.dec : ∀ (v411 : IVec S16 32) (v501 : IVec S16 32), Decidable (k0_chk322 v411 v501) := fun v411 v501 => decidable_of_iff' _ (Iff.of_eq (k0_chk322.eq_1 v411 v501))
theorem k0_idx322_inb : ∀ (v411 : IVec S16 32) (v501 : IVec S16 32) (k0_hw322 : k0_chk322 v411 v501), ∀ a x, ((![v501, v411] : Fin 2 → IVec S16 32) a x).toNat < S200x256.size a := fun v411 v501 k0_hw322 => k0_hw322

def k0_chk323 (v411 : IVec S16 32) (v502 : IVec S16 32) : Prop :=
  (∀ a x, ((![v502, v411] : Fin 2 → IVec S16 32) a x).toNat < S200x256.size a)
instance k0_chk323.dec : ∀ (v411 : IVec S16 32) (v502 : IVec S16 32), Decidable (k0_chk323 v411 v502) := fun v411 v502 => decidable_of_iff' _ (Iff.of_eq (k0_chk323.eq_1 v411 v502))
theorem k0_idx323_inb : ∀ (v411 : IVec S16 32) (v502 : IVec S16 32) (k0_hw323 : k0_chk323 v411 v502), ∀ a x, ((![v502, v411] : Fin 2 → IVec S16 32) a x).toNat < S200x256.size a := fun v411 v502 k0_hw323 => k0_hw323

def k0_chk324 (v411 : IVec S16 32) (v503 : IVec S16 32) : Prop :=
  (∀ a x, ((![v503, v411] : Fin 2 → IVec S16 32) a x).toNat < S200x256.size a)
instance k0_chk324.dec : ∀ (v411 : IVec S16 32) (v503 : IVec S16 32), Decidable (k0_chk324 v411 v503) := fun v411 v503 => decidable_of_iff' _ (Iff.of_eq (k0_chk324.eq_1 v411 v503))
theorem k0_idx324_inb : ∀ (v411 : IVec S16 32) (v503 : IVec S16 32) (k0_hw324 : k0_chk324 v411 v503), ∀ a x, ((![v503, v411] : Fin 2 → IVec S16 32) a x).toNat < S200x256.size a := fun v411 v503 k0_hw324 => k0_hw324

def k0_chk325 (v411 : IVec S16 32) (v504 : IVec S16 32) : Prop :=
  (∀ a x, ((![v504, v411] : Fin 2 → IVec S16 32) a x).toNat < S200x256.size a)
instance k0_chk325.dec : ∀ (v411 : IVec S16 32) (v504 : IVec S16 32), Decidable (k0_chk325 v411 v504) := fun v411 v504 => decidable_of_iff' _ (Iff.of_eq (k0_chk325.eq_1 v411 v504))
theorem k0_idx325_inb : ∀ (v411 : IVec S16 32) (v504 : IVec S16 32) (k0_hw325 : k0_chk325 v411 v504), ∀ a x, ((![v504, v411] : Fin 2 → IVec S16 32) a x).toNat < S200x256.size a := fun v411 v504 k0_hw325 => k0_hw325

def k0_chk326 (v411 : IVec S16 32) (v505 : IVec S16 32) : Prop :=
  (∀ a x, ((![v505, v411] : Fin 2 → IVec S16 32) a x).toNat < S200x256.size a)
instance k0_chk326.dec : ∀ (v411 : IVec S16 32) (v505 : IVec S16 32), Decidable (k0_chk326 v411 v505) := fun v411 v505 => decidable_of_iff' _ (Iff.of_eq (k0_chk326.eq_1 v411 v505))
theorem k0_idx326_inb : ∀ (v411 : IVec S16 32) (v505 : IVec S16 32) (k0_hw326 : k0_chk326 v411 v505), ∀ a x, ((![v505, v411] : Fin 2 → IVec S16 32) a x).toNat < S200x256.size a := fun v411 v505 k0_hw326 => k0_hw326

def k0_chk327 (v411 : IVec S16 32) (v506 : IVec S16 32) : Prop :=
  (∀ a x, ((![v506, v411] : Fin 2 → IVec S16 32) a x).toNat < S200x256.size a)
instance k0_chk327.dec : ∀ (v411 : IVec S16 32) (v506 : IVec S16 32), Decidable (k0_chk327 v411 v506) := fun v411 v506 => decidable_of_iff' _ (Iff.of_eq (k0_chk327.eq_1 v411 v506))
theorem k0_idx327_inb : ∀ (v411 : IVec S16 32) (v506 : IVec S16 32) (k0_hw327 : k0_chk327 v411 v506), ∀ a x, ((![v506, v411] : Fin 2 → IVec S16 32) a x).toNat < S200x256.size a := fun v411 v506 k0_hw327 => k0_hw327

def k0_chk328 (v411 : IVec S16 32) (v507 : IVec S16 32) : Prop :=
  (∀ a x, ((![v507, v411] : Fin 2 → IVec S16 32) a x).toNat < S200x256.size a)
instance k0_chk328.dec : ∀ (v411 : IVec S16 32) (v507 : IVec S16 32), Decidable (k0_chk328 v411 v507) := fun v411 v507 => decidable_of_iff' _ (Iff.of_eq (k0_chk328.eq_1 v411 v507))
theorem k0_idx328_inb : ∀ (v411 : IVec S16 32) (v507 : IVec S16 32) (k0_hw328 : k0_chk328 v411 v507), ∀ a x, ((![v507, v411] : Fin 2 → IVec S16 32) a x).toNat < S200x256.size a := fun v411 v507 k0_hw328 => k0_hw328

def k0_chk329 (v411 : IVec S16 32) (v508 : IVec S16 32) : Prop :=
  (∀ a x, ((![v508, v411] : Fin 2 → IVec S16 32) a x).toNat < S200x256.size a)
instance k0_chk329.dec : ∀ (v411 : IVec S16 32) (v508 : IVec S16 32), Decidable (k0_chk329 v411 v508) := fun v411 v508 => decidable_of_iff' _ (Iff.of_eq (k0_chk329.eq_1 v411 v508))
theorem k0_idx329_inb : ∀ (v411 : IVec S16 32) (v508 : IVec S16 32) (k0_hw329 : k0_chk329 v411 v508), ∀ a x, ((![v508, v411] : Fin 2 → IVec S16 32) a x).toNat < S200x256.size a := fun v411 v508 k0_hw329 => k0_hw329

def k0_chk330 (v411 : IVec S16 32) (v509 : IVec S16 32) : Prop :=
  (∀ a x, ((![v509, v411] : Fin 2 → IVec S16 32) a x).toNat < S200x256.size a)
instance k0_chk330.dec : ∀ (v411 : IVec S16 32) (v509 : IVec S16 32), Decidable (k0_chk330 v411 v509) := fun v411 v509 => decidable_of_iff' _ (Iff.of_eq (k0_chk330.eq_1 v411 v509))
theorem k0_idx330_inb : ∀ (v411 : IVec S16 32) (v509 : IVec S16 32) (k0_hw330 : k0_chk330 v411 v509), ∀ a x, ((![v509, v411] : Fin 2 → IVec S16 32) a x).toNat < S200x256.size a := fun v411 v509 k0_hw330 => k0_hw330

def k0_chk331 (v411 : IVec S16 32) (v510 : IVec S16 32) : Prop :=
  (∀ a x, ((![v510, v411] : Fin 2 → IVec S16 32) a x).toNat < S200x256.size a)
instance k0_chk331.dec : ∀ (v411 : IVec S16 32) (v510 : IVec S16 32), Decidable (k0_chk331 v411 v510) := fun v411 v510 => decidable_of_iff' _ (Iff.of_eq (k0_chk331.eq_1 v411 v510))
theorem k0_idx331_inb : ∀ (v411 : IVec S16 32) (v510 : IVec S16 32) (k0_hw331 : k0_chk331 v411 v510), ∀ a x, ((![v510, v411] : Fin 2 → IVec S16 32) a x).toNat < S200x256.size a := fun v411 v510 k0_hw331 => k0_hw331

def k0_chk332 (v411 : IVec S16 32) (v511 : IVec S16 32) : Prop :=
  (∀ a x, ((![v511, v411] : Fin 2 → IVec S16 32) a x).toNat < S200x256.size a)
instance k0_chk332.dec : ∀ (v411 : IVec S16 32) (v511 : IVec S16 32), Decidable (k0_chk332 v411 v511) := fun v411 v511 => decidable_of_iff' _ (Iff.of_eq (k0_chk332.eq_1 v411 v511))
theorem k0_idx332_inb : ∀ (v411 : IVec S16 32) (v511 : IVec S16 32) (k0_hw332 : k0_chk332 v411 v511), ∀ a x, ((![v511, v411] : Fin 2 → IVec S16 32) a x).toNat < S200x256.size a := fun v411 v511 k0_hw332 => k0_hw332

def k0_chk333 (v411 : IVec S16 32) (v512 : IVec S16 32) : Prop :=
  (∀ a x, ((![v512, v411] : Fin 2 → IVec S16 32) a x).toNat < S200x256.size a)
instance k0_chk333.dec : ∀ (v411 : IVec S16 32) (v512 : IVec S16 32), Decidable (k0_chk333 v411 v512) := fun v411 v512 => decidable_of_iff' _ (Iff.of_eq (k0_chk333.eq_1 v411 v512))
theorem k0_idx333_inb : ∀ (v411 : IVec S16 32) (v512 : IVec S16 32) (k0_hw333 : k0_chk333 v411 v512), ∀ a x, ((![v512, v411] : Fin 2 → IVec S16 32) a x).toNat < S200x256.size a := fun v411 v512 k0_hw333 => k0_hw333

def k0_chk334 (v411 : IVec S16 32) (v513 : IVec S16 32) : Prop :=
  (∀ a x, ((![v513, v411] : Fin 2 → IVec S16 32) a x).toNat < S200x256.size a)
instance k0_chk334.dec : ∀ (v411 : IVec S16 32) (v513 : IVec S16 32), Decidable (k0_chk334 v411 v513) := fun v411 v513 => decidable_of_iff' _ (Iff.of_eq (k0_chk334.eq_1 v411 v513))
theorem k0_idx334_inb : ∀ (v411 : IVec S16 32) (v513 : IVec S16 32) (k0_hw334 : k0_chk334 v411 v513), ∀ a x, ((![v513, v411] : Fin 2 → IVec S16 32) a x).toNat < S200x256.size a := fun v411 v513 k0_hw334 => k0_hw334

def k0_chk335 (v411 : IVec S16 32) (v514 : IVec S16 32) : Prop :=
  (∀ a x, ((![v514, v411] : Fin 2 → IVec S16 32) a x).toNat < S200x256.size a)
instance k0_chk335.dec : ∀ (v411 : IVec S16 32) (v514 : IVec S16 32), Decidable (k0_chk335 v411 v514) := fun v411 v514 => decidable_of_iff' _ (Iff.of_eq (k0_chk335.eq_1 v411 v514))
theorem k0_idx335_inb : ∀ (v411 : IVec S16 32) (v514 : IVec S16 32) (k0_hw335 : k0_chk335 v411 v514), ∀ a x, ((![v514, v411] : Fin 2 → IVec S16 32) a x).toNat < S200x256.size a := fun v411 v514 k0_hw335 => k0_hw335

def k0_chk336 (v411 : IVec S16 32) (v515 : IVec S16 32) : Prop :=
  (∀ a x, ((![v515, v411] : Fin 2 → IVec S16 32) a x).toNat < S200x256.size a)
instance k0_chk336.dec : ∀ (v411 : IVec S16 32) (v515 : IVec S16 32), Decidable (k0_chk336 v411 v515) := fun v411 v515 => decidable_of_iff' _ (Iff.of_eq (k0_chk336.eq_1 v411 v515))
theorem k0_idx336_inb : ∀ (v411 : IVec S16 32) (v515 : IVec S16 32) (k0_hw336 : k0_chk336 v411 v515), ∀ a x, ((![v515, v411] : Fin 2 → IVec S16 32) a x).toNat < S200x256.size a := fun v411 v515 k0_hw336 => k0_hw336

def k0_chk337 (v411 : IVec S16 32) (v516 : IVec S16 32) : Prop :=
  (∀ a x, ((![v516, v411] : Fin 2 → IVec S16 32) a x).toNat < S200x256.size a)
instance k0_chk337.dec : ∀ (v411 : IVec S16 32) (v516 : IVec S16 32), Decidable (k0_chk337 v411 v516) := fun v411 v516 => decidable_of_iff' _ (Iff.of_eq (k0_chk337.eq_1 v411 v516))
theorem k0_idx337_inb : ∀ (v411 : IVec S16 32) (v516 : IVec S16 32) (k0_hw337 : k0_chk337 v411 v516), ∀ a x, ((![v516, v411] : Fin 2 → IVec S16 32) a x).toNat < S200x256.size a := fun v411 v516 k0_hw337 => k0_hw337

def k0_chk338 (v411 : IVec S16 32) (v517 : IVec S16 32) : Prop :=
  (∀ a x, ((![v517, v411] : Fin 2 → IVec S16 32) a x).toNat < S200x256.size a)
instance k0_chk338.dec : ∀ (v411 : IVec S16 32) (v517 : IVec S16 32), Decidable (k0_chk338 v411 v517) := fun v411 v517 => decidable_of_iff' _ (Iff.of_eq (k0_chk338.eq_1 v411 v517))
theorem k0_idx338_inb : ∀ (v411 : IVec S16 32) (v517 : IVec S16 32) (k0_hw338 : k0_chk338 v411 v517), ∀ a x, ((![v517, v411] : Fin 2 → IVec S16 32) a x).toNat < S200x256.size a := fun v411 v517 k0_hw338 => k0_hw338

def k0_chk339 (v411 : IVec S16 32) (v518 : IVec S16 32) : Prop :=
  (∀ a x, ((![v518, v411] : Fin 2 → IVec S16 32) a x).toNat < S200x256.size a)
instance k0_chk339.dec : ∀ (v411 : IVec S16 32) (v518 : IVec S16 32), Decidable (k0_chk339 v411 v518) := fun v411 v518 => decidable_of_iff' _ (Iff.of_eq (k0_chk339.eq_1 v411 v518))
theorem k0_idx339_inb : ∀ (v411 : IVec S16 32) (v518 : IVec S16 32) (k0_hw339 : k0_chk339 v411 v518), ∀ a x, ((![v518, v411] : Fin 2 → IVec S16 32) a x).toNat < S200x256.size a := fun v411 v518 k0_hw339 => k0_hw339

def k0_chk340 (v411 : IVec S16 32) (v519 : IVec S16 32) : Prop :=
  (∀ a x, ((![v519, v411] : Fin 2 → IVec S16 32) a x).toNat < S200x256.size a)
instance k0_chk340.dec : ∀ (v411 : IVec S16 32) (v519 : IVec S16 32), Decidable (k0_chk340 v411 v519) := fun v411 v519 => decidable_of_iff' _ (Iff.of_eq (k0_chk340.eq_1 v411 v519))
theorem k0_idx340_inb : ∀ (v411 : IVec S16 32) (v519 : IVec S16 32) (k0_hw340 : k0_chk340 v411 v519), ∀ a x, ((![v519, v411] : Fin 2 → IVec S16 32) a x).toNat < S200x256.size a := fun v411 v519 k0_hw340 => k0_hw340

def k0_chk341 (v411 : IVec S16 32) (v520 : IVec S16 32) : Prop :=
  (∀ a x, ((![v520, v411] : Fin 2 → IVec S16 32) a x).toNat < S200x256.size a)
instance k0_chk341.dec : ∀ (v411 : IVec S16 32) (v520 : IVec S16 32), Decidable (k0_chk341 v411 v520) := fun v411 v520 => decidable_of_iff' _ (Iff.of_eq (k0_chk341.eq_1 v411 v520))
theorem k0_idx341_inb : ∀ (v411 : IVec S16 32) (v520 : IVec S16 32) (k0_hw341 : k0_chk341 v411 v520), ∀ a x, ((![v520, v411] : Fin 2 → IVec S16 32) a x).toNat < S200x256.size a := fun v411 v520 k0_hw341 => k0_hw341

def k0_chk342 (v411 : IVec S16 32) (v521 : IVec S16 32) : Prop :=
  (∀ a x, ((![v521, v411] : Fin 2 → IVec S16 32) a x).toNat < S200x256.size a)
instance k0_chk342.dec : ∀ (v411 : IVec S16 32) (v521 : IVec S16 32), Decidable (k0_chk342 v411 v521) := fun v411 v521 => decidable_of_iff' _ (Iff.of_eq (k0_chk342.eq_1 v411 v521))
theorem k0_idx342_inb : ∀ (v411 : IVec S16 32) (v521 : IVec S16 32) (k0_hw342 : k0_chk342 v411 v521), ∀ a x, ((![v521, v411] : Fin 2 → IVec S16 32) a x).toNat < S200x256.size a := fun v411 v521 k0_hw342 => k0_hw342

def k0_chk343 (v411 : IVec S16 32) (v522 : IVec S16 32) : Prop :=
  (∀ a x, ((![v522, v411] : Fin 2 → IVec S16 32) a x).toNat < S200x256.size a)
instance k0_chk343.dec : ∀ (v411 : IVec S16 32) (v522 : IVec S16 32), Decidable (k0_chk343 v411 v522) := fun v411 v522 => decidable_of_iff' _ (Iff.of_eq (k0_chk343.eq_1 v411 v522))
theorem k0_idx343_inb : ∀ (v411 : IVec S16 32) (v522 : IVec S16 32) (k0_hw343 : k0_chk343 v411 v522), ∀ a x, ((![v522, v411] : Fin 2 → IVec S16 32) a x).toNat < S200x256.size a := fun v411 v522 k0_hw343 => k0_hw343

def k0_chk344 (v411 : IVec S16 32) (v523 : IVec S16 32) : Prop :=
  (∀ a x, ((![v523, v411] : Fin 2 → IVec S16 32) a x).toNat < S200x256.size a)
instance k0_chk344.dec : ∀ (v411 : IVec S16 32) (v523 : IVec S16 32), Decidable (k0_chk344 v411 v523) := fun v411 v523 => decidable_of_iff' _ (Iff.of_eq (k0_chk344.eq_1 v411 v523))
theorem k0_idx344_inb : ∀ (v411 : IVec S16 32) (v523 : IVec S16 32) (k0_hw344 : k0_chk344 v411 v523), ∀ a x, ((![v523, v411] : Fin 2 → IVec S16 32) a x).toNat < S200x256.size a := fun v411 v523 k0_hw344 => k0_hw344

def k0_chk345 (v411 : IVec S16 32) (v524 : IVec S16 32) : Prop :=
  (∀ a x, ((![v524, v411] : Fin 2 → IVec S16 32) a x).toNat < S200x256.size a)
instance k0_chk345.dec : ∀ (v411 : IVec S16 32) (v524 : IVec S16 32), Decidable (k0_chk345 v411 v524) := fun v411 v524 => decidable_of_iff' _ (Iff.of_eq (k0_chk345.eq_1 v411 v524))
theorem k0_idx345_inb : ∀ (v411 : IVec S16 32) (v524 : IVec S16 32) (k0_hw345 : k0_chk345 v411 v524), ∀ a x, ((![v524, v411] : Fin 2 → IVec S16 32) a x).toNat < S200x256.size a := fun v411 v524 k0_hw345 => k0_hw345

def k0_chk346 (v411 : IVec S16 32) (v525 : IVec S16 32) : Prop :=
  (∀ a x, ((![v525, v411] : Fin 2 → IVec S16 32) a x).toNat < S200x256.size a)
instance k0_chk346.dec : ∀ (v411 : IVec S16 32) (v525 : IVec S16 32), Decidable (k0_chk346 v411 v525) := fun v411 v525 => decidable_of_iff' _ (Iff.of_eq (k0_chk346.eq_1 v411 v525))
theorem k0_idx346_inb : ∀ (v411 : IVec S16 32) (v525 : IVec S16 32) (k0_hw346 : k0_chk346 v411 v525), ∀ a x, ((![v525, v411] : Fin 2 → IVec S16 32) a x).toNat < S200x256.size a := fun v411 v525 k0_hw346 => k0_hw346

def k0_chk347 (v411 : IVec S16 32) (v526 : IVec S16 32) : Prop :=
  (∀ a x, ((![v526, v411] : Fin 2 → IVec S16 32) a x).toNat < S200x256.size a)
instance k0_chk347.dec : ∀ (v411 : IVec S16 32) (v526 : IVec S16 32), Decidable (k0_chk347 v411 v526) := fun v411 v526 => decidable_of_iff' _ (Iff.of_eq (k0_chk347.eq_1 v411 v526))
theorem k0_idx347_inb : ∀ (v411 : IVec S16 32) (v526 : IVec S16 32) (k0_hw347 : k0_chk347 v411 v526), ∀ a x, ((![v526, v411] : Fin 2 → IVec S16 32) a x).toNat < S200x256.size a := fun v411 v526 k0_hw347 => k0_hw347

def k0_chk348 (v411 : IVec S16 32) (v527 : IVec S16 32) : Prop :=
  (∀ a x, ((![v527, v411] : Fin 2 → IVec S16 32) a x).toNat < S200x256.size a)
instance k0_chk348.dec : ∀ (v411 : IVec S16 32) (v527 : IVec S16 32), Decidable (k0_chk348 v411 v527) := fun v411 v527 => decidable_of_iff' _ (Iff.of_eq (k0_chk348.eq_1 v411 v527))
theorem k0_idx348_inb : ∀ (v411 : IVec S16 32) (v527 : IVec S16 32) (k0_hw348 : k0_chk348 v411 v527), ∀ a x, ((![v527, v411] : Fin 2 → IVec S16 32) a x).toNat < S200x256.size a := fun v411 v527 k0_hw348 => k0_hw348

def k0_chk349 (v411 : IVec S16 32) (v528 : IVec S16 32) : Prop :=
  (∀ a x, ((![v528, v411] : Fin 2 → IVec S16 32) a x).toNat < S200x256.size a)
instance k0_chk349.dec : ∀ (v411 : IVec S16 32) (v528 : IVec S16 32), Decidable (k0_chk349 v411 v528) := fun v411 v528 => decidable_of_iff' _ (Iff.of_eq (k0_chk349.eq_1 v411 v528))
theorem k0_idx349_inb : ∀ (v411 : IVec S16 32) (v528 : IVec S16 32) (k0_hw349 : k0_chk349 v411 v528), ∀ a x, ((![v528, v411] : Fin 2 → IVec S16 32) a x).toNat < S200x256.size a := fun v411 v528 k0_hw349 => k0_hw349

def k0_chk350 (v411 : IVec S16 32) (v529 : IVec S16 32) : Prop :=
  (∀ a x, ((![v529, v411] : Fin 2 → IVec S16 32) a x).toNat < S200x256.size a)
instance k0_chk350.dec : ∀ (v411 : IVec S16 32) (v529 : IVec S16 32), Decidable (k0_chk350 v411 v529) := fun v411 v529 => decidable_of_iff' _ (Iff.of_eq (k0_chk350.eq_1 v411 v529))
theorem k0_idx350_inb : ∀ (v411 : IVec S16 32) (v529 : IVec S16 32) (k0_hw350 : k0_chk350 v411 v529), ∀ a x, ((![v529, v411] : Fin 2 → IVec S16 32) a x).toNat < S200x256.size a := fun v411 v529 k0_hw350 => k0_hw350

def k0_chk351 (v411 : IVec S16 32) (v530 : IVec S16 32) : Prop :=
  (∀ a x, ((![v530, v411] : Fin 2 → IVec S16 32) a x).toNat < S200x256.size a)
instance k0_chk351.dec : ∀ (v411 : IVec S16 32) (v530 : IVec S16 32), Decidable (k0_chk351 v411 v530) := fun v411 v530 => decidable_of_iff' _ (Iff.of_eq (k0_chk351.eq_1 v411 v530))
theorem k0_idx351_inb : ∀ (v411 : IVec S16 32) (v530 : IVec S16 32) (k0_hw351 : k0_chk351 v411 v530), ∀ a x, ((![v530, v411] : Fin 2 → IVec S16 32) a x).toNat < S200x256.size a := fun v411 v530 k0_hw351 => k0_hw351

def k0_chk352 (v411 : IVec S16 32) (v531 : IVec S16 32) : Prop :=
  (∀ a x, ((![v531, v411] : Fin 2 → IVec S16 32) a x).toNat < S200x256.size a)
instance k0_chk352.dec : ∀ (v411 : IVec S16 32) (v531 : IVec S16 32), Decidable (k0_chk352 v411 v531) := fun v411 v531 => decidable_of_iff' _ (Iff.of_eq (k0_chk352.eq_1 v411 v531))
theorem k0_idx352_inb : ∀ (v411 : IVec S16 32) (v531 : IVec S16 32) (k0_hw352 : k0_chk352 v411 v531), ∀ a x, ((![v531, v411] : Fin 2 → IVec S16 32) a x).toNat < S200x256.size a := fun v411 v531 k0_hw352 => k0_hw352

def k0_chk353 (v411 : IVec S16 32) (v532 : IVec S16 32) : Prop :=
  (∀ a x, ((![v532, v411] : Fin 2 → IVec S16 32) a x).toNat < S200x256.size a)
instance k0_chk353.dec : ∀ (v411 : IVec S16 32) (v532 : IVec S16 32), Decidable (k0_chk353 v411 v532) := fun v411 v532 => decidable_of_iff' _ (Iff.of_eq (k0_chk353.eq_1 v411 v532))
theorem k0_idx353_inb : ∀ (v411 : IVec S16 32) (v532 : IVec S16 32) (k0_hw353 : k0_chk353 v411 v532), ∀ a x, ((![v532, v411] : Fin 2 → IVec S16 32) a x).toNat < S200x256.size a := fun v411 v532 k0_hw353 => k0_hw353

def k0_chk354 (v411 : IVec S16 32) (v533 : IVec S16 32) : Prop :=
  (∀ a x, ((![v533, v411] : Fin 2 → IVec S16 32) a x).toNat < S200x256.size a)
instance k0_chk354.dec : ∀ (v411 : IVec S16 32) (v533 : IVec S16 32), Decidable (k0_chk354 v411 v533) := fun v411 v533 => decidable_of_iff' _ (Iff.of_eq (k0_chk354.eq_1 v411 v533))
theorem k0_idx354_inb : ∀ (v411 : IVec S16 32) (v533 : IVec S16 32) (k0_hw354 : k0_chk354 v411 v533), ∀ a x, ((![v533, v411] : Fin 2 → IVec S16 32) a x).toNat < S200x256.size a := fun v411 v533 k0_hw354 => k0_hw354

def k0_chk355 (v411 : IVec S16 32) (v534 : IVec S16 32) : Prop :=
  (∀ a x, ((![v534, v411] : Fin 2 → IVec S16 32) a x).toNat < S200x256.size a)
instance k0_chk355.dec : ∀ (v411 : IVec S16 32) (v534 : IVec S16 32), Decidable (k0_chk355 v411 v534) := fun v411 v534 => decidable_of_iff' _ (Iff.of_eq (k0_chk355.eq_1 v411 v534))
theorem k0_idx355_inb : ∀ (v411 : IVec S16 32) (v534 : IVec S16 32) (k0_hw355 : k0_chk355 v411 v534), ∀ a x, ((![v534, v411] : Fin 2 → IVec S16 32) a x).toNat < S200x256.size a := fun v411 v534 k0_hw355 => k0_hw355

def k0_chk356 (v411 : IVec S16 32) (v535 : IVec S16 32) : Prop :=
  (∀ a x, ((![v535, v411] : Fin 2 → IVec S16 32) a x).toNat < S200x256.size a)
instance k0_chk356.dec : ∀ (v411 : IVec S16 32) (v535 : IVec S16 32), Decidable (k0_chk356 v411 v535) := fun v411 v535 => decidable_of_iff' _ (Iff.of_eq (k0_chk356.eq_1 v411 v535))
theorem k0_idx356_inb : ∀ (v411 : IVec S16 32) (v535 : IVec S16 32) (k0_hw356 : k0_chk356 v411 v535), ∀ a x, ((![v535, v411] : Fin 2 → IVec S16 32) a x).toNat < S200x256.size a := fun v411 v535 k0_hw356 => k0_hw356

def k0_chk357 (v411 : IVec S16 32) (v536 : IVec S16 32) : Prop :=
  (∀ a x, ((![v536, v411] : Fin 2 → IVec S16 32) a x).toNat < S200x256.size a)
instance k0_chk357.dec : ∀ (v411 : IVec S16 32) (v536 : IVec S16 32), Decidable (k0_chk357 v411 v536) := fun v411 v536 => decidable_of_iff' _ (Iff.of_eq (k0_chk357.eq_1 v411 v536))
theorem k0_idx357_inb : ∀ (v411 : IVec S16 32) (v536 : IVec S16 32) (k0_hw357 : k0_chk357 v411 v536), ∀ a x, ((![v536, v411] : Fin 2 → IVec S16 32) a x).toNat < S200x256.size a := fun v411 v536 k0_hw357 => k0_hw357

def k0_chk358 (v411 : IVec S16 32) (v537 : IVec S16 32) : Prop :=
  (∀ a x, ((![v537, v411] : Fin 2 → IVec S16 32) a x).toNat < S200x256.size a)
instance k0_chk358.dec : ∀ (v411 : IVec S16 32) (v537 : IVec S16 32), Decidable (k0_chk358 v411 v537) := fun v411 v537 => decidable_of_iff' _ (Iff.of_eq (k0_chk358.eq_1 v411 v537))
theorem k0_idx358_inb : ∀ (v411 : IVec S16 32) (v537 : IVec S16 32) (k0_hw358 : k0_chk358 v411 v537), ∀ a x, ((![v537, v411] : Fin 2 → IVec S16 32) a x).toNat < S200x256.size a := fun v411 v537 k0_hw358 => k0_hw358

def k0_chk359 (v411 : IVec S16 32) (v538 : IVec S16 32) : Prop :=
  (∀ a x, ((![v538, v411] : Fin 2 → IVec S16 32) a x).toNat < S200x256.size a)
instance k0_chk359.dec : ∀ (v411 : IVec S16 32) (v538 : IVec S16 32), Decidable (k0_chk359 v411 v538) := fun v411 v538 => decidable_of_iff' _ (Iff.of_eq (k0_chk359.eq_1 v411 v538))
theorem k0_idx359_inb : ∀ (v411 : IVec S16 32) (v538 : IVec S16 32) (k0_hw359 : k0_chk359 v411 v538), ∀ a x, ((![v538, v411] : Fin 2 → IVec S16 32) a x).toNat < S200x256.size a := fun v411 v538 k0_hw359 => k0_hw359

def k0_chk360 (v411 : IVec S16 32) (v539 : IVec S16 32) : Prop :=
  (∀ a x, ((![v539, v411] : Fin 2 → IVec S16 32) a x).toNat < S200x256.size a)
instance k0_chk360.dec : ∀ (v411 : IVec S16 32) (v539 : IVec S16 32), Decidable (k0_chk360 v411 v539) := fun v411 v539 => decidable_of_iff' _ (Iff.of_eq (k0_chk360.eq_1 v411 v539))
theorem k0_idx360_inb : ∀ (v411 : IVec S16 32) (v539 : IVec S16 32) (k0_hw360 : k0_chk360 v411 v539), ∀ a x, ((![v539, v411] : Fin 2 → IVec S16 32) a x).toNat < S200x256.size a := fun v411 v539 k0_hw360 => k0_hw360

def k0_chk361 (v411 : IVec S16 32) (v540 : IVec S16 32) : Prop :=
  (∀ a x, ((![v540, v411] : Fin 2 → IVec S16 32) a x).toNat < S200x256.size a)
instance k0_chk361.dec : ∀ (v411 : IVec S16 32) (v540 : IVec S16 32), Decidable (k0_chk361 v411 v540) := fun v411 v540 => decidable_of_iff' _ (Iff.of_eq (k0_chk361.eq_1 v411 v540))
theorem k0_idx361_inb : ∀ (v411 : IVec S16 32) (v540 : IVec S16 32) (k0_hw361 : k0_chk361 v411 v540), ∀ a x, ((![v540, v411] : Fin 2 → IVec S16 32) a x).toNat < S200x256.size a := fun v411 v540 k0_hw361 => k0_hw361

def k0_chk362 (v411 : IVec S16 32) (v541 : IVec S16 32) : Prop :=
  (∀ a x, ((![v541, v411] : Fin 2 → IVec S16 32) a x).toNat < S200x256.size a)
instance k0_chk362.dec : ∀ (v411 : IVec S16 32) (v541 : IVec S16 32), Decidable (k0_chk362 v411 v541) := fun v411 v541 => decidable_of_iff' _ (Iff.of_eq (k0_chk362.eq_1 v411 v541))
theorem k0_idx362_inb : ∀ (v411 : IVec S16 32) (v541 : IVec S16 32) (k0_hw362 : k0_chk362 v411 v541), ∀ a x, ((![v541, v411] : Fin 2 → IVec S16 32) a x).toNat < S200x256.size a := fun v411 v541 k0_hw362 => k0_hw362

def k0_chk363 (v411 : IVec S16 32) (v542 : IVec S16 32) : Prop :=
  (∀ a x, ((![v542, v411] : Fin 2 → IVec S16 32) a x).toNat < S200x256.size a)
instance k0_chk363.dec : ∀ (v411 : IVec S16 32) (v542 : IVec S16 32), Decidable (k0_chk363 v411 v542) := fun v411 v542 => decidable_of_iff' _ (Iff.of_eq (k0_chk363.eq_1 v411 v542))
theorem k0_idx363_inb : ∀ (v411 : IVec S16 32) (v542 : IVec S16 32) (k0_hw363 : k0_chk363 v411 v542), ∀ a x, ((![v542, v411] : Fin 2 → IVec S16 32) a x).toNat < S200x256.size a := fun v411 v542 k0_hw363 => k0_hw363

def k0_chk364 (v411 : IVec S16 32) (v543 : IVec S16 32) : Prop :=
  (∀ a x, ((![v543, v411] : Fin 2 → IVec S16 32) a x).toNat < S200x256.size a)
instance k0_chk364.dec : ∀ (v411 : IVec S16 32) (v543 : IVec S16 32), Decidable (k0_chk364 v411 v543) := fun v411 v543 => decidable_of_iff' _ (Iff.of_eq (k0_chk364.eq_1 v411 v543))
theorem k0_idx364_inb : ∀ (v411 : IVec S16 32) (v543 : IVec S16 32) (k0_hw364 : k0_chk364 v411 v543), ∀ a x, ((![v543, v411] : Fin 2 → IVec S16 32) a x).toNat < S200x256.size a := fun v411 v543 k0_hw364 => k0_hw364

def k0_chk365 (v411 : IVec S16 32) (v544 : IVec S16 32) : Prop :=
  (∀ a x, ((![v544, v411] : Fin 2 → IVec S16 32) a x).toNat < S200x256.size a)
instance k0_chk365.dec : ∀ (v411 : IVec S16 32) (v544 : IVec S16 32), Decidable (k0_chk365 v411 v544) := fun v411 v544 => decidable_of_iff' _ (Iff.of_eq (k0_chk365.eq_1 v411 v544))
theorem k0_idx365_inb : ∀ (v411 : IVec S16 32) (v544 : IVec S16 32) (k0_hw365 : k0_chk365 v411 v544), ∀ a x, ((![v544, v411] : Fin 2 → IVec S16 32) a x).toNat < S200x256.size a := fun v411 v544 k0_hw365 => k0_hw365

def k0_chk366 (v411 : IVec S16 32) (v545 : IVec S16 32) : Prop :=
  (∀ a x, ((![v545, v411] : Fin 2 → IVec S16 32) a x).toNat < S200x256.size a)
instance k0_chk366.dec : ∀ (v411 : IVec S16 32) (v545 : IVec S16 32), Decidable (k0_chk366 v411 v545) := fun v411 v545 => decidable_of_iff' _ (Iff.of_eq (k0_chk366.eq_1 v411 v545))
theorem k0_idx366_inb : ∀ (v411 : IVec S16 32) (v545 : IVec S16 32) (k0_hw366 : k0_chk366 v411 v545), ∀ a x, ((![v545, v411] : Fin 2 → IVec S16 32) a x).toNat < S200x256.size a := fun v411 v545 k0_hw366 => k0_hw366

def k0_chk367 (v411 : IVec S16 32) (v546 : IVec S16 32) : Prop :=
  (∀ a x, ((![v546, v411] : Fin 2 → IVec S16 32) a x).toNat < S200x256.size a)
instance k0_chk367.dec : ∀ (v411 : IVec S16 32) (v546 : IVec S16 32), Decidable (k0_chk367 v411 v546) := fun v411 v546 => decidable_of_iff' _ (Iff.of_eq (k0_chk367.eq_1 v411 v546))
theorem k0_idx367_inb : ∀ (v411 : IVec S16 32) (v546 : IVec S16 32) (k0_hw367 : k0_chk367 v411 v546), ∀ a x, ((![v546, v411] : Fin 2 → IVec S16 32) a x).toNat < S200x256.size a := fun v411 v546 k0_hw367 => k0_hw367

def k0_chk368 (v411 : IVec S16 32) (v547 : IVec S16 32) : Prop :=
  (∀ a x, ((![v547, v411] : Fin 2 → IVec S16 32) a x).toNat < S200x256.size a)
instance k0_chk368.dec : ∀ (v411 : IVec S16 32) (v547 : IVec S16 32), Decidable (k0_chk368 v411 v547) := fun v411 v547 => decidable_of_iff' _ (Iff.of_eq (k0_chk368.eq_1 v411 v547))
theorem k0_idx368_inb : ∀ (v411 : IVec S16 32) (v547 : IVec S16 32) (k0_hw368 : k0_chk368 v411 v547), ∀ a x, ((![v547, v411] : Fin 2 → IVec S16 32) a x).toNat < S200x256.size a := fun v411 v547 k0_hw368 => k0_hw368

def k0_chk369 (v411 : IVec S16 32) (v548 : IVec S16 32) : Prop :=
  (∀ a x, ((![v548, v411] : Fin 2 → IVec S16 32) a x).toNat < S200x256.size a)
instance k0_chk369.dec : ∀ (v411 : IVec S16 32) (v548 : IVec S16 32), Decidable (k0_chk369 v411 v548) := fun v411 v548 => decidable_of_iff' _ (Iff.of_eq (k0_chk369.eq_1 v411 v548))
theorem k0_idx369_inb : ∀ (v411 : IVec S16 32) (v548 : IVec S16 32) (k0_hw369 : k0_chk369 v411 v548), ∀ a x, ((![v548, v411] : Fin 2 → IVec S16 32) a x).toNat < S200x256.size a := fun v411 v548 k0_hw369 => k0_hw369

def k0_chk370 (v411 : IVec S16 32) (v549 : IVec S16 32) : Prop :=
  (∀ a x, ((![v549, v411] : Fin 2 → IVec S16 32) a x).toNat < S200x256.size a)
instance k0_chk370.dec : ∀ (v411 : IVec S16 32) (v549 : IVec S16 32), Decidable (k0_chk370 v411 v549) := fun v411 v549 => decidable_of_iff' _ (Iff.of_eq (k0_chk370.eq_1 v411 v549))
theorem k0_idx370_inb : ∀ (v411 : IVec S16 32) (v549 : IVec S16 32) (k0_hw370 : k0_chk370 v411 v549), ∀ a x, ((![v549, v411] : Fin 2 → IVec S16 32) a x).toNat < S200x256.size a := fun v411 v549 k0_hw370 => k0_hw370

def k0_chk371 (v411 : IVec S16 32) (v550 : IVec S16 32) : Prop :=
  (∀ a x, ((![v550, v411] : Fin 2 → IVec S16 32) a x).toNat < S200x256.size a)
instance k0_chk371.dec : ∀ (v411 : IVec S16 32) (v550 : IVec S16 32), Decidable (k0_chk371 v411 v550) := fun v411 v550 => decidable_of_iff' _ (Iff.of_eq (k0_chk371.eq_1 v411 v550))
theorem k0_idx371_inb : ∀ (v411 : IVec S16 32) (v550 : IVec S16 32) (k0_hw371 : k0_chk371 v411 v550), ∀ a x, ((![v550, v411] : Fin 2 → IVec S16 32) a x).toNat < S200x256.size a := fun v411 v550 k0_hw371 => k0_hw371

def k0_chk372 (v411 : IVec S16 32) (v551 : IVec S16 32) : Prop :=
  (∀ a x, ((![v551, v411] : Fin 2 → IVec S16 32) a x).toNat < S200x256.size a)
instance k0_chk372.dec : ∀ (v411 : IVec S16 32) (v551 : IVec S16 32), Decidable (k0_chk372 v411 v551) := fun v411 v551 => decidable_of_iff' _ (Iff.of_eq (k0_chk372.eq_1 v411 v551))
theorem k0_idx372_inb : ∀ (v411 : IVec S16 32) (v551 : IVec S16 32) (k0_hw372 : k0_chk372 v411 v551), ∀ a x, ((![v551, v411] : Fin 2 → IVec S16 32) a x).toNat < S200x256.size a := fun v411 v551 k0_hw372 => k0_hw372

def k0_chk373 (v411 : IVec S16 32) (v552 : IVec S16 32) : Prop :=
  (∀ a x, ((![v552, v411] : Fin 2 → IVec S16 32) a x).toNat < S200x256.size a)
instance k0_chk373.dec : ∀ (v411 : IVec S16 32) (v552 : IVec S16 32), Decidable (k0_chk373 v411 v552) := fun v411 v552 => decidable_of_iff' _ (Iff.of_eq (k0_chk373.eq_1 v411 v552))
theorem k0_idx373_inb : ∀ (v411 : IVec S16 32) (v552 : IVec S16 32) (k0_hw373 : k0_chk373 v411 v552), ∀ a x, ((![v552, v411] : Fin 2 → IVec S16 32) a x).toNat < S200x256.size a := fun v411 v552 k0_hw373 => k0_hw373

def k0_chk374 (v411 : IVec S16 32) (v553 : IVec S16 32) : Prop :=
  (∀ a x, ((![v553, v411] : Fin 2 → IVec S16 32) a x).toNat < S200x256.size a)
instance k0_chk374.dec : ∀ (v411 : IVec S16 32) (v553 : IVec S16 32), Decidable (k0_chk374 v411 v553) := fun v411 v553 => decidable_of_iff' _ (Iff.of_eq (k0_chk374.eq_1 v411 v553))
theorem k0_idx374_inb : ∀ (v411 : IVec S16 32) (v553 : IVec S16 32) (k0_hw374 : k0_chk374 v411 v553), ∀ a x, ((![v553, v411] : Fin 2 → IVec S16 32) a x).toNat < S200x256.size a := fun v411 v553 k0_hw374 => k0_hw374

def k0_chk375 (v411 : IVec S16 32) (v554 : IVec S16 32) : Prop :=
  (∀ a x, ((![v554, v411] : Fin 2 → IVec S16 32) a x).toNat < S200x256.size a)
instance k0_chk375.dec : ∀ (v411 : IVec S16 32) (v554 : IVec S16 32), Decidable (k0_chk375 v411 v554) := fun v411 v554 => decidable_of_iff' _ (Iff.of_eq (k0_chk375.eq_1 v411 v554))
theorem k0_idx375_inb : ∀ (v411 : IVec S16 32) (v554 : IVec S16 32) (k0_hw375 : k0_chk375 v411 v554), ∀ a x, ((![v554, v411] : Fin 2 → IVec S16 32) a x).toNat < S200x256.size a := fun v411 v554 k0_hw375 => k0_hw375

def k0_chk376 (v411 : IVec S16 32) (v555 : IVec S16 32) : Prop :=
  (∀ a x, ((![v555, v411] : Fin 2 → IVec S16 32) a x).toNat < S200x256.size a)
instance k0_chk376.dec : ∀ (v411 : IVec S16 32) (v555 : IVec S16 32), Decidable (k0_chk376 v411 v555) := fun v411 v555 => decidable_of_iff' _ (Iff.of_eq (k0_chk376.eq_1 v411 v555))
theorem k0_idx376_inb : ∀ (v411 : IVec S16 32) (v555 : IVec S16 32) (k0_hw376 : k0_chk376 v411 v555), ∀ a x, ((![v555, v411] : Fin 2 → IVec S16 32) a x).toNat < S200x256.size a := fun v411 v555 k0_hw376 => k0_hw376

def k0_chk377 (v411 : IVec S16 32) (v556 : IVec S16 32) : Prop :=
  (∀ a x, ((![v556, v411] : Fin 2 → IVec S16 32) a x).toNat < S200x256.size a)
instance k0_chk377.dec : ∀ (v411 : IVec S16 32) (v556 : IVec S16 32), Decidable (k0_chk377 v411 v556) := fun v411 v556 => decidable_of_iff' _ (Iff.of_eq (k0_chk377.eq_1 v411 v556))
theorem k0_idx377_inb : ∀ (v411 : IVec S16 32) (v556 : IVec S16 32) (k0_hw377 : k0_chk377 v411 v556), ∀ a x, ((![v556, v411] : Fin 2 → IVec S16 32) a x).toNat < S200x256.size a := fun v411 v556 k0_hw377 => k0_hw377

def k0_chk378 (v411 : IVec S16 32) (v557 : IVec S16 32) : Prop :=
  (∀ a x, ((![v557, v411] : Fin 2 → IVec S16 32) a x).toNat < S200x256.size a)
instance k0_chk378.dec : ∀ (v411 : IVec S16 32) (v557 : IVec S16 32), Decidable (k0_chk378 v411 v557) := fun v411 v557 => decidable_of_iff' _ (Iff.of_eq (k0_chk378.eq_1 v411 v557))
theorem k0_idx378_inb : ∀ (v411 : IVec S16 32) (v557 : IVec S16 32) (k0_hw378 : k0_chk378 v411 v557), ∀ a x, ((![v557, v411] : Fin 2 → IVec S16 32) a x).toNat < S200x256.size a := fun v411 v557 k0_hw378 => k0_hw378

def k0_chk379 (v411 : IVec S16 32) (v558 : IVec S16 32) : Prop :=
  (∀ a x, ((![v558, v411] : Fin 2 → IVec S16 32) a x).toNat < S200x256.size a)
instance k0_chk379.dec : ∀ (v411 : IVec S16 32) (v558 : IVec S16 32), Decidable (k0_chk379 v411 v558) := fun v411 v558 => decidable_of_iff' _ (Iff.of_eq (k0_chk379.eq_1 v411 v558))
theorem k0_idx379_inb : ∀ (v411 : IVec S16 32) (v558 : IVec S16 32) (k0_hw379 : k0_chk379 v411 v558), ∀ a x, ((![v558, v411] : Fin 2 → IVec S16 32) a x).toNat < S200x256.size a := fun v411 v558 k0_hw379 => k0_hw379

def k0_chk380 (v411 : IVec S16 32) (v559 : IVec S16 32) : Prop :=
  (∀ a x, ((![v559, v411] : Fin 2 → IVec S16 32) a x).toNat < S200x256.size a)
instance k0_chk380.dec : ∀ (v411 : IVec S16 32) (v559 : IVec S16 32), Decidable (k0_chk380 v411 v559) := fun v411 v559 => decidable_of_iff' _ (Iff.of_eq (k0_chk380.eq_1 v411 v559))
theorem k0_idx380_inb : ∀ (v411 : IVec S16 32) (v559 : IVec S16 32) (k0_hw380 : k0_chk380 v411 v559), ∀ a x, ((![v559, v411] : Fin 2 → IVec S16 32) a x).toNat < S200x256.size a := fun v411 v559 k0_hw380 => k0_hw380

def k0_chk381 (v411 : IVec S16 32) (v560 : IVec S16 32) : Prop :=
  (∀ a x, ((![v560, v411] : Fin 2 → IVec S16 32) a x).toNat < S200x256.size a)
instance k0_chk381.dec : ∀ (v411 : IVec S16 32) (v560 : IVec S16 32), Decidable (k0_chk381 v411 v560) := fun v411 v560 => decidable_of_iff' _ (Iff.of_eq (k0_chk381.eq_1 v411 v560))
theorem k0_idx381_inb : ∀ (v411 : IVec S16 32) (v560 : IVec S16 32) (k0_hw381 : k0_chk381 v411 v560), ∀ a x, ((![v560, v411] : Fin 2 → IVec S16 32) a x).toNat < S200x256.size a := fun v411 v560 k0_hw381 => k0_hw381

def k0_chk382 (v411 : IVec S16 32) (v561 : IVec S16 32) : Prop :=
  (∀ a x, ((![v561, v411] : Fin 2 → IVec S16 32) a x).toNat < S200x256.size a)
instance k0_chk382.dec : ∀ (v411 : IVec S16 32) (v561 : IVec S16 32), Decidable (k0_chk382 v411 v561) := fun v411 v561 => decidable_of_iff' _ (Iff.of_eq (k0_chk382.eq_1 v411 v561))
theorem k0_idx382_inb : ∀ (v411 : IVec S16 32) (v561 : IVec S16 32) (k0_hw382 : k0_chk382 v411 v561), ∀ a x, ((![v561, v411] : Fin 2 → IVec S16 32) a x).toNat < S200x256.size a := fun v411 v561 k0_hw382 => k0_hw382

def k0_chk383 (v411 : IVec S16 32) (v562 : IVec S16 32) : Prop :=
  (∀ a x, ((![v562, v411] : Fin 2 → IVec S16 32) a x).toNat < S200x256.size a)
instance k0_chk383.dec : ∀ (v411 : IVec S16 32) (v562 : IVec S16 32), Decidable (k0_chk383 v411 v562) := fun v411 v562 => decidable_of_iff' _ (Iff.of_eq (k0_chk383.eq_1 v411 v562))
theorem k0_idx383_inb : ∀ (v411 : IVec S16 32) (v562 : IVec S16 32) (k0_hw383 : k0_chk383 v411 v562), ∀ a x, ((![v562, v411] : Fin 2 → IVec S16 32) a x).toNat < S200x256.size a := fun v411 v562 k0_hw383 => k0_hw383

def k0_chk384 (v411 : IVec S16 32) (v563 : IVec S16 32) : Prop :=
  (∀ a x, ((![v563, v411] : Fin 2 → IVec S16 32) a x).toNat < S200x256.size a)
instance k0_chk384.dec : ∀ (v411 : IVec S16 32) (v563 : IVec S16 32), Decidable (k0_chk384 v411 v563) := fun v411 v563 => decidable_of_iff' _ (Iff.of_eq (k0_chk384.eq_1 v411 v563))
theorem k0_idx384_inb : ∀ (v411 : IVec S16 32) (v563 : IVec S16 32) (k0_hw384 : k0_chk384 v411 v563), ∀ a x, ((![v563, v411] : Fin 2 → IVec S16 32) a x).toNat < S200x256.size a := fun v411 v563 k0_hw384 => k0_hw384

def k0_chk385 (v411 : IVec S16 32) (v564 : IVec S16 32) : Prop :=
  (∀ a x, ((![v564, v411] : Fin 2 → IVec S16 32) a x).toNat < S200x256.size a)
instance k0_chk385.dec : ∀ (v411 : IVec S16 32) (v564 : IVec S16 32), Decidable (k0_chk385 v411 v564) := fun v411 v564 => decidable_of_iff' _ (Iff.of_eq (k0_chk385.eq_1 v411 v564))
theorem k0_idx385_inb : ∀ (v411 : IVec S16 32) (v564 : IVec S16 32) (k0_hw385 : k0_chk385 v411 v564), ∀ a x, ((![v564, v411] : Fin 2 → IVec S16 32) a x).toNat < S200x256.size a := fun v411 v564 k0_hw385 => k0_hw385

def k0_chk386 (v411 : IVec S16 32) (v565 : IVec S16 32) : Prop :=
  (∀ a x, ((![v565, v411] : Fin 2 → IVec S16 32) a x).toNat < S200x256.size a)
instance k0_chk386.dec : ∀ (v411 : IVec S16 32) (v565 : IVec S16 32), Decidable (k0_chk386 v411 v565) := fun v411 v565 => decidable_of_iff' _ (Iff.of_eq (k0_chk386.eq_1 v411 v565))
theorem k0_idx386_inb : ∀ (v411 : IVec S16 32) (v565 : IVec S16 32) (k0_hw386 : k0_chk386 v411 v565), ∀ a x, ((![v565, v411] : Fin 2 → IVec S16 32) a x).toNat < S200x256.size a := fun v411 v565 k0_hw386 => k0_hw386

def k0_chk387 (v411 : IVec S16 32) (v566 : IVec S16 32) : Prop :=
  (∀ a x, ((![v566, v411] : Fin 2 → IVec S16 32) a x).toNat < S200x256.size a)
instance k0_chk387.dec : ∀ (v411 : IVec S16 32) (v566 : IVec S16 32), Decidable (k0_chk387 v411 v566) := fun v411 v566 => decidable_of_iff' _ (Iff.of_eq (k0_chk387.eq_1 v411 v566))
theorem k0_idx387_inb : ∀ (v411 : IVec S16 32) (v566 : IVec S16 32) (k0_hw387 : k0_chk387 v411 v566), ∀ a x, ((![v566, v411] : Fin 2 → IVec S16 32) a x).toNat < S200x256.size a := fun v411 v566 k0_hw387 => k0_hw387

def k0_chk388 (v411 : IVec S16 32) (v567 : IVec S16 32) : Prop :=
  (∀ a x, ((![v567, v411] : Fin 2 → IVec S16 32) a x).toNat < S200x256.size a)
instance k0_chk388.dec : ∀ (v411 : IVec S16 32) (v567 : IVec S16 32), Decidable (k0_chk388 v411 v567) := fun v411 v567 => decidable_of_iff' _ (Iff.of_eq (k0_chk388.eq_1 v411 v567))
theorem k0_idx388_inb : ∀ (v411 : IVec S16 32) (v567 : IVec S16 32) (k0_hw388 : k0_chk388 v411 v567), ∀ a x, ((![v567, v411] : Fin 2 → IVec S16 32) a x).toNat < S200x256.size a := fun v411 v567 k0_hw388 => k0_hw388

def k0_chk389 (v411 : IVec S16 32) (v568 : IVec S16 32) : Prop :=
  (∀ a x, ((![v568, v411] : Fin 2 → IVec S16 32) a x).toNat < S200x256.size a)
instance k0_chk389.dec : ∀ (v411 : IVec S16 32) (v568 : IVec S16 32), Decidable (k0_chk389 v411 v568) := fun v411 v568 => decidable_of_iff' _ (Iff.of_eq (k0_chk389.eq_1 v411 v568))
theorem k0_idx389_inb : ∀ (v411 : IVec S16 32) (v568 : IVec S16 32) (k0_hw389 : k0_chk389 v411 v568), ∀ a x, ((![v568, v411] : Fin 2 → IVec S16 32) a x).toNat < S200x256.size a := fun v411 v568 k0_hw389 => k0_hw389

def k0_chk390 (v411 : IVec S16 32) (v569 : IVec S16 32) : Prop :=
  (∀ a x, ((![v569, v411] : Fin 2 → IVec S16 32) a x).toNat < S200x256.size a)
instance k0_chk390.dec : ∀ (v411 : IVec S16 32) (v569 : IVec S16 32), Decidable (k0_chk390 v411 v569) := fun v411 v569 => decidable_of_iff' _ (Iff.of_eq (k0_chk390.eq_1 v411 v569))
theorem k0_idx390_inb : ∀ (v411 : IVec S16 32) (v569 : IVec S16 32) (k0_hw390 : k0_chk390 v411 v569), ∀ a x, ((![v569, v411] : Fin 2 → IVec S16 32) a x).toNat < S200x256.size a := fun v411 v569 k0_hw390 => k0_hw390

def k0_chk391 (v411 : IVec S16 32) (v570 : IVec S16 32) : Prop :=
  (∀ a x, ((![v570, v411] : Fin 2 → IVec S16 32) a x).toNat < S200x256.size a)
instance k0_chk391.dec : ∀ (v411 : IVec S16 32) (v570 : IVec S16 32), Decidable (k0_chk391 v411 v570) := fun v411 v570 => decidable_of_iff' _ (Iff.of_eq (k0_chk391.eq_1 v411 v570))
theorem k0_idx391_inb : ∀ (v411 : IVec S16 32) (v570 : IVec S16 32) (k0_hw391 : k0_chk391 v411 v570), ∀ a x, ((![v570, v411] : Fin 2 → IVec S16 32) a x).toNat < S200x256.size a := fun v411 v570 k0_hw391 => k0_hw391

def k0_chk392 (v411 : IVec S16 32) (v571 : IVec S16 32) : Prop :=
  (∀ a x, ((![v571, v411] : Fin 2 → IVec S16 32) a x).toNat < S200x256.size a)
instance k0_chk392.dec : ∀ (v411 : IVec S16 32) (v571 : IVec S16 32), Decidable (k0_chk392 v411 v571) := fun v411 v571 => decidable_of_iff' _ (Iff.of_eq (k0_chk392.eq_1 v411 v571))
theorem k0_idx392_inb : ∀ (v411 : IVec S16 32) (v571 : IVec S16 32) (k0_hw392 : k0_chk392 v411 v571), ∀ a x, ((![v571, v411] : Fin 2 → IVec S16 32) a x).toNat < S200x256.size a := fun v411 v571 k0_hw392 => k0_hw392

def k0_chk393 (v411 : IVec S16 32) (v572 : IVec S16 32) : Prop :=
  (∀ a x, ((![v572, v411] : Fin 2 → IVec S16 32) a x).toNat < S200x256.size a)
instance k0_chk393.dec : ∀ (v411 : IVec S16 32) (v572 : IVec S16 32), Decidable (k0_chk393 v411 v572) := fun v411 v572 => decidable_of_iff' _ (Iff.of_eq (k0_chk393.eq_1 v411 v572))
theorem k0_idx393_inb : ∀ (v411 : IVec S16 32) (v572 : IVec S16 32) (k0_hw393 : k0_chk393 v411 v572), ∀ a x, ((![v572, v411] : Fin 2 → IVec S16 32) a x).toNat < S200x256.size a := fun v411 v572 k0_hw393 => k0_hw393

def k0_chk394 (v411 : IVec S16 32) (v573 : IVec S16 32) : Prop :=
  (∀ a x, ((![v573, v411] : Fin 2 → IVec S16 32) a x).toNat < S200x256.size a)
instance k0_chk394.dec : ∀ (v411 : IVec S16 32) (v573 : IVec S16 32), Decidable (k0_chk394 v411 v573) := fun v411 v573 => decidable_of_iff' _ (Iff.of_eq (k0_chk394.eq_1 v411 v573))
theorem k0_idx394_inb : ∀ (v411 : IVec S16 32) (v573 : IVec S16 32) (k0_hw394 : k0_chk394 v411 v573), ∀ a x, ((![v573, v411] : Fin 2 → IVec S16 32) a x).toNat < S200x256.size a := fun v411 v573 k0_hw394 => k0_hw394

def k0_chk395 (v411 : IVec S16 32) (v574 : IVec S16 32) : Prop :=
  (∀ a x, ((![v574, v411] : Fin 2 → IVec S16 32) a x).toNat < S200x256.size a)
instance k0_chk395.dec : ∀ (v411 : IVec S16 32) (v574 : IVec S16 32), Decidable (k0_chk395 v411 v574) := fun v411 v574 => decidable_of_iff' _ (Iff.of_eq (k0_chk395.eq_1 v411 v574))
theorem k0_idx395_inb : ∀ (v411 : IVec S16 32) (v574 : IVec S16 32) (k0_hw395 : k0_chk395 v411 v574), ∀ a x, ((![v574, v411] : Fin 2 → IVec S16 32) a x).toNat < S200x256.size a := fun v411 v574 k0_hw395 => k0_hw395

def k0_chk396 (v411 : IVec S16 32) (v575 : IVec S16 32) : Prop :=
  (∀ a x, ((![v575, v411] : Fin 2 → IVec S16 32) a x).toNat < S200x256.size a)
instance k0_chk396.dec : ∀ (v411 : IVec S16 32) (v575 : IVec S16 32), Decidable (k0_chk396 v411 v575) := fun v411 v575 => decidable_of_iff' _ (Iff.of_eq (k0_chk396.eq_1 v411 v575))
theorem k0_idx396_inb : ∀ (v411 : IVec S16 32) (v575 : IVec S16 32) (k0_hw396 : k0_chk396 v411 v575), ∀ a x, ((![v575, v411] : Fin 2 → IVec S16 32) a x).toNat < S200x256.size a := fun v411 v575 k0_hw396 => k0_hw396

def k0_chk397 (v411 : IVec S16 32) (v576 : IVec S16 32) : Prop :=
  (∀ a x, ((![v576, v411] : Fin 2 → IVec S16 32) a x).toNat < S200x256.size a)
instance k0_chk397.dec : ∀ (v411 : IVec S16 32) (v576 : IVec S16 32), Decidable (k0_chk397 v411 v576) := fun v411 v576 => decidable_of_iff' _ (Iff.of_eq (k0_chk397.eq_1 v411 v576))
theorem k0_idx397_inb : ∀ (v411 : IVec S16 32) (v576 : IVec S16 32) (k0_hw397 : k0_chk397 v411 v576), ∀ a x, ((![v576, v411] : Fin 2 → IVec S16 32) a x).toNat < S200x256.size a := fun v411 v576 k0_hw397 => k0_hw397

def k0_chk398 (v411 : IVec S16 32) (v577 : IVec S16 32) : Prop :=
  (∀ a x, ((![v577, v411] : Fin 2 → IVec S16 32) a x).toNat < S200x256.size a)
instance k0_chk398.dec : ∀ (v411 : IVec S16 32) (v577 : IVec S16 32), Decidable (k0_chk398 v411 v577) := fun v411 v577 => decidable_of_iff' _ (Iff.of_eq (k0_chk398.eq_1 v411 v577))
theorem k0_idx398_inb : ∀ (v411 : IVec S16 32) (v577 : IVec S16 32) (k0_hw398 : k0_chk398 v411 v577), ∀ a x, ((![v577, v411] : Fin 2 → IVec S16 32) a x).toNat < S200x256.size a := fun v411 v577 k0_hw398 => k0_hw398

def k0_chk399 (v411 : IVec S16 32) (v578 : IVec S16 32) : Prop :=
  (∀ a x, ((![v578, v411] : Fin 2 → IVec S16 32) a x).toNat < S200x256.size a)
instance k0_chk399.dec : ∀ (v411 : IVec S16 32) (v578 : IVec S16 32), Decidable (k0_chk399 v411 v578) := fun v411 v578 => decidable_of_iff' _ (Iff.of_eq (k0_chk399.eq_1 v411 v578))
theorem k0_idx399_inb : ∀ (v411 : IVec S16 32) (v578 : IVec S16 32) (k0_hw399 : k0_chk399 v411 v578), ∀ a x, ((![v578, v411] : Fin 2 → IVec S16 32) a x).toNat < S200x256.size a := fun v411 v578 k0_hw399 => k0_hw399

def k0_chk400 (v411 : IVec S16 32) (v579 : IVec S16 32) : Prop :=
  (∀ a x, ((![v579, v411] : Fin 2 → IVec S16 32) a x).toNat < S200x256.size a)
instance k0_chk400.dec : ∀ (v411 : IVec S16 32) (v579 : IVec S16 32), Decidable (k0_chk400 v411 v579) := fun v411 v579 => decidable_of_iff' _ (Iff.of_eq (k0_chk400.eq_1 v411 v579))
theorem k0_idx400_inb : ∀ (v411 : IVec S16 32) (v579 : IVec S16 32) (k0_hw400 : k0_chk400 v411 v579), ∀ a x, ((![v579, v411] : Fin 2 → IVec S16 32) a x).toNat < S200x256.size a := fun v411 v579 k0_hw400 => k0_hw400

def k0_chk401 (v411 : IVec S16 32) (v580 : IVec S16 32) : Prop :=
  (∀ a x, ((![v580, v411] : Fin 2 → IVec S16 32) a x).toNat < S200x256.size a)
instance k0_chk401.dec : ∀ (v411 : IVec S16 32) (v580 : IVec S16 32), Decidable (k0_chk401 v411 v580) := fun v411 v580 => decidable_of_iff' _ (Iff.of_eq (k0_chk401.eq_1 v411 v580))
theorem k0_idx401_inb : ∀ (v411 : IVec S16 32) (v580 : IVec S16 32) (k0_hw401 : k0_chk401 v411 v580), ∀ a x, ((![v580, v411] : Fin 2 → IVec S16 32) a x).toNat < S200x256.size a := fun v411 v580 k0_hw401 => k0_hw401

def k0_chk402 (v411 : IVec S16 32) (v581 : IVec S16 32) : Prop :=
  (∀ a x, ((![v581, v411] : Fin 2 → IVec S16 32) a x).toNat < S200x256.size a)
instance k0_chk402.dec : ∀ (v411 : IVec S16 32) (v581 : IVec S16 32), Decidable (k0_chk402 v411 v581) := fun v411 v581 => decidable_of_iff' _ (Iff.of_eq (k0_chk402.eq_1 v411 v581))
theorem k0_idx402_inb : ∀ (v411 : IVec S16 32) (v581 : IVec S16 32) (k0_hw402 : k0_chk402 v411 v581), ∀ a x, ((![v581, v411] : Fin 2 → IVec S16 32) a x).toNat < S200x256.size a := fun v411 v581 k0_hw402 => k0_hw402

def k0_chk403 (v411 : IVec S16 32) (v582 : IVec S16 32) : Prop :=
  (∀ a x, ((![v582, v411] : Fin 2 → IVec S16 32) a x).toNat < S200x256.size a)
instance k0_chk403.dec : ∀ (v411 : IVec S16 32) (v582 : IVec S16 32), Decidable (k0_chk403 v411 v582) := fun v411 v582 => decidable_of_iff' _ (Iff.of_eq (k0_chk403.eq_1 v411 v582))
theorem k0_idx403_inb : ∀ (v411 : IVec S16 32) (v582 : IVec S16 32) (k0_hw403 : k0_chk403 v411 v582), ∀ a x, ((![v582, v411] : Fin 2 → IVec S16 32) a x).toNat < S200x256.size a := fun v411 v582 k0_hw403 => k0_hw403

def k0_chk404 (v411 : IVec S16 32) (v583 : IVec S16 32) : Prop :=
  (∀ a x, ((![v583, v411] : Fin 2 → IVec S16 32) a x).toNat < S200x256.size a)
instance k0_chk404.dec : ∀ (v411 : IVec S16 32) (v583 : IVec S16 32), Decidable (k0_chk404 v411 v583) := fun v411 v583 => decidable_of_iff' _ (Iff.of_eq (k0_chk404.eq_1 v411 v583))
theorem k0_idx404_inb : ∀ (v411 : IVec S16 32) (v583 : IVec S16 32) (k0_hw404 : k0_chk404 v411 v583), ∀ a x, ((![v583, v411] : Fin 2 → IVec S16 32) a x).toNat < S200x256.size a := fun v411 v583 k0_hw404 => k0_hw404

def k0_chk405 (v411 : IVec S16 32) (v584 : IVec S16 32) : Prop :=
  (∀ a x, ((![v584, v411] : Fin 2 → IVec S16 32) a x).toNat < S200x256.size a)
instance k0_chk405.dec : ∀ (v411 : IVec S16 32) (v584 : IVec S16 32), Decidable (k0_chk405 v411 v584) := fun v411 v584 => decidable_of_iff' _ (Iff.of_eq (k0_chk405.eq_1 v411 v584))
theorem k0_idx405_inb : ∀ (v411 : IVec S16 32) (v584 : IVec S16 32) (k0_hw405 : k0_chk405 v411 v584), ∀ a x, ((![v584, v411] : Fin 2 → IVec S16 32) a x).toNat < S200x256.size a := fun v411 v584 k0_hw405 => k0_hw405

def k0_chk406 (v411 : IVec S16 32) (v585 : IVec S16 32) : Prop :=
  (∀ a x, ((![v585, v411] : Fin 2 → IVec S16 32) a x).toNat < S200x256.size a)
instance k0_chk406.dec : ∀ (v411 : IVec S16 32) (v585 : IVec S16 32), Decidable (k0_chk406 v411 v585) := fun v411 v585 => decidable_of_iff' _ (Iff.of_eq (k0_chk406.eq_1 v411 v585))
theorem k0_idx406_inb : ∀ (v411 : IVec S16 32) (v585 : IVec S16 32) (k0_hw406 : k0_chk406 v411 v585), ∀ a x, ((![v585, v411] : Fin 2 → IVec S16 32) a x).toNat < S200x256.size a := fun v411 v585 k0_hw406 => k0_hw406

def k0_chk407 (v411 : IVec S16 32) (v586 : IVec S16 32) : Prop :=
  (∀ a x, ((![v586, v411] : Fin 2 → IVec S16 32) a x).toNat < S200x256.size a)
instance k0_chk407.dec : ∀ (v411 : IVec S16 32) (v586 : IVec S16 32), Decidable (k0_chk407 v411 v586) := fun v411 v586 => decidable_of_iff' _ (Iff.of_eq (k0_chk407.eq_1 v411 v586))
theorem k0_idx407_inb : ∀ (v411 : IVec S16 32) (v586 : IVec S16 32) (k0_hw407 : k0_chk407 v411 v586), ∀ a x, ((![v586, v411] : Fin 2 → IVec S16 32) a x).toNat < S200x256.size a := fun v411 v586 k0_hw407 => k0_hw407

def k0_chk408 (v411 : IVec S16 32) (v587 : IVec S16 32) : Prop :=
  (∀ a x, ((![v587, v411] : Fin 2 → IVec S16 32) a x).toNat < S200x256.size a)
instance k0_chk408.dec : ∀ (v411 : IVec S16 32) (v587 : IVec S16 32), Decidable (k0_chk408 v411 v587) := fun v411 v587 => decidable_of_iff' _ (Iff.of_eq (k0_chk408.eq_1 v411 v587))
theorem k0_idx408_inb : ∀ (v411 : IVec S16 32) (v587 : IVec S16 32) (k0_hw408 : k0_chk408 v411 v587), ∀ a x, ((![v587, v411] : Fin 2 → IVec S16 32) a x).toNat < S200x256.size a := fun v411 v587 k0_hw408 => k0_hw408

def k0_chk409 (v411 : IVec S16 32) (v588 : IVec S16 32) : Prop :=
  (∀ a x, ((![v588, v411] : Fin 2 → IVec S16 32) a x).toNat < S200x256.size a)
instance k0_chk409.dec : ∀ (v411 : IVec S16 32) (v588 : IVec S16 32), Decidable (k0_chk409 v411 v588) := fun v411 v588 => decidable_of_iff' _ (Iff.of_eq (k0_chk409.eq_1 v411 v588))
theorem k0_idx409_inb : ∀ (v411 : IVec S16 32) (v588 : IVec S16 32) (k0_hw409 : k0_chk409 v411 v588), ∀ a x, ((![v588, v411] : Fin 2 → IVec S16 32) a x).toNat < S200x256.size a := fun v411 v588 k0_hw409 => k0_hw409

def k0_chk410 (v411 : IVec S16 32) (v589 : IVec S16 32) : Prop :=
  (∀ a x, ((![v589, v411] : Fin 2 → IVec S16 32) a x).toNat < S200x256.size a)
instance k0_chk410.dec : ∀ (v411 : IVec S16 32) (v589 : IVec S16 32), Decidable (k0_chk410 v411 v589) := fun v411 v589 => decidable_of_iff' _ (Iff.of_eq (k0_chk410.eq_1 v411 v589))
theorem k0_idx410_inb : ∀ (v411 : IVec S16 32) (v589 : IVec S16 32) (k0_hw410 : k0_chk410 v411 v589), ∀ a x, ((![v589, v411] : Fin 2 → IVec S16 32) a x).toNat < S200x256.size a := fun v411 v589 k0_hw410 => k0_hw410

def k0_chk411 (v411 : IVec S16 32) (v590 : IVec S16 32) : Prop :=
  (∀ a x, ((![v590, v411] : Fin 2 → IVec S16 32) a x).toNat < S200x256.size a)
instance k0_chk411.dec : ∀ (v411 : IVec S16 32) (v590 : IVec S16 32), Decidable (k0_chk411 v411 v590) := fun v411 v590 => decidable_of_iff' _ (Iff.of_eq (k0_chk411.eq_1 v411 v590))
theorem k0_idx411_inb : ∀ (v411 : IVec S16 32) (v590 : IVec S16 32) (k0_hw411 : k0_chk411 v411 v590), ∀ a x, ((![v590, v411] : Fin 2 → IVec S16 32) a x).toNat < S200x256.size a := fun v411 v590 k0_hw411 => k0_hw411

def k0_chk412 (v411 : IVec S16 32) (v591 : IVec S16 32) : Prop :=
  (∀ a x, ((![v591, v411] : Fin 2 → IVec S16 32) a x).toNat < S200x256.size a)
instance k0_chk412.dec : ∀ (v411 : IVec S16 32) (v591 : IVec S16 32), Decidable (k0_chk412 v411 v591) := fun v411 v591 => decidable_of_iff' _ (Iff.of_eq (k0_chk412.eq_1 v411 v591))
theorem k0_idx412_inb : ∀ (v411 : IVec S16 32) (v591 : IVec S16 32) (k0_hw412 : k0_chk412 v411 v591), ∀ a x, ((![v591, v411] : Fin 2 → IVec S16 32) a x).toNat < S200x256.size a := fun v411 v591 k0_hw412 => k0_hw412

def k0_chk413 (v411 : IVec S16 32) (v592 : IVec S16 32) : Prop :=
  (∀ a x, ((![v592, v411] : Fin 2 → IVec S16 32) a x).toNat < S200x256.size a)
instance k0_chk413.dec : ∀ (v411 : IVec S16 32) (v592 : IVec S16 32), Decidable (k0_chk413 v411 v592) := fun v411 v592 => decidable_of_iff' _ (Iff.of_eq (k0_chk413.eq_1 v411 v592))
theorem k0_idx413_inb : ∀ (v411 : IVec S16 32) (v592 : IVec S16 32) (k0_hw413 : k0_chk413 v411 v592), ∀ a x, ((![v592, v411] : Fin 2 → IVec S16 32) a x).toNat < S200x256.size a := fun v411 v592 k0_hw413 => k0_hw413

def k0_chk414 (v411 : IVec S16 32) (v593 : IVec S16 32) : Prop :=
  (∀ a x, ((![v593, v411] : Fin 2 → IVec S16 32) a x).toNat < S200x256.size a)
instance k0_chk414.dec : ∀ (v411 : IVec S16 32) (v593 : IVec S16 32), Decidable (k0_chk414 v411 v593) := fun v411 v593 => decidable_of_iff' _ (Iff.of_eq (k0_chk414.eq_1 v411 v593))
theorem k0_idx414_inb : ∀ (v411 : IVec S16 32) (v593 : IVec S16 32) (k0_hw414 : k0_chk414 v411 v593), ∀ a x, ((![v593, v411] : Fin 2 → IVec S16 32) a x).toNat < S200x256.size a := fun v411 v593 k0_hw414 => k0_hw414

def k0_chk415 (v411 : IVec S16 32) (v594 : IVec S16 32) : Prop :=
  (∀ a x, ((![v594, v411] : Fin 2 → IVec S16 32) a x).toNat < S200x256.size a)
instance k0_chk415.dec : ∀ (v411 : IVec S16 32) (v594 : IVec S16 32), Decidable (k0_chk415 v411 v594) := fun v411 v594 => decidable_of_iff' _ (Iff.of_eq (k0_chk415.eq_1 v411 v594))
theorem k0_idx415_inb : ∀ (v411 : IVec S16 32) (v594 : IVec S16 32) (k0_hw415 : k0_chk415 v411 v594), ∀ a x, ((![v594, v411] : Fin 2 → IVec S16 32) a x).toNat < S200x256.size a := fun v411 v594 k0_hw415 => k0_hw415

def k0_chk416 (v411 : IVec S16 32) (v595 : IVec S16 32) : Prop :=
  (∀ a x, ((![v595, v411] : Fin 2 → IVec S16 32) a x).toNat < S200x256.size a)
instance k0_chk416.dec : ∀ (v411 : IVec S16 32) (v595 : IVec S16 32), Decidable (k0_chk416 v411 v595) := fun v411 v595 => decidable_of_iff' _ (Iff.of_eq (k0_chk416.eq_1 v411 v595))
theorem k0_idx416_inb : ∀ (v411 : IVec S16 32) (v595 : IVec S16 32) (k0_hw416 : k0_chk416 v411 v595), ∀ a x, ((![v595, v411] : Fin 2 → IVec S16 32) a x).toNat < S200x256.size a := fun v411 v595 k0_hw416 => k0_hw416

def k0_chk417 (v411 : IVec S16 32) (v596 : IVec S16 32) : Prop :=
  (∀ a x, ((![v596, v411] : Fin 2 → IVec S16 32) a x).toNat < S200x256.size a)
instance k0_chk417.dec : ∀ (v411 : IVec S16 32) (v596 : IVec S16 32), Decidable (k0_chk417 v411 v596) := fun v411 v596 => decidable_of_iff' _ (Iff.of_eq (k0_chk417.eq_1 v411 v596))
theorem k0_idx417_inb : ∀ (v411 : IVec S16 32) (v596 : IVec S16 32) (k0_hw417 : k0_chk417 v411 v596), ∀ a x, ((![v596, v411] : Fin 2 → IVec S16 32) a x).toNat < S200x256.size a := fun v411 v596 k0_hw417 => k0_hw417

def k0_chk418 (v411 : IVec S16 32) (v597 : IVec S16 32) : Prop :=
  (∀ a x, ((![v597, v411] : Fin 2 → IVec S16 32) a x).toNat < S200x256.size a)
instance k0_chk418.dec : ∀ (v411 : IVec S16 32) (v597 : IVec S16 32), Decidable (k0_chk418 v411 v597) := fun v411 v597 => decidable_of_iff' _ (Iff.of_eq (k0_chk418.eq_1 v411 v597))
theorem k0_idx418_inb : ∀ (v411 : IVec S16 32) (v597 : IVec S16 32) (k0_hw418 : k0_chk418 v411 v597), ∀ a x, ((![v597, v411] : Fin 2 → IVec S16 32) a x).toNat < S200x256.size a := fun v411 v597 k0_hw418 => k0_hw418

def k0_chk419 (v411 : IVec S16 32) (v598 : IVec S16 32) : Prop :=
  (∀ a x, ((![v598, v411] : Fin 2 → IVec S16 32) a x).toNat < S200x256.size a)
instance k0_chk419.dec : ∀ (v411 : IVec S16 32) (v598 : IVec S16 32), Decidable (k0_chk419 v411 v598) := fun v411 v598 => decidable_of_iff' _ (Iff.of_eq (k0_chk419.eq_1 v411 v598))
theorem k0_idx419_inb : ∀ (v411 : IVec S16 32) (v598 : IVec S16 32) (k0_hw419 : k0_chk419 v411 v598), ∀ a x, ((![v598, v411] : Fin 2 → IVec S16 32) a x).toNat < S200x256.size a := fun v411 v598 k0_hw419 => k0_hw419

def k0_chk420 (v411 : IVec S16 32) (v599 : IVec S16 32) : Prop :=
  (∀ a x, ((![v599, v411] : Fin 2 → IVec S16 32) a x).toNat < S200x256.size a)
instance k0_chk420.dec : ∀ (v411 : IVec S16 32) (v599 : IVec S16 32), Decidable (k0_chk420 v411 v599) := fun v411 v599 => decidable_of_iff' _ (Iff.of_eq (k0_chk420.eq_1 v411 v599))
theorem k0_idx420_inb : ∀ (v411 : IVec S16 32) (v599 : IVec S16 32) (k0_hw420 : k0_chk420 v411 v599), ∀ a x, ((![v599, v411] : Fin 2 → IVec S16 32) a x).toNat < S200x256.size a := fun v411 v599 k0_hw420 => k0_hw420

def k0_chk421 (v411 : IVec S16 32) (v600 : IVec S16 32) : Prop :=
  (∀ a x, ((![v600, v411] : Fin 2 → IVec S16 32) a x).toNat < S200x256.size a)
instance k0_chk421.dec : ∀ (v411 : IVec S16 32) (v600 : IVec S16 32), Decidable (k0_chk421 v411 v600) := fun v411 v600 => decidable_of_iff' _ (Iff.of_eq (k0_chk421.eq_1 v411 v600))
theorem k0_idx421_inb : ∀ (v411 : IVec S16 32) (v600 : IVec S16 32) (k0_hw421 : k0_chk421 v411 v600), ∀ a x, ((![v600, v411] : Fin 2 → IVec S16 32) a x).toNat < S200x256.size a := fun v411 v600 k0_hw421 => k0_hw421

def k0_chk422 (v411 : IVec S16 32) (v601 : IVec S16 32) : Prop :=
  (∀ a x, ((![v601, v411] : Fin 2 → IVec S16 32) a x).toNat < S200x256.size a)
instance k0_chk422.dec : ∀ (v411 : IVec S16 32) (v601 : IVec S16 32), Decidable (k0_chk422 v411 v601) := fun v411 v601 => decidable_of_iff' _ (Iff.of_eq (k0_chk422.eq_1 v411 v601))
theorem k0_idx422_inb : ∀ (v411 : IVec S16 32) (v601 : IVec S16 32) (k0_hw422 : k0_chk422 v411 v601), ∀ a x, ((![v601, v411] : Fin 2 → IVec S16 32) a x).toNat < S200x256.size a := fun v411 v601 k0_hw422 => k0_hw422

def k0_chk423 (v411 : IVec S16 32) (v602 : IVec S16 32) : Prop :=
  (∀ a x, ((![v602, v411] : Fin 2 → IVec S16 32) a x).toNat < S200x256.size a)
instance k0_chk423.dec : ∀ (v411 : IVec S16 32) (v602 : IVec S16 32), Decidable (k0_chk423 v411 v602) := fun v411 v602 => decidable_of_iff' _ (Iff.of_eq (k0_chk423.eq_1 v411 v602))
theorem k0_idx423_inb : ∀ (v411 : IVec S16 32) (v602 : IVec S16 32) (k0_hw423 : k0_chk423 v411 v602), ∀ a x, ((![v602, v411] : Fin 2 → IVec S16 32) a x).toNat < S200x256.size a := fun v411 v602 k0_hw423 => k0_hw423

def k0_chk424 (v411 : IVec S16 32) (v603 : IVec S16 32) : Prop :=
  (∀ a x, ((![v603, v411] : Fin 2 → IVec S16 32) a x).toNat < S200x256.size a)
instance k0_chk424.dec : ∀ (v411 : IVec S16 32) (v603 : IVec S16 32), Decidable (k0_chk424 v411 v603) := fun v411 v603 => decidable_of_iff' _ (Iff.of_eq (k0_chk424.eq_1 v411 v603))
theorem k0_idx424_inb : ∀ (v411 : IVec S16 32) (v603 : IVec S16 32) (k0_hw424 : k0_chk424 v411 v603), ∀ a x, ((![v603, v411] : Fin 2 → IVec S16 32) a x).toNat < S200x256.size a := fun v411 v603 k0_hw424 => k0_hw424

def k0_chk425 (v411 : IVec S16 32) (v604 : IVec S16 32) : Prop :=
  (∀ a x, ((![v604, v411] : Fin 2 → IVec S16 32) a x).toNat < S200x256.size a)
instance k0_chk425.dec : ∀ (v411 : IVec S16 32) (v604 : IVec S16 32), Decidable (k0_chk425 v411 v604) := fun v411 v604 => decidable_of_iff' _ (Iff.of_eq (k0_chk425.eq_1 v411 v604))
theorem k0_idx425_inb : ∀ (v411 : IVec S16 32) (v604 : IVec S16 32) (k0_hw425 : k0_chk425 v411 v604), ∀ a x, ((![v604, v411] : Fin 2 → IVec S16 32) a x).toNat < S200x256.size a := fun v411 v604 k0_hw425 => k0_hw425

def k0_chk426 (v411 : IVec S16 32) (v605 : IVec S16 32) : Prop :=
  (∀ a x, ((![v605, v411] : Fin 2 → IVec S16 32) a x).toNat < S200x256.size a)
instance k0_chk426.dec : ∀ (v411 : IVec S16 32) (v605 : IVec S16 32), Decidable (k0_chk426 v411 v605) := fun v411 v605 => decidable_of_iff' _ (Iff.of_eq (k0_chk426.eq_1 v411 v605))
theorem k0_idx426_inb : ∀ (v411 : IVec S16 32) (v605 : IVec S16 32) (k0_hw426 : k0_chk426 v411 v605), ∀ a x, ((![v605, v411] : Fin 2 → IVec S16 32) a x).toNat < S200x256.size a := fun v411 v605 k0_hw426 => k0_hw426

def k0_chk427 (v411 : IVec S16 32) (v606 : IVec S16 32) : Prop :=
  (∀ a x, ((![v606, v411] : Fin 2 → IVec S16 32) a x).toNat < S200x256.size a)
instance k0_chk427.dec : ∀ (v411 : IVec S16 32) (v606 : IVec S16 32), Decidable (k0_chk427 v411 v606) := fun v411 v606 => decidable_of_iff' _ (Iff.of_eq (k0_chk427.eq_1 v411 v606))
theorem k0_idx427_inb : ∀ (v411 : IVec S16 32) (v606 : IVec S16 32) (k0_hw427 : k0_chk427 v411 v606), ∀ a x, ((![v606, v411] : Fin 2 → IVec S16 32) a x).toNat < S200x256.size a := fun v411 v606 k0_hw427 => k0_hw427

def k0_chk428 (v411 : IVec S16 32) (v607 : IVec S16 32) : Prop :=
  (∀ a x, ((![v607, v411] : Fin 2 → IVec S16 32) a x).toNat < S200x256.size a)
instance k0_chk428.dec : ∀ (v411 : IVec S16 32) (v607 : IVec S16 32), Decidable (k0_chk428 v411 v607) := fun v411 v607 => decidable_of_iff' _ (Iff.of_eq (k0_chk428.eq_1 v411 v607))
theorem k0_idx428_inb : ∀ (v411 : IVec S16 32) (v607 : IVec S16 32) (k0_hw428 : k0_chk428 v411 v607), ∀ a x, ((![v607, v411] : Fin 2 → IVec S16 32) a x).toNat < S200x256.size a := fun v411 v607 k0_hw428 => k0_hw428

def k0_chk429 (v411 : IVec S16 32) (v608 : IVec S16 32) : Prop :=
  (∀ a x, ((![v608, v411] : Fin 2 → IVec S16 32) a x).toNat < S200x256.size a)
instance k0_chk429.dec : ∀ (v411 : IVec S16 32) (v608 : IVec S16 32), Decidable (k0_chk429 v411 v608) := fun v411 v608 => decidable_of_iff' _ (Iff.of_eq (k0_chk429.eq_1 v411 v608))
theorem k0_idx429_inb : ∀ (v411 : IVec S16 32) (v608 : IVec S16 32) (k0_hw429 : k0_chk429 v411 v608), ∀ a x, ((![v608, v411] : Fin 2 → IVec S16 32) a x).toNat < S200x256.size a := fun v411 v608 k0_hw429 => k0_hw429

def k0_chk430 (v411 : IVec S16 32) (v609 : IVec S16 32) : Prop :=
  (∀ a x, ((![v609, v411] : Fin 2 → IVec S16 32) a x).toNat < S200x256.size a)
instance k0_chk430.dec : ∀ (v411 : IVec S16 32) (v609 : IVec S16 32), Decidable (k0_chk430 v411 v609) := fun v411 v609 => decidable_of_iff' _ (Iff.of_eq (k0_chk430.eq_1 v411 v609))
theorem k0_idx430_inb : ∀ (v411 : IVec S16 32) (v609 : IVec S16 32) (k0_hw430 : k0_chk430 v411 v609), ∀ a x, ((![v609, v411] : Fin 2 → IVec S16 32) a x).toNat < S200x256.size a := fun v411 v609 k0_hw430 => k0_hw430

def k0_chk431 (v411 : IVec S16 32) (v610 : IVec S16 32) : Prop :=
  (∀ a x, ((![v610, v411] : Fin 2 → IVec S16 32) a x).toNat < S200x256.size a)
instance k0_chk431.dec : ∀ (v411 : IVec S16 32) (v610 : IVec S16 32), Decidable (k0_chk431 v411 v610) := fun v411 v610 => decidable_of_iff' _ (Iff.of_eq (k0_chk431.eq_1 v411 v610))
theorem k0_idx431_inb : ∀ (v411 : IVec S16 32) (v610 : IVec S16 32) (k0_hw431 : k0_chk431 v411 v610), ∀ a x, ((![v610, v411] : Fin 2 → IVec S16 32) a x).toNat < S200x256.size a := fun v411 v610 k0_hw431 => k0_hw431

def k0_chk432 (v411 : IVec S16 32) (v611 : IVec S16 32) : Prop :=
  (∀ a x, ((![v611, v411] : Fin 2 → IVec S16 32) a x).toNat < S200x256.size a)
instance k0_chk432.dec : ∀ (v411 : IVec S16 32) (v611 : IVec S16 32), Decidable (k0_chk432 v411 v611) := fun v411 v611 => decidable_of_iff' _ (Iff.of_eq (k0_chk432.eq_1 v411 v611))
theorem k0_idx432_inb : ∀ (v411 : IVec S16 32) (v611 : IVec S16 32) (k0_hw432 : k0_chk432 v411 v611), ∀ a x, ((![v611, v411] : Fin 2 → IVec S16 32) a x).toNat < S200x256.size a := fun v411 v611 k0_hw432 => k0_hw432

def k0_chk433 (v210 : IVec S16 32) (v212 : IVec S16 32) : Prop :=
  (∀ a x, ((![v210, v212] : Fin 2 → IVec S16 32) a x).toNat < S200x256.size a)
instance k0_chk433.dec : ∀ (v210 : IVec S16 32) (v212 : IVec S16 32), Decidable (k0_chk433 v210 v212) := fun v210 v212 => decidable_of_iff' _ (Iff.of_eq (k0_chk433.eq_1 v210 v212))
theorem k0_idx433_inb : ∀ (v210 : IVec S16 32) (v212 : IVec S16 32) (k0_hw433 : k0_chk433 v210 v212), ∀ a x, ((![v210, v212] : Fin 2 → IVec S16 32) a x).toNat < S200x256.size a := fun v210 v212 k0_hw433 => k0_hw433

def k0_chk434 (v216 : IVec S16 32) (v218 : IVec S16 32) : Prop :=
  (∀ a x, ((![v216, v218] : Fin 2 → IVec S16 32) a x).toNat < S200x256.size a)
instance k0_chk434.dec : ∀ (v216 : IVec S16 32) (v218 : IVec S16 32), Decidable (k0_chk434 v216 v218) := fun v216 v218 => decidable_of_iff' _ (Iff.of_eq (k0_chk434.eq_1 v216 v218))
theorem k0_idx434_inb : ∀ (v216 : IVec S16 32) (v218 : IVec S16 32) (k0_hw434 : k0_chk434 v216 v218), ∀ a x, ((![v216, v218] : Fin 2 → IVec S16 32) a x).toNat < S200x256.size a := fun v216 v218 k0_hw434 => k0_hw434

def k0_chk435 (v222 : IVec S16 32) (v224 : IVec S16 32) : Prop :=
  (∀ a x, ((![v222, v224] : Fin 2 → IVec S16 32) a x).toNat < S200x256.size a)
instance k0_chk435.dec : ∀ (v222 : IVec S16 32) (v224 : IVec S16 32), Decidable (k0_chk435 v222 v224) := fun v222 v224 => decidable_of_iff' _ (Iff.of_eq (k0_chk435.eq_1 v222 v224))
theorem k0_idx435_inb : ∀ (v222 : IVec S16 32) (v224 : IVec S16 32) (k0_hw435 : k0_chk435 v222 v224), ∀ a x, ((![v222, v224] : Fin 2 → IVec S16 32) a x).toNat < S200x256.size a := fun v222 v224 k0_hw435 => k0_hw435

def k0_chk436 (v228 : IVec S16 32) (v230 : IVec S16 32) : Prop :=
  (∀ a x, ((![v228, v230] : Fin 2 → IVec S16 32) a x).toNat < S200x256.size a)
instance k0_chk436.dec : ∀ (v228 : IVec S16 32) (v230 : IVec S16 32), Decidable (k0_chk436 v228 v230) := fun v228 v230 => decidable_of_iff' _ (Iff.of_eq (k0_chk436.eq_1 v228 v230))
theorem k0_idx436_inb : ∀ (v228 : IVec S16 32) (v230 : IVec S16 32) (k0_hw436 : k0_chk436 v228 v230), ∀ a x, ((![v228, v230] : Fin 2 → IVec S16 32) a x).toNat < S200x256.size a := fun v228 v230 k0_hw436 => k0_hw436

def k0_chk437 (v234 : IVec S16 32) (v236 : IVec S16 32) : Prop :=
  (∀ a x, ((![v234, v236] : Fin 2 → IVec S16 32) a x).toNat < S200x256.size a)
instance k0_chk437.dec : ∀ (v234 : IVec S16 32) (v236 : IVec S16 32), Decidable (k0_chk437 v234 v236) := fun v234 v236 => decidable_of_iff' _ (Iff.of_eq (k0_chk437.eq_1 v234 v236))
theorem k0_idx437_inb : ∀ (v234 : IVec S16 32) (v236 : IVec S16 32) (k0_hw437 : k0_chk437 v234 v236), ∀ a x, ((![v234, v236] : Fin 2 → IVec S16 32) a x).toNat < S200x256.size a := fun v234 v236 k0_hw437 => k0_hw437

def k0_chk438 (v240 : IVec S16 32) (v242 : IVec S16 32) : Prop :=
  (∀ a x, ((![v240, v242] : Fin 2 → IVec S16 32) a x).toNat < S200x256.size a)
instance k0_chk438.dec : ∀ (v240 : IVec S16 32) (v242 : IVec S16 32), Decidable (k0_chk438 v240 v242) := fun v240 v242 => decidable_of_iff' _ (Iff.of_eq (k0_chk438.eq_1 v240 v242))
theorem k0_idx438_inb : ∀ (v240 : IVec S16 32) (v242 : IVec S16 32) (k0_hw438 : k0_chk438 v240 v242), ∀ a x, ((![v240, v242] : Fin 2 → IVec S16 32) a x).toNat < S200x256.size a := fun v240 v242 k0_hw438 => k0_hw438

def k0_chk439 (v246 : IVec S16 32) (v248 : IVec S16 32) : Prop :=
  (∀ a x, ((![v246, v248] : Fin 2 → IVec S16 32) a x).toNat < S200x256.size a)
instance k0_chk439.dec : ∀ (v246 : IVec S16 32) (v248 : IVec S16 32), Decidable (k0_chk439 v246 v248) := fun v246 v248 => decidable_of_iff' _ (Iff.of_eq (k0_chk439.eq_1 v246 v248))
theorem k0_idx439_inb : ∀ (v246 : IVec S16 32) (v248 : IVec S16 32) (k0_hw439 : k0_chk439 v246 v248), ∀ a x, ((![v246, v248] : Fin 2 → IVec S16 32) a x).toNat < S200x256.size a := fun v246 v248 k0_hw439 => k0_hw439

def k0_chk440 (v252 : IVec S16 32) (v254 : IVec S16 32) : Prop :=
  (∀ a x, ((![v252, v254] : Fin 2 → IVec S16 32) a x).toNat < S200x256.size a)
instance k0_chk440.dec : ∀ (v252 : IVec S16 32) (v254 : IVec S16 32), Decidable (k0_chk440 v252 v254) := fun v252 v254 => decidable_of_iff' _ (Iff.of_eq (k0_chk440.eq_1 v252 v254))
theorem k0_idx440_inb : ∀ (v252 : IVec S16 32) (v254 : IVec S16 32) (k0_hw440 : k0_chk440 v252 v254), ∀ a x, ((![v252, v254] : Fin 2 → IVec S16 32) a x).toNat < S200x256.size a := fun v252 v254 k0_hw440 => k0_hw440

def k0_chk441 (v258 : IVec S16 32) (v260 : IVec S16 32) : Prop :=
  (∀ a x, ((![v258, v260] : Fin 2 → IVec S16 32) a x).toNat < S200x256.size a)
instance k0_chk441.dec : ∀ (v258 : IVec S16 32) (v260 : IVec S16 32), Decidable (k0_chk441 v258 v260) := fun v258 v260 => decidable_of_iff' _ (Iff.of_eq (k0_chk441.eq_1 v258 v260))
theorem k0_idx441_inb : ∀ (v258 : IVec S16 32) (v260 : IVec S16 32) (k0_hw441 : k0_chk441 v258 v260), ∀ a x, ((![v258, v260] : Fin 2 → IVec S16 32) a x).toNat < S200x256.size a := fun v258 v260 k0_hw441 => k0_hw441

def k0_chk442 (v264 : IVec S16 32) (v266 : IVec S16 32) : Prop :=
  (∀ a x, ((![v264, v266] : Fin 2 → IVec S16 32) a x).toNat < S200x256.size a)
instance k0_chk442.dec : ∀ (v264 : IVec S16 32) (v266 : IVec S16 32), Decidable (k0_chk442 v264 v266) := fun v264 v266 => decidable_of_iff' _ (Iff.of_eq (k0_chk442.eq_1 v264 v266))
theorem k0_idx442_inb : ∀ (v264 : IVec S16 32) (v266 : IVec S16 32) (k0_hw442 : k0_chk442 v264 v266), ∀ a x, ((![v264, v266] : Fin 2 → IVec S16 32) a x).toNat < S200x256.size a := fun v264 v266 k0_hw442 => k0_hw442

def k0_chk443 (v270 : IVec S16 32) (v272 : IVec S16 32) : Prop :=
  (∀ a x, ((![v270, v272] : Fin 2 → IVec S16 32) a x).toNat < S200x256.size a)
instance k0_chk443.dec : ∀ (v270 : IVec S16 32) (v272 : IVec S16 32), Decidable (k0_chk443 v270 v272) := fun v270 v272 => decidable_of_iff' _ (Iff.of_eq (k0_chk443.eq_1 v270 v272))
theorem k0_idx443_inb : ∀ (v270 : IVec S16 32) (v272 : IVec S16 32) (k0_hw443 : k0_chk443 v270 v272), ∀ a x, ((![v270, v272] : Fin 2 → IVec S16 32) a x).toNat < S200x256.size a := fun v270 v272 k0_hw443 => k0_hw443

def k0_chk444 (v276 : IVec S16 32) (v278 : IVec S16 32) : Prop :=
  (∀ a x, ((![v276, v278] : Fin 2 → IVec S16 32) a x).toNat < S200x256.size a)
instance k0_chk444.dec : ∀ (v276 : IVec S16 32) (v278 : IVec S16 32), Decidable (k0_chk444 v276 v278) := fun v276 v278 => decidable_of_iff' _ (Iff.of_eq (k0_chk444.eq_1 v276 v278))
theorem k0_idx444_inb : ∀ (v276 : IVec S16 32) (v278 : IVec S16 32) (k0_hw444 : k0_chk444 v276 v278), ∀ a x, ((![v276, v278] : Fin 2 → IVec S16 32) a x).toNat < S200x256.size a := fun v276 v278 k0_hw444 => k0_hw444

def k0_chk445 (v282 : IVec S16 32) (v284 : IVec S16 32) : Prop :=
  (∀ a x, ((![v282, v284] : Fin 2 → IVec S16 32) a x).toNat < S200x256.size a)
instance k0_chk445.dec : ∀ (v282 : IVec S16 32) (v284 : IVec S16 32), Decidable (k0_chk445 v282 v284) := fun v282 v284 => decidable_of_iff' _ (Iff.of_eq (k0_chk445.eq_1 v282 v284))
theorem k0_idx445_inb : ∀ (v282 : IVec S16 32) (v284 : IVec S16 32) (k0_hw445 : k0_chk445 v282 v284), ∀ a x, ((![v282, v284] : Fin 2 → IVec S16 32) a x).toNat < S200x256.size a := fun v282 v284 k0_hw445 => k0_hw445

def k0_chk446 (v288 : IVec S16 32) (v290 : IVec S16 32) : Prop :=
  (∀ a x, ((![v288, v290] : Fin 2 → IVec S16 32) a x).toNat < S200x256.size a)
instance k0_chk446.dec : ∀ (v288 : IVec S16 32) (v290 : IVec S16 32), Decidable (k0_chk446 v288 v290) := fun v288 v290 => decidable_of_iff' _ (Iff.of_eq (k0_chk446.eq_1 v288 v290))
theorem k0_idx446_inb : ∀ (v288 : IVec S16 32) (v290 : IVec S16 32) (k0_hw446 : k0_chk446 v288 v290), ∀ a x, ((![v288, v290] : Fin 2 → IVec S16 32) a x).toNat < S200x256.size a := fun v288 v290 k0_hw446 => k0_hw446

def k0_chk447 (v294 : IVec S16 32) (v296 : IVec S16 32) : Prop :=
  (∀ a x, ((![v294, v296] : Fin 2 → IVec S16 32) a x).toNat < S200x256.size a)
instance k0_chk447.dec : ∀ (v294 : IVec S16 32) (v296 : IVec S16 32), Decidable (k0_chk447 v294 v296) := fun v294 v296 => decidable_of_iff' _ (Iff.of_eq (k0_chk447.eq_1 v294 v296))
theorem k0_idx447_inb : ∀ (v294 : IVec S16 32) (v296 : IVec S16 32) (k0_hw447 : k0_chk447 v294 v296), ∀ a x, ((![v294, v296] : Fin 2 → IVec S16 32) a x).toNat < S200x256.size a := fun v294 v296 k0_hw447 => k0_hw447

def k0_chk448 (v300 : IVec S16 32) (v302 : IVec S16 32) : Prop :=
  (∀ a x, ((![v300, v302] : Fin 2 → IVec S16 32) a x).toNat < S200x256.size a)
instance k0_chk448.dec : ∀ (v300 : IVec S16 32) (v302 : IVec S16 32), Decidable (k0_chk448 v300 v302) := fun v300 v302 => decidable_of_iff' _ (Iff.of_eq (k0_chk448.eq_1 v300 v302))
theorem k0_idx448_inb : ∀ (v300 : IVec S16 32) (v302 : IVec S16 32) (k0_hw448 : k0_chk448 v300 v302), ∀ a x, ((![v300, v302] : Fin 2 → IVec S16 32) a x).toNat < S200x256.size a := fun v300 v302 k0_hw448 => k0_hw448

def k0_chk449 (v306 : IVec S16 32) (v308 : IVec S16 32) : Prop :=
  (∀ a x, ((![v306, v308] : Fin 2 → IVec S16 32) a x).toNat < S200x256.size a)
instance k0_chk449.dec : ∀ (v306 : IVec S16 32) (v308 : IVec S16 32), Decidable (k0_chk449 v306 v308) := fun v306 v308 => decidable_of_iff' _ (Iff.of_eq (k0_chk449.eq_1 v306 v308))
theorem k0_idx449_inb : ∀ (v306 : IVec S16 32) (v308 : IVec S16 32) (k0_hw449 : k0_chk449 v306 v308), ∀ a x, ((![v306, v308] : Fin 2 → IVec S16 32) a x).toNat < S200x256.size a := fun v306 v308 k0_hw449 => k0_hw449

def k0_chk450 (v312 : IVec S16 32) (v314 : IVec S16 32) : Prop :=
  (∀ a x, ((![v312, v314] : Fin 2 → IVec S16 32) a x).toNat < S200x256.size a)
instance k0_chk450.dec : ∀ (v312 : IVec S16 32) (v314 : IVec S16 32), Decidable (k0_chk450 v312 v314) := fun v312 v314 => decidable_of_iff' _ (Iff.of_eq (k0_chk450.eq_1 v312 v314))
theorem k0_idx450_inb : ∀ (v312 : IVec S16 32) (v314 : IVec S16 32) (k0_hw450 : k0_chk450 v312 v314), ∀ a x, ((![v312, v314] : Fin 2 → IVec S16 32) a x).toNat < S200x256.size a := fun v312 v314 k0_hw450 => k0_hw450

def k0_chk451 (v318 : IVec S16 32) (v320 : IVec S16 32) : Prop :=
  (∀ a x, ((![v318, v320] : Fin 2 → IVec S16 32) a x).toNat < S200x256.size a)
instance k0_chk451.dec : ∀ (v318 : IVec S16 32) (v320 : IVec S16 32), Decidable (k0_chk451 v318 v320) := fun v318 v320 => decidable_of_iff' _ (Iff.of_eq (k0_chk451.eq_1 v318 v320))
theorem k0_idx451_inb : ∀ (v318 : IVec S16 32) (v320 : IVec S16 32) (k0_hw451 : k0_chk451 v318 v320), ∀ a x, ((![v318, v320] : Fin 2 → IVec S16 32) a x).toNat < S200x256.size a := fun v318 v320 k0_hw451 => k0_hw451

def k0_chk452 (v324 : IVec S16 32) (v326 : IVec S16 32) : Prop :=
  (∀ a x, ((![v324, v326] : Fin 2 → IVec S16 32) a x).toNat < S200x256.size a)
instance k0_chk452.dec : ∀ (v324 : IVec S16 32) (v326 : IVec S16 32), Decidable (k0_chk452 v324 v326) := fun v324 v326 => decidable_of_iff' _ (Iff.of_eq (k0_chk452.eq_1 v324 v326))
theorem k0_idx452_inb : ∀ (v324 : IVec S16 32) (v326 : IVec S16 32) (k0_hw452 : k0_chk452 v324 v326), ∀ a x, ((![v324, v326] : Fin 2 → IVec S16 32) a x).toNat < S200x256.size a := fun v324 v326 k0_hw452 => k0_hw452

def k0_chk453 (v330 : IVec S16 32) (v332 : IVec S16 32) : Prop :=
  (∀ a x, ((![v330, v332] : Fin 2 → IVec S16 32) a x).toNat < S200x256.size a)
instance k0_chk453.dec : ∀ (v330 : IVec S16 32) (v332 : IVec S16 32), Decidable (k0_chk453 v330 v332) := fun v330 v332 => decidable_of_iff' _ (Iff.of_eq (k0_chk453.eq_1 v330 v332))
theorem k0_idx453_inb : ∀ (v330 : IVec S16 32) (v332 : IVec S16 32) (k0_hw453 : k0_chk453 v330 v332), ∀ a x, ((![v330, v332] : Fin 2 → IVec S16 32) a x).toNat < S200x256.size a := fun v330 v332 k0_hw453 => k0_hw453

def k0_chk454 (v336 : IVec S16 32) (v338 : IVec S16 32) : Prop :=
  (∀ a x, ((![v336, v338] : Fin 2 → IVec S16 32) a x).toNat < S200x256.size a)
instance k0_chk454.dec : ∀ (v336 : IVec S16 32) (v338 : IVec S16 32), Decidable (k0_chk454 v336 v338) := fun v336 v338 => decidable_of_iff' _ (Iff.of_eq (k0_chk454.eq_1 v336 v338))
theorem k0_idx454_inb : ∀ (v336 : IVec S16 32) (v338 : IVec S16 32) (k0_hw454 : k0_chk454 v336 v338), ∀ a x, ((![v336, v338] : Fin 2 → IVec S16 32) a x).toNat < S200x256.size a := fun v336 v338 k0_hw454 => k0_hw454

def k0_chk455 (v342 : IVec S16 32) (v344 : IVec S16 32) : Prop :=
  (∀ a x, ((![v342, v344] : Fin 2 → IVec S16 32) a x).toNat < S200x256.size a)
instance k0_chk455.dec : ∀ (v342 : IVec S16 32) (v344 : IVec S16 32), Decidable (k0_chk455 v342 v344) := fun v342 v344 => decidable_of_iff' _ (Iff.of_eq (k0_chk455.eq_1 v342 v344))
theorem k0_idx455_inb : ∀ (v342 : IVec S16 32) (v344 : IVec S16 32) (k0_hw455 : k0_chk455 v342 v344), ∀ a x, ((![v342, v344] : Fin 2 → IVec S16 32) a x).toNat < S200x256.size a := fun v342 v344 k0_hw455 => k0_hw455

def k0_chk456 (v348 : IVec S16 32) (v350 : IVec S16 32) : Prop :=
  (∀ a x, ((![v348, v350] : Fin 2 → IVec S16 32) a x).toNat < S200x256.size a)
instance k0_chk456.dec : ∀ (v348 : IVec S16 32) (v350 : IVec S16 32), Decidable (k0_chk456 v348 v350) := fun v348 v350 => decidable_of_iff' _ (Iff.of_eq (k0_chk456.eq_1 v348 v350))
theorem k0_idx456_inb : ∀ (v348 : IVec S16 32) (v350 : IVec S16 32) (k0_hw456 : k0_chk456 v348 v350), ∀ a x, ((![v348, v350] : Fin 2 → IVec S16 32) a x).toNat < S200x256.size a := fun v348 v350 k0_hw456 => k0_hw456

def k0_chk457 (v354 : IVec S16 32) (v356 : IVec S16 32) : Prop :=
  (∀ a x, ((![v354, v356] : Fin 2 → IVec S16 32) a x).toNat < S200x256.size a)
instance k0_chk457.dec : ∀ (v354 : IVec S16 32) (v356 : IVec S16 32), Decidable (k0_chk457 v354 v356) := fun v354 v356 => decidable_of_iff' _ (Iff.of_eq (k0_chk457.eq_1 v354 v356))
theorem k0_idx457_inb : ∀ (v354 : IVec S16 32) (v356 : IVec S16 32) (k0_hw457 : k0_chk457 v354 v356), ∀ a x, ((![v354, v356] : Fin 2 → IVec S16 32) a x).toNat < S200x256.size a := fun v354 v356 k0_hw457 => k0_hw457

def k0_chk458 (v360 : IVec S16 32) (v362 : IVec S16 32) : Prop :=
  (∀ a x, ((![v360, v362] : Fin 2 → IVec S16 32) a x).toNat < S200x256.size a)
instance k0_chk458.dec : ∀ (v360 : IVec S16 32) (v362 : IVec S16 32), Decidable (k0_chk458 v360 v362) := fun v360 v362 => decidable_of_iff' _ (Iff.of_eq (k0_chk458.eq_1 v360 v362))
theorem k0_idx458_inb : ∀ (v360 : IVec S16 32) (v362 : IVec S16 32) (k0_hw458 : k0_chk458 v360 v362), ∀ a x, ((![v360, v362] : Fin 2 → IVec S16 32) a x).toNat < S200x256.size a := fun v360 v362 k0_hw458 => k0_hw458

def k0_chk459 (v366 : IVec S16 32) (v368 : IVec S16 32) : Prop :=
  (∀ a x, ((![v366, v368] : Fin 2 → IVec S16 32) a x).toNat < S200x256.size a)
instance k0_chk459.dec : ∀ (v366 : IVec S16 32) (v368 : IVec S16 32), Decidable (k0_chk459 v366 v368) := fun v366 v368 => decidable_of_iff' _ (Iff.of_eq (k0_chk459.eq_1 v366 v368))
theorem k0_idx459_inb : ∀ (v366 : IVec S16 32) (v368 : IVec S16 32) (k0_hw459 : k0_chk459 v366 v368), ∀ a x, ((![v366, v368] : Fin 2 → IVec S16 32) a x).toNat < S200x256.size a := fun v366 v368 k0_hw459 => k0_hw459

def k0_chk460 (v372 : IVec S16 32) (v374 : IVec S16 32) : Prop :=
  (∀ a x, ((![v372, v374] : Fin 2 → IVec S16 32) a x).toNat < S200x256.size a)
instance k0_chk460.dec : ∀ (v372 : IVec S16 32) (v374 : IVec S16 32), Decidable (k0_chk460 v372 v374) := fun v372 v374 => decidable_of_iff' _ (Iff.of_eq (k0_chk460.eq_1 v372 v374))
theorem k0_idx460_inb : ∀ (v372 : IVec S16 32) (v374 : IVec S16 32) (k0_hw460 : k0_chk460 v372 v374), ∀ a x, ((![v372, v374] : Fin 2 → IVec S16 32) a x).toNat < S200x256.size a := fun v372 v374 k0_hw460 => k0_hw460

def k0_chk461 (v378 : IVec S16 32) (v380 : IVec S16 32) : Prop :=
  (∀ a x, ((![v378, v380] : Fin 2 → IVec S16 32) a x).toNat < S200x256.size a)
instance k0_chk461.dec : ∀ (v378 : IVec S16 32) (v380 : IVec S16 32), Decidable (k0_chk461 v378 v380) := fun v378 v380 => decidable_of_iff' _ (Iff.of_eq (k0_chk461.eq_1 v378 v380))
theorem k0_idx461_inb : ∀ (v378 : IVec S16 32) (v380 : IVec S16 32) (k0_hw461 : k0_chk461 v378 v380), ∀ a x, ((![v378, v380] : Fin 2 → IVec S16 32) a x).toNat < S200x256.size a := fun v378 v380 k0_hw461 => k0_hw461

def k0_chk462 (v384 : IVec S16 32) (v386 : IVec S16 32) : Prop :=
  (∀ a x, ((![v384, v386] : Fin 2 → IVec S16 32) a x).toNat < S200x256.size a)
instance k0_chk462.dec : ∀ (v384 : IVec S16 32) (v386 : IVec S16 32), Decidable (k0_chk462 v384 v386) := fun v384 v386 => decidable_of_iff' _ (Iff.of_eq (k0_chk462.eq_1 v384 v386))
theorem k0_idx462_inb : ∀ (v384 : IVec S16 32) (v386 : IVec S16 32) (k0_hw462 : k0_chk462 v384 v386), ∀ a x, ((![v384, v386] : Fin 2 → IVec S16 32) a x).toNat < S200x256.size a := fun v384 v386 k0_hw462 => k0_hw462

def k0_chk463 (v390 : IVec S16 32) (v392 : IVec S16 32) : Prop :=
  (∀ a x, ((![v390, v392] : Fin 2 → IVec S16 32) a x).toNat < S200x256.size a)
instance k0_chk463.dec : ∀ (v390 : IVec S16 32) (v392 : IVec S16 32), Decidable (k0_chk463 v390 v392) := fun v390 v392 => decidable_of_iff' _ (Iff.of_eq (k0_chk463.eq_1 v390 v392))
theorem k0_idx463_inb : ∀ (v390 : IVec S16 32) (v392 : IVec S16 32) (k0_hw463 : k0_chk463 v390 v392), ∀ a x, ((![v390, v392] : Fin 2 → IVec S16 32) a x).toNat < S200x256.size a := fun v390 v392 k0_hw463 => k0_hw463

def k0_chk464 (v396 : IVec S16 32) (v398 : IVec S16 32) : Prop :=
  (∀ a x, ((![v396, v398] : Fin 2 → IVec S16 32) a x).toNat < S200x256.size a)
instance k0_chk464.dec : ∀ (v396 : IVec S16 32) (v398 : IVec S16 32), Decidable (k0_chk464 v396 v398) := fun v396 v398 => decidable_of_iff' _ (Iff.of_eq (k0_chk464.eq_1 v396 v398))
theorem k0_idx464_inb : ∀ (v396 : IVec S16 32) (v398 : IVec S16 32) (k0_hw464 : k0_chk464 v396 v398), ∀ a x, ((![v396, v398] : Fin 2 → IVec S16 32) a x).toNat < S200x256.size a := fun v396 v398 k0_hw464 => k0_hw464
def k0_off3 (i : grid0.Coords) : Fin 2 → Nat :=
  let c0_i32_225 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c256_i32 : BitVec 32 := 256#32
  let v399 : BitVec 32 := Scalar.addi v5 c256_i32
  ![0, v399.toNat]
@[reducible] def k0_t3_loop : Scf.Loop 32 :=
  let c1_i32_228 : BitVec 32 := 1#32
  let c12_i32 : BitVec 32 := 12#32
  let v402 : BitVec 32 := Scalar.addi c1_i32_228 c12_i32
  let c1_i32_229 : BitVec 32 := 1#32
  ⟨c1_i32_228, v402, c1_i32_229⟩
def k0_off4 (i : grid0.Coords) (k0_t3 : Fin k0_t3_loop.trips) : Fin 2 → Nat :=
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_238 : BitVec 32 := 2#32
  let v411 : BitVec 32 := Scalar.subi v410 c2_i32_238
  let c0_i32_240 : BitVec 32 := 0#32
  let v413 : BitVec 1 := Scalar.cmpi .sgt v411 c0_i32_240
  let v414 : BitVec 32 := Scalar.extui v413
  let c0_i32_241 : BitVec 32 := 0#32
  let v415 : BitVec 1 := Scalar.cmpi .slt v411 c0_i32_241
  let v416 : BitVec 32 := Scalar.extui v415
  let v417 : BitVec 32 := Scalar.subi v414 v416
  let c2_i32_239 : BitVec 32 := 2#32
  let c0_i32_242 : BitVec 32 := 0#32
  let v418 : BitVec 1 := Scalar.cmpi .sgt c2_i32_239 c0_i32_242
  let v419 : BitVec 32 := Scalar.extui v418
  let c0_i32_243 : BitVec 32 := 0#32
  let v420 : BitVec 1 := Scalar.cmpi .slt c2_i32_239 c0_i32_243
  let v421 : BitVec 32 := Scalar.extui v420
  let v422 : BitVec 32 := Scalar.subi v419 v421
  let v423 : BitVec 1 := Scalar.cmpi .ne v417 v422
  let v424 : BitVec 32 := Scalar.remsi v411 c2_i32_239
  let c0_i32_244 : BitVec 32 := 0#32
  let v425 : BitVec 1 := Scalar.cmpi .ne v424 c0_i32_244
  let v426 : BitVec 1 := Scalar.andi v423 v425
  let v412 : BitVec 32 := Scalar.divsi v411 c2_i32_239
  let c1_i32_245 : BitVec 32 := 1#32
  let v427 : BitVec 32 := Scalar.subi v412 c1_i32_245
  let v428 : BitVec 32 := Scalar.select v426 v427 v412
  let c200_i32 : BitVec 32 := 200#32
  let v439 : BitVec 32 := Scalar.muli v428 c200_i32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c2_i32_246 : BitVec 32 := 2#32
  let c0_i32_247 : BitVec 32 := 0#32
  let v429 : BitVec 1 := Scalar.cmpi .eq c2_i32_246 c0_i32_247
  let c1_i32_248 : BitVec 32 := 1#32
  let v430 : BitVec 32 := Scalar.select v429 c1_i32_248 c2_i32_246
  let v431 : BitVec 32 := Scalar.remsi v411 v430
  let c0_i32_250 : BitVec 32 := 0#32
  let v433 : BitVec 1 := Scalar.cmpi .slt v431 c0_i32_250
  let c0_i32_251 : BitVec 32 := 0#32
  let v434 : BitVec 1 := Scalar.cmpi .slt v430 c0_i32_251
  let v435 : BitVec 1 := Scalar.xori v433 v434
  let c0_i32_249 : BitVec 32 := 0#32
  let v432 : BitVec 1 := Scalar.cmpi .ne v431 c0_i32_249
  let v436 : BitVec 1 := Scalar.andi v435 v432
  let v437 : BitVec 32 := Scalar.addi v431 v430
  let v438 : BitVec 32 := Scalar.select v436 v437 v431
  let c256_i32_252 : BitVec 32 := 256#32
  let v440 : BitVec 32 := Scalar.muli v438 c256_i32_252
  let v441 : BitVec 32 := Scalar.addi v5 v440
  ![v439.toNat, v441.toNat]
def k0_off5 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v476 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_269 : BitVec 32 := 256#32
  let v474 : BitVec 32 := Scalar.muli v471 c256_i32_269
  let c0_i32_270 : BitVec 32 := 0#32
  let v475 : BitVec 32 := Scalar.addi v474 c0_i32_270
  let v477 : Index := Scalar.indexCast v475
  ![v476.toNat, v477.toNat]

def k0_chk465 (v480 : IVec S16 32) (v482 : IVec S16 32) : Prop :=
  (∀ a x, ((![v480, v482] : Fin 2 → IVec S16 32) a x).toNat < S200x256.size a)
instance k0_chk465.dec : ∀ (v480 : IVec S16 32) (v482 : IVec S16 32), Decidable (k0_chk465 v480 v482) := fun v480 v482 => decidable_of_iff' _ (Iff.of_eq (k0_chk465.eq_1 v480 v482))
theorem k0_idx465_inb : ∀ (v480 : IVec S16 32) (v482 : IVec S16 32) (k0_hw465 : k0_chk465 v480 v482), ∀ a x, ((![v480, v482] : Fin 2 → IVec S16 32) a x).toNat < S200x256.size a := fun v480 v482 k0_hw465 => k0_hw465
def k0_off6 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v485 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_273 : BitVec 32 := 256#32
  let v483 : BitVec 32 := Scalar.muli v471 c256_i32_273
  let c16_i32_274 : BitVec 32 := 16#32
  let v484 : BitVec 32 := Scalar.addi v483 c16_i32_274
  let v486 : Index := Scalar.indexCast v484
  ![v485.toNat, v486.toNat]

def k0_chk466 (v489 : IVec S16 32) (v491 : IVec S16 32) : Prop :=
  (∀ a x, ((![v489, v491] : Fin 2 → IVec S16 32) a x).toNat < S200x256.size a)
instance k0_chk466.dec : ∀ (v489 : IVec S16 32) (v491 : IVec S16 32), Decidable (k0_chk466 v489 v491) := fun v489 v491 => decidable_of_iff' _ (Iff.of_eq (k0_chk466.eq_1 v489 v491))
theorem k0_idx466_inb : ∀ (v489 : IVec S16 32) (v491 : IVec S16 32) (k0_hw466 : k0_chk466 v489 v491), ∀ a x, ((![v489, v491] : Fin 2 → IVec S16 32) a x).toNat < S200x256.size a := fun v489 v491 k0_hw466 => k0_hw466
def k0_off7 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v494 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_277 : BitVec 32 := 256#32
  let v492 : BitVec 32 := Scalar.muli v471 c256_i32_277
  let c32_i32_278 : BitVec 32 := 32#32
  let v493 : BitVec 32 := Scalar.addi v492 c32_i32_278
  let v495 : Index := Scalar.indexCast v493
  ![v494.toNat, v495.toNat]

def k0_chk467 (v498 : IVec S16 32) (v500 : IVec S16 32) : Prop :=
  (∀ a x, ((![v498, v500] : Fin 2 → IVec S16 32) a x).toNat < S200x256.size a)
instance k0_chk467.dec : ∀ (v498 : IVec S16 32) (v500 : IVec S16 32), Decidable (k0_chk467 v498 v500) := fun v498 v500 => decidable_of_iff' _ (Iff.of_eq (k0_chk467.eq_1 v498 v500))
theorem k0_idx467_inb : ∀ (v498 : IVec S16 32) (v500 : IVec S16 32) (k0_hw467 : k0_chk467 v498 v500), ∀ a x, ((![v498, v500] : Fin 2 → IVec S16 32) a x).toNat < S200x256.size a := fun v498 v500 k0_hw467 => k0_hw467
def k0_off8 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v503 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_281 : BitVec 32 := 256#32
  let v501 : BitVec 32 := Scalar.muli v471 c256_i32_281
  let c48_i32_282 : BitVec 32 := 48#32
  let v502 : BitVec 32 := Scalar.addi v501 c48_i32_282
  let v504 : Index := Scalar.indexCast v502
  ![v503.toNat, v504.toNat]

def k0_chk468 (v507 : IVec S16 32) (v509 : IVec S16 32) : Prop :=
  (∀ a x, ((![v507, v509] : Fin 2 → IVec S16 32) a x).toNat < S200x256.size a)
instance k0_chk468.dec : ∀ (v507 : IVec S16 32) (v509 : IVec S16 32), Decidable (k0_chk468 v507 v509) := fun v507 v509 => decidable_of_iff' _ (Iff.of_eq (k0_chk468.eq_1 v507 v509))
theorem k0_idx468_inb : ∀ (v507 : IVec S16 32) (v509 : IVec S16 32) (k0_hw468 : k0_chk468 v507 v509), ∀ a x, ((![v507, v509] : Fin 2 → IVec S16 32) a x).toNat < S200x256.size a := fun v507 v509 k0_hw468 => k0_hw468
def k0_off9 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v512 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_285 : BitVec 32 := 256#32
  let v510 : BitVec 32 := Scalar.muli v471 c256_i32_285
  let c64_i32_286 : BitVec 32 := 64#32
  let v511 : BitVec 32 := Scalar.addi v510 c64_i32_286
  let v513 : Index := Scalar.indexCast v511
  ![v512.toNat, v513.toNat]

def k0_chk469 (v516 : IVec S16 32) (v518 : IVec S16 32) : Prop :=
  (∀ a x, ((![v516, v518] : Fin 2 → IVec S16 32) a x).toNat < S200x256.size a)
instance k0_chk469.dec : ∀ (v516 : IVec S16 32) (v518 : IVec S16 32), Decidable (k0_chk469 v516 v518) := fun v516 v518 => decidable_of_iff' _ (Iff.of_eq (k0_chk469.eq_1 v516 v518))
theorem k0_idx469_inb : ∀ (v516 : IVec S16 32) (v518 : IVec S16 32) (k0_hw469 : k0_chk469 v516 v518), ∀ a x, ((![v516, v518] : Fin 2 → IVec S16 32) a x).toNat < S200x256.size a := fun v516 v518 k0_hw469 => k0_hw469
def k0_off10 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v521 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_289 : BitVec 32 := 256#32
  let v519 : BitVec 32 := Scalar.muli v471 c256_i32_289
  let c80_i32_290 : BitVec 32 := 80#32
  let v520 : BitVec 32 := Scalar.addi v519 c80_i32_290
  let v522 : Index := Scalar.indexCast v520
  ![v521.toNat, v522.toNat]

def k0_chk470 (v525 : IVec S16 32) (v527 : IVec S16 32) : Prop :=
  (∀ a x, ((![v525, v527] : Fin 2 → IVec S16 32) a x).toNat < S200x256.size a)
instance k0_chk470.dec : ∀ (v525 : IVec S16 32) (v527 : IVec S16 32), Decidable (k0_chk470 v525 v527) := fun v525 v527 => decidable_of_iff' _ (Iff.of_eq (k0_chk470.eq_1 v525 v527))
theorem k0_idx470_inb : ∀ (v525 : IVec S16 32) (v527 : IVec S16 32) (k0_hw470 : k0_chk470 v525 v527), ∀ a x, ((![v525, v527] : Fin 2 → IVec S16 32) a x).toNat < S200x256.size a := fun v525 v527 k0_hw470 => k0_hw470
def k0_off11 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v530 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_293 : BitVec 32 := 256#32
  let v528 : BitVec 32 := Scalar.muli v471 c256_i32_293
  let c96_i32_294 : BitVec 32 := 96#32
  let v529 : BitVec 32 := Scalar.addi v528 c96_i32_294
  let v531 : Index := Scalar.indexCast v529
  ![v530.toNat, v531.toNat]

def k0_chk471 (v534 : IVec S16 32) (v536 : IVec S16 32) : Prop :=
  (∀ a x, ((![v534, v536] : Fin 2 → IVec S16 32) a x).toNat < S200x256.size a)
instance k0_chk471.dec : ∀ (v534 : IVec S16 32) (v536 : IVec S16 32), Decidable (k0_chk471 v534 v536) := fun v534 v536 => decidable_of_iff' _ (Iff.of_eq (k0_chk471.eq_1 v534 v536))
theorem k0_idx471_inb : ∀ (v534 : IVec S16 32) (v536 : IVec S16 32) (k0_hw471 : k0_chk471 v534 v536), ∀ a x, ((![v534, v536] : Fin 2 → IVec S16 32) a x).toNat < S200x256.size a := fun v534 v536 k0_hw471 => k0_hw471
def k0_off12 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v539 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_297 : BitVec 32 := 256#32
  let v537 : BitVec 32 := Scalar.muli v471 c256_i32_297
  let c112_i32_298 : BitVec 32 := 112#32
  let v538 : BitVec 32 := Scalar.addi v537 c112_i32_298
  let v540 : Index := Scalar.indexCast v538
  ![v539.toNat, v540.toNat]

def k0_chk472 (v543 : IVec S16 32) (v545 : IVec S16 32) : Prop :=
  (∀ a x, ((![v543, v545] : Fin 2 → IVec S16 32) a x).toNat < S200x256.size a)
instance k0_chk472.dec : ∀ (v543 : IVec S16 32) (v545 : IVec S16 32), Decidable (k0_chk472 v543 v545) := fun v543 v545 => decidable_of_iff' _ (Iff.of_eq (k0_chk472.eq_1 v543 v545))
theorem k0_idx472_inb : ∀ (v543 : IVec S16 32) (v545 : IVec S16 32) (k0_hw472 : k0_chk472 v543 v545), ∀ a x, ((![v543, v545] : Fin 2 → IVec S16 32) a x).toNat < S200x256.size a := fun v543 v545 k0_hw472 => k0_hw472
def k0_off13 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v548 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_301 : BitVec 32 := 256#32
  let v546 : BitVec 32 := Scalar.muli v471 c256_i32_301
  let c128_i32_302 : BitVec 32 := 128#32
  let v547 : BitVec 32 := Scalar.addi v546 c128_i32_302
  let v549 : Index := Scalar.indexCast v547
  ![v548.toNat, v549.toNat]

def k0_chk473 (v552 : IVec S16 32) (v554 : IVec S16 32) : Prop :=
  (∀ a x, ((![v552, v554] : Fin 2 → IVec S16 32) a x).toNat < S200x256.size a)
instance k0_chk473.dec : ∀ (v552 : IVec S16 32) (v554 : IVec S16 32), Decidable (k0_chk473 v552 v554) := fun v552 v554 => decidable_of_iff' _ (Iff.of_eq (k0_chk473.eq_1 v552 v554))
theorem k0_idx473_inb : ∀ (v552 : IVec S16 32) (v554 : IVec S16 32) (k0_hw473 : k0_chk473 v552 v554), ∀ a x, ((![v552, v554] : Fin 2 → IVec S16 32) a x).toNat < S200x256.size a := fun v552 v554 k0_hw473 => k0_hw473
def k0_off14 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v557 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_305 : BitVec 32 := 256#32
  let v555 : BitVec 32 := Scalar.muli v471 c256_i32_305
  let c144_i32_306 : BitVec 32 := 144#32
  let v556 : BitVec 32 := Scalar.addi v555 c144_i32_306
  let v558 : Index := Scalar.indexCast v556
  ![v557.toNat, v558.toNat]

def k0_chk474 (v561 : IVec S16 32) (v563 : IVec S16 32) : Prop :=
  (∀ a x, ((![v561, v563] : Fin 2 → IVec S16 32) a x).toNat < S200x256.size a)
instance k0_chk474.dec : ∀ (v561 : IVec S16 32) (v563 : IVec S16 32), Decidable (k0_chk474 v561 v563) := fun v561 v563 => decidable_of_iff' _ (Iff.of_eq (k0_chk474.eq_1 v561 v563))
theorem k0_idx474_inb : ∀ (v561 : IVec S16 32) (v563 : IVec S16 32) (k0_hw474 : k0_chk474 v561 v563), ∀ a x, ((![v561, v563] : Fin 2 → IVec S16 32) a x).toNat < S200x256.size a := fun v561 v563 k0_hw474 => k0_hw474
def k0_off15 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v566 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_309 : BitVec 32 := 256#32
  let v564 : BitVec 32 := Scalar.muli v471 c256_i32_309
  let c160_i32_310 : BitVec 32 := 160#32
  let v565 : BitVec 32 := Scalar.addi v564 c160_i32_310
  let v567 : Index := Scalar.indexCast v565
  ![v566.toNat, v567.toNat]

def k0_chk475 (v570 : IVec S16 32) (v572 : IVec S16 32) : Prop :=
  (∀ a x, ((![v570, v572] : Fin 2 → IVec S16 32) a x).toNat < S200x256.size a)
instance k0_chk475.dec : ∀ (v570 : IVec S16 32) (v572 : IVec S16 32), Decidable (k0_chk475 v570 v572) := fun v570 v572 => decidable_of_iff' _ (Iff.of_eq (k0_chk475.eq_1 v570 v572))
theorem k0_idx475_inb : ∀ (v570 : IVec S16 32) (v572 : IVec S16 32) (k0_hw475 : k0_chk475 v570 v572), ∀ a x, ((![v570, v572] : Fin 2 → IVec S16 32) a x).toNat < S200x256.size a := fun v570 v572 k0_hw475 => k0_hw475
def k0_off16 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v575 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_313 : BitVec 32 := 256#32
  let v573 : BitVec 32 := Scalar.muli v471 c256_i32_313
  let c176_i32_314 : BitVec 32 := 176#32
  let v574 : BitVec 32 := Scalar.addi v573 c176_i32_314
  let v576 : Index := Scalar.indexCast v574
  ![v575.toNat, v576.toNat]

def k0_chk476 (v579 : IVec S16 32) (v581 : IVec S16 32) : Prop :=
  (∀ a x, ((![v579, v581] : Fin 2 → IVec S16 32) a x).toNat < S200x256.size a)
instance k0_chk476.dec : ∀ (v579 : IVec S16 32) (v581 : IVec S16 32), Decidable (k0_chk476 v579 v581) := fun v579 v581 => decidable_of_iff' _ (Iff.of_eq (k0_chk476.eq_1 v579 v581))
theorem k0_idx476_inb : ∀ (v579 : IVec S16 32) (v581 : IVec S16 32) (k0_hw476 : k0_chk476 v579 v581), ∀ a x, ((![v579, v581] : Fin 2 → IVec S16 32) a x).toNat < S200x256.size a := fun v579 v581 k0_hw476 => k0_hw476
def k0_off17 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v584 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_317 : BitVec 32 := 256#32
  let v582 : BitVec 32 := Scalar.muli v471 c256_i32_317
  let c192_i32_318 : BitVec 32 := 192#32
  let v583 : BitVec 32 := Scalar.addi v582 c192_i32_318
  let v585 : Index := Scalar.indexCast v583
  ![v584.toNat, v585.toNat]

def k0_chk477 (v588 : IVec S16 32) (v590 : IVec S16 32) : Prop :=
  (∀ a x, ((![v588, v590] : Fin 2 → IVec S16 32) a x).toNat < S200x256.size a)
instance k0_chk477.dec : ∀ (v588 : IVec S16 32) (v590 : IVec S16 32), Decidable (k0_chk477 v588 v590) := fun v588 v590 => decidable_of_iff' _ (Iff.of_eq (k0_chk477.eq_1 v588 v590))
theorem k0_idx477_inb : ∀ (v588 : IVec S16 32) (v590 : IVec S16 32) (k0_hw477 : k0_chk477 v588 v590), ∀ a x, ((![v588, v590] : Fin 2 → IVec S16 32) a x).toNat < S200x256.size a := fun v588 v590 k0_hw477 => k0_hw477
def k0_off18 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v593 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_321 : BitVec 32 := 256#32
  let v591 : BitVec 32 := Scalar.muli v471 c256_i32_321
  let c208_i32_322 : BitVec 32 := 208#32
  let v592 : BitVec 32 := Scalar.addi v591 c208_i32_322
  let v594 : Index := Scalar.indexCast v592
  ![v593.toNat, v594.toNat]

def k0_chk478 (v597 : IVec S16 32) (v599 : IVec S16 32) : Prop :=
  (∀ a x, ((![v597, v599] : Fin 2 → IVec S16 32) a x).toNat < S200x256.size a)
instance k0_chk478.dec : ∀ (v597 : IVec S16 32) (v599 : IVec S16 32), Decidable (k0_chk478 v597 v599) := fun v597 v599 => decidable_of_iff' _ (Iff.of_eq (k0_chk478.eq_1 v597 v599))
theorem k0_idx478_inb : ∀ (v597 : IVec S16 32) (v599 : IVec S16 32) (k0_hw478 : k0_chk478 v597 v599), ∀ a x, ((![v597, v599] : Fin 2 → IVec S16 32) a x).toNat < S200x256.size a := fun v597 v599 k0_hw478 => k0_hw478
def k0_off19 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v602 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_325 : BitVec 32 := 256#32
  let v600 : BitVec 32 := Scalar.muli v471 c256_i32_325
  let c224_i32_326 : BitVec 32 := 224#32
  let v601 : BitVec 32 := Scalar.addi v600 c224_i32_326
  let v603 : Index := Scalar.indexCast v601
  ![v602.toNat, v603.toNat]

def k0_chk479 (v606 : IVec S16 32) (v608 : IVec S16 32) : Prop :=
  (∀ a x, ((![v606, v608] : Fin 2 → IVec S16 32) a x).toNat < S200x256.size a)
instance k0_chk479.dec : ∀ (v606 : IVec S16 32) (v608 : IVec S16 32), Decidable (k0_chk479 v606 v608) := fun v606 v608 => decidable_of_iff' _ (Iff.of_eq (k0_chk479.eq_1 v606 v608))
theorem k0_idx479_inb : ∀ (v606 : IVec S16 32) (v608 : IVec S16 32) (k0_hw479 : k0_chk479 v606 v608), ∀ a x, ((![v606, v608] : Fin 2 → IVec S16 32) a x).toNat < S200x256.size a := fun v606 v608 k0_hw479 => k0_hw479
def k0_off20 (k0_t3 : Fin k0_t3_loop.trips) : Fin 2 → Nat :=
  let c2_i32_267 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v472 : BitVec 32 := Scalar.muli c2_i32_267 v461
  let c0_i32_268 : BitVec 32 := 0#32
  let v473 : BitVec 32 := Scalar.addi v472 c0_i32_268
  let v611 : Index := Scalar.indexCast v473
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_329 : BitVec 32 := 256#32
  let v609 : BitVec 32 := Scalar.muli v471 c256_i32_329
  let c240_i32_330 : BitVec 32 := 240#32
  let v610 : BitVec 32 := Scalar.addi v609 c240_i32_330
  let v612 : Index := Scalar.indexCast v610
  ![v611.toNat, v612.toNat]

def k0_chk480 (v615 : IVec S16 32) (v617 : IVec S16 32) : Prop :=
  (∀ a x, ((![v615, v617] : Fin 2 → IVec S16 32) a x).toNat < S200x256.size a)
instance k0_chk480.dec : ∀ (v615 : IVec S16 32) (v617 : IVec S16 32), Decidable (k0_chk480 v615 v617) := fun v615 v617 => decidable_of_iff' _ (Iff.of_eq (k0_chk480.eq_1 v615 v617))
theorem k0_idx480_inb : ∀ (v615 : IVec S16 32) (v617 : IVec S16 32) (k0_hw480 : k0_chk480 v615 v617), ∀ a x, ((![v615, v617] : Fin 2 → IVec S16 32) a x).toNat < S200x256.size a := fun v615 v617 k0_hw480 => k0_hw480
def k0_off21 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v622 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_335 : BitVec 32 := 256#32
  let v620 : BitVec 32 := Scalar.muli v471 c256_i32_335
  let c0_i32_336 : BitVec 32 := 0#32
  let v621 : BitVec 32 := Scalar.addi v620 c0_i32_336
  let v623 : Index := Scalar.indexCast v621
  ![v622.toNat, v623.toNat]

def k0_chk481 (v626 : IVec S16 32) (v628 : IVec S16 32) : Prop :=
  (∀ a x, ((![v626, v628] : Fin 2 → IVec S16 32) a x).toNat < S200x256.size a)
instance k0_chk481.dec : ∀ (v626 : IVec S16 32) (v628 : IVec S16 32), Decidable (k0_chk481 v626 v628) := fun v626 v628 => decidable_of_iff' _ (Iff.of_eq (k0_chk481.eq_1 v626 v628))
theorem k0_idx481_inb : ∀ (v626 : IVec S16 32) (v628 : IVec S16 32) (k0_hw481 : k0_chk481 v626 v628), ∀ a x, ((![v626, v628] : Fin 2 → IVec S16 32) a x).toNat < S200x256.size a := fun v626 v628 k0_hw481 => k0_hw481
def k0_off22 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v631 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_339 : BitVec 32 := 256#32
  let v629 : BitVec 32 := Scalar.muli v471 c256_i32_339
  let c16_i32_340 : BitVec 32 := 16#32
  let v630 : BitVec 32 := Scalar.addi v629 c16_i32_340
  let v632 : Index := Scalar.indexCast v630
  ![v631.toNat, v632.toNat]

def k0_chk482 (v635 : IVec S16 32) (v637 : IVec S16 32) : Prop :=
  (∀ a x, ((![v635, v637] : Fin 2 → IVec S16 32) a x).toNat < S200x256.size a)
instance k0_chk482.dec : ∀ (v635 : IVec S16 32) (v637 : IVec S16 32), Decidable (k0_chk482 v635 v637) := fun v635 v637 => decidable_of_iff' _ (Iff.of_eq (k0_chk482.eq_1 v635 v637))
theorem k0_idx482_inb : ∀ (v635 : IVec S16 32) (v637 : IVec S16 32) (k0_hw482 : k0_chk482 v635 v637), ∀ a x, ((![v635, v637] : Fin 2 → IVec S16 32) a x).toNat < S200x256.size a := fun v635 v637 k0_hw482 => k0_hw482
def k0_off23 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v640 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_343 : BitVec 32 := 256#32
  let v638 : BitVec 32 := Scalar.muli v471 c256_i32_343
  let c32_i32_344 : BitVec 32 := 32#32
  let v639 : BitVec 32 := Scalar.addi v638 c32_i32_344
  let v641 : Index := Scalar.indexCast v639
  ![v640.toNat, v641.toNat]

def k0_chk483 (v644 : IVec S16 32) (v646 : IVec S16 32) : Prop :=
  (∀ a x, ((![v644, v646] : Fin 2 → IVec S16 32) a x).toNat < S200x256.size a)
instance k0_chk483.dec : ∀ (v644 : IVec S16 32) (v646 : IVec S16 32), Decidable (k0_chk483 v644 v646) := fun v644 v646 => decidable_of_iff' _ (Iff.of_eq (k0_chk483.eq_1 v644 v646))
theorem k0_idx483_inb : ∀ (v644 : IVec S16 32) (v646 : IVec S16 32) (k0_hw483 : k0_chk483 v644 v646), ∀ a x, ((![v644, v646] : Fin 2 → IVec S16 32) a x).toNat < S200x256.size a := fun v644 v646 k0_hw483 => k0_hw483
def k0_off24 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v649 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_347 : BitVec 32 := 256#32
  let v647 : BitVec 32 := Scalar.muli v471 c256_i32_347
  let c48_i32_348 : BitVec 32 := 48#32
  let v648 : BitVec 32 := Scalar.addi v647 c48_i32_348
  let v650 : Index := Scalar.indexCast v648
  ![v649.toNat, v650.toNat]

def k0_chk484 (v653 : IVec S16 32) (v655 : IVec S16 32) : Prop :=
  (∀ a x, ((![v653, v655] : Fin 2 → IVec S16 32) a x).toNat < S200x256.size a)
instance k0_chk484.dec : ∀ (v653 : IVec S16 32) (v655 : IVec S16 32), Decidable (k0_chk484 v653 v655) := fun v653 v655 => decidable_of_iff' _ (Iff.of_eq (k0_chk484.eq_1 v653 v655))
theorem k0_idx484_inb : ∀ (v653 : IVec S16 32) (v655 : IVec S16 32) (k0_hw484 : k0_chk484 v653 v655), ∀ a x, ((![v653, v655] : Fin 2 → IVec S16 32) a x).toNat < S200x256.size a := fun v653 v655 k0_hw484 => k0_hw484
def k0_off25 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v658 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_351 : BitVec 32 := 256#32
  let v656 : BitVec 32 := Scalar.muli v471 c256_i32_351
  let c64_i32_352 : BitVec 32 := 64#32
  let v657 : BitVec 32 := Scalar.addi v656 c64_i32_352
  let v659 : Index := Scalar.indexCast v657
  ![v658.toNat, v659.toNat]

def k0_chk485 (v662 : IVec S16 32) (v664 : IVec S16 32) : Prop :=
  (∀ a x, ((![v662, v664] : Fin 2 → IVec S16 32) a x).toNat < S200x256.size a)
instance k0_chk485.dec : ∀ (v662 : IVec S16 32) (v664 : IVec S16 32), Decidable (k0_chk485 v662 v664) := fun v662 v664 => decidable_of_iff' _ (Iff.of_eq (k0_chk485.eq_1 v662 v664))
theorem k0_idx485_inb : ∀ (v662 : IVec S16 32) (v664 : IVec S16 32) (k0_hw485 : k0_chk485 v662 v664), ∀ a x, ((![v662, v664] : Fin 2 → IVec S16 32) a x).toNat < S200x256.size a := fun v662 v664 k0_hw485 => k0_hw485
def k0_off26 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v667 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_355 : BitVec 32 := 256#32
  let v665 : BitVec 32 := Scalar.muli v471 c256_i32_355
  let c80_i32_356 : BitVec 32 := 80#32
  let v666 : BitVec 32 := Scalar.addi v665 c80_i32_356
  let v668 : Index := Scalar.indexCast v666
  ![v667.toNat, v668.toNat]

def k0_chk486 (v671 : IVec S16 32) (v673 : IVec S16 32) : Prop :=
  (∀ a x, ((![v671, v673] : Fin 2 → IVec S16 32) a x).toNat < S200x256.size a)
instance k0_chk486.dec : ∀ (v671 : IVec S16 32) (v673 : IVec S16 32), Decidable (k0_chk486 v671 v673) := fun v671 v673 => decidable_of_iff' _ (Iff.of_eq (k0_chk486.eq_1 v671 v673))
theorem k0_idx486_inb : ∀ (v671 : IVec S16 32) (v673 : IVec S16 32) (k0_hw486 : k0_chk486 v671 v673), ∀ a x, ((![v671, v673] : Fin 2 → IVec S16 32) a x).toNat < S200x256.size a := fun v671 v673 k0_hw486 => k0_hw486
def k0_off27 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v676 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_359 : BitVec 32 := 256#32
  let v674 : BitVec 32 := Scalar.muli v471 c256_i32_359
  let c96_i32_360 : BitVec 32 := 96#32
  let v675 : BitVec 32 := Scalar.addi v674 c96_i32_360
  let v677 : Index := Scalar.indexCast v675
  ![v676.toNat, v677.toNat]

def k0_chk487 (v680 : IVec S16 32) (v682 : IVec S16 32) : Prop :=
  (∀ a x, ((![v680, v682] : Fin 2 → IVec S16 32) a x).toNat < S200x256.size a)
instance k0_chk487.dec : ∀ (v680 : IVec S16 32) (v682 : IVec S16 32), Decidable (k0_chk487 v680 v682) := fun v680 v682 => decidable_of_iff' _ (Iff.of_eq (k0_chk487.eq_1 v680 v682))
theorem k0_idx487_inb : ∀ (v680 : IVec S16 32) (v682 : IVec S16 32) (k0_hw487 : k0_chk487 v680 v682), ∀ a x, ((![v680, v682] : Fin 2 → IVec S16 32) a x).toNat < S200x256.size a := fun v680 v682 k0_hw487 => k0_hw487
def k0_off28 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v685 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_363 : BitVec 32 := 256#32
  let v683 : BitVec 32 := Scalar.muli v471 c256_i32_363
  let c112_i32_364 : BitVec 32 := 112#32
  let v684 : BitVec 32 := Scalar.addi v683 c112_i32_364
  let v686 : Index := Scalar.indexCast v684
  ![v685.toNat, v686.toNat]

def k0_chk488 (v689 : IVec S16 32) (v691 : IVec S16 32) : Prop :=
  (∀ a x, ((![v689, v691] : Fin 2 → IVec S16 32) a x).toNat < S200x256.size a)
instance k0_chk488.dec : ∀ (v689 : IVec S16 32) (v691 : IVec S16 32), Decidable (k0_chk488 v689 v691) := fun v689 v691 => decidable_of_iff' _ (Iff.of_eq (k0_chk488.eq_1 v689 v691))
theorem k0_idx488_inb : ∀ (v689 : IVec S16 32) (v691 : IVec S16 32) (k0_hw488 : k0_chk488 v689 v691), ∀ a x, ((![v689, v691] : Fin 2 → IVec S16 32) a x).toNat < S200x256.size a := fun v689 v691 k0_hw488 => k0_hw488
def k0_off29 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v694 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_367 : BitVec 32 := 256#32
  let v692 : BitVec 32 := Scalar.muli v471 c256_i32_367
  let c128_i32_368 : BitVec 32 := 128#32
  let v693 : BitVec 32 := Scalar.addi v692 c128_i32_368
  let v695 : Index := Scalar.indexCast v693
  ![v694.toNat, v695.toNat]

def k0_chk489 (v698 : IVec S16 32) (v700 : IVec S16 32) : Prop :=
  (∀ a x, ((![v698, v700] : Fin 2 → IVec S16 32) a x).toNat < S200x256.size a)
instance k0_chk489.dec : ∀ (v698 : IVec S16 32) (v700 : IVec S16 32), Decidable (k0_chk489 v698 v700) := fun v698 v700 => decidable_of_iff' _ (Iff.of_eq (k0_chk489.eq_1 v698 v700))
theorem k0_idx489_inb : ∀ (v698 : IVec S16 32) (v700 : IVec S16 32) (k0_hw489 : k0_chk489 v698 v700), ∀ a x, ((![v698, v700] : Fin 2 → IVec S16 32) a x).toNat < S200x256.size a := fun v698 v700 k0_hw489 => k0_hw489
def k0_off30 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v703 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_371 : BitVec 32 := 256#32
  let v701 : BitVec 32 := Scalar.muli v471 c256_i32_371
  let c144_i32_372 : BitVec 32 := 144#32
  let v702 : BitVec 32 := Scalar.addi v701 c144_i32_372
  let v704 : Index := Scalar.indexCast v702
  ![v703.toNat, v704.toNat]

def k0_chk490 (v707 : IVec S16 32) (v709 : IVec S16 32) : Prop :=
  (∀ a x, ((![v707, v709] : Fin 2 → IVec S16 32) a x).toNat < S200x256.size a)
instance k0_chk490.dec : ∀ (v707 : IVec S16 32) (v709 : IVec S16 32), Decidable (k0_chk490 v707 v709) := fun v707 v709 => decidable_of_iff' _ (Iff.of_eq (k0_chk490.eq_1 v707 v709))
theorem k0_idx490_inb : ∀ (v707 : IVec S16 32) (v709 : IVec S16 32) (k0_hw490 : k0_chk490 v707 v709), ∀ a x, ((![v707, v709] : Fin 2 → IVec S16 32) a x).toNat < S200x256.size a := fun v707 v709 k0_hw490 => k0_hw490
def k0_off31 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v712 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_375 : BitVec 32 := 256#32
  let v710 : BitVec 32 := Scalar.muli v471 c256_i32_375
  let c160_i32_376 : BitVec 32 := 160#32
  let v711 : BitVec 32 := Scalar.addi v710 c160_i32_376
  let v713 : Index := Scalar.indexCast v711
  ![v712.toNat, v713.toNat]

def k0_chk491 (v716 : IVec S16 32) (v718 : IVec S16 32) : Prop :=
  (∀ a x, ((![v716, v718] : Fin 2 → IVec S16 32) a x).toNat < S200x256.size a)
instance k0_chk491.dec : ∀ (v716 : IVec S16 32) (v718 : IVec S16 32), Decidable (k0_chk491 v716 v718) := fun v716 v718 => decidable_of_iff' _ (Iff.of_eq (k0_chk491.eq_1 v716 v718))
theorem k0_idx491_inb : ∀ (v716 : IVec S16 32) (v718 : IVec S16 32) (k0_hw491 : k0_chk491 v716 v718), ∀ a x, ((![v716, v718] : Fin 2 → IVec S16 32) a x).toNat < S200x256.size a := fun v716 v718 k0_hw491 => k0_hw491
def k0_off32 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v721 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_379 : BitVec 32 := 256#32
  let v719 : BitVec 32 := Scalar.muli v471 c256_i32_379
  let c176_i32_380 : BitVec 32 := 176#32
  let v720 : BitVec 32 := Scalar.addi v719 c176_i32_380
  let v722 : Index := Scalar.indexCast v720
  ![v721.toNat, v722.toNat]

def k0_chk492 (v725 : IVec S16 32) (v727 : IVec S16 32) : Prop :=
  (∀ a x, ((![v725, v727] : Fin 2 → IVec S16 32) a x).toNat < S200x256.size a)
instance k0_chk492.dec : ∀ (v725 : IVec S16 32) (v727 : IVec S16 32), Decidable (k0_chk492 v725 v727) := fun v725 v727 => decidable_of_iff' _ (Iff.of_eq (k0_chk492.eq_1 v725 v727))
theorem k0_idx492_inb : ∀ (v725 : IVec S16 32) (v727 : IVec S16 32) (k0_hw492 : k0_chk492 v725 v727), ∀ a x, ((![v725, v727] : Fin 2 → IVec S16 32) a x).toNat < S200x256.size a := fun v725 v727 k0_hw492 => k0_hw492
def k0_off33 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v730 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_383 : BitVec 32 := 256#32
  let v728 : BitVec 32 := Scalar.muli v471 c256_i32_383
  let c192_i32_384 : BitVec 32 := 192#32
  let v729 : BitVec 32 := Scalar.addi v728 c192_i32_384
  let v731 : Index := Scalar.indexCast v729
  ![v730.toNat, v731.toNat]

def k0_chk493 (v734 : IVec S16 32) (v736 : IVec S16 32) : Prop :=
  (∀ a x, ((![v734, v736] : Fin 2 → IVec S16 32) a x).toNat < S200x256.size a)
instance k0_chk493.dec : ∀ (v734 : IVec S16 32) (v736 : IVec S16 32), Decidable (k0_chk493 v734 v736) := fun v734 v736 => decidable_of_iff' _ (Iff.of_eq (k0_chk493.eq_1 v734 v736))
theorem k0_idx493_inb : ∀ (v734 : IVec S16 32) (v736 : IVec S16 32) (k0_hw493 : k0_chk493 v734 v736), ∀ a x, ((![v734, v736] : Fin 2 → IVec S16 32) a x).toNat < S200x256.size a := fun v734 v736 k0_hw493 => k0_hw493
def k0_off34 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v739 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_387 : BitVec 32 := 256#32
  let v737 : BitVec 32 := Scalar.muli v471 c256_i32_387
  let c208_i32_388 : BitVec 32 := 208#32
  let v738 : BitVec 32 := Scalar.addi v737 c208_i32_388
  let v740 : Index := Scalar.indexCast v738
  ![v739.toNat, v740.toNat]

def k0_chk494 (v743 : IVec S16 32) (v745 : IVec S16 32) : Prop :=
  (∀ a x, ((![v743, v745] : Fin 2 → IVec S16 32) a x).toNat < S200x256.size a)
instance k0_chk494.dec : ∀ (v743 : IVec S16 32) (v745 : IVec S16 32), Decidable (k0_chk494 v743 v745) := fun v743 v745 => decidable_of_iff' _ (Iff.of_eq (k0_chk494.eq_1 v743 v745))
theorem k0_idx494_inb : ∀ (v743 : IVec S16 32) (v745 : IVec S16 32) (k0_hw494 : k0_chk494 v743 v745), ∀ a x, ((![v743, v745] : Fin 2 → IVec S16 32) a x).toNat < S200x256.size a := fun v743 v745 k0_hw494 => k0_hw494
def k0_off35 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v748 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_391 : BitVec 32 := 256#32
  let v746 : BitVec 32 := Scalar.muli v471 c256_i32_391
  let c224_i32_392 : BitVec 32 := 224#32
  let v747 : BitVec 32 := Scalar.addi v746 c224_i32_392
  let v749 : Index := Scalar.indexCast v747
  ![v748.toNat, v749.toNat]

def k0_chk495 (v752 : IVec S16 32) (v754 : IVec S16 32) : Prop :=
  (∀ a x, ((![v752, v754] : Fin 2 → IVec S16 32) a x).toNat < S200x256.size a)
instance k0_chk495.dec : ∀ (v752 : IVec S16 32) (v754 : IVec S16 32), Decidable (k0_chk495 v752 v754) := fun v752 v754 => decidable_of_iff' _ (Iff.of_eq (k0_chk495.eq_1 v752 v754))
theorem k0_idx495_inb : ∀ (v752 : IVec S16 32) (v754 : IVec S16 32) (k0_hw495 : k0_chk495 v752 v754), ∀ a x, ((![v752, v754] : Fin 2 → IVec S16 32) a x).toNat < S200x256.size a := fun v752 v754 k0_hw495 => k0_hw495
def k0_off36 (k0_t3 : Fin k0_t3_loop.trips) : Fin 2 → Nat :=
  let c2_i32_333 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c2_i32_253 : BitVec 32 := 2#32
  let v444 : BitVec 32 := Scalar.subi v410 c2_i32_253
  let c0_i32_255 : BitVec 32 := 0#32
  let v446 : BitVec 1 := Scalar.cmpi .sgt v444 c0_i32_255
  let v447 : BitVec 32 := Scalar.extui v446
  let c0_i32_256 : BitVec 32 := 0#32
  let v448 : BitVec 1 := Scalar.cmpi .slt v444 c0_i32_256
  let v449 : BitVec 32 := Scalar.extui v448
  let v450 : BitVec 32 := Scalar.subi v447 v449
  let c2_i32_254 : BitVec 32 := 2#32
  let c0_i32_257 : BitVec 32 := 0#32
  let v451 : BitVec 1 := Scalar.cmpi .sgt c2_i32_254 c0_i32_257
  let v452 : BitVec 32 := Scalar.extui v451
  let c0_i32_258 : BitVec 32 := 0#32
  let v453 : BitVec 1 := Scalar.cmpi .slt c2_i32_254 c0_i32_258
  let v454 : BitVec 32 := Scalar.extui v453
  let v455 : BitVec 32 := Scalar.subi v452 v454
  let v456 : BitVec 1 := Scalar.cmpi .ne v450 v455
  let v457 : BitVec 32 := Scalar.remsi v444 c2_i32_254
  let c0_i32_259 : BitVec 32 := 0#32
  let v458 : BitVec 1 := Scalar.cmpi .ne v457 c0_i32_259
  let v459 : BitVec 1 := Scalar.andi v456 v458
  let v445 : BitVec 32 := Scalar.divsi v444 c2_i32_254
  let c1_i32_260 : BitVec 32 := 1#32
  let v460 : BitVec 32 := Scalar.subi v445 c1_i32_260
  let v461 : BitVec 32 := Scalar.select v459 v460 v445
  let v618 : BitVec 32 := Scalar.muli c2_i32_333 v461
  let c1_i32_334 : BitVec 32 := 1#32
  let v619 : BitVec 32 := Scalar.addi v618 c1_i32_334
  let v757 : Index := Scalar.indexCast v619
  let c2_i32_261 : BitVec 32 := 2#32
  let c0_i32_262 : BitVec 32 := 0#32
  let v462 : BitVec 1 := Scalar.cmpi .eq c2_i32_261 c0_i32_262
  let c1_i32_263 : BitVec 32 := 1#32
  let v463 : BitVec 32 := Scalar.select v462 c1_i32_263 c2_i32_261
  let v464 : BitVec 32 := Scalar.remsi v444 v463
  let c0_i32_265 : BitVec 32 := 0#32
  let v466 : BitVec 1 := Scalar.cmpi .slt v464 c0_i32_265
  let c0_i32_266 : BitVec 32 := 0#32
  let v467 : BitVec 1 := Scalar.cmpi .slt v463 c0_i32_266
  let v468 : BitVec 1 := Scalar.xori v466 v467
  let c0_i32_264 : BitVec 32 := 0#32
  let v465 : BitVec 1 := Scalar.cmpi .ne v464 c0_i32_264
  let v469 : BitVec 1 := Scalar.andi v468 v465
  let v470 : BitVec 32 := Scalar.addi v464 v463
  let v471 : BitVec 32 := Scalar.select v469 v470 v464
  let c256_i32_395 : BitVec 32 := 256#32
  let v755 : BitVec 32 := Scalar.muli v471 c256_i32_395
  let c240_i32_396 : BitVec 32 := 240#32
  let v756 : BitVec 32 := Scalar.addi v755 c240_i32_396
  let v758 : Index := Scalar.indexCast v756
  ![v757.toNat, v758.toNat]

def k0_chk496 (v761 : IVec S16 32) (v763 : IVec S16 32) : Prop :=
  (∀ a x, ((![v761, v763] : Fin 2 → IVec S16 32) a x).toNat < S200x256.size a)
instance k0_chk496.dec : ∀ (v761 : IVec S16 32) (v763 : IVec S16 32), Decidable (k0_chk496 v761 v763) := fun v761 v763 => decidable_of_iff' _ (Iff.of_eq (k0_chk496.eq_1 v761 v763))
theorem k0_idx496_inb : ∀ (v761 : IVec S16 32) (v763 : IVec S16 32) (k0_hw496 : k0_chk496 v761 v763), ∀ a x, ((![v761, v763] : Fin 2 → IVec S16 32) a x).toNat < S200x256.size a := fun v761 v763 k0_hw496 => k0_hw496
def k0_off37 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v795 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_414 : BitVec 32 := 256#32
  let v793 : BitVec 32 := Scalar.muli v790 c256_i32_414
  let c0_i32_415 : BitVec 32 := 0#32
  let v794 : BitVec 32 := Scalar.addi v793 c0_i32_415
  let v796 : Index := Scalar.indexCast v794
  ![v795.toNat, v796.toNat]

def k0_chk497 (v799 : IVec S16 32) (v801 : IVec S16 32) : Prop :=
  (∀ a x, ((![v799, v801] : Fin 2 → IVec S16 32) a x).toNat < S200x256.size a)
instance k0_chk497.dec : ∀ (v799 : IVec S16 32) (v801 : IVec S16 32), Decidable (k0_chk497 v799 v801) := fun v799 v801 => decidable_of_iff' _ (Iff.of_eq (k0_chk497.eq_1 v799 v801))
theorem k0_idx497_inb : ∀ (v799 : IVec S16 32) (v801 : IVec S16 32) (k0_hw497 : k0_chk497 v799 v801), ∀ a x, ((![v799, v801] : Fin 2 → IVec S16 32) a x).toNat < S200x256.size a := fun v799 v801 k0_hw497 => k0_hw497
def k0_off38 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v804 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_418 : BitVec 32 := 256#32
  let v802 : BitVec 32 := Scalar.muli v790 c256_i32_418
  let c16_i32_419 : BitVec 32 := 16#32
  let v803 : BitVec 32 := Scalar.addi v802 c16_i32_419
  let v805 : Index := Scalar.indexCast v803
  ![v804.toNat, v805.toNat]

def k0_chk498 (v808 : IVec S16 32) (v810 : IVec S16 32) : Prop :=
  (∀ a x, ((![v808, v810] : Fin 2 → IVec S16 32) a x).toNat < S200x256.size a)
instance k0_chk498.dec : ∀ (v808 : IVec S16 32) (v810 : IVec S16 32), Decidable (k0_chk498 v808 v810) := fun v808 v810 => decidable_of_iff' _ (Iff.of_eq (k0_chk498.eq_1 v808 v810))
theorem k0_idx498_inb : ∀ (v808 : IVec S16 32) (v810 : IVec S16 32) (k0_hw498 : k0_chk498 v808 v810), ∀ a x, ((![v808, v810] : Fin 2 → IVec S16 32) a x).toNat < S200x256.size a := fun v808 v810 k0_hw498 => k0_hw498
def k0_off39 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v813 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_422 : BitVec 32 := 256#32
  let v811 : BitVec 32 := Scalar.muli v790 c256_i32_422
  let c32_i32_423 : BitVec 32 := 32#32
  let v812 : BitVec 32 := Scalar.addi v811 c32_i32_423
  let v814 : Index := Scalar.indexCast v812
  ![v813.toNat, v814.toNat]

def k0_chk499 (v817 : IVec S16 32) (v819 : IVec S16 32) : Prop :=
  (∀ a x, ((![v817, v819] : Fin 2 → IVec S16 32) a x).toNat < S200x256.size a)
instance k0_chk499.dec : ∀ (v817 : IVec S16 32) (v819 : IVec S16 32), Decidable (k0_chk499 v817 v819) := fun v817 v819 => decidable_of_iff' _ (Iff.of_eq (k0_chk499.eq_1 v817 v819))
theorem k0_idx499_inb : ∀ (v817 : IVec S16 32) (v819 : IVec S16 32) (k0_hw499 : k0_chk499 v817 v819), ∀ a x, ((![v817, v819] : Fin 2 → IVec S16 32) a x).toNat < S200x256.size a := fun v817 v819 k0_hw499 => k0_hw499
def k0_off40 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v822 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_426 : BitVec 32 := 256#32
  let v820 : BitVec 32 := Scalar.muli v790 c256_i32_426
  let c48_i32_427 : BitVec 32 := 48#32
  let v821 : BitVec 32 := Scalar.addi v820 c48_i32_427
  let v823 : Index := Scalar.indexCast v821
  ![v822.toNat, v823.toNat]

def k0_chk500 (v826 : IVec S16 32) (v828 : IVec S16 32) : Prop :=
  (∀ a x, ((![v826, v828] : Fin 2 → IVec S16 32) a x).toNat < S200x256.size a)
instance k0_chk500.dec : ∀ (v826 : IVec S16 32) (v828 : IVec S16 32), Decidable (k0_chk500 v826 v828) := fun v826 v828 => decidable_of_iff' _ (Iff.of_eq (k0_chk500.eq_1 v826 v828))
theorem k0_idx500_inb : ∀ (v826 : IVec S16 32) (v828 : IVec S16 32) (k0_hw500 : k0_chk500 v826 v828), ∀ a x, ((![v826, v828] : Fin 2 → IVec S16 32) a x).toNat < S200x256.size a := fun v826 v828 k0_hw500 => k0_hw500
def k0_off41 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v831 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_430 : BitVec 32 := 256#32
  let v829 : BitVec 32 := Scalar.muli v790 c256_i32_430
  let c64_i32_431 : BitVec 32 := 64#32
  let v830 : BitVec 32 := Scalar.addi v829 c64_i32_431
  let v832 : Index := Scalar.indexCast v830
  ![v831.toNat, v832.toNat]

def k0_chk501 (v835 : IVec S16 32) (v837 : IVec S16 32) : Prop :=
  (∀ a x, ((![v835, v837] : Fin 2 → IVec S16 32) a x).toNat < S200x256.size a)
instance k0_chk501.dec : ∀ (v835 : IVec S16 32) (v837 : IVec S16 32), Decidable (k0_chk501 v835 v837) := fun v835 v837 => decidable_of_iff' _ (Iff.of_eq (k0_chk501.eq_1 v835 v837))
theorem k0_idx501_inb : ∀ (v835 : IVec S16 32) (v837 : IVec S16 32) (k0_hw501 : k0_chk501 v835 v837), ∀ a x, ((![v835, v837] : Fin 2 → IVec S16 32) a x).toNat < S200x256.size a := fun v835 v837 k0_hw501 => k0_hw501
def k0_off42 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v840 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_434 : BitVec 32 := 256#32
  let v838 : BitVec 32 := Scalar.muli v790 c256_i32_434
  let c80_i32_435 : BitVec 32 := 80#32
  let v839 : BitVec 32 := Scalar.addi v838 c80_i32_435
  let v841 : Index := Scalar.indexCast v839
  ![v840.toNat, v841.toNat]

def k0_chk502 (v844 : IVec S16 32) (v846 : IVec S16 32) : Prop :=
  (∀ a x, ((![v844, v846] : Fin 2 → IVec S16 32) a x).toNat < S200x256.size a)
instance k0_chk502.dec : ∀ (v844 : IVec S16 32) (v846 : IVec S16 32), Decidable (k0_chk502 v844 v846) := fun v844 v846 => decidable_of_iff' _ (Iff.of_eq (k0_chk502.eq_1 v844 v846))
theorem k0_idx502_inb : ∀ (v844 : IVec S16 32) (v846 : IVec S16 32) (k0_hw502 : k0_chk502 v844 v846), ∀ a x, ((![v844, v846] : Fin 2 → IVec S16 32) a x).toNat < S200x256.size a := fun v844 v846 k0_hw502 => k0_hw502
def k0_off43 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v849 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_438 : BitVec 32 := 256#32
  let v847 : BitVec 32 := Scalar.muli v790 c256_i32_438
  let c96_i32_439 : BitVec 32 := 96#32
  let v848 : BitVec 32 := Scalar.addi v847 c96_i32_439
  let v850 : Index := Scalar.indexCast v848
  ![v849.toNat, v850.toNat]

def k0_chk503 (v853 : IVec S16 32) (v855 : IVec S16 32) : Prop :=
  (∀ a x, ((![v853, v855] : Fin 2 → IVec S16 32) a x).toNat < S200x256.size a)
instance k0_chk503.dec : ∀ (v853 : IVec S16 32) (v855 : IVec S16 32), Decidable (k0_chk503 v853 v855) := fun v853 v855 => decidable_of_iff' _ (Iff.of_eq (k0_chk503.eq_1 v853 v855))
theorem k0_idx503_inb : ∀ (v853 : IVec S16 32) (v855 : IVec S16 32) (k0_hw503 : k0_chk503 v853 v855), ∀ a x, ((![v853, v855] : Fin 2 → IVec S16 32) a x).toNat < S200x256.size a := fun v853 v855 k0_hw503 => k0_hw503
def k0_off44 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v858 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_442 : BitVec 32 := 256#32
  let v856 : BitVec 32 := Scalar.muli v790 c256_i32_442
  let c112_i32_443 : BitVec 32 := 112#32
  let v857 : BitVec 32 := Scalar.addi v856 c112_i32_443
  let v859 : Index := Scalar.indexCast v857
  ![v858.toNat, v859.toNat]

def k0_chk504 (v862 : IVec S16 32) (v864 : IVec S16 32) : Prop :=
  (∀ a x, ((![v862, v864] : Fin 2 → IVec S16 32) a x).toNat < S200x256.size a)
instance k0_chk504.dec : ∀ (v862 : IVec S16 32) (v864 : IVec S16 32), Decidable (k0_chk504 v862 v864) := fun v862 v864 => decidable_of_iff' _ (Iff.of_eq (k0_chk504.eq_1 v862 v864))
theorem k0_idx504_inb : ∀ (v862 : IVec S16 32) (v864 : IVec S16 32) (k0_hw504 : k0_chk504 v862 v864), ∀ a x, ((![v862, v864] : Fin 2 → IVec S16 32) a x).toNat < S200x256.size a := fun v862 v864 k0_hw504 => k0_hw504
def k0_off45 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v867 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_446 : BitVec 32 := 256#32
  let v865 : BitVec 32 := Scalar.muli v790 c256_i32_446
  let c128_i32_447 : BitVec 32 := 128#32
  let v866 : BitVec 32 := Scalar.addi v865 c128_i32_447
  let v868 : Index := Scalar.indexCast v866
  ![v867.toNat, v868.toNat]

def k0_chk505 (v871 : IVec S16 32) (v873 : IVec S16 32) : Prop :=
  (∀ a x, ((![v871, v873] : Fin 2 → IVec S16 32) a x).toNat < S200x256.size a)
instance k0_chk505.dec : ∀ (v871 : IVec S16 32) (v873 : IVec S16 32), Decidable (k0_chk505 v871 v873) := fun v871 v873 => decidable_of_iff' _ (Iff.of_eq (k0_chk505.eq_1 v871 v873))
theorem k0_idx505_inb : ∀ (v871 : IVec S16 32) (v873 : IVec S16 32) (k0_hw505 : k0_chk505 v871 v873), ∀ a x, ((![v871, v873] : Fin 2 → IVec S16 32) a x).toNat < S200x256.size a := fun v871 v873 k0_hw505 => k0_hw505
def k0_off46 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v876 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_450 : BitVec 32 := 256#32
  let v874 : BitVec 32 := Scalar.muli v790 c256_i32_450
  let c144_i32_451 : BitVec 32 := 144#32
  let v875 : BitVec 32 := Scalar.addi v874 c144_i32_451
  let v877 : Index := Scalar.indexCast v875
  ![v876.toNat, v877.toNat]

def k0_chk506 (v880 : IVec S16 32) (v882 : IVec S16 32) : Prop :=
  (∀ a x, ((![v880, v882] : Fin 2 → IVec S16 32) a x).toNat < S200x256.size a)
instance k0_chk506.dec : ∀ (v880 : IVec S16 32) (v882 : IVec S16 32), Decidable (k0_chk506 v880 v882) := fun v880 v882 => decidable_of_iff' _ (Iff.of_eq (k0_chk506.eq_1 v880 v882))
theorem k0_idx506_inb : ∀ (v880 : IVec S16 32) (v882 : IVec S16 32) (k0_hw506 : k0_chk506 v880 v882), ∀ a x, ((![v880, v882] : Fin 2 → IVec S16 32) a x).toNat < S200x256.size a := fun v880 v882 k0_hw506 => k0_hw506
def k0_off47 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v885 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_454 : BitVec 32 := 256#32
  let v883 : BitVec 32 := Scalar.muli v790 c256_i32_454
  let c160_i32_455 : BitVec 32 := 160#32
  let v884 : BitVec 32 := Scalar.addi v883 c160_i32_455
  let v886 : Index := Scalar.indexCast v884
  ![v885.toNat, v886.toNat]

def k0_chk507 (v889 : IVec S16 32) (v891 : IVec S16 32) : Prop :=
  (∀ a x, ((![v889, v891] : Fin 2 → IVec S16 32) a x).toNat < S200x256.size a)
instance k0_chk507.dec : ∀ (v889 : IVec S16 32) (v891 : IVec S16 32), Decidable (k0_chk507 v889 v891) := fun v889 v891 => decidable_of_iff' _ (Iff.of_eq (k0_chk507.eq_1 v889 v891))
theorem k0_idx507_inb : ∀ (v889 : IVec S16 32) (v891 : IVec S16 32) (k0_hw507 : k0_chk507 v889 v891), ∀ a x, ((![v889, v891] : Fin 2 → IVec S16 32) a x).toNat < S200x256.size a := fun v889 v891 k0_hw507 => k0_hw507
def k0_off48 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v894 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_458 : BitVec 32 := 256#32
  let v892 : BitVec 32 := Scalar.muli v790 c256_i32_458
  let c176_i32_459 : BitVec 32 := 176#32
  let v893 : BitVec 32 := Scalar.addi v892 c176_i32_459
  let v895 : Index := Scalar.indexCast v893
  ![v894.toNat, v895.toNat]

def k0_chk508 (v898 : IVec S16 32) (v900 : IVec S16 32) : Prop :=
  (∀ a x, ((![v898, v900] : Fin 2 → IVec S16 32) a x).toNat < S200x256.size a)
instance k0_chk508.dec : ∀ (v898 : IVec S16 32) (v900 : IVec S16 32), Decidable (k0_chk508 v898 v900) := fun v898 v900 => decidable_of_iff' _ (Iff.of_eq (k0_chk508.eq_1 v898 v900))
theorem k0_idx508_inb : ∀ (v898 : IVec S16 32) (v900 : IVec S16 32) (k0_hw508 : k0_chk508 v898 v900), ∀ a x, ((![v898, v900] : Fin 2 → IVec S16 32) a x).toNat < S200x256.size a := fun v898 v900 k0_hw508 => k0_hw508
def k0_off49 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v903 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_462 : BitVec 32 := 256#32
  let v901 : BitVec 32 := Scalar.muli v790 c256_i32_462
  let c192_i32_463 : BitVec 32 := 192#32
  let v902 : BitVec 32 := Scalar.addi v901 c192_i32_463
  let v904 : Index := Scalar.indexCast v902
  ![v903.toNat, v904.toNat]

def k0_chk509 (v907 : IVec S16 32) (v909 : IVec S16 32) : Prop :=
  (∀ a x, ((![v907, v909] : Fin 2 → IVec S16 32) a x).toNat < S200x256.size a)
instance k0_chk509.dec : ∀ (v907 : IVec S16 32) (v909 : IVec S16 32), Decidable (k0_chk509 v907 v909) := fun v907 v909 => decidable_of_iff' _ (Iff.of_eq (k0_chk509.eq_1 v907 v909))
theorem k0_idx509_inb : ∀ (v907 : IVec S16 32) (v909 : IVec S16 32) (k0_hw509 : k0_chk509 v907 v909), ∀ a x, ((![v907, v909] : Fin 2 → IVec S16 32) a x).toNat < S200x256.size a := fun v907 v909 k0_hw509 => k0_hw509
def k0_off50 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v912 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_466 : BitVec 32 := 256#32
  let v910 : BitVec 32 := Scalar.muli v790 c256_i32_466
  let c208_i32_467 : BitVec 32 := 208#32
  let v911 : BitVec 32 := Scalar.addi v910 c208_i32_467
  let v913 : Index := Scalar.indexCast v911
  ![v912.toNat, v913.toNat]

def k0_chk510 (v916 : IVec S16 32) (v918 : IVec S16 32) : Prop :=
  (∀ a x, ((![v916, v918] : Fin 2 → IVec S16 32) a x).toNat < S200x256.size a)
instance k0_chk510.dec : ∀ (v916 : IVec S16 32) (v918 : IVec S16 32), Decidable (k0_chk510 v916 v918) := fun v916 v918 => decidable_of_iff' _ (Iff.of_eq (k0_chk510.eq_1 v916 v918))
theorem k0_idx510_inb : ∀ (v916 : IVec S16 32) (v918 : IVec S16 32) (k0_hw510 : k0_chk510 v916 v918), ∀ a x, ((![v916, v918] : Fin 2 → IVec S16 32) a x).toNat < S200x256.size a := fun v916 v918 k0_hw510 => k0_hw510
def k0_off51 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v921 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_470 : BitVec 32 := 256#32
  let v919 : BitVec 32 := Scalar.muli v790 c256_i32_470
  let c224_i32_471 : BitVec 32 := 224#32
  let v920 : BitVec 32 := Scalar.addi v919 c224_i32_471
  let v922 : Index := Scalar.indexCast v920
  ![v921.toNat, v922.toNat]

def k0_chk511 (v925 : IVec S16 32) (v927 : IVec S16 32) : Prop :=
  (∀ a x, ((![v925, v927] : Fin 2 → IVec S16 32) a x).toNat < S200x256.size a)
instance k0_chk511.dec : ∀ (v925 : IVec S16 32) (v927 : IVec S16 32), Decidable (k0_chk511 v925 v927) := fun v925 v927 => decidable_of_iff' _ (Iff.of_eq (k0_chk511.eq_1 v925 v927))
theorem k0_idx511_inb : ∀ (v925 : IVec S16 32) (v927 : IVec S16 32) (k0_hw511 : k0_chk511 v925 v927), ∀ a x, ((![v925, v927] : Fin 2 → IVec S16 32) a x).toNat < S200x256.size a := fun v925 v927 k0_hw511 => k0_hw511
def k0_off52 (k0_t3 : Fin k0_t3_loop.trips) : Fin 2 → Nat :=
  let c2_i32_412 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v791 : BitVec 32 := Scalar.muli c2_i32_412 v780
  let c0_i32_413 : BitVec 32 := 0#32
  let v792 : BitVec 32 := Scalar.addi v791 c0_i32_413
  let v930 : Index := Scalar.indexCast v792
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_474 : BitVec 32 := 256#32
  let v928 : BitVec 32 := Scalar.muli v790 c256_i32_474
  let c240_i32_475 : BitVec 32 := 240#32
  let v929 : BitVec 32 := Scalar.addi v928 c240_i32_475
  let v931 : Index := Scalar.indexCast v929
  ![v930.toNat, v931.toNat]

def k0_chk512 (v934 : IVec S16 32) (v936 : IVec S16 32) : Prop :=
  (∀ a x, ((![v934, v936] : Fin 2 → IVec S16 32) a x).toNat < S200x256.size a)
instance k0_chk512.dec : ∀ (v934 : IVec S16 32) (v936 : IVec S16 32), Decidable (k0_chk512 v934 v936) := fun v934 v936 => decidable_of_iff' _ (Iff.of_eq (k0_chk512.eq_1 v934 v936))
theorem k0_idx512_inb : ∀ (v934 : IVec S16 32) (v936 : IVec S16 32) (k0_hw512 : k0_chk512 v934 v936), ∀ a x, ((![v934, v936] : Fin 2 → IVec S16 32) a x).toNat < S200x256.size a := fun v934 v936 k0_hw512 => k0_hw512
def k0_off53 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v941 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_480 : BitVec 32 := 256#32
  let v939 : BitVec 32 := Scalar.muli v790 c256_i32_480
  let c0_i32_481 : BitVec 32 := 0#32
  let v940 : BitVec 32 := Scalar.addi v939 c0_i32_481
  let v942 : Index := Scalar.indexCast v940
  ![v941.toNat, v942.toNat]

def k0_chk513 (v945 : IVec S16 32) (v947 : IVec S16 32) : Prop :=
  (∀ a x, ((![v945, v947] : Fin 2 → IVec S16 32) a x).toNat < S200x256.size a)
instance k0_chk513.dec : ∀ (v945 : IVec S16 32) (v947 : IVec S16 32), Decidable (k0_chk513 v945 v947) := fun v945 v947 => decidable_of_iff' _ (Iff.of_eq (k0_chk513.eq_1 v945 v947))
theorem k0_idx513_inb : ∀ (v945 : IVec S16 32) (v947 : IVec S16 32) (k0_hw513 : k0_chk513 v945 v947), ∀ a x, ((![v945, v947] : Fin 2 → IVec S16 32) a x).toNat < S200x256.size a := fun v945 v947 k0_hw513 => k0_hw513
def k0_off54 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v950 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_484 : BitVec 32 := 256#32
  let v948 : BitVec 32 := Scalar.muli v790 c256_i32_484
  let c16_i32_485 : BitVec 32 := 16#32
  let v949 : BitVec 32 := Scalar.addi v948 c16_i32_485
  let v951 : Index := Scalar.indexCast v949
  ![v950.toNat, v951.toNat]

def k0_chk514 (v954 : IVec S16 32) (v956 : IVec S16 32) : Prop :=
  (∀ a x, ((![v954, v956] : Fin 2 → IVec S16 32) a x).toNat < S200x256.size a)
instance k0_chk514.dec : ∀ (v954 : IVec S16 32) (v956 : IVec S16 32), Decidable (k0_chk514 v954 v956) := fun v954 v956 => decidable_of_iff' _ (Iff.of_eq (k0_chk514.eq_1 v954 v956))
theorem k0_idx514_inb : ∀ (v954 : IVec S16 32) (v956 : IVec S16 32) (k0_hw514 : k0_chk514 v954 v956), ∀ a x, ((![v954, v956] : Fin 2 → IVec S16 32) a x).toNat < S200x256.size a := fun v954 v956 k0_hw514 => k0_hw514
def k0_off55 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v959 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_488 : BitVec 32 := 256#32
  let v957 : BitVec 32 := Scalar.muli v790 c256_i32_488
  let c32_i32_489 : BitVec 32 := 32#32
  let v958 : BitVec 32 := Scalar.addi v957 c32_i32_489
  let v960 : Index := Scalar.indexCast v958
  ![v959.toNat, v960.toNat]

def k0_chk515 (v963 : IVec S16 32) (v965 : IVec S16 32) : Prop :=
  (∀ a x, ((![v963, v965] : Fin 2 → IVec S16 32) a x).toNat < S200x256.size a)
instance k0_chk515.dec : ∀ (v963 : IVec S16 32) (v965 : IVec S16 32), Decidable (k0_chk515 v963 v965) := fun v963 v965 => decidable_of_iff' _ (Iff.of_eq (k0_chk515.eq_1 v963 v965))
theorem k0_idx515_inb : ∀ (v963 : IVec S16 32) (v965 : IVec S16 32) (k0_hw515 : k0_chk515 v963 v965), ∀ a x, ((![v963, v965] : Fin 2 → IVec S16 32) a x).toNat < S200x256.size a := fun v963 v965 k0_hw515 => k0_hw515
def k0_off56 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v968 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_492 : BitVec 32 := 256#32
  let v966 : BitVec 32 := Scalar.muli v790 c256_i32_492
  let c48_i32_493 : BitVec 32 := 48#32
  let v967 : BitVec 32 := Scalar.addi v966 c48_i32_493
  let v969 : Index := Scalar.indexCast v967
  ![v968.toNat, v969.toNat]

def k0_chk516 (v972 : IVec S16 32) (v974 : IVec S16 32) : Prop :=
  (∀ a x, ((![v972, v974] : Fin 2 → IVec S16 32) a x).toNat < S200x256.size a)
instance k0_chk516.dec : ∀ (v972 : IVec S16 32) (v974 : IVec S16 32), Decidable (k0_chk516 v972 v974) := fun v972 v974 => decidable_of_iff' _ (Iff.of_eq (k0_chk516.eq_1 v972 v974))
theorem k0_idx516_inb : ∀ (v972 : IVec S16 32) (v974 : IVec S16 32) (k0_hw516 : k0_chk516 v972 v974), ∀ a x, ((![v972, v974] : Fin 2 → IVec S16 32) a x).toNat < S200x256.size a := fun v972 v974 k0_hw516 => k0_hw516
def k0_off57 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v977 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_496 : BitVec 32 := 256#32
  let v975 : BitVec 32 := Scalar.muli v790 c256_i32_496
  let c64_i32_497 : BitVec 32 := 64#32
  let v976 : BitVec 32 := Scalar.addi v975 c64_i32_497
  let v978 : Index := Scalar.indexCast v976
  ![v977.toNat, v978.toNat]

def k0_chk517 (v981 : IVec S16 32) (v983 : IVec S16 32) : Prop :=
  (∀ a x, ((![v981, v983] : Fin 2 → IVec S16 32) a x).toNat < S200x256.size a)
instance k0_chk517.dec : ∀ (v981 : IVec S16 32) (v983 : IVec S16 32), Decidable (k0_chk517 v981 v983) := fun v981 v983 => decidable_of_iff' _ (Iff.of_eq (k0_chk517.eq_1 v981 v983))
theorem k0_idx517_inb : ∀ (v981 : IVec S16 32) (v983 : IVec S16 32) (k0_hw517 : k0_chk517 v981 v983), ∀ a x, ((![v981, v983] : Fin 2 → IVec S16 32) a x).toNat < S200x256.size a := fun v981 v983 k0_hw517 => k0_hw517
def k0_off58 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v986 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_500 : BitVec 32 := 256#32
  let v984 : BitVec 32 := Scalar.muli v790 c256_i32_500
  let c80_i32_501 : BitVec 32 := 80#32
  let v985 : BitVec 32 := Scalar.addi v984 c80_i32_501
  let v987 : Index := Scalar.indexCast v985
  ![v986.toNat, v987.toNat]

def k0_chk518 (v990 : IVec S16 32) (v992 : IVec S16 32) : Prop :=
  (∀ a x, ((![v990, v992] : Fin 2 → IVec S16 32) a x).toNat < S200x256.size a)
instance k0_chk518.dec : ∀ (v990 : IVec S16 32) (v992 : IVec S16 32), Decidable (k0_chk518 v990 v992) := fun v990 v992 => decidable_of_iff' _ (Iff.of_eq (k0_chk518.eq_1 v990 v992))
theorem k0_idx518_inb : ∀ (v990 : IVec S16 32) (v992 : IVec S16 32) (k0_hw518 : k0_chk518 v990 v992), ∀ a x, ((![v990, v992] : Fin 2 → IVec S16 32) a x).toNat < S200x256.size a := fun v990 v992 k0_hw518 => k0_hw518
def k0_off59 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v995 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_504 : BitVec 32 := 256#32
  let v993 : BitVec 32 := Scalar.muli v790 c256_i32_504
  let c96_i32_505 : BitVec 32 := 96#32
  let v994 : BitVec 32 := Scalar.addi v993 c96_i32_505
  let v996 : Index := Scalar.indexCast v994
  ![v995.toNat, v996.toNat]

def k0_chk519 (v999 : IVec S16 32) (v1001 : IVec S16 32) : Prop :=
  (∀ a x, ((![v999, v1001] : Fin 2 → IVec S16 32) a x).toNat < S200x256.size a)
instance k0_chk519.dec : ∀ (v999 : IVec S16 32) (v1001 : IVec S16 32), Decidable (k0_chk519 v999 v1001) := fun v999 v1001 => decidable_of_iff' _ (Iff.of_eq (k0_chk519.eq_1 v999 v1001))
theorem k0_idx519_inb : ∀ (v999 : IVec S16 32) (v1001 : IVec S16 32) (k0_hw519 : k0_chk519 v999 v1001), ∀ a x, ((![v999, v1001] : Fin 2 → IVec S16 32) a x).toNat < S200x256.size a := fun v999 v1001 k0_hw519 => k0_hw519
def k0_off60 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1004 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_508 : BitVec 32 := 256#32
  let v1002 : BitVec 32 := Scalar.muli v790 c256_i32_508
  let c112_i32_509 : BitVec 32 := 112#32
  let v1003 : BitVec 32 := Scalar.addi v1002 c112_i32_509
  let v1005 : Index := Scalar.indexCast v1003
  ![v1004.toNat, v1005.toNat]

def k0_chk520 (v1008 : IVec S16 32) (v1010 : IVec S16 32) : Prop :=
  (∀ a x, ((![v1008, v1010] : Fin 2 → IVec S16 32) a x).toNat < S200x256.size a)
instance k0_chk520.dec : ∀ (v1008 : IVec S16 32) (v1010 : IVec S16 32), Decidable (k0_chk520 v1008 v1010) := fun v1008 v1010 => decidable_of_iff' _ (Iff.of_eq (k0_chk520.eq_1 v1008 v1010))
theorem k0_idx520_inb : ∀ (v1008 : IVec S16 32) (v1010 : IVec S16 32) (k0_hw520 : k0_chk520 v1008 v1010), ∀ a x, ((![v1008, v1010] : Fin 2 → IVec S16 32) a x).toNat < S200x256.size a := fun v1008 v1010 k0_hw520 => k0_hw520
def k0_off61 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1013 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_512 : BitVec 32 := 256#32
  let v1011 : BitVec 32 := Scalar.muli v790 c256_i32_512
  let c128_i32_513 : BitVec 32 := 128#32
  let v1012 : BitVec 32 := Scalar.addi v1011 c128_i32_513
  let v1014 : Index := Scalar.indexCast v1012
  ![v1013.toNat, v1014.toNat]

def k0_chk521 (v1017 : IVec S16 32) (v1019 : IVec S16 32) : Prop :=
  (∀ a x, ((![v1017, v1019] : Fin 2 → IVec S16 32) a x).toNat < S200x256.size a)
instance k0_chk521.dec : ∀ (v1017 : IVec S16 32) (v1019 : IVec S16 32), Decidable (k0_chk521 v1017 v1019) := fun v1017 v1019 => decidable_of_iff' _ (Iff.of_eq (k0_chk521.eq_1 v1017 v1019))
theorem k0_idx521_inb : ∀ (v1017 : IVec S16 32) (v1019 : IVec S16 32) (k0_hw521 : k0_chk521 v1017 v1019), ∀ a x, ((![v1017, v1019] : Fin 2 → IVec S16 32) a x).toNat < S200x256.size a := fun v1017 v1019 k0_hw521 => k0_hw521
def k0_off62 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1022 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_516 : BitVec 32 := 256#32
  let v1020 : BitVec 32 := Scalar.muli v790 c256_i32_516
  let c144_i32_517 : BitVec 32 := 144#32
  let v1021 : BitVec 32 := Scalar.addi v1020 c144_i32_517
  let v1023 : Index := Scalar.indexCast v1021
  ![v1022.toNat, v1023.toNat]

def k0_chk522 (v1026 : IVec S16 32) (v1028 : IVec S16 32) : Prop :=
  (∀ a x, ((![v1026, v1028] : Fin 2 → IVec S16 32) a x).toNat < S200x256.size a)
instance k0_chk522.dec : ∀ (v1026 : IVec S16 32) (v1028 : IVec S16 32), Decidable (k0_chk522 v1026 v1028) := fun v1026 v1028 => decidable_of_iff' _ (Iff.of_eq (k0_chk522.eq_1 v1026 v1028))
theorem k0_idx522_inb : ∀ (v1026 : IVec S16 32) (v1028 : IVec S16 32) (k0_hw522 : k0_chk522 v1026 v1028), ∀ a x, ((![v1026, v1028] : Fin 2 → IVec S16 32) a x).toNat < S200x256.size a := fun v1026 v1028 k0_hw522 => k0_hw522
def k0_off63 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1031 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_520 : BitVec 32 := 256#32
  let v1029 : BitVec 32 := Scalar.muli v790 c256_i32_520
  let c160_i32_521 : BitVec 32 := 160#32
  let v1030 : BitVec 32 := Scalar.addi v1029 c160_i32_521
  let v1032 : Index := Scalar.indexCast v1030
  ![v1031.toNat, v1032.toNat]

def k0_chk523 (v1035 : IVec S16 32) (v1037 : IVec S16 32) : Prop :=
  (∀ a x, ((![v1035, v1037] : Fin 2 → IVec S16 32) a x).toNat < S200x256.size a)
instance k0_chk523.dec : ∀ (v1035 : IVec S16 32) (v1037 : IVec S16 32), Decidable (k0_chk523 v1035 v1037) := fun v1035 v1037 => decidable_of_iff' _ (Iff.of_eq (k0_chk523.eq_1 v1035 v1037))
theorem k0_idx523_inb : ∀ (v1035 : IVec S16 32) (v1037 : IVec S16 32) (k0_hw523 : k0_chk523 v1035 v1037), ∀ a x, ((![v1035, v1037] : Fin 2 → IVec S16 32) a x).toNat < S200x256.size a := fun v1035 v1037 k0_hw523 => k0_hw523
def k0_off64 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1040 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_524 : BitVec 32 := 256#32
  let v1038 : BitVec 32 := Scalar.muli v790 c256_i32_524
  let c176_i32_525 : BitVec 32 := 176#32
  let v1039 : BitVec 32 := Scalar.addi v1038 c176_i32_525
  let v1041 : Index := Scalar.indexCast v1039
  ![v1040.toNat, v1041.toNat]

def k0_chk524 (v1044 : IVec S16 32) (v1046 : IVec S16 32) : Prop :=
  (∀ a x, ((![v1044, v1046] : Fin 2 → IVec S16 32) a x).toNat < S200x256.size a)
instance k0_chk524.dec : ∀ (v1044 : IVec S16 32) (v1046 : IVec S16 32), Decidable (k0_chk524 v1044 v1046) := fun v1044 v1046 => decidable_of_iff' _ (Iff.of_eq (k0_chk524.eq_1 v1044 v1046))
theorem k0_idx524_inb : ∀ (v1044 : IVec S16 32) (v1046 : IVec S16 32) (k0_hw524 : k0_chk524 v1044 v1046), ∀ a x, ((![v1044, v1046] : Fin 2 → IVec S16 32) a x).toNat < S200x256.size a := fun v1044 v1046 k0_hw524 => k0_hw524
def k0_off65 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1049 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_528 : BitVec 32 := 256#32
  let v1047 : BitVec 32 := Scalar.muli v790 c256_i32_528
  let c192_i32_529 : BitVec 32 := 192#32
  let v1048 : BitVec 32 := Scalar.addi v1047 c192_i32_529
  let v1050 : Index := Scalar.indexCast v1048
  ![v1049.toNat, v1050.toNat]

def k0_chk525 (v1053 : IVec S16 32) (v1055 : IVec S16 32) : Prop :=
  (∀ a x, ((![v1053, v1055] : Fin 2 → IVec S16 32) a x).toNat < S200x256.size a)
instance k0_chk525.dec : ∀ (v1053 : IVec S16 32) (v1055 : IVec S16 32), Decidable (k0_chk525 v1053 v1055) := fun v1053 v1055 => decidable_of_iff' _ (Iff.of_eq (k0_chk525.eq_1 v1053 v1055))
theorem k0_idx525_inb : ∀ (v1053 : IVec S16 32) (v1055 : IVec S16 32) (k0_hw525 : k0_chk525 v1053 v1055), ∀ a x, ((![v1053, v1055] : Fin 2 → IVec S16 32) a x).toNat < S200x256.size a := fun v1053 v1055 k0_hw525 => k0_hw525
def k0_off66 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1058 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_532 : BitVec 32 := 256#32
  let v1056 : BitVec 32 := Scalar.muli v790 c256_i32_532
  let c208_i32_533 : BitVec 32 := 208#32
  let v1057 : BitVec 32 := Scalar.addi v1056 c208_i32_533
  let v1059 : Index := Scalar.indexCast v1057
  ![v1058.toNat, v1059.toNat]

def k0_chk526 (v1062 : IVec S16 32) (v1064 : IVec S16 32) : Prop :=
  (∀ a x, ((![v1062, v1064] : Fin 2 → IVec S16 32) a x).toNat < S200x256.size a)
instance k0_chk526.dec : ∀ (v1062 : IVec S16 32) (v1064 : IVec S16 32), Decidable (k0_chk526 v1062 v1064) := fun v1062 v1064 => decidable_of_iff' _ (Iff.of_eq (k0_chk526.eq_1 v1062 v1064))
theorem k0_idx526_inb : ∀ (v1062 : IVec S16 32) (v1064 : IVec S16 32) (k0_hw526 : k0_chk526 v1062 v1064), ∀ a x, ((![v1062, v1064] : Fin 2 → IVec S16 32) a x).toNat < S200x256.size a := fun v1062 v1064 k0_hw526 => k0_hw526
def k0_off67 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1067 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_536 : BitVec 32 := 256#32
  let v1065 : BitVec 32 := Scalar.muli v790 c256_i32_536
  let c224_i32_537 : BitVec 32 := 224#32
  let v1066 : BitVec 32 := Scalar.addi v1065 c224_i32_537
  let v1068 : Index := Scalar.indexCast v1066
  ![v1067.toNat, v1068.toNat]

def k0_chk527 (v1071 : IVec S16 32) (v1073 : IVec S16 32) : Prop :=
  (∀ a x, ((![v1071, v1073] : Fin 2 → IVec S16 32) a x).toNat < S200x256.size a)
instance k0_chk527.dec : ∀ (v1071 : IVec S16 32) (v1073 : IVec S16 32), Decidable (k0_chk527 v1071 v1073) := fun v1071 v1073 => decidable_of_iff' _ (Iff.of_eq (k0_chk527.eq_1 v1071 v1073))
theorem k0_idx527_inb : ∀ (v1071 : IVec S16 32) (v1073 : IVec S16 32) (k0_hw527 : k0_chk527 v1071 v1073), ∀ a x, ((![v1071, v1073] : Fin 2 → IVec S16 32) a x).toNat < S200x256.size a := fun v1071 v1073 k0_hw527 => k0_hw527
def k0_off68 (k0_t3 : Fin k0_t3_loop.trips) : Fin 2 → Nat :=
  let c2_i32_478 : BitVec 32 := 2#32
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_400 : BitVec 32 := 0#32
  let v765 : BitVec 1 := Scalar.cmpi .sgt v410 c0_i32_400
  let v766 : BitVec 32 := Scalar.extui v765
  let c0_i32_401 : BitVec 32 := 0#32
  let v767 : BitVec 1 := Scalar.cmpi .slt v410 c0_i32_401
  let v768 : BitVec 32 := Scalar.extui v767
  let v769 : BitVec 32 := Scalar.subi v766 v768
  let c2_i32_399 : BitVec 32 := 2#32
  let c0_i32_402 : BitVec 32 := 0#32
  let v770 : BitVec 1 := Scalar.cmpi .sgt c2_i32_399 c0_i32_402
  let v771 : BitVec 32 := Scalar.extui v770
  let c0_i32_403 : BitVec 32 := 0#32
  let v772 : BitVec 1 := Scalar.cmpi .slt c2_i32_399 c0_i32_403
  let v773 : BitVec 32 := Scalar.extui v772
  let v774 : BitVec 32 := Scalar.subi v771 v773
  let v775 : BitVec 1 := Scalar.cmpi .ne v769 v774
  let v776 : BitVec 32 := Scalar.remsi v410 c2_i32_399
  let c0_i32_404 : BitVec 32 := 0#32
  let v777 : BitVec 1 := Scalar.cmpi .ne v776 c0_i32_404
  let v778 : BitVec 1 := Scalar.andi v775 v777
  let v764 : BitVec 32 := Scalar.divsi v410 c2_i32_399
  let c1_i32_405 : BitVec 32 := 1#32
  let v779 : BitVec 32 := Scalar.subi v764 c1_i32_405
  let v780 : BitVec 32 := Scalar.select v778 v779 v764
  let v937 : BitVec 32 := Scalar.muli c2_i32_478 v780
  let c1_i32_479 : BitVec 32 := 1#32
  let v938 : BitVec 32 := Scalar.addi v937 c1_i32_479
  let v1076 : Index := Scalar.indexCast v938
  let c2_i32_406 : BitVec 32 := 2#32
  let c0_i32_407 : BitVec 32 := 0#32
  let v781 : BitVec 1 := Scalar.cmpi .eq c2_i32_406 c0_i32_407
  let c1_i32_408 : BitVec 32 := 1#32
  let v782 : BitVec 32 := Scalar.select v781 c1_i32_408 c2_i32_406
  let v783 : BitVec 32 := Scalar.remsi v410 v782
  let c0_i32_410 : BitVec 32 := 0#32
  let v785 : BitVec 1 := Scalar.cmpi .slt v783 c0_i32_410
  let c0_i32_411 : BitVec 32 := 0#32
  let v786 : BitVec 1 := Scalar.cmpi .slt v782 c0_i32_411
  let v787 : BitVec 1 := Scalar.xori v785 v786
  let c0_i32_409 : BitVec 32 := 0#32
  let v784 : BitVec 1 := Scalar.cmpi .ne v783 c0_i32_409
  let v788 : BitVec 1 := Scalar.andi v787 v784
  let v789 : BitVec 32 := Scalar.addi v783 v782
  let v790 : BitVec 32 := Scalar.select v788 v789 v783
  let c256_i32_540 : BitVec 32 := 256#32
  let v1074 : BitVec 32 := Scalar.muli v790 c256_i32_540
  let c240_i32_541 : BitVec 32 := 240#32
  let v1075 : BitVec 32 := Scalar.addi v1074 c240_i32_541
  let v1077 : Index := Scalar.indexCast v1075
  ![v1076.toNat, v1077.toNat]

def k0_chk528 (v1080 : IVec S16 32) (v1082 : IVec S16 32) : Prop :=
  (∀ a x, ((![v1080, v1082] : Fin 2 → IVec S16 32) a x).toNat < S200x256.size a)
instance k0_chk528.dec : ∀ (v1080 : IVec S16 32) (v1082 : IVec S16 32), Decidable (k0_chk528 v1080 v1082) := fun v1080 v1082 => decidable_of_iff' _ (Iff.of_eq (k0_chk528.eq_1 v1080 v1082))
theorem k0_idx528_inb : ∀ (v1080 : IVec S16 32) (v1082 : IVec S16 32) (k0_hw528 : k0_chk528 v1080 v1082), ∀ a x, ((![v1080, v1082] : Fin 2 → IVec S16 32) a x).toNat < S200x256.size a := fun v1080 v1082 k0_hw528 => k0_hw528
def k0_off69 (i : grid0.Coords) (k0_t3 : Fin k0_t3_loop.trips) : Fin 2 → Nat :=
  let c2_i32_236 : BitVec 32 := 2#32
  let c1_i32_228 : BitVec 32 := 1#32
  let c1_i32_229 : BitVec 32 := 1#32
  let arg10 : BitVec 32 := Scf.iv c1_i32_228 c1_i32_229 k0_t3
  let v409 : BitVec 32 := Scalar.muli c2_i32_236 arg10
  let c0_i32_237 : BitVec 32 := 0#32
  let v410 : BitVec 32 := Scalar.addi v409 c0_i32_237
  let c0_i32_545 : BitVec 32 := 0#32
  let v1084 : BitVec 1 := Scalar.cmpi .sgt v410 c0_i32_545
  let v1085 : BitVec 32 := Scalar.extui v1084
  let c0_i32_546 : BitVec 32 := 0#32
  let v1086 : BitVec 1 := Scalar.cmpi .slt v410 c0_i32_546
  let v1087 : BitVec 32 := Scalar.extui v1086
  let v1088 : BitVec 32 := Scalar.subi v1085 v1087
  let c2_i32_544 : BitVec 32 := 2#32
  let c0_i32_547 : BitVec 32 := 0#32
  let v1089 : BitVec 1 := Scalar.cmpi .sgt c2_i32_544 c0_i32_547
  let v1090 : BitVec 32 := Scalar.extui v1089
  let c0_i32_548 : BitVec 32 := 0#32
  let v1091 : BitVec 1 := Scalar.cmpi .slt c2_i32_544 c0_i32_548
  let v1092 : BitVec 32 := Scalar.extui v1091
  let v1093 : BitVec 32 := Scalar.subi v1090 v1092
  let v1094 : BitVec 1 := Scalar.cmpi .ne v1088 v1093
  let v1095 : BitVec 32 := Scalar.remsi v410 c2_i32_544
  let c0_i32_549 : BitVec 32 := 0#32
  let v1096 : BitVec 1 := Scalar.cmpi .ne v1095 c0_i32_549
  let v1097 : BitVec 1 := Scalar.andi v1094 v1096
  let v1083 : BitVec 32 := Scalar.divsi v410 c2_i32_544
  let c1_i32_550 : BitVec 32 := 1#32
  let v1098 : BitVec 32 := Scalar.subi v1083 c1_i32_550
  let v1099 : BitVec 32 := Scalar.select v1097 v1098 v1083
  let c200_i32_557 : BitVec 32 := 200#32
  let v1110 : BitVec 32 := Scalar.muli v1099 c200_i32_557
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c2_i32_551 : BitVec 32 := 2#32
  let c0_i32_552 : BitVec 32 := 0#32
  let v1100 : BitVec 1 := Scalar.cmpi .eq c2_i32_551 c0_i32_552
  let c1_i32_553 : BitVec 32 := 1#32
  let v1101 : BitVec 32 := Scalar.select v1100 c1_i32_553 c2_i32_551
  let v1102 : BitVec 32 := Scalar.remsi v410 v1101
  let c0_i32_555 : BitVec 32 := 0#32
  let v1104 : BitVec 1 := Scalar.cmpi .slt v1102 c0_i32_555
  let c0_i32_556 : BitVec 32 := 0#32
  let v1105 : BitVec 1 := Scalar.cmpi .slt v1101 c0_i32_556
  let v1106 : BitVec 1 := Scalar.xori v1104 v1105
  let c0_i32_554 : BitVec 32 := 0#32
  let v1103 : BitVec 1 := Scalar.cmpi .ne v1102 c0_i32_554
  let v1107 : BitVec 1 := Scalar.andi v1106 v1103
  let v1108 : BitVec 32 := Scalar.addi v1102 v1101
  let v1109 : BitVec 32 := Scalar.select v1107 v1108 v1102
  let c256_i32_558 : BitVec 32 := 256#32
  let v1111 : BitVec 32 := Scalar.muli v1109 c256_i32_558
  let v1112 : BitVec 32 := Scalar.addi v5 v1111
  ![v1110.toNat, v1112.toNat]
def k0_off70 (i : grid0.Coords) (k0_t3 : Fin k0_t3_loop.trips) : Fin 2 → Nat :=
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_561 : BitVec 32 := 2#32
  let v1117 : BitVec 32 := Scalar.subi v1116 c2_i32_561
  let c0_i32_563 : BitVec 32 := 0#32
  let v1119 : BitVec 1 := Scalar.cmpi .sgt v1117 c0_i32_563
  let v1120 : BitVec 32 := Scalar.extui v1119
  let c0_i32_564 : BitVec 32 := 0#32
  let v1121 : BitVec 1 := Scalar.cmpi .slt v1117 c0_i32_564
  let v1122 : BitVec 32 := Scalar.extui v1121
  let v1123 : BitVec 32 := Scalar.subi v1120 v1122
  let c2_i32_562 : BitVec 32 := 2#32
  let c0_i32_565 : BitVec 32 := 0#32
  let v1124 : BitVec 1 := Scalar.cmpi .sgt c2_i32_562 c0_i32_565
  let v1125 : BitVec 32 := Scalar.extui v1124
  let c0_i32_566 : BitVec 32 := 0#32
  let v1126 : BitVec 1 := Scalar.cmpi .slt c2_i32_562 c0_i32_566
  let v1127 : BitVec 32 := Scalar.extui v1126
  let v1128 : BitVec 32 := Scalar.subi v1125 v1127
  let v1129 : BitVec 1 := Scalar.cmpi .ne v1123 v1128
  let v1130 : BitVec 32 := Scalar.remsi v1117 c2_i32_562
  let c0_i32_567 : BitVec 32 := 0#32
  let v1131 : BitVec 1 := Scalar.cmpi .ne v1130 c0_i32_567
  let v1132 : BitVec 1 := Scalar.andi v1129 v1131
  let v1118 : BitVec 32 := Scalar.divsi v1117 c2_i32_562
  let c1_i32_568 : BitVec 32 := 1#32
  let v1133 : BitVec 32 := Scalar.subi v1118 c1_i32_568
  let v1134 : BitVec 32 := Scalar.select v1132 v1133 v1118
  let c200_i32_575 : BitVec 32 := 200#32
  let v1145 : BitVec 32 := Scalar.muli v1134 c200_i32_575
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c2_i32_569 : BitVec 32 := 2#32
  let c0_i32_570 : BitVec 32 := 0#32
  let v1135 : BitVec 1 := Scalar.cmpi .eq c2_i32_569 c0_i32_570
  let c1_i32_571 : BitVec 32 := 1#32
  let v1136 : BitVec 32 := Scalar.select v1135 c1_i32_571 c2_i32_569
  let v1137 : BitVec 32 := Scalar.remsi v1117 v1136
  let c0_i32_573 : BitVec 32 := 0#32
  let v1139 : BitVec 1 := Scalar.cmpi .slt v1137 c0_i32_573
  let c0_i32_574 : BitVec 32 := 0#32
  let v1140 : BitVec 1 := Scalar.cmpi .slt v1136 c0_i32_574
  let v1141 : BitVec 1 := Scalar.xori v1139 v1140
  let c0_i32_572 : BitVec 32 := 0#32
  let v1138 : BitVec 1 := Scalar.cmpi .ne v1137 c0_i32_572
  let v1142 : BitVec 1 := Scalar.andi v1141 v1138
  let v1143 : BitVec 32 := Scalar.addi v1137 v1136
  let v1144 : BitVec 32 := Scalar.select v1142 v1143 v1137
  let c256_i32_576 : BitVec 32 := 256#32
  let v1146 : BitVec 32 := Scalar.muli v1144 c256_i32_576
  let v1147 : BitVec 32 := Scalar.addi v5 v1146
  ![v1145.toNat, v1147.toNat]
def k0_off71 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1182 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_593 : BitVec 32 := 256#32
  let v1180 : BitVec 32 := Scalar.muli v1177 c256_i32_593
  let c0_i32_594 : BitVec 32 := 0#32
  let v1181 : BitVec 32 := Scalar.addi v1180 c0_i32_594
  let v1183 : Index := Scalar.indexCast v1181
  ![v1182.toNat, v1183.toNat]

def k0_chk529 (v1186 : IVec S16 32) (v1188 : IVec S16 32) : Prop :=
  (∀ a x, ((![v1186, v1188] : Fin 2 → IVec S16 32) a x).toNat < S200x256.size a)
instance k0_chk529.dec : ∀ (v1186 : IVec S16 32) (v1188 : IVec S16 32), Decidable (k0_chk529 v1186 v1188) := fun v1186 v1188 => decidable_of_iff' _ (Iff.of_eq (k0_chk529.eq_1 v1186 v1188))
theorem k0_idx529_inb : ∀ (v1186 : IVec S16 32) (v1188 : IVec S16 32) (k0_hw529 : k0_chk529 v1186 v1188), ∀ a x, ((![v1186, v1188] : Fin 2 → IVec S16 32) a x).toNat < S200x256.size a := fun v1186 v1188 k0_hw529 => k0_hw529
def k0_off72 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1191 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_597 : BitVec 32 := 256#32
  let v1189 : BitVec 32 := Scalar.muli v1177 c256_i32_597
  let c16_i32_598 : BitVec 32 := 16#32
  let v1190 : BitVec 32 := Scalar.addi v1189 c16_i32_598
  let v1192 : Index := Scalar.indexCast v1190
  ![v1191.toNat, v1192.toNat]

def k0_chk530 (v1195 : IVec S16 32) (v1197 : IVec S16 32) : Prop :=
  (∀ a x, ((![v1195, v1197] : Fin 2 → IVec S16 32) a x).toNat < S200x256.size a)
instance k0_chk530.dec : ∀ (v1195 : IVec S16 32) (v1197 : IVec S16 32), Decidable (k0_chk530 v1195 v1197) := fun v1195 v1197 => decidable_of_iff' _ (Iff.of_eq (k0_chk530.eq_1 v1195 v1197))
theorem k0_idx530_inb : ∀ (v1195 : IVec S16 32) (v1197 : IVec S16 32) (k0_hw530 : k0_chk530 v1195 v1197), ∀ a x, ((![v1195, v1197] : Fin 2 → IVec S16 32) a x).toNat < S200x256.size a := fun v1195 v1197 k0_hw530 => k0_hw530
def k0_off73 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1200 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_601 : BitVec 32 := 256#32
  let v1198 : BitVec 32 := Scalar.muli v1177 c256_i32_601
  let c32_i32_602 : BitVec 32 := 32#32
  let v1199 : BitVec 32 := Scalar.addi v1198 c32_i32_602
  let v1201 : Index := Scalar.indexCast v1199
  ![v1200.toNat, v1201.toNat]

def k0_chk531 (v1204 : IVec S16 32) (v1206 : IVec S16 32) : Prop :=
  (∀ a x, ((![v1204, v1206] : Fin 2 → IVec S16 32) a x).toNat < S200x256.size a)
instance k0_chk531.dec : ∀ (v1204 : IVec S16 32) (v1206 : IVec S16 32), Decidable (k0_chk531 v1204 v1206) := fun v1204 v1206 => decidable_of_iff' _ (Iff.of_eq (k0_chk531.eq_1 v1204 v1206))
theorem k0_idx531_inb : ∀ (v1204 : IVec S16 32) (v1206 : IVec S16 32) (k0_hw531 : k0_chk531 v1204 v1206), ∀ a x, ((![v1204, v1206] : Fin 2 → IVec S16 32) a x).toNat < S200x256.size a := fun v1204 v1206 k0_hw531 => k0_hw531
def k0_off74 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1209 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_605 : BitVec 32 := 256#32
  let v1207 : BitVec 32 := Scalar.muli v1177 c256_i32_605
  let c48_i32_606 : BitVec 32 := 48#32
  let v1208 : BitVec 32 := Scalar.addi v1207 c48_i32_606
  let v1210 : Index := Scalar.indexCast v1208
  ![v1209.toNat, v1210.toNat]

def k0_chk532 (v1213 : IVec S16 32) (v1215 : IVec S16 32) : Prop :=
  (∀ a x, ((![v1213, v1215] : Fin 2 → IVec S16 32) a x).toNat < S200x256.size a)
instance k0_chk532.dec : ∀ (v1213 : IVec S16 32) (v1215 : IVec S16 32), Decidable (k0_chk532 v1213 v1215) := fun v1213 v1215 => decidable_of_iff' _ (Iff.of_eq (k0_chk532.eq_1 v1213 v1215))
theorem k0_idx532_inb : ∀ (v1213 : IVec S16 32) (v1215 : IVec S16 32) (k0_hw532 : k0_chk532 v1213 v1215), ∀ a x, ((![v1213, v1215] : Fin 2 → IVec S16 32) a x).toNat < S200x256.size a := fun v1213 v1215 k0_hw532 => k0_hw532
def k0_off75 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1218 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_609 : BitVec 32 := 256#32
  let v1216 : BitVec 32 := Scalar.muli v1177 c256_i32_609
  let c64_i32_610 : BitVec 32 := 64#32
  let v1217 : BitVec 32 := Scalar.addi v1216 c64_i32_610
  let v1219 : Index := Scalar.indexCast v1217
  ![v1218.toNat, v1219.toNat]

def k0_chk533 (v1222 : IVec S16 32) (v1224 : IVec S16 32) : Prop :=
  (∀ a x, ((![v1222, v1224] : Fin 2 → IVec S16 32) a x).toNat < S200x256.size a)
instance k0_chk533.dec : ∀ (v1222 : IVec S16 32) (v1224 : IVec S16 32), Decidable (k0_chk533 v1222 v1224) := fun v1222 v1224 => decidable_of_iff' _ (Iff.of_eq (k0_chk533.eq_1 v1222 v1224))
theorem k0_idx533_inb : ∀ (v1222 : IVec S16 32) (v1224 : IVec S16 32) (k0_hw533 : k0_chk533 v1222 v1224), ∀ a x, ((![v1222, v1224] : Fin 2 → IVec S16 32) a x).toNat < S200x256.size a := fun v1222 v1224 k0_hw533 => k0_hw533
def k0_off76 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1227 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_613 : BitVec 32 := 256#32
  let v1225 : BitVec 32 := Scalar.muli v1177 c256_i32_613
  let c80_i32_614 : BitVec 32 := 80#32
  let v1226 : BitVec 32 := Scalar.addi v1225 c80_i32_614
  let v1228 : Index := Scalar.indexCast v1226
  ![v1227.toNat, v1228.toNat]

def k0_chk534 (v1231 : IVec S16 32) (v1233 : IVec S16 32) : Prop :=
  (∀ a x, ((![v1231, v1233] : Fin 2 → IVec S16 32) a x).toNat < S200x256.size a)
instance k0_chk534.dec : ∀ (v1231 : IVec S16 32) (v1233 : IVec S16 32), Decidable (k0_chk534 v1231 v1233) := fun v1231 v1233 => decidable_of_iff' _ (Iff.of_eq (k0_chk534.eq_1 v1231 v1233))
theorem k0_idx534_inb : ∀ (v1231 : IVec S16 32) (v1233 : IVec S16 32) (k0_hw534 : k0_chk534 v1231 v1233), ∀ a x, ((![v1231, v1233] : Fin 2 → IVec S16 32) a x).toNat < S200x256.size a := fun v1231 v1233 k0_hw534 => k0_hw534
def k0_off77 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1236 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_617 : BitVec 32 := 256#32
  let v1234 : BitVec 32 := Scalar.muli v1177 c256_i32_617
  let c96_i32_618 : BitVec 32 := 96#32
  let v1235 : BitVec 32 := Scalar.addi v1234 c96_i32_618
  let v1237 : Index := Scalar.indexCast v1235
  ![v1236.toNat, v1237.toNat]

def k0_chk535 (v1240 : IVec S16 32) (v1242 : IVec S16 32) : Prop :=
  (∀ a x, ((![v1240, v1242] : Fin 2 → IVec S16 32) a x).toNat < S200x256.size a)
instance k0_chk535.dec : ∀ (v1240 : IVec S16 32) (v1242 : IVec S16 32), Decidable (k0_chk535 v1240 v1242) := fun v1240 v1242 => decidable_of_iff' _ (Iff.of_eq (k0_chk535.eq_1 v1240 v1242))
theorem k0_idx535_inb : ∀ (v1240 : IVec S16 32) (v1242 : IVec S16 32) (k0_hw535 : k0_chk535 v1240 v1242), ∀ a x, ((![v1240, v1242] : Fin 2 → IVec S16 32) a x).toNat < S200x256.size a := fun v1240 v1242 k0_hw535 => k0_hw535
def k0_off78 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1245 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_621 : BitVec 32 := 256#32
  let v1243 : BitVec 32 := Scalar.muli v1177 c256_i32_621
  let c112_i32_622 : BitVec 32 := 112#32
  let v1244 : BitVec 32 := Scalar.addi v1243 c112_i32_622
  let v1246 : Index := Scalar.indexCast v1244
  ![v1245.toNat, v1246.toNat]

def k0_chk536 (v1249 : IVec S16 32) (v1251 : IVec S16 32) : Prop :=
  (∀ a x, ((![v1249, v1251] : Fin 2 → IVec S16 32) a x).toNat < S200x256.size a)
instance k0_chk536.dec : ∀ (v1249 : IVec S16 32) (v1251 : IVec S16 32), Decidable (k0_chk536 v1249 v1251) := fun v1249 v1251 => decidable_of_iff' _ (Iff.of_eq (k0_chk536.eq_1 v1249 v1251))
theorem k0_idx536_inb : ∀ (v1249 : IVec S16 32) (v1251 : IVec S16 32) (k0_hw536 : k0_chk536 v1249 v1251), ∀ a x, ((![v1249, v1251] : Fin 2 → IVec S16 32) a x).toNat < S200x256.size a := fun v1249 v1251 k0_hw536 => k0_hw536
def k0_off79 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1254 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_625 : BitVec 32 := 256#32
  let v1252 : BitVec 32 := Scalar.muli v1177 c256_i32_625
  let c128_i32_626 : BitVec 32 := 128#32
  let v1253 : BitVec 32 := Scalar.addi v1252 c128_i32_626
  let v1255 : Index := Scalar.indexCast v1253
  ![v1254.toNat, v1255.toNat]

def k0_chk537 (v1258 : IVec S16 32) (v1260 : IVec S16 32) : Prop :=
  (∀ a x, ((![v1258, v1260] : Fin 2 → IVec S16 32) a x).toNat < S200x256.size a)
instance k0_chk537.dec : ∀ (v1258 : IVec S16 32) (v1260 : IVec S16 32), Decidable (k0_chk537 v1258 v1260) := fun v1258 v1260 => decidable_of_iff' _ (Iff.of_eq (k0_chk537.eq_1 v1258 v1260))
theorem k0_idx537_inb : ∀ (v1258 : IVec S16 32) (v1260 : IVec S16 32) (k0_hw537 : k0_chk537 v1258 v1260), ∀ a x, ((![v1258, v1260] : Fin 2 → IVec S16 32) a x).toNat < S200x256.size a := fun v1258 v1260 k0_hw537 => k0_hw537
def k0_off80 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1263 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_629 : BitVec 32 := 256#32
  let v1261 : BitVec 32 := Scalar.muli v1177 c256_i32_629
  let c144_i32_630 : BitVec 32 := 144#32
  let v1262 : BitVec 32 := Scalar.addi v1261 c144_i32_630
  let v1264 : Index := Scalar.indexCast v1262
  ![v1263.toNat, v1264.toNat]

def k0_chk538 (v1267 : IVec S16 32) (v1269 : IVec S16 32) : Prop :=
  (∀ a x, ((![v1267, v1269] : Fin 2 → IVec S16 32) a x).toNat < S200x256.size a)
instance k0_chk538.dec : ∀ (v1267 : IVec S16 32) (v1269 : IVec S16 32), Decidable (k0_chk538 v1267 v1269) := fun v1267 v1269 => decidable_of_iff' _ (Iff.of_eq (k0_chk538.eq_1 v1267 v1269))
theorem k0_idx538_inb : ∀ (v1267 : IVec S16 32) (v1269 : IVec S16 32) (k0_hw538 : k0_chk538 v1267 v1269), ∀ a x, ((![v1267, v1269] : Fin 2 → IVec S16 32) a x).toNat < S200x256.size a := fun v1267 v1269 k0_hw538 => k0_hw538
def k0_off81 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1272 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_633 : BitVec 32 := 256#32
  let v1270 : BitVec 32 := Scalar.muli v1177 c256_i32_633
  let c160_i32_634 : BitVec 32 := 160#32
  let v1271 : BitVec 32 := Scalar.addi v1270 c160_i32_634
  let v1273 : Index := Scalar.indexCast v1271
  ![v1272.toNat, v1273.toNat]

def k0_chk539 (v1276 : IVec S16 32) (v1278 : IVec S16 32) : Prop :=
  (∀ a x, ((![v1276, v1278] : Fin 2 → IVec S16 32) a x).toNat < S200x256.size a)
instance k0_chk539.dec : ∀ (v1276 : IVec S16 32) (v1278 : IVec S16 32), Decidable (k0_chk539 v1276 v1278) := fun v1276 v1278 => decidable_of_iff' _ (Iff.of_eq (k0_chk539.eq_1 v1276 v1278))
theorem k0_idx539_inb : ∀ (v1276 : IVec S16 32) (v1278 : IVec S16 32) (k0_hw539 : k0_chk539 v1276 v1278), ∀ a x, ((![v1276, v1278] : Fin 2 → IVec S16 32) a x).toNat < S200x256.size a := fun v1276 v1278 k0_hw539 => k0_hw539
def k0_off82 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1281 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_637 : BitVec 32 := 256#32
  let v1279 : BitVec 32 := Scalar.muli v1177 c256_i32_637
  let c176_i32_638 : BitVec 32 := 176#32
  let v1280 : BitVec 32 := Scalar.addi v1279 c176_i32_638
  let v1282 : Index := Scalar.indexCast v1280
  ![v1281.toNat, v1282.toNat]

def k0_chk540 (v1285 : IVec S16 32) (v1287 : IVec S16 32) : Prop :=
  (∀ a x, ((![v1285, v1287] : Fin 2 → IVec S16 32) a x).toNat < S200x256.size a)
instance k0_chk540.dec : ∀ (v1285 : IVec S16 32) (v1287 : IVec S16 32), Decidable (k0_chk540 v1285 v1287) := fun v1285 v1287 => decidable_of_iff' _ (Iff.of_eq (k0_chk540.eq_1 v1285 v1287))
theorem k0_idx540_inb : ∀ (v1285 : IVec S16 32) (v1287 : IVec S16 32) (k0_hw540 : k0_chk540 v1285 v1287), ∀ a x, ((![v1285, v1287] : Fin 2 → IVec S16 32) a x).toNat < S200x256.size a := fun v1285 v1287 k0_hw540 => k0_hw540
def k0_off83 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1290 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_641 : BitVec 32 := 256#32
  let v1288 : BitVec 32 := Scalar.muli v1177 c256_i32_641
  let c192_i32_642 : BitVec 32 := 192#32
  let v1289 : BitVec 32 := Scalar.addi v1288 c192_i32_642
  let v1291 : Index := Scalar.indexCast v1289
  ![v1290.toNat, v1291.toNat]

def k0_chk541 (v1294 : IVec S16 32) (v1296 : IVec S16 32) : Prop :=
  (∀ a x, ((![v1294, v1296] : Fin 2 → IVec S16 32) a x).toNat < S200x256.size a)
instance k0_chk541.dec : ∀ (v1294 : IVec S16 32) (v1296 : IVec S16 32), Decidable (k0_chk541 v1294 v1296) := fun v1294 v1296 => decidable_of_iff' _ (Iff.of_eq (k0_chk541.eq_1 v1294 v1296))
theorem k0_idx541_inb : ∀ (v1294 : IVec S16 32) (v1296 : IVec S16 32) (k0_hw541 : k0_chk541 v1294 v1296), ∀ a x, ((![v1294, v1296] : Fin 2 → IVec S16 32) a x).toNat < S200x256.size a := fun v1294 v1296 k0_hw541 => k0_hw541
def k0_off84 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1299 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_645 : BitVec 32 := 256#32
  let v1297 : BitVec 32 := Scalar.muli v1177 c256_i32_645
  let c208_i32_646 : BitVec 32 := 208#32
  let v1298 : BitVec 32 := Scalar.addi v1297 c208_i32_646
  let v1300 : Index := Scalar.indexCast v1298
  ![v1299.toNat, v1300.toNat]

def k0_chk542 (v1303 : IVec S16 32) (v1305 : IVec S16 32) : Prop :=
  (∀ a x, ((![v1303, v1305] : Fin 2 → IVec S16 32) a x).toNat < S200x256.size a)
instance k0_chk542.dec : ∀ (v1303 : IVec S16 32) (v1305 : IVec S16 32), Decidable (k0_chk542 v1303 v1305) := fun v1303 v1305 => decidable_of_iff' _ (Iff.of_eq (k0_chk542.eq_1 v1303 v1305))
theorem k0_idx542_inb : ∀ (v1303 : IVec S16 32) (v1305 : IVec S16 32) (k0_hw542 : k0_chk542 v1303 v1305), ∀ a x, ((![v1303, v1305] : Fin 2 → IVec S16 32) a x).toNat < S200x256.size a := fun v1303 v1305 k0_hw542 => k0_hw542
def k0_off85 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1308 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_649 : BitVec 32 := 256#32
  let v1306 : BitVec 32 := Scalar.muli v1177 c256_i32_649
  let c224_i32_650 : BitVec 32 := 224#32
  let v1307 : BitVec 32 := Scalar.addi v1306 c224_i32_650
  let v1309 : Index := Scalar.indexCast v1307
  ![v1308.toNat, v1309.toNat]

def k0_chk543 (v1312 : IVec S16 32) (v1314 : IVec S16 32) : Prop :=
  (∀ a x, ((![v1312, v1314] : Fin 2 → IVec S16 32) a x).toNat < S200x256.size a)
instance k0_chk543.dec : ∀ (v1312 : IVec S16 32) (v1314 : IVec S16 32), Decidable (k0_chk543 v1312 v1314) := fun v1312 v1314 => decidable_of_iff' _ (Iff.of_eq (k0_chk543.eq_1 v1312 v1314))
theorem k0_idx543_inb : ∀ (v1312 : IVec S16 32) (v1314 : IVec S16 32) (k0_hw543 : k0_chk543 v1312 v1314), ∀ a x, ((![v1312, v1314] : Fin 2 → IVec S16 32) a x).toNat < S200x256.size a := fun v1312 v1314 k0_hw543 => k0_hw543
def k0_off86 (k0_t3 : Fin k0_t3_loop.trips) : Fin 2 → Nat :=
  let c2_i32_591 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1178 : BitVec 32 := Scalar.muli c2_i32_591 v1167
  let c0_i32_592 : BitVec 32 := 0#32
  let v1179 : BitVec 32 := Scalar.addi v1178 c0_i32_592
  let v1317 : Index := Scalar.indexCast v1179
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_653 : BitVec 32 := 256#32
  let v1315 : BitVec 32 := Scalar.muli v1177 c256_i32_653
  let c240_i32_654 : BitVec 32 := 240#32
  let v1316 : BitVec 32 := Scalar.addi v1315 c240_i32_654
  let v1318 : Index := Scalar.indexCast v1316
  ![v1317.toNat, v1318.toNat]

def k0_chk544 (v1321 : IVec S16 32) (v1323 : IVec S16 32) : Prop :=
  (∀ a x, ((![v1321, v1323] : Fin 2 → IVec S16 32) a x).toNat < S200x256.size a)
instance k0_chk544.dec : ∀ (v1321 : IVec S16 32) (v1323 : IVec S16 32), Decidable (k0_chk544 v1321 v1323) := fun v1321 v1323 => decidable_of_iff' _ (Iff.of_eq (k0_chk544.eq_1 v1321 v1323))
theorem k0_idx544_inb : ∀ (v1321 : IVec S16 32) (v1323 : IVec S16 32) (k0_hw544 : k0_chk544 v1321 v1323), ∀ a x, ((![v1321, v1323] : Fin 2 → IVec S16 32) a x).toNat < S200x256.size a := fun v1321 v1323 k0_hw544 => k0_hw544
def k0_off87 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1328 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_659 : BitVec 32 := 256#32
  let v1326 : BitVec 32 := Scalar.muli v1177 c256_i32_659
  let c0_i32_660 : BitVec 32 := 0#32
  let v1327 : BitVec 32 := Scalar.addi v1326 c0_i32_660
  let v1329 : Index := Scalar.indexCast v1327
  ![v1328.toNat, v1329.toNat]

def k0_chk545 (v1332 : IVec S16 32) (v1334 : IVec S16 32) : Prop :=
  (∀ a x, ((![v1332, v1334] : Fin 2 → IVec S16 32) a x).toNat < S200x256.size a)
instance k0_chk545.dec : ∀ (v1332 : IVec S16 32) (v1334 : IVec S16 32), Decidable (k0_chk545 v1332 v1334) := fun v1332 v1334 => decidable_of_iff' _ (Iff.of_eq (k0_chk545.eq_1 v1332 v1334))
theorem k0_idx545_inb : ∀ (v1332 : IVec S16 32) (v1334 : IVec S16 32) (k0_hw545 : k0_chk545 v1332 v1334), ∀ a x, ((![v1332, v1334] : Fin 2 → IVec S16 32) a x).toNat < S200x256.size a := fun v1332 v1334 k0_hw545 => k0_hw545
def k0_off88 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1337 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_663 : BitVec 32 := 256#32
  let v1335 : BitVec 32 := Scalar.muli v1177 c256_i32_663
  let c16_i32_664 : BitVec 32 := 16#32
  let v1336 : BitVec 32 := Scalar.addi v1335 c16_i32_664
  let v1338 : Index := Scalar.indexCast v1336
  ![v1337.toNat, v1338.toNat]

def k0_chk546 (v1341 : IVec S16 32) (v1343 : IVec S16 32) : Prop :=
  (∀ a x, ((![v1341, v1343] : Fin 2 → IVec S16 32) a x).toNat < S200x256.size a)
instance k0_chk546.dec : ∀ (v1341 : IVec S16 32) (v1343 : IVec S16 32), Decidable (k0_chk546 v1341 v1343) := fun v1341 v1343 => decidable_of_iff' _ (Iff.of_eq (k0_chk546.eq_1 v1341 v1343))
theorem k0_idx546_inb : ∀ (v1341 : IVec S16 32) (v1343 : IVec S16 32) (k0_hw546 : k0_chk546 v1341 v1343), ∀ a x, ((![v1341, v1343] : Fin 2 → IVec S16 32) a x).toNat < S200x256.size a := fun v1341 v1343 k0_hw546 => k0_hw546
def k0_off89 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1346 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_667 : BitVec 32 := 256#32
  let v1344 : BitVec 32 := Scalar.muli v1177 c256_i32_667
  let c32_i32_668 : BitVec 32 := 32#32
  let v1345 : BitVec 32 := Scalar.addi v1344 c32_i32_668
  let v1347 : Index := Scalar.indexCast v1345
  ![v1346.toNat, v1347.toNat]

def k0_chk547 (v1350 : IVec S16 32) (v1352 : IVec S16 32) : Prop :=
  (∀ a x, ((![v1350, v1352] : Fin 2 → IVec S16 32) a x).toNat < S200x256.size a)
instance k0_chk547.dec : ∀ (v1350 : IVec S16 32) (v1352 : IVec S16 32), Decidable (k0_chk547 v1350 v1352) := fun v1350 v1352 => decidable_of_iff' _ (Iff.of_eq (k0_chk547.eq_1 v1350 v1352))
theorem k0_idx547_inb : ∀ (v1350 : IVec S16 32) (v1352 : IVec S16 32) (k0_hw547 : k0_chk547 v1350 v1352), ∀ a x, ((![v1350, v1352] : Fin 2 → IVec S16 32) a x).toNat < S200x256.size a := fun v1350 v1352 k0_hw547 => k0_hw547
def k0_off90 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1355 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_671 : BitVec 32 := 256#32
  let v1353 : BitVec 32 := Scalar.muli v1177 c256_i32_671
  let c48_i32_672 : BitVec 32 := 48#32
  let v1354 : BitVec 32 := Scalar.addi v1353 c48_i32_672
  let v1356 : Index := Scalar.indexCast v1354
  ![v1355.toNat, v1356.toNat]

def k0_chk548 (v1359 : IVec S16 32) (v1361 : IVec S16 32) : Prop :=
  (∀ a x, ((![v1359, v1361] : Fin 2 → IVec S16 32) a x).toNat < S200x256.size a)
instance k0_chk548.dec : ∀ (v1359 : IVec S16 32) (v1361 : IVec S16 32), Decidable (k0_chk548 v1359 v1361) := fun v1359 v1361 => decidable_of_iff' _ (Iff.of_eq (k0_chk548.eq_1 v1359 v1361))
theorem k0_idx548_inb : ∀ (v1359 : IVec S16 32) (v1361 : IVec S16 32) (k0_hw548 : k0_chk548 v1359 v1361), ∀ a x, ((![v1359, v1361] : Fin 2 → IVec S16 32) a x).toNat < S200x256.size a := fun v1359 v1361 k0_hw548 => k0_hw548
def k0_off91 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1364 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_675 : BitVec 32 := 256#32
  let v1362 : BitVec 32 := Scalar.muli v1177 c256_i32_675
  let c64_i32_676 : BitVec 32 := 64#32
  let v1363 : BitVec 32 := Scalar.addi v1362 c64_i32_676
  let v1365 : Index := Scalar.indexCast v1363
  ![v1364.toNat, v1365.toNat]

def k0_chk549 (v1368 : IVec S16 32) (v1370 : IVec S16 32) : Prop :=
  (∀ a x, ((![v1368, v1370] : Fin 2 → IVec S16 32) a x).toNat < S200x256.size a)
instance k0_chk549.dec : ∀ (v1368 : IVec S16 32) (v1370 : IVec S16 32), Decidable (k0_chk549 v1368 v1370) := fun v1368 v1370 => decidable_of_iff' _ (Iff.of_eq (k0_chk549.eq_1 v1368 v1370))
theorem k0_idx549_inb : ∀ (v1368 : IVec S16 32) (v1370 : IVec S16 32) (k0_hw549 : k0_chk549 v1368 v1370), ∀ a x, ((![v1368, v1370] : Fin 2 → IVec S16 32) a x).toNat < S200x256.size a := fun v1368 v1370 k0_hw549 => k0_hw549
def k0_off92 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1373 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_679 : BitVec 32 := 256#32
  let v1371 : BitVec 32 := Scalar.muli v1177 c256_i32_679
  let c80_i32_680 : BitVec 32 := 80#32
  let v1372 : BitVec 32 := Scalar.addi v1371 c80_i32_680
  let v1374 : Index := Scalar.indexCast v1372
  ![v1373.toNat, v1374.toNat]

def k0_chk550 (v1377 : IVec S16 32) (v1379 : IVec S16 32) : Prop :=
  (∀ a x, ((![v1377, v1379] : Fin 2 → IVec S16 32) a x).toNat < S200x256.size a)
instance k0_chk550.dec : ∀ (v1377 : IVec S16 32) (v1379 : IVec S16 32), Decidable (k0_chk550 v1377 v1379) := fun v1377 v1379 => decidable_of_iff' _ (Iff.of_eq (k0_chk550.eq_1 v1377 v1379))
theorem k0_idx550_inb : ∀ (v1377 : IVec S16 32) (v1379 : IVec S16 32) (k0_hw550 : k0_chk550 v1377 v1379), ∀ a x, ((![v1377, v1379] : Fin 2 → IVec S16 32) a x).toNat < S200x256.size a := fun v1377 v1379 k0_hw550 => k0_hw550
def k0_off93 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1382 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_683 : BitVec 32 := 256#32
  let v1380 : BitVec 32 := Scalar.muli v1177 c256_i32_683
  let c96_i32_684 : BitVec 32 := 96#32
  let v1381 : BitVec 32 := Scalar.addi v1380 c96_i32_684
  let v1383 : Index := Scalar.indexCast v1381
  ![v1382.toNat, v1383.toNat]

def k0_chk551 (v1386 : IVec S16 32) (v1388 : IVec S16 32) : Prop :=
  (∀ a x, ((![v1386, v1388] : Fin 2 → IVec S16 32) a x).toNat < S200x256.size a)
instance k0_chk551.dec : ∀ (v1386 : IVec S16 32) (v1388 : IVec S16 32), Decidable (k0_chk551 v1386 v1388) := fun v1386 v1388 => decidable_of_iff' _ (Iff.of_eq (k0_chk551.eq_1 v1386 v1388))
theorem k0_idx551_inb : ∀ (v1386 : IVec S16 32) (v1388 : IVec S16 32) (k0_hw551 : k0_chk551 v1386 v1388), ∀ a x, ((![v1386, v1388] : Fin 2 → IVec S16 32) a x).toNat < S200x256.size a := fun v1386 v1388 k0_hw551 => k0_hw551
def k0_off94 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1391 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_687 : BitVec 32 := 256#32
  let v1389 : BitVec 32 := Scalar.muli v1177 c256_i32_687
  let c112_i32_688 : BitVec 32 := 112#32
  let v1390 : BitVec 32 := Scalar.addi v1389 c112_i32_688
  let v1392 : Index := Scalar.indexCast v1390
  ![v1391.toNat, v1392.toNat]

def k0_chk552 (v1395 : IVec S16 32) (v1397 : IVec S16 32) : Prop :=
  (∀ a x, ((![v1395, v1397] : Fin 2 → IVec S16 32) a x).toNat < S200x256.size a)
instance k0_chk552.dec : ∀ (v1395 : IVec S16 32) (v1397 : IVec S16 32), Decidable (k0_chk552 v1395 v1397) := fun v1395 v1397 => decidable_of_iff' _ (Iff.of_eq (k0_chk552.eq_1 v1395 v1397))
theorem k0_idx552_inb : ∀ (v1395 : IVec S16 32) (v1397 : IVec S16 32) (k0_hw552 : k0_chk552 v1395 v1397), ∀ a x, ((![v1395, v1397] : Fin 2 → IVec S16 32) a x).toNat < S200x256.size a := fun v1395 v1397 k0_hw552 => k0_hw552
def k0_off95 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1400 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_691 : BitVec 32 := 256#32
  let v1398 : BitVec 32 := Scalar.muli v1177 c256_i32_691
  let c128_i32_692 : BitVec 32 := 128#32
  let v1399 : BitVec 32 := Scalar.addi v1398 c128_i32_692
  let v1401 : Index := Scalar.indexCast v1399
  ![v1400.toNat, v1401.toNat]

def k0_chk553 (v1404 : IVec S16 32) (v1406 : IVec S16 32) : Prop :=
  (∀ a x, ((![v1404, v1406] : Fin 2 → IVec S16 32) a x).toNat < S200x256.size a)
instance k0_chk553.dec : ∀ (v1404 : IVec S16 32) (v1406 : IVec S16 32), Decidable (k0_chk553 v1404 v1406) := fun v1404 v1406 => decidable_of_iff' _ (Iff.of_eq (k0_chk553.eq_1 v1404 v1406))
theorem k0_idx553_inb : ∀ (v1404 : IVec S16 32) (v1406 : IVec S16 32) (k0_hw553 : k0_chk553 v1404 v1406), ∀ a x, ((![v1404, v1406] : Fin 2 → IVec S16 32) a x).toNat < S200x256.size a := fun v1404 v1406 k0_hw553 => k0_hw553
def k0_off96 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1409 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_695 : BitVec 32 := 256#32
  let v1407 : BitVec 32 := Scalar.muli v1177 c256_i32_695
  let c144_i32_696 : BitVec 32 := 144#32
  let v1408 : BitVec 32 := Scalar.addi v1407 c144_i32_696
  let v1410 : Index := Scalar.indexCast v1408
  ![v1409.toNat, v1410.toNat]

def k0_chk554 (v1413 : IVec S16 32) (v1415 : IVec S16 32) : Prop :=
  (∀ a x, ((![v1413, v1415] : Fin 2 → IVec S16 32) a x).toNat < S200x256.size a)
instance k0_chk554.dec : ∀ (v1413 : IVec S16 32) (v1415 : IVec S16 32), Decidable (k0_chk554 v1413 v1415) := fun v1413 v1415 => decidable_of_iff' _ (Iff.of_eq (k0_chk554.eq_1 v1413 v1415))
theorem k0_idx554_inb : ∀ (v1413 : IVec S16 32) (v1415 : IVec S16 32) (k0_hw554 : k0_chk554 v1413 v1415), ∀ a x, ((![v1413, v1415] : Fin 2 → IVec S16 32) a x).toNat < S200x256.size a := fun v1413 v1415 k0_hw554 => k0_hw554
def k0_off97 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1418 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_699 : BitVec 32 := 256#32
  let v1416 : BitVec 32 := Scalar.muli v1177 c256_i32_699
  let c160_i32_700 : BitVec 32 := 160#32
  let v1417 : BitVec 32 := Scalar.addi v1416 c160_i32_700
  let v1419 : Index := Scalar.indexCast v1417
  ![v1418.toNat, v1419.toNat]

def k0_chk555 (v1422 : IVec S16 32) (v1424 : IVec S16 32) : Prop :=
  (∀ a x, ((![v1422, v1424] : Fin 2 → IVec S16 32) a x).toNat < S200x256.size a)
instance k0_chk555.dec : ∀ (v1422 : IVec S16 32) (v1424 : IVec S16 32), Decidable (k0_chk555 v1422 v1424) := fun v1422 v1424 => decidable_of_iff' _ (Iff.of_eq (k0_chk555.eq_1 v1422 v1424))
theorem k0_idx555_inb : ∀ (v1422 : IVec S16 32) (v1424 : IVec S16 32) (k0_hw555 : k0_chk555 v1422 v1424), ∀ a x, ((![v1422, v1424] : Fin 2 → IVec S16 32) a x).toNat < S200x256.size a := fun v1422 v1424 k0_hw555 => k0_hw555
def k0_off98 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1427 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_703 : BitVec 32 := 256#32
  let v1425 : BitVec 32 := Scalar.muli v1177 c256_i32_703
  let c176_i32_704 : BitVec 32 := 176#32
  let v1426 : BitVec 32 := Scalar.addi v1425 c176_i32_704
  let v1428 : Index := Scalar.indexCast v1426
  ![v1427.toNat, v1428.toNat]

def k0_chk556 (v1431 : IVec S16 32) (v1433 : IVec S16 32) : Prop :=
  (∀ a x, ((![v1431, v1433] : Fin 2 → IVec S16 32) a x).toNat < S200x256.size a)
instance k0_chk556.dec : ∀ (v1431 : IVec S16 32) (v1433 : IVec S16 32), Decidable (k0_chk556 v1431 v1433) := fun v1431 v1433 => decidable_of_iff' _ (Iff.of_eq (k0_chk556.eq_1 v1431 v1433))
theorem k0_idx556_inb : ∀ (v1431 : IVec S16 32) (v1433 : IVec S16 32) (k0_hw556 : k0_chk556 v1431 v1433), ∀ a x, ((![v1431, v1433] : Fin 2 → IVec S16 32) a x).toNat < S200x256.size a := fun v1431 v1433 k0_hw556 => k0_hw556
def k0_off99 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1436 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_707 : BitVec 32 := 256#32
  let v1434 : BitVec 32 := Scalar.muli v1177 c256_i32_707
  let c192_i32_708 : BitVec 32 := 192#32
  let v1435 : BitVec 32 := Scalar.addi v1434 c192_i32_708
  let v1437 : Index := Scalar.indexCast v1435
  ![v1436.toNat, v1437.toNat]

def k0_chk557 (v1440 : IVec S16 32) (v1442 : IVec S16 32) : Prop :=
  (∀ a x, ((![v1440, v1442] : Fin 2 → IVec S16 32) a x).toNat < S200x256.size a)
instance k0_chk557.dec : ∀ (v1440 : IVec S16 32) (v1442 : IVec S16 32), Decidable (k0_chk557 v1440 v1442) := fun v1440 v1442 => decidable_of_iff' _ (Iff.of_eq (k0_chk557.eq_1 v1440 v1442))
theorem k0_idx557_inb : ∀ (v1440 : IVec S16 32) (v1442 : IVec S16 32) (k0_hw557 : k0_chk557 v1440 v1442), ∀ a x, ((![v1440, v1442] : Fin 2 → IVec S16 32) a x).toNat < S200x256.size a := fun v1440 v1442 k0_hw557 => k0_hw557
def k0_off100 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1445 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_711 : BitVec 32 := 256#32
  let v1443 : BitVec 32 := Scalar.muli v1177 c256_i32_711
  let c208_i32_712 : BitVec 32 := 208#32
  let v1444 : BitVec 32 := Scalar.addi v1443 c208_i32_712
  let v1446 : Index := Scalar.indexCast v1444
  ![v1445.toNat, v1446.toNat]

def k0_chk558 (v1449 : IVec S16 32) (v1451 : IVec S16 32) : Prop :=
  (∀ a x, ((![v1449, v1451] : Fin 2 → IVec S16 32) a x).toNat < S200x256.size a)
instance k0_chk558.dec : ∀ (v1449 : IVec S16 32) (v1451 : IVec S16 32), Decidable (k0_chk558 v1449 v1451) := fun v1449 v1451 => decidable_of_iff' _ (Iff.of_eq (k0_chk558.eq_1 v1449 v1451))
theorem k0_idx558_inb : ∀ (v1449 : IVec S16 32) (v1451 : IVec S16 32) (k0_hw558 : k0_chk558 v1449 v1451), ∀ a x, ((![v1449, v1451] : Fin 2 → IVec S16 32) a x).toNat < S200x256.size a := fun v1449 v1451 k0_hw558 => k0_hw558
def k0_off101 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1454 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_715 : BitVec 32 := 256#32
  let v1452 : BitVec 32 := Scalar.muli v1177 c256_i32_715
  let c224_i32_716 : BitVec 32 := 224#32
  let v1453 : BitVec 32 := Scalar.addi v1452 c224_i32_716
  let v1455 : Index := Scalar.indexCast v1453
  ![v1454.toNat, v1455.toNat]

def k0_chk559 (v1458 : IVec S16 32) (v1460 : IVec S16 32) : Prop :=
  (∀ a x, ((![v1458, v1460] : Fin 2 → IVec S16 32) a x).toNat < S200x256.size a)
instance k0_chk559.dec : ∀ (v1458 : IVec S16 32) (v1460 : IVec S16 32), Decidable (k0_chk559 v1458 v1460) := fun v1458 v1460 => decidable_of_iff' _ (Iff.of_eq (k0_chk559.eq_1 v1458 v1460))
theorem k0_idx559_inb : ∀ (v1458 : IVec S16 32) (v1460 : IVec S16 32) (k0_hw559 : k0_chk559 v1458 v1460), ∀ a x, ((![v1458, v1460] : Fin 2 → IVec S16 32) a x).toNat < S200x256.size a := fun v1458 v1460 k0_hw559 => k0_hw559
def k0_off102 (k0_t3 : Fin k0_t3_loop.trips) : Fin 2 → Nat :=
  let c2_i32_657 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c2_i32_577 : BitVec 32 := 2#32
  let v1150 : BitVec 32 := Scalar.subi v1116 c2_i32_577
  let c0_i32_579 : BitVec 32 := 0#32
  let v1152 : BitVec 1 := Scalar.cmpi .sgt v1150 c0_i32_579
  let v1153 : BitVec 32 := Scalar.extui v1152
  let c0_i32_580 : BitVec 32 := 0#32
  let v1154 : BitVec 1 := Scalar.cmpi .slt v1150 c0_i32_580
  let v1155 : BitVec 32 := Scalar.extui v1154
  let v1156 : BitVec 32 := Scalar.subi v1153 v1155
  let c2_i32_578 : BitVec 32 := 2#32
  let c0_i32_581 : BitVec 32 := 0#32
  let v1157 : BitVec 1 := Scalar.cmpi .sgt c2_i32_578 c0_i32_581
  let v1158 : BitVec 32 := Scalar.extui v1157
  let c0_i32_582 : BitVec 32 := 0#32
  let v1159 : BitVec 1 := Scalar.cmpi .slt c2_i32_578 c0_i32_582
  let v1160 : BitVec 32 := Scalar.extui v1159
  let v1161 : BitVec 32 := Scalar.subi v1158 v1160
  let v1162 : BitVec 1 := Scalar.cmpi .ne v1156 v1161
  let v1163 : BitVec 32 := Scalar.remsi v1150 c2_i32_578
  let c0_i32_583 : BitVec 32 := 0#32
  let v1164 : BitVec 1 := Scalar.cmpi .ne v1163 c0_i32_583
  let v1165 : BitVec 1 := Scalar.andi v1162 v1164
  let v1151 : BitVec 32 := Scalar.divsi v1150 c2_i32_578
  let c1_i32_584 : BitVec 32 := 1#32
  let v1166 : BitVec 32 := Scalar.subi v1151 c1_i32_584
  let v1167 : BitVec 32 := Scalar.select v1165 v1166 v1151
  let v1324 : BitVec 32 := Scalar.muli c2_i32_657 v1167
  let c1_i32_658 : BitVec 32 := 1#32
  let v1325 : BitVec 32 := Scalar.addi v1324 c1_i32_658
  let v1463 : Index := Scalar.indexCast v1325
  let c2_i32_585 : BitVec 32 := 2#32
  let c0_i32_586 : BitVec 32 := 0#32
  let v1168 : BitVec 1 := Scalar.cmpi .eq c2_i32_585 c0_i32_586
  let c1_i32_587 : BitVec 32 := 1#32
  let v1169 : BitVec 32 := Scalar.select v1168 c1_i32_587 c2_i32_585
  let v1170 : BitVec 32 := Scalar.remsi v1150 v1169
  let c0_i32_589 : BitVec 32 := 0#32
  let v1172 : BitVec 1 := Scalar.cmpi .slt v1170 c0_i32_589
  let c0_i32_590 : BitVec 32 := 0#32
  let v1173 : BitVec 1 := Scalar.cmpi .slt v1169 c0_i32_590
  let v1174 : BitVec 1 := Scalar.xori v1172 v1173
  let c0_i32_588 : BitVec 32 := 0#32
  let v1171 : BitVec 1 := Scalar.cmpi .ne v1170 c0_i32_588
  let v1175 : BitVec 1 := Scalar.andi v1174 v1171
  let v1176 : BitVec 32 := Scalar.addi v1170 v1169
  let v1177 : BitVec 32 := Scalar.select v1175 v1176 v1170
  let c256_i32_719 : BitVec 32 := 256#32
  let v1461 : BitVec 32 := Scalar.muli v1177 c256_i32_719
  let c240_i32_720 : BitVec 32 := 240#32
  let v1462 : BitVec 32 := Scalar.addi v1461 c240_i32_720
  let v1464 : Index := Scalar.indexCast v1462
  ![v1463.toNat, v1464.toNat]

def k0_chk560 (v1467 : IVec S16 32) (v1469 : IVec S16 32) : Prop :=
  (∀ a x, ((![v1467, v1469] : Fin 2 → IVec S16 32) a x).toNat < S200x256.size a)
instance k0_chk560.dec : ∀ (v1467 : IVec S16 32) (v1469 : IVec S16 32), Decidable (k0_chk560 v1467 v1469) := fun v1467 v1469 => decidable_of_iff' _ (Iff.of_eq (k0_chk560.eq_1 v1467 v1469))
theorem k0_idx560_inb : ∀ (v1467 : IVec S16 32) (v1469 : IVec S16 32) (k0_hw560 : k0_chk560 v1467 v1469), ∀ a x, ((![v1467, v1469] : Fin 2 → IVec S16 32) a x).toNat < S200x256.size a := fun v1467 v1469 k0_hw560 => k0_hw560
def k0_off103 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1501 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_738 : BitVec 32 := 256#32
  let v1499 : BitVec 32 := Scalar.muli v1496 c256_i32_738
  let c0_i32_739 : BitVec 32 := 0#32
  let v1500 : BitVec 32 := Scalar.addi v1499 c0_i32_739
  let v1502 : Index := Scalar.indexCast v1500
  ![v1501.toNat, v1502.toNat]

def k0_chk561 (v1505 : IVec S16 32) (v1507 : IVec S16 32) : Prop :=
  (∀ a x, ((![v1505, v1507] : Fin 2 → IVec S16 32) a x).toNat < S200x256.size a)
instance k0_chk561.dec : ∀ (v1505 : IVec S16 32) (v1507 : IVec S16 32), Decidable (k0_chk561 v1505 v1507) := fun v1505 v1507 => decidable_of_iff' _ (Iff.of_eq (k0_chk561.eq_1 v1505 v1507))
theorem k0_idx561_inb : ∀ (v1505 : IVec S16 32) (v1507 : IVec S16 32) (k0_hw561 : k0_chk561 v1505 v1507), ∀ a x, ((![v1505, v1507] : Fin 2 → IVec S16 32) a x).toNat < S200x256.size a := fun v1505 v1507 k0_hw561 => k0_hw561
def k0_off104 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1510 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_742 : BitVec 32 := 256#32
  let v1508 : BitVec 32 := Scalar.muli v1496 c256_i32_742
  let c16_i32_743 : BitVec 32 := 16#32
  let v1509 : BitVec 32 := Scalar.addi v1508 c16_i32_743
  let v1511 : Index := Scalar.indexCast v1509
  ![v1510.toNat, v1511.toNat]

def k0_chk562 (v1514 : IVec S16 32) (v1516 : IVec S16 32) : Prop :=
  (∀ a x, ((![v1514, v1516] : Fin 2 → IVec S16 32) a x).toNat < S200x256.size a)
instance k0_chk562.dec : ∀ (v1514 : IVec S16 32) (v1516 : IVec S16 32), Decidable (k0_chk562 v1514 v1516) := fun v1514 v1516 => decidable_of_iff' _ (Iff.of_eq (k0_chk562.eq_1 v1514 v1516))
theorem k0_idx562_inb : ∀ (v1514 : IVec S16 32) (v1516 : IVec S16 32) (k0_hw562 : k0_chk562 v1514 v1516), ∀ a x, ((![v1514, v1516] : Fin 2 → IVec S16 32) a x).toNat < S200x256.size a := fun v1514 v1516 k0_hw562 => k0_hw562
def k0_off105 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1519 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_746 : BitVec 32 := 256#32
  let v1517 : BitVec 32 := Scalar.muli v1496 c256_i32_746
  let c32_i32_747 : BitVec 32 := 32#32
  let v1518 : BitVec 32 := Scalar.addi v1517 c32_i32_747
  let v1520 : Index := Scalar.indexCast v1518
  ![v1519.toNat, v1520.toNat]

def k0_chk563 (v1523 : IVec S16 32) (v1525 : IVec S16 32) : Prop :=
  (∀ a x, ((![v1523, v1525] : Fin 2 → IVec S16 32) a x).toNat < S200x256.size a)
instance k0_chk563.dec : ∀ (v1523 : IVec S16 32) (v1525 : IVec S16 32), Decidable (k0_chk563 v1523 v1525) := fun v1523 v1525 => decidable_of_iff' _ (Iff.of_eq (k0_chk563.eq_1 v1523 v1525))
theorem k0_idx563_inb : ∀ (v1523 : IVec S16 32) (v1525 : IVec S16 32) (k0_hw563 : k0_chk563 v1523 v1525), ∀ a x, ((![v1523, v1525] : Fin 2 → IVec S16 32) a x).toNat < S200x256.size a := fun v1523 v1525 k0_hw563 => k0_hw563
def k0_off106 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1528 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_750 : BitVec 32 := 256#32
  let v1526 : BitVec 32 := Scalar.muli v1496 c256_i32_750
  let c48_i32_751 : BitVec 32 := 48#32
  let v1527 : BitVec 32 := Scalar.addi v1526 c48_i32_751
  let v1529 : Index := Scalar.indexCast v1527
  ![v1528.toNat, v1529.toNat]

def k0_chk564 (v1532 : IVec S16 32) (v1534 : IVec S16 32) : Prop :=
  (∀ a x, ((![v1532, v1534] : Fin 2 → IVec S16 32) a x).toNat < S200x256.size a)
instance k0_chk564.dec : ∀ (v1532 : IVec S16 32) (v1534 : IVec S16 32), Decidable (k0_chk564 v1532 v1534) := fun v1532 v1534 => decidable_of_iff' _ (Iff.of_eq (k0_chk564.eq_1 v1532 v1534))
theorem k0_idx564_inb : ∀ (v1532 : IVec S16 32) (v1534 : IVec S16 32) (k0_hw564 : k0_chk564 v1532 v1534), ∀ a x, ((![v1532, v1534] : Fin 2 → IVec S16 32) a x).toNat < S200x256.size a := fun v1532 v1534 k0_hw564 => k0_hw564
def k0_off107 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1537 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_754 : BitVec 32 := 256#32
  let v1535 : BitVec 32 := Scalar.muli v1496 c256_i32_754
  let c64_i32_755 : BitVec 32 := 64#32
  let v1536 : BitVec 32 := Scalar.addi v1535 c64_i32_755
  let v1538 : Index := Scalar.indexCast v1536
  ![v1537.toNat, v1538.toNat]

def k0_chk565 (v1541 : IVec S16 32) (v1543 : IVec S16 32) : Prop :=
  (∀ a x, ((![v1541, v1543] : Fin 2 → IVec S16 32) a x).toNat < S200x256.size a)
instance k0_chk565.dec : ∀ (v1541 : IVec S16 32) (v1543 : IVec S16 32), Decidable (k0_chk565 v1541 v1543) := fun v1541 v1543 => decidable_of_iff' _ (Iff.of_eq (k0_chk565.eq_1 v1541 v1543))
theorem k0_idx565_inb : ∀ (v1541 : IVec S16 32) (v1543 : IVec S16 32) (k0_hw565 : k0_chk565 v1541 v1543), ∀ a x, ((![v1541, v1543] : Fin 2 → IVec S16 32) a x).toNat < S200x256.size a := fun v1541 v1543 k0_hw565 => k0_hw565
def k0_off108 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1546 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_758 : BitVec 32 := 256#32
  let v1544 : BitVec 32 := Scalar.muli v1496 c256_i32_758
  let c80_i32_759 : BitVec 32 := 80#32
  let v1545 : BitVec 32 := Scalar.addi v1544 c80_i32_759
  let v1547 : Index := Scalar.indexCast v1545
  ![v1546.toNat, v1547.toNat]

def k0_chk566 (v1550 : IVec S16 32) (v1552 : IVec S16 32) : Prop :=
  (∀ a x, ((![v1550, v1552] : Fin 2 → IVec S16 32) a x).toNat < S200x256.size a)
instance k0_chk566.dec : ∀ (v1550 : IVec S16 32) (v1552 : IVec S16 32), Decidable (k0_chk566 v1550 v1552) := fun v1550 v1552 => decidable_of_iff' _ (Iff.of_eq (k0_chk566.eq_1 v1550 v1552))
theorem k0_idx566_inb : ∀ (v1550 : IVec S16 32) (v1552 : IVec S16 32) (k0_hw566 : k0_chk566 v1550 v1552), ∀ a x, ((![v1550, v1552] : Fin 2 → IVec S16 32) a x).toNat < S200x256.size a := fun v1550 v1552 k0_hw566 => k0_hw566
def k0_off109 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1555 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_762 : BitVec 32 := 256#32
  let v1553 : BitVec 32 := Scalar.muli v1496 c256_i32_762
  let c96_i32_763 : BitVec 32 := 96#32
  let v1554 : BitVec 32 := Scalar.addi v1553 c96_i32_763
  let v1556 : Index := Scalar.indexCast v1554
  ![v1555.toNat, v1556.toNat]

def k0_chk567 (v1559 : IVec S16 32) (v1561 : IVec S16 32) : Prop :=
  (∀ a x, ((![v1559, v1561] : Fin 2 → IVec S16 32) a x).toNat < S200x256.size a)
instance k0_chk567.dec : ∀ (v1559 : IVec S16 32) (v1561 : IVec S16 32), Decidable (k0_chk567 v1559 v1561) := fun v1559 v1561 => decidable_of_iff' _ (Iff.of_eq (k0_chk567.eq_1 v1559 v1561))
theorem k0_idx567_inb : ∀ (v1559 : IVec S16 32) (v1561 : IVec S16 32) (k0_hw567 : k0_chk567 v1559 v1561), ∀ a x, ((![v1559, v1561] : Fin 2 → IVec S16 32) a x).toNat < S200x256.size a := fun v1559 v1561 k0_hw567 => k0_hw567
def k0_off110 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1564 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_766 : BitVec 32 := 256#32
  let v1562 : BitVec 32 := Scalar.muli v1496 c256_i32_766
  let c112_i32_767 : BitVec 32 := 112#32
  let v1563 : BitVec 32 := Scalar.addi v1562 c112_i32_767
  let v1565 : Index := Scalar.indexCast v1563
  ![v1564.toNat, v1565.toNat]

def k0_chk568 (v1568 : IVec S16 32) (v1570 : IVec S16 32) : Prop :=
  (∀ a x, ((![v1568, v1570] : Fin 2 → IVec S16 32) a x).toNat < S200x256.size a)
instance k0_chk568.dec : ∀ (v1568 : IVec S16 32) (v1570 : IVec S16 32), Decidable (k0_chk568 v1568 v1570) := fun v1568 v1570 => decidable_of_iff' _ (Iff.of_eq (k0_chk568.eq_1 v1568 v1570))
theorem k0_idx568_inb : ∀ (v1568 : IVec S16 32) (v1570 : IVec S16 32) (k0_hw568 : k0_chk568 v1568 v1570), ∀ a x, ((![v1568, v1570] : Fin 2 → IVec S16 32) a x).toNat < S200x256.size a := fun v1568 v1570 k0_hw568 => k0_hw568
def k0_off111 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1573 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_770 : BitVec 32 := 256#32
  let v1571 : BitVec 32 := Scalar.muli v1496 c256_i32_770
  let c128_i32_771 : BitVec 32 := 128#32
  let v1572 : BitVec 32 := Scalar.addi v1571 c128_i32_771
  let v1574 : Index := Scalar.indexCast v1572
  ![v1573.toNat, v1574.toNat]

def k0_chk569 (v1577 : IVec S16 32) (v1579 : IVec S16 32) : Prop :=
  (∀ a x, ((![v1577, v1579] : Fin 2 → IVec S16 32) a x).toNat < S200x256.size a)
instance k0_chk569.dec : ∀ (v1577 : IVec S16 32) (v1579 : IVec S16 32), Decidable (k0_chk569 v1577 v1579) := fun v1577 v1579 => decidable_of_iff' _ (Iff.of_eq (k0_chk569.eq_1 v1577 v1579))
theorem k0_idx569_inb : ∀ (v1577 : IVec S16 32) (v1579 : IVec S16 32) (k0_hw569 : k0_chk569 v1577 v1579), ∀ a x, ((![v1577, v1579] : Fin 2 → IVec S16 32) a x).toNat < S200x256.size a := fun v1577 v1579 k0_hw569 => k0_hw569
def k0_off112 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1582 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_774 : BitVec 32 := 256#32
  let v1580 : BitVec 32 := Scalar.muli v1496 c256_i32_774
  let c144_i32_775 : BitVec 32 := 144#32
  let v1581 : BitVec 32 := Scalar.addi v1580 c144_i32_775
  let v1583 : Index := Scalar.indexCast v1581
  ![v1582.toNat, v1583.toNat]

def k0_chk570 (v1586 : IVec S16 32) (v1588 : IVec S16 32) : Prop :=
  (∀ a x, ((![v1586, v1588] : Fin 2 → IVec S16 32) a x).toNat < S200x256.size a)
instance k0_chk570.dec : ∀ (v1586 : IVec S16 32) (v1588 : IVec S16 32), Decidable (k0_chk570 v1586 v1588) := fun v1586 v1588 => decidable_of_iff' _ (Iff.of_eq (k0_chk570.eq_1 v1586 v1588))
theorem k0_idx570_inb : ∀ (v1586 : IVec S16 32) (v1588 : IVec S16 32) (k0_hw570 : k0_chk570 v1586 v1588), ∀ a x, ((![v1586, v1588] : Fin 2 → IVec S16 32) a x).toNat < S200x256.size a := fun v1586 v1588 k0_hw570 => k0_hw570
def k0_off113 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1591 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_778 : BitVec 32 := 256#32
  let v1589 : BitVec 32 := Scalar.muli v1496 c256_i32_778
  let c160_i32_779 : BitVec 32 := 160#32
  let v1590 : BitVec 32 := Scalar.addi v1589 c160_i32_779
  let v1592 : Index := Scalar.indexCast v1590
  ![v1591.toNat, v1592.toNat]

def k0_chk571 (v1595 : IVec S16 32) (v1597 : IVec S16 32) : Prop :=
  (∀ a x, ((![v1595, v1597] : Fin 2 → IVec S16 32) a x).toNat < S200x256.size a)
instance k0_chk571.dec : ∀ (v1595 : IVec S16 32) (v1597 : IVec S16 32), Decidable (k0_chk571 v1595 v1597) := fun v1595 v1597 => decidable_of_iff' _ (Iff.of_eq (k0_chk571.eq_1 v1595 v1597))
theorem k0_idx571_inb : ∀ (v1595 : IVec S16 32) (v1597 : IVec S16 32) (k0_hw571 : k0_chk571 v1595 v1597), ∀ a x, ((![v1595, v1597] : Fin 2 → IVec S16 32) a x).toNat < S200x256.size a := fun v1595 v1597 k0_hw571 => k0_hw571
def k0_off114 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1600 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_782 : BitVec 32 := 256#32
  let v1598 : BitVec 32 := Scalar.muli v1496 c256_i32_782
  let c176_i32_783 : BitVec 32 := 176#32
  let v1599 : BitVec 32 := Scalar.addi v1598 c176_i32_783
  let v1601 : Index := Scalar.indexCast v1599
  ![v1600.toNat, v1601.toNat]

def k0_chk572 (v1604 : IVec S16 32) (v1606 : IVec S16 32) : Prop :=
  (∀ a x, ((![v1604, v1606] : Fin 2 → IVec S16 32) a x).toNat < S200x256.size a)
instance k0_chk572.dec : ∀ (v1604 : IVec S16 32) (v1606 : IVec S16 32), Decidable (k0_chk572 v1604 v1606) := fun v1604 v1606 => decidable_of_iff' _ (Iff.of_eq (k0_chk572.eq_1 v1604 v1606))
theorem k0_idx572_inb : ∀ (v1604 : IVec S16 32) (v1606 : IVec S16 32) (k0_hw572 : k0_chk572 v1604 v1606), ∀ a x, ((![v1604, v1606] : Fin 2 → IVec S16 32) a x).toNat < S200x256.size a := fun v1604 v1606 k0_hw572 => k0_hw572
def k0_off115 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1609 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_786 : BitVec 32 := 256#32
  let v1607 : BitVec 32 := Scalar.muli v1496 c256_i32_786
  let c192_i32_787 : BitVec 32 := 192#32
  let v1608 : BitVec 32 := Scalar.addi v1607 c192_i32_787
  let v1610 : Index := Scalar.indexCast v1608
  ![v1609.toNat, v1610.toNat]

def k0_chk573 (v1613 : IVec S16 32) (v1615 : IVec S16 32) : Prop :=
  (∀ a x, ((![v1613, v1615] : Fin 2 → IVec S16 32) a x).toNat < S200x256.size a)
instance k0_chk573.dec : ∀ (v1613 : IVec S16 32) (v1615 : IVec S16 32), Decidable (k0_chk573 v1613 v1615) := fun v1613 v1615 => decidable_of_iff' _ (Iff.of_eq (k0_chk573.eq_1 v1613 v1615))
theorem k0_idx573_inb : ∀ (v1613 : IVec S16 32) (v1615 : IVec S16 32) (k0_hw573 : k0_chk573 v1613 v1615), ∀ a x, ((![v1613, v1615] : Fin 2 → IVec S16 32) a x).toNat < S200x256.size a := fun v1613 v1615 k0_hw573 => k0_hw573
def k0_off116 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1618 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_790 : BitVec 32 := 256#32
  let v1616 : BitVec 32 := Scalar.muli v1496 c256_i32_790
  let c208_i32_791 : BitVec 32 := 208#32
  let v1617 : BitVec 32 := Scalar.addi v1616 c208_i32_791
  let v1619 : Index := Scalar.indexCast v1617
  ![v1618.toNat, v1619.toNat]

def k0_chk574 (v1622 : IVec S16 32) (v1624 : IVec S16 32) : Prop :=
  (∀ a x, ((![v1622, v1624] : Fin 2 → IVec S16 32) a x).toNat < S200x256.size a)
instance k0_chk574.dec : ∀ (v1622 : IVec S16 32) (v1624 : IVec S16 32), Decidable (k0_chk574 v1622 v1624) := fun v1622 v1624 => decidable_of_iff' _ (Iff.of_eq (k0_chk574.eq_1 v1622 v1624))
theorem k0_idx574_inb : ∀ (v1622 : IVec S16 32) (v1624 : IVec S16 32) (k0_hw574 : k0_chk574 v1622 v1624), ∀ a x, ((![v1622, v1624] : Fin 2 → IVec S16 32) a x).toNat < S200x256.size a := fun v1622 v1624 k0_hw574 => k0_hw574
def k0_off117 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1627 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_794 : BitVec 32 := 256#32
  let v1625 : BitVec 32 := Scalar.muli v1496 c256_i32_794
  let c224_i32_795 : BitVec 32 := 224#32
  let v1626 : BitVec 32 := Scalar.addi v1625 c224_i32_795
  let v1628 : Index := Scalar.indexCast v1626
  ![v1627.toNat, v1628.toNat]

def k0_chk575 (v1631 : IVec S16 32) (v1633 : IVec S16 32) : Prop :=
  (∀ a x, ((![v1631, v1633] : Fin 2 → IVec S16 32) a x).toNat < S200x256.size a)
instance k0_chk575.dec : ∀ (v1631 : IVec S16 32) (v1633 : IVec S16 32), Decidable (k0_chk575 v1631 v1633) := fun v1631 v1633 => decidable_of_iff' _ (Iff.of_eq (k0_chk575.eq_1 v1631 v1633))
theorem k0_idx575_inb : ∀ (v1631 : IVec S16 32) (v1633 : IVec S16 32) (k0_hw575 : k0_chk575 v1631 v1633), ∀ a x, ((![v1631, v1633] : Fin 2 → IVec S16 32) a x).toNat < S200x256.size a := fun v1631 v1633 k0_hw575 => k0_hw575
def k0_off118 (k0_t3 : Fin k0_t3_loop.trips) : Fin 2 → Nat :=
  let c2_i32_736 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1497 : BitVec 32 := Scalar.muli c2_i32_736 v1486
  let c0_i32_737 : BitVec 32 := 0#32
  let v1498 : BitVec 32 := Scalar.addi v1497 c0_i32_737
  let v1636 : Index := Scalar.indexCast v1498
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_798 : BitVec 32 := 256#32
  let v1634 : BitVec 32 := Scalar.muli v1496 c256_i32_798
  let c240_i32_799 : BitVec 32 := 240#32
  let v1635 : BitVec 32 := Scalar.addi v1634 c240_i32_799
  let v1637 : Index := Scalar.indexCast v1635
  ![v1636.toNat, v1637.toNat]

def k0_chk576 (v1640 : IVec S16 32) (v1642 : IVec S16 32) : Prop :=
  (∀ a x, ((![v1640, v1642] : Fin 2 → IVec S16 32) a x).toNat < S200x256.size a)
instance k0_chk576.dec : ∀ (v1640 : IVec S16 32) (v1642 : IVec S16 32), Decidable (k0_chk576 v1640 v1642) := fun v1640 v1642 => decidable_of_iff' _ (Iff.of_eq (k0_chk576.eq_1 v1640 v1642))
theorem k0_idx576_inb : ∀ (v1640 : IVec S16 32) (v1642 : IVec S16 32) (k0_hw576 : k0_chk576 v1640 v1642), ∀ a x, ((![v1640, v1642] : Fin 2 → IVec S16 32) a x).toNat < S200x256.size a := fun v1640 v1642 k0_hw576 => k0_hw576
def k0_off119 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1647 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_804 : BitVec 32 := 256#32
  let v1645 : BitVec 32 := Scalar.muli v1496 c256_i32_804
  let c0_i32_805 : BitVec 32 := 0#32
  let v1646 : BitVec 32 := Scalar.addi v1645 c0_i32_805
  let v1648 : Index := Scalar.indexCast v1646
  ![v1647.toNat, v1648.toNat]

def k0_chk577 (v1651 : IVec S16 32) (v1653 : IVec S16 32) : Prop :=
  (∀ a x, ((![v1651, v1653] : Fin 2 → IVec S16 32) a x).toNat < S200x256.size a)
instance k0_chk577.dec : ∀ (v1651 : IVec S16 32) (v1653 : IVec S16 32), Decidable (k0_chk577 v1651 v1653) := fun v1651 v1653 => decidable_of_iff' _ (Iff.of_eq (k0_chk577.eq_1 v1651 v1653))
theorem k0_idx577_inb : ∀ (v1651 : IVec S16 32) (v1653 : IVec S16 32) (k0_hw577 : k0_chk577 v1651 v1653), ∀ a x, ((![v1651, v1653] : Fin 2 → IVec S16 32) a x).toNat < S200x256.size a := fun v1651 v1653 k0_hw577 => k0_hw577
def k0_off120 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1656 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_808 : BitVec 32 := 256#32
  let v1654 : BitVec 32 := Scalar.muli v1496 c256_i32_808
  let c16_i32_809 : BitVec 32 := 16#32
  let v1655 : BitVec 32 := Scalar.addi v1654 c16_i32_809
  let v1657 : Index := Scalar.indexCast v1655
  ![v1656.toNat, v1657.toNat]

def k0_chk578 (v1660 : IVec S16 32) (v1662 : IVec S16 32) : Prop :=
  (∀ a x, ((![v1660, v1662] : Fin 2 → IVec S16 32) a x).toNat < S200x256.size a)
instance k0_chk578.dec : ∀ (v1660 : IVec S16 32) (v1662 : IVec S16 32), Decidable (k0_chk578 v1660 v1662) := fun v1660 v1662 => decidable_of_iff' _ (Iff.of_eq (k0_chk578.eq_1 v1660 v1662))
theorem k0_idx578_inb : ∀ (v1660 : IVec S16 32) (v1662 : IVec S16 32) (k0_hw578 : k0_chk578 v1660 v1662), ∀ a x, ((![v1660, v1662] : Fin 2 → IVec S16 32) a x).toNat < S200x256.size a := fun v1660 v1662 k0_hw578 => k0_hw578
def k0_off121 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1665 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_812 : BitVec 32 := 256#32
  let v1663 : BitVec 32 := Scalar.muli v1496 c256_i32_812
  let c32_i32_813 : BitVec 32 := 32#32
  let v1664 : BitVec 32 := Scalar.addi v1663 c32_i32_813
  let v1666 : Index := Scalar.indexCast v1664
  ![v1665.toNat, v1666.toNat]

def k0_chk579 (v1669 : IVec S16 32) (v1671 : IVec S16 32) : Prop :=
  (∀ a x, ((![v1669, v1671] : Fin 2 → IVec S16 32) a x).toNat < S200x256.size a)
instance k0_chk579.dec : ∀ (v1669 : IVec S16 32) (v1671 : IVec S16 32), Decidable (k0_chk579 v1669 v1671) := fun v1669 v1671 => decidable_of_iff' _ (Iff.of_eq (k0_chk579.eq_1 v1669 v1671))
theorem k0_idx579_inb : ∀ (v1669 : IVec S16 32) (v1671 : IVec S16 32) (k0_hw579 : k0_chk579 v1669 v1671), ∀ a x, ((![v1669, v1671] : Fin 2 → IVec S16 32) a x).toNat < S200x256.size a := fun v1669 v1671 k0_hw579 => k0_hw579
def k0_off122 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1674 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_816 : BitVec 32 := 256#32
  let v1672 : BitVec 32 := Scalar.muli v1496 c256_i32_816
  let c48_i32_817 : BitVec 32 := 48#32
  let v1673 : BitVec 32 := Scalar.addi v1672 c48_i32_817
  let v1675 : Index := Scalar.indexCast v1673
  ![v1674.toNat, v1675.toNat]

def k0_chk580 (v1678 : IVec S16 32) (v1680 : IVec S16 32) : Prop :=
  (∀ a x, ((![v1678, v1680] : Fin 2 → IVec S16 32) a x).toNat < S200x256.size a)
instance k0_chk580.dec : ∀ (v1678 : IVec S16 32) (v1680 : IVec S16 32), Decidable (k0_chk580 v1678 v1680) := fun v1678 v1680 => decidable_of_iff' _ (Iff.of_eq (k0_chk580.eq_1 v1678 v1680))
theorem k0_idx580_inb : ∀ (v1678 : IVec S16 32) (v1680 : IVec S16 32) (k0_hw580 : k0_chk580 v1678 v1680), ∀ a x, ((![v1678, v1680] : Fin 2 → IVec S16 32) a x).toNat < S200x256.size a := fun v1678 v1680 k0_hw580 => k0_hw580
def k0_off123 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1683 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_820 : BitVec 32 := 256#32
  let v1681 : BitVec 32 := Scalar.muli v1496 c256_i32_820
  let c64_i32_821 : BitVec 32 := 64#32
  let v1682 : BitVec 32 := Scalar.addi v1681 c64_i32_821
  let v1684 : Index := Scalar.indexCast v1682
  ![v1683.toNat, v1684.toNat]

def k0_chk581 (v1687 : IVec S16 32) (v1689 : IVec S16 32) : Prop :=
  (∀ a x, ((![v1687, v1689] : Fin 2 → IVec S16 32) a x).toNat < S200x256.size a)
instance k0_chk581.dec : ∀ (v1687 : IVec S16 32) (v1689 : IVec S16 32), Decidable (k0_chk581 v1687 v1689) := fun v1687 v1689 => decidable_of_iff' _ (Iff.of_eq (k0_chk581.eq_1 v1687 v1689))
theorem k0_idx581_inb : ∀ (v1687 : IVec S16 32) (v1689 : IVec S16 32) (k0_hw581 : k0_chk581 v1687 v1689), ∀ a x, ((![v1687, v1689] : Fin 2 → IVec S16 32) a x).toNat < S200x256.size a := fun v1687 v1689 k0_hw581 => k0_hw581
def k0_off124 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1692 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_824 : BitVec 32 := 256#32
  let v1690 : BitVec 32 := Scalar.muli v1496 c256_i32_824
  let c80_i32_825 : BitVec 32 := 80#32
  let v1691 : BitVec 32 := Scalar.addi v1690 c80_i32_825
  let v1693 : Index := Scalar.indexCast v1691
  ![v1692.toNat, v1693.toNat]

def k0_chk582 (v1696 : IVec S16 32) (v1698 : IVec S16 32) : Prop :=
  (∀ a x, ((![v1696, v1698] : Fin 2 → IVec S16 32) a x).toNat < S200x256.size a)
instance k0_chk582.dec : ∀ (v1696 : IVec S16 32) (v1698 : IVec S16 32), Decidable (k0_chk582 v1696 v1698) := fun v1696 v1698 => decidable_of_iff' _ (Iff.of_eq (k0_chk582.eq_1 v1696 v1698))
theorem k0_idx582_inb : ∀ (v1696 : IVec S16 32) (v1698 : IVec S16 32) (k0_hw582 : k0_chk582 v1696 v1698), ∀ a x, ((![v1696, v1698] : Fin 2 → IVec S16 32) a x).toNat < S200x256.size a := fun v1696 v1698 k0_hw582 => k0_hw582
def k0_off125 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1701 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_828 : BitVec 32 := 256#32
  let v1699 : BitVec 32 := Scalar.muli v1496 c256_i32_828
  let c96_i32_829 : BitVec 32 := 96#32
  let v1700 : BitVec 32 := Scalar.addi v1699 c96_i32_829
  let v1702 : Index := Scalar.indexCast v1700
  ![v1701.toNat, v1702.toNat]

def k0_chk583 (v1705 : IVec S16 32) (v1707 : IVec S16 32) : Prop :=
  (∀ a x, ((![v1705, v1707] : Fin 2 → IVec S16 32) a x).toNat < S200x256.size a)
instance k0_chk583.dec : ∀ (v1705 : IVec S16 32) (v1707 : IVec S16 32), Decidable (k0_chk583 v1705 v1707) := fun v1705 v1707 => decidable_of_iff' _ (Iff.of_eq (k0_chk583.eq_1 v1705 v1707))
theorem k0_idx583_inb : ∀ (v1705 : IVec S16 32) (v1707 : IVec S16 32) (k0_hw583 : k0_chk583 v1705 v1707), ∀ a x, ((![v1705, v1707] : Fin 2 → IVec S16 32) a x).toNat < S200x256.size a := fun v1705 v1707 k0_hw583 => k0_hw583
def k0_off126 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1710 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_832 : BitVec 32 := 256#32
  let v1708 : BitVec 32 := Scalar.muli v1496 c256_i32_832
  let c112_i32_833 : BitVec 32 := 112#32
  let v1709 : BitVec 32 := Scalar.addi v1708 c112_i32_833
  let v1711 : Index := Scalar.indexCast v1709
  ![v1710.toNat, v1711.toNat]

def k0_chk584 (v1714 : IVec S16 32) (v1716 : IVec S16 32) : Prop :=
  (∀ a x, ((![v1714, v1716] : Fin 2 → IVec S16 32) a x).toNat < S200x256.size a)
instance k0_chk584.dec : ∀ (v1714 : IVec S16 32) (v1716 : IVec S16 32), Decidable (k0_chk584 v1714 v1716) := fun v1714 v1716 => decidable_of_iff' _ (Iff.of_eq (k0_chk584.eq_1 v1714 v1716))
theorem k0_idx584_inb : ∀ (v1714 : IVec S16 32) (v1716 : IVec S16 32) (k0_hw584 : k0_chk584 v1714 v1716), ∀ a x, ((![v1714, v1716] : Fin 2 → IVec S16 32) a x).toNat < S200x256.size a := fun v1714 v1716 k0_hw584 => k0_hw584
def k0_off127 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1719 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_836 : BitVec 32 := 256#32
  let v1717 : BitVec 32 := Scalar.muli v1496 c256_i32_836
  let c128_i32_837 : BitVec 32 := 128#32
  let v1718 : BitVec 32 := Scalar.addi v1717 c128_i32_837
  let v1720 : Index := Scalar.indexCast v1718
  ![v1719.toNat, v1720.toNat]

def k0_chk585 (v1723 : IVec S16 32) (v1725 : IVec S16 32) : Prop :=
  (∀ a x, ((![v1723, v1725] : Fin 2 → IVec S16 32) a x).toNat < S200x256.size a)
instance k0_chk585.dec : ∀ (v1723 : IVec S16 32) (v1725 : IVec S16 32), Decidable (k0_chk585 v1723 v1725) := fun v1723 v1725 => decidable_of_iff' _ (Iff.of_eq (k0_chk585.eq_1 v1723 v1725))
theorem k0_idx585_inb : ∀ (v1723 : IVec S16 32) (v1725 : IVec S16 32) (k0_hw585 : k0_chk585 v1723 v1725), ∀ a x, ((![v1723, v1725] : Fin 2 → IVec S16 32) a x).toNat < S200x256.size a := fun v1723 v1725 k0_hw585 => k0_hw585
def k0_off128 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1728 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_840 : BitVec 32 := 256#32
  let v1726 : BitVec 32 := Scalar.muli v1496 c256_i32_840
  let c144_i32_841 : BitVec 32 := 144#32
  let v1727 : BitVec 32 := Scalar.addi v1726 c144_i32_841
  let v1729 : Index := Scalar.indexCast v1727
  ![v1728.toNat, v1729.toNat]

def k0_chk586 (v1732 : IVec S16 32) (v1734 : IVec S16 32) : Prop :=
  (∀ a x, ((![v1732, v1734] : Fin 2 → IVec S16 32) a x).toNat < S200x256.size a)
instance k0_chk586.dec : ∀ (v1732 : IVec S16 32) (v1734 : IVec S16 32), Decidable (k0_chk586 v1732 v1734) := fun v1732 v1734 => decidable_of_iff' _ (Iff.of_eq (k0_chk586.eq_1 v1732 v1734))
theorem k0_idx586_inb : ∀ (v1732 : IVec S16 32) (v1734 : IVec S16 32) (k0_hw586 : k0_chk586 v1732 v1734), ∀ a x, ((![v1732, v1734] : Fin 2 → IVec S16 32) a x).toNat < S200x256.size a := fun v1732 v1734 k0_hw586 => k0_hw586
def k0_off129 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1737 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_844 : BitVec 32 := 256#32
  let v1735 : BitVec 32 := Scalar.muli v1496 c256_i32_844
  let c160_i32_845 : BitVec 32 := 160#32
  let v1736 : BitVec 32 := Scalar.addi v1735 c160_i32_845
  let v1738 : Index := Scalar.indexCast v1736
  ![v1737.toNat, v1738.toNat]

def k0_chk587 (v1741 : IVec S16 32) (v1743 : IVec S16 32) : Prop :=
  (∀ a x, ((![v1741, v1743] : Fin 2 → IVec S16 32) a x).toNat < S200x256.size a)
instance k0_chk587.dec : ∀ (v1741 : IVec S16 32) (v1743 : IVec S16 32), Decidable (k0_chk587 v1741 v1743) := fun v1741 v1743 => decidable_of_iff' _ (Iff.of_eq (k0_chk587.eq_1 v1741 v1743))
theorem k0_idx587_inb : ∀ (v1741 : IVec S16 32) (v1743 : IVec S16 32) (k0_hw587 : k0_chk587 v1741 v1743), ∀ a x, ((![v1741, v1743] : Fin 2 → IVec S16 32) a x).toNat < S200x256.size a := fun v1741 v1743 k0_hw587 => k0_hw587
def k0_off130 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1746 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_848 : BitVec 32 := 256#32
  let v1744 : BitVec 32 := Scalar.muli v1496 c256_i32_848
  let c176_i32_849 : BitVec 32 := 176#32
  let v1745 : BitVec 32 := Scalar.addi v1744 c176_i32_849
  let v1747 : Index := Scalar.indexCast v1745
  ![v1746.toNat, v1747.toNat]

def k0_chk588 (v1750 : IVec S16 32) (v1752 : IVec S16 32) : Prop :=
  (∀ a x, ((![v1750, v1752] : Fin 2 → IVec S16 32) a x).toNat < S200x256.size a)
instance k0_chk588.dec : ∀ (v1750 : IVec S16 32) (v1752 : IVec S16 32), Decidable (k0_chk588 v1750 v1752) := fun v1750 v1752 => decidable_of_iff' _ (Iff.of_eq (k0_chk588.eq_1 v1750 v1752))
theorem k0_idx588_inb : ∀ (v1750 : IVec S16 32) (v1752 : IVec S16 32) (k0_hw588 : k0_chk588 v1750 v1752), ∀ a x, ((![v1750, v1752] : Fin 2 → IVec S16 32) a x).toNat < S200x256.size a := fun v1750 v1752 k0_hw588 => k0_hw588
def k0_off131 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1755 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_852 : BitVec 32 := 256#32
  let v1753 : BitVec 32 := Scalar.muli v1496 c256_i32_852
  let c192_i32_853 : BitVec 32 := 192#32
  let v1754 : BitVec 32 := Scalar.addi v1753 c192_i32_853
  let v1756 : Index := Scalar.indexCast v1754
  ![v1755.toNat, v1756.toNat]

def k0_chk589 (v1759 : IVec S16 32) (v1761 : IVec S16 32) : Prop :=
  (∀ a x, ((![v1759, v1761] : Fin 2 → IVec S16 32) a x).toNat < S200x256.size a)
instance k0_chk589.dec : ∀ (v1759 : IVec S16 32) (v1761 : IVec S16 32), Decidable (k0_chk589 v1759 v1761) := fun v1759 v1761 => decidable_of_iff' _ (Iff.of_eq (k0_chk589.eq_1 v1759 v1761))
theorem k0_idx589_inb : ∀ (v1759 : IVec S16 32) (v1761 : IVec S16 32) (k0_hw589 : k0_chk589 v1759 v1761), ∀ a x, ((![v1759, v1761] : Fin 2 → IVec S16 32) a x).toNat < S200x256.size a := fun v1759 v1761 k0_hw589 => k0_hw589
def k0_off132 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1764 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_856 : BitVec 32 := 256#32
  let v1762 : BitVec 32 := Scalar.muli v1496 c256_i32_856
  let c208_i32_857 : BitVec 32 := 208#32
  let v1763 : BitVec 32 := Scalar.addi v1762 c208_i32_857
  let v1765 : Index := Scalar.indexCast v1763
  ![v1764.toNat, v1765.toNat]

def k0_chk590 (v1768 : IVec S16 32) (v1770 : IVec S16 32) : Prop :=
  (∀ a x, ((![v1768, v1770] : Fin 2 → IVec S16 32) a x).toNat < S200x256.size a)
instance k0_chk590.dec : ∀ (v1768 : IVec S16 32) (v1770 : IVec S16 32), Decidable (k0_chk590 v1768 v1770) := fun v1768 v1770 => decidable_of_iff' _ (Iff.of_eq (k0_chk590.eq_1 v1768 v1770))
theorem k0_idx590_inb : ∀ (v1768 : IVec S16 32) (v1770 : IVec S16 32) (k0_hw590 : k0_chk590 v1768 v1770), ∀ a x, ((![v1768, v1770] : Fin 2 → IVec S16 32) a x).toNat < S200x256.size a := fun v1768 v1770 k0_hw590 => k0_hw590
def k0_off133 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1773 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_860 : BitVec 32 := 256#32
  let v1771 : BitVec 32 := Scalar.muli v1496 c256_i32_860
  let c224_i32_861 : BitVec 32 := 224#32
  let v1772 : BitVec 32 := Scalar.addi v1771 c224_i32_861
  let v1774 : Index := Scalar.indexCast v1772
  ![v1773.toNat, v1774.toNat]

def k0_chk591 (v1777 : IVec S16 32) (v1779 : IVec S16 32) : Prop :=
  (∀ a x, ((![v1777, v1779] : Fin 2 → IVec S16 32) a x).toNat < S200x256.size a)
instance k0_chk591.dec : ∀ (v1777 : IVec S16 32) (v1779 : IVec S16 32), Decidable (k0_chk591 v1777 v1779) := fun v1777 v1779 => decidable_of_iff' _ (Iff.of_eq (k0_chk591.eq_1 v1777 v1779))
theorem k0_idx591_inb : ∀ (v1777 : IVec S16 32) (v1779 : IVec S16 32) (k0_hw591 : k0_chk591 v1777 v1779), ∀ a x, ((![v1777, v1779] : Fin 2 → IVec S16 32) a x).toNat < S200x256.size a := fun v1777 v1779 k0_hw591 => k0_hw591
def k0_off134 (k0_t3 : Fin k0_t3_loop.trips) : Fin 2 → Nat :=
  let c2_i32_802 : BitVec 32 := 2#32
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_724 : BitVec 32 := 0#32
  let v1471 : BitVec 1 := Scalar.cmpi .sgt v1116 c0_i32_724
  let v1472 : BitVec 32 := Scalar.extui v1471
  let c0_i32_725 : BitVec 32 := 0#32
  let v1473 : BitVec 1 := Scalar.cmpi .slt v1116 c0_i32_725
  let v1474 : BitVec 32 := Scalar.extui v1473
  let v1475 : BitVec 32 := Scalar.subi v1472 v1474
  let c2_i32_723 : BitVec 32 := 2#32
  let c0_i32_726 : BitVec 32 := 0#32
  let v1476 : BitVec 1 := Scalar.cmpi .sgt c2_i32_723 c0_i32_726
  let v1477 : BitVec 32 := Scalar.extui v1476
  let c0_i32_727 : BitVec 32 := 0#32
  let v1478 : BitVec 1 := Scalar.cmpi .slt c2_i32_723 c0_i32_727
  let v1479 : BitVec 32 := Scalar.extui v1478
  let v1480 : BitVec 32 := Scalar.subi v1477 v1479
  let v1481 : BitVec 1 := Scalar.cmpi .ne v1475 v1480
  let v1482 : BitVec 32 := Scalar.remsi v1116 c2_i32_723
  let c0_i32_728 : BitVec 32 := 0#32
  let v1483 : BitVec 1 := Scalar.cmpi .ne v1482 c0_i32_728
  let v1484 : BitVec 1 := Scalar.andi v1481 v1483
  let v1470 : BitVec 32 := Scalar.divsi v1116 c2_i32_723
  let c1_i32_729 : BitVec 32 := 1#32
  let v1485 : BitVec 32 := Scalar.subi v1470 c1_i32_729
  let v1486 : BitVec 32 := Scalar.select v1484 v1485 v1470
  let v1643 : BitVec 32 := Scalar.muli c2_i32_802 v1486
  let c1_i32_803 : BitVec 32 := 1#32
  let v1644 : BitVec 32 := Scalar.addi v1643 c1_i32_803
  let v1782 : Index := Scalar.indexCast v1644
  let c2_i32_730 : BitVec 32 := 2#32
  let c0_i32_731 : BitVec 32 := 0#32
  let v1487 : BitVec 1 := Scalar.cmpi .eq c2_i32_730 c0_i32_731
  let c1_i32_732 : BitVec 32 := 1#32
  let v1488 : BitVec 32 := Scalar.select v1487 c1_i32_732 c2_i32_730
  let v1489 : BitVec 32 := Scalar.remsi v1116 v1488
  let c0_i32_734 : BitVec 32 := 0#32
  let v1491 : BitVec 1 := Scalar.cmpi .slt v1489 c0_i32_734
  let c0_i32_735 : BitVec 32 := 0#32
  let v1492 : BitVec 1 := Scalar.cmpi .slt v1488 c0_i32_735
  let v1493 : BitVec 1 := Scalar.xori v1491 v1492
  let c0_i32_733 : BitVec 32 := 0#32
  let v1490 : BitVec 1 := Scalar.cmpi .ne v1489 c0_i32_733
  let v1494 : BitVec 1 := Scalar.andi v1493 v1490
  let v1495 : BitVec 32 := Scalar.addi v1489 v1488
  let v1496 : BitVec 32 := Scalar.select v1494 v1495 v1489
  let c256_i32_864 : BitVec 32 := 256#32
  let v1780 : BitVec 32 := Scalar.muli v1496 c256_i32_864
  let c240_i32_865 : BitVec 32 := 240#32
  let v1781 : BitVec 32 := Scalar.addi v1780 c240_i32_865
  let v1783 : Index := Scalar.indexCast v1781
  ![v1782.toNat, v1783.toNat]

def k0_chk592 (v1786 : IVec S16 32) (v1788 : IVec S16 32) : Prop :=
  (∀ a x, ((![v1786, v1788] : Fin 2 → IVec S16 32) a x).toNat < S200x256.size a)
instance k0_chk592.dec : ∀ (v1786 : IVec S16 32) (v1788 : IVec S16 32), Decidable (k0_chk592 v1786 v1788) := fun v1786 v1788 => decidable_of_iff' _ (Iff.of_eq (k0_chk592.eq_1 v1786 v1788))
theorem k0_idx592_inb : ∀ (v1786 : IVec S16 32) (v1788 : IVec S16 32) (k0_hw592 : k0_chk592 v1786 v1788), ∀ a x, ((![v1786, v1788] : Fin 2 → IVec S16 32) a x).toNat < S200x256.size a := fun v1786 v1788 k0_hw592 => k0_hw592
def k0_off135 (i : grid0.Coords) (k0_t3 : Fin k0_t3_loop.trips) : Fin 2 → Nat :=
  let c2_i32_559 : BitVec 32 := 2#32
  let c1_i32_228 : BitVec 32 := 1#32
  let c1_i32_229 : BitVec 32 := 1#32
  let arg10 : BitVec 32 := Scf.iv c1_i32_228 c1_i32_229 k0_t3
  let v1115 : BitVec 32 := Scalar.muli c2_i32_559 arg10
  let c1_i32_560 : BitVec 32 := 1#32
  let v1116 : BitVec 32 := Scalar.addi v1115 c1_i32_560
  let c0_i32_869 : BitVec 32 := 0#32
  let v1790 : BitVec 1 := Scalar.cmpi .sgt v1116 c0_i32_869
  let v1791 : BitVec 32 := Scalar.extui v1790
  let c0_i32_870 : BitVec 32 := 0#32
  let v1792 : BitVec 1 := Scalar.cmpi .slt v1116 c0_i32_870
  let v1793 : BitVec 32 := Scalar.extui v1792
  let v1794 : BitVec 32 := Scalar.subi v1791 v1793
  let c2_i32_868 : BitVec 32 := 2#32
  let c0_i32_871 : BitVec 32 := 0#32
  let v1795 : BitVec 1 := Scalar.cmpi .sgt c2_i32_868 c0_i32_871
  let v1796 : BitVec 32 := Scalar.extui v1795
  let c0_i32_872 : BitVec 32 := 0#32
  let v1797 : BitVec 1 := Scalar.cmpi .slt c2_i32_868 c0_i32_872
  let v1798 : BitVec 32 := Scalar.extui v1797
  let v1799 : BitVec 32 := Scalar.subi v1796 v1798
  let v1800 : BitVec 1 := Scalar.cmpi .ne v1794 v1799
  let v1801 : BitVec 32 := Scalar.remsi v1116 c2_i32_868
  let c0_i32_873 : BitVec 32 := 0#32
  let v1802 : BitVec 1 := Scalar.cmpi .ne v1801 c0_i32_873
  let v1803 : BitVec 1 := Scalar.andi v1800 v1802
  let v1789 : BitVec 32 := Scalar.divsi v1116 c2_i32_868
  let c1_i32_874 : BitVec 32 := 1#32
  let v1804 : BitVec 32 := Scalar.subi v1789 c1_i32_874
  let v1805 : BitVec 32 := Scalar.select v1803 v1804 v1789
  let c200_i32_881 : BitVec 32 := 200#32
  let v1816 : BitVec 32 := Scalar.muli v1805 c200_i32_881
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let c2_i32_875 : BitVec 32 := 2#32
  let c0_i32_876 : BitVec 32 := 0#32
  let v1806 : BitVec 1 := Scalar.cmpi .eq c2_i32_875 c0_i32_876
  let c1_i32_877 : BitVec 32 := 1#32
  let v1807 : BitVec 32 := Scalar.select v1806 c1_i32_877 c2_i32_875
  let v1808 : BitVec 32 := Scalar.remsi v1116 v1807
  let c0_i32_879 : BitVec 32 := 0#32
  let v1810 : BitVec 1 := Scalar.cmpi .slt v1808 c0_i32_879
  let c0_i32_880 : BitVec 32 := 0#32
  let v1811 : BitVec 1 := Scalar.cmpi .slt v1807 c0_i32_880
  let v1812 : BitVec 1 := Scalar.xori v1810 v1811
  let c0_i32_878 : BitVec 32 := 0#32
  let v1809 : BitVec 1 := Scalar.cmpi .ne v1808 c0_i32_878
  let v1813 : BitVec 1 := Scalar.andi v1812 v1809
  let v1814 : BitVec 32 := Scalar.addi v1808 v1807
  let v1815 : BitVec 32 := Scalar.select v1813 v1814 v1808
  let c256_i32_882 : BitVec 32 := 256#32
  let v1817 : BitVec 32 := Scalar.muli v1815 c256_i32_882
  let v1818 : BitVec 32 := Scalar.addi v5 v1817
  ![v1816.toNat, v1818.toNat]
def k0_off136 (i : grid0.Coords) (c0_i32_231 : BitVec 32) : Fin 2 → Nat :=
  let c2400_i32 : BitVec 32 := 2400#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c512_i32 : BitVec 32 := 512#32
  let v5 : BitVec 32 := Scalar.muli v1 c512_i32
  let v403 : BitVec 32 := Scalar.addi v5 c0_i32_231
  ![2400, v403.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))

class Facts₀ : Prop where
  transposes_S16384x26_S26x16384_1_0 : S16384x26.Transposes [1, 0] S26x16384
  iota_S16_d0_w32_scVector : S16.Iotas .scVector 32 [0]
  h_S200x256 : 0 < S200x256.numel
  inb_S26x512_S1x16_0_0 : ∀ a, (![0, 0] : Fin 2 → Nat) a + S1x16.size a ≤ S26x512.size a
  h_S1x16 : 0 < S1x16.numel
  shapeCasts_S1x16_S16 : S1x16.ShapeCasts S16
  inb_S26x512_S1x16_0_16 : ∀ a, (![0, 16] : Fin 2 → Nat) a + S1x16.size a ≤ S26x512.size a
  inb_S26x512_S1x16_0_32 : ∀ a, (![0, 32] : Fin 2 → Nat) a + S1x16.size a ≤ S26x512.size a
  inb_S26x512_S1x16_0_48 : ∀ a, (![0, 48] : Fin 2 → Nat) a + S1x16.size a ≤ S26x512.size a
  inb_S26x512_S1x16_0_64 : ∀ a, (![0, 64] : Fin 2 → Nat) a + S1x16.size a ≤ S26x512.size a
  inb_S26x512_S1x16_0_80 : ∀ a, (![0, 80] : Fin 2 → Nat) a + S1x16.size a ≤ S26x512.size a
  inb_S26x512_S1x16_0_96 : ∀ a, (![0, 96] : Fin 2 → Nat) a + S1x16.size a ≤ S26x512.size a
  inb_S26x512_S1x16_0_112 : ∀ a, (![0, 112] : Fin 2 → Nat) a + S1x16.size a ≤ S26x512.size a
  inb_S26x512_S1x16_0_128 : ∀ a, (![0, 128] : Fin 2 → Nat) a + S1x16.size a ≤ S26x512.size a
  inb_S26x512_S1x16_0_144 : ∀ a, (![0, 144] : Fin 2 → Nat) a + S1x16.size a ≤ S26x512.size a
  inb_S26x512_S1x16_0_160 : ∀ a, (![0, 160] : Fin 2 → Nat) a + S1x16.size a ≤ S26x512.size a
  inb_S26x512_S1x16_0_176 : ∀ a, (![0, 176] : Fin 2 → Nat) a + S1x16.size a ≤ S26x512.size a
  inb_S26x512_S1x16_0_192 : ∀ a, (![0, 192] : Fin 2 → Nat) a + S1x16.size a ≤ S26x512.size a
  inb_S26x512_S1x16_0_208 : ∀ a, (![0, 208] : Fin 2 → Nat) a + S1x16.size a ≤ S26x512.size a
  inb_S26x512_S1x16_0_224 : ∀ a, (![0, 224] : Fin 2 → Nat) a + S1x16.size a ≤ S26x512.size a
  inb_S26x512_S1x16_0_240 : ∀ a, (![0, 240] : Fin 2 → Nat) a + S1x16.size a ≤ S26x512.size a
  inb_S26x512_S1x16_1_0 : ∀ a, (![1, 0] : Fin 2 → Nat) a + S1x16.size a ≤ S26x512.size a
  inb_S26x512_S1x16_1_16 : ∀ a, (![1, 16] : Fin 2 → Nat) a + S1x16.size a ≤ S26x512.size a
  inb_S26x512_S1x16_1_32 : ∀ a, (![1, 32] : Fin 2 → Nat) a + S1x16.size a ≤ S26x512.size a
  inb_S26x512_S1x16_1_48 : ∀ a, (![1, 48] : Fin 2 → Nat) a + S1x16.size a ≤ S26x512.size a
  inb_S26x512_S1x16_1_64 : ∀ a, (![1, 64] : Fin 2 → Nat) a + S1x16.size a ≤ S26x512.size a
  inb_S26x512_S1x16_1_80 : ∀ a, (![1, 80] : Fin 2 → Nat) a + S1x16.size a ≤ S26x512.size a
  inb_S26x512_S1x16_1_96 : ∀ a, (![1, 96] : Fin 2 → Nat) a + S1x16.size a ≤ S26x512.size a
  inb_S26x512_S1x16_1_112 : ∀ a, (![1, 112] : Fin 2 → Nat) a + S1x16.size a ≤ S26x512.size a
  inb_S26x512_S1x16_1_128 : ∀ a, (![1, 128] : Fin 2 → Nat) a + S1x16.size a ≤ S26x512.size a
  inb_S26x512_S1x16_1_144 : ∀ a, (![1, 144] : Fin 2 → Nat) a + S1x16.size a ≤ S26x512.size a
  inb_S26x512_S1x16_1_160 : ∀ a, (![1, 160] : Fin 2 → Nat) a + S1x16.size a ≤ S26x512.size a
  inb_S26x512_S1x16_1_176 : ∀ a, (![1, 176] : Fin 2 → Nat) a + S1x16.size a ≤ S26x512.size a
  inb_S26x512_S1x16_1_192 : ∀ a, (![1, 192] : Fin 2 → Nat) a + S1x16.size a ≤ S26x512.size a
  inb_S26x512_S1x16_1_208 : ∀ a, (![1, 208] : Fin 2 → Nat) a + S1x16.size a ≤ S26x512.size a
  inb_S26x512_S1x16_1_224 : ∀ a, (![1, 224] : Fin 2 → Nat) a + S1x16.size a ≤ S26x512.size a
  inb_S26x512_S1x16_1_240 : ∀ a, (![1, 240] : Fin 2 → Nat) a + S1x16.size a ≤ S26x512.size a
  inb_S26x512_S1x16_0_256 : ∀ a, (![0, 256] : Fin 2 → Nat) a + S1x16.size a ≤ S26x512.size a
  inb_S26x512_S1x16_0_272 : ∀ a, (![0, 272] : Fin 2 → Nat) a + S1x16.size a ≤ S26x512.size a
  inb_S26x512_S1x16_0_288 : ∀ a, (![0, 288] : Fin 2 → Nat) a + S1x16.size a ≤ S26x512.size a
  inb_S26x512_S1x16_0_304 : ∀ a, (![0, 304] : Fin 2 → Nat) a + S1x16.size a ≤ S26x512.size a
  inb_S26x512_S1x16_0_320 : ∀ a, (![0, 320] : Fin 2 → Nat) a + S1x16.size a ≤ S26x512.size a
  inb_S26x512_S1x16_0_336 : ∀ a, (![0, 336] : Fin 2 → Nat) a + S1x16.size a ≤ S26x512.size a
  inb_S26x512_S1x16_0_352 : ∀ a, (![0, 352] : Fin 2 → Nat) a + S1x16.size a ≤ S26x512.size a
  inb_S26x512_S1x16_0_368 : ∀ a, (![0, 368] : Fin 2 → Nat) a + S1x16.size a ≤ S26x512.size a
  inb_S26x512_S1x16_0_384 : ∀ a, (![0, 384] : Fin 2 → Nat) a + S1x16.size a ≤ S26x512.size a
  inb_S26x512_S1x16_0_400 : ∀ a, (![0, 400] : Fin 2 → Nat) a + S1x16.size a ≤ S26x512.size a
  inb_S26x512_S1x16_0_416 : ∀ a, (![0, 416] : Fin 2 → Nat) a + S1x16.size a ≤ S26x512.size a
  inb_S26x512_S1x16_0_432 : ∀ a, (![0, 432] : Fin 2 → Nat) a + S1x16.size a ≤ S26x512.size a
  inb_S26x512_S1x16_0_448 : ∀ a, (![0, 448] : Fin 2 → Nat) a + S1x16.size a ≤ S26x512.size a
  inb_S26x512_S1x16_0_464 : ∀ a, (![0, 464] : Fin 2 → Nat) a + S1x16.size a ≤ S26x512.size a
  inb_S26x512_S1x16_0_480 : ∀ a, (![0, 480] : Fin 2 → Nat) a + S1x16.size a ≤ S26x512.size a
  inb_S26x512_S1x16_0_496 : ∀ a, (![0, 496] : Fin 2 → Nat) a + S1x16.size a ≤ S26x512.size a
  inb_S26x512_S1x16_1_256 : ∀ a, (![1, 256] : Fin 2 → Nat) a + S1x16.size a ≤ S26x512.size a
  inb_S26x512_S1x16_1_272 : ∀ a, (![1, 272] : Fin 2 → Nat) a + S1x16.size a ≤ S26x512.size a
  inb_S26x512_S1x16_1_288 : ∀ a, (![1, 288] : Fin 2 → Nat) a + S1x16.size a ≤ S26x512.size a
  inb_S26x512_S1x16_1_304 : ∀ a, (![1, 304] : Fin 2 → Nat) a + S1x16.size a ≤ S26x512.size a
  inb_S26x512_S1x16_1_320 : ∀ a, (![1, 320] : Fin 2 → Nat) a + S1x16.size a ≤ S26x512.size a
  inb_S26x512_S1x16_1_336 : ∀ a, (![1, 336] : Fin 2 → Nat) a + S1x16.size a ≤ S26x512.size a
  inb_S26x512_S1x16_1_352 : ∀ a, (![1, 352] : Fin 2 → Nat) a + S1x16.size a ≤ S26x512.size a
  inb_S26x512_S1x16_1_368 : ∀ a, (![1, 368] : Fin 2 → Nat) a + S1x16.size a ≤ S26x512.size a
  inb_S26x512_S1x16_1_384 : ∀ a, (![1, 384] : Fin 2 → Nat) a + S1x16.size a ≤ S26x512.size a
  inb_S26x512_S1x16_1_400 : ∀ a, (![1, 400] : Fin 2 → Nat) a + S1x16.size a ≤ S26x512.size a
  inb_S26x512_S1x16_1_416 : ∀ a, (![1, 416] : Fin 2 → Nat) a + S1x16.size a ≤ S26x512.size a
  inb_S26x512_S1x16_1_432 : ∀ a, (![1, 432] : Fin 2 → Nat) a + S1x16.size a ≤ S26x512.size a
  inb_S26x512_S1x16_1_448 : ∀ a, (![1, 448] : Fin 2 → Nat) a + S1x16.size a ≤ S26x512.size a
  inb_S26x512_S1x16_1_464 : ∀ a, (![1, 464] : Fin 2 → Nat) a + S1x16.size a ≤ S26x512.size a
  inb_S26x512_S1x16_1_480 : ∀ a, (![1, 480] : Fin 2 → Nat) a + S1x16.size a ≤ S26x512.size a
  inb_S26x512_S1x16_1_496 : ∀ a, (![1, 496] : Fin 2 → Nat) a + S1x16.size a ≤ S26x512.size a
  transposes_S2600x16384_S16384x2600_1_0 : S2600x16384.Transposes [1, 0] S16384x2600
  hcc0_scratch3 : 0 + S_.numel ≤ 3
  hcc0_scratch4 : 1 + S_.numel ≤ 3
  hcc0_scratch5 : 2 + S_.numel ≤ 3
  hscKind : ∀ q, scKind q ≠ .tc
  hscCore : ∀ q, scNCore q ≤ τ.nSC
  hscSub : ∀ q, scNSub q ≤ τ.nSub
  hcore0 : grid0.bound 0 ≤ τ.nSC
  hsub0 : grid0.bound 1 ≤ τ.nSub
  k0_off1_inb : ∀ i : grid0.Coords, ∀ a, (k0_off1 i) a + S26x512.size a ≤ S26x16384.size a
  k0_t1_ok : k0_t1_loop.OK
  k0_off2_inb : ∀ i : grid0.Coords, ∀ a, (k0_off2 i) a + S200x256.size a ≤ S2600x16384.size a
  k0_t2_ok : k0_t2_loop.OK
  k0_off3_inb : ∀ i : grid0.Coords, ∀ a, (k0_off3 i) a + S200x256.size a ≤ S2600x16384.size a
  k0_t3_ok : k0_t3_loop.OK
  k0_off4_inb : ∀ (i : grid0.Coords) (k0_t3 : Fin k0_t3_loop.trips), ∀ a, (k0_off4 i k0_t3) a + S200x256.size a ≤ S2600x16384.size a
  k0_off5_inb : ∀ k0_t3 : Fin k0_t3_loop.trips, ∀ a, (k0_off5 k0_t3) a + S1x16.size a ≤ S26x512.size a
  k0_off6_inb : ∀ k0_t3 : Fin k0_t3_loop.trips, ∀ a, (k0_off6 k0_t3) a + S1x16.size a ≤ S26x512.size a
  k0_off7_inb : ∀ k0_t3 : Fin k0_t3_loop.trips, ∀ a, (k0_off7 k0_t3) a + S1x16.size a ≤ S26x512.size a
  k0_off8_inb : ∀ k0_t3 : Fin k0_t3_loop.trips, ∀ a, (k0_off8 k0_t3) a + S1x16.size a ≤ S26x512.size a
  k0_off9_inb : ∀ k0_t3 : Fin k0_t3_loop.trips, ∀ a, (k0_off9 k0_t3) a + S1x16.size a ≤ S26x512.size a
  k0_off10_inb : ∀ k0_t3 : Fin k0_t3_loop.trips, ∀ a, (k0_off10 k0_t3) a + S1x16.size a ≤ S26x512.size a
  k0_off11_inb : ∀ k0_t3 : Fin k0_t3_loop.trips, ∀ a, (k0_off11 k0_t3) a + S1x16.size a ≤ S26x512.size a
  k0_off12_inb : ∀ k0_t3 : Fin k0_t3_loop.trips, ∀ a, (k0_off12 k0_t3) a + S1x16.size a ≤ S26x512.size a
  k0_off13_inb : ∀ k0_t3 : Fin k0_t3_loop.trips, ∀ a, (k0_off13 k0_t3) a + S1x16.size a ≤ S26x512.size a
  k0_off14_inb : ∀ k0_t3 : Fin k0_t3_loop.trips, ∀ a, (k0_off14 k0_t3) a + S1x16.size a ≤ S26x512.size a
  k0_off15_inb : ∀ k0_t3 : Fin k0_t3_loop.trips, ∀ a, (k0_off15 k0_t3) a + S1x16.size a ≤ S26x512.size a
  k0_off16_inb : ∀ k0_t3 : Fin k0_t3_loop.trips, ∀ a, (k0_off16 k0_t3) a + S1x16.size a ≤ S26x512.size a
  k0_off17_inb : ∀ k0_t3 : Fin k0_t3_loop.trips, ∀ a, (k0_off17 k0_t3) a + S1x16.size a ≤ S26x512.size a
  k0_off18_inb : ∀ k0_t3 : Fin k0_t3_loop.trips, ∀ a, (k0_off18 k0_t3) a + S1x16.size a ≤ S26x512.size a
  k0_off19_inb : ∀ k0_t3 : Fin k0_t3_loop.trips, ∀ a, (k0_off19 k0_t3) a + S1x16.size a ≤ S26x512.size a
  k0_off20_inb : ∀ k0_t3 : Fin k0_t3_loop.trips, ∀ a, (k0_off20 k0_t3) a + S1x16.size a ≤ S26x512.size a
  k0_off21_inb : ∀ k0_t3 : Fin k0_t3_loop.trips, ∀ a, (k0_off21 k0_t3) a + S1x16.size a ≤ S26x512.size a
  k0_off22_inb : ∀ k0_t3 : Fin k0_t3_loop.trips, ∀ a, (k0_off22 k0_t3) a + S1x16.size a ≤ S26x512.size a
  k0_off23_inb : ∀ k0_t3 : Fin k0_t3_loop.trips, ∀ a, (k0_off23 k0_t3) a + S1x16.size a ≤ S26x512.size a
  k0_off24_inb : ∀ k0_t3 : Fin k0_t3_loop.trips, ∀ a, (k0_off24 k0_t3) a + S1x16.size a ≤ S26x512.size a
  k0_off25_inb : ∀ k0_t3 : Fin k0_t3_loop.trips, ∀ a, (k0_off25 k0_t3) a + S1x16.size a ≤ S26x512.size a
  k0_off26_inb : ∀ k0_t3 : Fin k0_t3_loop.trips, ∀ a, (k0_off26 k0_t3) a + S1x16.size a ≤ S26x512.size a
  k0_off27_inb : ∀ k0_t3 : Fin k0_t3_loop.trips, ∀ a, (k0_off27 k0_t3) a + S1x16.size a ≤ S26x512.size a
  k0_off28_inb : ∀ k0_t3 : Fin k0_t3_loop.trips, ∀ a, (k0_off28 k0_t3) a + S1x16.size a ≤ S26x512.size a
  k0_off29_inb : ∀ k0_t3 : Fin k0_t3_loop.trips, ∀ a, (k0_off29 k0_t3) a + S1x16.size a ≤ S26x512.size a
  k0_off30_inb : ∀ k0_t3 : Fin k0_t3_loop.trips, ∀ a, (k0_off30 k0_t3) a + S1x16.size a ≤ S26x512.size a
  k0_off31_inb : ∀ k0_t3 : Fin k0_t3_loop.trips, ∀ a, (k0_off31 k0_t3) a + S1x16.size a ≤ S26x512.size a
  k0_off32_inb : ∀ k0_t3 : Fin k0_t3_loop.trips, ∀ a, (k0_off32 k0_t3) a + S1x16.size a ≤ S26x512.size a
  k0_off33_inb : ∀ k0_t3 : Fin k0_t3_loop.trips, ∀ a, (k0_off33 k0_t3) a + S1x16.size a ≤ S26x512.size a
  k0_off34_inb : ∀ k0_t3 : Fin k0_t3_loop.trips, ∀ a, (k0_off34 k0_t3) a + S1x16.size a ≤ S26x512.size a
  k0_off35_inb : ∀ k0_t3 : Fin k0_t3_loop.trips, ∀ a, (k0_off35 k0_t3) a + S1x16.size a ≤ S26x512.size a
  k0_off36_inb : ∀ k0_t3 : Fin k0_t3_loop.trips, ∀ a, (k0_off36 k0_t3) a + S1x16.size a ≤ S26x512.size a
  k0_off37_inb : ∀ k0_t3 : Fin k0_t3_loop.trips, ∀ a, (k0_off37 k0_t3) a + S1x16.size a ≤ S26x512.size a
  k0_off38_inb : ∀ k0_t3 : Fin k0_t3_loop.trips, ∀ a, (k0_off38 k0_t3) a + S1x16.size a ≤ S26x512.size a
  k0_off39_inb : ∀ k0_t3 : Fin k0_t3_loop.trips, ∀ a, (k0_off39 k0_t3) a + S1x16.size a ≤ S26x512.size a
  k0_off40_inb : ∀ k0_t3 : Fin k0_t3_loop.trips, ∀ a, (k0_off40 k0_t3) a + S1x16.size a ≤ S26x512.size a
  k0_off41_inb : ∀ k0_t3 : Fin k0_t3_loop.trips, ∀ a, (k0_off41 k0_t3) a + S1x16.size a ≤ S26x512.size a
  k0_off42_inb : ∀ k0_t3 : Fin k0_t3_loop.trips, ∀ a, (k0_off42 k0_t3) a + S1x16.size a ≤ S26x512.size a
  k0_off43_inb : ∀ k0_t3 : Fin k0_t3_loop.trips, ∀ a, (k0_off43 k0_t3) a + S1x16.size a ≤ S26x512.size a
  k0_off44_inb : ∀ k0_t3 : Fin k0_t3_loop.trips, ∀ a, (k0_off44 k0_t3) a + S1x16.size a ≤ S26x512.size a
  k0_off45_inb : ∀ k0_t3 : Fin k0_t3_loop.trips, ∀ a, (k0_off45 k0_t3) a + S1x16.size a ≤ S26x512.size a
  k0_off46_inb : ∀ k0_t3 : Fin k0_t3_loop.trips, ∀ a, (k0_off46 k0_t3) a + S1x16.size a ≤ S26x512.size a
  k0_off47_inb : ∀ k0_t3 : Fin k0_t3_loop.trips, ∀ a, (k0_off47 k0_t3) a + S1x16.size a ≤ S26x512.size a
  k0_off48_inb : ∀ k0_t3 : Fin k0_t3_loop.trips, ∀ a, (k0_off48 k0_t3) a + S1x16.size a ≤ S26x512.size a
  k0_off49_inb : ∀ k0_t3 : Fin k0_t3_loop.trips, ∀ a, (k0_off49 k0_t3) a + S1x16.size a ≤ S26x512.size a
  k0_off50_inb : ∀ k0_t3 : Fin k0_t3_loop.trips, ∀ a, (k0_off50 k0_t3) a + S1x16.size a ≤ S26x512.size a
  k0_off51_inb : ∀ k0_t3 : Fin k0_t3_loop.trips, ∀ a, (k0_off51 k0_t3) a + S1x16.size a ≤ S26x512.size a
  k0_off52_inb : ∀ k0_t3 : Fin k0_t3_loop.trips, ∀ a, (k0_off52 k0_t3) a + S1x16.size a ≤ S26x512.size a
  k0_off53_inb : ∀ k0_t3 : Fin k0_t3_loop.trips, ∀ a, (k0_off53 k0_t3) a + S1x16.size a ≤ S26x512.size a
  k0_off54_inb : ∀ k0_t3 : Fin k0_t3_loop.trips, ∀ a, (k0_off54 k0_t3) a + S1x16.size a ≤ S26x512.size a
  k0_off55_inb : ∀ k0_t3 : Fin k0_t3_loop.trips, ∀ a, (k0_off55 k0_t3) a + S1x16.size a ≤ S26x512.size a
  k0_off56_inb : ∀ k0_t3 : Fin k0_t3_loop.trips, ∀ a, (k0_off56 k0_t3) a + S1x16.size a ≤ S26x512.size a
  k0_off57_inb : ∀ k0_t3 : Fin k0_t3_loop.trips, ∀ a, (k0_off57 k0_t3) a + S1x16.size a ≤ S26x512.size a
  k0_off58_inb : ∀ k0_t3 : Fin k0_t3_loop.trips, ∀ a, (k0_off58 k0_t3) a + S1x16.size a ≤ S26x512.size a
  k0_off59_inb : ∀ k0_t3 : Fin k0_t3_loop.trips, ∀ a, (k0_off59 k0_t3) a + S1x16.size a ≤ S26x512.size a
  k0_off60_inb : ∀ k0_t3 : Fin k0_t3_loop.trips, ∀ a, (k0_off60 k0_t3) a + S1x16.size a ≤ S26x512.size a
  k0_off61_inb : ∀ k0_t3 : Fin k0_t3_loop.trips, ∀ a, (k0_off61 k0_t3) a + S1x16.size a ≤ S26x512.size a
  k0_off62_inb : ∀ k0_t3 : Fin k0_t3_loop.trips, ∀ a, (k0_off62 k0_t3) a + S1x16.size a ≤ S26x512.size a
  k0_off63_inb : ∀ k0_t3 : Fin k0_t3_loop.trips, ∀ a, (k0_off63 k0_t3) a + S1x16.size a ≤ S26x512.size a
  k0_off64_inb : ∀ k0_t3 : Fin k0_t3_loop.trips, ∀ a, (k0_off64 k0_t3) a + S1x16.size a ≤ S26x512.size a
  k0_off65_inb : ∀ k0_t3 : Fin k0_t3_loop.trips, ∀ a, (k0_off65 k0_t3) a + S1x16.size a ≤ S26x512.size a
  k0_off66_inb : ∀ k0_t3 : Fin k0_t3_loop.trips, ∀ a, (k0_off66 k0_t3) a + S1x16.size a ≤ S26x512.size a
  k0_off67_inb : ∀ k0_t3 : Fin k0_t3_loop.trips, ∀ a, (k0_off67 k0_t3) a + S1x16.size a ≤ S26x512.size a
  k0_off68_inb : ∀ k0_t3 : Fin k0_t3_loop.trips, ∀ a, (k0_off68 k0_t3) a + S1x16.size a ≤ S26x512.size a
  k0_off69_inb : ∀ (i : grid0.Coords) (k0_t3 : Fin k0_t3_loop.trips), ∀ a, (k0_off69 i k0_t3) a + S200x256.size a ≤ S2600x16384.size a
  k0_off70_inb : ∀ (i : grid0.Coords) (k0_t3 : Fin k0_t3_loop.trips), ∀ a, (k0_off70 i k0_t3) a + S200x256.size a ≤ S2600x16384.size a
  k0_off71_inb : ∀ k0_t3 : Fin k0_t3_loop.trips, ∀ a, (k0_off71 k0_t3) a + S1x16.size a ≤ S26x512.size a
  k0_off72_inb : ∀ k0_t3 : Fin k0_t3_loop.trips, ∀ a, (k0_off72 k0_t3) a + S1x16.size a ≤ S26x512.size a
  k0_off73_inb : ∀ k0_t3 : Fin k0_t3_loop.trips, ∀ a, (k0_off73 k0_t3) a + S1x16.size a ≤ S26x512.size a
  k0_off74_inb : ∀ k0_t3 : Fin k0_t3_loop.trips, ∀ a, (k0_off74 k0_t3) a + S1x16.size a ≤ S26x512.size a
  k0_off75_inb : ∀ k0_t3 : Fin k0_t3_loop.trips, ∀ a, (k0_off75 k0_t3) a + S1x16.size a ≤ S26x512.size a
  k0_off76_inb : ∀ k0_t3 : Fin k0_t3_loop.trips, ∀ a, (k0_off76 k0_t3) a + S1x16.size a ≤ S26x512.size a
  k0_off77_inb : ∀ k0_t3 : Fin k0_t3_loop.trips, ∀ a, (k0_off77 k0_t3) a + S1x16.size a ≤ S26x512.size a
  k0_off78_inb : ∀ k0_t3 : Fin k0_t3_loop.trips, ∀ a, (k0_off78 k0_t3) a + S1x16.size a ≤ S26x512.size a
  k0_off79_inb : ∀ k0_t3 : Fin k0_t3_loop.trips, ∀ a, (k0_off79 k0_t3) a + S1x16.size a ≤ S26x512.size a
  k0_off80_inb : ∀ k0_t3 : Fin k0_t3_loop.trips, ∀ a, (k0_off80 k0_t3) a + S1x16.size a ≤ S26x512.size a
  k0_off81_inb : ∀ k0_t3 : Fin k0_t3_loop.trips, ∀ a, (k0_off81 k0_t3) a + S1x16.size a ≤ S26x512.size a
  k0_off82_inb : ∀ k0_t3 : Fin k0_t3_loop.trips, ∀ a, (k0_off82 k0_t3) a + S1x16.size a ≤ S26x512.size a
  k0_off83_inb : ∀ k0_t3 : Fin k0_t3_loop.trips, ∀ a, (k0_off83 k0_t3) a + S1x16.size a ≤ S26x512.size a
  k0_off84_inb : ∀ k0_t3 : Fin k0_t3_loop.trips, ∀ a, (k0_off84 k0_t3) a + S1x16.size a ≤ S26x512.size a
  k0_off85_inb : ∀ k0_t3 : Fin k0_t3_loop.trips, ∀ a, (k0_off85 k0_t3) a + S1x16.size a ≤ S26x512.size a
  k0_off86_inb : ∀ k0_t3 : Fin k0_t3_loop.trips, ∀ a, (k0_off86 k0_t3) a + S1x16.size a ≤ S26x512.size a
  k0_off87_inb : ∀ k0_t3 : Fin k0_t3_loop.trips, ∀ a, (k0_off87 k0_t3) a + S1x16.size a ≤ S26x512.size a
  k0_off88_inb : ∀ k0_t3 : Fin k0_t3_loop.trips, ∀ a, (k0_off88 k0_t3) a + S1x16.size a ≤ S26x512.size a
  k0_off89_inb : ∀ k0_t3 : Fin k0_t3_loop.trips, ∀ a, (k0_off89 k0_t3) a + S1x16.size a ≤ S26x512.size a
  k0_off90_inb : ∀ k0_t3 : Fin k0_t3_loop.trips, ∀ a, (k0_off90 k0_t3) a + S1x16.size a ≤ S26x512.size a
  k0_off91_inb : ∀ k0_t3 : Fin k0_t3_loop.trips, ∀ a, (k0_off91 k0_t3) a + S1x16.size a ≤ S26x512.size a
  k0_off92_inb : ∀ k0_t3 : Fin k0_t3_loop.trips, ∀ a, (k0_off92 k0_t3) a + S1x16.size a ≤ S26x512.size a
  k0_off93_inb : ∀ k0_t3 : Fin k0_t3_loop.trips, ∀ a, (k0_off93 k0_t3) a + S1x16.size a ≤ S26x512.size a
  k0_off94_inb : ∀ k0_t3 : Fin k0_t3_loop.trips, ∀ a, (k0_off94 k0_t3) a + S1x16.size a ≤ S26x512.size a
  k0_off95_inb : ∀ k0_t3 : Fin k0_t3_loop.trips, ∀ a, (k0_off95 k0_t3) a + S1x16.size a ≤ S26x512.size a
  k0_off96_inb : ∀ k0_t3 : Fin k0_t3_loop.trips, ∀ a, (k0_off96 k0_t3) a + S1x16.size a ≤ S26x512.size a
  k0_off97_inb : ∀ k0_t3 : Fin k0_t3_loop.trips, ∀ a, (k0_off97 k0_t3) a + S1x16.size a ≤ S26x512.size a
  k0_off98_inb : ∀ k0_t3 : Fin k0_t3_loop.trips, ∀ a, (k0_off98 k0_t3) a + S1x16.size a ≤ S26x512.size a
  k0_off99_inb : ∀ k0_t3 : Fin k0_t3_loop.trips, ∀ a, (k0_off99 k0_t3) a + S1x16.size a ≤ S26x512.size a
  k0_off100_inb : ∀ k0_t3 : Fin k0_t3_loop.trips, ∀ a, (k0_off100 k0_t3) a + S1x16.size a ≤ S26x512.size a
  k0_off101_inb : ∀ k0_t3 : Fin k0_t3_loop.trips, ∀ a, (k0_off101 k0_t3) a + S1x16.size a ≤ S26x512.size a
  k0_off102_inb : ∀ k0_t3 : Fin k0_t3_loop.trips, ∀ a, (k0_off102 k0_t3) a + S1x16.size a ≤ S26x512.size a
  k0_off103_inb : ∀ k0_t3 : Fin k0_t3_loop.trips, ∀ a, (k0_off103 k0_t3) a + S1x16.size a ≤ S26x512.size a
  k0_off104_inb : ∀ k0_t3 : Fin k0_t3_loop.trips, ∀ a, (k0_off104 k0_t3) a + S1x16.size a ≤ S26x512.size a
  k0_off105_inb : ∀ k0_t3 : Fin k0_t3_loop.trips, ∀ a, (k0_off105 k0_t3) a + S1x16.size a ≤ S26x512.size a
  k0_off106_inb : ∀ k0_t3 : Fin k0_t3_loop.trips, ∀ a, (k0_off106 k0_t3) a + S1x16.size a ≤ S26x512.size a
  k0_off107_inb : ∀ k0_t3 : Fin k0_t3_loop.trips, ∀ a, (k0_off107 k0_t3) a + S1x16.size a ≤ S26x512.size a
  k0_off108_inb : ∀ k0_t3 : Fin k0_t3_loop.trips, ∀ a, (k0_off108 k0_t3) a + S1x16.size a ≤ S26x512.size a
  k0_off109_inb : ∀ k0_t3 : Fin k0_t3_loop.trips, ∀ a, (k0_off109 k0_t3) a + S1x16.size a ≤ S26x512.size a
  k0_off110_inb : ∀ k0_t3 : Fin k0_t3_loop.trips, ∀ a, (k0_off110 k0_t3) a + S1x16.size a ≤ S26x512.size a
  k0_off111_inb : ∀ k0_t3 : Fin k0_t3_loop.trips, ∀ a, (k0_off111 k0_t3) a + S1x16.size a ≤ S26x512.size a
  k0_off112_inb : ∀ k0_t3 : Fin k0_t3_loop.trips, ∀ a, (k0_off112 k0_t3) a + S1x16.size a ≤ S26x512.size a
  k0_off113_inb : ∀ k0_t3 : Fin k0_t3_loop.trips, ∀ a, (k0_off113 k0_t3) a + S1x16.size a ≤ S26x512.size a
  k0_off114_inb : ∀ k0_t3 : Fin k0_t3_loop.trips, ∀ a, (k0_off114 k0_t3) a + S1x16.size a ≤ S26x512.size a
  k0_off115_inb : ∀ k0_t3 : Fin k0_t3_loop.trips, ∀ a, (k0_off115 k0_t3) a + S1x16.size a ≤ S26x512.size a
  k0_off116_inb : ∀ k0_t3 : Fin k0_t3_loop.trips, ∀ a, (k0_off116 k0_t3) a + S1x16.size a ≤ S26x512.size a
  k0_off117_inb : ∀ k0_t3 : Fin k0_t3_loop.trips, ∀ a, (k0_off117 k0_t3) a + S1x16.size a ≤ S26x512.size a
  k0_off118_inb : ∀ k0_t3 : Fin k0_t3_loop.trips, ∀ a, (k0_off118 k0_t3) a + S1x16.size a ≤ S26x512.size a
  k0_off119_inb : ∀ k0_t3 : Fin k0_t3_loop.trips, ∀ a, (k0_off119 k0_t3) a + S1x16.size a ≤ S26x512.size a
  k0_off120_inb : ∀ k0_t3 : Fin k0_t3_loop.trips, ∀ a, (k0_off120 k0_t3) a + S1x16.size a ≤ S26x512.size a
  k0_off121_inb : ∀ k0_t3 : Fin k0_t3_loop.trips, ∀ a, (k0_off121 k0_t3) a + S1x16.size a ≤ S26x512.size a
  k0_off122_inb : ∀ k0_t3 : Fin k0_t3_loop.trips, ∀ a, (k0_off122 k0_t3) a + S1x16.size a ≤ S26x512.size a
  k0_off123_inb : ∀ k0_t3 : Fin k0_t3_loop.trips, ∀ a, (k0_off123 k0_t3) a + S1x16.size a ≤ S26x512.size a
  k0_off124_inb : ∀ k0_t3 : Fin k0_t3_loop.trips, ∀ a, (k0_off124 k0_t3) a + S1x16.size a ≤ S26x512.size a
  k0_off125_inb : ∀ k0_t3 : Fin k0_t3_loop.trips, ∀ a, (k0_off125 k0_t3) a + S1x16.size a ≤ S26x512.size a
  k0_off126_inb : ∀ k0_t3 : Fin k0_t3_loop.trips, ∀ a, (k0_off126 k0_t3) a + S1x16.size a ≤ S26x512.size a
  k0_off127_inb : ∀ k0_t3 : Fin k0_t3_loop.trips, ∀ a, (k0_off127 k0_t3) a + S1x16.size a ≤ S26x512.size a
  k0_off128_inb : ∀ k0_t3 : Fin k0_t3_loop.trips, ∀ a, (k0_off128 k0_t3) a + S1x16.size a ≤ S26x512.size a
  k0_off129_inb : ∀ k0_t3 : Fin k0_t3_loop.trips, ∀ a, (k0_off129 k0_t3) a + S1x16.size a ≤ S26x512.size a
  k0_off130_inb : ∀ k0_t3 : Fin k0_t3_loop.trips, ∀ a, (k0_off130 k0_t3) a + S1x16.size a ≤ S26x512.size a
  k0_off131_inb : ∀ k0_t3 : Fin k0_t3_loop.trips, ∀ a, (k0_off131 k0_t3) a + S1x16.size a ≤ S26x512.size a
  k0_off132_inb : ∀ k0_t3 : Fin k0_t3_loop.trips, ∀ a, (k0_off132 k0_t3) a + S1x16.size a ≤ S26x512.size a
  k0_off133_inb : ∀ k0_t3 : Fin k0_t3_loop.trips, ∀ a, (k0_off133 k0_t3) a + S1x16.size a ≤ S26x512.size a
  k0_off134_inb : ∀ k0_t3 : Fin k0_t3_loop.trips, ∀ a, (k0_off134 k0_t3) a + S1x16.size a ≤ S26x512.size a
  k0_off135_inb : ∀ (i : grid0.Coords) (k0_t3 : Fin k0_t3_loop.trips), ∀ a, (k0_off135 i k0_t3) a + S200x256.size a ≤ S2600x16384.size a
  k0_off136_inb : ∀ i : grid0.Coords, ∀ (r : Fin 2), ∀ a, (k0_off136 i (BitVec.ofNat 32 (256 * r.val))) a + S200x256.size a ≤ S2600x16384.size a

variable [Facts₀]

abbrev cc0_scratch3 : DmaSems sig S_ := SemArray.consecutive 0 S_ hcc0_scratch3
abbrev cc0_scratch4 : DmaSems sig S_ := SemArray.consecutive 1 S_ hcc0_scratch4
abbrev cc0_scratch5 : DmaSems sig S_ := SemArray.consecutive 2 S_ hcc0_scratch5

class Facts : Prop extends Facts₀ where

variable [Facts]
-- ==== ReferenceIdeal.lean ====
abbrev S16384x26 : Shape := ⟨2, ![16384, 26]⟩
abbrev S16384x1 : Shape := ⟨2, ![16384, 1]⟩
abbrev S16384 : Shape := ⟨1, ![16384]⟩
abbrev S1x100 : Shape := ⟨2, ![1, 100]⟩
abbrev S16384x100 : Shape := ⟨2, ![16384, 100]⟩
abbrev S16384x1600 : Shape := ⟨2, ![16384, 1600]⟩
abbrev S16384x1000 : Shape := ⟨2, ![16384, 1000]⟩
abbrev S16384x2600 : Shape := ⟨2, ![16384, 2600]⟩

abbrev nBuf : Space → Nat
  | .hbm => 212
  | .vmem => 0
  | .smem => 0
  | _ => 0

abbrev hbmTy0_0 (i : Nat) : BufTy := match i % 128 with
  | 0 => ⟨S16384x26, .i32⟩
  | 1 => ⟨S16384x1, .i32⟩
  | 2 => ⟨S16384, .i32⟩
  | 3 => ⟨S16384x1, .i32⟩
  | 4 => ⟨S1x100, .i32⟩
  | 5 => ⟨S16384x100, .i32⟩
  | 6 => ⟨S16384x100, .i32⟩
  | 7 => ⟨S16384x100, .i1⟩
  | 8 => ⟨S16384x100, .i32⟩
  | 9 => ⟨S16384x1, .i32⟩
  | 10 => ⟨S16384, .i32⟩
  | 11 => ⟨S16384x1, .i32⟩
  | 12 => ⟨S1x100, .i32⟩
  | 13 => ⟨S16384x100, .i32⟩
  | 14 => ⟨S16384x100, .i32⟩
  | 15 => ⟨S16384x100, .i1⟩
  | 16 => ⟨S16384x100, .i32⟩
  | 17 => ⟨S16384x1, .i32⟩
  | 18 => ⟨S16384, .i32⟩
  | 19 => ⟨S16384x1, .i32⟩
  | 20 => ⟨S1x100, .i32⟩
  | 21 => ⟨S16384x100, .i32⟩
  | 22 => ⟨S16384x100, .i32⟩
  | 23 => ⟨S16384x100, .i1⟩
  | 24 => ⟨S16384x100, .i32⟩
  | 25 => ⟨S16384x1, .i32⟩
  | 26 => ⟨S16384, .i32⟩
  | 27 => ⟨S16384x1, .i32⟩
  | 28 => ⟨S1x100, .i32⟩
  | 29 => ⟨S16384x100, .i32⟩
  | 30 => ⟨S16384x100, .i32⟩
  | 31 => ⟨S16384x100, .i1⟩
  | 32 => ⟨S16384x100, .i32⟩
  | 33 => ⟨S16384x1, .i32⟩
  | 34 => ⟨S16384, .i32⟩
  | 35 => ⟨S16384x1, .i32⟩
  | 36 => ⟨S1x100, .i32⟩
  | 37 => ⟨S16384x100, .i32⟩
  | 38 => ⟨S16384x100, .i32⟩
  | 39 => ⟨S16384x100, .i1⟩
  | 40 => ⟨S16384x100, .i32⟩
  | 41 => ⟨S16384x1, .i32⟩
  | 42 => ⟨S16384, .i32⟩
  | 43 => ⟨S16384x1, .i32⟩
  | 44 => ⟨S1x100, .i32⟩
  | 45 => ⟨S16384x100, .i32⟩
  | 46 => ⟨S16384x100, .i32⟩
  | 47 => ⟨S16384x100, .i1⟩
  | 48 => ⟨S16384x100, .i32⟩
  | 49 => ⟨S16384x1, .i32⟩
  | 50 => ⟨S16384, .i32⟩
  | 51 => ⟨S16384x1, .i32⟩
  | 52 => ⟨S1x100, .i32⟩
  | 53 => ⟨S16384x100, .i32⟩
  | 54 => ⟨S16384x100, .i32⟩
  | 55 => ⟨S16384x100, .i1⟩
  | 56 => ⟨S16384x100, .i32⟩
  | 57 => ⟨S16384x1, .i32⟩
  | 58 => ⟨S16384, .i32⟩
  | 59 => ⟨S16384x1, .i32⟩
  | 60 => ⟨S1x100, .i32⟩
  | 61 => ⟨S16384x100, .i32⟩
  | 62 => ⟨S16384x100, .i32⟩
  | 63 => ⟨S16384x100, .i1⟩
  | 64 => ⟨S16384x100, .i32⟩
  | 65 => ⟨S16384x1, .i32⟩
  | 66 => ⟨S16384, .i32⟩
  | 67 => ⟨S16384x1, .i32⟩
  | 68 => ⟨S1x100, .i32⟩
  | 69 => ⟨S16384x100, .i32⟩
  | 70 => ⟨S16384x100, .i32⟩
  | 71 => ⟨S16384x100, .i1⟩
  | 72 => ⟨S16384x100, .i32⟩
  | 73 => ⟨S16384x1, .i32⟩
  | 74 => ⟨S16384, .i32⟩
  | 75 => ⟨S16384x1, .i32⟩
  | 76 => ⟨S1x100, .i32⟩
  | 77 => ⟨S16384x100, .i32⟩
  | 78 => ⟨S16384x100, .i32⟩
  | 79 => ⟨S16384x100, .i1⟩
  | 80 => ⟨S16384x100, .i32⟩
  | 81 => ⟨S16384x1, .i32⟩
  | 82 => ⟨S16384, .i32⟩
  | 83 => ⟨S16384x1, .i32⟩
  | 84 => ⟨S1x100, .i32⟩
  | 85 => ⟨S16384x100, .i32⟩
  | 86 => ⟨S16384x100, .i32⟩
  | 87 => ⟨S16384x100, .i1⟩
  | 88 => ⟨S16384x100, .i32⟩
  | 89 => ⟨S16384x1, .i32⟩
  | 90 => ⟨S16384, .i32⟩
  | 91 => ⟨S16384x1, .i32⟩
  | 92 => ⟨S1x100, .i32⟩
  | 93 => ⟨S16384x100, .i32⟩
  | 94 => ⟨S16384x100, .i32⟩
  | 95 => ⟨S16384x100, .i1⟩
  | 96 => ⟨S16384x100, .i32⟩
  | 97 => ⟨S16384x1, .i32⟩
  | 98 => ⟨S16384, .i32⟩
  | 99 => ⟨S16384x1, .i32⟩
  | 100 => ⟨S1x100, .i32⟩
  | 101 => ⟨S16384x100, .i32⟩
  | 102 => ⟨S16384x100, .i32⟩
  | 103 => ⟨S16384x100, .i1⟩
  | 104 => ⟨S16384x100, .i32⟩
  | 105 => ⟨S16384x1, .i32⟩
  | 106 => ⟨S16384, .i32⟩
  | 107 => ⟨S16384x1, .i32⟩
  | 108 => ⟨S1x100, .i32⟩
  | 109 => ⟨S16384x100, .i32⟩
  | 110 => ⟨S16384x100, .i32⟩
  | 111 => ⟨S16384x100, .i1⟩
  | 112 => ⟨S16384x100, .i32⟩
  | 113 => ⟨S16384x1, .i32⟩
  | 114 => ⟨S16384, .i32⟩
  | 115 => ⟨S16384x1, .i32⟩
  | 116 => ⟨S1x100, .i32⟩
  | 117 => ⟨S16384x100, .i32⟩
  | 118 => ⟨S16384x100, .i32⟩
  | 119 => ⟨S16384x100, .i1⟩
  | 120 => ⟨S16384x100, .i32⟩
  | 121 => ⟨S16384x1, .i32⟩
  | 122 => ⟨S16384, .i32⟩
  | 123 => ⟨S16384x1, .i32⟩
  | 124 => ⟨S1x100, .i32⟩
  | 125 => ⟨S16384x100, .i32⟩
  | 126 => ⟨S16384x100, .i32⟩
  | 127 => ⟨S16384x100, .i1⟩
  | _ => ⟨S16384x26, .i32⟩

abbrev hbmTy0_1 (i : Nat) : BufTy := match i % 128 with
  | 0 => ⟨S16384x100, .i32⟩
  | 1 => ⟨S16384x1, .i32⟩
  | 2 => ⟨S16384, .i32⟩
  | 3 => ⟨S16384x1, .i32⟩
  | 4 => ⟨S1x100, .i32⟩
  | 5 => ⟨S16384x100, .i32⟩
  | 6 => ⟨S16384x100, .i32⟩
  | 7 => ⟨S16384x100, .i1⟩
  | 8 => ⟨S16384x100, .i32⟩
  | 9 => ⟨S16384x1, .i32⟩
  | 10 => ⟨S16384, .i32⟩
  | 11 => ⟨S16384x1, .i32⟩
  | 12 => ⟨S1x100, .i32⟩
  | 13 => ⟨S16384x100, .i32⟩
  | 14 => ⟨S16384x100, .i32⟩
  | 15 => ⟨S16384x100, .i1⟩
  | 16 => ⟨S16384x100, .i32⟩
  | 17 => ⟨S16384x1, .i32⟩
  | 18 => ⟨S16384, .i32⟩
  | 19 => ⟨S16384x1, .i32⟩
  | 20 => ⟨S1x100, .i32⟩
  | 21 => ⟨S16384x100, .i32⟩
  | 22 => ⟨S16384x100, .i32⟩
  | 23 => ⟨S16384x100, .i1⟩
  | 24 => ⟨S16384x100, .i32⟩
  | 25 => ⟨S16384x1, .i32⟩
  | 26 => ⟨S16384, .i32⟩
  | 27 => ⟨S16384x1, .i32⟩
  | 28 => ⟨S1x100, .i32⟩
  | 29 => ⟨S16384x100, .i32⟩
  | 30 => ⟨S16384x100, .i32⟩
  | 31 => ⟨S16384x100, .i1⟩
  | 32 => ⟨S16384x100, .i32⟩
  | 33 => ⟨S16384x1, .i32⟩
  | 34 => ⟨S16384, .i32⟩
  | 35 => ⟨S16384x1, .i32⟩
  | 36 => ⟨S1x100, .i32⟩
  | 37 => ⟨S16384x100, .i32⟩
  | 38 => ⟨S16384x100, .i32⟩
  | 39 => ⟨S16384x100, .i1⟩
  | 40 => ⟨S16384x100, .i32⟩
  | 41 => ⟨S16384x1, .i32⟩
  | 42 => ⟨S16384, .i32⟩
  | 43 => ⟨S16384x1, .i32⟩
  | 44 => ⟨S1x100, .i32⟩
  | 45 => ⟨S16384x100, .i32⟩
  | 46 => ⟨S16384x100, .i32⟩
  | 47 => ⟨S16384x100, .i1⟩
  | 48 => ⟨S16384x100, .i32⟩
  | 49 => ⟨S16384x1, .i32⟩
  | 50 => ⟨S16384, .i32⟩
  | 51 => ⟨S16384x1, .i32⟩
  | 52 => ⟨S1x100, .i32⟩
  | 53 => ⟨S16384x100, .i32⟩
  | 54 => ⟨S16384x100, .i32⟩
  | 55 => ⟨S16384x100, .i1⟩
  | 56 => ⟨S16384x100, .i32⟩
  | 57 => ⟨S16384x1, .i32⟩
  | 58 => ⟨S16384, .i32⟩
  | 59 => ⟨S16384x1, .i32⟩
  | 60 => ⟨S1x100, .i32⟩
  | 61 => ⟨S16384x100, .i32⟩
  | 62 => ⟨S16384x100, .i32⟩
  | 63 => ⟨S16384x100, .i1⟩
  | 64 => ⟨S16384x100, .i32⟩
  | 65 => ⟨S16384x1, .i32⟩
  | 66 => ⟨S16384, .i32⟩
  | 67 => ⟨S16384x1, .i32⟩
  | 68 => ⟨S1x100, .i32⟩
  | 69 => ⟨S16384x100, .i32⟩
  | 70 => ⟨S16384x100, .i32⟩
  | 71 => ⟨S16384x100, .i1⟩
  | 72 => ⟨S16384x100, .i32⟩
  | 73 => ⟨S16384x1, .i32⟩
  | 74 => ⟨S16384, .i32⟩
  | 75 => ⟨S16384x1, .i32⟩
  | 76 => ⟨S1x100, .i32⟩
  | 77 => ⟨S16384x100, .i32⟩
  | 78 => ⟨S16384x100, .i32⟩
  | 79 => ⟨S16384x100, .i1⟩
  | 80 => ⟨S16384x100, .i32⟩
  | 81 => ⟨S16384x1600, .i32⟩
  | 82 => ⟨S16384x1000, .i32⟩
  | 83 => ⟨S16384x2600, .i32⟩
  | _ => ⟨S16384x26, .i32⟩

abbrev hbmTy (i : Nat) : BufTy := match i / 128 with
  | 0 => hbmTy0_0 i
  | 1 => hbmTy0_1 i
  | _ => ⟨S16384x26, .i32⟩

abbrev bufTy : (tb : Table) → Fin (tcTables nBuf tb) → BufTy
  | .hbm, ⟨i, _⟩ => hbmTy i
  | _, _ => ⟨S16384x26, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_call0_v0 : Ref sig .tc := ⟨.hbm, 3, rfl⟩
abbrev main_call0_v1 : Ref sig .tc := ⟨.hbm, 4, rfl⟩
abbrev main_call0_v2 : Ref sig .tc := ⟨.hbm, 5, rfl⟩
abbrev main_call0_v3 : Ref sig .tc := ⟨.hbm, 6, rfl⟩
abbrev main_call0_v4 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_call1_v0 : Ref sig .tc := ⟨.hbm, 11, rfl⟩
abbrev main_call1_v1 : Ref sig .tc := ⟨.hbm, 12, rfl⟩
abbrev main_call1_v2 : Ref sig .tc := ⟨.hbm, 13, rfl⟩
abbrev main_call1_v3 : Ref sig .tc := ⟨.hbm, 14, rfl⟩
abbrev main_call1_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_call2_v0 : Ref sig .tc := ⟨.hbm, 19, rfl⟩
abbrev main_call2_v1 : Ref sig .tc := ⟨.hbm, 20, rfl⟩
abbrev main_call2_v2 : Ref sig .tc := ⟨.hbm, 21, rfl⟩
abbrev main_call2_v3 : Ref sig .tc := ⟨.hbm, 22, rfl⟩
abbrev main_call2_v4 : Ref sig .tc := ⟨.hbm, 23, rfl⟩
abbrev main_v8 : Ref sig .tc := ⟨.hbm, 24, rfl⟩
abbrev main_v9 : Ref sig .tc := ⟨.hbm, 25, rfl⟩
abbrev main_v10 : Ref sig .tc := ⟨.hbm, 26, rfl⟩
abbrev main_call3_v0 : Ref sig .tc := ⟨.hbm, 27, rfl⟩
abbrev main_call3_v1 : Ref sig .tc := ⟨.hbm, 28, rfl⟩
abbrev main_call3_v2 : Ref sig .tc := ⟨.hbm, 29, rfl⟩
abbrev main_call3_v3 : Ref sig .tc := ⟨.hbm, 30, rfl⟩
abbrev main_call3_v4 : Ref sig .tc := ⟨.hbm, 31, rfl⟩
abbrev main_v11 : Ref sig .tc := ⟨.hbm, 32, rfl⟩
abbrev main_v12 : Ref sig .tc := ⟨.hbm, 33, rfl⟩
abbrev main_v13 : Ref sig .tc := ⟨.hbm, 34, rfl⟩
abbrev main_call4_v0 : Ref sig .tc := ⟨.hbm, 35, rfl⟩
abbrev main_call4_v1 : Ref sig .tc := ⟨.hbm, 36, rfl⟩
abbrev main_call4_v2 : Ref sig .tc := ⟨.hbm, 37, rfl⟩
abbrev main_call4_v3 : Ref sig .tc := ⟨.hbm, 38, rfl⟩
abbrev main_call4_v4 : Ref sig .tc := ⟨.hbm, 39, rfl⟩
abbrev main_v14 : Ref sig .tc := ⟨.hbm, 40, rfl⟩
abbrev main_v15 : Ref sig .tc := ⟨.hbm, 41, rfl⟩
abbrev main_v16 : Ref sig .tc := ⟨.hbm, 42, rfl⟩
abbrev main_call5_v0 : Ref sig .tc := ⟨.hbm, 43, rfl⟩
abbrev main_call5_v1 : Ref sig .tc := ⟨.hbm, 44, rfl⟩
abbrev main_call5_v2 : Ref sig .tc := ⟨.hbm, 45, rfl⟩
abbrev main_call5_v3 : Ref sig .tc := ⟨.hbm, 46, rfl⟩
abbrev main_call5_v4 : Ref sig .tc := ⟨.hbm, 47, rfl⟩
abbrev main_v17 : Ref sig .tc := ⟨.hbm, 48, rfl⟩
abbrev main_v18 : Ref sig .tc := ⟨.hbm, 49, rfl⟩
abbrev main_v19 : Ref sig .tc := ⟨.hbm, 50, rfl⟩
abbrev main_call6_v0 : Ref sig .tc := ⟨.hbm, 51, rfl⟩
abbrev main_call6_v1 : Ref sig .tc := ⟨.hbm, 52, rfl⟩
abbrev main_call6_v2 : Ref sig .tc := ⟨.hbm, 53, rfl⟩
abbrev main_call6_v3 : Ref sig .tc := ⟨.hbm, 54, rfl⟩
abbrev main_call6_v4 : Ref sig .tc := ⟨.hbm, 55, rfl⟩
abbrev main_v20 : Ref sig .tc := ⟨.hbm, 56, rfl⟩
abbrev main_v21 : Ref sig .tc := ⟨.hbm, 57, rfl⟩
abbrev main_v22 : Ref sig .tc := ⟨.hbm, 58, rfl⟩
abbrev main_call7_v0 : Ref sig .tc := ⟨.hbm, 59, rfl⟩
abbrev main_call7_v1 : Ref sig .tc := ⟨.hbm, 60, rfl⟩
abbrev main_call7_v2 : Ref sig .tc := ⟨.hbm, 61, rfl⟩
abbrev main_call7_v3 : Ref sig .tc := ⟨.hbm, 62, rfl⟩
abbrev main_call7_v4 : Ref sig .tc := ⟨.hbm, 63, rfl⟩
abbrev main_v23 : Ref sig .tc := ⟨.hbm, 64, rfl⟩
abbrev main_v24 : Ref sig .tc := ⟨.hbm, 65, rfl⟩
abbrev main_v25 : Ref sig .tc := ⟨.hbm, 66, rfl⟩
abbrev main_call8_v0 : Ref sig .tc := ⟨.hbm, 67, rfl⟩
abbrev main_call8_v1 : Ref sig .tc := ⟨.hbm, 68, rfl⟩
abbrev main_call8_v2 : Ref sig .tc := ⟨.hbm, 69, rfl⟩
abbrev main_call8_v3 : Ref sig .tc := ⟨.hbm, 70, rfl⟩
abbrev main_call8_v4 : Ref sig .tc := ⟨.hbm, 71, rfl⟩
abbrev main_v26 : Ref sig .tc := ⟨.hbm, 72, rfl⟩
abbrev main_v27 : Ref sig .tc := ⟨.hbm, 73, rfl⟩
abbrev main_v28 : Ref sig .tc := ⟨.hbm, 74, rfl⟩
abbrev main_call9_v0 : Ref sig .tc := ⟨.hbm, 75, rfl⟩
abbrev main_call9_v1 : Ref sig .tc := ⟨.hbm, 76, rfl⟩
abbrev main_call9_v2 : Ref sig .tc := ⟨.hbm, 77, rfl⟩
abbrev main_call9_v3 : Ref sig .tc := ⟨.hbm, 78, rfl⟩
abbrev main_call9_v4 : Ref sig .tc := ⟨.hbm, 79, rfl⟩
abbrev main_v29 : Ref sig .tc := ⟨.hbm, 80, rfl⟩
abbrev main_v30 : Ref sig .tc := ⟨.hbm, 81, rfl⟩
abbrev main_v31 : Ref sig .tc := ⟨.hbm, 82, rfl⟩
abbrev main_call10_v0 : Ref sig .tc := ⟨.hbm, 83, rfl⟩
abbrev main_call10_v1 : Ref sig .tc := ⟨.hbm, 84, rfl⟩
abbrev main_call10_v2 : Ref sig .tc := ⟨.hbm, 85, rfl⟩
abbrev main_call10_v3 : Ref sig .tc := ⟨.hbm, 86, rfl⟩
abbrev main_call10_v4 : Ref sig .tc := ⟨.hbm, 87, rfl⟩
abbrev main_v32 : Ref sig .tc := ⟨.hbm, 88, rfl⟩
abbrev main_v33 : Ref sig .tc := ⟨.hbm, 89, rfl⟩
abbrev main_v34 : Ref sig .tc := ⟨.hbm, 90, rfl⟩
abbrev main_call11_v0 : Ref sig .tc := ⟨.hbm, 91, rfl⟩
abbrev main_call11_v1 : Ref sig .tc := ⟨.hbm, 92, rfl⟩
abbrev main_call11_v2 : Ref sig .tc := ⟨.hbm, 93, rfl⟩
abbrev main_call11_v3 : Ref sig .tc := ⟨.hbm, 94, rfl⟩
abbrev main_call11_v4 : Ref sig .tc := ⟨.hbm, 95, rfl⟩
abbrev main_v35 : Ref sig .tc := ⟨.hbm, 96, rfl⟩
abbrev main_v36 : Ref sig .tc := ⟨.hbm, 97, rfl⟩
abbrev main_v37 : Ref sig .tc := ⟨.hbm, 98, rfl⟩
abbrev main_call12_v0 : Ref sig .tc := ⟨.hbm, 99, rfl⟩
abbrev main_call12_v1 : Ref sig .tc := ⟨.hbm, 100, rfl⟩
abbrev main_call12_v2 : Ref sig .tc := ⟨.hbm, 101, rfl⟩
abbrev main_call12_v3 : Ref sig .tc := ⟨.hbm, 102, rfl⟩
abbrev main_call12_v4 : Ref sig .tc := ⟨.hbm, 103, rfl⟩
abbrev main_v38 : Ref sig .tc := ⟨.hbm, 104, rfl⟩
abbrev main_v39 : Ref sig .tc := ⟨.hbm, 105, rfl⟩
abbrev main_v40 : Ref sig .tc := ⟨.hbm, 106, rfl⟩
abbrev main_call13_v0 : Ref sig .tc := ⟨.hbm, 107, rfl⟩
abbrev main_call13_v1 : Ref sig .tc := ⟨.hbm, 108, rfl⟩
abbrev main_call13_v2 : Ref sig .tc := ⟨.hbm, 109, rfl⟩
abbrev main_call13_v3 : Ref sig .tc := ⟨.hbm, 110, rfl⟩
abbrev main_call13_v4 : Ref sig .tc := ⟨.hbm, 111, rfl⟩
abbrev main_v41 : Ref sig .tc := ⟨.hbm, 112, rfl⟩
abbrev main_v42 : Ref sig .tc := ⟨.hbm, 113, rfl⟩
abbrev main_v43 : Ref sig .tc := ⟨.hbm, 114, rfl⟩
abbrev main_call14_v0 : Ref sig .tc := ⟨.hbm, 115, rfl⟩
abbrev main_call14_v1 : Ref sig .tc := ⟨.hbm, 116, rfl⟩
abbrev main_call14_v2 : Ref sig .tc := ⟨.hbm, 117, rfl⟩
abbrev main_call14_v3 : Ref sig .tc := ⟨.hbm, 118, rfl⟩
abbrev main_call14_v4 : Ref sig .tc := ⟨.hbm, 119, rfl⟩
abbrev main_v44 : Ref sig .tc := ⟨.hbm, 120, rfl⟩
abbrev main_v45 : Ref sig .tc := ⟨.hbm, 121, rfl⟩
abbrev main_v46 : Ref sig .tc := ⟨.hbm, 122, rfl⟩
abbrev main_call15_v0 : Ref sig .tc := ⟨.hbm, 123, rfl⟩
abbrev main_call15_v1 : Ref sig .tc := ⟨.hbm, 124, rfl⟩
abbrev main_call15_v2 : Ref sig .tc := ⟨.hbm, 125, rfl⟩
abbrev main_call15_v3 : Ref sig .tc := ⟨.hbm, 126, rfl⟩
abbrev main_call15_v4 : Ref sig .tc := ⟨.hbm, 127, rfl⟩
abbrev main_v47 : Ref sig .tc := ⟨.hbm, 128, rfl⟩
abbrev main_v48 : Ref sig .tc := ⟨.hbm, 129, rfl⟩
abbrev main_v49 : Ref sig .tc := ⟨.hbm, 130, rfl⟩
abbrev main_call16_v0 : Ref sig .tc := ⟨.hbm, 131, rfl⟩
abbrev main_call16_v1 : Ref sig .tc := ⟨.hbm, 132, rfl⟩
abbrev main_call16_v2 : Ref sig .tc := ⟨.hbm, 133, rfl⟩
abbrev main_call16_v3 : Ref sig .tc := ⟨.hbm, 134, rfl⟩
abbrev main_call16_v4 : Ref sig .tc := ⟨.hbm, 135, rfl⟩
abbrev main_v50 : Ref sig .tc := ⟨.hbm, 136, rfl⟩
abbrev main_v51 : Ref sig .tc := ⟨.hbm, 137, rfl⟩
abbrev main_v52 : Ref sig .tc := ⟨.hbm, 138, rfl⟩
abbrev main_call17_v0 : Ref sig .tc := ⟨.hbm, 139, rfl⟩
abbrev main_call17_v1 : Ref sig .tc := ⟨.hbm, 140, rfl⟩
abbrev main_call17_v2 : Ref sig .tc := ⟨.hbm, 141, rfl⟩
abbrev main_call17_v3 : Ref sig .tc := ⟨.hbm, 142, rfl⟩
abbrev main_call17_v4 : Ref sig .tc := ⟨.hbm, 143, rfl⟩
abbrev main_v53 : Ref sig .tc := ⟨.hbm, 144, rfl⟩
abbrev main_v54 : Ref sig .tc := ⟨.hbm, 145, rfl⟩
abbrev main_v55 : Ref sig .tc := ⟨.hbm, 146, rfl⟩
abbrev main_call18_v0 : Ref sig .tc := ⟨.hbm, 147, rfl⟩
abbrev main_call18_v1 : Ref sig .tc := ⟨.hbm, 148, rfl⟩
abbrev main_call18_v2 : Ref sig .tc := ⟨.hbm, 149, rfl⟩
abbrev main_call18_v3 : Ref sig .tc := ⟨.hbm, 150, rfl⟩
abbrev main_call18_v4 : Ref sig .tc := ⟨.hbm, 151, rfl⟩
abbrev main_v56 : Ref sig .tc := ⟨.hbm, 152, rfl⟩
abbrev main_v57 : Ref sig .tc := ⟨.hbm, 153, rfl⟩
abbrev main_v58 : Ref sig .tc := ⟨.hbm, 154, rfl⟩
abbrev main_call19_v0 : Ref sig .tc := ⟨.hbm, 155, rfl⟩
abbrev main_call19_v1 : Ref sig .tc := ⟨.hbm, 156, rfl⟩
abbrev main_call19_v2 : Ref sig .tc := ⟨.hbm, 157, rfl⟩
abbrev main_call19_v3 : Ref sig .tc := ⟨.hbm, 158, rfl⟩
abbrev main_call19_v4 : Ref sig .tc := ⟨.hbm, 159, rfl⟩
abbrev main_v59 : Ref sig .tc := ⟨.hbm, 160, rfl⟩
abbrev main_v60 : Ref sig .tc := ⟨.hbm, 161, rfl⟩
abbrev main_v61 : Ref sig .tc := ⟨.hbm, 162, rfl⟩
abbrev main_call20_v0 : Ref sig .tc := ⟨.hbm, 163, rfl⟩
abbrev main_call20_v1 : Ref sig .tc := ⟨.hbm, 164, rfl⟩
abbrev main_call20_v2 : Ref sig .tc := ⟨.hbm, 165, rfl⟩
abbrev main_call20_v3 : Ref sig .tc := ⟨.hbm, 166, rfl⟩
abbrev main_call20_v4 : Ref sig .tc := ⟨.hbm, 167, rfl⟩
abbrev main_v62 : Ref sig .tc := ⟨.hbm, 168, rfl⟩
abbrev main_v63 : Ref sig .tc := ⟨.hbm, 169, rfl⟩
abbrev main_v64 : Ref sig .tc := ⟨.hbm, 170, rfl⟩
abbrev main_call21_v0 : Ref sig .tc := ⟨.hbm, 171, rfl⟩
abbrev main_call21_v1 : Ref sig .tc := ⟨.hbm, 172, rfl⟩
abbrev main_call21_v2 : Ref sig .tc := ⟨.hbm, 173, rfl⟩
abbrev main_call21_v3 : Ref sig .tc := ⟨.hbm, 174, rfl⟩
abbrev main_call21_v4 : Ref sig .tc := ⟨.hbm, 175, rfl⟩
abbrev main_v65 : Ref sig .tc := ⟨.hbm, 176, rfl⟩
abbrev main_v66 : Ref sig .tc := ⟨.hbm, 177, rfl⟩
abbrev main_v67 : Ref sig .tc := ⟨.hbm, 178, rfl⟩
abbrev main_call22_v0 : Ref sig .tc := ⟨.hbm, 179, rfl⟩
abbrev main_call22_v1 : Ref sig .tc := ⟨.hbm, 180, rfl⟩
abbrev main_call22_v2 : Ref sig .tc := ⟨.hbm, 181, rfl⟩
abbrev main_call22_v3 : Ref sig .tc := ⟨.hbm, 182, rfl⟩
abbrev main_call22_v4 : Ref sig .tc := ⟨.hbm, 183, rfl⟩
abbrev main_v68 : Ref sig .tc := ⟨.hbm, 184, rfl⟩
abbrev main_v69 : Ref sig .tc := ⟨.hbm, 185, rfl⟩
abbrev main_v70 : Ref sig .tc := ⟨.hbm, 186, rfl⟩
abbrev main_call23_v0 : Ref sig .tc := ⟨.hbm, 187, rfl⟩
abbrev main_call23_v1 : Ref sig .tc := ⟨.hbm, 188, rfl⟩
abbrev main_call23_v2 : Ref sig .tc := ⟨.hbm, 189, rfl⟩
abbrev main_call23_v3 : Ref sig .tc := ⟨.hbm, 190, rfl⟩
abbrev main_call23_v4 : Ref sig .tc := ⟨.hbm, 191, rfl⟩
abbrev main_v71 : Ref sig .tc := ⟨.hbm, 192, rfl⟩
abbrev main_v72 : Ref sig .tc := ⟨.hbm, 193, rfl⟩
abbrev main_v73 : Ref sig .tc := ⟨.hbm, 194, rfl⟩
abbrev main_call24_v0 : Ref sig .tc := ⟨.hbm, 195, rfl⟩
abbrev main_call24_v1 : Ref sig .tc := ⟨.hbm, 196, rfl⟩
abbrev main_call24_v2 : Ref sig .tc := ⟨.hbm, 197, rfl⟩
abbrev main_call24_v3 : Ref sig .tc := ⟨.hbm, 198, rfl⟩
abbrev main_call24_v4 : Ref sig .tc := ⟨.hbm, 199, rfl⟩
abbrev main_v74 : Ref sig .tc := ⟨.hbm, 200, rfl⟩
abbrev main_v75 : Ref sig .tc := ⟨.hbm, 201, rfl⟩
abbrev main_v76 : Ref sig .tc := ⟨.hbm, 202, rfl⟩
abbrev main_call25_v0 : Ref sig .tc := ⟨.hbm, 203, rfl⟩
abbrev main_call25_v1 : Ref sig .tc := ⟨.hbm, 204, rfl⟩
abbrev main_call25_v2 : Ref sig .tc := ⟨.hbm, 205, rfl⟩
abbrev main_call25_v3 : Ref sig .tc := ⟨.hbm, 206, rfl⟩
abbrev main_call25_v4 : Ref sig .tc := ⟨.hbm, 207, rfl⟩
abbrev main_v77 : Ref sig .tc := ⟨.hbm, 208, rfl⟩
abbrev main_v78 : Ref sig .tc := ⟨.hbm, 209, rfl⟩
abbrev main_v79 : Ref sig .tc := ⟨.hbm, 210, rfl⟩
abbrev main_v80 : Ref sig .tc := ⟨.hbm, 211, rfl⟩

abbrev nD : Nat := 1
abbrev τ : Topo := Topo.v7x

variable {F : FTy → Type} [FloatOps F]

class Facts₀ : Prop where
  slices_S16384x26_S16384x1_0_0 : S16384x26.Slices ![0, 0] S16384x1
  shapeCasts_S16384x1_S16384 : S16384x1.ShapeCasts S16384
  bcast_S16384_S16384x1_0 : S16384.BroadcastsInDim S16384x1 (![0] : Fin 1 → Fin S16384x1.rank)
  bcast_S16384x1_S16384x100_0_1 : S16384x1.BroadcastsInDim S16384x100 (![0, 1] : Fin 2 → Fin S16384x100.rank)
  bcast_S1x100_S16384x100_0_1 : S1x100.BroadcastsInDim S16384x100 (![0, 1] : Fin 2 → Fin S16384x100.rank)
  natLt_1_32 : 1 < 32
  slices_S16384x26_S16384x1_0_1 : S16384x26.Slices ![0, 1] S16384x1
  slices_S16384x26_S16384x1_0_2 : S16384x26.Slices ![0, 2] S16384x1
  slices_S16384x26_S16384x1_0_3 : S16384x26.Slices ![0, 3] S16384x1
  slices_S16384x26_S16384x1_0_4 : S16384x26.Slices ![0, 4] S16384x1
  slices_S16384x26_S16384x1_0_5 : S16384x26.Slices ![0, 5] S16384x1
  slices_S16384x26_S16384x1_0_6 : S16384x26.Slices ![0, 6] S16384x1
  slices_S16384x26_S16384x1_0_7 : S16384x26.Slices ![0, 7] S16384x1
  slices_S16384x26_S16384x1_0_8 : S16384x26.Slices ![0, 8] S16384x1
  slices_S16384x26_S16384x1_0_9 : S16384x26.Slices ![0, 9] S16384x1
  slices_S16384x26_S16384x1_0_10 : S16384x26.Slices ![0, 10] S16384x1
  slices_S16384x26_S16384x1_0_11 : S16384x26.Slices ![0, 11] S16384x1
  slices_S16384x26_S16384x1_0_12 : S16384x26.Slices ![0, 12] S16384x1
  slices_S16384x26_S16384x1_0_13 : S16384x26.Slices ![0, 13] S16384x1
  slices_S16384x26_S16384x1_0_14 : S16384x26.Slices ![0, 14] S16384x1
  slices_S16384x26_S16384x1_0_15 : S16384x26.Slices ![0, 15] S16384x1
  slices_S16384x26_S16384x1_0_16 : S16384x26.Slices ![0, 16] S16384x1
  slices_S16384x26_S16384x1_0_17 : S16384x26.Slices ![0, 17] S16384x1
  slices_S16384x26_S16384x1_0_18 : S16384x26.Slices ![0, 18] S16384x1
  slices_S16384x26_S16384x1_0_19 : S16384x26.Slices ![0, 19] S16384x1
  slices_S16384x26_S16384x1_0_20 : S16384x26.Slices ![0, 20] S16384x1
  slices_S16384x26_S16384x1_0_21 : S16384x26.Slices ![0, 21] S16384x1
  slices_S16384x26_S16384x1_0_22 : S16384x26.Slices ![0, 22] S16384x1
  slices_S16384x26_S16384x1_0_23 : S16384x26.Slices ![0, 23] S16384x1
  slices_S16384x26_S16384x1_0_24 : S16384x26.Slices ![0, 24] S16384x1
  slices_S16384x26_S16384x1_0_25 : S16384x26.Slices ![0, 25] S16384x1
  concatenates_S16384x100_S16384x100_S16384x100_S16384x100_S16384x100_S16384x100_S16384x100_S16384x100_S16384x100_S16384x100_S16384x100_S16384x100_S16384x100_S16384x100_S16384x100_S16384x100_S16384x1600_d1 : Shape.Concatenates [S16384x100, S16384x100, S16384x100, S16384x100, S16384x100, S16384x100, S16384x100, S16384x100, S16384x100, S16384x100, S16384x100, S16384x100, S16384x100, S16384x100, S16384x100, S16384x100] S16384x1600 1
  concatenates_S16384x100_S16384x100_S16384x100_S16384x100_S16384x100_S16384x100_S16384x100_S16384x100_S16384x100_S16384x100_S16384x1000_d1 : Shape.Concatenates [S16384x100, S16384x100, S16384x100, S16384x100, S16384x100, S16384x100, S16384x100, S16384x100, S16384x100, S16384x100] S16384x1000 1
  concatenates_S16384x1600_S16384x1000_S16384x2600_d1 : Shape.Concatenates [S16384x1600, S16384x1000] S16384x2600 1

variable [Facts₀]

class Facts : Prop extends Facts₀ where

variable [Facts]
-- ==== Proof.TileBase.lean ====
/-
  The tile's view of the kernel: the program as the launch theorem reads it, the ghost state (the launch handshakes'
  rounds beside the transfers' counters), the tile a grid point runs on, and its first buffer held whole.
-/
import proofs.«212700_g8504035246323_cont_9to1_m_53_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212700_g8504035246323_cont_9to1_m_53_19_alg».proof.Proof.Gen.KernelIdeal
import proofs.«212700_g8504035246323_cont_9to1_m_53_19_alg».proof.Proof.Gen.KernelIdeal.Skeleton

noncomputable section

namespace Cert.KernelIdeal.Tile

open Cert.KernelIdeal Cert.KernelIdeal.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

/-- The SparseCore and the vector subcore a grid point runs on. -/
abbrev cV (L : grid0.Coords) : Fin τ.nSC := (L 0).castLE hcore0
abbrev jV (L : grid0.Coords) : Fin τ.nSub := (L 1).castLE hsub0

variable [FloatOps F]

/-- The first buffer held whole at contents `g`. -/
def heldB0 (d : Dev nD) (L : grid0.Coords)
    (g : Buf (Elt F) ((Memref.whole cc0_scratch1 : Memref sig .scVector .vmem S200x256 .i32).view.loc (V d (cV L) (jV L)))) :
    sProp (MT nD τ sig (HIx 1) (Elt F) ℕ UU ℕ) :=
  ((Memref.whole cc0_scratch1 : Memref sig .scVector .vmem S200x256 .i32).view.loc (V d (cV L) (jV L)) ↦{fullShare} g)

end Cert.KernelIdeal.Tile

end
-- ==== Proof.Spec.lean ====
/-
  What the kernel is to compute: the one-hot coding of a table of class numbers.

  `x` is a table of 16384 rows and 26 columns of class numbers below 100. Its coding has 2600 columns: column
  `100 c + v` of row `r` is 1 when `x[r, c] = v` and 0 otherwise. The kernel works on the transposed table and writes
  the transposed coding, 2600 rows of 16384 entries; transposing that back gives the coding of `x`.
-/
import proofs.«212700_g8504035246323_cont_9to1_m_53_19_alg».proof.KernelIdeal
import Idealize.ShloMosaic.Lib.ValueIdx
import Idealize.ShloMosaic.Lib.Pipeline.Value

namespace Cert.KernelIdeal.Spec

open Cert.KernelIdeal Idealize.ShloMosaic Idealize.ShloMosaic.ValueIdx

theorem div100_lt26 {n : Nat} (h : n < 2600) : n / 100 < 26 := by omega

/-- The coding of `x`: entry `(r, 100 c + v)` is 1 exactly when `x[r, c] = v`. -/
def oneHot (x : IVec S16384x26 32) : IVec S16384x2600 32 :=
  fun j => if (x (ix2 (j 0) ⟨(j 1).val / 100, div100_lt26 (j 1).isLt⟩)).toNat = (j 1).val % 100 then 1#32 else 0#32

/-- The same for the transposed table `xt`, transposed: entry `(100 c + v, r)` is 1 exactly when `xt[c, r] = v`. -/
def oneHotT (xt : IVec S26x16384 32) : IVec S2600x16384 32 :=
  fun j => if (xt (ix2 ⟨(j 0).val / 100, div100_lt26 (j 0).isLt⟩ (j 1))).toNat = (j 0).val % 100 then 1#32 else 0#32

/-- Transposing the table, coding it transposed and transposing back is coding the table. -/
theorem transpose_oneHotT (x : IVec S16384x26 32) (h1 : S16384x26.Transposes [1, 0] S26x16384)
    (h2 : S2600x16384.Transposes [1, 0] S16384x2600) :
    transpose S16384x2600 [1, 0] (oneHotT (transpose S26x16384 [1, 0] x h1)) h2 = oneHot x := by
  funext j
  rw [transpose_apply [1, 0] _ h2 j (ix2 (j 1) (j 0)) (fun b => by match b with | ⟨0, _⟩ => rfl | ⟨1, _⟩ => rfl)]
  unfold oneHotT oneHot
  rw [transpose_apply [1, 0] x h1 _ (ix2 (j 0) ⟨(j 1).val / 100, div100_lt26 (j 1).isLt⟩)
    (fun b => by match b with | ⟨0, _⟩ => rfl | ⟨1, _⟩ => rfl)]

end Cert.KernelIdeal.Spec
-- ==== Proof.Contract.lean ====
/-
  What one tile owes the launch, as a statement.

  Tile `w = 2 s + c` (vector subcore `s` of SparseCore `c`) is handed the 512 columns `512 w .. 512 w + 511` of the
  transposed table (26 rows) and of the transposed coding (2600 rows). From the table's slab, whose entries are class
  numbers below 100, it must leave the coding's slab holding the one-hot coding of the table, the table's slab as it
  found it, and its own scratch storage and semaphores as the launch lent them.
-/
import proofs.«212700_g8504035246323_cont_9to1_m_53_19_alg».proof.Proof.TileBase
import proofs.«212700_g8504035246323_cont_9to1_m_53_19_alg».proof.Proof.Spec

noncomputable section

namespace Cert.KernelIdeal.Contract

open Cert.KernelIdeal Cert.KernelIdeal.Gen Cert.KernelIdeal.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The tile a grid point `(c, s)` is: `2 s + c`. -/
def wOf (L : grid0.Coords) : Nat := 2 * (L 1).val + (L 0).val

/-- The 512 columns of tile `w`, in the transposed table and in the transposed coding. -/
def slabX (w : Nat) : Finset S26x16384.Idx := Finset.univ.filter fun j => 512 * w ≤ (j 1).val ∧ (j 1).val < 512 * w + 512
def slabO (w : Nat) : Finset S2600x16384.Idx := Finset.univ.filter fun j => 512 * w ≤ (j 1).val ∧ (j 1).val < 512 * w + 512

/-- The transposed table and the transposed coding, as locations of device `d` (the TensorCore's arrays). -/
abbrev xtLoc (d : Dev nD) : Loc nD τ sig := (SparseCore.T d).loc main_v0
abbrev oLoc (d : Dev nD) : Loc nD τ sig := (SparseCore.T d).loc main_v1

variable [FloatOps F]

/-- The tile's task, from its slabs to its slabs. -/
def TileContract : Prop :=
  ∀ (d : Dev nD) (L : grid0.Coords) (O : CellTallies nD τ sig (HIx 1)) (W : Waits sig (HIx 1)), (∀ g, O g none = 0) →
    ∀ (xt : IVec S26x16384 32), (∀ i, (xt i).toNat < 100) → ∀ (o0 : IVec S2600x16384 32),
    (iprop(levAts (K (F := F)).L (K (F := F)).lev ∗ emp
        ∗ ((xtLoc d ↦[slabX (wOf L)]{fullShare} (xt : Buf (Elt F) (xtLoc d))) ∗ (oLoc d ↦[slabO (wOf L)]{fullShare} (o0 : Buf (Elt F) (oLoc d))))
        ∗ scopedBufs (V d (cV L) (jV L)) ∗ scopedSems0 (V d (cV L) (jV L)) ∗ owes (V d (cV L) (jV L)) O W)
      : sProp (MT nD τ sig (HIx 1) (Elt F) ℕ UU ℕ))
      ⊢ wp frame (wpE (defs₀ (F := F)) 𝒱₀ (V d (cV L) (jV L)) none) Set.univ
          (cc0__onehot_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5)
          fun _ => iprop(((xtLoc d ↦[slabX (wOf L)]{fullShare} (xt : Buf (Elt F) (xtLoc d)))
              ∗ (oLoc d ↦[slabO (wOf L)]{fullShare} (Spec.oneHotT xt : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.KernelIdeal.Contract

end
-- ==== Proof.Launch.lean ====
/-
  The launch of the kernel program.

  @main on the TensorCore transposes the table, calls the SparseCore kernel on the grid of 2 SparseCores by 16 vector
  subcores, and transposes what the kernel wrote back. Vector subcore `i` of SparseCore `c` is tile `2 i + c`: it is
  handed the 512 columns from `512 (2 i + c)` on of the transposed table and of the transposed coding's array, and by
  the tile's contract hands them back, the coding's slab at the one-hot coding of the table's. The thirty-two slabs are
  pairwise disjoint and cover the arrays (`(j 1) / 512` is the tile of index `j`), so the call takes the two arrays whole
  and returns them whole, the second at the coding of the first; the second transpose then leaves the coding of the
  table itself (`Spec.transpose_oneHotT`). No thread signals another: the ghost state is the launch handshakes' rounds
  beside the transfers' counters, the kernel's proof consumes nothing of the launch's, and the launch element drops
  the counters.
-/
import proofs.«212700_g8504035246323_cont_9to1_m_53_19_alg».proof.Proof.Contract

noncomputable section

namespace Cert.KernelIdeal.Launch

open Cert.KernelIdeal Cert.KernelIdeal.Gen Cert.KernelIdeal.Tile Cert.KernelIdeal.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem reads it -/

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds sit in the left factor of the ghost state; the transfers' counters in the right. -/
abbrev EH : Emb UH (MT nD τ sig (HIx 1) (Elt F) ℕ UU ℕ) := embL

variable (m : (ℓ : Loc nD τ sig) → Buf (Elt F) ℓ) (ρ : Dev nD → PrngReg)

/-- The table, its transpose's array, the coding's and the result's, as locations of device `d`. -/
abbrev aLoc (d : Dev nD) : Loc nD τ sig := (SparseCore.T d).loc main_arg0
abbrev rLoc (d : Dev nD) : Loc nD τ sig := (SparseCore.T d).loc main_v2

/-- The transposed table: what the first operation of the program leaves for the kernel. -/
def xt (d : Dev nD) : IVec S26x16384 32 := transpose S26x16384 [1, 0] (m (aLoc d) : IVec S16384x26 32) transposes_S16384x26_S26x16384_1_0

variable [FloatOps F]

/-- What tile `w` is handed: its slab of the transposed table and its slab of the coding's array as launched; -/
def goS (d : Dev nD) (w : Nat) : sProp 𝕄 :=
  iprop((xtLoc d ↦[slabX w]{fullShare} (xt m d : Buf (Elt F) (xtLoc d))) ∗ (oLoc d ↦[slabO w]{fullShare} (m (oLoc d))))
/-- and what it hands back: the table's slab as it was, the coding's slab at the coding. -/
def tdS (d : Dev nD) (w : Nat) : sProp 𝕄 :=
  iprop((xtLoc d ↦[slabX w]{fullShare} (xt m d : Buf (Elt F) (xtLoc d))) ∗ (oLoc d ↦[slabO w]{fullShare} (Spec.oneHotT (xt m d) : Buf (Elt F) (oLoc d))))

instance goS_storable (d : Dev nD) (w : Nat) : BI.Storable (upEmb : UEmb _ 𝕄) (goS m d w) := by unfold goS; infer_instance
instance tdS_storable (d : Dev nD) (w : Nat) : BI.Storable (upEmb : UEmb _ 𝕄) (tdS m d w) := by unfold tdS; infer_instance

/-- The one call's payloads: vector subcore `i` of SparseCore `c` is tile `2 i + c`; a SparseCore is handed its sixteen
    tiles' slabs together. The kernel's proof consumes nothing of the launch's. -/
def P : (K (F := F)).Pay (nD := nD) (Val := Elt F) (Name := ℕ) (U := UU) where
  st := fun q d c => bigSep Finset.univ fun i : Fin ((K (F := F)).nSub q) => goS m d (2 * i.val + c.val)
  dn := fun q d c => bigSep Finset.univ fun i : Fin ((K (F := F)).nSub q) => tdS m d (2 * i.val + c.val)
  go := fun _ d c i => goS m d (2 * i.val + c.val)
  td := fun _ d c i => tdS m d (2 * i.val + c.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__onehot_body (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The entries of the transposed table are entries of the table. -/
theorem xt_lt (hpre : ∀ (c : Dev nD) (i : S16384x26.Idx), ((m (aLoc c) i : BitVec 32)).toNat < 100) (d : Dev nD) (j : S26x16384.Idx) :
    (xt m d j).toNat < 100 := by
  unfold xt
  rw [transpose_apply [1, 0] _ transposes_S16384x26_S26x16384_1_0 j (ix2 (j 1) (j 0)) (fun b => by match b with | ⟨0, _⟩ => rfl | ⟨1, _⟩ => rfl)]
  exact hpre d _

/-- The tile's task, as the launch theorem asks for it, from the tile's contract. -/
theorem tileObl (htile : TileContract (F := F)) (hpre : ∀ (c : Dev nD) (i : S16384x26.Idx), ((m (aLoc c) i : BitVec 32)).toNat < 100) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO (xt m d) (xt_lt m hpre d) (m (oLoc d))).trans (wp_mono frame _ _ fun _ => obl_post)

/-- A SparseCore's operands are its tiles' slabs together, and so are its results. -/
theorem vecSplit : (K (F := F)).VecSplit' (P m) 0 := by
  intro d c
  show (bigSep Finset.univ fun i : Fin ((K (F := F)).nSub 0) => goS m d (2 * i.val + c.val)) ⊢ |={Set.univ}=> iprop(
      (bigSep Finset.univ fun i : Fin ((K (F := F)).nSub 0) => goS m d (2 * i.val + c.val))
      ∗ ((bigSep Finset.univ fun i : Fin ((K (F := F)).nSub 0) => tdS m d (2 * i.val + c.val))
          -∗ bigSep Finset.univ fun i : Fin ((K (F := F)).nSub 0) => tdS m d (2 * i.val + c.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole, are the thirty-two tiles' slabs -/

/-- Grid point `(c, i)`'s tile. -/
abbrev wP (p : Fin 2 × Fin 16) : Nat := 2 * p.2.val + p.1.val

theorem wP_inj {p p' : Fin 2 × Fin 16} (h : p ≠ p') : wP p ≠ wP p' := by
  intro e
  apply h
  have h1 := p.1.isLt; have h2 := p'.1.isLt
  exact Prod.ext (Fin.ext (by unfold wP at e; omega)) (Fin.ext (by unfold wP at e; omega))

theorem slabX_disjoint : ∀ p ∈ (Finset.univ : Finset (Fin 2 × Fin 16)), ∀ p' ∈ (Finset.univ : Finset (Fin 2 × Fin 16)), p ≠ p' →
    Disjoint (slabX (wP p)) (slabX (wP p')) := by
  intro p _ p' _ h
  have := wP_inj h
  unfold slabX
  exact Finset.disjoint_filter.mpr fun j _ h1 h2 => by omega
theorem slabO_disjoint : ∀ p ∈ (Finset.univ : Finset (Fin 2 × Fin 16)), ∀ p' ∈ (Finset.univ : Finset (Fin 2 × Fin 16)), p ≠ p' →
    Disjoint (slabO (wP p)) (slabO (wP p')) := by
  intro p _ p' _ h
  have := wP_inj h
  unfold slabO
  exact Finset.disjoint_filter.mpr fun j _ h1 h2 => by omega

theorem slabX_cover : (Finset.univ : Finset (Fin 2 × Fin 16)).biUnion (fun p => slabX (wP p)) = Finset.univ := by
  refine Finset.eq_univ_iff_forall.mpr fun j => Finset.mem_biUnion.mpr ?_
  have hj : (j 1).val < 16384 := (j 1).isLt
  refine ⟨(⟨(j 1).val / 512 % 2, by omega⟩, ⟨(j 1).val / 512 / 2, by omega⟩), Finset.mem_univ _, ?_⟩
  unfold slabX wP
  refine Finset.mem_filter.mpr ⟨Finset.mem_univ _, ?_⟩
  dsimp only
  omega
theorem slabO_cover : (Finset.univ : Finset (Fin 2 × Fin 16)).biUnion (fun p => slabO (wP p)) = Finset.univ := by
  refine Finset.eq_univ_iff_forall.mpr fun j => Finset.mem_biUnion.mpr ?_
  have hj : (j 1).val < 16384 := (j 1).isLt
  refine ⟨(⟨(j 1).val / 512 % 2, by omega⟩, ⟨(j 1).val / 512 / 2, by omega⟩), Finset.mem_univ _, ?_⟩
  unfold slabO wP
  refine Finset.mem_filter.mpr ⟨Finset.mem_univ _, ?_⟩
  dsimp only
  omega

omit [FloatOps F] in
theorem xPts_slabs (d : Dev nD) (f : Buf (Elt F) (xtLoc d)) :
    (xtLoc d ↦{fullShare} f : sProp 𝕄) = bigSep Finset.univ fun p : Fin 2 × Fin 16 => xtLoc d ↦[slabX (wP p)]{fullShare} f := by
  rw [← pointsTo_biUnion Finset.univ (ℓ := xtLoc d) (fun p => slabX (wP p)) slabX_disjoint, slabX_cover]; try rfl
omit [FloatOps F] in
theorem oPts_slabs (d : Dev nD) (f : Buf (Elt F) (oLoc d)) :
    (oLoc d ↦{fullShare} f : sProp 𝕄) = bigSep Finset.univ fun p : Fin 2 × Fin 16 => oLoc d ↦[slabO (wP p)]{fullShare} f := by
  rw [← pointsTo_biUnion Finset.univ (ℓ := oLoc d) (fun p => slabO (wP p)) slabO_disjoint, slabO_cover]; try rfl

/-- What the call takes for the two SparseCores: the transposed table and the coding's array, whole; -/
theorem st0_eq (d : Dev nD) : (bigSep Finset.univ fun c : Fin ((K (F := F)).nCore 0) => (P m).st 0 d c)
    = iprop((xtLoc d ↦{fullShare} (xt m d : Buf (Elt F) (xtLoc d))) ∗ (oLoc d ↦{fullShare} (m (oLoc d)))) := by
  show (bigSep (Finset.univ : Finset (Fin 2)) fun c => bigSep (Finset.univ : Finset (Fin 16)) fun i => goS m d (2 * i.val + c.val)) = _
  rw [← bigSep_univ_prod (fun p : Fin 2 × Fin 16 => goS m d (wP p))]
  unfold goS
  rw [bigSep_sep', ← xPts_slabs, ← oPts_slabs]
/-- and what it hands back: the table as it was, the array at the coding. -/
theorem dn0_eq (d : Dev nD) : (bigSep Finset.univ fun c : Fin ((K (F := F)).nCore 0) => (P m).dn 0 d c)
    = iprop((xtLoc d ↦{fullShare} (xt m d : Buf (Elt F) (xtLoc d))) ∗ (oLoc d ↦{fullShare} (Spec.oneHotT (xt m d) : Buf (Elt F) (oLoc d)))) := by
  show (bigSep (Finset.univ : Finset (Fin 2)) fun c => bigSep (Finset.univ : Finset (Fin 16)) fun i => tdS m d (2 * i.val + c.val)) = _
  rw [← bigSep_univ_prod (fun p : Fin 2 × Fin 16 => tdS m d (wP p))]
  unfold tdS
  rw [bigSep_sep', ← xPts_slabs, ← oPts_slabs]

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the table transposed, the coding transposed back. -/
abbrev opT1 : HloOp τ sig (Elt F) := StableHlo.unary main_arg0 main_v0
  ((transpose S26x16384 [1, 0] · transposes_S16384x26_S26x16384_1_0) : (⟨S16384x26, .i32⟩ : BufTy).Contents (Elt F) → (⟨S26x16384, .i32⟩ : BufTy).Contents (Elt F))
abbrev opT2 : HloOp τ sig (Elt F) := StableHlo.unary main_v1 main_v2
  ((transpose S16384x2600 [1, 0] · transposes_S2600x16384_S16384x2600_1_0) : (⟨S2600x16384, .i32⟩ : BufTy).Contents (Elt F) → (⟨S16384x2600, .i32⟩ : BufTy).Contents (Elt F))

/-- The TensorCore's arrays, all unscoped: the table, its transpose, the coding transposed, the coding. -/
abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xtLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; -/
def V0 (d : Dev nD) : Valuation τ sig (Elt F) := fun b => m (d, b)
/-- after the first transpose; after the call, the coding's array at the coding. -/
def V1 (d : Dev nD) : Valuation τ sig (Elt F) := (opT1 (F := F)).result (V0 m d)
def V2 (d : Dev nD) : Valuation τ sig (Elt F) := Function.update (V1 m d) o' (Spec.oneHotT (xt m d) : Buf (Elt F) (oLoc d))

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := StableHlo.unary_result_ne _ _ _ _ _ _ (show (main_arg0 : Ref sig .tc) ≠ main_v0 by decide)
theorem V1_x (d : Dev nD) : V1 m d x' = (xt m d : Buf (Elt F) (xtLoc d)) := StableHlo.unary_result _ _ _ _ _ _
theorem V1_o (d : Dev nD) : V1 m d o' = m (oLoc d) := StableHlo.unary_result_ne _ _ _ _ _ _ (show (main_v1 : Ref sig .tc) ≠ main_v0 by decide)
theorem V1_r (d : Dev nD) : V1 m d r' = m (rLoc d) := StableHlo.unary_result_ne _ _ _ _ _ _ (show (main_v2 : Ref sig .tc) ≠ main_v0 by decide)

theorem V2_a (d : Dev nD) : V2 m d a' = m (aLoc d) := (Function.update_of_ne (show a' ≠ o' by decide) _ _).trans (V1_a m d)
theorem V2_x (d : Dev nD) : V2 m d x' = (xt m d : Buf (Elt F) (xtLoc d)) := (Function.update_of_ne (show x' ≠ o' by decide) _ _).trans (V1_x m d)
theorem V2_o (d : Dev nD) : V2 m d o' = (Spec.oneHotT (xt m d) : Buf (Elt F) (oLoc d)) := Function.update_self _ _ _
theorem V2_r (d : Dev nD) : V2 m d r' = m (rLoc d) := (Function.update_of_ne (show r' ≠ o' by decide) _ _).trans (V1_r m d)

theorem hT1 : (opT1 (F := F)).bufs ⊆ S4 := show ({a', x'} : Finset (DevRef τ sig)) ⊆ S4 by decide
theorem hT2 : (opT2 (F := F)).bufs ⊆ S4 := show ({o', r'} : Finset (DevRef τ sig)) ⊆ S4 by decide

/-- The coding of the table, as the second transpose leaves it. -/
def res (d : Dev nD) : IVec S16384x2600 32 := transpose S16384x2600 [1, 0] (Spec.oneHotT (xt m d)) transposes_S2600x16384_S16384x2600_1_0

theorem V3_a (d : Dev nD) : (opT2 (F := F)).result (V2 m d) a' = m (aLoc d) :=
  (StableHlo.unary_result_ne _ _ _ _ _ _ (show (main_arg0 : Ref sig .tc) ≠ main_v2 by decide)).trans (V2_a m d)
theorem V3_r (d : Dev nD) : (opT2 (F := F)).result (V2 m d) r' = (res m d : Buf (Elt F) (rLoc d)) :=
  (StableHlo.unary_result _ _ _ _ _ _).trans
    (congrArg (fun v : IVec S2600x16384 32 => transpose S16384x2600 [1, 0] v transposes_S2600x16384_S16384x2600_1_0) (V2_o m d))

/-- What @main leaves the claim: the table as launched, the result at the coding. -/
abbrev FIN (d : Dev nD) : sProp 𝕄 := iprop((aLoc d ↦{fullShare} m (aLoc d)) ∗ rLoc d ↦{fullShare} (res m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT1) (S := S4) hT1 (V := V0 m d)) $$ [Hb Hheld]
  · isplitl [Hb]; · iexact Hb
    iexact Hheld
  iintro ⟨Hb, Hheld⟩
  ihave Hh := (Entails.of_eq (held_S4 (F := F) d _)) $$ Hheld
  icases Hh with ⟨Ha, Hx, Ho, Hr⟩
  rw [wp_ret]; imodintro
  -- the call: the transposed table and the coding's array to the two SparseCores and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]
    · iapply (Entails.of_eq (congrArg (fun v => (xtLoc d ↦{fullShare} v : sProp 𝕄)) (V1_x m d))); iexact Hx
    · iapply (Entails.of_eq (congrArg (fun v => (oLoc d ↦{fullShare} v : sProp 𝕄)) (V1_o m d))); iexact Ho
  iintro ⟨Hst, Hdn⟩
  ihave Hdn' := (Entails.of_eq (dn0_eq m d)) $$ Hdn
  icases Hdn' with ⟨Hx, Ho⟩
  -- the second transpose, over the coding's array and the result
  iapply (wp_hlo_within 𝒱 (SparseCore.T d) none Set.univ (op := opT2) (S := S4) hT2 (V := V2 m d)) $$ [Hb Ha Hx Ho Hr]
  · isplitl [Hb]; · iexact Hb
    rw [held_S4, V2_a, V2_x, V2_o, V2_r]
    isplitl [Ha]; · iapply (Entails.of_eq (congrArg (fun v => (aLoc d ↦{fullShare} v : sProp 𝕄)) (V1_a m d))); iexact Ha
    isplitl [Hx]; · iexact Hx
    isplitl [Ho]; · iexact Ho
    iapply (Entails.of_eq (congrArg (fun v => (rLoc d ↦{fullShare} v : sProp 𝕄)) (V1_r m d))); iexact Hr
  iintro ⟨Hb, Hheld⟩
  ihave Hh := (Entails.of_eq (held_S4 (F := F) d _)) $$ Hheld
  icases Hh with ⟨Ha, -, -, Hr⟩
  rw [wp_ret]; imodintro; imodintro
  isplitl [Hst]; · iexact Hst
  isplitl [Ha]
  · iapply (Entails.of_eq (congrArg (fun v => (aLoc d ↦{fullShare} v : sProp 𝕄)) (V3_a m d))); iexact Ha
  · iapply (Entails.of_eq (congrArg (fun v => (rLoc d ↦{fullShare} v : sProp 𝕄)) (V3_r m d))); iexact Hr

/-- What the claim reads off the final memory of device `d`. -/
def fq (d : Dev nD) (s' : Phys nD τ sig (Elt F)) : Prop :=
  s'.mem.mem (rLoc d) = (res m d : Buf (Elt F) (rLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := (res m d : Buf (Elt F) (rLoc d)))) $$ [HSI Hr]
  · isplitl [HSI] <;> iassumption
  icases H with %h2
  ipureintro; exact ⟨funext fun i => h2 i (Finset.mem_univ i), funext fun i => h1 i (Finset.mem_univ i)⟩

/-- Transposing the table, coding it transposed and transposing back is coding the table. -/
theorem res_eq (d : Dev nD) : res m d = Spec.oneHot (m (aLoc d) : IVec S16384x26 32) :=
  Spec.transpose_oneHotT _ _ _

/-! ## The program's run -/

def QC : PUnit × MemSt nD τ sig (Elt F) → Prop := fun r => ∀ c : Dev nD,
  r.2.mem (rLoc c) = (Spec.oneHot (m (aLoc c) : IVec S16384x26 32) : Buf (Elt F) (rLoc c)) ∧ r.2.mem (aLoc c) = m (aLoc c)

theorem run_main' [∀ e, Nonempty (Elt F e)] (htile : TileContract (F := F))
    (hpre : ∀ (c : Dev nD) (i : S16384x26.Idx), ((m (aLoc c) i : BitVec 32)).toNat < 100) :
    θ_run (Cert.KernelIdeal.defs (F := F)) (Cert.KernelIdeal.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (res_eq m c), (h c).2⟩)

/-- The kernel program's run, from the tile's contract: on every device the result is the one-hot coding of the table,
    and the table is as it was. -/
theorem run_main {F : FTy → Type} [FloatOps F] [∀ e, Nonempty (Elt F e)]
    (htile : Cert.KernelIdeal.Contract.TileContract (F := F))
    (m : (ℓ : Loc nD τ sig) → Buf (Elt F) ℓ) (ρ : Dev nD → PrngReg)
    (hpre : ∀ (c : Dev nD) (i : S16384x26.Idx), ((m ((c.tc : Thread nD τ).loc main_arg0) i : BitVec 32)).toNat < 100) :
    θ_run (Cert.KernelIdeal.defs (F := F)) (Cert.KernelIdeal.threads (F := F)) ⟨m, fun _ => 0, ρ⟩ (fun r => ∀ c : Dev nD,
      r.2.mem ((c.tc : Thread nD τ).loc main_v2) = Cert.KernelIdeal.Spec.oneHot (m ((c.tc : Thread nD τ).loc main_arg0))
      ∧ r.2.mem ((c.tc : Thread nD τ).loc main_arg0) = m ((c.tc : Thread nD τ).loc main_arg0)) :=
  run_main' m ρ htile hpre

end Cert.KernelIdeal.Launch

end
-- ==== Proof.RefValue.lean ====
/-
  The reference's value, and what the precondition says.

  The reference codes a table `x` of 16384 rows and 26 columns of class numbers one column at a time: column `k` is cut
  out, compared entry by entry with the numbers 0 … 99, and the outcome bits widened to words, which gives a block of
  16384 × 100 words whose entry `(r, v)` is 1 exactly when `x[r, k] = v`. The 26 blocks are then laid side by side in
  three steps: the first sixteen, the last ten, and those two. Reading the joined array at column `n` therefore lands
  in block `n / 100` at class number `n % 100`, which is the coding `Spec.oneHot` of the table.

  The precondition is the conjunction over all entries of `0 ≤ x[r, k] ≤ 99` (signed); it gives `x[r, k] < 100` as a
  value.
-/
import proofs.«212700_g8504035246323_cont_9to1_m_53_19_alg».proof.Proof.RefRun
import proofs.«212700_g8504035246323_cont_9to1_m_53_19_alg».proof.Proof.RefRead
import proofs.«212700_g8504035246323_cont_9to1_m_53_19_alg».proof.Proof.Spec
import proofs.«212700_g8504035246323_cont_9to1_m_53_19_alg».proof.Proof.Gen.Pre_input_domain
import Idealize.ShloMosaic.Lib.ReduceAll
import Idealize.ShloMosaic.Lib.ValueIdx
import Idealize.ShloMosaic.Lib.Pipeline.Value

namespace Cert.ReferenceIdeal.RefValue

open Cert.ReferenceIdeal Cert.ReferenceIdeal.Gen Cert.ReferenceIdeal.Read Idealize.ShloMosaic Idealize.ShloMosaic.ValueIdx

/-! ## The precondition's meaning -/

instance subsingleton_scalar_idx : Subsingleton Cert.Pre_input_domain.S_.Idx := ⟨fun a b => funext fun d => d.elim0⟩

/-- The precondition says every entry of the table is a class number below 100: it is the conjunction, over all
    entries, of `0 ≤ x` and `x ≤ 99` read as signed numbers, and a 32-bit word between 0 and 99 as a signed number has
    a value below 100. -/
theorem pre_lt {F : FTy → Type} [FloatOps F] [Cert.Pre_input_domain.Facts] (x : IVec Cert.Pre_input_domain.S16384x26 32)
    (h : Cert.Pre_input_domain.fn (F := F) x = fun _ => 1#1) : ∀ i, (x i).toNat < 100 := by
  intro i
  have h0 := congrFun h ValueIdx.ix0
  dsimp only [Cert.Pre_input_domain.fn] at h0
  have h1 := Host.reduce_andi_all _ _ _ _ _ h0 i
  dsimp only [andi, cmpi, broadcastInDim, constantI] at h1
  obtain ⟨ha, hb⟩ := IntOp.andi_eq_one.1 h1
  rw [IntOp.cmpi_sge] at ha
  rw [IntOp.cmpi_sle] at hb
  rw [show (0#32 : BitVec 32).toInt = 0 from by decide] at ha
  rw [show (99#32 : BitVec 32).toInt = 99 from by decide] at hb
  have hx := (x i).isLt
  rw [BitVec.toInt_eq_toNat_cond] at ha hb
  split_ifs at ha hb <;> omega

/-! ## One column -/

/-- Column `k` of the table, coded: entry `(r, v)` is 1 exactly when `x[r, k] = v`. -/
def colOf (x : IVec S16384x26 32) (k : Fin 26) : IVec S16384x100 32 :=
  fun i => if (x (ix2 (i 0) k)).toNat = (i 1).val then 1#32 else 0#32

/-- What the reference does to one column `y` (a 16384 × 1 slice of the table): drop the unit axis, put it back, repeat
    the column 100 times along the second axis, compare with the numbers 0 … 99 laid along that axis, and widen the
    outcome bit to a 32-bit word. -/
def coded (y : IVec S16384x1 32) : IVec S16384x100 32 :=
  extui 32 (cmpi .eq
    (broadcastInDim S16384x100 ![0, 1] bcast_S16384x1_S16384x100_0_1
      (broadcastInDim S16384x1 ![0] bcast_S16384_S16384x1_0 (shapeCast S16384 y shapeCasts_S16384x1_S16384)))
    (broadcastInDim S16384x100 ![0, 1] bcast_S1x100_S16384x100_0_1 (iotaInDim S1x100 32 1))) natLt_1_32

/-- A word equals the 32-bit word of a number below 100 exactly when its value is that number. -/
theorem eq_ofNat_iff (a : BitVec 32) (v : Nat) (hv : v < 100) : a = BitVec.ofNat 32 v ↔ a.toNat = v := by
  rw [BitVec.toNat_eq, BitVec.toNat_ofNat, Nat.mod_eq_of_lt (by omega)]

/-- The coded column at an index: the outcome of comparing the column's entry in that row with the second coordinate. -/
theorem coded_apply (y : IVec S16384x1 32) (i : S16384x100.Idx) :
    coded y i = if (y (ix2 (i 0) 0)).toNat = (i 1).val then 1#32 else 0#32 := by
  have h1 : broadcastInDim S16384x100 ![0, 1] bcast_S16384x1_S16384x100_0_1
      (broadcastInDim S16384x1 ![0] bcast_S16384_S16384x1_0 (shapeCast S16384 y shapeCasts_S16384x1_S16384)) i
      = y (ix2 (i 0) 0) := by
    rw [broadcastInDim_apply _ bcast_S16384x1_S16384x100_0_1 _ i (ix2 (i 0) 0) (fun a => match a with
      | ⟨0, _⟩ => by show (i 0).val = if (16384 : Nat) = 1 then 0 else (i 0).val; rw [if_neg (by decide)]
      | ⟨1, _⟩ => by show 0 = if (1 : Nat) = 1 then 0 else (i 1).val; rw [if_pos rfl])]
    rw [broadcastInDim_apply _ bcast_S16384_S16384x1_0 _ (ix2 (i 0) 0) (ix1 (i 0)) (fun a => match a with
      | ⟨0, _⟩ => by show (i 0).val = if (16384 : Nat) = 1 then 0 else (i 0).val; rw [if_neg (by decide)])]
    exact shapeCast_apply y shapeCasts_S16384x1_S16384 (ix1 (i 0)) (ix2 (i 0) 0)
      (by rewrite [Shape.rowMajor_val_two, Shape.rowMajor_val_one]; show (i 0).val * 1 + 0 = (i 0).val; omega)
  have h2 : broadcastInDim S16384x100 ![0, 1] bcast_S1x100_S16384x100_0_1 (iotaInDim S1x100 32 1) i
      = BitVec.ofNat 32 (i 1).val := by
    rw [broadcastInDim_apply _ bcast_S1x100_S16384x100_0_1 _ i (ix2 0 (i 1)) (fun a => match a with
      | ⟨0, _⟩ => by show 0 = if (1 : Nat) = 1 then 0 else (i 0).val; rw [if_pos rfl]
      | ⟨1, _⟩ => by show (i 1).val = if (100 : Nat) = 1 then 0 else (i 1).val; rw [if_neg (by decide)])]
    rfl
  show (IntOp.cmpi .eq _ _).setWidth 32 = _
  rw [h1, h2]
  have hv : (i 1).val < 100 := (i 1).isLt
  by_cases e : (y (ix2 (i 0) 0)).toNat = (i 1).val
  · rw [if_pos e, (IntOp.cmpi_eq).2 ((eq_ofNat_iff _ _ hv).2 e)]; rfl
  · rw [if_neg e, eq_zero_of_ne_one (fun h => e ((eq_ofNat_iff _ _ hv).1 ((IntOp.cmpi_eq).1 h)))]; rfl

/-- A slice that holds column `k` of the table is coded to `colOf x k`. -/
theorem coded_eq_colOf (y : IVec S16384x1 32) (x : IVec S16384x26 32) (k : Fin 26)
    (hy : ∀ r : Fin 16384, y (ix2 r 0) = x (ix2 r k)) : coded y = colOf x k := by
  funext i
  have h := hy (i 0)
  rw [coded_apply, h]
  rfl

/-! ## The columns of the reference, by number -/

variable {F : FTy → Type} [FloatOps F]

theorem col_0 (x0 : IVec S16384x26 32) : val_main_v2 (F := F) x0 = colOf x0 ⟨0, by decide⟩ :=
  coded_eq_colOf (val_main_v0 (F := F) x0) x0 ⟨0, by decide⟩ fun r => (val_main_v0_apply x0 _).trans
    (congrArg x0 (funext fun a => match a with | ⟨0, _⟩ => rfl | ⟨1, _⟩ => rfl))

theorem col_1 (x0 : IVec S16384x26 32) : val_main_v5 (F := F) x0 = colOf x0 ⟨1, by decide⟩ :=
  coded_eq_colOf (val_main_v3 (F := F) x0) x0 ⟨1, by decide⟩ fun r => (val_main_v3_apply x0 _).trans
    (congrArg x0 (funext fun a => match a with | ⟨0, _⟩ => rfl | ⟨1, _⟩ => rfl))

theorem col_2 (x0 : IVec S16384x26 32) : val_main_v8 (F := F) x0 = colOf x0 ⟨2, by decide⟩ :=
  coded_eq_colOf (val_main_v6 (F := F) x0) x0 ⟨2, by decide⟩ fun r => (val_main_v6_apply x0 _).trans
    (congrArg x0 (funext fun a => match a with | ⟨0, _⟩ => rfl | ⟨1, _⟩ => rfl))

theorem col_3 (x0 : IVec S16384x26 32) : val_main_v11 (F := F) x0 = colOf x0 ⟨3, by decide⟩ :=
  coded_eq_colOf (val_main_v9 (F := F) x0) x0 ⟨3, by decide⟩ fun r => (val_main_v9_apply x0 _).trans
    (congrArg x0 (funext fun a => match a with | ⟨0, _⟩ => rfl | ⟨1, _⟩ => rfl))

theorem col_4 (x0 : IVec S16384x26 32) : val_main_v14 (F := F) x0 = colOf x0 ⟨4, by decide⟩ :=
  coded_eq_colOf (val_main_v12 (F := F) x0) x0 ⟨4, by decide⟩ fun r => (val_main_v12_apply x0 _).trans
    (congrArg x0 (funext fun a => match a with | ⟨0, _⟩ => rfl | ⟨1, _⟩ => rfl))

theorem col_5 (x0 : IVec S16384x26 32) : val_main_v17 (F := F) x0 = colOf x0 ⟨5, by decide⟩ :=
  coded_eq_colOf (val_main_v15 (F := F) x0) x0 ⟨5, by decide⟩ fun r => (val_main_v15_apply x0 _).trans
    (congrArg x0 (funext fun a => match a with | ⟨0, _⟩ => rfl | ⟨1, _⟩ => rfl))

theorem col_6 (x0 : IVec S16384x26 32) : val_main_v20 (F := F) x0 = colOf x0 ⟨6, by decide⟩ :=
  coded_eq_colOf (val_main_v18 (F := F) x0) x0 ⟨6, by decide⟩ fun r => (val_main_v18_apply x0 _).trans
    (congrArg x0 (funext fun a => match a with | ⟨0, _⟩ => rfl | ⟨1, _⟩ => rfl))

theorem col_7 (x0 : IVec S16384x26 32) : val_main_v23 (F := F) x0 = colOf x0 ⟨7, by decide⟩ :=
  coded_eq_colOf (val_main_v21 (F := F) x0) x0 ⟨7, by decide⟩ fun r => (val_main_v21_apply x0 _).trans
    (congrArg x0 (funext fun a => match a with | ⟨0, _⟩ => rfl | ⟨1, _⟩ => rfl))

theorem col_8 (x0 : IVec S16384x26 32) : val_main_v26 (F := F) x0 = colOf x0 ⟨8, by decide⟩ :=
  coded_eq_colOf (val_main_v24 (F := F) x0) x0 ⟨8, by decide⟩ fun r => (val_main_v24_apply x0 _).trans
    (congrArg x0 (funext fun a => match a with | ⟨0, _⟩ => rfl | ⟨1, _⟩ => rfl))

theorem col_9 (x0 : IVec S16384x26 32) : val_main_v29 (F := F) x0 = colOf x0 ⟨9, by decide⟩ :=
  coded_eq_colOf (val_main_v27 (F := F) x0) x0 ⟨9, by decide⟩ fun r => (val_main_v27_apply x0 _).trans
    (congrArg x0 (funext fun a => match a with | ⟨0, _⟩ => rfl | ⟨1, _⟩ => rfl))

theorem col_10 (x0 : IVec S16384x26 32) : val_main_v32 (F := F) x0 = colOf x0 ⟨10, by decide⟩ :=
  coded_eq_colOf (val_main_v30 (F := F) x0) x0 ⟨10, by decide⟩ fun r => (val_main_v30_apply x0 _).trans
    (congrArg x0 (funext fun a => match a with | ⟨0, _⟩ => rfl | ⟨1, _⟩ => rfl))

theorem col_11 (x0 : IVec S16384x26 32) : val_main_v35 (F := F) x0 = colOf x0 ⟨11, by decide⟩ :=
  coded_eq_colOf (val_main_v33 (F := F) x0) x0 ⟨11, by decide⟩ fun r => (val_main_v33_apply x0 _).trans
    (congrArg x0 (funext fun a => match a with | ⟨0, _⟩ => rfl | ⟨1, _⟩ => rfl))

theorem col_12 (x0 : IVec S16384x26 32) : val_main_v38 (F := F) x0 = colOf x0 ⟨12, by decide⟩ :=
  coded_eq_colOf (val_main_v36 (F := F) x0) x0 ⟨12, by decide⟩ fun r => (val_main_v36_apply x0 _).trans
    (congrArg x0 (funext fun a => match a with | ⟨0, _⟩ => rfl | ⟨1, _⟩ => rfl))

theorem col_13 (x0 : IVec S16384x26 32) : val_main_v41 (F := F) x0 = colOf x0 ⟨13, by decide⟩ :=
  coded_eq_colOf (val_main_v39 (F := F) x0) x0 ⟨13, by decide⟩ fun r => (val_main_v39_apply x0 _).trans
    (congrArg x0 (funext fun a => match a with | ⟨0, _⟩ => rfl | ⟨1, _⟩ => rfl))

theorem col_14 (x0 : IVec S16384x26 32) : val_main_v44 (F := F) x0 = colOf x0 ⟨14, by decide⟩ :=
  coded_eq_colOf (val_main_v42 (F := F) x0) x0 ⟨14, by decide⟩ fun r => (val_main_v42_apply x0 _).trans
    (congrArg x0 (funext fun a => match a with | ⟨0, _⟩ => rfl | ⟨1, _⟩ => rfl))

theorem col_15 (x0 : IVec S16384x26 32) : val_main_v47 (F := F) x0 = colOf x0 ⟨15, by decide⟩ :=
  coded_eq_colOf (val_main_v45 (F := F) x0) x0 ⟨15, by decide⟩ fun r => (val_main_v45_apply x0 _).trans
    (congrArg x0 (funext fun a => match a with | ⟨0, _⟩ => rfl | ⟨1, _⟩ => rfl))

theorem col_16 (x0 : IVec S16384x26 32) : val_main_v50 (F := F) x0 = colOf x0 ⟨16, by decide⟩ :=
  coded_eq_colOf (val_main_v48 (F := F) x0) x0 ⟨16, by decide⟩ fun r => (val_main_v48_apply x0 _).trans
    (congrArg x0 (funext fun a => match a with | ⟨0, _⟩ => rfl | ⟨1, _⟩ => rfl))

theorem col_17 (x0 : IVec S16384x26 32) : val_main_v53 (F := F) x0 = colOf x0 ⟨17, by decide⟩ :=
  coded_eq_colOf (val_main_v51 (F := F) x0) x0 ⟨17, by decide⟩ fun r => (val_main_v51_apply x0 _).trans
    (congrArg x0 (funext fun a => match a with | ⟨0, _⟩ => rfl | ⟨1, _⟩ => rfl))

theorem col_18 (x0 : IVec S16384x26 32) : val_main_v56 (F := F) x0 = colOf x0 ⟨18, by decide⟩ :=
  coded_eq_colOf (val_main_v54 (F := F) x0) x0 ⟨18, by decide⟩ fun r => (val_main_v54_apply x0 _).trans
    (congrArg x0 (funext fun a => match a with | ⟨0, _⟩ => rfl | ⟨1, _⟩ => rfl))

theorem col_19 (x0 : IVec S16384x26 32) : val_main_v59 (F := F) x0 = colOf x0 ⟨19, by decide⟩ :=
  coded_eq_colOf (val_main_v57 (F := F) x0) x0 ⟨19, by decide⟩ fun r => (val_main_v57_apply x0 _).trans
    (congrArg x0 (funext fun a => match a with | ⟨0, _⟩ => rfl | ⟨1, _⟩ => rfl))

theorem col_20 (x0 : IVec S16384x26 32) : val_main_v62 (F := F) x0 = colOf x0 ⟨20, by decide⟩ :=
  coded_eq_colOf (val_main_v60 (F := F) x0) x0 ⟨20, by decide⟩ fun r => (val_main_v60_apply x0 _).trans
    (congrArg x0 (funext fun a => match a with | ⟨0, _⟩ => rfl | ⟨1, _⟩ => rfl))

theorem col_21 (x0 : IVec S16384x26 32) : val_main_v65 (F := F) x0 = colOf x0 ⟨21, by decide⟩ :=
  coded_eq_colOf (val_main_v63 (F := F) x0) x0 ⟨21, by decide⟩ fun r => (val_main_v63_apply x0 _).trans
    (congrArg x0 (funext fun a => match a with | ⟨0, _⟩ => rfl | ⟨1, _⟩ => rfl))

theorem col_22 (x0 : IVec S16384x26 32) : val_main_v68 (F := F) x0 = colOf x0 ⟨22, by decide⟩ :=
  coded_eq_colOf (val_main_v66 (F := F) x0) x0 ⟨22, by decide⟩ fun r => (val_main_v66_apply x0 _).trans
    (congrArg x0 (funext fun a => match a with | ⟨0, _⟩ => rfl | ⟨1, _⟩ => rfl))

theorem col_23 (x0 : IVec S16384x26 32) : val_main_v71 (F := F) x0 = colOf x0 ⟨23, by decide⟩ :=
  coded_eq_colOf (val_main_v69 (F := F) x0) x0 ⟨23, by decide⟩ fun r => (val_main_v69_apply x0 _).trans
    (congrArg x0 (funext fun a => match a with | ⟨0, _⟩ => rfl | ⟨1, _⟩ => rfl))

theorem col_24 (x0 : IVec S16384x26 32) : val_main_v74 (F := F) x0 = colOf x0 ⟨24, by decide⟩ :=
  coded_eq_colOf (val_main_v72 (F := F) x0) x0 ⟨24, by decide⟩ fun r => (val_main_v72_apply x0 _).trans
    (congrArg x0 (funext fun a => match a with | ⟨0, _⟩ => rfl | ⟨1, _⟩ => rfl))

theorem col_25 (x0 : IVec S16384x26 32) : val_main_v77 (F := F) x0 = colOf x0 ⟨25, by decide⟩ :=
  coded_eq_colOf (val_main_v75 (F := F) x0) x0 ⟨25, by decide⟩ fun r => (val_main_v75_apply x0 _).trans
    (congrArg x0 (funext fun a => match a with | ⟨0, _⟩ => rfl | ⟨1, _⟩ => rfl))

/-! ## The joined array -/

/-- Entry `v` of row `r` of coded column `c`, with the column and the class number given as the quotient and the
    remainder of one number `n` below 2600 by 100: the form the coding of the whole table has at column `n`. -/
theorem colOf_at (x : IVec S16384x26 32) (r : Fin 16384) (c : Fin 26) (v : Fin 100) (n : Nat) (hn : n < 2600)
    (hc : c.val = n / 100) (hv : v.val = n % 100) :
    colOf x c (ix2 r v)
      = if (x (ix2 r ⟨n / 100, Cert.KernelIdeal.Spec.div100_lt26 hn⟩)).toNat = n % 100 then 1#32 else 0#32 := by
  obtain rfl : c = ⟨n / 100, Cert.KernelIdeal.Spec.div100_lt26 hn⟩ := Fin.ext hc
  show (if (x (ix2 r _)).toNat = v.val then 1#32 else 0#32) = _
  rw [hv]

/-- The first sixteen coded columns, by number. -/
def firstCols (x : IVec S16384x26 32) (n : Fin 16) : IVec S16384x100 32 := colOf x ⟨n.val, by omega⟩

/-- The last ten coded columns, by number. -/
def lastCols (x : IVec S16384x26 32) (n : Fin 10) : IVec S16384x100 32 := colOf x ⟨16 + n.val, by omega⟩

/-- The first joined array is the first sixteen coded columns laid side by side. -/
theorem v78_eq (x0 : IVec S16384x26 32) :
    val_main_v78 (F := F) x0 = concatenate S16384x1600 1
      (List.ofFn fun n : Fin 16 => (⟨S16384x100, firstCols x0 n⟩ : (s : Shape) × (s.Idx → BitVec 32)))
      concatenates_S16384x100_S16384x100_S16384x100_S16384x100_S16384x100_S16384x100_S16384x100_S16384x100_S16384x100_S16384x100_S16384x100_S16384x100_S16384x100_S16384x100_S16384x100_S16384x100_S16384x1600_d1 := by
  unfold val_main_v78
  rw [col_0, col_1, col_2, col_3, col_4, col_5, col_6, col_7, col_8, col_9, col_10, col_11, col_12, col_13, col_14, col_15]
  rfl

/-- The second joined array is the last ten coded columns laid side by side. -/
theorem v79_eq (x0 : IVec S16384x26 32) :
    val_main_v79 (F := F) x0 = concatenate S16384x1000 1
      (List.ofFn fun n : Fin 10 => (⟨S16384x100, lastCols x0 n⟩ : (s : Shape) × (s.Idx → BitVec 32)))
      concatenates_S16384x100_S16384x100_S16384x100_S16384x100_S16384x100_S16384x100_S16384x100_S16384x100_S16384x100_S16384x100_S16384x1000_d1 := by
  unfold val_main_v79
  rw [col_16, col_17, col_18, col_19, col_20, col_21, col_22, col_23, col_24, col_25]
  rfl

/-- The first joined array at an index: column `(j 1) / 100` at class number `(j 1) % 100`. -/
theorem v78_apply (x0 : IVec S16384x26 32) (j : S16384x1600.Idx) (hj : (j 1).val < 1600) :
    val_main_v78 (F := F) x0 j
      = colOf x0 ⟨(j 1).val / 100, by omega⟩ (ix2 (j 0) ⟨(j 1).val % 100, Nat.mod_lt _ (by decide)⟩) := by
  rw [v78_eq]
  exact concatenate_ofFn_apply (t := S16384x1600) (s₁ := S16384x100) (1 : Fin 2) (firstCols x0) _ rfl 100 rfl j ⟨(j 1).val / 100, by omega⟩ rfl
    (ix2 (j 0) ⟨(j 1).val % 100, Nat.mod_lt _ (by decide)⟩) rfl
    (fun b hb => match b, hb with | ⟨0, _⟩, _ => rfl | ⟨1, _⟩, hb => absurd rfl hb)

/-- The second joined array at an index: column `16 + (j 1) / 100` at class number `(j 1) % 100`. -/
theorem v79_apply (x0 : IVec S16384x26 32) (j : S16384x1000.Idx) (hj : (j 1).val < 1000) :
    val_main_v79 (F := F) x0 j
      = colOf x0 ⟨16 + (j 1).val / 100, by omega⟩ (ix2 (j 0) ⟨(j 1).val % 100, Nat.mod_lt _ (by decide)⟩) := by
  rw [v79_eq]
  exact concatenate_ofFn_apply (t := S16384x1000) (s₁ := S16384x100) (1 : Fin 2) (lastCols x0) _ rfl 100 rfl j ⟨(j 1).val / 100, by omega⟩ rfl
    (ix2 (j 0) ⟨(j 1).val % 100, Nat.mod_lt _ (by decide)⟩) rfl
    (fun b hb => match b, hb with | ⟨0, _⟩, _ => rfl | ⟨1, _⟩, hb => absurd rfl hb)

/-- The reference's last stage at an index is the coding of the table there. -/
theorem val_main_v80_apply (x0 : IVec S16384x26 32) (j : S16384x2600.Idx) :
    val_main_v80 (F := F) x0 j = Cert.KernelIdeal.Spec.oneHot x0 j := by
  have hj : (j 1).val < 2600 := (j 1).isLt
  unfold val_main_v80
  by_cases h : (j 1).val < 1600
  · rw [concatenate_pair_apply_left (t := S16384x2600) (s₁ := S16384x1600) (s₂ := S16384x1000) (1 : Fin 2) _ _ concatenates_S16384x1600_S16384x1000_S16384x2600_d1 j rfl
      (ix2 (j 0) ⟨(j 1).val, h⟩) (fun b => match b with | ⟨0, _⟩ => rfl | ⟨1, _⟩ => rfl)]
    rw [v78_apply x0 _ h]
    exact colOf_at x0 (j 0) _ _ (j 1).val hj rfl rfl
  · rw [concatenate_pair_apply_right (t := S16384x2600) (s₁ := S16384x1600) (s₂ := S16384x1000) (1 : Fin 2) _ _ concatenates_S16384x1600_S16384x1000_S16384x2600_d1 j rfl rfl
      (ix2 (j 0) ⟨(j 1).val - 1600, by omega⟩)
      (fun b hb => match b, hb with | ⟨0, _⟩, _ => rfl | ⟨1, _⟩, hb => absurd rfl hb)
      (by show (j 1).val - 1600 + 1600 = (j 1).val; omega)]
    rw [v79_apply x0 _ (by show (j 1).val - 1600 < 1000; omega)]
    exact colOf_at x0 (j 0) _ _ (j 1).val hj (by show 16 + ((j 1).val - 1600) / 100 = (j 1).val / 100; omega)
      (by show ((j 1).val - 1600) % 100 = (j 1).val % 100; omega)

/-- The reference's result is the one-hot coding of its argument. -/
theorem ref_eq (m : (ℓ : Loc Cert.ReferenceIdeal.nD Cert.ReferenceIdeal.τ Cert.ReferenceIdeal.sig) → Buf (Elt Ideal) ℓ) (c : Dev Cert.ReferenceIdeal.nD) :
    Cert.ReferenceIdeal.Value.res_main_v80 (F := Ideal) m c
      = Cert.KernelIdeal.Spec.oneHot (m ((c.tc : Thread Cert.ReferenceIdeal.nD Cert.ReferenceIdeal.τ).loc Cert.ReferenceIdeal.main_arg0)) := by
  rw [val_main_v80_eq]
  exact funext fun j => val_main_v80_apply _ j

end Cert.ReferenceIdeal.RefValue
-- ==== Proof.Assemble.lean ====
/-
  The certificate's five conjuncts from their pieces.

  The kernel program, run from the tile's contract, ends on every device with the result array at the one-hot coding of
  the table and the table as it was — provided every entry of the table is a class number below 100, which is what the
  precondition says. Dropping the result's value gives the kernel's frame claims. The reference's run ends with its
  result at a value that is, read entry by entry, the same one-hot coding of its own table; from memories that agree on
  the table the two results are therefore one array, which is the algebraic claim. The reference's frame claim is its run
  with the value dropped, and the idealization rewrote nothing.
-/
import proofs.«212700_g8504035246323_cont_9to1_m_53_19_alg».proof.Defs
import proofs.«212700_g8504035246323_cont_9to1_m_53_19_alg».proof.Proof.Gen.Kernel
import proofs.«212700_g8504035246323_cont_9to1_m_53_19_alg».proof.Proof.Gen.KernelIdeal
import proofs.«212700_g8504035246323_cont_9to1_m_53_19_alg».proof.Proof.Gen.ReferenceIdeal
import proofs.«212700_g8504035246323_cont_9to1_m_53_19_alg».proof.Proof.Gen.Pre_input_domain
import proofs.«212700_g8504035246323_cont_9to1_m_53_19_alg».proof.Proof.Launch
import proofs.«212700_g8504035246323_cont_9to1_m_53_19_alg».proof.Proof.RefRun
import proofs.«212700_g8504035246323_cont_9to1_m_53_19_alg».proof.Proof.RefValue

noncomputable section

namespace Cert.Proof.Assemble

open Idealize.ShloMosaic Idealize.SL.Sem

/-- The precondition of the idealized kernel says that every entry of the table, on every device, is a class number
    below 100. -/
theorem pre_pi (m : (ℓ : Loc Cert.KernelIdeal.nD Cert.KernelIdeal.τ Cert.KernelIdeal.sig) → Buf (Elt Ideal) ℓ)
    (hP : Cert.Pre_KernelIdeal m) (c : Dev Cert.KernelIdeal.nD) (i : Cert.KernelIdeal.S16384x26.Idx) :
    ((m ((c.tc : Thread Cert.KernelIdeal.nD Cert.KernelIdeal.τ).loc Cert.KernelIdeal.main_arg0) i : BitVec 32)).toNat < 100 :=
  Cert.ReferenceIdeal.RefValue.pre_lt (F := Ideal) _ (hP c) i

/-- The same for the kernel as printed. -/
theorem pre_p (m : (ℓ : Loc Cert.Kernel.nD Cert.Kernel.τ Cert.Kernel.sig) → Buf (Elt Bits) ℓ)
    (hP : Cert.Pre_Kernel m) (c : Dev Cert.Kernel.nD) (i : Cert.Kernel.S16384x26.Idx) :
    ((m ((c.tc : Thread Cert.Kernel.nD Cert.Kernel.τ).loc Cert.Kernel.main_arg0) i : BitVec 32)).toNat < 100 :=
  Cert.ReferenceIdeal.RefValue.pre_lt (F := Bits) _ (hP c) i

/-- The idealized kernel runs and leaves the table as it found it: its run from the tile's contract, the result's
    value dropped. -/
theorem frame_pi (htile : Cert.KernelIdeal.Contract.TileContract (F := Ideal)) : Cert.frame_KernelIdeal := fun m ρ hP =>
  (θ_run Cert.KernelIdeal.defs _ _).mono (fun _ h c => (h c).2)
    (Cert.KernelIdeal.Launch.run_main (F := Ideal) htile m ρ (pre_pi m hP))

/-- At the ideal instance the kernel and the reference, from memories that agree on the table, both end at the one-hot
    coding of the table: the kernel by its run from the tile's contract, the reference by its run, whose result is that
    coding of its own table, which is the kernel's. -/
theorem algebraic (htile : Cert.KernelIdeal.Contract.TileContract (F := Ideal)) : Cert.algebraic_KernelIdeal_ReferenceIdeal := by
  intro m ρ m' ρ' hP hagree
  refine ⟨fun c => Cert.KernelIdeal.Spec.oneHot (m ((c.tc : Thread Cert.KernelIdeal.nD Cert.KernelIdeal.τ).loc Cert.KernelIdeal.main_arg0)),
    Cert.KernelIdeal.Launch.run_main (F := Ideal) htile m ρ (pre_pi m hP), ?_⟩
  refine (θ_run Cert.ReferenceIdeal.defs _ _).mono (fun _ h c => ⟨(h c).1.trans ?_, (h c).2⟩)
    (Cert.ReferenceIdeal.Value.run (F := Ideal) m' ρ')
  exact (Cert.ReferenceIdeal.RefValue.ref_eq m' c).trans (congrArg Cert.KernelIdeal.Spec.oneHot (hagree c))

/-- The kernel as printed runs and leaves the table as it found it, from its run — which ends with the table unchanged
    and the result at some function `V` of the table — the result's value dropped. -/
theorem frame_p {V : IVec Cert.Kernel.S16384x26 32 → IVec Cert.Kernel.S16384x2600 32}
    (hrunK : ∀ (m : (ℓ : Loc Cert.Kernel.nD Cert.Kernel.τ Cert.Kernel.sig) → Buf (Elt Bits) ℓ) (ρ : Dev Cert.Kernel.nD → PrngReg),
      (∀ (c : Dev Cert.Kernel.nD) (i : Cert.Kernel.S16384x26.Idx),
        ((m ((c.tc : Thread Cert.Kernel.nD Cert.Kernel.τ).loc Cert.Kernel.main_arg0) i : BitVec 32)).toNat < 100) →
      θ_run (Cert.Kernel.defs (F := Bits)) (Cert.Kernel.threads (F := Bits)) ⟨m, fun _ => 0, ρ⟩ (fun r => ∀ c : Dev Cert.Kernel.nD,
        r.2.mem ((c.tc : Thread Cert.Kernel.nD Cert.Kernel.τ).loc Cert.Kernel.main_v2)
            = V (m ((c.tc : Thread Cert.Kernel.nD Cert.Kernel.τ).loc Cert.Kernel.main_arg0))
        ∧ r.2.mem ((c.tc : Thread Cert.Kernel.nD Cert.Kernel.τ).loc Cert.Kernel.main_arg0)
            = m ((c.tc : Thread Cert.Kernel.nD Cert.Kernel.τ).loc Cert.Kernel.main_arg0))) :
    Cert.frame_Kernel := fun m ρ hP =>
  (θ_run Cert.Kernel.defs _ _).mono (fun _ h c => (h c).2) (hrunK m ρ (pre_p m hP))

/-- The reference is a host program: its run ends with the argument array as it found it. -/
theorem frame_ri : Cert.frame_ReferenceIdeal := fun m ρ _ =>
  (θ_run Cert.ReferenceIdeal.defs _ _).mono (fun _ h c => (h c).2) (Cert.ReferenceIdeal.Value.run (F := Ideal) m ρ)

/-- No operation of the kernel was rewritten when it was idealized: nothing to preserve. -/
theorem preserves : Cert.preserves_Kernel_KernelIdeal := trivial

/-- The five conjuncts together, from the tile's contract at the ideal instance and the printed kernel's run. -/
theorem claim_of {V : IVec Cert.Kernel.S16384x26 32 → IVec Cert.Kernel.S16384x2600 32}
    (htile : Cert.KernelIdeal.Contract.TileContract (F := Ideal))
    (hrunK : ∀ (m : (ℓ : Loc Cert.Kernel.nD Cert.Kernel.τ Cert.Kernel.sig) → Buf (Elt Bits) ℓ) (ρ : Dev Cert.Kernel.nD → PrngReg),
      (∀ (c : Dev Cert.Kernel.nD) (i : Cert.Kernel.S16384x26.Idx),
        ((m ((c.tc : Thread Cert.Kernel.nD Cert.Kernel.τ).loc Cert.Kernel.main_arg0) i : BitVec 32)).toNat < 100) →
      θ_run (Cert.Kernel.defs (F := Bits)) (Cert.Kernel.threads (F := Bits)) ⟨m, fun _ => 0, ρ⟩ (fun r => ∀ c : Dev Cert.Kernel.nD,
        r.2.mem ((c.tc : Thread Cert.Kernel.nD Cert.Kernel.τ).loc Cert.Kernel.main_v2)
            = V (m ((c.tc : Thread Cert.Kernel.nD Cert.Kernel.τ).loc Cert.Kernel.main_arg0))
        ∧ r.2.mem ((c.tc : Thread Cert.Kernel.nD Cert.Kernel.τ).loc Cert.Kernel.main_arg0)
            = m ((c.tc : Thread Cert.Kernel.nD Cert.Kernel.τ).loc Cert.Kernel.main_arg0))) :
    Cert.Claim :=
  ⟨Cert.Kernel.Gen.facts, Cert.KernelIdeal.Gen.facts, Cert.ReferenceIdeal.Gen.facts, Cert.Pre_input_domain.Gen.facts,
    frame_p hrunK, frame_pi htile, frame_ri, preserves, algebraic htile⟩

end Cert.Proof.Assemble

end
-- ==== Proof.TileBase2.lean ====
/-
  The tile's second buffer held whole.
-/
import proofs.«212700_g8504035246323_cont_9to1_m_53_19_alg».proof.Proof.TileBase

noncomputable section

namespace Cert.KernelIdeal.Tile

open Cert.KernelIdeal Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The second buffer held whole at contents `g`. -/
def heldB1 (d : Dev nD) (L : grid0.Coords)
    (g : Buf (Elt F) ((Memref.whole cc0_scratch2 : Memref sig .scVector .vmem S200x256 .i32).view.loc (V d (cV L) (jV L)))) :
    sProp (MT nD τ sig (HIx 1) (Elt F) ℕ UU ℕ) :=
  ((Memref.whole cc0_scratch2 : Memref sig .scVector .vmem S200x256 .i32).view.loc (V d (cV L) (jV L)) ↦{fullShare} g)

end Cert.KernelIdeal.Tile

end
-- ==== Proof.Geometry.lean ====
/-
  The geometry of one tile's work.

  Tile `w` owns columns `512 w .. 512 w + 511` of the transposed coding (2600 rows). It writes them as 26 chunks: chunk
  `q` is rows `200 (q / 2) .. 200 (q / 2) + 199` and columns `512 w + 256 (q % 2) .. + 255`. The chunks are pairwise
  disjoint and make up the slab, so holding the slab is holding the 26 chunks apart. The slices the program copies through
  are these chunks (and the table's slab), by the closed forms of the offsets the program computes in 32-bit arithmetic.
-/
import proofs.«212700_g8504035246323_cont_9to1_m_53_19_alg».proof.Proof.Contract
import Idealize.ShloMosaic.Lib.Pipeline.Value

noncomputable section

namespace Cert.KernelIdeal.Geometry

open Cert.KernelIdeal Cert.KernelIdeal.Gen Cert.KernelIdeal.Tile Cert.KernelIdeal.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- Chunk `q` of tile `w`'s slab of the coding: rows `200 (q / 2) .. 200 (q / 2) + 199`, columns
    `512 w + 256 (q % 2) .. + 255`. -/
def chunk (w q : Nat) : Finset S2600x16384.Idx := Finset.univ.filter fun j =>
  200 * (q / 2) ≤ (j 0).val ∧ (j 0).val < 200 * (q / 2) + 200 ∧ 512 * w + 256 * (q % 2) ≤ (j 1).val ∧ (j 1).val < 512 * w + 256 * (q % 2) + 256

theorem mem_chunk {w q : Nat} {j : S2600x16384.Idx} : j ∈ chunk w q ↔
    200 * (q / 2) ≤ (j 0).val ∧ (j 0).val < 200 * (q / 2) + 200 ∧ 512 * w + 256 * (q % 2) ≤ (j 1).val ∧ (j 1).val < 512 * w + 256 * (q % 2) + 256 := by
  simp only [chunk, Finset.mem_filter, Finset.mem_univ, true_and]

theorem mem_slabO {w : Nat} {j : S2600x16384.Idx} : j ∈ slabO w ↔ 512 * w ≤ (j 1).val ∧ (j 1).val < 512 * w + 512 := by
  simp only [slabO, Finset.mem_filter, Finset.mem_univ, true_and]

theorem mem_slabX {w : Nat} {j : S26x16384.Idx} : j ∈ slabX w ↔ 512 * w ≤ (j 1).val ∧ (j 1).val < 512 * w + 512 := by
  simp only [slabX, Finset.mem_filter, Finset.mem_univ, true_and]

/-- Two different chunks differ in their band of rows or in their half of the columns. -/
theorem chunk_disjoint (w : Nat) {q q' : Nat} (hq : q < 26) (hq' : q' < 26) (h : q ≠ q') : Disjoint (chunk w q) (chunk w q') := by
  rw [Finset.disjoint_left]
  intro j hj hj'
  rw [mem_chunk] at hj hj'
  omega

/-- The 26 chunks make up the slab: entry `(r, 512 w + x)` lies in chunk `2 (r / 200) + x / 256`. -/
theorem chunk_cover (w : Nat) : (Finset.range 26).biUnion (chunk w) = slabO w := by
  ext j
  rw [Finset.mem_biUnion, mem_slabO]
  constructor
  · rintro ⟨q, _, hj⟩
    rw [mem_chunk] at hj
    omega
  · intro hj
    have h0 : (j 0).val < 2600 := (j 0).isLt
    refine ⟨2 * ((j 0).val / 200) + ((j 1).val - 512 * w) / 256, Finset.mem_range.mpr (by omega), mem_chunk.mpr ?_⟩
    omega

variable {F : FTy → Type}

/-- The slab held is its 26 chunks held, each apart from the others. -/
theorem slab_split (d : Dev nD) (w : Nat) (f : Buf (Elt F) (oLoc d)) :
    (oLoc d ↦[slabO w]{fullShare} f : sProp (MT nD τ sig (Idealize.ShloMosaic.SparseCore.Cfg.HIx 1) (Elt F) ℕ Tile.UU ℕ))
      = Idealize.SL.BI.bigSep (Finset.range 26) fun q => oLoc d ↦[chunk w q]{fullShare} f := by
  rw [← pointsTo_biUnion (Finset.range 26) (ℓ := oLoc d) (chunk w)
    (fun q hq q' hq' h => chunk_disjoint w (Finset.mem_range.mp hq) (Finset.mem_range.mp hq') h), chunk_cover]

/-! ## The sets of the program's slices -/

/-- The table's slice is the tile's slab of the table: all 26 rows, columns `512 w .. 512 w + 511`. -/
theorem set_xtSl (L : grid0.Coords) :
    ((Memref.whole main_v0_scv : Memref sig .scVector .hbm S26x16384 .i32).slice
      (Rect.unit (s := S26x16384) (k0_off1 L) S26x512.size (k0_off1_inb L)) (fun _ => rfl)).view.set = slabX (wOf L) := by
  refine (View.set_slice_whole main_v0_scv _).trans ?_
  ext j
  rw [Rect.mem_set_unit, mem_slabX, k0_off1_eq]
  refine Fin.forall_fin_two.trans ?_
  have h0 : (j 0).val < 26 := (j 0).isLt
  show (0 ≤ (j 0).val ∧ (j 0).val < 0 + 26)
      ∧ (1024 * (L 1).val + 512 * (L 0).val ≤ (j 1).val ∧ (j 1).val < 1024 * (L 1).val + 512 * (L 0).val + 512) ↔ _
  unfold wOf
  omega

/-- A 200 x 256 slice of the coding placed at chunk `q`'s corner is chunk `q`. -/
theorem set_oSl (L : grid0.Coords) (q : Nat) (off : Fin 2 → Nat) (inb : ∀ a, off a + S200x256.size a ≤ S2600x16384.size a)
    (hoff : off = ![200 * (q / 2), 512 * wOf L + 256 * (q % 2)]) :
    ((Memref.whole main_v1_scv : Memref sig .scVector .hbm S2600x16384 .i32).slice
      (Rect.unit (s := S2600x16384) off S200x256.size inb) (fun _ => rfl)).view.set = chunk (wOf L) q := by
  subst hoff
  refine (View.set_slice_whole main_v1_scv _).trans ?_
  ext j
  rw [Rect.mem_set_unit, mem_chunk]
  refine Fin.forall_fin_two.trans ?_
  show (200 * (q / 2) ≤ (j 0).val ∧ (j 0).val < 200 * (q / 2) + 200)
      ∧ (512 * wOf L + 256 * (q % 2) ≤ (j 1).val ∧ (j 1).val < 512 * wOf L + 256 * (q % 2) + 256) ↔ _
  omega

/-! ## The offsets of the copies out, in closed form

  The program computes each in 32-bit arithmetic from the grid point `(c, s)` and the loop's variable; over the 32 grid
  points and the 12 trips these are finitely many evaluations. `1024 s + 512 c = 512 (2 s + c)`. -/

theorem off2_eq (L : grid0.Coords) : k0_off2 L = ![200 * (0 / 2), 512 * wOf L + 256 * (0 % 2)] := by
  revert L; decide +kernel
theorem off3_eq (L : grid0.Coords) : k0_off3 L = ![200 * (1 / 2), 512 * wOf L + 256 * (1 % 2)] := by
  revert L; decide +kernel

theorem off69_eq (L : grid0.Coords) (k : Fin k0_t3_loop.trips) :
    k0_off69 L k = ![200 * ((2 * (k.val + 1)) / 2), 512 * wOf L + 256 * ((2 * (k.val + 1)) % 2)] := by
  revert L k; decide +kernel
theorem off135_eq (L : grid0.Coords) (k : Fin k0_t3_loop.trips) :
    k0_off135 L k = ![200 * ((2 * (k.val + 1) + 1) / 2), 512 * wOf L + 256 * ((2 * (k.val + 1) + 1) % 2)] := by
  revert L k; decide +kernel

/-- The slices the main loop's waits name are the chunks sent two steps before: `2 k` and `2 k + 1` in trip `k`. -/
theorem off4_eq (L : grid0.Coords) (k : Fin k0_t3_loop.trips) :
    k0_off4 L k = ![200 * ((2 * k.val) / 2), 512 * wOf L + 256 * ((2 * k.val) % 2)] := by
  revert L k; decide +kernel
theorem off70_eq (L : grid0.Coords) (k : Fin k0_t3_loop.trips) :
    k0_off70 L k = ![200 * ((2 * k.val + 1) / 2), 512 * wOf L + 256 * ((2 * k.val + 1) % 2)] := by
  revert L k; decide +kernel

/-! ## The offsets of the main loop's loads, in closed form

  The table's copy is 26 x 512. Writing chunk `q` reads its rows `2 (q / 2)` and `2 (q / 2) + 1`, columns
  `256 (q % 2) .. + 255`, sixteen at a time: load `s = 0 .. 31` reads row `2 (q / 2) + s / 16` from column
  `256 (q % 2) + 16 (s % 16)`. In trip `k` the first buffer undoes chunk `2 k` (offsets 5 + s) and takes chunk
  `2 (k + 1)` (offsets 37 + s); the second undoes chunk `2 k + 1` (offsets 71 + s) and takes chunk `2 (k + 1) + 1`
  (offsets 103 + s). Each is twelve evaluations. -/

theorem off5_eq (k : Fin k0_t3_loop.trips) : k0_off5 k = ![2 * k.val + 0 / 16, 16 * (0 % 16)] := by
  revert k; decide +kernel
theorem off6_eq (k : Fin k0_t3_loop.trips) : k0_off6 k = ![2 * k.val + 1 / 16, 16 * (1 % 16)] := by
  revert k; decide +kernel
theorem off7_eq (k : Fin k0_t3_loop.trips) : k0_off7 k = ![2 * k.val + 2 / 16, 16 * (2 % 16)] := by
  revert k; decide +kernel
theorem off8_eq (k : Fin k0_t3_loop.trips) : k0_off8 k = ![2 * k.val + 3 / 16, 16 * (3 % 16)] := by
  revert k; decide +kernel
theorem off9_eq (k : Fin k0_t3_loop.trips) : k0_off9 k = ![2 * k.val + 4 / 16, 16 * (4 % 16)] := by
  revert k; decide +kernel
theorem off10_eq (k : Fin k0_t3_loop.trips) : k0_off10 k = ![2 * k.val + 5 / 16, 16 * (5 % 16)] := by
  revert k; decide +kernel
theorem off11_eq (k : Fin k0_t3_loop.trips) : k0_off11 k = ![2 * k.val + 6 / 16, 16 * (6 % 16)] := by
  revert k; decide +kernel
theorem off12_eq (k : Fin k0_t3_loop.trips) : k0_off12 k = ![2 * k.val + 7 / 16, 16 * (7 % 16)] := by
  revert k; decide +kernel
theorem off13_eq (k : Fin k0_t3_loop.trips) : k0_off13 k = ![2 * k.val + 8 / 16, 16 * (8 % 16)] := by
  revert k; decide +kernel
theorem off14_eq (k : Fin k0_t3_loop.trips) : k0_off14 k = ![2 * k.val + 9 / 16, 16 * (9 % 16)] := by
  revert k; decide +kernel
theorem off15_eq (k : Fin k0_t3_loop.trips) : k0_off15 k = ![2 * k.val + 10 / 16, 16 * (10 % 16)] := by
  revert k; decide +kernel
theorem off16_eq (k : Fin k0_t3_loop.trips) : k0_off16 k = ![2 * k.val + 11 / 16, 16 * (11 % 16)] := by
  revert k; decide +kernel
theorem off17_eq (k : Fin k0_t3_loop.trips) : k0_off17 k = ![2 * k.val + 12 / 16, 16 * (12 % 16)] := by
  revert k; decide +kernel
theorem off18_eq (k : Fin k0_t3_loop.trips) : k0_off18 k = ![2 * k.val + 13 / 16, 16 * (13 % 16)] := by
  revert k; decide +kernel
theorem off19_eq (k : Fin k0_t3_loop.trips) : k0_off19 k = ![2 * k.val + 14 / 16, 16 * (14 % 16)] := by
  revert k; decide +kernel
theorem off20_eq (k : Fin k0_t3_loop.trips) : k0_off20 k = ![2 * k.val + 15 / 16, 16 * (15 % 16)] := by
  revert k; decide +kernel
theorem off21_eq (k : Fin k0_t3_loop.trips) : k0_off21 k = ![2 * k.val + 16 / 16, 16 * (16 % 16)] := by
  revert k; decide +kernel
theorem off22_eq (k : Fin k0_t3_loop.trips) : k0_off22 k = ![2 * k.val + 17 / 16, 16 * (17 % 16)] := by
  revert k; decide +kernel
theorem off23_eq (k : Fin k0_t3_loop.trips) : k0_off23 k = ![2 * k.val + 18 / 16, 16 * (18 % 16)] := by
  revert k; decide +kernel
theorem off24_eq (k : Fin k0_t3_loop.trips) : k0_off24 k = ![2 * k.val + 19 / 16, 16 * (19 % 16)] := by
  revert k; decide +kernel
theorem off25_eq (k : Fin k0_t3_loop.trips) : k0_off25 k = ![2 * k.val + 20 / 16, 16 * (20 % 16)] := by
  revert k; decide +kernel
theorem off26_eq (k : Fin k0_t3_loop.trips) : k0_off26 k = ![2 * k.val + 21 / 16, 16 * (21 % 16)] := by
  revert k; decide +kernel
theorem off27_eq (k : Fin k0_t3_loop.trips) : k0_off27 k = ![2 * k.val + 22 / 16, 16 * (22 % 16)] := by
  revert k; decide +kernel
theorem off28_eq (k : Fin k0_t3_loop.trips) : k0_off28 k = ![2 * k.val + 23 / 16, 16 * (23 % 16)] := by
  revert k; decide +kernel
theorem off29_eq (k : Fin k0_t3_loop.trips) : k0_off29 k = ![2 * k.val + 24 / 16, 16 * (24 % 16)] := by
  revert k; decide +kernel
theorem off30_eq (k : Fin k0_t3_loop.trips) : k0_off30 k = ![2 * k.val + 25 / 16, 16 * (25 % 16)] := by
  revert k; decide +kernel
theorem off31_eq (k : Fin k0_t3_loop.trips) : k0_off31 k = ![2 * k.val + 26 / 16, 16 * (26 % 16)] := by
  revert k; decide +kernel
theorem off32_eq (k : Fin k0_t3_loop.trips) : k0_off32 k = ![2 * k.val + 27 / 16, 16 * (27 % 16)] := by
  revert k; decide +kernel
theorem off33_eq (k : Fin k0_t3_loop.trips) : k0_off33 k = ![2 * k.val + 28 / 16, 16 * (28 % 16)] := by
  revert k; decide +kernel
theorem off34_eq (k : Fin k0_t3_loop.trips) : k0_off34 k = ![2 * k.val + 29 / 16, 16 * (29 % 16)] := by
  revert k; decide +kernel
theorem off35_eq (k : Fin k0_t3_loop.trips) : k0_off35 k = ![2 * k.val + 30 / 16, 16 * (30 % 16)] := by
  revert k; decide +kernel
theorem off36_eq (k : Fin k0_t3_loop.trips) : k0_off36 k = ![2 * k.val + 31 / 16, 16 * (31 % 16)] := by
  revert k; decide +kernel
theorem off37_eq (k : Fin k0_t3_loop.trips) : k0_off37 k = ![2 * (k.val + 1) + 0 / 16, 16 * (0 % 16)] := by
  revert k; decide +kernel
theorem off38_eq (k : Fin k0_t3_loop.trips) : k0_off38 k = ![2 * (k.val + 1) + 1 / 16, 16 * (1 % 16)] := by
  revert k; decide +kernel
theorem off39_eq (k : Fin k0_t3_loop.trips) : k0_off39 k = ![2 * (k.val + 1) + 2 / 16, 16 * (2 % 16)] := by
  revert k; decide +kernel
theorem off40_eq (k : Fin k0_t3_loop.trips) : k0_off40 k = ![2 * (k.val + 1) + 3 / 16, 16 * (3 % 16)] := by
  revert k; decide +kernel
theorem off41_eq (k : Fin k0_t3_loop.trips) : k0_off41 k = ![2 * (k.val + 1) + 4 / 16, 16 * (4 % 16)] := by
  revert k; decide +kernel
theorem off42_eq (k : Fin k0_t3_loop.trips) : k0_off42 k = ![2 * (k.val + 1) + 5 / 16, 16 * (5 % 16)] := by
  revert k; decide +kernel
theorem off43_eq (k : Fin k0_t3_loop.trips) : k0_off43 k = ![2 * (k.val + 1) + 6 / 16, 16 * (6 % 16)] := by
  revert k; decide +kernel
theorem off44_eq (k : Fin k0_t3_loop.trips) : k0_off44 k = ![2 * (k.val + 1) + 7 / 16, 16 * (7 % 16)] := by
  revert k; decide +kernel
theorem off45_eq (k : Fin k0_t3_loop.trips) : k0_off45 k = ![2 * (k.val + 1) + 8 / 16, 16 * (8 % 16)] := by
  revert k; decide +kernel
theorem off46_eq (k : Fin k0_t3_loop.trips) : k0_off46 k = ![2 * (k.val + 1) + 9 / 16, 16 * (9 % 16)] := by
  revert k; decide +kernel
theorem off47_eq (k : Fin k0_t3_loop.trips) : k0_off47 k = ![2 * (k.val + 1) + 10 / 16, 16 * (10 % 16)] := by
  revert k; decide +kernel
theorem off48_eq (k : Fin k0_t3_loop.trips) : k0_off48 k = ![2 * (k.val + 1) + 11 / 16, 16 * (11 % 16)] := by
  revert k; decide +kernel
theorem off49_eq (k : Fin k0_t3_loop.trips) : k0_off49 k = ![2 * (k.val + 1) + 12 / 16, 16 * (12 % 16)] := by
  revert k; decide +kernel
theorem off50_eq (k : Fin k0_t3_loop.trips) : k0_off50 k = ![2 * (k.val + 1) + 13 / 16, 16 * (13 % 16)] := by
  revert k; decide +kernel
theorem off51_eq (k : Fin k0_t3_loop.trips) : k0_off51 k = ![2 * (k.val + 1) + 14 / 16, 16 * (14 % 16)] := by
  revert k; decide +kernel
theorem off52_eq (k : Fin k0_t3_loop.trips) : k0_off52 k = ![2 * (k.val + 1) + 15 / 16, 16 * (15 % 16)] := by
  revert k; decide +kernel
theorem off53_eq (k : Fin k0_t3_loop.trips) : k0_off53 k = ![2 * (k.val + 1) + 16 / 16, 16 * (16 % 16)] := by
  revert k; decide +kernel
theorem off54_eq (k : Fin k0_t3_loop.trips) : k0_off54 k = ![2 * (k.val + 1) + 17 / 16, 16 * (17 % 16)] := by
  revert k; decide +kernel
theorem off55_eq (k : Fin k0_t3_loop.trips) : k0_off55 k = ![2 * (k.val + 1) + 18 / 16, 16 * (18 % 16)] := by
  revert k; decide +kernel
theorem off56_eq (k : Fin k0_t3_loop.trips) : k0_off56 k = ![2 * (k.val + 1) + 19 / 16, 16 * (19 % 16)] := by
  revert k; decide +kernel
theorem off57_eq (k : Fin k0_t3_loop.trips) : k0_off57 k = ![2 * (k.val + 1) + 20 / 16, 16 * (20 % 16)] := by
  revert k; decide +kernel
theorem off58_eq (k : Fin k0_t3_loop.trips) : k0_off58 k = ![2 * (k.val + 1) + 21 / 16, 16 * (21 % 16)] := by
  revert k; decide +kernel
theorem off59_eq (k : Fin k0_t3_loop.trips) : k0_off59 k = ![2 * (k.val + 1) + 22 / 16, 16 * (22 % 16)] := by
  revert k; decide +kernel
theorem off60_eq (k : Fin k0_t3_loop.trips) : k0_off60 k = ![2 * (k.val + 1) + 23 / 16, 16 * (23 % 16)] := by
  revert k; decide +kernel
theorem off61_eq (k : Fin k0_t3_loop.trips) : k0_off61 k = ![2 * (k.val + 1) + 24 / 16, 16 * (24 % 16)] := by
  revert k; decide +kernel
theorem off62_eq (k : Fin k0_t3_loop.trips) : k0_off62 k = ![2 * (k.val + 1) + 25 / 16, 16 * (25 % 16)] := by
  revert k; decide +kernel
theorem off63_eq (k : Fin k0_t3_loop.trips) : k0_off63 k = ![2 * (k.val + 1) + 26 / 16, 16 * (26 % 16)] := by
  revert k; decide +kernel
theorem off64_eq (k : Fin k0_t3_loop.trips) : k0_off64 k = ![2 * (k.val + 1) + 27 / 16, 16 * (27 % 16)] := by
  revert k; decide +kernel
theorem off65_eq (k : Fin k0_t3_loop.trips) : k0_off65 k = ![2 * (k.val + 1) + 28 / 16, 16 * (28 % 16)] := by
  revert k; decide +kernel
theorem off66_eq (k : Fin k0_t3_loop.trips) : k0_off66 k = ![2 * (k.val + 1) + 29 / 16, 16 * (29 % 16)] := by
  revert k; decide +kernel
theorem off67_eq (k : Fin k0_t3_loop.trips) : k0_off67 k = ![2 * (k.val + 1) + 30 / 16, 16 * (30 % 16)] := by
  revert k; decide +kernel
theorem off68_eq (k : Fin k0_t3_loop.trips) : k0_off68 k = ![2 * (k.val + 1) + 31 / 16, 16 * (31 % 16)] := by
  revert k; decide +kernel
theorem off71_eq (k : Fin k0_t3_loop.trips) : k0_off71 k = ![2 * k.val + 0 / 16, 256 + 16 * (0 % 16)] := by
  revert k; decide +kernel
theorem off72_eq (k : Fin k0_t3_loop.trips) : k0_off72 k = ![2 * k.val + 1 / 16, 256 + 16 * (1 % 16)] := by
  revert k; decide +kernel
theorem off73_eq (k : Fin k0_t3_loop.trips) : k0_off73 k = ![2 * k.val + 2 / 16, 256 + 16 * (2 % 16)] := by
  revert k; decide +kernel
theorem off74_eq (k : Fin k0_t3_loop.trips) : k0_off74 k = ![2 * k.val + 3 / 16, 256 + 16 * (3 % 16)] := by
  revert k; decide +kernel
theorem off75_eq (k : Fin k0_t3_loop.trips) : k0_off75 k = ![2 * k.val + 4 / 16, 256 + 16 * (4 % 16)] := by
  revert k; decide +kernel
theorem off76_eq (k : Fin k0_t3_loop.trips) : k0_off76 k = ![2 * k.val + 5 / 16, 256 + 16 * (5 % 16)] := by
  revert k; decide +kernel
theorem off77_eq (k : Fin k0_t3_loop.trips) : k0_off77 k = ![2 * k.val + 6 / 16, 256 + 16 * (6 % 16)] := by
  revert k; decide +kernel
theorem off78_eq (k : Fin k0_t3_loop.trips) : k0_off78 k = ![2 * k.val + 7 / 16, 256 + 16 * (7 % 16)] := by
  revert k; decide +kernel
theorem off79_eq (k : Fin k0_t3_loop.trips) : k0_off79 k = ![2 * k.val + 8 / 16, 256 + 16 * (8 % 16)] := by
  revert k; decide +kernel
theorem off80_eq (k : Fin k0_t3_loop.trips) : k0_off80 k = ![2 * k.val + 9 / 16, 256 + 16 * (9 % 16)] := by
  revert k; decide +kernel
theorem off81_eq (k : Fin k0_t3_loop.trips) : k0_off81 k = ![2 * k.val + 10 / 16, 256 + 16 * (10 % 16)] := by
  revert k; decide +kernel
theorem off82_eq (k : Fin k0_t3_loop.trips) : k0_off82 k = ![2 * k.val + 11 / 16, 256 + 16 * (11 % 16)] := by
  revert k; decide +kernel
theorem off83_eq (k : Fin k0_t3_loop.trips) : k0_off83 k = ![2 * k.val + 12 / 16, 256 + 16 * (12 % 16)] := by
  revert k; decide +kernel
theorem off84_eq (k : Fin k0_t3_loop.trips) : k0_off84 k = ![2 * k.val + 13 / 16, 256 + 16 * (13 % 16)] := by
  revert k; decide +kernel
theorem off85_eq (k : Fin k0_t3_loop.trips) : k0_off85 k = ![2 * k.val + 14 / 16, 256 + 16 * (14 % 16)] := by
  revert k; decide +kernel
theorem off86_eq (k : Fin k0_t3_loop.trips) : k0_off86 k = ![2 * k.val + 15 / 16, 256 + 16 * (15 % 16)] := by
  revert k; decide +kernel
theorem off87_eq (k : Fin k0_t3_loop.trips) : k0_off87 k = ![2 * k.val + 16 / 16, 256 + 16 * (16 % 16)] := by
  revert k; decide +kernel
theorem off88_eq (k : Fin k0_t3_loop.trips) : k0_off88 k = ![2 * k.val + 17 / 16, 256 + 16 * (17 % 16)] := by
  revert k; decide +kernel
theorem off89_eq (k : Fin k0_t3_loop.trips) : k0_off89 k = ![2 * k.val + 18 / 16, 256 + 16 * (18 % 16)] := by
  revert k; decide +kernel
theorem off90_eq (k : Fin k0_t3_loop.trips) : k0_off90 k = ![2 * k.val + 19 / 16, 256 + 16 * (19 % 16)] := by
  revert k; decide +kernel
theorem off91_eq (k : Fin k0_t3_loop.trips) : k0_off91 k = ![2 * k.val + 20 / 16, 256 + 16 * (20 % 16)] := by
  revert k; decide +kernel
theorem off92_eq (k : Fin k0_t3_loop.trips) : k0_off92 k = ![2 * k.val + 21 / 16, 256 + 16 * (21 % 16)] := by
  revert k; decide +kernel
theorem off93_eq (k : Fin k0_t3_loop.trips) : k0_off93 k = ![2 * k.val + 22 / 16, 256 + 16 * (22 % 16)] := by
  revert k; decide +kernel
theorem off94_eq (k : Fin k0_t3_loop.trips) : k0_off94 k = ![2 * k.val + 23 / 16, 256 + 16 * (23 % 16)] := by
  revert k; decide +kernel
theorem off95_eq (k : Fin k0_t3_loop.trips) : k0_off95 k = ![2 * k.val + 24 / 16, 256 + 16 * (24 % 16)] := by
  revert k; decide +kernel
theorem off96_eq (k : Fin k0_t3_loop.trips) : k0_off96 k = ![2 * k.val + 25 / 16, 256 + 16 * (25 % 16)] := by
  revert k; decide +kernel
theorem off97_eq (k : Fin k0_t3_loop.trips) : k0_off97 k = ![2 * k.val + 26 / 16, 256 + 16 * (26 % 16)] := by
  revert k; decide +kernel
theorem off98_eq (k : Fin k0_t3_loop.trips) : k0_off98 k = ![2 * k.val + 27 / 16, 256 + 16 * (27 % 16)] := by
  revert k; decide +kernel
theorem off99_eq (k : Fin k0_t3_loop.trips) : k0_off99 k = ![2 * k.val + 28 / 16, 256 + 16 * (28 % 16)] := by
  revert k; decide +kernel
theorem off100_eq (k : Fin k0_t3_loop.trips) : k0_off100 k = ![2 * k.val + 29 / 16, 256 + 16 * (29 % 16)] := by
  revert k; decide +kernel
theorem off101_eq (k : Fin k0_t3_loop.trips) : k0_off101 k = ![2 * k.val + 30 / 16, 256 + 16 * (30 % 16)] := by
  revert k; decide +kernel
theorem off102_eq (k : Fin k0_t3_loop.trips) : k0_off102 k = ![2 * k.val + 31 / 16, 256 + 16 * (31 % 16)] := by
  revert k; decide +kernel
theorem off103_eq (k : Fin k0_t3_loop.trips) : k0_off103 k = ![2 * (k.val + 1) + 0 / 16, 256 + 16 * (0 % 16)] := by
  revert k; decide +kernel
theorem off104_eq (k : Fin k0_t3_loop.trips) : k0_off104 k = ![2 * (k.val + 1) + 1 / 16, 256 + 16 * (1 % 16)] := by
  revert k; decide +kernel
theorem off105_eq (k : Fin k0_t3_loop.trips) : k0_off105 k = ![2 * (k.val + 1) + 2 / 16, 256 + 16 * (2 % 16)] := by
  revert k; decide +kernel
theorem off106_eq (k : Fin k0_t3_loop.trips) : k0_off106 k = ![2 * (k.val + 1) + 3 / 16, 256 + 16 * (3 % 16)] := by
  revert k; decide +kernel
theorem off107_eq (k : Fin k0_t3_loop.trips) : k0_off107 k = ![2 * (k.val + 1) + 4 / 16, 256 + 16 * (4 % 16)] := by
  revert k; decide +kernel
theorem off108_eq (k : Fin k0_t3_loop.trips) : k0_off108 k = ![2 * (k.val + 1) + 5 / 16, 256 + 16 * (5 % 16)] := by
  revert k; decide +kernel
theorem off109_eq (k : Fin k0_t3_loop.trips) : k0_off109 k = ![2 * (k.val + 1) + 6 / 16, 256 + 16 * (6 % 16)] := by
  revert k; decide +kernel
theorem off110_eq (k : Fin k0_t3_loop.trips) : k0_off110 k = ![2 * (k.val + 1) + 7 / 16, 256 + 16 * (7 % 16)] := by
  revert k; decide +kernel
theorem off111_eq (k : Fin k0_t3_loop.trips) : k0_off111 k = ![2 * (k.val + 1) + 8 / 16, 256 + 16 * (8 % 16)] := by
  revert k; decide +kernel
theorem off112_eq (k : Fin k0_t3_loop.trips) : k0_off112 k = ![2 * (k.val + 1) + 9 / 16, 256 + 16 * (9 % 16)] := by
  revert k; decide +kernel
theorem off113_eq (k : Fin k0_t3_loop.trips) : k0_off113 k = ![2 * (k.val + 1) + 10 / 16, 256 + 16 * (10 % 16)] := by
  revert k; decide +kernel
theorem off114_eq (k : Fin k0_t3_loop.trips) : k0_off114 k = ![2 * (k.val + 1) + 11 / 16, 256 + 16 * (11 % 16)] := by
  revert k; decide +kernel
theorem off115_eq (k : Fin k0_t3_loop.trips) : k0_off115 k = ![2 * (k.val + 1) + 12 / 16, 256 + 16 * (12 % 16)] := by
  revert k; decide +kernel
theorem off116_eq (k : Fin k0_t3_loop.trips) : k0_off116 k = ![2 * (k.val + 1) + 13 / 16, 256 + 16 * (13 % 16)] := by
  revert k; decide +kernel
theorem off117_eq (k : Fin k0_t3_loop.trips) : k0_off117 k = ![2 * (k.val + 1) + 14 / 16, 256 + 16 * (14 % 16)] := by
  revert k; decide +kernel
theorem off118_eq (k : Fin k0_t3_loop.trips) : k0_off118 k = ![2 * (k.val + 1) + 15 / 16, 256 + 16 * (15 % 16)] := by
  revert k; decide +kernel
theorem off119_eq (k : Fin k0_t3_loop.trips) : k0_off119 k = ![2 * (k.val + 1) + 16 / 16, 256 + 16 * (16 % 16)] := by
  revert k; decide +kernel
theorem off120_eq (k : Fin k0_t3_loop.trips) : k0_off120 k = ![2 * (k.val + 1) + 17 / 16, 256 + 16 * (17 % 16)] := by
  revert k; decide +kernel
theorem off121_eq (k : Fin k0_t3_loop.trips) : k0_off121 k = ![2 * (k.val + 1) + 18 / 16, 256 + 16 * (18 % 16)] := by
  revert k; decide +kernel
theorem off122_eq (k : Fin k0_t3_loop.trips) : k0_off122 k = ![2 * (k.val + 1) + 19 / 16, 256 + 16 * (19 % 16)] := by
  revert k; decide +kernel
theorem off123_eq (k : Fin k0_t3_loop.trips) : k0_off123 k = ![2 * (k.val + 1) + 20 / 16, 256 + 16 * (20 % 16)] := by
  revert k; decide +kernel
theorem off124_eq (k : Fin k0_t3_loop.trips) : k0_off124 k = ![2 * (k.val + 1) + 21 / 16, 256 + 16 * (21 % 16)] := by
  revert k; decide +kernel
theorem off125_eq (k : Fin k0_t3_loop.trips) : k0_off125 k = ![2 * (k.val + 1) + 22 / 16, 256 + 16 * (22 % 16)] := by
  revert k; decide +kernel
theorem off126_eq (k : Fin k0_t3_loop.trips) : k0_off126 k = ![2 * (k.val + 1) + 23 / 16, 256 + 16 * (23 % 16)] := by
  revert k; decide +kernel
theorem off127_eq (k : Fin k0_t3_loop.trips) : k0_off127 k = ![2 * (k.val + 1) + 24 / 16, 256 + 16 * (24 % 16)] := by
  revert k; decide +kernel
theorem off128_eq (k : Fin k0_t3_loop.trips) : k0_off128 k = ![2 * (k.val + 1) + 25 / 16, 256 + 16 * (25 % 16)] := by
  revert k; decide +kernel
theorem off129_eq (k : Fin k0_t3_loop.trips) : k0_off129 k = ![2 * (k.val + 1) + 26 / 16, 256 + 16 * (26 % 16)] := by
  revert k; decide +kernel
theorem off130_eq (k : Fin k0_t3_loop.trips) : k0_off130 k = ![2 * (k.val + 1) + 27 / 16, 256 + 16 * (27 % 16)] := by
  revert k; decide +kernel
theorem off131_eq (k : Fin k0_t3_loop.trips) : k0_off131 k = ![2 * (k.val + 1) + 28 / 16, 256 + 16 * (28 % 16)] := by
  revert k; decide +kernel
theorem off132_eq (k : Fin k0_t3_loop.trips) : k0_off132 k = ![2 * (k.val + 1) + 29 / 16, 256 + 16 * (29 % 16)] := by
  revert k; decide +kernel
theorem off133_eq (k : Fin k0_t3_loop.trips) : k0_off133 k = ![2 * (k.val + 1) + 30 / 16, 256 + 16 * (30 % 16)] := by
  revert k; decide +kernel
theorem off134_eq (k : Fin k0_t3_loop.trips) : k0_off134 k = ![2 * (k.val + 1) + 31 / 16, 256 + 16 * (31 % 16)] := by
  revert k; decide +kernel

end Cert.KernelIdeal.Geometry

end
-- ==== Proof.Scoped.lean ====
/-
  A vector subcore's own storage, opened: among the buffers it owns are the kernel's three scratch buffers, and among
  the semaphore cells it owns are the kernel's three transfer semaphores. What a subcore is handed at its launch is
  therefore these six, each named, and the rest.
-/
import proofs.«212700_g8504035246323_cont_9to1_m_53_19_alg».proof.Proof.TileBase
import Idealize.ShloMosaic.Lib.SparseCore.Launch

noncomputable section

namespace Cert.KernelIdeal.Scoped

open Cert.KernelIdeal Cert.KernelIdeal.Gen Cert.KernelIdeal.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The side conditions the launch asks of the program: the sequencer's two launch semaphores are two, none of the four
    launch semaphores is scoped, no buffer of a SparseCore's own is reassigned per task, and no call gives the sequencer
    a body of its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords)

/-- The three transfer semaphores of the subcore a grid point runs on, as cells. -/
abbrev semA : GSem nD τ sig := (V d (cV L) (jV L), SemLoc.dma cc0_scratch3.sem)
abbrev semB : GSem nD τ sig := (V d (cV L) (jV L), SemLoc.dma cc0_scratch4.sem)
abbrev semC : GSem nD τ sig := (V d (cV L) (jV L), SemLoc.dma cc0_scratch5.sem)

/-- The three transfer semaphores are among the subcore's own cells: they are them, at zero, and the rest at zero. -/
theorem ownSems0_V :
    (ownSems0 (V d (cV L) (jV L)) : sProp 𝕄)
      = iprop(semVal (semA d L) 0 ∗ semVal (semB d L) 0 ∗ semVal (semC d L) 0
          ∗ bigSep ((((ownCells (V d (cV L) (jV L))).erase (semA d L)).erase (semB d L)).erase (semC d L))
              fun g => semVal g 0) := by
  unfold SparseCore.Cfg.ownSems0
  rw [SparseCore.bigSep_erase' ((mem_ownCells (g := semA d L)).mpr ⟨rfl, by
      show (SemLoc.dma cc0_scratch3.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch4.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scratch5.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- Both at once: what the subcore is handed at its launch is its three scratch buffers at some contents, the rest of
    its buffers, its three transfer semaphores at zero, and the rest of its cells at zero. -/
theorem scoped_open (hF : (K (F := F)).Facts) :
    (iprop(scopedBufs (V d (cV L) (jV L)) ∗ scopedSems0 (V d (cV L) (jV L))) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f))
        ∗ (semVal (semA d L) 0 ∗ semVal (semB d L) 0 ∗ semVal (semC d L) 0
          ∗ bigSep ((((ownCells (V d (cV L) (jV L))).erase (semA d L)).erase (semB d L)).erase (semC d L))
              fun g => semVal g 0)) := by
  rw [(K (F := F)).scopedBufs_V hF d (cV L) (jV L), SparseCore.Cfg.scopedSems0_V (Val := Elt F) d (cV L) (jV L), ownSems0_V, ownBufs_V]

end Cert.KernelIdeal.Scoped

end
-- ==== Proof.TileBody.lean ====
/-
  The tile's task from its run.

  The run of the tile's program is stated over what the executor reads: the table's slab held as the program's own
  slice of the transposed table, the output slab as its 26 chunks, the three scratch buffers and the three semaphores
  named. The launch hands the tile its slabs whole and its scratch storage and semaphores as two bundles; opening the
  bundles, splitting the output slab into chunks, running, and folding everything back gives the task the launch asks.
-/
import proofs.«212700_g8504035246323_cont_9to1_m_53_19_alg».proof.Proof.TileBase2
import proofs.«212700_g8504035246323_cont_9to1_m_53_19_alg».proof.Proof.Contract
import proofs.«212700_g8504035246323_cont_9to1_m_53_19_alg».proof.Proof.Geometry
import proofs.«212700_g8504035246323_cont_9to1_m_53_19_alg».proof.Proof.Scoped

noncomputable section

namespace Cert.KernelIdeal.TileBody

open Cert.KernelIdeal Cert.KernelIdeal.Gen Cert.KernelIdeal.Tile Cert.KernelIdeal.Contract Cert.KernelIdeal.Geometry

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The table's slab as the program slices it. -/
abbrev xtSl (L : grid0.Coords) : Memref sig .scVector .hbm S26x512 .i32 :=
  (Memref.whole main_v0_scv : Memref sig .scVector .hbm S26x16384 .i32).slice (Rect.unit (s := S26x16384) (k0_off1 L) S26x512.size (k0_off1_inb L)) (fun _ => rfl)

/-- The slab of the transposed table is the program's slice of it. -/
theorem pts_xt (d : Dev nD) (L : grid0.Coords) (f : Buf (Elt F) (xtLoc d)) :
    (((xtSl L).view.loc (V d (cV L) (jV L)) ↦[(xtSl L).view.set]{fullShare} f) : sProp 𝕄) = (xtLoc d ↦[slabX (wOf L)]{fullShare} f) := by
  rw [set_xtSl]

variable [FloatOps F]

/-- What the run starts from. -/
def heldQ (d : Dev nD) (L : grid0.Coords) (O : CellTallies nD τ sig (HIx 1)) (W : Waits sig (HIx 1))
    (xt : Vec F S26x16384 .i32) (fo : Vec F S2600x16384 .i32) (fv : Vec F S26x512 .i32) (f0 f1 : Vec F S200x256 .i32) : sProp 𝕄 :=
  iprop(((xtSl L).view.loc (V d (cV L) (jV L)) ↦[(xtSl L).view.set]{fullShare} xt)
    ∗ (bigSep (Finset.range 26) fun q => oLoc d ↦[chunk (wOf L) q]{fullShare} (fo : Buf (Elt F) (oLoc d)))
    ∗ ((Memref.whole cc0_scratch0 : Memref sig .scVector .vmem S26x512 .i32).view.loc (V d (cV L) (jV L)) ↦{fullShare} fv)
    ∗ heldB0 (F := F) d L f0 ∗ heldB1 (F := F) d L f1
    ∗ semVal (V d (cV L) (jV L), SemLoc.dma cc0_scratch3.sem) 0 ∗ semVal (V d (cV L) (jV L), SemLoc.dma cc0_scratch4.sem) 0
    ∗ semVal (V d (cV L) (jV L), SemLoc.dma cc0_scratch5.sem) 0 ∗ owes (V d (cV L) (jV L)) O W)

/-- What the run ends with. -/
def postQ (d : Dev nD) (L : grid0.Coords) (O : CellTallies nD τ sig (HIx 1)) (W : Waits sig (HIx 1)) (xt : Vec F S26x16384 .i32) : sProp 𝕄 :=
  iprop(((xtSl L).view.loc (V d (cV L) (jV L)) ↦[(xtSl L).view.set]{fullShare} xt)
    ∗ (bigSep (Finset.range 26) fun q => oLoc d ↦[chunk (wOf L) q]{fullShare} (Spec.oneHotT xt : Buf (Elt F) (oLoc d)))
    ∗ (∃ fv, (Memref.whole cc0_scratch0 : Memref sig .scVector .vmem S26x512 .i32).view.loc (V d (cV L) (jV L)) ↦{fullShare} fv)
    ∗ (∃ f0, heldB0 (F := F) d L f0) ∗ (∃ f1, heldB1 (F := F) d L f1)
    ∗ semVal (V d (cV L) (jV L), SemLoc.dma cc0_scratch3.sem) 0 ∗ semVal (V d (cV L) (jV L), SemLoc.dma cc0_scratch4.sem) 0
    ∗ semVal (V d (cV L) (jV L), SemLoc.dma cc0_scratch5.sem) 0
    ∗ ∃ W', ⌜∀ p ∈ W', p ∈ W ∨ p.2 = none⌝ ∗ owes (V d (cV L) (jV L)) O W')

/-- The run of the tile's program. -/
def TileRun : Prop :=
  ∀ (d : Dev nD) (L : grid0.Coords) (O : CellTallies nD τ sig (HIx 1)) (W : Waits sig (HIx 1)), (∀ g, O g none = 0) →
    ∀ (xt : Vec F S26x16384 .i32), (∀ i, (xt i : BitVec 32).toNat < 100) → ∀ (fo : Vec F S2600x16384 .i32) (fv : Vec F S26x512 .i32) (f0 f1 : Vec F S200x256 .i32),
    (iprop(levAts (K (F := F)).L (K (F := F)).lev ∗ heldQ (F := F) d L O W xt fo fv f0 f1) : sProp 𝕄)
      ⊢ wp frame (wpE (defs₀ (F := F)) 𝒱₀ (V d (cV L) (jV L)) none) Set.univ
          (cc0__onehot_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5)
          fun _ => postQ (F := F) d L O W xt

/-- The rest of the tile's own storage and semaphores, untouched by the run. -/
abbrev restB (d : Dev nD) (L : grid0.Coords) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)
abbrev restS (d : Dev nD) (L : grid0.Coords) : sProp 𝕄 :=
  bigSep ((((ownCells (V d (cV L) (jV L))).erase (Scoped.semA d L)).erase (Scoped.semB d L)).erase (Scoped.semC d L)) fun g => semVal g 0

theorem tile_body (hrun : TileRun (F := F)) : TileContract (F := F) := by
  intro d L O W hO xt hx o0
  have hF := Scoped.facts (F := F)
  refine BI.Entails.trans ?pre (BI.Entails.trans (wp_frame_r frame _ _ (Q := fun _ => postQ (F := F) d L O W xt) (R := iprop(restB (F := F) d L ∗ restS (F := F) d L)))
    (wp_mono frame _ _ fun _ => ?post))
  case pre =>
    show (_ : sProp 𝕄) ⊢ (_ : sProp 𝕄)
    iintro ⟨#Hlv, -, ⟨Hx, Ho⟩, Hsb, Hss, HO⟩
    ihave Hsc := (Entails.of_eq (Scoped.scoped_open (F := F) d L hF)) $$ [Hsb Hss]
    · isplitl [Hsb] <;> iassumption
    icases Hsc with ⟨⟨⟨%fv, Hv⟩, ⟨%f0, H0⟩, ⟨%f1, H1⟩, Hbufs⟩, ⟨HsA, HsB, HsC, Hsems⟩⟩
    ihave Ho' := (Entails.of_eq (slab_split (F := F) d (wOf L) _)) $$ Ho
    ihave Hx' := (Entails.of_eq (pts_xt (F := F) d L _).symm) $$ Hx
    isplitr [Hbufs Hsems]
    · iapply (hrun d L O W hO xt hx o0 fv f0 f1)
      isplitr; · iexact Hlv
      unfold heldQ heldB0 heldB1
      isplitl [Hx']; · iexact Hx'
      isplitl [Ho']; · iexact Ho'
      isplitl [Hv]; · iexact Hv
      isplitl [H0]; · iexact H0
      isplitl [H1]; · iexact H1
      isplitl [HsA]; · iexact HsA
      isplitl [HsB]; · iexact HsB
      isplitl [HsC]; · iexact HsC
      iexact HO
    · isplitl [Hbufs] <;> iassumption
  case post =>
    show (_ : sProp 𝕄) ⊢ (_ : sProp 𝕄)
    unfold postQ heldB0 heldB1
    iintro ⟨⟨Hx, Ho, Hv, H0, H1, HsA, HsB, HsC, HO⟩, Hbufs, Hsems⟩
    isplitl [Hx Ho]
    · isplitl [Hx]
      · iapply (Entails.of_eq (pts_xt (F := F) d L _)); iexact Hx
      · iapply (Entails.of_eq (slab_split (F := F) d (wOf L) _).symm); iexact Ho
    ihave Hsc := (Entails.of_eq (Scoped.scoped_open (F := F) d L hF).symm) $$ [Hv H0 H1 Hbufs HsA HsB HsC Hsems]
    · isplitl [Hv H0 H1 Hbufs]
      · isplitl [Hv]; · iexact Hv
        isplitl [H0]; · iexact H0
        isplitl [H1]; · iexact H1
        iexact Hbufs
      · isplitl [HsA]; · iexact HsA
        isplitl [HsB]; · iexact HsB
        isplitl [HsC]; · iexact HsC
        iexact Hsems
    icases Hsc with ⟨Hsb, Hss⟩
    isplitl [Hsb]; · iexact Hsb
    isplitl [Hss]; · iexact Hss
    iexact HO

end Cert.KernelIdeal.TileBody

end
-- ==== Proof.LibWholeWrites.lean ====
/-
  A buffer overwritten whole.

  A buffer's contents after a list of writes are folded from the oldest write to the newest. When the newest
  write covers the whole buffer with a payload `w`, nothing older shows: the contents are `w`, and a load of the
  whole buffer reads `w` — whatever the buffer held before and whatever the older writes were.
-/
import Idealize.ShloMosaic.Lib.Exec

namespace Cert.Lib.WholeWrites

open Idealize.ShloMosaic

variable {sig : RefSig} {κ : Kind} (Val : EltTy → Type) (b : Ref sig κ)

/-- The newest write covers the whole buffer: the contents are its payload. -/
theorem writes_whole_cons (f w : b.ty.Contents Val) (L : List (View.Piece Val b.ty.shape b.ty.elt)) :
    (Memref.whole b).view.writes Val f (⟨Rect.whole _, w⟩ :: L) = w := by
  show ((Memref.whole b).view.slice (Rect.whole _)).write Val _ w Finset.univ = w
  exact Memref.write_access_whole_univ Val b _ w

/-- and a load of the whole buffer reads that payload. -/
theorem readCov_whole_cons [∀ e, Nonempty (Val e)] (w : b.ty.Contents Val) (L : List (View.Piece Val b.ty.shape b.ty.elt)) :
    (Memref.whole b).view.readCov (⟨Rect.whole _, w⟩ :: L) (LoadRect.whole _) = w := by
  unfold View.readCov
  rw [writes_whole_cons]
  exact Memref.readAt_whole Val b w

end Cert.Lib.WholeWrites
-- ==== Proof.LibStoreIdx.lean ====
/-
  A vector stored through index vectors, one lane at a time, read back at an index.

  `storeIdx f idxs v mask add h` folds over the lanes, lowest first: lane `k` overwrites the entry its index
  vectors name. When every lane stores the SAME value `c`, all lanes are on and nothing is added, the order of the
  lanes no longer matters: the result at `j` is `c` if some lane names `j`, and the old contents otherwise.
-/
import Idealize.ShloMosaic.PureOps

namespace Cert.Lib.StoreIdx

open Idealize.ShloMosaic

variable {F : FTy → Type} {s : Shape} {e : EltTy} {d : Fin 1 → Nat}

/-- Overwriting with one value `c` at the places `p k`, `k` running over a list: at `j` the result is `c` when some
    `k` of the list has `p k = j` (coordinate by coordinate), else what was there. -/
theorem foldl_overwrite (l : List (Fin (d 0))) (p : Fin (d 0) → s.Idx) (c : Elt F e) (f : Vec F s e) (j : s.Idx) :
    (l.foldl (fun (g : Vec F s e) k => fun j' => if (∀ a, (j' a).val = (p k a).val) then c else g j') f) j
      = if (∃ k ∈ l, ∀ a, (j a).val = (p k a).val) then c else f j := by
  induction l generalizing f with
  | nil => simp
  | cons k l ih =>
    rw [List.foldl_cons, ih]
    by_cases hl : ∃ k' ∈ l, ∀ a, (j a).val = (p k' a).val
    · obtain ⟨k', hk', hj⟩ := hl
      rw [if_pos ⟨k', hk', hj⟩, if_pos ⟨k', List.mem_cons_of_mem _ hk', hj⟩]
    · rw [if_neg hl]
      by_cases hk : ∀ a, (j a).val = (p k a).val
      · rw [if_pos hk, if_pos ⟨k, List.mem_cons_self, hk⟩]
      · rw [if_neg hk, if_neg]
        rintro ⟨k', hk', hj⟩
        rcases List.mem_cons.mp hk' with rfl | hk''
        · exact hk hj
        · exact hl ⟨k', hk'', hj⟩

/-- The same for any step function that IS that overwrite, whatever its spelling. -/
theorem foldl_overwrite_of (stp : Vec F s e → Fin (d 0) → Vec F s e) (p : Fin (d 0) → s.Idx) (c : Elt F e)
    (hstp : ∀ g k, stp g k = fun j' => if (∀ a, (j' a).val = (p k a).val) then c else g j')
    (l : List (Fin (d 0))) (f : Vec F s e) (j : s.Idx) :
    (l.foldl stp f) j = if (∃ k ∈ l, ∀ a, (j a).val = (p k a).val) then c else f j := by
  have e : stp = fun g k => fun j' => if (∀ a, (j' a).val = (p k a).val) then c else g j' := funext fun g => funext fun k => hstp g k
  subst e
  exact foldl_overwrite l p c f j

variable [FloatOps F]

/-- One value `c` stored through every lane of the index vectors `idxs`: the entry `j` holds `c` exactly when some
    lane's indices are `j`'s coordinates, and keeps its old contents otherwise. -/
theorem storeIdx_const (f : Vec F s e) (idxs : Fin s.rank → IVec ⟨1, d⟩ 32) (c : Elt F e)
    (h : ∀ a x, (idxs a x).toNat < s.size a) (j : s.Idx) :
    storeIdx f idxs (fun _ => c) (fun _ => 1#1) false h j
      = if (∃ k : Fin (d 0), ∀ a, (j a).val = (idxs a (Shape.ofLane k)).toNat) then c else f j := by
  unfold storeIdx
  refine (foldl_overwrite_of _ (fun k => idxAt idxs h (Shape.ofLane k)) c ?_ _ f j).trans ?_
  · intro g k
    exact if_pos rfl
  · simp only [List.mem_finRange, true_and, idxAt]

/-- Storing one value where that same value already stands everywhere the lanes point changes nothing there; in
    particular a constant array stays that constant. -/
theorem storeIdx_const_self (idxs : Fin s.rank → IVec ⟨1, d⟩ 32) (c : Elt F e)
    (h : ∀ a x, (idxs a x).toNat < s.size a) :
    storeIdx (fun _ => c : Vec F s e) idxs (fun _ => c) (fun _ => 1#1) false h = fun _ => c := by
  funext j
  rw [storeIdx_const]
  split <;> rfl

end Cert.Lib.StoreIdx
-- ==== Proof.ZeroFacts.lean ====
/-
  Zeroing a 200 x 256 buffer sixteen columns at a time.

  Trip `k` of the zeroing loop stores zero through sixteen lanes at (row `c`, columns `16 k + lane`), once for each row
  `c = 0 .. 199`. After the stores for rows below `n` the buffer is zero in every column below `16 k` (earlier trips) and,
  in columns `16 k .. 16 k + 15`, in every row below `n`. One more store moves `n` up by one.
-/
import proofs.«212700_g8504035246323_cont_9to1_m_53_19_alg».proof.Proof.Gen.KernelIdeal.Skeleton
import proofs.«212700_g8504035246323_cont_9to1_m_53_19_alg».proof.Proof.LibStoreIdx

namespace Cert.KernelIdeal.ZeroFacts

open Cert.KernelIdeal Cert.KernelIdeal.Gen Idealize.ShloMosaic Cert.Lib.StoreIdx

variable {F : FTy → Type} [FloatOps F]

/-- The lane numbers `0 .. 15`. -/
abbrev lanes : IVec S16 32 := iota .scVector S16 32 [0] iota_S16_d0_w32_scVector

theorem trips1 : k0_t1_loop.trips = 16 := by decide

/-- Lane `x` of trip `k` addresses column `16 k + x`. -/
theorem col_toNat (k : Fin k0_t1_loop.trips) (x : S16.Idx) :
    (k0_pay1 lanes 0#32 1#32 k x).toNat = 16 * k.val + (x 0).val := by
  have hk : k.val < 16 := lt_of_lt_of_eq k.isLt trips1
  have hx : (x 0).val < 16 := (x 0).isLt
  unfold k0_pay1
  simp only [addi, IntOp.addi, broadcast, Scalar.muli, IntOp.muli, Scf.iv, iota, List.foldl]
  have h16 : (16#32 : BitVec 32).toNat = 16 := rfl
  simp only [BitVec.toNat_add, BitVec.toNat_mul, BitVec.toNat_ofNat, h16, Matrix.cons_val_zero]
  omega

/-- A zeroing store's indices are in range: row `c < 200`, column `16 k + lane < 256`. -/
theorem zero_chk (k : Fin k0_t1_loop.trips) (c : BitVec 32) (hc : c.toNat < 200) (a : Fin 2) (x : S16.Idx) :
    ((![broadcast S16 c, k0_pay1 lanes 0#32 1#32 k] : Fin 2 → IVec S16 32) a x).toNat < S200x256.size a := by
  have hk : k.val < 16 := lt_of_lt_of_eq k.isLt trips1
  have hx : (x 0).val < 16 := (x 0).isLt
  match a with
  | 0 => exact hc
  | 1 =>
    show (k0_pay1 lanes 0#32 1#32 k x).toNat < 256
    rw [col_toNat]; omega

/-- Zero in the columns below `16 k`, and in rows below `n` of the next sixteen columns. -/
def Z (k n : Nat) (g : Vec F S200x256 .i32) : Prop :=
  ∀ j : S200x256.Idx, ((j 1).val < 16 * k ∨ (16 * k ≤ (j 1).val ∧ (j 1).val < 16 * k + 16 ∧ (j 0).val < n)) → g j = (0#32 : BitVec 32)

/-- The store for row `n` of trip `k` extends the zeroed rows by one. -/
theorem Z_step (k : Fin k0_t1_loop.trips) (n : Nat) (c : BitVec 32) (hc : c.toNat = n) (g : Vec F S200x256 .i32)
    (h : ∀ a x, ((![broadcast S16 c, k0_pay1 lanes 0#32 1#32 k] : Fin 2 → IVec S16 32) a x).toNat < S200x256.size a)
    (hg : Z (F := F) k.val n g) :
    Z (F := F) k.val (n + 1) (storeIdx g ![broadcast S16 c, k0_pay1 lanes 0#32 1#32 k] k0_pay260 (fun _ => 1#1) false h) := by
  intro j hj
  show storeIdx g _ (fun _ => (0#32 : BitVec 32)) (fun _ => 1#1) false h j = 0#32
  rw [storeIdx_const]
  split
  · rfl
  · rename_i hno
    apply hg
    rcases hj with hj | ⟨h1, h2, h3⟩
    · exact .inl hj
    · refine .inr ⟨h1, h2, ?_⟩
      by_contra hlt
      have hrow : (j 0).val = n := by omega
      apply hno
      refine ⟨⟨(j 1).val - 16 * k.val, (by show _ < 16; omega)⟩, fun a => ?_⟩
      match a with
      | 0 => exact hrow.trans hc.symm
      | 1 =>
        refine Eq.trans ?_ (col_toNat k _).symm
        show (j 1).val = 16 * k.val + ((j 1).val - 16 * k.val)
        omega

/-- After all 200 rows the next trip's claim holds; before the first row it is this trip's. -/
theorem Z_full (k : Nat) (g : Vec F S200x256 .i32) (hg : Z (F := F) k 200 g) : Z (F := F) (k + 1) 0 g := by
  intro j hj
  apply hg
  have hr : (j 0).val < 200 := (j 0).isLt
  rcases hj with hj | ⟨_, _, h3⟩
  · by_cases hc : (j 1).val < 16 * k
    · exact .inl hc
    · exact .inr ⟨by omega, by omega, hr⟩
  · omega

end Cert.KernelIdeal.ZeroFacts
-- ==== Proof.ZeroViews.lean ====
/-
  The zeroing claim read through a buffer's list of writes.

  A store through index vectors is, on the machine, a load of the whole buffer followed by a store of the whole
  buffer. So after such a store the buffer's newest write covers it whole, and what the next one loads is that
  write's payload. The zeroing claim `Z k n` therefore passes from one payload to the next by the one-store step.
-/
import Idealize.ShloMosaic.Lib.Exec
import proofs.«212700_g8504035246323_cont_9to1_m_53_19_alg».proof.Proof.LibWholeWrites
import proofs.«212700_g8504035246323_cont_9to1_m_53_19_alg».proof.Proof.ZeroFacts

namespace Cert.KernelIdeal.ZeroViews

open Cert.KernelIdeal Cert.KernelIdeal.Gen Cert.KernelIdeal.ZeroFacts Cert.Lib.WholeWrites Idealize.ShloMosaic

variable {F : FTy → Type} [FloatOps F] [∀ e, Nonempty (Elt F e)]

/-- The contents after a newest write of the whole first buffer are that write's payload. -/
theorem Z_writes (k n : Nat) (f w : cc0_scratch1.ty.Contents (Elt F))
    (L : List (View.Piece (Elt F) cc0_scratch1.ty.shape cc0_scratch1.ty.elt)) (hw : Z (F := F) k n w) :
    Z (F := F) k n ((Memref.whole cc0_scratch1).view.writes (Elt F) f (⟨Rect.whole _, w⟩ :: L)) := by
  rw [writes_whole_cons]; exact hw

/-- A store for row `n` whose load finds a newest write of the whole buffer. -/
theorem Z_step_cov (k : Fin k0_t1_loop.trips) (n : Nat) (c : BitVec 32) (hc : c.toNat = n) (w : cc0_scratch1.ty.Contents (Elt F))
    (L : List (View.Piece (Elt F) cc0_scratch1.ty.shape cc0_scratch1.ty.elt))
    (h : ∀ a x, ((![broadcast S16 c, k0_pay1 lanes 0#32 1#32 k] : Fin 2 → IVec S16 32) a x).toNat < S200x256.size a)
    (hw : Z (F := F) k.val n w) :
    Z (F := F) k.val (n + 1)
      (storeIdx ((Memref.whole cc0_scratch1).view.readCov (⟨Rect.whole _, w⟩ :: L) (LoadRect.whole _))
        ![broadcast S16 c, k0_pay1 lanes 0#32 1#32 k] k0_pay260 (fun _ => 1#1) false h) := by
  rw [readCov_whole_cons]; exact Z_step k n c hc w h hw

/-- The first store of a window, whose load reads the buffer as the window found it. -/
theorem Z_step_at (k : Fin k0_t1_loop.trips) (n : Nat) (c : BitVec 32) (hc : c.toNat = n) (g : cc0_scratch1.ty.Contents (Elt F))
    (h : ∀ a x, ((![broadcast S16 c, k0_pay1 lanes 0#32 1#32 k] : Fin 2 → IVec S16 32) a x).toNat < S200x256.size a)
    (hg : Z (F := F) k.val n g) :
    Z (F := F) k.val (n + 1)
      (storeIdx ((Memref.whole cc0_scratch1).view.readAt (Elt F) (LoadRect.whole _) g)
        ![broadcast S16 c, k0_pay1 lanes 0#32 1#32 k] k0_pay260 (fun _ => 1#1) false h) := by
  rw [Memref.readAt_whole]; exact Z_step k n c hc g h hg

end Cert.KernelIdeal.ZeroViews
-- ==== Proof.ZeroSegsA.lean ====
/-
  The first zeroing loop, window by window (windows 1 to 7 of a trip).

  A trip zeroes sixteen columns of the first buffer, row by row; the printed trip is cut into windows of sixty
  statements. Each window, run alone from a buffer zero below row `r` of the trip's columns (and in all earlier columns),
  leaves it zero below row `r + 15` (`r + 13` for the first), and returns the row vector whose range check it made last.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.ZeroFacts
import proofs.«212700_g8504035246323_cont_9to1_m_53_19_alg».proof.Proof.ZeroViews

noncomputable section

namespace Cert.KernelIdeal.ZeroSegs

open Cert.KernelIdeal Cert.KernelIdeal.Gen Cert.KernelIdeal.Tile Cert.KernelIdeal.ZeroFacts Cert.KernelIdeal.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- Window 1 of a zeroing trip: rows 0 to 12 of the trip's sixteen columns. -/
theorem seg1 (k : Fin k0_t1_loop.trips) (g : Buf (Elt F) ((b0W).view.loc (V d (cV L) (jV L)))) (hg : Z (F := F) k.val 0 g) :
    (heldB0 (F := F) d L g : sProp 𝕄)
      ⊢ (wp frame (wpE (defs₀ (F := F)) 𝒱₀ (V d (cV L) (jV L)) none) Set.univ
          (k0_part1 L xtW (Memref.isWhole_whole _) oW (Memref.isWhole_whole _) xvW (Memref.isWhole_whole _)
            b0W (Memref.isWhole_whole _) b1W (Memref.isWhole_whole _) cc0_scratch3 cc0_scratch4 cc0_scratch5
            lanes k0_pay260 0#32 1#32 k)
          fun r => iprop(⌜r.1 = k0_pay1 lanes 0#32 1#32 k ∧ r.2.1 = broadcast S16 13#32⌝ ∗ ∃ g', ⌜Z (F := F) k.val 13 g'⌝ ∗ heldB0 (F := F) d L g') : sProp 𝕄) := by
  simp only [k0_part1_eq_skeleton]; unfold k0_part1_skel
  unfold SparseCore.vectorStoreIdx
  unfold heldB0
  iintro H0
  sl_exec (disch := exact zero_chk k _ (by decide))
  sl_step
  isplitr
  · ipureintro; exact ⟨rfl, rfl⟩
  iexists _
  isplitr
  swap
  · iexact H0
  ipureintro
  refine Z_writes k.val 13 _ _ _ ?_
  unfold seg1.sl.f_11 seg1.sl.H0_12
  refine Z_step_cov k 12 _ rfl _ _ _ ?_
  unfold seg1.sl.f_10 seg1.sl.H0_11
  refine Z_step_cov k 11 _ rfl _ _ _ ?_
  unfold seg1.sl.f_9 seg1.sl.H0_10
  refine Z_step_cov k 10 _ rfl _ _ _ ?_
  unfold seg1.sl.f_8 seg1.sl.H0_9
  refine Z_step_cov k 9 _ rfl _ _ _ ?_
  unfold seg1.sl.f_7 seg1.sl.H0_8
  refine Z_step_cov k 8 _ rfl _ _ _ ?_
  unfold seg1.sl.f_6 seg1.sl.H0_7
  refine Z_step_cov k 7 _ rfl _ _ _ ?_
  unfold seg1.sl.f_5 seg1.sl.H0_6
  refine Z_step_cov k 6 _ rfl _ _ _ ?_
  unfold seg1.sl.f_4 seg1.sl.H0_5
  refine Z_step_cov k 5 _ rfl _ _ _ ?_
  unfold seg1.sl.f_3 seg1.sl.H0_4
  refine Z_step_cov k 4 _ rfl _ _ _ ?_
  unfold seg1.sl.f_2 seg1.sl.H0_3
  refine Z_step_cov k 3 _ rfl _ _ _ ?_
  unfold seg1.sl.f_1 seg1.sl.H0_2
  refine Z_step_cov k 2 _ rfl _ _ _ ?_
  unfold seg1.sl.f seg1.sl.H0_1
  refine Z_step_cov k 1 _ rfl _ _ _ ?_
  refine Z_step_at k 0 _ rfl _ _ ?_
  exact hg

/-- Window 2 of a zeroing trip: rows 13 to 27. -/
theorem seg2 (k : Fin k0_t1_loop.trips) (g : Buf (Elt F) ((b0W).view.loc (V d (cV L) (jV L))))
    (hw : k0_chk14 (k0_pay1 lanes 0#32 1#32 k) (broadcast S16 13#32)) (hg : Z (F := F) k.val 13 g) :
    (heldB0 (F := F) d L g : sProp 𝕄)
      ⊢ (wp frame (wpE (defs₀ (F := F)) 𝒱₀ (V d (cV L) (jV L)) none) Set.univ
          (k0_part2 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 13#32) hw)
          fun r => iprop(⌜r.1 = broadcast S16 28#32⌝ ∗ ∃ g', ⌜Z (F := F) k.val 28 g'⌝ ∗ heldB0 (F := F) d L g') : sProp 𝕄) := by
  simp only [k0_part2_eq_skeleton]; unfold k0_part2_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 28 _ _ _ ?_
  unfold seg2.sl.f_13 seg2.sl.H0_14
  refine Z_step_cov k 27 _ rfl _ _ _ ?_
  unfold seg2.sl.f_12 seg2.sl.H0_13
  refine Z_step_cov k 26 _ rfl _ _ _ ?_
  unfold seg2.sl.f_11 seg2.sl.H0_12
  refine Z_step_cov k 25 _ rfl _ _ _ ?_
  unfold seg2.sl.f_10 seg2.sl.H0_11
  refine Z_step_cov k 24 _ rfl _ _ _ ?_
  unfold seg2.sl.f_9 seg2.sl.H0_10
  refine Z_step_cov k 23 _ rfl _ _ _ ?_
  unfold seg2.sl.f_8 seg2.sl.H0_9
  refine Z_step_cov k 22 _ rfl _ _ _ ?_
  unfold seg2.sl.f_7 seg2.sl.H0_8
  refine Z_step_cov k 21 _ rfl _ _ _ ?_
  unfold seg2.sl.f_6 seg2.sl.H0_7
  refine Z_step_cov k 20 _ rfl _ _ _ ?_
  unfold seg2.sl.f_5 seg2.sl.H0_6
  refine Z_step_cov k 19 _ rfl _ _ _ ?_
  unfold seg2.sl.f_4 seg2.sl.H0_5
  refine Z_step_cov k 18 _ rfl _ _ _ ?_
  unfold seg2.sl.f_3 seg2.sl.H0_4
  refine Z_step_cov k 17 _ rfl _ _ _ ?_
  unfold seg2.sl.f_2 seg2.sl.H0_3
  refine Z_step_cov k 16 _ rfl _ _ _ ?_
  unfold seg2.sl.f_1 seg2.sl.H0_2
  refine Z_step_cov k 15 _ rfl _ _ _ ?_
  unfold seg2.sl.f seg2.sl.H0_1
  refine Z_step_cov k 14 _ rfl _ _ _ ?_
  refine Z_step_at k 13 _ rfl _ _ ?_
  exact hg

/-- Window 3 of a zeroing trip: rows 28 to 42. -/
theorem seg3 (k : Fin k0_t1_loop.trips) (g : Buf (Elt F) ((b0W).view.loc (V d (cV L) (jV L))))
    (hw : k0_chk29 (k0_pay1 lanes 0#32 1#32 k) (broadcast S16 28#32)) (hg : Z (F := F) k.val 28 g) :
    (heldB0 (F := F) d L g : sProp 𝕄)
      ⊢ (wp frame (wpE (defs₀ (F := F)) 𝒱₀ (V d (cV L) (jV L)) none) Set.univ
          (k0_part3 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 28#32) hw)
          fun r => iprop(⌜r.1 = broadcast S16 43#32⌝ ∗ ∃ g', ⌜Z (F := F) k.val 43 g'⌝ ∗ heldB0 (F := F) d L g') : sProp 𝕄) := by
  simp only [k0_part3_eq_skeleton]; unfold k0_part3_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 43 _ _ _ ?_
  unfold seg3.sl.f_13 seg3.sl.H0_14
  refine Z_step_cov k 42 _ rfl _ _ _ ?_
  unfold seg3.sl.f_12 seg3.sl.H0_13
  refine Z_step_cov k 41 _ rfl _ _ _ ?_
  unfold seg3.sl.f_11 seg3.sl.H0_12
  refine Z_step_cov k 40 _ rfl _ _ _ ?_
  unfold seg3.sl.f_10 seg3.sl.H0_11
  refine Z_step_cov k 39 _ rfl _ _ _ ?_
  unfold seg3.sl.f_9 seg3.sl.H0_10
  refine Z_step_cov k 38 _ rfl _ _ _ ?_
  unfold seg3.sl.f_8 seg3.sl.H0_9
  refine Z_step_cov k 37 _ rfl _ _ _ ?_
  unfold seg3.sl.f_7 seg3.sl.H0_8
  refine Z_step_cov k 36 _ rfl _ _ _ ?_
  unfold seg3.sl.f_6 seg3.sl.H0_7
  refine Z_step_cov k 35 _ rfl _ _ _ ?_
  unfold seg3.sl.f_5 seg3.sl.H0_6
  refine Z_step_cov k 34 _ rfl _ _ _ ?_
  unfold seg3.sl.f_4 seg3.sl.H0_5
  refine Z_step_cov k 33 _ rfl _ _ _ ?_
  unfold seg3.sl.f_3 seg3.sl.H0_4
  refine Z_step_cov k 32 _ rfl _ _ _ ?_
  unfold seg3.sl.f_2 seg3.sl.H0_3
  refine Z_step_cov k 31 _ rfl _ _ _ ?_
  unfold seg3.sl.f_1 seg3.sl.H0_2
  refine Z_step_cov k 30 _ rfl _ _ _ ?_
  unfold seg3.sl.f seg3.sl.H0_1
  refine Z_step_cov k 29 _ rfl _ _ _ ?_
  refine Z_step_at k 28 _ rfl _ _ ?_
  exact hg

/-- Window 4 of a zeroing trip: rows 43 to 57. -/
theorem seg4 (k : Fin k0_t1_loop.trips) (g : Buf (Elt F) ((b0W).view.loc (V d (cV L) (jV L))))
    (hw : k0_chk44 (k0_pay1 lanes 0#32 1#32 k) (broadcast S16 43#32)) (hg : Z (F := F) k.val 43 g) :
    (heldB0 (F := F) d L g : sProp 𝕄)
      ⊢ (wp frame (wpE (defs₀ (F := F)) 𝒱₀ (V d (cV L) (jV L)) none) Set.univ
          (k0_part4 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 43#32) hw)
          fun r => iprop(⌜r.1 = broadcast S16 58#32⌝ ∗ ∃ g', ⌜Z (F := F) k.val 58 g'⌝ ∗ heldB0 (F := F) d L g') : sProp 𝕄) := by
  simp only [k0_part4_eq_skeleton]; unfold k0_part4_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 58 _ _ _ ?_
  unfold seg4.sl.f_13 seg4.sl.H0_14
  refine Z_step_cov k 57 _ rfl _ _ _ ?_
  unfold seg4.sl.f_12 seg4.sl.H0_13
  refine Z_step_cov k 56 _ rfl _ _ _ ?_
  unfold seg4.sl.f_11 seg4.sl.H0_12
  refine Z_step_cov k 55 _ rfl _ _ _ ?_
  unfold seg4.sl.f_10 seg4.sl.H0_11
  refine Z_step_cov k 54 _ rfl _ _ _ ?_
  unfold seg4.sl.f_9 seg4.sl.H0_10
  refine Z_step_cov k 53 _ rfl _ _ _ ?_
  unfold seg4.sl.f_8 seg4.sl.H0_9
  refine Z_step_cov k 52 _ rfl _ _ _ ?_
  unfold seg4.sl.f_7 seg4.sl.H0_8
  refine Z_step_cov k 51 _ rfl _ _ _ ?_
  unfold seg4.sl.f_6 seg4.sl.H0_7
  refine Z_step_cov k 50 _ rfl _ _ _ ?_
  unfold seg4.sl.f_5 seg4.sl.H0_6
  refine Z_step_cov k 49 _ rfl _ _ _ ?_
  unfold seg4.sl.f_4 seg4.sl.H0_5
  refine Z_step_cov k 48 _ rfl _ _ _ ?_
  unfold seg4.sl.f_3 seg4.sl.H0_4
  refine Z_step_cov k 47 _ rfl _ _ _ ?_
  unfold seg4.sl.f_2 seg4.sl.H0_3
  refine Z_step_cov k 46 _ rfl _ _ _ ?_
  unfold seg4.sl.f_1 seg4.sl.H0_2
  refine Z_step_cov k 45 _ rfl _ _ _ ?_
  unfold seg4.sl.f seg4.sl.H0_1
  refine Z_step_cov k 44 _ rfl _ _ _ ?_
  refine Z_step_at k 43 _ rfl _ _ ?_
  exact hg

/-- Window 5 of a zeroing trip: rows 58 to 72. -/
theorem seg5 (k : Fin k0_t1_loop.trips) (g : Buf (Elt F) ((b0W).view.loc (V d (cV L) (jV L))))
    (hw : k0_chk59 (k0_pay1 lanes 0#32 1#32 k) (broadcast S16 58#32)) (hg : Z (F := F) k.val 58 g) :
    (heldB0 (F := F) d L g : sProp 𝕄)
      ⊢ (wp frame (wpE (defs₀ (F := F)) 𝒱₀ (V d (cV L) (jV L)) none) Set.univ
          (k0_part5 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 58#32) hw)
          fun r => iprop(⌜r.1 = broadcast S16 73#32⌝ ∗ ∃ g', ⌜Z (F := F) k.val 73 g'⌝ ∗ heldB0 (F := F) d L g') : sProp 𝕄) := by
  simp only [k0_part5_eq_skeleton]; unfold k0_part5_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 73 _ _ _ ?_
  unfold seg5.sl.f_13 seg5.sl.H0_14
  refine Z_step_cov k 72 _ rfl _ _ _ ?_
  unfold seg5.sl.f_12 seg5.sl.H0_13
  refine Z_step_cov k 71 _ rfl _ _ _ ?_
  unfold seg5.sl.f_11 seg5.sl.H0_12
  refine Z_step_cov k 70 _ rfl _ _ _ ?_
  unfold seg5.sl.f_10 seg5.sl.H0_11
  refine Z_step_cov k 69 _ rfl _ _ _ ?_
  unfold seg5.sl.f_9 seg5.sl.H0_10
  refine Z_step_cov k 68 _ rfl _ _ _ ?_
  unfold seg5.sl.f_8 seg5.sl.H0_9
  refine Z_step_cov k 67 _ rfl _ _ _ ?_
  unfold seg5.sl.f_7 seg5.sl.H0_8
  refine Z_step_cov k 66 _ rfl _ _ _ ?_
  unfold seg5.sl.f_6 seg5.sl.H0_7
  refine Z_step_cov k 65 _ rfl _ _ _ ?_
  unfold seg5.sl.f_5 seg5.sl.H0_6
  refine Z_step_cov k 64 _ rfl _ _ _ ?_
  unfold seg5.sl.f_4 seg5.sl.H0_5
  refine Z_step_cov k 63 _ rfl _ _ _ ?_
  unfold seg5.sl.f_3 seg5.sl.H0_4
  refine Z_step_cov k 62 _ rfl _ _ _ ?_
  unfold seg5.sl.f_2 seg5.sl.H0_3
  refine Z_step_cov k 61 _ rfl _ _ _ ?_
  unfold seg5.sl.f_1 seg5.sl.H0_2
  refine Z_step_cov k 60 _ rfl _ _ _ ?_
  unfold seg5.sl.f seg5.sl.H0_1
  refine Z_step_cov k 59 _ rfl _ _ _ ?_
  refine Z_step_at k 58 _ rfl _ _ ?_
  exact hg

/-- Window 6 of a zeroing trip: rows 73 to 87. -/
theorem seg6 (k : Fin k0_t1_loop.trips) (g : Buf (Elt F) ((b0W).view.loc (V d (cV L) (jV L))))
    (hw : k0_chk74 (k0_pay1 lanes 0#32 1#32 k) (broadcast S16 73#32)) (hg : Z (F := F) k.val 73 g) :
    (heldB0 (F := F) d L g : sProp 𝕄)
      ⊢ (wp frame (wpE (defs₀ (F := F)) 𝒱₀ (V d (cV L) (jV L)) none) Set.univ
          (k0_part6 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 73#32) hw)
          fun r => iprop(⌜r.1 = broadcast S16 88#32⌝ ∗ ∃ g', ⌜Z (F := F) k.val 88 g'⌝ ∗ heldB0 (F := F) d L g') : sProp 𝕄) := by
  simp only [k0_part6_eq_skeleton]; unfold k0_part6_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 88 _ _ _ ?_
  unfold seg6.sl.f_13 seg6.sl.H0_14
  refine Z_step_cov k 87 _ rfl _ _ _ ?_
  unfold seg6.sl.f_12 seg6.sl.H0_13
  refine Z_step_cov k 86 _ rfl _ _ _ ?_
  unfold seg6.sl.f_11 seg6.sl.H0_12
  refine Z_step_cov k 85 _ rfl _ _ _ ?_
  unfold seg6.sl.f_10 seg6.sl.H0_11
  refine Z_step_cov k 84 _ rfl _ _ _ ?_
  unfold seg6.sl.f_9 seg6.sl.H0_10
  refine Z_step_cov k 83 _ rfl _ _ _ ?_
  unfold seg6.sl.f_8 seg6.sl.H0_9
  refine Z_step_cov k 82 _ rfl _ _ _ ?_
  unfold seg6.sl.f_7 seg6.sl.H0_8
  refine Z_step_cov k 81 _ rfl _ _ _ ?_
  unfold seg6.sl.f_6 seg6.sl.H0_7
  refine Z_step_cov k 80 _ rfl _ _ _ ?_
  unfold seg6.sl.f_5 seg6.sl.H0_6
  refine Z_step_cov k 79 _ rfl _ _ _ ?_
  unfold seg6.sl.f_4 seg6.sl.H0_5
  refine Z_step_cov k 78 _ rfl _ _ _ ?_
  unfold seg6.sl.f_3 seg6.sl.H0_4
  refine Z_step_cov k 77 _ rfl _ _ _ ?_
  unfold seg6.sl.f_2 seg6.sl.H0_3
  refine Z_step_cov k 76 _ rfl _ _ _ ?_
  unfold seg6.sl.f_1 seg6.sl.H0_2
  refine Z_step_cov k 75 _ rfl _ _ _ ?_
  unfold seg6.sl.f seg6.sl.H0_1
  refine Z_step_cov k 74 _ rfl _ _ _ ?_
  refine Z_step_at k 73 _ rfl _ _ ?_
  exact hg

/-- Window 7 of a zeroing trip: rows 88 to 102. -/
theorem seg7 (k : Fin k0_t1_loop.trips) (g : Buf (Elt F) ((b0W).view.loc (V d (cV L) (jV L))))
    (hw : k0_chk89 (k0_pay1 lanes 0#32 1#32 k) (broadcast S16 88#32)) (hg : Z (F := F) k.val 88 g) :
    (heldB0 (F := F) d L g : sProp 𝕄)
      ⊢ (wp frame (wpE (defs₀ (F := F)) 𝒱₀ (V d (cV L) (jV L)) none) Set.univ
          (k0_part7 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 88#32) hw)
          fun r => iprop(⌜r.1 = broadcast S16 103#32⌝ ∗ ∃ g', ⌜Z (F := F) k.val 103 g'⌝ ∗ heldB0 (F := F) d L g') : sProp 𝕄) := by
  simp only [k0_part7_eq_skeleton]; unfold k0_part7_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 103 _ _ _ ?_
  unfold seg7.sl.f_13 seg7.sl.H0_14
  refine Z_step_cov k 102 _ rfl _ _ _ ?_
  unfold seg7.sl.f_12 seg7.sl.H0_13
  refine Z_step_cov k 101 _ rfl _ _ _ ?_
  unfold seg7.sl.f_11 seg7.sl.H0_12
  refine Z_step_cov k 100 _ rfl _ _ _ ?_
  unfold seg7.sl.f_10 seg7.sl.H0_11
  refine Z_step_cov k 99 _ rfl _ _ _ ?_
  unfold seg7.sl.f_9 seg7.sl.H0_10
  refine Z_step_cov k 98 _ rfl _ _ _ ?_
  unfold seg7.sl.f_8 seg7.sl.H0_9
  refine Z_step_cov k 97 _ rfl _ _ _ ?_
  unfold seg7.sl.f_7 seg7.sl.H0_8
  refine Z_step_cov k 96 _ rfl _ _ _ ?_
  unfold seg7.sl.f_6 seg7.sl.H0_7
  refine Z_step_cov k 95 _ rfl _ _ _ ?_
  unfold seg7.sl.f_5 seg7.sl.H0_6
  refine Z_step_cov k 94 _ rfl _ _ _ ?_
  unfold seg7.sl.f_4 seg7.sl.H0_5
  refine Z_step_cov k 93 _ rfl _ _ _ ?_
  unfold seg7.sl.f_3 seg7.sl.H0_4
  refine Z_step_cov k 92 _ rfl _ _ _ ?_
  unfold seg7.sl.f_2 seg7.sl.H0_3
  refine Z_step_cov k 91 _ rfl _ _ _ ?_
  unfold seg7.sl.f_1 seg7.sl.H0_2
  refine Z_step_cov k 90 _ rfl _ _ _ ?_
  unfold seg7.sl.f seg7.sl.H0_1
  refine Z_step_cov k 89 _ rfl _ _ _ ?_
  refine Z_step_at k 88 _ rfl _ _ ?_
  exact hg

end Cert.KernelIdeal.ZeroSegs

end
-- ==== Proof.ZeroSegsB.lean ====
/-
  The first zeroing loop, window by window (windows 8 to 13 of a trip).

  A trip zeroes sixteen columns of the first buffer, row by row; the printed trip is cut into windows of sixty
  statements. Each window, run alone from a buffer zero below row `r` of the trip's columns (and in all earlier columns),
  leaves it zero below row `r + 15` (`r + 13` for the first), and returns the row vector whose range check it made last.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.ZeroFacts
import proofs.«212700_g8504035246323_cont_9to1_m_53_19_alg».proof.Proof.ZeroViews

noncomputable section

namespace Cert.KernelIdeal.ZeroSegs

open Cert.KernelIdeal Cert.KernelIdeal.Gen Cert.KernelIdeal.Tile Cert.KernelIdeal.ZeroFacts Cert.KernelIdeal.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- Window 8 of a zeroing trip: rows 103 to 117. -/
theorem seg8 (k : Fin k0_t1_loop.trips) (g : Buf (Elt F) ((b0W).view.loc (V d (cV L) (jV L))))
    (hw : k0_chk104 (k0_pay1 lanes 0#32 1#32 k) (broadcast S16 103#32)) (hg : Z (F := F) k.val 103 g) :
    (heldB0 (F := F) d L g : sProp 𝕄)
      ⊢ (wp frame (wpE (defs₀ (F := F)) 𝒱₀ (V d (cV L) (jV L)) none) Set.univ
          (k0_part8 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 103#32) hw)
          fun r => iprop(⌜r.1 = broadcast S16 118#32⌝ ∗ ∃ g', ⌜Z (F := F) k.val 118 g'⌝ ∗ heldB0 (F := F) d L g') : sProp 𝕄) := by
  simp only [k0_part8_eq_skeleton]; unfold k0_part8_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 118 _ _ _ ?_
  unfold seg8.sl.f_13 seg8.sl.H0_14
  refine Z_step_cov k 117 _ rfl _ _ _ ?_
  unfold seg8.sl.f_12 seg8.sl.H0_13
  refine Z_step_cov k 116 _ rfl _ _ _ ?_
  unfold seg8.sl.f_11 seg8.sl.H0_12
  refine Z_step_cov k 115 _ rfl _ _ _ ?_
  unfold seg8.sl.f_10 seg8.sl.H0_11
  refine Z_step_cov k 114 _ rfl _ _ _ ?_
  unfold seg8.sl.f_9 seg8.sl.H0_10
  refine Z_step_cov k 113 _ rfl _ _ _ ?_
  unfold seg8.sl.f_8 seg8.sl.H0_9
  refine Z_step_cov k 112 _ rfl _ _ _ ?_
  unfold seg8.sl.f_7 seg8.sl.H0_8
  refine Z_step_cov k 111 _ rfl _ _ _ ?_
  unfold seg8.sl.f_6 seg8.sl.H0_7
  refine Z_step_cov k 110 _ rfl _ _ _ ?_
  unfold seg8.sl.f_5 seg8.sl.H0_6
  refine Z_step_cov k 109 _ rfl _ _ _ ?_
  unfold seg8.sl.f_4 seg8.sl.H0_5
  refine Z_step_cov k 108 _ rfl _ _ _ ?_
  unfold seg8.sl.f_3 seg8.sl.H0_4
  refine Z_step_cov k 107 _ rfl _ _ _ ?_
  unfold seg8.sl.f_2 seg8.sl.H0_3
  refine Z_step_cov k 106 _ rfl _ _ _ ?_
  unfold seg8.sl.f_1 seg8.sl.H0_2
  refine Z_step_cov k 105 _ rfl _ _ _ ?_
  unfold seg8.sl.f seg8.sl.H0_1
  refine Z_step_cov k 104 _ rfl _ _ _ ?_
  refine Z_step_at k 103 _ rfl _ _ ?_
  exact hg

/-- Window 9 of a zeroing trip: rows 118 to 132. -/
theorem seg9 (k : Fin k0_t1_loop.trips) (g : Buf (Elt F) ((b0W).view.loc (V d (cV L) (jV L))))
    (hw : k0_chk119 (k0_pay1 lanes 0#32 1#32 k) (broadcast S16 118#32)) (hg : Z (F := F) k.val 118 g) :
    (heldB0 (F := F) d L g : sProp 𝕄)
      ⊢ (wp frame (wpE (defs₀ (F := F)) 𝒱₀ (V d (cV L) (jV L)) none) Set.univ
          (k0_part9 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 118#32) hw)
          fun r => iprop(⌜r.1 = broadcast S16 133#32⌝ ∗ ∃ g', ⌜Z (F := F) k.val 133 g'⌝ ∗ heldB0 (F := F) d L g') : sProp 𝕄) := by
  simp only [k0_part9_eq_skeleton]; unfold k0_part9_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 133 _ _ _ ?_
  unfold seg9.sl.f_13 seg9.sl.H0_14
  refine Z_step_cov k 132 _ rfl _ _ _ ?_
  unfold seg9.sl.f_12 seg9.sl.H0_13
  refine Z_step_cov k 131 _ rfl _ _ _ ?_
  unfold seg9.sl.f_11 seg9.sl.H0_12
  refine Z_step_cov k 130 _ rfl _ _ _ ?_
  unfold seg9.sl.f_10 seg9.sl.H0_11
  refine Z_step_cov k 129 _ rfl _ _ _ ?_
  unfold seg9.sl.f_9 seg9.sl.H0_10
  refine Z_step_cov k 128 _ rfl _ _ _ ?_
  unfold seg9.sl.f_8 seg9.sl.H0_9
  refine Z_step_cov k 127 _ rfl _ _ _ ?_
  unfold seg9.sl.f_7 seg9.sl.H0_8
  refine Z_step_cov k 126 _ rfl _ _ _ ?_
  unfold seg9.sl.f_6 seg9.sl.H0_7
  refine Z_step_cov k 125 _ rfl _ _ _ ?_
  unfold seg9.sl.f_5 seg9.sl.H0_6
  refine Z_step_cov k 124 _ rfl _ _ _ ?_
  unfold seg9.sl.f_4 seg9.sl.H0_5
  refine Z_step_cov k 123 _ rfl _ _ _ ?_
  unfold seg9.sl.f_3 seg9.sl.H0_4
  refine Z_step_cov k 122 _ rfl _ _ _ ?_
  unfold seg9.sl.f_2 seg9.sl.H0_3
  refine Z_step_cov k 121 _ rfl _ _ _ ?_
  unfold seg9.sl.f_1 seg9.sl.H0_2
  refine Z_step_cov k 120 _ rfl _ _ _ ?_
  unfold seg9.sl.f seg9.sl.H0_1
  refine Z_step_cov k 119 _ rfl _ _ _ ?_
  refine Z_step_at k 118 _ rfl _ _ ?_
  exact hg

/-- Window 10 of a zeroing trip: rows 133 to 147. -/
theorem seg10 (k : Fin k0_t1_loop.trips) (g : Buf (Elt F) ((b0W).view.loc (V d (cV L) (jV L))))
    (hw : k0_chk134 (k0_pay1 lanes 0#32 1#32 k) (broadcast S16 133#32)) (hg : Z (F := F) k.val 133 g) :
    (heldB0 (F := F) d L g : sProp 𝕄)
      ⊢ (wp frame (wpE (defs₀ (F := F)) 𝒱₀ (V d (cV L) (jV L)) none) Set.univ
          (k0_part10 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 133#32) hw)
          fun r => iprop(⌜r.1 = broadcast S16 148#32⌝ ∗ ∃ g', ⌜Z (F := F) k.val 148 g'⌝ ∗ heldB0 (F := F) d L g') : sProp 𝕄) := by
  simp only [k0_part10_eq_skeleton]; unfold k0_part10_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 148 _ _ _ ?_
  unfold seg10.sl.f_13 seg10.sl.H0_14
  refine Z_step_cov k 147 _ rfl _ _ _ ?_
  unfold seg10.sl.f_12 seg10.sl.H0_13
  refine Z_step_cov k 146 _ rfl _ _ _ ?_
  unfold seg10.sl.f_11 seg10.sl.H0_12
  refine Z_step_cov k 145 _ rfl _ _ _ ?_
  unfold seg10.sl.f_10 seg10.sl.H0_11
  refine Z_step_cov k 144 _ rfl _ _ _ ?_
  unfold seg10.sl.f_9 seg10.sl.H0_10
  refine Z_step_cov k 143 _ rfl _ _ _ ?_
  unfold seg10.sl.f_8 seg10.sl.H0_9
  refine Z_step_cov k 142 _ rfl _ _ _ ?_
  unfold seg10.sl.f_7 seg10.sl.H0_8
  refine Z_step_cov k 141 _ rfl _ _ _ ?_
  unfold seg10.sl.f_6 seg10.sl.H0_7
  refine Z_step_cov k 140 _ rfl _ _ _ ?_
  unfold seg10.sl.f_5 seg10.sl.H0_6
  refine Z_step_cov k 139 _ rfl _ _ _ ?_
  unfold seg10.sl.f_4 seg10.sl.H0_5
  refine Z_step_cov k 138 _ rfl _ _ _ ?_
  unfold seg10.sl.f_3 seg10.sl.H0_4
  refine Z_step_cov k 137 _ rfl _ _ _ ?_
  unfold seg10.sl.f_2 seg10.sl.H0_3
  refine Z_step_cov k 136 _ rfl _ _ _ ?_
  unfold seg10.sl.f_1 seg10.sl.H0_2
  refine Z_step_cov k 135 _ rfl _ _ _ ?_
  unfold seg10.sl.f seg10.sl.H0_1
  refine Z_step_cov k 134 _ rfl _ _ _ ?_
  refine Z_step_at k 133 _ rfl _ _ ?_
  exact hg

/-- Window 11 of a zeroing trip: rows 148 to 162. -/
theorem seg11 (k : Fin k0_t1_loop.trips) (g : Buf (Elt F) ((b0W).view.loc (V d (cV L) (jV L))))
    (hw : k0_chk149 (k0_pay1 lanes 0#32 1#32 k) (broadcast S16 148#32)) (hg : Z (F := F) k.val 148 g) :
    (heldB0 (F := F) d L g : sProp 𝕄)
      ⊢ (wp frame (wpE (defs₀ (F := F)) 𝒱₀ (V d (cV L) (jV L)) none) Set.univ
          (k0_part11 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 148#32) hw)
          fun r => iprop(⌜r.1 = broadcast S16 163#32⌝ ∗ ∃ g', ⌜Z (F := F) k.val 163 g'⌝ ∗ heldB0 (F := F) d L g') : sProp 𝕄) := by
  simp only [k0_part11_eq_skeleton]; unfold k0_part11_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 163 _ _ _ ?_
  unfold seg11.sl.f_13 seg11.sl.H0_14
  refine Z_step_cov k 162 _ rfl _ _ _ ?_
  unfold seg11.sl.f_12 seg11.sl.H0_13
  refine Z_step_cov k 161 _ rfl _ _ _ ?_
  unfold seg11.sl.f_11 seg11.sl.H0_12
  refine Z_step_cov k 160 _ rfl _ _ _ ?_
  unfold seg11.sl.f_10 seg11.sl.H0_11
  refine Z_step_cov k 159 _ rfl _ _ _ ?_
  unfold seg11.sl.f_9 seg11.sl.H0_10
  refine Z_step_cov k 158 _ rfl _ _ _ ?_
  unfold seg11.sl.f_8 seg11.sl.H0_9
  refine Z_step_cov k 157 _ rfl _ _ _ ?_
  unfold seg11.sl.f_7 seg11.sl.H0_8
  refine Z_step_cov k 156 _ rfl _ _ _ ?_
  unfold seg11.sl.f_6 seg11.sl.H0_7
  refine Z_step_cov k 155 _ rfl _ _ _ ?_
  unfold seg11.sl.f_5 seg11.sl.H0_6
  refine Z_step_cov k 154 _ rfl _ _ _ ?_
  unfold seg11.sl.f_4 seg11.sl.H0_5
  refine Z_step_cov k 153 _ rfl _ _ _ ?_
  unfold seg11.sl.f_3 seg11.sl.H0_4
  refine Z_step_cov k 152 _ rfl _ _ _ ?_
  unfold seg11.sl.f_2 seg11.sl.H0_3
  refine Z_step_cov k 151 _ rfl _ _ _ ?_
  unfold seg11.sl.f_1 seg11.sl.H0_2
  refine Z_step_cov k 150 _ rfl _ _ _ ?_
  unfold seg11.sl.f seg11.sl.H0_1
  refine Z_step_cov k 149 _ rfl _ _ _ ?_
  refine Z_step_at k 148 _ rfl _ _ ?_
  exact hg

/-- Window 12 of a zeroing trip: rows 163 to 177. -/
theorem seg12 (k : Fin k0_t1_loop.trips) (g : Buf (Elt F) ((b0W).view.loc (V d (cV L) (jV L))))
    (hw : k0_chk164 (k0_pay1 lanes 0#32 1#32 k) (broadcast S16 163#32)) (hg : Z (F := F) k.val 163 g) :
    (heldB0 (F := F) d L g : sProp 𝕄)
      ⊢ (wp frame (wpE (defs₀ (F := F)) 𝒱₀ (V d (cV L) (jV L)) none) Set.univ
          (k0_part12 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 163#32) hw)
          fun r => iprop(⌜r.1 = broadcast S16 178#32⌝ ∗ ∃ g', ⌜Z (F := F) k.val 178 g'⌝ ∗ heldB0 (F := F) d L g') : sProp 𝕄) := by
  simp only [k0_part12_eq_skeleton]; unfold k0_part12_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 178 _ _ _ ?_
  unfold seg12.sl.f_13 seg12.sl.H0_14
  refine Z_step_cov k 177 _ rfl _ _ _ ?_
  unfold seg12.sl.f_12 seg12.sl.H0_13
  refine Z_step_cov k 176 _ rfl _ _ _ ?_
  unfold seg12.sl.f_11 seg12.sl.H0_12
  refine Z_step_cov k 175 _ rfl _ _ _ ?_
  unfold seg12.sl.f_10 seg12.sl.H0_11
  refine Z_step_cov k 174 _ rfl _ _ _ ?_
  unfold seg12.sl.f_9 seg12.sl.H0_10
  refine Z_step_cov k 173 _ rfl _ _ _ ?_
  unfold seg12.sl.f_8 seg12.sl.H0_9
  refine Z_step_cov k 172 _ rfl _ _ _ ?_
  unfold seg12.sl.f_7 seg12.sl.H0_8
  refine Z_step_cov k 171 _ rfl _ _ _ ?_
  unfold seg12.sl.f_6 seg12.sl.H0_7
  refine Z_step_cov k 170 _ rfl _ _ _ ?_
  unfold seg12.sl.f_5 seg12.sl.H0_6
  refine Z_step_cov k 169 _ rfl _ _ _ ?_
  unfold seg12.sl.f_4 seg12.sl.H0_5
  refine Z_step_cov k 168 _ rfl _ _ _ ?_
  unfold seg12.sl.f_3 seg12.sl.H0_4
  refine Z_step_cov k 167 _ rfl _ _ _ ?_
  unfold seg12.sl.f_2 seg12.sl.H0_3
  refine Z_step_cov k 166 _ rfl _ _ _ ?_
  unfold seg12.sl.f_1 seg12.sl.H0_2
  refine Z_step_cov k 165 _ rfl _ _ _ ?_
  unfold seg12.sl.f seg12.sl.H0_1
  refine Z_step_cov k 164 _ rfl _ _ _ ?_
  refine Z_step_at k 163 _ rfl _ _ ?_
  exact hg

/-- Window 13 of a zeroing trip: rows 178 to 192. -/
theorem seg13 (k : Fin k0_t1_loop.trips) (g : Buf (Elt F) ((b0W).view.loc (V d (cV L) (jV L))))
    (hw : k0_chk179 (k0_pay1 lanes 0#32 1#32 k) (broadcast S16 178#32)) (hg : Z (F := F) k.val 178 g) :
    (heldB0 (F := F) d L g : sProp 𝕄)
      ⊢ (wp frame (wpE (defs₀ (F := F)) 𝒱₀ (V d (cV L) (jV L)) none) Set.univ
          (k0_part13 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 178#32) hw)
          fun r => iprop(⌜r.1 = broadcast S16 193#32⌝ ∗ ∃ g', ⌜Z (F := F) k.val 193 g'⌝ ∗ heldB0 (F := F) d L g') : sProp 𝕄) := by
  simp only [k0_part13_eq_skeleton]; unfold k0_part13_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 193 _ _ _ ?_
  unfold seg13.sl.f_13 seg13.sl.H0_14
  refine Z_step_cov k 192 _ rfl _ _ _ ?_
  unfold seg13.sl.f_12 seg13.sl.H0_13
  refine Z_step_cov k 191 _ rfl _ _ _ ?_
  unfold seg13.sl.f_11 seg13.sl.H0_12
  refine Z_step_cov k 190 _ rfl _ _ _ ?_
  unfold seg13.sl.f_10 seg13.sl.H0_11
  refine Z_step_cov k 189 _ rfl _ _ _ ?_
  unfold seg13.sl.f_9 seg13.sl.H0_10
  refine Z_step_cov k 188 _ rfl _ _ _ ?_
  unfold seg13.sl.f_8 seg13.sl.H0_9
  refine Z_step_cov k 187 _ rfl _ _ _ ?_
  unfold seg13.sl.f_7 seg13.sl.H0_8
  refine Z_step_cov k 186 _ rfl _ _ _ ?_
  unfold seg13.sl.f_6 seg13.sl.H0_7
  refine Z_step_cov k 185 _ rfl _ _ _ ?_
  unfold seg13.sl.f_5 seg13.sl.H0_6
  refine Z_step_cov k 184 _ rfl _ _ _ ?_
  unfold seg13.sl.f_4 seg13.sl.H0_5
  refine Z_step_cov k 183 _ rfl _ _ _ ?_
  unfold seg13.sl.f_3 seg13.sl.H0_4
  refine Z_step_cov k 182 _ rfl _ _ _ ?_
  unfold seg13.sl.f_2 seg13.sl.H0_3
  refine Z_step_cov k 181 _ rfl _ _ _ ?_
  unfold seg13.sl.f_1 seg13.sl.H0_2
  refine Z_step_cov k 180 _ rfl _ _ _ ?_
  unfold seg13.sl.f seg13.sl.H0_1
  refine Z_step_cov k 179 _ rfl _ _ _ ?_
  refine Z_step_at k 178 _ rfl _ _ ?_
  exact hg

end Cert.KernelIdeal.ZeroSegs

end
-- ==== Proof.ZeroTrip.lean ====
/-
  One trip of the first zeroing loop: the thirteen windows in order, then the last seven rows.

  Each window hands the next the row vector it checked last; the buffer's zeroed rows grow from 0 to 193 over the
  windows and to 200 over the remaining stores, which is the next trip's starting claim.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.ZeroFacts
import proofs.«212700_g8504035246323_cont_9to1_m_53_19_alg».proof.Proof.ZeroViews
import proofs.«212700_g8504035246323_cont_9to1_m_53_19_alg».proof.Proof.ZeroSegsA
import proofs.«212700_g8504035246323_cont_9to1_m_53_19_alg».proof.Proof.ZeroSegsB

noncomputable section

namespace Cert.KernelIdeal.ZeroTrip

open Cert.KernelIdeal.ZeroSegs
open Cert.KernelIdeal Cert.KernelIdeal.Gen Cert.KernelIdeal.Tile Cert.KernelIdeal.ZeroFacts Cert.KernelIdeal.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- One trip of the first zeroing loop: sixteen more columns of the first buffer are zero. -/
theorem zero_trip (k : Fin k0_t1_loop.trips) (g : Buf (Elt F) ((b0W).view.loc (V d (cV L) (jV L)))) (hg : Z (F := F) k.val 0 g) :
    (heldB0 (F := F) d L g : sProp 𝕄)
      ⊢ (wp frame (wpE (defs₀ (F := F)) 𝒱₀ (V d (cV L) (jV L)) none) Set.univ
          (k0_t1_body L xtW (Memref.isWhole_whole _) oW (Memref.isWhole_whole _) xvW (Memref.isWhole_whole _)
            b0W (Memref.isWhole_whole _) b1W (Memref.isWhole_whole _) cc0_scratch3 cc0_scratch4 cc0_scratch5
            lanes k ⟨⟩)
          fun _ => iprop(∃ g', ⌜Z (F := F) (k.val + 1) 0 g'⌝ ∗ heldB0 (F := F) d L g') : sProp 𝕄) := by
  unfold k0_t1_body
  rw [wp_bind]
  refine (seg1 d L k g hg).trans (wp_mono frame _ _ fun r => ?_)
  obtain ⟨v411, vr, hw⟩ := r
  iintro ⟨%hr, %g1, %hg1, H0⟩
  obtain ⟨rfl, rfl⟩ := hr
  dsimp only
  rw [wp_bind]
  iapply ((seg2 d L k g1 hw hg1).trans (wp_mono frame _ _ fun r => ?c2)) $$ H0
  case c2 =>
  obtain ⟨vr, hw⟩ := r
  iintro ⟨%hr, %g2, %hg2, H0⟩
  obtain rfl := hr
  dsimp only
  rw [wp_bind]
  iapply ((seg3 d L k g2 hw hg2).trans (wp_mono frame _ _ fun r => ?c3)) $$ H0
  case c3 =>
  obtain ⟨vr, hw⟩ := r
  iintro ⟨%hr, %g3, %hg3, H0⟩
  obtain rfl := hr
  dsimp only
  rw [wp_bind]
  iapply ((seg4 d L k g3 hw hg3).trans (wp_mono frame _ _ fun r => ?c4)) $$ H0
  case c4 =>
  obtain ⟨vr, hw⟩ := r
  iintro ⟨%hr, %g4, %hg4, H0⟩
  obtain rfl := hr
  dsimp only
  rw [wp_bind]
  iapply ((seg5 d L k g4 hw hg4).trans (wp_mono frame _ _ fun r => ?c5)) $$ H0
  case c5 =>
  obtain ⟨vr, hw⟩ := r
  iintro ⟨%hr, %g5, %hg5, H0⟩
  obtain rfl := hr
  dsimp only
  rw [wp_bind]
  iapply ((seg6 d L k g5 hw hg5).trans (wp_mono frame _ _ fun r => ?c6)) $$ H0
  case c6 =>
  obtain ⟨vr, hw⟩ := r
  iintro ⟨%hr, %g6, %hg6, H0⟩
  obtain rfl := hr
  dsimp only
  rw [wp_bind]
  iapply ((seg7 d L k g6 hw hg6).trans (wp_mono frame _ _ fun r => ?c7)) $$ H0
  case c7 =>
  obtain ⟨vr, hw⟩ := r
  iintro ⟨%hr, %g7, %hg7, H0⟩
  obtain rfl := hr
  dsimp only
  rw [wp_bind]
  iapply ((seg8 d L k g7 hw hg7).trans (wp_mono frame _ _ fun r => ?c8)) $$ H0
  case c8 =>
  obtain ⟨vr, hw⟩ := r
  iintro ⟨%hr, %g8, %hg8, H0⟩
  obtain rfl := hr
  dsimp only
  rw [wp_bind]
  iapply ((seg9 d L k g8 hw hg8).trans (wp_mono frame _ _ fun r => ?c9)) $$ H0
  case c9 =>
  obtain ⟨vr, hw⟩ := r
  iintro ⟨%hr, %g9, %hg9, H0⟩
  obtain rfl := hr
  dsimp only
  rw [wp_bind]
  iapply ((seg10 d L k g9 hw hg9).trans (wp_mono frame _ _ fun r => ?c10)) $$ H0
  case c10 =>
  obtain ⟨vr, hw⟩ := r
  iintro ⟨%hr, %g10, %hg10, H0⟩
  obtain rfl := hr
  dsimp only
  rw [wp_bind]
  iapply ((seg11 d L k g10 hw hg10).trans (wp_mono frame _ _ fun r => ?c11)) $$ H0
  case c11 =>
  obtain ⟨vr, hw⟩ := r
  iintro ⟨%hr, %g11, %hg11, H0⟩
  obtain rfl := hr
  dsimp only
  rw [wp_bind]
  iapply ((seg12 d L k g11 hw hg11).trans (wp_mono frame _ _ fun r => ?c12)) $$ H0
  case c12 =>
  obtain ⟨vr, hw⟩ := r
  iintro ⟨%hr, %g12, %hg12, H0⟩
  obtain rfl := hr
  dsimp only
  rw [wp_bind]
  iapply ((seg13 d L k g12 hw hg12).trans (wp_mono frame _ _ fun r => ?c13)) $$ H0
  case c13 =>
  obtain ⟨vr, hw⟩ := r
  iintro ⟨%hr, %g13, %hg13, H0⟩
  obtain rfl := hr
  dsimp only
  unfold SparseCore.vectorStoreIdx
  unfold heldB0
  sl_exec (disch := exact zero_chk k _ (by decide))
  sl_step
  iexists _
  isplitr
  swap
  · iexact H0
  ipureintro
  refine Z_full k.val _ ?_
  refine Z_writes k.val 200 _ _ _ ?_
  unfold zero_trip.sl.f_5 zero_trip.sl.H0_6
  refine Z_step_cov k 199 _ rfl _ _ _ ?_
  unfold zero_trip.sl.f_4 zero_trip.sl.H0_5
  refine Z_step_cov k 198 _ rfl _ _ _ ?_
  unfold zero_trip.sl.f_3 zero_trip.sl.H0_4
  refine Z_step_cov k 197 _ rfl _ _ _ ?_
  unfold zero_trip.sl.f_2 zero_trip.sl.H0_3
  refine Z_step_cov k 196 _ rfl _ _ _ ?_
  unfold zero_trip.sl.f_1 zero_trip.sl.H0_2
  refine Z_step_cov k 195 _ rfl _ _ _ ?_
  unfold zero_trip.sl.f zero_trip.sl.H0_1
  refine Z_step_cov k 194 _ rfl _ _ _ ?_
  refine Z_step_at k 193 _ rfl _ _ ?_
  exact hg13

end Cert.KernelIdeal.ZeroTrip

end
-- ==== Proof.ZeroFacts2.lean ====
/-
  Zeroing the second 200 x 256 buffer sixteen columns at a time (the second zeroing loop).

  Trip `k` of the zeroing loop stores zero through sixteen lanes at (row `c`, columns `16 k + lane`), once for each row
  `c = 0 .. 199`. After the stores for rows below `n` the buffer is zero in every column below `16 k` (earlier trips) and,
  in columns `16 k .. 16 k + 15`, in every row below `n`. One more store moves `n` up by one.
-/
import proofs.«212700_g8504035246323_cont_9to1_m_53_19_alg».proof.Proof.Gen.KernelIdeal.Skeleton
import proofs.«212700_g8504035246323_cont_9to1_m_53_19_alg».proof.Proof.LibStoreIdx

namespace Cert.KernelIdeal.ZeroFacts2

open Cert.KernelIdeal Cert.KernelIdeal.Gen Idealize.ShloMosaic Cert.Lib.StoreIdx

variable {F : FTy → Type} [FloatOps F]

/-- The lane numbers `0 .. 15`. -/
abbrev lanes : IVec S16 32 := iota .scVector S16 32 [0] iota_S16_d0_w32_scVector

theorem trips1 : k0_t2_loop.trips = 16 := by decide

/-- Lane `x` of trip `k` addresses column `16 k + x`. -/
theorem col_toNat (k : Fin k0_t2_loop.trips) (x : S16.Idx) :
    (k0_pay2 lanes 0#32 1#32 k x).toNat = 16 * k.val + (x 0).val := by
  have hk : k.val < 16 := lt_of_lt_of_eq k.isLt trips1
  have hx : (x 0).val < 16 := (x 0).isLt
  unfold k0_pay2
  simp only [addi, IntOp.addi, broadcast, Scalar.muli, IntOp.muli, Scf.iv, iota, List.foldl]
  have h16 : (16#32 : BitVec 32).toNat = 16 := rfl
  simp only [BitVec.toNat_add, BitVec.toNat_mul, BitVec.toNat_ofNat, h16, Matrix.cons_val_zero]
  omega

/-- A zeroing store's indices are in range: row `c < 200`, column `16 k + lane < 256`. -/
theorem zero_chk (k : Fin k0_t2_loop.trips) (c : BitVec 32) (hc : c.toNat < 200) (a : Fin 2) (x : S16.Idx) :
    ((![broadcast S16 c, k0_pay2 lanes 0#32 1#32 k] : Fin 2 → IVec S16 32) a x).toNat < S200x256.size a := by
  have hk : k.val < 16 := lt_of_lt_of_eq k.isLt trips1
  have hx : (x 0).val < 16 := (x 0).isLt
  match a with
  | 0 => exact hc
  | 1 =>
    show (k0_pay2 lanes 0#32 1#32 k x).toNat < 256
    rw [col_toNat]; omega

/-- Zero in the columns below `16 k`, and in rows below `n` of the next sixteen columns. -/
def Z (k n : Nat) (g : Vec F S200x256 .i32) : Prop :=
  ∀ j : S200x256.Idx, ((j 1).val < 16 * k ∨ (16 * k ≤ (j 1).val ∧ (j 1).val < 16 * k + 16 ∧ (j 0).val < n)) → g j = (0#32 : BitVec 32)

/-- The store for row `n` of trip `k` extends the zeroed rows by one. -/
theorem Z_step (k : Fin k0_t2_loop.trips) (n : Nat) (c : BitVec 32) (hc : c.toNat = n) (g : Vec F S200x256 .i32)
    (h : ∀ a x, ((![broadcast S16 c, k0_pay2 lanes 0#32 1#32 k] : Fin 2 → IVec S16 32) a x).toNat < S200x256.size a)
    (hg : Z (F := F) k.val n g) :
    Z (F := F) k.val (n + 1) (storeIdx g ![broadcast S16 c, k0_pay2 lanes 0#32 1#32 k] k0_pay260 (fun _ => 1#1) false h) := by
  intro j hj
  show storeIdx g _ (fun _ => (0#32 : BitVec 32)) (fun _ => 1#1) false h j = 0#32
  rw [storeIdx_const]
  split
  · rfl
  · rename_i hno
    apply hg
    rcases hj with hj | ⟨h1, h2, h3⟩
    · exact .inl hj
    · refine .inr ⟨h1, h2, ?_⟩
      by_contra hlt
      have hrow : (j 0).val = n := by omega
      apply hno
      refine ⟨⟨(j 1).val - 16 * k.val, (by show _ < 16; omega)⟩, fun a => ?_⟩
      match a with
      | 0 => exact hrow.trans hc.symm
      | 1 =>
        refine Eq.trans ?_ (col_toNat k _).symm
        show (j 1).val = 16 * k.val + ((j 1).val - 16 * k.val)
        omega

/-- After all 200 rows the next trip's claim holds; before the first row it is this trip's. -/
theorem Z_full (k : Nat) (g : Vec F S200x256 .i32) (hg : Z (F := F) k 200 g) : Z (F := F) (k + 1) 0 g := by
  intro j hj
  apply hg
  have hr : (j 0).val < 200 := (j 0).isLt
  rcases hj with hj | ⟨_, _, h3⟩
  · by_cases hc : (j 1).val < 16 * k
    · exact .inl hc
    · exact .inr ⟨by omega, by omega, hr⟩
  · omega

end Cert.KernelIdeal.ZeroFacts2
-- ==== Proof.ZeroViews2.lean ====
/-
  The zeroing claim read through the second buffer's list of writes.

  A store through index vectors is, on the machine, a load of the whole buffer followed by a store of the whole
  buffer. So after such a store the buffer's newest write covers it whole, and what the next one loads is that
  write's payload. The zeroing claim `Z k n` therefore passes from one payload to the next by the one-store step.
-/
import Idealize.ShloMosaic.Lib.Exec
import proofs.«212700_g8504035246323_cont_9to1_m_53_19_alg».proof.Proof.LibWholeWrites
import proofs.«212700_g8504035246323_cont_9to1_m_53_19_alg».proof.Proof.ZeroFacts2

namespace Cert.KernelIdeal.ZeroViews2

open Cert.KernelIdeal Cert.KernelIdeal.Gen Cert.KernelIdeal.ZeroFacts2 Cert.Lib.WholeWrites Idealize.ShloMosaic

variable {F : FTy → Type} [FloatOps F] [∀ e, Nonempty (Elt F e)]

/-- The contents after a newest write of the whole second buffer are that write's payload. -/
theorem Z_writes (k n : Nat) (f w : cc0_scratch2.ty.Contents (Elt F))
    (L : List (View.Piece (Elt F) cc0_scratch2.ty.shape cc0_scratch2.ty.elt)) (hw : Z (F := F) k n w) :
    Z (F := F) k n ((Memref.whole cc0_scratch2).view.writes (Elt F) f (⟨Rect.whole _, w⟩ :: L)) := by
  rw [writes_whole_cons]; exact hw

/-- A store for row `n` whose load finds a newest write of the whole buffer. -/
theorem Z_step_cov (k : Fin k0_t2_loop.trips) (n : Nat) (c : BitVec 32) (hc : c.toNat = n) (w : cc0_scratch2.ty.Contents (Elt F))
    (L : List (View.Piece (Elt F) cc0_scratch2.ty.shape cc0_scratch2.ty.elt))
    (h : ∀ a x, ((![broadcast S16 c, k0_pay2 lanes 0#32 1#32 k] : Fin 2 → IVec S16 32) a x).toNat < S200x256.size a)
    (hw : Z (F := F) k.val n w) :
    Z (F := F) k.val (n + 1)
      (storeIdx ((Memref.whole cc0_scratch2).view.readCov (⟨Rect.whole _, w⟩ :: L) (LoadRect.whole _))
        ![broadcast S16 c, k0_pay2 lanes 0#32 1#32 k] k0_pay260 (fun _ => 1#1) false h) := by
  rw [readCov_whole_cons]; exact Z_step k n c hc w h hw

/-- The first store of a window, whose load reads the buffer as the window found it. -/
theorem Z_step_at (k : Fin k0_t2_loop.trips) (n : Nat) (c : BitVec 32) (hc : c.toNat = n) (g : cc0_scratch2.ty.Contents (Elt F))
    (h : ∀ a x, ((![broadcast S16 c, k0_pay2 lanes 0#32 1#32 k] : Fin 2 → IVec S16 32) a x).toNat < S200x256.size a)
    (hg : Z (F := F) k.val n g) :
    Z (F := F) k.val (n + 1)
      (storeIdx ((Memref.whole cc0_scratch2).view.readAt (Elt F) (LoadRect.whole _) g)
        ![broadcast S16 c, k0_pay2 lanes 0#32 1#32 k] k0_pay260 (fun _ => 1#1) false h) := by
  rw [Memref.readAt_whole]; exact Z_step k n c hc g h hg

end Cert.KernelIdeal.ZeroViews2
-- ==== Proof.ZeroSegs2A.lean ====
/-
  The second zeroing loop, window by window (windows 1 to 7 of a trip): as the first loop's, on the second buffer.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.TileBase2
import proofs.«212700_g8504035246323_cont_9to1_m_53_19_alg».proof.Proof.ZeroFacts2
import proofs.«212700_g8504035246323_cont_9to1_m_53_19_alg».proof.Proof.ZeroViews2

noncomputable section

namespace Cert.KernelIdeal.ZeroSegs2

open Cert.KernelIdeal Cert.KernelIdeal.Gen Cert.KernelIdeal.Tile Cert.KernelIdeal.ZeroFacts2 Cert.KernelIdeal.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- Window 1 of a zeroing trip: rows 0 to 12 of the trip's sixteen columns. -/
theorem segb1 (k : Fin k0_t2_loop.trips) (g : Buf (Elt F) ((b1W).view.loc (V d (cV L) (jV L)))) (hg : Z (F := F) k.val 0 g) :
    (heldB1 (F := F) d L g : sProp 𝕄)
      ⊢ (wp frame (wpE (defs₀ (F := F)) 𝒱₀ (V d (cV L) (jV L)) none) Set.univ
          (k0_part14 L xtW (Memref.isWhole_whole _) oW (Memref.isWhole_whole _) xvW (Memref.isWhole_whole _)
            b0W (Memref.isWhole_whole _) b1W (Memref.isWhole_whole _) cc0_scratch3 cc0_scratch4 cc0_scratch5
            lanes k0_pay260 0#32 1#32 k)
          fun r => iprop(⌜r.1 = k0_pay2 lanes 0#32 1#32 k ∧ r.2.1 = broadcast S16 13#32⌝ ∗ ∃ g', ⌜Z (F := F) k.val 13 g'⌝ ∗ heldB1 (F := F) d L g') : sProp 𝕄) := by
  simp only [k0_part14_eq_skeleton]; unfold k0_part14_skel
  unfold SparseCore.vectorStoreIdx
  unfold heldB1
  iintro H0
  sl_exec (disch := exact zero_chk k _ (by decide))
  sl_step
  isplitr
  · ipureintro; exact ⟨rfl, rfl⟩
  iexists _
  isplitr
  swap
  · iexact H0
  ipureintro
  refine Z_writes k.val 13 _ _ _ ?_
  unfold segb1.sl.f_11 segb1.sl.H0_12
  refine Z_step_cov k 12 _ rfl _ _ _ ?_
  unfold segb1.sl.f_10 segb1.sl.H0_11
  refine Z_step_cov k 11 _ rfl _ _ _ ?_
  unfold segb1.sl.f_9 segb1.sl.H0_10
  refine Z_step_cov k 10 _ rfl _ _ _ ?_
  unfold segb1.sl.f_8 segb1.sl.H0_9
  refine Z_step_cov k 9 _ rfl _ _ _ ?_
  unfold segb1.sl.f_7 segb1.sl.H0_8
  refine Z_step_cov k 8 _ rfl _ _ _ ?_
  unfold segb1.sl.f_6 segb1.sl.H0_7
  refine Z_step_cov k 7 _ rfl _ _ _ ?_
  unfold segb1.sl.f_5 segb1.sl.H0_6
  refine Z_step_cov k 6 _ rfl _ _ _ ?_
  unfold segb1.sl.f_4 segb1.sl.H0_5
  refine Z_step_cov k 5 _ rfl _ _ _ ?_
  unfold segb1.sl.f_3 segb1.sl.H0_4
  refine Z_step_cov k 4 _ rfl _ _ _ ?_
  unfold segb1.sl.f_2 segb1.sl.H0_3
  refine Z_step_cov k 3 _ rfl _ _ _ ?_
  unfold segb1.sl.f_1 segb1.sl.H0_2
  refine Z_step_cov k 2 _ rfl _ _ _ ?_
  unfold segb1.sl.f segb1.sl.H0_1
  refine Z_step_cov k 1 _ rfl _ _ _ ?_
  refine Z_step_at k 0 _ rfl _ _ ?_
  exact hg

/-- Window 2 of a zeroing trip: rows 13 to 27. -/
theorem segb2 (k : Fin k0_t2_loop.trips) (g : Buf (Elt F) ((b1W).view.loc (V d (cV L) (jV L))))
    (hw : k0_chk246 (k0_pay2 lanes 0#32 1#32 k) (broadcast S16 13#32)) (hg : Z (F := F) k.val 13 g) :
    (heldB1 (F := F) d L g : sProp 𝕄)
      ⊢ (wp frame (wpE (defs₀ (F := F)) 𝒱₀ (V d (cV L) (jV L)) none) Set.univ
          (k0_part15 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 13#32) hw)
          fun r => iprop(⌜r.1 = broadcast S16 28#32⌝ ∗ ∃ g', ⌜Z (F := F) k.val 28 g'⌝ ∗ heldB1 (F := F) d L g') : sProp 𝕄) := by
  simp only [k0_part15_eq_skeleton]; unfold k0_part15_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 28 _ _ _ ?_
  unfold segb2.sl.f_13 segb2.sl.H0_14
  refine Z_step_cov k 27 _ rfl _ _ _ ?_
  unfold segb2.sl.f_12 segb2.sl.H0_13
  refine Z_step_cov k 26 _ rfl _ _ _ ?_
  unfold segb2.sl.f_11 segb2.sl.H0_12
  refine Z_step_cov k 25 _ rfl _ _ _ ?_
  unfold segb2.sl.f_10 segb2.sl.H0_11
  refine Z_step_cov k 24 _ rfl _ _ _ ?_
  unfold segb2.sl.f_9 segb2.sl.H0_10
  refine Z_step_cov k 23 _ rfl _ _ _ ?_
  unfold segb2.sl.f_8 segb2.sl.H0_9
  refine Z_step_cov k 22 _ rfl _ _ _ ?_
  unfold segb2.sl.f_7 segb2.sl.H0_8
  refine Z_step_cov k 21 _ rfl _ _ _ ?_
  unfold segb2.sl.f_6 segb2.sl.H0_7
  refine Z_step_cov k 20 _ rfl _ _ _ ?_
  unfold segb2.sl.f_5 segb2.sl.H0_6
  refine Z_step_cov k 19 _ rfl _ _ _ ?_
  unfold segb2.sl.f_4 segb2.sl.H0_5
  refine Z_step_cov k 18 _ rfl _ _ _ ?_
  unfold segb2.sl.f_3 segb2.sl.H0_4
  refine Z_step_cov k 17 _ rfl _ _ _ ?_
  unfold segb2.sl.f_2 segb2.sl.H0_3
  refine Z_step_cov k 16 _ rfl _ _ _ ?_
  unfold segb2.sl.f_1 segb2.sl.H0_2
  refine Z_step_cov k 15 _ rfl _ _ _ ?_
  unfold segb2.sl.f segb2.sl.H0_1
  refine Z_step_cov k 14 _ rfl _ _ _ ?_
  refine Z_step_at k 13 _ rfl _ _ ?_
  exact hg

/-- Window 3 of a zeroing trip: rows 28 to 42. -/
theorem segb3 (k : Fin k0_t2_loop.trips) (g : Buf (Elt F) ((b1W).view.loc (V d (cV L) (jV L))))
    (hw : k0_chk261 (k0_pay2 lanes 0#32 1#32 k) (broadcast S16 28#32)) (hg : Z (F := F) k.val 28 g) :
    (heldB1 (F := F) d L g : sProp 𝕄)
      ⊢ (wp frame (wpE (defs₀ (F := F)) 𝒱₀ (V d (cV L) (jV L)) none) Set.univ
          (k0_part16 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 28#32) hw)
          fun r => iprop(⌜r.1 = broadcast S16 43#32⌝ ∗ ∃ g', ⌜Z (F := F) k.val 43 g'⌝ ∗ heldB1 (F := F) d L g') : sProp 𝕄) := by
  simp only [k0_part16_eq_skeleton]; unfold k0_part16_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 43 _ _ _ ?_
  unfold segb3.sl.f_13 segb3.sl.H0_14
  refine Z_step_cov k 42 _ rfl _ _ _ ?_
  unfold segb3.sl.f_12 segb3.sl.H0_13
  refine Z_step_cov k 41 _ rfl _ _ _ ?_
  unfold segb3.sl.f_11 segb3.sl.H0_12
  refine Z_step_cov k 40 _ rfl _ _ _ ?_
  unfold segb3.sl.f_10 segb3.sl.H0_11
  refine Z_step_cov k 39 _ rfl _ _ _ ?_
  unfold segb3.sl.f_9 segb3.sl.H0_10
  refine Z_step_cov k 38 _ rfl _ _ _ ?_
  unfold segb3.sl.f_8 segb3.sl.H0_9
  refine Z_step_cov k 37 _ rfl _ _ _ ?_
  unfold segb3.sl.f_7 segb3.sl.H0_8
  refine Z_step_cov k 36 _ rfl _ _ _ ?_
  unfold segb3.sl.f_6 segb3.sl.H0_7
  refine Z_step_cov k 35 _ rfl _ _ _ ?_
  unfold segb3.sl.f_5 segb3.sl.H0_6
  refine Z_step_cov k 34 _ rfl _ _ _ ?_
  unfold segb3.sl.f_4 segb3.sl.H0_5
  refine Z_step_cov k 33 _ rfl _ _ _ ?_
  unfold segb3.sl.f_3 segb3.sl.H0_4
  refine Z_step_cov k 32 _ rfl _ _ _ ?_
  unfold segb3.sl.f_2 segb3.sl.H0_3
  refine Z_step_cov k 31 _ rfl _ _ _ ?_
  unfold segb3.sl.f_1 segb3.sl.H0_2
  refine Z_step_cov k 30 _ rfl _ _ _ ?_
  unfold segb3.sl.f segb3.sl.H0_1
  refine Z_step_cov k 29 _ rfl _ _ _ ?_
  refine Z_step_at k 28 _ rfl _ _ ?_
  exact hg

/-- Window 4 of a zeroing trip: rows 43 to 57. -/
theorem segb4 (k : Fin k0_t2_loop.trips) (g : Buf (Elt F) ((b1W).view.loc (V d (cV L) (jV L))))
    (hw : k0_chk276 (k0_pay2 lanes 0#32 1#32 k) (broadcast S16 43#32)) (hg : Z (F := F) k.val 43 g) :
    (heldB1 (F := F) d L g : sProp 𝕄)
      ⊢ (wp frame (wpE (defs₀ (F := F)) 𝒱₀ (V d (cV L) (jV L)) none) Set.univ
          (k0_part17 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 43#32) hw)
          fun r => iprop(⌜r.1 = broadcast S16 58#32⌝ ∗ ∃ g', ⌜Z (F := F) k.val 58 g'⌝ ∗ heldB1 (F := F) d L g') : sProp 𝕄) := by
  simp only [k0_part17_eq_skeleton]; unfold k0_part17_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 58 _ _ _ ?_
  unfold segb4.sl.f_13 segb4.sl.H0_14
  refine Z_step_cov k 57 _ rfl _ _ _ ?_
  unfold segb4.sl.f_12 segb4.sl.H0_13
  refine Z_step_cov k 56 _ rfl _ _ _ ?_
  unfold segb4.sl.f_11 segb4.sl.H0_12
  refine Z_step_cov k 55 _ rfl _ _ _ ?_
  unfold segb4.sl.f_10 segb4.sl.H0_11
  refine Z_step_cov k 54 _ rfl _ _ _ ?_
  unfold segb4.sl.f_9 segb4.sl.H0_10
  refine Z_step_cov k 53 _ rfl _ _ _ ?_
  unfold segb4.sl.f_8 segb4.sl.H0_9
  refine Z_step_cov k 52 _ rfl _ _ _ ?_
  unfold segb4.sl.f_7 segb4.sl.H0_8
  refine Z_step_cov k 51 _ rfl _ _ _ ?_
  unfold segb4.sl.f_6 segb4.sl.H0_7
  refine Z_step_cov k 50 _ rfl _ _ _ ?_
  unfold segb4.sl.f_5 segb4.sl.H0_6
  refine Z_step_cov k 49 _ rfl _ _ _ ?_
  unfold segb4.sl.f_4 segb4.sl.H0_5
  refine Z_step_cov k 48 _ rfl _ _ _ ?_
  unfold segb4.sl.f_3 segb4.sl.H0_4
  refine Z_step_cov k 47 _ rfl _ _ _ ?_
  unfold segb4.sl.f_2 segb4.sl.H0_3
  refine Z_step_cov k 46 _ rfl _ _ _ ?_
  unfold segb4.sl.f_1 segb4.sl.H0_2
  refine Z_step_cov k 45 _ rfl _ _ _ ?_
  unfold segb4.sl.f segb4.sl.H0_1
  refine Z_step_cov k 44 _ rfl _ _ _ ?_
  refine Z_step_at k 43 _ rfl _ _ ?_
  exact hg

/-- Window 5 of a zeroing trip: rows 58 to 72. -/
theorem segb5 (k : Fin k0_t2_loop.trips) (g : Buf (Elt F) ((b1W).view.loc (V d (cV L) (jV L))))
    (hw : k0_chk291 (k0_pay2 lanes 0#32 1#32 k) (broadcast S16 58#32)) (hg : Z (F := F) k.val 58 g) :
    (heldB1 (F := F) d L g : sProp 𝕄)
      ⊢ (wp frame (wpE (defs₀ (F := F)) 𝒱₀ (V d (cV L) (jV L)) none) Set.univ
          (k0_part18 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 58#32) hw)
          fun r => iprop(⌜r.1 = broadcast S16 73#32⌝ ∗ ∃ g', ⌜Z (F := F) k.val 73 g'⌝ ∗ heldB1 (F := F) d L g') : sProp 𝕄) := by
  simp only [k0_part18_eq_skeleton]; unfold k0_part18_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 73 _ _ _ ?_
  unfold segb5.sl.f_13 segb5.sl.H0_14
  refine Z_step_cov k 72 _ rfl _ _ _ ?_
  unfold segb5.sl.f_12 segb5.sl.H0_13
  refine Z_step_cov k 71 _ rfl _ _ _ ?_
  unfold segb5.sl.f_11 segb5.sl.H0_12
  refine Z_step_cov k 70 _ rfl _ _ _ ?_
  unfold segb5.sl.f_10 segb5.sl.H0_11
  refine Z_step_cov k 69 _ rfl _ _ _ ?_
  unfold segb5.sl.f_9 segb5.sl.H0_10
  refine Z_step_cov k 68 _ rfl _ _ _ ?_
  unfold segb5.sl.f_8 segb5.sl.H0_9
  refine Z_step_cov k 67 _ rfl _ _ _ ?_
  unfold segb5.sl.f_7 segb5.sl.H0_8
  refine Z_step_cov k 66 _ rfl _ _ _ ?_
  unfold segb5.sl.f_6 segb5.sl.H0_7
  refine Z_step_cov k 65 _ rfl _ _ _ ?_
  unfold segb5.sl.f_5 segb5.sl.H0_6
  refine Z_step_cov k 64 _ rfl _ _ _ ?_
  unfold segb5.sl.f_4 segb5.sl.H0_5
  refine Z_step_cov k 63 _ rfl _ _ _ ?_
  unfold segb5.sl.f_3 segb5.sl.H0_4
  refine Z_step_cov k 62 _ rfl _ _ _ ?_
  unfold segb5.sl.f_2 segb5.sl.H0_3
  refine Z_step_cov k 61 _ rfl _ _ _ ?_
  unfold segb5.sl.f_1 segb5.sl.H0_2
  refine Z_step_cov k 60 _ rfl _ _ _ ?_
  unfold segb5.sl.f segb5.sl.H0_1
  refine Z_step_cov k 59 _ rfl _ _ _ ?_
  refine Z_step_at k 58 _ rfl _ _ ?_
  exact hg

/-- Window 6 of a zeroing trip: rows 73 to 87. -/
theorem segb6 (k : Fin k0_t2_loop.trips) (g : Buf (Elt F) ((b1W).view.loc (V d (cV L) (jV L))))
    (hw : k0_chk306 (k0_pay2 lanes 0#32 1#32 k) (broadcast S16 73#32)) (hg : Z (F := F) k.val 73 g) :
    (heldB1 (F := F) d L g : sProp 𝕄)
      ⊢ (wp frame (wpE (defs₀ (F := F)) 𝒱₀ (V d (cV L) (jV L)) none) Set.univ
          (k0_part19 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 73#32) hw)
          fun r => iprop(⌜r.1 = broadcast S16 88#32⌝ ∗ ∃ g', ⌜Z (F := F) k.val 88 g'⌝ ∗ heldB1 (F := F) d L g') : sProp 𝕄) := by
  simp only [k0_part19_eq_skeleton]; unfold k0_part19_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 88 _ _ _ ?_
  unfold segb6.sl.f_13 segb6.sl.H0_14
  refine Z_step_cov k 87 _ rfl _ _ _ ?_
  unfold segb6.sl.f_12 segb6.sl.H0_13
  refine Z_step_cov k 86 _ rfl _ _ _ ?_
  unfold segb6.sl.f_11 segb6.sl.H0_12
  refine Z_step_cov k 85 _ rfl _ _ _ ?_
  unfold segb6.sl.f_10 segb6.sl.H0_11
  refine Z_step_cov k 84 _ rfl _ _ _ ?_
  unfold segb6.sl.f_9 segb6.sl.H0_10
  refine Z_step_cov k 83 _ rfl _ _ _ ?_
  unfold segb6.sl.f_8 segb6.sl.H0_9
  refine Z_step_cov k 82 _ rfl _ _ _ ?_
  unfold segb6.sl.f_7 segb6.sl.H0_8
  refine Z_step_cov k 81 _ rfl _ _ _ ?_
  unfold segb6.sl.f_6 segb6.sl.H0_7
  refine Z_step_cov k 80 _ rfl _ _ _ ?_
  unfold segb6.sl.f_5 segb6.sl.H0_6
  refine Z_step_cov k 79 _ rfl _ _ _ ?_
  unfold segb6.sl.f_4 segb6.sl.H0_5
  refine Z_step_cov k 78 _ rfl _ _ _ ?_
  unfold segb6.sl.f_3 segb6.sl.H0_4
  refine Z_step_cov k 77 _ rfl _ _ _ ?_
  unfold segb6.sl.f_2 segb6.sl.H0_3
  refine Z_step_cov k 76 _ rfl _ _ _ ?_
  unfold segb6.sl.f_1 segb6.sl.H0_2
  refine Z_step_cov k 75 _ rfl _ _ _ ?_
  unfold segb6.sl.f segb6.sl.H0_1
  refine Z_step_cov k 74 _ rfl _ _ _ ?_
  refine Z_step_at k 73 _ rfl _ _ ?_
  exact hg

/-- Window 7 of a zeroing trip: rows 88 to 102. -/
theorem segb7 (k : Fin k0_t2_loop.trips) (g : Buf (Elt F) ((b1W).view.loc (V d (cV L) (jV L))))
    (hw : k0_chk321 (k0_pay2 lanes 0#32 1#32 k) (broadcast S16 88#32)) (hg : Z (F := F) k.val 88 g) :
    (heldB1 (F := F) d L g : sProp 𝕄)
      ⊢ (wp frame (wpE (defs₀ (F := F)) 𝒱₀ (V d (cV L) (jV L)) none) Set.univ
          (k0_part20 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 88#32) hw)
          fun r => iprop(⌜r.1 = broadcast S16 103#32⌝ ∗ ∃ g', ⌜Z (F := F) k.val 103 g'⌝ ∗ heldB1 (F := F) d L g') : sProp 𝕄) := by
  simp only [k0_part20_eq_skeleton]; unfold k0_part20_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 103 _ _ _ ?_
  unfold segb7.sl.f_13 segb7.sl.H0_14
  refine Z_step_cov k 102 _ rfl _ _ _ ?_
  unfold segb7.sl.f_12 segb7.sl.H0_13
  refine Z_step_cov k 101 _ rfl _ _ _ ?_
  unfold segb7.sl.f_11 segb7.sl.H0_12
  refine Z_step_cov k 100 _ rfl _ _ _ ?_
  unfold segb7.sl.f_10 segb7.sl.H0_11
  refine Z_step_cov k 99 _ rfl _ _ _ ?_
  unfold segb7.sl.f_9 segb7.sl.H0_10
  refine Z_step_cov k 98 _ rfl _ _ _ ?_
  unfold segb7.sl.f_8 segb7.sl.H0_9
  refine Z_step_cov k 97 _ rfl _ _ _ ?_
  unfold segb7.sl.f_7 segb7.sl.H0_8
  refine Z_step_cov k 96 _ rfl _ _ _ ?_
  unfold segb7.sl.f_6 segb7.sl.H0_7
  refine Z_step_cov k 95 _ rfl _ _ _ ?_
  unfold segb7.sl.f_5 segb7.sl.H0_6
  refine Z_step_cov k 94 _ rfl _ _ _ ?_
  unfold segb7.sl.f_4 segb7.sl.H0_5
  refine Z_step_cov k 93 _ rfl _ _ _ ?_
  unfold segb7.sl.f_3 segb7.sl.H0_4
  refine Z_step_cov k 92 _ rfl _ _ _ ?_
  unfold segb7.sl.f_2 segb7.sl.H0_3
  refine Z_step_cov k 91 _ rfl _ _ _ ?_
  unfold segb7.sl.f_1 segb7.sl.H0_2
  refine Z_step_cov k 90 _ rfl _ _ _ ?_
  unfold segb7.sl.f segb7.sl.H0_1
  refine Z_step_cov k 89 _ rfl _ _ _ ?_
  refine Z_step_at k 88 _ rfl _ _ ?_
  exact hg

end Cert.KernelIdeal.ZeroSegs2

end
-- ==== Proof.ZeroSegs2B.lean ====
/-
  The second zeroing loop, window by window (windows 8 to 13 of a trip): as the first loop's, on the second buffer.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.TileBase2
import proofs.«212700_g8504035246323_cont_9to1_m_53_19_alg».proof.Proof.ZeroFacts2
import proofs.«212700_g8504035246323_cont_9to1_m_53_19_alg».proof.Proof.ZeroViews2

noncomputable section

namespace Cert.KernelIdeal.ZeroSegs2

open Cert.KernelIdeal Cert.KernelIdeal.Gen Cert.KernelIdeal.Tile Cert.KernelIdeal.ZeroFacts2 Cert.KernelIdeal.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- Window 8 of a zeroing trip: rows 103 to 117. -/
theorem segb8 (k : Fin k0_t2_loop.trips) (g : Buf (Elt F) ((b1W).view.loc (V d (cV L) (jV L))))
    (hw : k0_chk336 (k0_pay2 lanes 0#32 1#32 k) (broadcast S16 103#32)) (hg : Z (F := F) k.val 103 g) :
    (heldB1 (F := F) d L g : sProp 𝕄)
      ⊢ (wp frame (wpE (defs₀ (F := F)) 𝒱₀ (V d (cV L) (jV L)) none) Set.univ
          (k0_part21 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 103#32) hw)
          fun r => iprop(⌜r.1 = broadcast S16 118#32⌝ ∗ ∃ g', ⌜Z (F := F) k.val 118 g'⌝ ∗ heldB1 (F := F) d L g') : sProp 𝕄) := by
  simp only [k0_part21_eq_skeleton]; unfold k0_part21_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 118 _ _ _ ?_
  unfold segb8.sl.f_13 segb8.sl.H0_14
  refine Z_step_cov k 117 _ rfl _ _ _ ?_
  unfold segb8.sl.f_12 segb8.sl.H0_13
  refine Z_step_cov k 116 _ rfl _ _ _ ?_
  unfold segb8.sl.f_11 segb8.sl.H0_12
  refine Z_step_cov k 115 _ rfl _ _ _ ?_
  unfold segb8.sl.f_10 segb8.sl.H0_11
  refine Z_step_cov k 114 _ rfl _ _ _ ?_
  unfold segb8.sl.f_9 segb8.sl.H0_10
  refine Z_step_cov k 113 _ rfl _ _ _ ?_
  unfold segb8.sl.f_8 segb8.sl.H0_9
  refine Z_step_cov k 112 _ rfl _ _ _ ?_
  unfold segb8.sl.f_7 segb8.sl.H0_8
  refine Z_step_cov k 111 _ rfl _ _ _ ?_
  unfold segb8.sl.f_6 segb8.sl.H0_7
  refine Z_step_cov k 110 _ rfl _ _ _ ?_
  unfold segb8.sl.f_5 segb8.sl.H0_6
  refine Z_step_cov k 109 _ rfl _ _ _ ?_
  unfold segb8.sl.f_4 segb8.sl.H0_5
  refine Z_step_cov k 108 _ rfl _ _ _ ?_
  unfold segb8.sl.f_3 segb8.sl.H0_4
  refine Z_step_cov k 107 _ rfl _ _ _ ?_
  unfold segb8.sl.f_2 segb8.sl.H0_3
  refine Z_step_cov k 106 _ rfl _ _ _ ?_
  unfold segb8.sl.f_1 segb8.sl.H0_2
  refine Z_step_cov k 105 _ rfl _ _ _ ?_
  unfold segb8.sl.f segb8.sl.H0_1
  refine Z_step_cov k 104 _ rfl _ _ _ ?_
  refine Z_step_at k 103 _ rfl _ _ ?_
  exact hg

/-- Window 9 of a zeroing trip: rows 118 to 132. -/
theorem segb9 (k : Fin k0_t2_loop.trips) (g : Buf (Elt F) ((b1W).view.loc (V d (cV L) (jV L))))
    (hw : k0_chk351 (k0_pay2 lanes 0#32 1#32 k) (broadcast S16 118#32)) (hg : Z (F := F) k.val 118 g) :
    (heldB1 (F := F) d L g : sProp 𝕄)
      ⊢ (wp frame (wpE (defs₀ (F := F)) 𝒱₀ (V d (cV L) (jV L)) none) Set.univ
          (k0_part22 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 118#32) hw)
          fun r => iprop(⌜r.1 = broadcast S16 133#32⌝ ∗ ∃ g', ⌜Z (F := F) k.val 133 g'⌝ ∗ heldB1 (F := F) d L g') : sProp 𝕄) := by
  simp only [k0_part22_eq_skeleton]; unfold k0_part22_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 133 _ _ _ ?_
  unfold segb9.sl.f_13 segb9.sl.H0_14
  refine Z_step_cov k 132 _ rfl _ _ _ ?_
  unfold segb9.sl.f_12 segb9.sl.H0_13
  refine Z_step_cov k 131 _ rfl _ _ _ ?_
  unfold segb9.sl.f_11 segb9.sl.H0_12
  refine Z_step_cov k 130 _ rfl _ _ _ ?_
  unfold segb9.sl.f_10 segb9.sl.H0_11
  refine Z_step_cov k 129 _ rfl _ _ _ ?_
  unfold segb9.sl.f_9 segb9.sl.H0_10
  refine Z_step_cov k 128 _ rfl _ _ _ ?_
  unfold segb9.sl.f_8 segb9.sl.H0_9
  refine Z_step_cov k 127 _ rfl _ _ _ ?_
  unfold segb9.sl.f_7 segb9.sl.H0_8
  refine Z_step_cov k 126 _ rfl _ _ _ ?_
  unfold segb9.sl.f_6 segb9.sl.H0_7
  refine Z_step_cov k 125 _ rfl _ _ _ ?_
  unfold segb9.sl.f_5 segb9.sl.H0_6
  refine Z_step_cov k 124 _ rfl _ _ _ ?_
  unfold segb9.sl.f_4 segb9.sl.H0_5
  refine Z_step_cov k 123 _ rfl _ _ _ ?_
  unfold segb9.sl.f_3 segb9.sl.H0_4
  refine Z_step_cov k 122 _ rfl _ _ _ ?_
  unfold segb9.sl.f_2 segb9.sl.H0_3
  refine Z_step_cov k 121 _ rfl _ _ _ ?_
  unfold segb9.sl.f_1 segb9.sl.H0_2
  refine Z_step_cov k 120 _ rfl _ _ _ ?_
  unfold segb9.sl.f segb9.sl.H0_1
  refine Z_step_cov k 119 _ rfl _ _ _ ?_
  refine Z_step_at k 118 _ rfl _ _ ?_
  exact hg

/-- Window 10 of a zeroing trip: rows 133 to 147. -/
theorem segb10 (k : Fin k0_t2_loop.trips) (g : Buf (Elt F) ((b1W).view.loc (V d (cV L) (jV L))))
    (hw : k0_chk366 (k0_pay2 lanes 0#32 1#32 k) (broadcast S16 133#32)) (hg : Z (F := F) k.val 133 g) :
    (heldB1 (F := F) d L g : sProp 𝕄)
      ⊢ (wp frame (wpE (defs₀ (F := F)) 𝒱₀ (V d (cV L) (jV L)) none) Set.univ
          (k0_part23 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 133#32) hw)
          fun r => iprop(⌜r.1 = broadcast S16 148#32⌝ ∗ ∃ g', ⌜Z (F := F) k.val 148 g'⌝ ∗ heldB1 (F := F) d L g') : sProp 𝕄) := by
  simp only [k0_part23_eq_skeleton]; unfold k0_part23_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 148 _ _ _ ?_
  unfold segb10.sl.f_13 segb10.sl.H0_14
  refine Z_step_cov k 147 _ rfl _ _ _ ?_
  unfold segb10.sl.f_12 segb10.sl.H0_13
  refine Z_step_cov k 146 _ rfl _ _ _ ?_
  unfold segb10.sl.f_11 segb10.sl.H0_12
  refine Z_step_cov k 145 _ rfl _ _ _ ?_
  unfold segb10.sl.f_10 segb10.sl.H0_11
  refine Z_step_cov k 144 _ rfl _ _ _ ?_
  unfold segb10.sl.f_9 segb10.sl.H0_10
  refine Z_step_cov k 143 _ rfl _ _ _ ?_
  unfold segb10.sl.f_8 segb10.sl.H0_9
  refine Z_step_cov k 142 _ rfl _ _ _ ?_
  unfold segb10.sl.f_7 segb10.sl.H0_8
  refine Z_step_cov k 141 _ rfl _ _ _ ?_
  unfold segb10.sl.f_6 segb10.sl.H0_7
  refine Z_step_cov k 140 _ rfl _ _ _ ?_
  unfold segb10.sl.f_5 segb10.sl.H0_6
  refine Z_step_cov k 139 _ rfl _ _ _ ?_
  unfold segb10.sl.f_4 segb10.sl.H0_5
  refine Z_step_cov k 138 _ rfl _ _ _ ?_
  unfold segb10.sl.f_3 segb10.sl.H0_4
  refine Z_step_cov k 137 _ rfl _ _ _ ?_
  unfold segb10.sl.f_2 segb10.sl.H0_3
  refine Z_step_cov k 136 _ rfl _ _ _ ?_
  unfold segb10.sl.f_1 segb10.sl.H0_2
  refine Z_step_cov k 135 _ rfl _ _ _ ?_
  unfold segb10.sl.f segb10.sl.H0_1
  refine Z_step_cov k 134 _ rfl _ _ _ ?_
  refine Z_step_at k 133 _ rfl _ _ ?_
  exact hg

/-- Window 11 of a zeroing trip: rows 148 to 162. -/
theorem segb11 (k : Fin k0_t2_loop.trips) (g : Buf (Elt F) ((b1W).view.loc (V d (cV L) (jV L))))
    (hw : k0_chk381 (k0_pay2 lanes 0#32 1#32 k) (broadcast S16 148#32)) (hg : Z (F := F) k.val 148 g) :
    (heldB1 (F := F) d L g : sProp 𝕄)
      ⊢ (wp frame (wpE (defs₀ (F := F)) 𝒱₀ (V d (cV L) (jV L)) none) Set.univ
          (k0_part24 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 148#32) hw)
          fun r => iprop(⌜r.1 = broadcast S16 163#32⌝ ∗ ∃ g', ⌜Z (F := F) k.val 163 g'⌝ ∗ heldB1 (F := F) d L g') : sProp 𝕄) := by
  simp only [k0_part24_eq_skeleton]; unfold k0_part24_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 163 _ _ _ ?_
  unfold segb11.sl.f_13 segb11.sl.H0_14
  refine Z_step_cov k 162 _ rfl _ _ _ ?_
  unfold segb11.sl.f_12 segb11.sl.H0_13
  refine Z_step_cov k 161 _ rfl _ _ _ ?_
  unfold segb11.sl.f_11 segb11.sl.H0_12
  refine Z_step_cov k 160 _ rfl _ _ _ ?_
  unfold segb11.sl.f_10 segb11.sl.H0_11
  refine Z_step_cov k 159 _ rfl _ _ _ ?_
  unfold segb11.sl.f_9 segb11.sl.H0_10
  refine Z_step_cov k 158 _ rfl _ _ _ ?_
  unfold segb11.sl.f_8 segb11.sl.H0_9
  refine Z_step_cov k 157 _ rfl _ _ _ ?_
  unfold segb11.sl.f_7 segb11.sl.H0_8
  refine Z_step_cov k 156 _ rfl _ _ _ ?_
  unfold segb11.sl.f_6 segb11.sl.H0_7
  refine Z_step_cov k 155 _ rfl _ _ _ ?_
  unfold segb11.sl.f_5 segb11.sl.H0_6
  refine Z_step_cov k 154 _ rfl _ _ _ ?_
  unfold segb11.sl.f_4 segb11.sl.H0_5
  refine Z_step_cov k 153 _ rfl _ _ _ ?_
  unfold segb11.sl.f_3 segb11.sl.H0_4
  refine Z_step_cov k 152 _ rfl _ _ _ ?_
  unfold segb11.sl.f_2 segb11.sl.H0_3
  refine Z_step_cov k 151 _ rfl _ _ _ ?_
  unfold segb11.sl.f_1 segb11.sl.H0_2
  refine Z_step_cov k 150 _ rfl _ _ _ ?_
  unfold segb11.sl.f segb11.sl.H0_1
  refine Z_step_cov k 149 _ rfl _ _ _ ?_
  refine Z_step_at k 148 _ rfl _ _ ?_
  exact hg

/-- Window 12 of a zeroing trip: rows 163 to 177. -/
theorem segb12 (k : Fin k0_t2_loop.trips) (g : Buf (Elt F) ((b1W).view.loc (V d (cV L) (jV L))))
    (hw : k0_chk396 (k0_pay2 lanes 0#32 1#32 k) (broadcast S16 163#32)) (hg : Z (F := F) k.val 163 g) :
    (heldB1 (F := F) d L g : sProp 𝕄)
      ⊢ (wp frame (wpE (defs₀ (F := F)) 𝒱₀ (V d (cV L) (jV L)) none) Set.univ
          (k0_part25 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 163#32) hw)
          fun r => iprop(⌜r.1 = broadcast S16 178#32⌝ ∗ ∃ g', ⌜Z (F := F) k.val 178 g'⌝ ∗ heldB1 (F := F) d L g') : sProp 𝕄) := by
  simp only [k0_part25_eq_skeleton]; unfold k0_part25_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 178 _ _ _ ?_
  unfold segb12.sl.f_13 segb12.sl.H0_14
  refine Z_step_cov k 177 _ rfl _ _ _ ?_
  unfold segb12.sl.f_12 segb12.sl.H0_13
  refine Z_step_cov k 176 _ rfl _ _ _ ?_
  unfold segb12.sl.f_11 segb12.sl.H0_12
  refine Z_step_cov k 175 _ rfl _ _ _ ?_
  unfold segb12.sl.f_10 segb12.sl.H0_11
  refine Z_step_cov k 174 _ rfl _ _ _ ?_
  unfold segb12.sl.f_9 segb12.sl.H0_10
  refine Z_step_cov k 173 _ rfl _ _ _ ?_
  unfold segb12.sl.f_8 segb12.sl.H0_9
  refine Z_step_cov k 172 _ rfl _ _ _ ?_
  unfold segb12.sl.f_7 segb12.sl.H0_8
  refine Z_step_cov k 171 _ rfl _ _ _ ?_
  unfold segb12.sl.f_6 segb12.sl.H0_7
  refine Z_step_cov k 170 _ rfl _ _ _ ?_
  unfold segb12.sl.f_5 segb12.sl.H0_6
  refine Z_step_cov k 169 _ rfl _ _ _ ?_
  unfold segb12.sl.f_4 segb12.sl.H0_5
  refine Z_step_cov k 168 _ rfl _ _ _ ?_
  unfold segb12.sl.f_3 segb12.sl.H0_4
  refine Z_step_cov k 167 _ rfl _ _ _ ?_
  unfold segb12.sl.f_2 segb12.sl.H0_3
  refine Z_step_cov k 166 _ rfl _ _ _ ?_
  unfold segb12.sl.f_1 segb12.sl.H0_2
  refine Z_step_cov k 165 _ rfl _ _ _ ?_
  unfold segb12.sl.f segb12.sl.H0_1
  refine Z_step_cov k 164 _ rfl _ _ _ ?_
  refine Z_step_at k 163 _ rfl _ _ ?_
  exact hg

/-- Window 13 of a zeroing trip: rows 178 to 192. -/
theorem segb13 (k : Fin k0_t2_loop.trips) (g : Buf (Elt F) ((b1W).view.loc (V d (cV L) (jV L))))
    (hw : k0_chk411 (k0_pay2 lanes 0#32 1#32 k) (broadcast S16 178#32)) (hg : Z (F := F) k.val 178 g) :
    (heldB1 (F := F) d L g : sProp 𝕄)
      ⊢ (wp frame (wpE (defs₀ (F := F)) 𝒱₀ (V d (cV L) (jV L)) none) Set.univ
          (k0_part26 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 178#32) hw)
          fun r => iprop(⌜r.1 = broadcast S16 193#32⌝ ∗ ∃ g', ⌜Z (F := F) k.val 193 g'⌝ ∗ heldB1 (F := F) d L g') : sProp 𝕄) := by
  simp only [k0_part26_eq_skeleton]; unfold k0_part26_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 193 _ _ _ ?_
  unfold segb13.sl.f_13 segb13.sl.H0_14
  refine Z_step_cov k 192 _ rfl _ _ _ ?_
  unfold segb13.sl.f_12 segb13.sl.H0_13
  refine Z_step_cov k 191 _ rfl _ _ _ ?_
  unfold segb13.sl.f_11 segb13.sl.H0_12
  refine Z_step_cov k 190 _ rfl _ _ _ ?_
  unfold segb13.sl.f_10 segb13.sl.H0_11
  refine Z_step_cov k 189 _ rfl _ _ _ ?_
  unfold segb13.sl.f_9 segb13.sl.H0_10
  refine Z_step_cov k 188 _ rfl _ _ _ ?_
  unfold segb13.sl.f_8 segb13.sl.H0_9
  refine Z_step_cov k 187 _ rfl _ _ _ ?_
  unfold segb13.sl.f_7 segb13.sl.H0_8
  refine Z_step_cov k 186 _ rfl _ _ _ ?_
  unfold segb13.sl.f_6 segb13.sl.H0_7
  refine Z_step_cov k 185 _ rfl _ _ _ ?_
  unfold segb13.sl.f_5 segb13.sl.H0_6
  refine Z_step_cov k 184 _ rfl _ _ _ ?_
  unfold segb13.sl.f_4 segb13.sl.H0_5
  refine Z_step_cov k 183 _ rfl _ _ _ ?_
  unfold segb13.sl.f_3 segb13.sl.H0_4
  refine Z_step_cov k 182 _ rfl _ _ _ ?_
  unfold segb13.sl.f_2 segb13.sl.H0_3
  refine Z_step_cov k 181 _ rfl _ _ _ ?_
  unfold segb13.sl.f_1 segb13.sl.H0_2
  refine Z_step_cov k 180 _ rfl _ _ _ ?_
  unfold segb13.sl.f segb13.sl.H0_1
  refine Z_step_cov k 179 _ rfl _ _ _ ?_
  refine Z_step_at k 178 _ rfl _ _ ?_
  exact hg

end Cert.KernelIdeal.ZeroSegs2

end
-- ==== Proof.ZeroTrip2.lean ====
/-
  One trip of the second zeroing loop: the thirteen windows in order, then the last seven rows.

  Each window hands the next the row vector it checked last; the buffer's zeroed rows grow from 0 to 193 over the
  windows and to 200 over the remaining stores, which is the next trip's starting claim.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.TileBase2
import proofs.«212700_g8504035246323_cont_9to1_m_53_19_alg».proof.Proof.ZeroFacts2
import proofs.«212700_g8504035246323_cont_9to1_m_53_19_alg».proof.Proof.ZeroViews2
import proofs.«212700_g8504035246323_cont_9to1_m_53_19_alg».proof.Proof.ZeroSegs2A
import proofs.«212700_g8504035246323_cont_9to1_m_53_19_alg».proof.Proof.ZeroSegs2B

noncomputable section

namespace Cert.KernelIdeal.ZeroTrip2

open Cert.KernelIdeal.ZeroSegs2
open Cert.KernelIdeal Cert.KernelIdeal.Gen Cert.KernelIdeal.Tile Cert.KernelIdeal.ZeroFacts2 Cert.KernelIdeal.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- One trip of the second zeroing loop: sixteen more columns of the second buffer are zero. -/
theorem zero_trip2 (v3 : IVec S16 32) (v5 c1 : BitVec 32) (k : Fin k0_t2_loop.trips) (g : Buf (Elt F) ((b1W).view.loc (V d (cV L) (jV L)))) (hg : Z (F := F) k.val 0 g) :
    (heldB1 (F := F) d L g : sProp 𝕄)
      ⊢ (wp frame (wpE (defs₀ (F := F)) 𝒱₀ (V d (cV L) (jV L)) none) Set.univ
          (k0_t2_body L xtW (Memref.isWhole_whole _) oW (Memref.isWhole_whole _) xvW (Memref.isWhole_whole _)
            b0W (Memref.isWhole_whole _) b1W (Memref.isWhole_whole _) cc0_scratch3 cc0_scratch4 cc0_scratch5
            lanes v3 k0_pay260 v5 c1 k ⟨⟩)
          fun _ => iprop(∃ g', ⌜Z (F := F) (k.val + 1) 0 g'⌝ ∗ heldB1 (F := F) d L g') : sProp 𝕄) := by
  unfold k0_t2_body
  rw [wp_bind]
  refine (segb1 d L k g hg).trans (wp_mono frame _ _ fun r => ?_)
  obtain ⟨v411, vr, hw⟩ := r
  iintro ⟨%hr, %g1, %hg1, H0⟩
  obtain ⟨rfl, rfl⟩ := hr
  dsimp only
  rw [wp_bind]
  iapply ((segb2 d L k g1 hw hg1).trans (wp_mono frame _ _ fun r => ?c2)) $$ H0
  case c2 =>
  obtain ⟨vr, hw⟩ := r
  iintro ⟨%hr, %g2, %hg2, H0⟩
  obtain rfl := hr
  dsimp only
  rw [wp_bind]
  iapply ((segb3 d L k g2 hw hg2).trans (wp_mono frame _ _ fun r => ?c3)) $$ H0
  case c3 =>
  obtain ⟨vr, hw⟩ := r
  iintro ⟨%hr, %g3, %hg3, H0⟩
  obtain rfl := hr
  dsimp only
  rw [wp_bind]
  iapply ((segb4 d L k g3 hw hg3).trans (wp_mono frame _ _ fun r => ?c4)) $$ H0
  case c4 =>
  obtain ⟨vr, hw⟩ := r
  iintro ⟨%hr, %g4, %hg4, H0⟩
  obtain rfl := hr
  dsimp only
  rw [wp_bind]
  iapply ((segb5 d L k g4 hw hg4).trans (wp_mono frame _ _ fun r => ?c5)) $$ H0
  case c5 =>
  obtain ⟨vr, hw⟩ := r
  iintro ⟨%hr, %g5, %hg5, H0⟩
  obtain rfl := hr
  dsimp only
  rw [wp_bind]
  iapply ((segb6 d L k g5 hw hg5).trans (wp_mono frame _ _ fun r => ?c6)) $$ H0
  case c6 =>
  obtain ⟨vr, hw⟩ := r
  iintro ⟨%hr, %g6, %hg6, H0⟩
  obtain rfl := hr
  dsimp only
  rw [wp_bind]
  iapply ((segb7 d L k g6 hw hg6).trans (wp_mono frame _ _ fun r => ?c7)) $$ H0
  case c7 =>
  obtain ⟨vr, hw⟩ := r
  iintro ⟨%hr, %g7, %hg7, H0⟩
  obtain rfl := hr
  dsimp only
  rw [wp_bind]
  iapply ((segb8 d L k g7 hw hg7).trans (wp_mono frame _ _ fun r => ?c8)) $$ H0
  case c8 =>
  obtain ⟨vr, hw⟩ := r
  iintro ⟨%hr, %g8, %hg8, H0⟩
  obtain rfl := hr
  dsimp only
  rw [wp_bind]
  iapply ((segb9 d L k g8 hw hg8).trans (wp_mono frame _ _ fun r => ?c9)) $$ H0
  case c9 =>
  obtain ⟨vr, hw⟩ := r
  iintro ⟨%hr, %g9, %hg9, H0⟩
  obtain rfl := hr
  dsimp only
  rw [wp_bind]
  iapply ((segb10 d L k g9 hw hg9).trans (wp_mono frame _ _ fun r => ?c10)) $$ H0
  case c10 =>
  obtain ⟨vr, hw⟩ := r
  iintro ⟨%hr, %g10, %hg10, H0⟩
  obtain rfl := hr
  dsimp only
  rw [wp_bind]
  iapply ((segb11 d L k g10 hw hg10).trans (wp_mono frame _ _ fun r => ?c11)) $$ H0
  case c11 =>
  obtain ⟨vr, hw⟩ := r
  iintro ⟨%hr, %g11, %hg11, H0⟩
  obtain rfl := hr
  dsimp only
  rw [wp_bind]
  iapply ((segb12 d L k g11 hw hg11).trans (wp_mono frame _ _ fun r => ?c12)) $$ H0
  case c12 =>
  obtain ⟨vr, hw⟩ := r
  iintro ⟨%hr, %g12, %hg12, H0⟩
  obtain rfl := hr
  dsimp only
  rw [wp_bind]
  iapply ((segb13 d L k g12 hw hg12).trans (wp_mono frame _ _ fun r => ?c13)) $$ H0
  case c13 =>
  obtain ⟨vr, hw⟩ := r
  iintro ⟨%hr, %g13, %hg13, H0⟩
  obtain rfl := hr
  dsimp only
  unfold SparseCore.vectorStoreIdx
  unfold heldB1
  sl_exec (disch := exact zero_chk k _ (by decide))
  sl_step
  iexists _
  isplitr
  swap
  · iexact H0
  ipureintro
  refine Z_full k.val _ ?_
  refine Z_writes k.val 200 _ _ _ ?_
  unfold zero_trip2.sl.f_5 zero_trip2.sl.H0_6
  refine Z_step_cov k 199 _ rfl _ _ _ ?_
  unfold zero_trip2.sl.f_4 zero_trip2.sl.H0_5
  refine Z_step_cov k 198 _ rfl _ _ _ ?_
  unfold zero_trip2.sl.f_3 zero_trip2.sl.H0_4
  refine Z_step_cov k 197 _ rfl _ _ _ ?_
  unfold zero_trip2.sl.f_2 zero_trip2.sl.H0_3
  refine Z_step_cov k 196 _ rfl _ _ _ ?_
  unfold zero_trip2.sl.f_1 zero_trip2.sl.H0_2
  refine Z_step_cov k 195 _ rfl _ _ _ ?_
  unfold zero_trip2.sl.f zero_trip2.sl.H0_1
  refine Z_step_cov k 194 _ rfl _ _ _ ?_
  refine Z_step_at k 193 _ rfl _ _ ?_
  exact hg13

end Cert.KernelIdeal.ZeroTrip2

end
-- ==== Proof.XvFacts.lean ====
/-
  The table as the tile fetched it, and the range of a scatter's indices.

  The tile's copy of the table is the slab of the transposed table it was handed: 26 rows, its 512 columns. Its entries
  are class numbers below 100, so a scatter's row index (an entry, plus 0 or 100) stays below 200, and its column index
  (a multiple of sixteen up to 240, plus a lane) stays below 256.
-/
import proofs.«212700_g8504035246323_cont_9to1_m_53_19_alg».proof.Proof.TileBase
import proofs.«212700_g8504035246323_cont_9to1_m_53_19_alg».proof.Proof.ZeroFacts

noncomputable section

namespace Cert.KernelIdeal.XvFacts

open Cert.KernelIdeal Cert.KernelIdeal.Gen Cert.KernelIdeal.Tile Cert.KernelIdeal.ZeroFacts Idealize.ShloMosaic

variable {F : FTy → Type} [FloatOps F]

/-- The tile's slab of the transposed table, as the copy reads it. -/
def slabRead (L : grid0.Coords) (fx : Vec F S26x16384 .i32) : Vec F S26x512 .i32 :=
  ReadAs.same.apply (View.read (Elt F)
    ((Memref.whole main_v0_scv : Memref sig .scVector .hbm S26x16384 .i32).slice (Rect.unit (s := S26x16384) (k0_off1 L) S26x512.size (k0_off1_inb L)) (fun _ => rfl)).view fx)

/-- The tile's copy of the table once the fetch has landed. -/
def xvC (L : grid0.Coords) (fx : Vec F S26x16384 .i32) (fv : Vec F S26x512 .i32) : Vec F S26x512 .i32 :=
  View.write (Elt F) (Memref.whole cc0_scratch0 : Memref sig .scVector .vmem S26x512 .i32).view fv (slabRead L fx) Finset.univ

theorem xvC_eq (L : grid0.Coords) (fx : Vec F S26x16384 .i32) (fv : Vec F S26x512 .i32) : xvC L fx fv = slabRead L fx :=
  View.write_whole_univ cc0_scratch0 fv (slabRead L fx)

/-- Every entry of the fetched table is an entry of the transposed table. -/
theorem xvC_lt (L : grid0.Coords) (fx : Vec F S26x16384 .i32) (fv : Vec F S26x512 .i32) (hfx : ∀ i, (fx i : BitVec 32).toNat < 100)
    (i : S26x512.Idx) : (xvC L fx fv i : BitVec 32).toNat < 100 := by
  rw [xvC_eq]; exact hfx _

/-- A scatter's indices are in range: an entry below 100 plus 0 or 100, and a lane of a sixteen-column block. -/
theorem scat_chk (ld : IVec S1x16 32) (hld : ∀ y, (ld y).toNat < 100) (half base : BitVec 32) (hh : half.toNat ≤ 100) (hb : base.toNat ≤ 240)
    (hs : S1x16.ShapeCasts S16) (a : Fin 2) (x : S16.Idx) :
    ((![addi (shapeCast S16 ld hs) (broadcast S16 half), addi (broadcast S16 base) lanes] : Fin 2 → IVec S16 32) a x).toNat < S200x256.size a := by
  have hx : (x 0).val < 16 := (x 0).isLt
  match a with
  | 0 =>
    show (addi (shapeCast S16 ld hs) (broadcast S16 half) x).toNat < 200
    have h1 : (shapeCast S16 ld hs x).toNat < 100 := hld _
    simp only [addi, IntOp.addi, broadcast, BitVec.toNat_add]
    omega
  | 1 =>
    show (addi (broadcast S16 base) lanes x).toNat < 256
    simp only [addi, IntOp.addi, broadcast, iota, List.foldl, BitVec.toNat_add, BitVec.toNat_ofNat, Matrix.cons_val_zero]
    omega

end Cert.KernelIdeal.XvFacts

end
-- ==== Proof.ScatterFacts.lean ====
/-
  A scatter of ones into a 200 x 256 buffer, and its undoing.

  A table `xv` of 26 rows and 512 columns holds class numbers below 100. A chunk is fixed by two table rows `c0`, `c1`
  and a column base `hb` with `hb + 256 ≤ 512`. It is written by 32 stores through index vectors: store `s`, with
  half `s / 16` and column block `s % 16`, has sixteen lanes, and lane `l` names the buffer entry in

      row     xv[c_(s / 16), hb + 16 (s % 16) + l] + 100 (s / 16),
      column  16 (s % 16) + l,

  where c_0 = c0 and c_1 = c1. `hit s j` says that store `s` names the entry `j`. Storing 1 through the stores
  `0 .. n - 1` onto the zero buffer leaves 1 exactly at the entries some store below `n` names (`OH`). Storing 0 through
  the same stores afterwards erases them again: after the stores `0 .. n - 1` of zeros, 1 stands exactly at the entries
  the stores `n .. 31` name (`UN`). That the erasure of store `n` takes nothing away from a later store rests on
  `hit_unique`: an entry is named by at most one store — different column blocks are different columns, and within one
  column block half 0 writes a row below 100 and half 1 a row from 100 up.
-/
import Idealize.ShloMosaic.PureOps
import Idealize.ShloMosaic.Lib.ValueIdx
import proofs.«212700_g8504035246323_cont_9to1_m_53_19_alg».proof.Proof.LibStoreIdx

namespace Cert.ScatterFacts

open Idealize.ShloMosaic Cert.Lib.StoreIdx

abbrev S26x512 : Shape := ⟨2, ![26, 512]⟩
abbrev S200x256 : Shape := ⟨2, ![200, 256]⟩
abbrev S16 : Shape := ⟨1, ![16]⟩

/-- Store `s` of the chunk writes entry `j`: the column of `j` lies in the store's block of sixteen columns, and the row
    of `j` is the class number the table holds for that column (in row `c0` for the first sixteen stores, `c1` for the last
    sixteen), moved up by 100 for the second half. -/
def hit (xv : IVec S26x512 32) (c0 c1 : Fin 26) (hb : Nat) (s : Nat) (j : S200x256.Idx) : Prop :=
  (j 1).val / 16 = s % 16 ∧ ∃ h : hb + (j 1).val < 512,
    (j 0).val = (xv (ValueIdx.ix2 (if s < 16 then c0 else c1) ⟨hb + (j 1).val, h⟩)).toNat + 100 * (s / 16)

open Classical in
/-- After the first `n` stores of ones on the zero buffer: 1 exactly at the entries written so far. -/
def OH (xv : IVec S26x512 32) (c0 c1 : Fin 26) (hb : Nat) (n : Nat) (g : IVec S200x256 32) : Prop :=
  ∀ j, g j = if (∃ s, s < n ∧ hit xv c0 c1 hb s j) then 1#32 else 0#32

open Classical in
/-- After the first `n` stores of zeros on a finished chunk: 1 exactly at the entries of the stores still to come. -/
def UN (xv : IVec S26x512 32) (c0 c1 : Fin 26) (hb : Nat) (n : Nat) (g : IVec S200x256 32) : Prop :=
  ∀ j, g j = if (∃ s, n ≤ s ∧ s < 32 ∧ hit xv c0 c1 hb s j) then 1#32 else 0#32

/-- The table read at equal columns. -/
theorem xv_congr (xv : IVec S26x512 32) (c : Fin 26) (a b : Nat) (ha : a < 512) (hb : b < 512) (e : a = b) :
    xv (ValueIdx.ix2 c ⟨a, ha⟩) = xv (ValueIdx.ix2 c ⟨b, hb⟩) := by
  subst e; rfl

/-- Lane `k` of a sixteen-lane vector has coordinate `k`. -/
theorem ofLane_val (k : Fin 16) : ((Shape.ofLane (d := ![16]) k) 0).val = k.val := rfl

/-- Some lane of store `n`'s index vectors names the entry `j` exactly when `hit n j`: the lane is the column of `j`
    modulo 16. -/
theorem lane_iff (xv : IVec S26x512 32) (c0 c1 : Fin 26) (hb : Nat) (n : Nat) (rowv colv : IVec S16 32)
    (hrow : ∀ x : S16.Idx, ∃ h : hb + 16 * (n % 16) + (x 0).val < 512,
      (rowv x).toNat = (xv (ValueIdx.ix2 (if n < 16 then c0 else c1) ⟨hb + 16 * (n % 16) + (x 0).val, h⟩)).toNat + 100 * (n / 16))
    (hcol : ∀ x : S16.Idx, (colv x).toNat = 16 * (n % 16) + (x 0).val) (j : S200x256.Idx) :
    (∃ k : Fin ((![16] : Fin 1 → Nat) 0), ∀ a, (j a).val = ((![rowv, colv] : Fin 2 → IVec S16 32) a (Shape.ofLane k)).toNat)
      ↔ hit xv c0 c1 hb n j := by
  have hj1 : (j 1).val < 256 := ValueIdx.idx2_lt1 j
  constructor
  · rintro ⟨k, hk⟩
    have h0 : (j 0).val = (rowv (Shape.ofLane k)).toNat := hk 0
    have h1 : (j 1).val = (colv (Shape.ofLane k)).toNat := hk 1
    have hkl : k.val < 16 := k.isLt
    have hl : ((Shape.ofLane k : S16.Idx) 0).val = k.val := rfl
    obtain ⟨hr, hrv⟩ := hrow (Shape.ofLane k)
    rw [hcol] at h1
    refine ⟨by omega, by omega, ?_⟩
    rw [h0, hrv, xv_congr xv _ (hb + 16 * (n % 16) + ((Shape.ofLane k : S16.Idx) 0).val) (hb + (j 1).val) hr (by omega) (by omega)]
  · rintro ⟨hq, hlt, hv⟩
    let k : Fin ((![16] : Fin 1 → Nat) 0) := ⟨(j 1).val % 16, Nat.mod_lt _ (by norm_num)⟩
    have hl : ((Shape.ofLane k : S16.Idx) 0).val = (j 1).val % 16 := rfl
    obtain ⟨hr, hrv⟩ := hrow (Shape.ofLane k)
    refine ⟨k, ?_⟩
    refine Fin.forall_fin_two.mpr ⟨?_, ?_⟩
    · change (j 0).val = (rowv (Shape.ofLane k)).toNat
      rw [hv, hrv, xv_congr xv _ (hb + 16 * (n % 16) + ((Shape.ofLane k : S16.Idx) 0).val) (hb + (j 1).val) hr hlt (by omega)]
    · change (j 1).val = (colv (Shape.ofLane k)).toNat
      rw [hcol]
      omega

/-- Before any store the zero buffer has no 1. -/
theorem OH_zero (xv : IVec S26x512 32) (c0 c1 : Fin 26) (hb : Nat) (g : IVec S200x256 32) (hg : ∀ j, g j = 0#32) :
    OH xv c0 c1 hb 0 g := by
  intro j
  rw [hg j, if_neg]
  rintro ⟨s, hs, _⟩
  exact Nat.not_lt_zero s hs

/-- One more store of ones: the entries written so far are those of the stores below `n` and those of store `n`. -/
theorem OH_step {F : FTy → Type} [FloatOps F] (xv : IVec S26x512 32) (c0 c1 : Fin 26) (hb : Nat) (hhb : hb + 256 ≤ 512)
    (n : Nat) (hn : n < 32) (g : IVec S200x256 32) (rowv colv : IVec S16 32)
    (hrow : ∀ x : S16.Idx, ∃ h : hb + 16 * (n % 16) + (x 0).val < 512,
      (rowv x).toNat = (xv (ValueIdx.ix2 (if n < 16 then c0 else c1) ⟨hb + 16 * (n % 16) + (x 0).val, h⟩)).toNat + 100 * (n / 16))
    (hcol : ∀ x : S16.Idx, (colv x).toNat = 16 * (n % 16) + (x 0).val)
    (h : ∀ a x, ((![rowv, colv] : Fin 2 → IVec S16 32) a x).toNat < S200x256.size a)
    (hg : OH xv c0 c1 hb n g) :
    OH xv c0 c1 hb (n + 1) (storeIdx (F := F) (e := .i32) g ![rowv, colv] (fun _ => (1#32 : BitVec 32)) (fun _ => 1#1) false h) := by
  intro j
  have L := lane_iff xv c0 c1 hb n rowv colv hrow hcol j
  rw [storeIdx_const, hg j]
  by_cases hh : hit xv c0 c1 hb n j
  · rw [if_pos (L.mpr hh), if_pos ⟨n, Nat.lt_succ_self n, hh⟩]
  · rw [if_neg (fun hk => hh (L.mp hk))]
    by_cases hp : ∃ s, s < n ∧ hit xv c0 c1 hb s j
    · obtain ⟨s, hs, hsj⟩ := hp
      rw [if_pos ⟨s, hs, hsj⟩, if_pos ⟨s, Nat.lt_succ_of_lt hs, hsj⟩]
    · rw [if_neg hp, if_neg]
      rintro ⟨s, hs, hsj⟩
      rcases Nat.lt_succ_iff_lt_or_eq.mp hs with h1 | rfl
      · exact hp ⟨s, h1, hsj⟩
      · exact hh hsj

/-- A finished chunk is the start of its undoing: all 32 stores are still to come. -/
theorem UN_of_OH (xv : IVec S26x512 32) (c0 c1 : Fin 26) (hb : Nat) (g : IVec S200x256 32) (hg : OH xv c0 c1 hb 32 g) :
    UN xv c0 c1 hb 0 g := by
  intro j
  rw [hg j]
  by_cases hp : ∃ s, s < 32 ∧ hit xv c0 c1 hb s j
  · obtain ⟨s, hs, hsj⟩ := hp
    rw [if_pos ⟨s, hs, hsj⟩, if_pos ⟨s, Nat.zero_le s, hs, hsj⟩]
  · rw [if_neg hp, if_neg]
    rintro ⟨s, _, hs, hsj⟩
    exact hp ⟨s, hs, hsj⟩

/-- Two stores of one chunk never write the same entry: stores with different `s % 16` write different columns, and
    stores that differ only in the half write a row below 100 against a row from 100 up, the class numbers being below
    100. -/
theorem hit_unique (xv : IVec S26x512 32) (hx : ∀ i, (xv i).toNat < 100) (c0 c1 : Fin 26) (hb : Nat) (s s' : Nat)
    (hs : s < 32) (hs' : s' < 32) (j : S200x256.Idx) (h1 : hit xv c0 c1 hb s j) (h2 : hit xv c0 c1 hb s' j) : s = s' := by
  obtain ⟨q1, l1, v1⟩ := h1
  obtain ⟨q2, l2, v2⟩ := h2
  have b1 := hx (ValueIdx.ix2 (if s < 16 then c0 else c1) ⟨hb + (j 1).val, l1⟩)
  have b2 := hx (ValueIdx.ix2 (if s' < 16 then c0 else c1) ⟨hb + (j 1).val, l2⟩)
  omega

/-- One more store of zeros: store `n`'s entries are erased, and no later store's entry is among them. -/
theorem UN_step {F : FTy → Type} [FloatOps F] (xv : IVec S26x512 32) (hx : ∀ i, (xv i).toNat < 100) (c0 c1 : Fin 26)
    (hb : Nat) (hhb : hb + 256 ≤ 512) (n : Nat) (hn : n < 32) (g : IVec S200x256 32) (rowv colv : IVec S16 32)
    (hrow : ∀ x : S16.Idx, ∃ h : hb + 16 * (n % 16) + (x 0).val < 512,
      (rowv x).toNat = (xv (ValueIdx.ix2 (if n < 16 then c0 else c1) ⟨hb + 16 * (n % 16) + (x 0).val, h⟩)).toNat + 100 * (n / 16))
    (hcol : ∀ x : S16.Idx, (colv x).toNat = 16 * (n % 16) + (x 0).val)
    (h : ∀ a x, ((![rowv, colv] : Fin 2 → IVec S16 32) a x).toNat < S200x256.size a)
    (hg : UN xv c0 c1 hb n g) :
    UN xv c0 c1 hb (n + 1) (storeIdx (F := F) (e := .i32) g ![rowv, colv] (fun _ => (0#32 : BitVec 32)) (fun _ => 1#1) false h) := by
  intro j
  have L := lane_iff xv c0 c1 hb n rowv colv hrow hcol j
  rw [storeIdx_const, hg j]
  by_cases hh : hit xv c0 c1 hb n j
  · rw [if_pos (L.mpr hh), if_neg]
    rintro ⟨s, h1, h2, hsj⟩
    have := hit_unique xv hx c0 c1 hb n s hn h2 j hh hsj
    omega
  · rw [if_neg (fun hk => hh (L.mp hk))]
    by_cases hp : ∃ s, n ≤ s ∧ s < 32 ∧ hit xv c0 c1 hb s j
    · obtain ⟨s, h1, h2, hsj⟩ := hp
      have hne : s ≠ n := by rintro rfl; exact hh hsj
      rw [if_pos ⟨s, h1, h2, hsj⟩, if_pos ⟨s, by omega, h2, hsj⟩]
    · rw [if_neg hp, if_neg]
      rintro ⟨s, h1, h2, hsj⟩
      exact hp ⟨s, by omega, h2, hsj⟩

/-- After all 32 stores of zeros nothing is left. -/
theorem UN_full (xv : IVec S26x512 32) (c0 c1 : Fin 26) (hb : Nat) (g : IVec S200x256 32) (hg : UN xv c0 c1 hb 32 g) :
    ∀ j, g j = 0#32 := by
  intro j
  rw [hg j, if_neg]
  rintro ⟨s, h1, h2, _⟩
  omega

/-- The finished chunk, read as a one-hot coding: entry (r, cc) is 1 exactly when the table's entry in row c_(r / 100),
    column hb + cc, is r % 100. Forwards, a store of the first half writes a row below 100 and one of the second half a row
    from 100 up, so the half is read off the row; backwards, the store is the one whose column block holds cc, in the half
    r / 100. -/
theorem OH_full (xv : IVec S26x512 32) (hx : ∀ i, (xv i).toNat < 100) (c0 c1 : Fin 26) (hb : Nat) (hhb : hb + 256 ≤ 512)
    (g : IVec S200x256 32) (hg : OH xv c0 c1 hb 32 g) (j : S200x256.Idx) :
    g j = if (xv (ValueIdx.ix2 (if (j 0).val < 100 then c0 else c1)
        ⟨hb + (j 1).val, by have := ValueIdx.idx2_lt1 j; omega⟩)).toNat = (j 0).val % 100 then 1#32 else 0#32 := by
  have hj0 : (j 0).val < 200 := ValueIdx.idx2_lt0 j
  have hj1 : (j 1).val < 256 := ValueIdx.idx2_lt1 j
  have hlt : hb + (j 1).val < 512 := by omega
  rw [hg j]
  by_cases hp : ∃ s, s < 32 ∧ hit xv c0 c1 hb s j
  · rw [if_pos hp, if_pos]
    obtain ⟨s, hs, hq, l, hv⟩ := hp
    have b := hx (ValueIdx.ix2 (if s < 16 then c0 else c1) ⟨hb + (j 1).val, l⟩)
    by_cases h16 : s < 16
    · rw [if_pos h16] at hv b
      rw [if_pos (by omega : (j 0).val < 100)]
      omega
    · rw [if_neg h16] at hv b
      rw [if_neg (by omega : ¬ (j 0).val < 100)]
      omega
  · rw [if_neg hp, if_neg]
    intro he
    apply hp
    by_cases h100 : (j 0).val < 100
    · rw [if_pos h100] at he
      refine ⟨(j 1).val / 16, by omega, by omega, hlt, ?_⟩
      rw [if_pos (by omega : (j 1).val / 16 < 16)]
      omega
    · rw [if_neg h100] at he
      refine ⟨(j 1).val / 16 + 16, by omega, by omega, hlt, ?_⟩
      rw [if_neg (by omega : ¬ (j 1).val / 16 + 16 < 16)]
      omega

end Cert.ScatterFacts
-- ==== Proof.LoopInv.lean ====
/-
  The main loop's invariant.

  Before trip `k` (`k = 0 .. 12`; the loop makes trips 0 .. 11) chunks `2 k` and `2 k + 1` of the tile's output slab are
  being copied out of the first and the second buffer; every earlier chunk has landed and holds its part of the
  coding; every later chunk is still as the tile found it. What a copy delivers when it lands is stated once, the same
  for every chunk: the buffer back, holding the chunk's one-hot picture, and the chunk of the output holding the coding.
-/
import proofs.«212700_g8504035246323_cont_9to1_m_53_19_alg».proof.Proof.TileBase2
import proofs.«212700_g8504035246323_cont_9to1_m_53_19_alg».proof.Proof.Contract
import proofs.«212700_g8504035246323_cont_9to1_m_53_19_alg».proof.Proof.XvFacts
import proofs.«212700_g8504035246323_cont_9to1_m_53_19_alg».proof.Proof.ScatterFacts
import proofs.«212700_g8504035246323_cont_9to1_m_53_19_alg».proof.Proof.Geometry

noncomputable section

namespace Cert.KernelIdeal.LoopInv

open Cert.KernelIdeal Cert.KernelIdeal.Gen Cert.KernelIdeal.Tile Cert.KernelIdeal.Contract Cert.KernelIdeal.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The two table rows chunk `q` codes: `2 (q / 2)` and the next. -/
def row0 (q : Nat) : Fin 26 := ⟨(2 * (q / 2)) % 26, Nat.mod_lt _ (by decide)⟩
def row1 (q : Nat) : Fin 26 := ⟨(2 * (q / 2) + 1) % 26, Nat.mod_lt _ (by decide)⟩
theorem row0_val {q : Nat} (hq : q < 26) : (row0 q).val = 2 * (q / 2) := by unfold row0; show (2 * (q / 2)) % 26 = _; omega
theorem row1_val {q : Nat} (hq : q < 26) : (row1 q).val = 2 * (q / 2) + 1 := by unfold row1; show (2 * (q / 2) + 1) % 26 = _; omega

/-- A buffer holds chunk `q`'s finished picture of the table copy. -/
def Pic (L : grid0.Coords) (xt : Vec F S26x16384 .i32) (fv : Vec F S26x512 .i32) (q : Nat) (g : Vec F S200x256 .i32) : Prop :=
  ScatterFacts.OH (XvFacts.xvC L xt fv) (row0 q) (row1 q) (256 * (q % 2)) 32 g

/-- What chunk `q`'s copy out of the first buffer delivers when it lands. -/
def deliv0 (d : Dev nD) (L : grid0.Coords) (xt : Vec F S26x16384 .i32) (fv : Vec F S26x512 .i32) (q : Nat) : sProp 𝕄 :=
  iprop(∃ g, ⌜Pic L xt fv q g⌝ ∗ heldB0 (F := F) d L g ∗ (oLoc d ↦[chunk (wOf L) q]{fullShare} (Spec.oneHotT xt : Buf (Elt F) (oLoc d))))
/-- The same out of the second buffer. -/
def deliv1 (d : Dev nD) (L : grid0.Coords) (xt : Vec F S26x16384 .i32) (fv : Vec F S26x512 .i32) (q : Nat) : sProp 𝕄 :=
  iprop(∃ g, ⌜Pic L xt fv q g⌝ ∗ heldB1 (F := F) d L g ∗ (oLoc d ↦[chunk (wOf L) q]{fullShare} (Spec.oneHotT xt : Buf (Elt F) (oLoc d))))

/-- The units one copy of a 200 x 256 buffer of 32-bit words credits its semaphore. -/
abbrev AMT : Nat := 1638400

/-- The invariant before trip `k`. -/
def tinv (d : Dev nD) (L : grid0.Coords) (O : CellTallies nD τ sig (HIx 1)) (W : Waits sig (HIx 1))
    (xt : Vec F S26x16384 .i32) (fv : Vec F S26x512 .i32) (fo : Vec F S2600x16384 .i32) (k : Nat) (_ : PUnit) : sProp 𝕄 :=
  iprop(Transfers.MayWaits (V d (cV L) (jV L)) (none : HIx 1) O
    ∗ ((Memref.whole cc0_scratch0 : Memref sig .scVector .vmem S26x512 .i32).view.loc (V d (cV L) (jV L)) ↦{fullShare} XvFacts.xvC L xt fv)
    ∗ Transfers.Flight countersEmb (V d (cV L) (jV L)) (SemLoc.dma cc0_scratch3.sem) (default : HIx 1) AMT (deliv0 d L xt fv (2 * k))
    ∗ Transfers.Flight countersEmb (V d (cV L) (jV L)) (SemLoc.dma cc0_scratch4.sem) (default : HIx 1) AMT (deliv1 d L xt fv (2 * k + 1))
    ∗ (bigSep (Finset.range (2 * k)) fun q => oLoc d ↦[chunk (wOf L) q]{fullShare} (Spec.oneHotT xt : Buf (Elt F) (oLoc d)))
    ∗ (bigSep ((Finset.range 26).filter fun q => 2 * k + 2 ≤ q) fun q => oLoc d ↦[chunk (wOf L) q]{fullShare} (fo : Buf (Elt F) (oLoc d)))
    ∗ ∃ W', ⌜∀ p ∈ W', p ∈ W ∨ p.2 = none⌝ ∗ owes (V d (cV L) (jV L)) O W')

end Cert.KernelIdeal.LoopInv

end
-- ==== Proof.ChunkValue.lean ====
/-
  What a chunk of the coding holds after its buffer is copied out.

  The tile's copy of the table is its slab of the transposed table: entry `(c, col)` of the copy is entry
  `(c, 512 w + col)` of the table. A buffer finished for chunk `q` holds 1 at `(r, cc)` exactly when the copy's row
  `2 (q / 2) + r / 100` holds `r % 100` in column `256 (q % 2) + cc`. Copied through the slice whose corner is
  `(200 (q / 2), 512 w + 256 (q % 2))`, it lands at `(200 (q / 2) + r, 512 w + 256 (q % 2) + cc)`; since
  `(200 (q / 2) + r) / 100 = 2 (q / 2) + r / 100` and `(200 (q / 2) + r) % 100 = r % 100`, that entry is the one-hot coding
  of the table there.
-/
import proofs.«212700_g8504035246323_cont_9to1_m_53_19_alg».proof.Proof.Geometry
import proofs.«212700_g8504035246323_cont_9to1_m_53_19_alg».proof.Proof.ScatterFacts
import proofs.«212700_g8504035246323_cont_9to1_m_53_19_alg».proof.Proof.XvFacts
import proofs.«212700_g8504035246323_cont_9to1_m_53_19_alg».proof.Proof.Spec
import proofs.«212700_g8504035246323_cont_9to1_m_53_19_alg».proof.Proof.Contract

noncomputable section

namespace Cert.KernelIdeal.ChunkValue

open Cert.KernelIdeal Cert.KernelIdeal.Gen Cert.KernelIdeal.Tile Cert.KernelIdeal.Contract Cert.KernelIdeal.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem wOf_lt (L : grid0.Coords) : wOf L < 32 := by
  have h0 : (L 0).val < 2 := (L 0).isLt
  have h1 : (L 1).val < 16 := (L 1).isLt
  unfold wOf; omega

/-- Entry `(c, col)` of the tile's copy of the table is entry `(c, 512 w + col)` of the table. -/
theorem slabRead_apply (L : grid0.Coords) (xt : Vec F S26x16384 .i32) (i : S26x512.Idx) :
    ∃ h : 512 * wOf L + (i 1).val < 16384,
      XvFacts.slabRead L xt i = xt (ValueIdx.ix2 (i 0) ⟨512 * wOf L + (i 1).val, h⟩) := by
  have hi1 : (i 1).val < 512 := ValueIdx.idx2_lt1 i
  have hw := wOf_lt L
  refine ⟨by omega, ?_⟩
  show xt ((Rect.unit (s := S26x16384) (k0_off1 L) S26x512.size (k0_off1_inb L)).emb i) = _
  congr 1
  funext a
  apply Fin.ext
  rw [Rect.emb_apply, Rect.off_unit, Rect.stride_unit]
  have hoff0 : k0_off1 L 0 = 0 := by rw [k0_off1_eq]; rfl
  have hoff1 : k0_off1 L 1 = 1024 * (L 1).val + 512 * (L 0).val := by rw [k0_off1_eq]; rfl
  match a with
  | ⟨0, _⟩ => show k0_off1 L 0 + 1 * (i 0).val = (i 0).val; omega
  | ⟨1, _⟩ =>
    show k0_off1 L 1 + 1 * (i 1).val = 512 * wOf L + (i 1).val
    unfold wOf; omega

/-- The same for the copy once it has landed in the tile's storage. -/
theorem xvC_at (L : grid0.Coords) (xt : Vec F S26x16384 .i32) (fv : Vec F S26x512 .i32) (c : Fin 26) (col : Nat)
    (hcol : col < 512) (h : 512 * wOf L + col < 16384) :
    XvFacts.xvC L xt fv (ValueIdx.ix2 c ⟨col, hcol⟩) = xt (ValueIdx.ix2 c ⟨512 * wOf L + col, h⟩) := by
  rw [XvFacts.xvC_eq]
  obtain ⟨_, e⟩ := slabRead_apply L xt (ValueIdx.ix2 c ⟨col, hcol⟩)
  exact e

/-- A buffer written whole through a 200 x 256 slice of the coding: the entry at the slice's corner plus `j` takes the
    buffer's entry `j`. -/
theorem write_oSl_apply (off : Fin 2 → Nat) (inb : ∀ a, off a + S200x256.size a ≤ S2600x16384.size a)
    (fo : Vec F S2600x16384 .i32) (g : Vec F S200x256 .i32) (j : S200x256.Idx) (i : S2600x16384.Idx)
    (h0 : (i 0).val = off 0 + (j 0).val) (h1 : (i 1).val = off 1 + (j 1).val) :
    View.write (Elt F) ((Memref.whole main_v1_scv : Memref sig .scVector .hbm S2600x16384 .i32).slice
      (Rect.unit (s := S2600x16384) off S200x256.size inb) (fun _ => rfl)).view fo g Finset.univ i = g j := by
  have hemb : ((Memref.whole main_v1_scv : Memref sig .scVector .hbm S2600x16384 .i32).slice
      (Rect.unit (s := S2600x16384) off S200x256.size inb) (fun _ => rfl)).view.emb j = i := by
    funext a
    apply Fin.ext
    show ((Rect.unit (s := S2600x16384) off S200x256.size inb).emb j a : Nat) = (i a).val
    rw [Rect.emb_apply, Rect.off_unit, Rect.stride_unit]
    match a with
    | ⟨0, _⟩ => show off 0 + 1 * (j 0).val = (i 0).val; omega
    | ⟨1, _⟩ => show off 1 + 1 * (j 1).val = (i 1).val; omega
  have hw := View.write_emb_of_mem (v := ((Memref.whole main_v1_scv : Memref sig .scVector .hbm S2600x16384 .i32).slice
      (Rect.unit (s := S2600x16384) off S200x256.size inb) (fun _ => rfl)).view) (Val := Elt F) fo g (Finset.mem_univ j)
  rw [hemb] at hw
  exact hw

/-- A points-to assertion on a set sees the contents on that set only. -/
theorem pointsTo_congr_on {ℓ : Loc nD τ sig} (S : Finset (Idx ℓ)) (f f' : Buf (Elt F) ℓ) (h : ∀ i ∈ S, f i = f' i) :
    (ℓ ↦[S]{fullShare} f : sProp (MT nD τ sig (Idealize.ShloMosaic.SparseCore.Cfg.HIx 1) (Elt F) ℕ Tile.UU ℕ))
      = ℓ ↦[S]{fullShare} f' :=
  pointsTo_congr h

/-- On its chunk, the coding after the copy of a finished buffer is the one-hot coding of the table: entry
    `(200 (q / 2) + r, 512 w + 256 (q % 2) + cc)` takes the buffer's `(r, cc)`, which is 1 exactly when the table's row
    `2 (q / 2) + r / 100` holds `r % 100` in that column; and `(200 (q / 2) + r) / 100 = 2 (q / 2) + r / 100`,
    `(200 (q / 2) + r) % 100 = r % 100`. -/
theorem chunk_value (L : grid0.Coords) (q : Nat) (hq : q < 26) (off : Fin 2 → Nat)
    (inb : ∀ a, off a + S200x256.size a ≤ S2600x16384.size a)
    (hoff : off = ![200 * (q / 2), 512 * wOf L + 256 * (q % 2)])
    (xt : Vec F S26x16384 .i32) (hx : ∀ i, (xt i : BitVec 32).toNat < 100) (fv : Vec F S26x512 .i32)
    (fo : Vec F S2600x16384 .i32) (g : Vec F S200x256 .i32)
    (c0 c1 : Fin 26) (hc0 : c0.val = 2 * (q / 2)) (hc1 : c1.val = 2 * (q / 2) + 1)
    (hg : ScatterFacts.OH (XvFacts.xvC L xt fv) c0 c1 (256 * (q % 2)) 32 g) :
    ∀ i ∈ chunk (wOf L) q,
      View.write (Elt F) ((Memref.whole main_v1_scv : Memref sig .scVector .hbm S2600x16384 .i32).slice
        (Rect.unit (s := S2600x16384) off S200x256.size inb) (fun _ => rfl)).view fo g Finset.univ i
        = Spec.oneHotT xt i := by
  intro i hi
  rw [mem_chunk] at hi
  obtain ⟨h1, h2, h3, h4⟩ := hi
  have hq2 : q % 2 < 2 := Nat.mod_lt _ (by omega)
  have hw := wOf_lt L
  have hr : (i 0).val - 200 * (q / 2) < 200 := by omega
  have hcc : (i 1).val - (512 * wOf L + 256 * (q % 2)) < 256 := by omega
  have hi0 : (i 0).val < 2600 := (i 0).isLt
  have hi1 : (i 1).val < 16384 := (i 1).isLt
  rw [write_oSl_apply off inb fo g (ValueIdx.ix2 ⟨_, hr⟩ ⟨_, hcc⟩) i
    (by rw [hoff]; show (i 0).val = 200 * (q / 2) + ((i 0).val - 200 * (q / 2)); omega)
    (by rw [hoff]; show (i 1).val = 512 * wOf L + 256 * (q % 2) + ((i 1).val - (512 * wOf L + 256 * (q % 2))); omega)]
  have hcol : 256 * (q % 2) + ((i 1).val - (512 * wOf L + 256 * (q % 2))) < 512 := by omega
  have hOH := ScatterFacts.OH_full (XvFacts.xvC L xt fv) (XvFacts.xvC_lt L xt fv hx) c0 c1 (256 * (q % 2)) (by omega) g hg
    (ValueIdx.ix2 ⟨_, hr⟩ ⟨_, hcc⟩)
  have hX := xvC_at L xt fv (if (i 0).val - 200 * (q / 2) < 100 then c0 else c1)
    (256 * (q % 2) + ((i 1).val - (512 * wOf L + 256 * (q % 2)))) hcol (by omega)
  rw [hOH]
  unfold Spec.oneHotT
  refine if_congr ?_ rfl rfl
  show (XvFacts.xvC L xt fv (ValueIdx.ix2 (if (i 0).val - 200 * (q / 2) < 100 then c0 else c1)
      ⟨256 * (q % 2) + ((i 1).val - (512 * wOf L + 256 * (q % 2))), hcol⟩) : BitVec 32).toNat
        = ((i 0).val - 200 * (q / 2)) % 100 ↔ _
  rw [hX]
  have e : (ValueIdx.ix2 (if (i 0).val - 200 * (q / 2) < 100 then c0 else c1)
      (⟨512 * wOf L + (256 * (q % 2) + ((i 1).val - (512 * wOf L + 256 * (q % 2)))), by omega⟩ : Fin 16384) : S26x16384.Idx)
      = ValueIdx.ix2 ⟨(i 0).val / 100, Spec.div100_lt26 (i 0).isLt⟩ (i 1) := by
    funext a
    apply Fin.ext
    match a with
    | ⟨0, _⟩ =>
      show (if (i 0).val - 200 * (q / 2) < 100 then c0 else c1).val = (i 0).val / 100
      by_cases hlt : (i 0).val - 200 * (q / 2) < 100
      · rw [if_pos hlt, hc0]; omega
      · rw [if_neg hlt, hc1]; omega
    | ⟨1, _⟩ =>
      show 512 * wOf L + (256 * (q % 2) + ((i 1).val - (512 * wOf L + 256 * (q % 2)))) = (i 1).val
      omega
  rw [e]
  have e2 : ((i 0).val - 200 * (q / 2)) % 100 = (i 0).val % 100 := by omega
  rw [e2]
  exact Iff.rfl

end Cert.KernelIdeal.ChunkValue

end
-- ==== Proof.ChunkSep.lean ====
/-
  Chunks apart and chunks delivered.

  The tile's slab of the coding is held as 26 chunks apart. The main loop's invariant speaks of the first `2 k` chunks
  (landed), of chunks `2 k` and `2 k + 1` (in flight) and of the chunks from `2 k + 2` on (untouched); the first part
  of this file moves two chunks at a time between those ranges. The second part says what a chunk's copy delivers when it
  lands: the chunk of the coding, written with the finished buffer through the chunk's slice, holds the one-hot coding
  of the table there, and the buffer comes back whole.
-/
import proofs.«212700_g8504035246323_cont_9to1_m_53_19_alg».proof.Proof.LoopInv
import proofs.«212700_g8504035246323_cont_9to1_m_53_19_alg».proof.Proof.ChunkValue
import proofs.«212700_g8504035246323_cont_9to1_m_53_19_alg».proof.Proof.Geometry
import proofs.«212700_g8504035246323_cont_9to1_m_53_19_alg».proof.Proof.TileBase2

noncomputable section

namespace Cert.KernelIdeal.ChunkSep

open Cert.KernelIdeal Cert.KernelIdeal.Gen Cert.KernelIdeal.Tile Cert.KernelIdeal.Contract Cert.KernelIdeal.Geometry
open Cert.KernelIdeal.ChunkValue Cert.KernelIdeal.LoopInv

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Chunk numbers: the first `n` and the last from `n` on -/

/-- Two more chunks after the first `n`. -/
theorem range_add_two (n : ℕ) (Φ : ℕ → sProp 𝕄) :
    bigSep (Finset.range (n + 2)) Φ = iprop(bigSep (Finset.range n) Φ ∗ Φ n ∗ Φ (n + 1)) := by
  have e : Finset.range (n + 2) = insert (n + 1) (insert n (Finset.range n)) := by
    ext q
    simp only [Finset.mem_range, Finset.mem_insert]
    omega
  rw [e, bigSep_insert (by simp only [Finset.mem_insert, Finset.mem_range]; omega),
    bigSep_insert (by simp only [Finset.mem_range]; omega)]
  refine equiv_iff.mp
    ⟨(show iprop(Φ (n + 1) ∗ Φ n ∗ bigSep (Finset.range n) Φ) ⊢ iprop(bigSep (Finset.range n) Φ ∗ Φ n ∗ Φ (n + 1)) from ?_),
     (show iprop(bigSep (Finset.range n) Φ ∗ Φ n ∗ Φ (n + 1)) ⊢ iprop(Φ (n + 1) ∗ Φ n ∗ bigSep (Finset.range n) Φ) from ?_)⟩
  · iintro ⟨H1, H0, HR⟩
    isplitl [HR]; · iexact HR
    isplitl [H0]; · iexact H0
    iexact H1
  · iintro ⟨HR, H0, H1⟩
    isplitl [H1]; · iexact H1
    isplitl [H0]; · iexact H0
    iexact HR

/-- The chunks from `n` on are chunk `n`, chunk `n + 1` and those from `n + 2` on. -/
theorem tail_split (n : ℕ) (hn : n + 1 < 26) (Φ : ℕ → sProp 𝕄) :
    bigSep ((Finset.range 26).filter fun q => n ≤ q) Φ
      = iprop(Φ n ∗ Φ (n + 1) ∗ bigSep ((Finset.range 26).filter fun q => n + 2 ≤ q) Φ) := by
  have e : ((Finset.range 26).filter fun q => n ≤ q)
      = insert n (insert (n + 1) ((Finset.range 26).filter fun q => n + 2 ≤ q)) := by
    ext q
    simp only [Finset.mem_filter, Finset.mem_range, Finset.mem_insert]
    omega
  rw [e, bigSep_insert (by simp only [Finset.mem_insert, Finset.mem_filter, Finset.mem_range]; omega),
    bigSep_insert (by simp only [Finset.mem_filter, Finset.mem_range]; omega)]
  rfl

/-- From 0 on: all 26. -/
theorem tail_all (Φ : ℕ → sProp 𝕄) :
    bigSep ((Finset.range 26).filter fun q => 0 ≤ q) Φ = bigSep (Finset.range 26) Φ := by
  rw [Finset.filter_true_of_mem fun q _ => Nat.zero_le q]

/-- From 26 on: none. -/
theorem tail_none (Φ : ℕ → sProp 𝕄) :
    bigSep ((Finset.range 26).filter fun q => 26 ≤ q) Φ = iprop(emp) := by
  rw [Finset.filter_false_of_mem fun q hq => by have := Finset.mem_range.mp hq; omega]
  rfl

/-! ## What a chunk's copy delivers -/

/-- The chunk of the coding, written with a finished buffer through the chunk's slice, holds the coding there: the
    slice's elements are the chunk, and on the chunk the written array is the one-hot coding. -/
theorem oSl_pts (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ) : sProp 𝕄)
      = (oLoc d ↦[chunk (wOf L) q]{fullShare} (Spec.oneHotT xt : Buf (Elt F) (oLoc d))) := by
  refine Eq.trans (congrArg (fun S : Finset S2600x16384.Idx =>
    (oLoc d ↦[S]{fullShare} (View.write (Elt F) ((Memref.whole main_v1_scv : Memref sig .scVector .hbm S2600x16384 .i32).slice (Rect.unit (s := S2600x16384) off S200x256.size inb) (fun _ => rfl)).view fo g Finset.univ : Buf (Elt F) (oLoc d)) : sProp 𝕄))
    (set_oSl L q off inb hoff)) ?_
  exact pointsTo_congr_on (ℓ := oLoc d) (chunk (wOf L) q) _ _
    (chunk_value L q hq off inb hoff xt hx fv fo g (row0 q) (row1 q) (row0_val hq) (row1_val hq) hpic)

/-- What lands when chunk `q`'s copy out of the first buffer does: the chunk holding the coding, and the buffer back
    whole with its picture. -/
theorem deliv0_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch1 : Memref sig .scVector .vmem S200x256 .i32).view.loc (V d (cV L) (jV L)) ↦[(Memref.whole cc0_scratch1 : Memref sig .scVector .vmem S200x256 .i32).view.set]{fullShare} g)) : sProp 𝕄)
      ⊢ deliv0 d L xt fv q := by
  rw [oSl_pts d L xt hx fv fo q hq off inb hoff g hpic]
  unfold deliv0 heldB0
  simp only [Memref.view_whole, View.set_whole]
  iintro ⟨Ho, Hb⟩
  iexists g
  isplitr
  · ipureintro; exact hpic
  isplitl [Hb]
  · iexact Hb
  · iexact Ho

/-- The same out of the second buffer. -/
theorem deliv1_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch2 : Memref sig .scVector .vmem S200x256 .i32).view.loc (V d (cV L) (jV L)) ↦[(Memref.whole cc0_scratch2 : Memref sig .scVector .vmem S200x256 .i32).view.set]{fullShare} g)) : sProp 𝕄)
      ⊢ deliv1 d L xt fv q := by
  rw [oSl_pts d L xt hx fv fo q hq off inb hoff g hpic]
  unfold deliv1 heldB1
  simp only [Memref.view_whole, View.set_whole]
  iintro ⟨Ho, Hb⟩
  iexists g
  isplitr
  · ipureintro; exact hpic
  isplitl [Hb]
  · iexact Hb
  · iexact Ho

/-- A flight that delivers the written chunk and the buffer delivers what the invariant names. -/
theorem flight0_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) (N : ℕ) :
    (Transfers.Flight countersEmb (V d (cV L) (jV L)) (SemLoc.dma cc0_scratch3.sem) (default : HIx 1) N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch1 : Memref sig .scVector .vmem S200x256 .i32).view.loc (V d (cV L) (jV L)) ↦[(Memref.whole cc0_scratch1 : Memref sig .scVector .vmem S200x256 .i32).view.set]{fullShare} g)) : sProp 𝕄)
      ⊢ Transfers.Flight countersEmb (V d (cV L) (jV L)) (SemLoc.dma cc0_scratch3.sem) (default : HIx 1) N (deliv0 d L xt fv q) :=
  Transfers.Flight_mono countersEmb (V d (cV L) (jV L)) (deliv0_of d L xt hx fv fo q hq off inb hoff g hpic)

theorem flight1_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) (N : ℕ) :
    (Transfers.Flight countersEmb (V d (cV L) (jV L)) (SemLoc.dma cc0_scratch4.sem) (default : HIx 1) N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch2 : Memref sig .scVector .vmem S200x256 .i32).view.loc (V d (cV L) (jV L)) ↦[(Memref.whole cc0_scratch2 : Memref sig .scVector .vmem S200x256 .i32).view.set]{fullShare} g)) : sProp 𝕄)
      ⊢ Transfers.Flight countersEmb (V d (cV L) (jV L)) (SemLoc.dma cc0_scratch4.sem) (default : HIx 1) N (deliv1 d L xt fv q) :=
  Transfers.Flight_mono countersEmb (V d (cV L) (jV L)) (deliv1_of d L xt hx fv fo q hq off inb hoff g hpic)

end Cert.KernelIdeal.ChunkSep

end
-- ==== Proof.TripB.lean ====
/-
  The delivery of a chunk's copy, in the spelling the copy's run leaves it.

  When the program enqueues the copy of a finished buffer to a chunk's slice, the run records the chunk's contents as
  one write of the whole slice, with the payload the copy read from the buffer. A whole buffer read is its contents, and a
  write of the whole of a slice is the write through the slice; so on the slice's elements this is the array the earlier
  statements speak of, and the flight delivers what the main loop's invariant names.
-/
import proofs.«212700_g8504035246323_cont_9to1_m_53_19_alg».proof.Proof.ChunkSep

noncomputable section

namespace Cert.KernelIdeal.TripB

open Cert.KernelIdeal Cert.KernelIdeal.Gen Cert.KernelIdeal.Tile Cert.KernelIdeal.Contract Cert.KernelIdeal.Geometry
open Cert.KernelIdeal.ChunkValue Cert.KernelIdeal.LoopInv Cert.KernelIdeal.ChunkSep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The delivery as the copy's run spells it

  The run records the destination's contents as one write of the whole slice with the payload the copy read from the
  buffer. Reading a whole buffer gives its contents, and a write of the whole of a slice is the write through the slice:
  on the slice's elements the two spellings hold the same array. -/

/-- One write of the whole slice is the write through the slice, on the slice's elements. -/
theorem writes_whole_eq_on (off : Fin 2 → Nat) (inb : ∀ a, off a + S200x256.size a ≤ S2600x16384.size a)
    (fo : Vec F S2600x16384 .i32) (w : Vec F S200x256 .i32) :
    ∀ i ∈ ((Memref.whole main_v1_scv : Memref sig .scVector .hbm S2600x16384 .i32).slice (Rect.unit (s := S2600x16384) off S200x256.size inb) (fun _ => rfl)).view.set,
      ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, w⟩] i
        = View.write (Elt F) ((Memref.whole main_v1_scv : Memref sig .scVector .hbm S2600x16384 .i32).slice (Rect.unit (s := S2600x16384) off S200x256.size inb) (fun _ => rfl)).view fo w Finset.univ i := by
  intro i hi
  obtain ⟨x, -, rfl⟩ := Finset.mem_map.mp hi
  rw [View.write_emb_of_mem _ _ (Finset.mem_univ x)]
  have h := View.write_emb_of_mem (v := ((Memref.whole main_v1_scv : Memref sig .scVector .hbm S2600x16384 .i32).slice (Rect.unit (s := S2600x16384) off S200x256.size inb) (fun _ => rfl)).view.slice (Rect.whole (Rect.unit (s := S2600x16384) off S200x256.size inb).shape)) (Val := Elt F) fo w (Finset.mem_univ x)
  have hx : (Rect.whole (Rect.unit (s := S2600x16384) off S200x256.size inb).shape).emb x = x := by
    funext a; apply Fin.ext; show 0 + 1 * (x a : Nat) = (x a : Nat); omega
  rw [View.emb_slice, Function.Embedding.trans_apply, hx] at h
  exact h

/-- What lands, in the run's spelling, when chunk `q`'s copy out of the first buffer does. -/
theorem deliv0_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩])
        ∗ ((Memref.whole cc0_scratch1 : Memref sig .scVector .vmem S200x256 .i32).view.loc (V d (cV L) (jV L)) ↦[(Memref.whole cc0_scratch1 : Memref sig .scVector .vmem S200x256 .i32).view.set]{fullShare} C)) : sProp 𝕄)
      ⊢ deliv0 d L xt fv q := by
  have e : ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩]) : sProp 𝕄)
      = (((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo C Finset.univ) :=
    pointsTo_congr_on (ℓ := ((Memref.whole main_v1_scv : Memref sig .scVector .hbm S2600x16384 .i32).slice (Rect.unit (s := S2600x16384) off S200x256.size inb) (fun _ => rfl)).view.loc (V d (cV L) (jV L))) ((Memref.whole main_v1_scv : Memref sig .scVector .hbm S2600x16384 .i32).slice (Rect.unit (s := S2600x16384) off S200x256.size inb) (fun _ => rfl)).view.set _ _ (writes_whole_eq_on off inb fo C)
  rw [e]
  exact deliv0_of d L xt hx fv fo q hq off inb hoff C hpic

/-- The same out of the second buffer. -/
theorem deliv1_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩])
        ∗ ((Memref.whole cc0_scratch2 : Memref sig .scVector .vmem S200x256 .i32).view.loc (V d (cV L) (jV L)) ↦[(Memref.whole cc0_scratch2 : Memref sig .scVector .vmem S200x256 .i32).view.set]{fullShare} C)) : sProp 𝕄)
      ⊢ deliv1 d L xt fv q := by
  have e : ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩]) : sProp 𝕄)
      = (((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo C Finset.univ) :=
    pointsTo_congr_on (ℓ := ((Memref.whole main_v1_scv : Memref sig .scVector .hbm S2600x16384 .i32).slice (Rect.unit (s := S2600x16384) off S200x256.size inb) (fun _ => rfl)).view.loc (V d (cV L) (jV L))) ((Memref.whole main_v1_scv : Memref sig .scVector .hbm S2600x16384 .i32).slice (Rect.unit (s := S2600x16384) off S200x256.size inb) (fun _ => rfl)).view.set _ _ (writes_whole_eq_on off inb fo C)
  rw [e]
  exact deliv1_of d L xt hx fv fo q hq off inb hoff C hpic

/-- A flight delivering the run's spelling delivers what the invariant names; the semaphore, the index and the amount are
    whatever the flight's are. -/
theorem flight0_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) (sm : SemLoc sig) (ι : HIx 1) (N : ℕ) :
    (Transfers.Flight countersEmb (V d (cV L) (jV L)) sm ι N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩])
        ∗ ((Memref.whole cc0_scratch1 : Memref sig .scVector .vmem S200x256 .i32).view.loc (V d (cV L) (jV L)) ↦[(Memref.whole cc0_scratch1 : Memref sig .scVector .vmem S200x256 .i32).view.set]{fullShare} C)) : sProp 𝕄)
      ⊢ Transfers.Flight countersEmb (V d (cV L) (jV L)) sm ι N (deliv0 d L xt fv q) :=
  Transfers.Flight_mono countersEmb (V d (cV L) (jV L)) (deliv0_exec d L xt hx fv fo q hq off inb hoff C hpic)

theorem flight1_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) (sm : SemLoc sig) (ι : HIx 1) (N : ℕ) :
    (Transfers.Flight countersEmb (V d (cV L) (jV L)) sm ι N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩])
        ∗ ((Memref.whole cc0_scratch2 : Memref sig .scVector .vmem S200x256 .i32).view.loc (V d (cV L) (jV L)) ↦[(Memref.whole cc0_scratch2 : Memref sig .scVector .vmem S200x256 .i32).view.set]{fullShare} C)) : sProp 𝕄)
      ⊢ Transfers.Flight countersEmb (V d (cV L) (jV L)) sm ι N (deliv1 d L xt fv q) :=
  Transfers.Flight_mono countersEmb (V d (cV L) (jV L)) (deliv1_exec d L xt hx fv fo q hq off inb hoff C hpic)

end Cert.KernelIdeal.TripB

end
-- ==== Proof.LoopEnds.lean ====
/-
  The two ends of the main loop.

  Before the first trip chunks 0 and 1 are in flight out of the two buffers, no chunk has landed, and chunks 2 .. 25 are
  as the tile found them: that is the loop's invariant at 0. After the last trip the invariant at 12 speaks of chunks 24
  and 25 in flight, chunks 0 .. 23 landed and no chunk left; once the two flights have landed, the 26 chunks together
  are the tile's slab of the coding, the two buffers are back, and everything the run must hand back is there.
-/
import proofs.«212700_g8504035246323_cont_9to1_m_53_19_alg».proof.Proof.LoopInv
import proofs.«212700_g8504035246323_cont_9to1_m_53_19_alg».proof.Proof.ChunkSep
import proofs.«212700_g8504035246323_cont_9to1_m_53_19_alg».proof.Proof.TileBody
import proofs.«212700_g8504035246323_cont_9to1_m_53_19_alg».proof.Proof.Geometry

noncomputable section

namespace Cert.KernelIdeal.LoopEnds

open Cert.KernelIdeal Cert.KernelIdeal.Gen Cert.KernelIdeal.Tile Cert.KernelIdeal.Contract Cert.KernelIdeal.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The invariant before the first trip, from the two flights at their deliveries for chunks 0 and 1: nothing has
    landed yet, and the chunks from 2 on are untouched. -/
theorem tinv_zero (d : Dev nD) (L : grid0.Coords) (O : CellTallies nD τ sig (HIx 1)) (W : Waits sig (HIx 1))
    (xt : Vec F S26x16384 .i32) (fv : Vec F S26x512 .i32) (fo : Vec F S2600x16384 .i32)
    (W' : Waits sig (HIx 1)) (hW' : ∀ p ∈ W', p ∈ W ∨ p.2 = none) :
    (iprop(Transfers.MayWaits (V d (cV L) (jV L)) (none : HIx 1) O
        ∗ ((Memref.whole cc0_scratch0 : Memref sig .scVector .vmem S26x512 .i32).view.loc (V d (cV L) (jV L)) ↦{fullShare} XvFacts.xvC L xt fv)
        ∗ Transfers.Flight countersEmb (V d (cV L) (jV L)) (SemLoc.dma cc0_scratch3.sem) (default : HIx 1) LoopInv.AMT (LoopInv.deliv0 d L xt fv 0)
        ∗ Transfers.Flight countersEmb (V d (cV L) (jV L)) (SemLoc.dma cc0_scratch4.sem) (default : HIx 1) LoopInv.AMT (LoopInv.deliv1 d L xt fv 1)
        ∗ (bigSep ((Finset.range 26).filter fun q => 2 ≤ q) fun q => oLoc d ↦[chunk (wOf L) q]{fullShare} (fo : Buf (Elt F) (oLoc d)))
        ∗ owes (V d (cV L) (jV L)) O W') : sProp 𝕄)
      ⊢ LoopInv.tinv d L O W xt fv fo 0 ⟨⟩ := by
  unfold LoopInv.tinv
  rw [show Finset.range (2 * 0) = (∅ : Finset ℕ) from rfl, bigSep_empty]
  iintro ⟨HM, Hv, HF0, HF1, HR, HO⟩
  isplitl [HM]; · iexact HM
  isplitl [Hv]; · iexact Hv
  isplitl [HF0]; · iexact HF0
  isplitl [HF1]; · iexact HF1
  isplitr [HR HO]; · iempintro
  isplitl [HR]; · iexact HR
  iexists W'
  isplitr
  · ipureintro; exact hW'
  · iexact HO

/-- The invariant after the last trip, with its chunk numbers written out: chunks 24 and 25 in flight, chunks 0 .. 23
    landed, none left untouched. -/
theorem tinv_last (d : Dev nD) (L : grid0.Coords) (O : CellTallies nD τ sig (HIx 1)) (W : Waits sig (HIx 1))
    (xt : Vec F S26x16384 .i32) (fv : Vec F S26x512 .i32) (fo : Vec F S2600x16384 .i32) :
    LoopInv.tinv d L O W xt fv fo 12 ⟨⟩
      ⊢ (iprop(Transfers.MayWaits (V d (cV L) (jV L)) (none : HIx 1) O
        ∗ ((Memref.whole cc0_scratch0 : Memref sig .scVector .vmem S26x512 .i32).view.loc (V d (cV L) (jV L)) ↦{fullShare} XvFacts.xvC L xt fv)
        ∗ Transfers.Flight countersEmb (V d (cV L) (jV L)) (SemLoc.dma cc0_scratch3.sem) (default : HIx 1) LoopInv.AMT (LoopInv.deliv0 d L xt fv 24)
        ∗ Transfers.Flight countersEmb (V d (cV L) (jV L)) (SemLoc.dma cc0_scratch4.sem) (default : HIx 1) LoopInv.AMT (LoopInv.deliv1 d L xt fv 25)
        ∗ (bigSep (Finset.range 24) fun q => oLoc d ↦[chunk (wOf L) q]{fullShare} (Spec.oneHotT xt : Buf (Elt F) (oLoc d)))
        ∗ (bigSep ((Finset.range 26).filter fun q => 26 ≤ q) fun q => oLoc d ↦[chunk (wOf L) q]{fullShare} (fo : Buf (Elt F) (oLoc d)))
        ∗ ∃ W', ⌜∀ p ∈ W', p ∈ W ∨ p.2 = none⌝ ∗ owes (V d (cV L) (jV L)) O W') : sProp 𝕄) := by
  unfold LoopInv.tinv
  exact .refl

/-- After the last trip and the two last waits: the two last chunks have landed beside the first 24, which makes the
    slab's 26 chunks; the buffers came back with them; nothing is left untouched. -/
theorem finish (d : Dev nD) (L : grid0.Coords) (O : CellTallies nD τ sig (HIx 1)) (W : Waits sig (HIx 1))
    (xt : Vec F S26x16384 .i32) (fv : Vec F S26x512 .i32) (fo : Vec F S2600x16384 .i32) :
    (iprop(((TileBody.xtSl L).view.loc (V d (cV L) (jV L)) ↦[(TileBody.xtSl L).view.set]{fullShare} xt)
        ∗ ((Memref.whole cc0_scratch0 : Memref sig .scVector .vmem S26x512 .i32).view.loc (V d (cV L) (jV L)) ↦{fullShare} XvFacts.xvC L xt fv)
        ∗ LoopInv.deliv0 d L xt fv 24 ∗ LoopInv.deliv1 d L xt fv 25
        ∗ (bigSep (Finset.range 24) fun q => oLoc d ↦[chunk (wOf L) q]{fullShare} (Spec.oneHotT xt : Buf (Elt F) (oLoc d)))
        ∗ (bigSep ((Finset.range 26).filter fun q => 26 ≤ q) fun q => oLoc d ↦[chunk (wOf L) q]{fullShare} (fo : Buf (Elt F) (oLoc d)))
        ∗ semVal ((V d (cV L) (jV L)), SemLoc.dma cc0_scratch3.sem) 0 ∗ semVal ((V d (cV L) (jV L)), SemLoc.dma cc0_scratch4.sem) 0
        ∗ semVal ((V d (cV L) (jV L)), SemLoc.dma cc0_scratch5.sem) 0
        ∗ ∃ W', ⌜∀ p ∈ W', p ∈ W ∨ p.2 = none⌝ ∗ owes (V d (cV L) (jV L)) O W') : sProp 𝕄)
      ⊢ TileBody.postQ d L O W xt := by
  have e26 : bigSep (Finset.range 26) (fun q => oLoc d ↦[chunk (wOf L) q]{fullShare} (Spec.oneHotT xt : Buf (Elt F) (oLoc d)))
      = (iprop(bigSep (Finset.range 24) (fun q => oLoc d ↦[chunk (wOf L) q]{fullShare} (Spec.oneHotT xt : Buf (Elt F) (oLoc d)))
          ∗ (oLoc d ↦[chunk (wOf L) 24]{fullShare} (Spec.oneHotT xt : Buf (Elt F) (oLoc d)))
          ∗ (oLoc d ↦[chunk (wOf L) 25]{fullShare} (Spec.oneHotT xt : Buf (Elt F) (oLoc d)))) : sProp 𝕄) :=
    ChunkSep.range_add_two 24 _
  unfold TileBody.postQ LoopInv.deliv0 LoopInv.deliv1
  rw [ChunkSep.tail_none]
  iintro ⟨Hx, Hv, ⟨%g0, %_hp0, H0, HL24⟩, ⟨%g1, %_hp1, H1, HL25⟩, HL, -, HsA, HsB, HsC, HO⟩
  isplitl [Hx]; · iexact Hx
  isplitl [HL HL24 HL25]
  · iapply (Entails.of_eq e26.symm)
    isplitl [HL]; · iexact HL
    isplitl [HL24]; · iexact HL24
    iexact HL25
  isplitl [Hv]; · iexists _; iexact Hv
  isplitl [H0]; · iexists g0; iexact H0
  isplitl [H1]; · iexists g1; iexact H1
  isplitl [HsA]; · iexact HsA
  isplitl [HsB]; · iexact HsB
  isplitl [HsC]; · iexact HsC
  iexact HO

end Cert.KernelIdeal.LoopEnds

end
-- ==== Proof.LoadFacts.lean ====
/-
  The index vectors of a scatter's store, read lane by lane.

  A store of a chunk addresses the buffer through a row vector and a column vector. The row vector is a load of sixteen
  consecutive entries of one row of the 26 x 512 table of class numbers — row `r`, columns `c .. c + 15` — recast from
  one row of sixteen to a vector of sixteen lanes, plus a constant `hv` (0 for the first half of the chunk, 100 for the
  second): lane `x` holds `xv[r, c + x] + hv`, and since the class numbers are below 100 and `hv ≤ 100` the 32-bit sum is
  the sum of naturals (`row_of_load`). The column vector is a constant `base ≤ 240` plus the lane number: lane `x` holds
  `base + x` (`col_of_base`). `row_hrow` and `col_hcol` restate the two for store `n` of a chunk with table rows `c0`,
  `c1` and column base `hb`: `r` is `c0` or `c1` by the half `n / 16`, `c = hb + 16 (n % 16)`, `hv = 100 (n / 16)` and
  `base = 16 (n % 16)`.
-/
import proofs.«212700_g8504035246323_cont_9to1_m_53_19_alg».proof.Proof.Gen.KernelIdeal.Skeleton
import Idealize.ShloMosaic.Lib.ValueIdx
import Idealize.ShloMosaic.Lib.ValueLayout

namespace Cert.KernelIdeal.LoadFacts

open Cert.KernelIdeal Cert.KernelIdeal.Gen Idealize.ShloMosaic

variable {F : FTy → Type} [FloatOps F]

/-- A load of one row segment of sixteen entries, starting at row `r`, column `c`, read at its entry `i`: the table's
    entry in row `r`, column `c + i`. -/
theorem load_at (xv : Vec F S26x512 .i32) (r c : Nat)
    (inb : ∀ a, (![r, c] : Fin 2 → Nat) a + S1x16.size a ≤ S26x512.size a) (i : Fin 16) (hr : r < 26) (hc : c + i.val < 512) :
    (View.readAt (Elt F) (Memref.whole cc0_scratch0 : Memref sig .scVector .vmem S26x512 .i32).view (Rect.unit (s := S26x512) ![r, c] S1x16.size inb).toLoadRect xv) (ValueIdx.ix2 (0 : Fin 1) i)
      = xv (ValueIdx.ix2 ⟨r, hr⟩ ⟨c + i.val, hc⟩) := by
  show xv ((Rect.unit (s := S26x512) ![r, c] S1x16.size inb).toLoadRect.idx (ValueIdx.ix2 (0 : Fin 1) i)) = _
  congr 1
  funext a
  match a with
  | ⟨0, _⟩ => exact Fin.ext (by show r + 1 * 0 = r; omega)
  | ⟨1, _⟩ => exact Fin.ext (by show c + 1 * i.val = c + i.val; omega)

/-- The row vector of a scatter's store: the loaded class numbers, each below 100, plus the half's offset `hv ≤ 100`;
    no sum wraps around. -/
theorem row_of_load (xv : Vec F S26x512 .i32) (hx : ∀ i, (xv i : BitVec 32).toNat < 100) (off : Fin 2 → Nat)
    (inb : ∀ a, off a + S1x16.size a ≤ S26x512.size a)
    (r c : Nat) (hoff : off = ![r, c]) (hv : BitVec 32) (hhv : hv.toNat ≤ 100) (hs : S1x16.ShapeCasts S16) (x : S16.Idx) :
    ∃ (hr : r < 26) (hc : c + (x 0).val < 512),
      (addi (shapeCast S16 (View.readAt (Elt F) (Memref.whole cc0_scratch0 : Memref sig .scVector .vmem S26x512 .i32).view (Rect.unit (s := S26x512) off S1x16.size inb).toLoadRect xv) hs) (broadcast S16 hv) x).toNat
        = (xv (ValueIdx.ix2 ⟨r, hr⟩ ⟨c + (x 0).val, hc⟩) : BitVec 32).toNat + hv.toNat := by
  subst hoff
  have h0 : r + 1 ≤ 26 := inb 0
  have h1 : c + 16 ≤ 512 := inb 1
  have hx0 : (x 0).val < 16 := (x 0).isLt
  have hr : r < 26 := by omega
  have hc : c + (x 0).val < 512 := by omega
  refine ⟨hr, hc, ?_⟩
  have key : shapeCast S16 (View.readAt (Elt F) (Memref.whole cc0_scratch0 : Memref sig .scVector .vmem S26x512 .i32).view (Rect.unit (s := S26x512) ![r, c] S1x16.size inb).toLoadRect xv) hs x = xv (ValueIdx.ix2 ⟨r, hr⟩ ⟨c + (x 0).val, hc⟩) := by
    have e := ValueIdx.shapeCast_1a_a_apply (a := 16) (View.readAt (Elt F) (Memref.whole cc0_scratch0 : Memref sig .scVector .vmem S26x512 .i32).view (Rect.unit (s := S26x512) ![r, c] S1x16.size inb).toLoadRect xv) hs (x 0)
    refine Eq.trans ?_ (e.trans (load_at xv r c inb (x 0) hr hc))
    exact congrArg (shapeCast S16 _ hs) (ValueIdx.eq_ix1 x)
  show (IntOp.addi (shapeCast S16 (View.readAt (Elt F) (Memref.whole cc0_scratch0 : Memref sig .scVector .vmem S26x512 .i32).view (Rect.unit (s := S26x512) ![r, c] S1x16.size inb).toLoadRect xv) hs x) hv).toNat = _
  rw [key]
  have b := hx (ValueIdx.ix2 ⟨r, hr⟩ ⟨c + (x 0).val, hc⟩)
  unfold IntOp.addi
  rw [BitVec.toNat_add, Nat.mod_eq_of_lt (by omega)]

/-- The column vector of a scatter's store: the block's first column plus the lane number. -/
theorem col_of_base (base : BitVec 32) (hb : base.toNat ≤ 240) (x : S16.Idx) :
    (addi (broadcast S16 base) (iota .scVector S16 32 [0] iota_S16_d0_w32_scVector) x).toNat = base.toNat + (x 0).val := by
  have hx0 : (x 0).val < 16 := (x 0).isLt
  simp only [addi, IntOp.addi, broadcast, iota, List.foldl]
  simp only [BitVec.toNat_add, BitVec.toNat_ofNat, Matrix.cons_val_zero]
  omega

/-- The row vector of store `n` of a chunk, in the form the scatter's step lemmas take it: the load starts in row
    `c0` (first half) or `c1` (second half) at column `hb + 16 (n % 16)`, and the half's offset is `100 (n / 16)`. -/
theorem row_hrow (xv : Vec F S26x512 .i32) (hx : ∀ i, (xv i : BitVec 32).toNat < 100) (c0 c1 : Fin 26) (hb n : Nat) (hn : n < 32)
    (off : Fin 2 → Nat) (inb : ∀ a, off a + S1x16.size a ≤ S26x512.size a) (r c : Nat) (hoff : off = ![r, c])
    (hr : r = (if n < 16 then c0 else c1).val) (hc : c = hb + 16 * (n % 16))
    (hv : BitVec 32) (hhv : hv.toNat = 100 * (n / 16)) (hs : S1x16.ShapeCasts S16) :
    ∀ x : S16.Idx, ∃ h : hb + 16 * (n % 16) + (x 0).val < 512,
      (addi (shapeCast S16 (View.readAt (Elt F) (Memref.whole cc0_scratch0 : Memref sig .scVector .vmem S26x512 .i32).view (Rect.unit (s := S26x512) off S1x16.size inb).toLoadRect xv) hs) (broadcast S16 hv) x).toNat
        = (xv (ValueIdx.ix2 (if n < 16 then c0 else c1) ⟨hb + 16 * (n % 16) + (x 0).val, h⟩) : BitVec 32).toNat + 100 * (n / 16) := by
  intro x
  obtain ⟨hr', hc', e⟩ := row_of_load xv hx off inb r c hoff hv (by omega) hs x
  subst hr hc
  exact ⟨hc', e.trans (by rw [hhv])⟩

/-- The column vector of store `n` of a chunk, in the form the scatter's step lemmas take it. -/
theorem col_hcol (base : BitVec 32) (n : Nat) (hbase : base.toNat = 16 * (n % 16)) :
    ∀ x : S16.Idx, (addi (broadcast S16 base) (iota .scVector S16 32 [0] iota_S16_d0_w32_scVector) x).toNat
      = 16 * (n % 16) + (x 0).val := by
  intro x
  rw [col_of_base base (by omega) x, hbase]

end Cert.KernelIdeal.LoadFacts
-- ==== Proof.ScatterViews.lean ====
/-
  The scatter's claims read through a buffer's list of writes.

  A store through index vectors is, on the machine, a load of the whole buffer followed by a store of the whole buffer.
  So after such a store the buffer's newest write covers it whole, and what the next one loads is that write's payload.
  The claims `OH n` (ones stand exactly at the entries of the stores below `n`) and `UN n` (ones stand exactly at the
  entries of the stores from `n` on) therefore pass from one payload to the next by the one-store steps. The store's
  index vectors are spelt as the program computes them — the row vector a load of sixteen table entries plus the half's
  offset, the column vector the block's first column plus the lane number — and are read lane by lane here.
-/
import Idealize.ShloMosaic.Lib.Exec
import proofs.«212700_g8504035246323_cont_9to1_m_53_19_alg».proof.Proof.LibWholeWrites
import proofs.«212700_g8504035246323_cont_9to1_m_53_19_alg».proof.Proof.ScatterFacts
import proofs.«212700_g8504035246323_cont_9to1_m_53_19_alg».proof.Proof.LoadFacts

namespace Cert.KernelIdeal.ScatterViews

open Cert.KernelIdeal Cert.KernelIdeal.Gen Cert.Lib.WholeWrites Idealize.ShloMosaic

variable {F : FTy → Type} [FloatOps F] [∀ e, Nonempty (Elt F e)]

/-! ## `OH` through the first buffer's writes -/

/-- The contents after a newest write of the whole first buffer are that write's payload. -/
theorem OH_writes (xv : Vec F S26x512 .i32) (c0 c1 : Fin 26) (hb n : ℕ) (f w : cc0_scratch1.ty.Contents (Elt F))
    (L : List (View.Piece (Elt F) cc0_scratch1.ty.shape cc0_scratch1.ty.elt)) (hw : ScatterFacts.OH xv c0 c1 hb n w) :
    ScatterFacts.OH xv c0 c1 hb n ((Memref.whole cc0_scratch1).view.writes (Elt F) f (⟨Rect.whole _, w⟩ :: L)) := by
  rw [writes_whole_cons]; exact hw

/-- Store `n` of ones whose load finds a newest write of the whole first buffer. -/
theorem OH_step_cov (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch1.ty.Contents (Elt F)) (L : List (View.Piece (Elt F) cc0_scratch1.ty.shape cc0_scratch1.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.OH xv c0 c1 hb n w) :
    ScatterFacts.OH xv c0 c1 hb (n + 1)
      (storeIdx ((Memref.whole cc0_scratch1).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [readCov_whole_cons]
  exact ScatterFacts.OH_step (F := F) xv c0 c1 hb hhb n hn w _ _
    (LoadFacts.row_hrow xv hx c0 c1 hb n hn off inb r c hoff hr hc hv hhv hs) (LoadFacts.col_hcol base n hbase) h hw

/-- Store `n` of ones as the first store of a window, whose load reads the first buffer as the window found it. -/
theorem OH_step_at (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch1.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.OH xv c0 c1 hb n g) :
    ScatterFacts.OH xv c0 c1 hb (n + 1)
      (storeIdx ((Memref.whole cc0_scratch1).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [Memref.readAt_whole]
  exact ScatterFacts.OH_step (F := F) xv c0 c1 hb hhb n hn g _ _
    (LoadFacts.row_hrow xv hx c0 c1 hb n hn off inb r c hoff hr hc hv hhv hs) (LoadFacts.col_hcol base n hbase) h hg

/-! ## `UN` through the first buffer's writes -/

/-- The contents after a newest write of the whole first buffer are that write's payload. -/
theorem UN_writes (xv : Vec F S26x512 .i32) (c0 c1 : Fin 26) (hb n : ℕ) (f w : cc0_scratch1.ty.Contents (Elt F))
    (L : List (View.Piece (Elt F) cc0_scratch1.ty.shape cc0_scratch1.ty.elt)) (hw : ScatterFacts.UN xv c0 c1 hb n w) :
    ScatterFacts.UN xv c0 c1 hb n ((Memref.whole cc0_scratch1).view.writes (Elt F) f (⟨Rect.whole _, w⟩ :: L)) := by
  rw [writes_whole_cons]; exact hw

/-- Store `n` of zeros whose load finds a newest write of the whole first buffer. -/
theorem UN_step_cov (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch1.ty.Contents (Elt F)) (L : List (View.Piece (Elt F) cc0_scratch1.ty.shape cc0_scratch1.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.UN xv c0 c1 hb n w) :
    ScatterFacts.UN xv c0 c1 hb (n + 1)
      (storeIdx ((Memref.whole cc0_scratch1).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [readCov_whole_cons]
  exact ScatterFacts.UN_step (F := F) xv hx c0 c1 hb hhb n hn w _ _
    (LoadFacts.row_hrow xv hx c0 c1 hb n hn off inb r c hoff hr hc hv hhv hs) (LoadFacts.col_hcol base n hbase) h hw

/-- Store `n` of zeros as the first store of a window, whose load reads the first buffer as the window found it. -/
theorem UN_step_at (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch1.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.UN xv c0 c1 hb n g) :
    ScatterFacts.UN xv c0 c1 hb (n + 1)
      (storeIdx ((Memref.whole cc0_scratch1).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [Memref.readAt_whole]
  exact ScatterFacts.UN_step (F := F) xv hx c0 c1 hb hhb n hn g _ _
    (LoadFacts.row_hrow xv hx c0 c1 hb n hn off inb r c hoff hr hc hv hhv hs) (LoadFacts.col_hcol base n hbase) h hg

/-! ## `OH` through the second buffer's writes -/

/-- The contents after a newest write of the whole second buffer are that write's payload. -/
theorem OH_writes2 (xv : Vec F S26x512 .i32) (c0 c1 : Fin 26) (hb n : ℕ) (f w : cc0_scratch2.ty.Contents (Elt F))
    (L : List (View.Piece (Elt F) cc0_scratch2.ty.shape cc0_scratch2.ty.elt)) (hw : ScatterFacts.OH xv c0 c1 hb n w) :
    ScatterFacts.OH xv c0 c1 hb n ((Memref.whole cc0_scratch2).view.writes (Elt F) f (⟨Rect.whole _, w⟩ :: L)) := by
  rw [writes_whole_cons]; exact hw

/-- Store `n` of ones whose load finds a newest write of the whole second buffer. -/
theorem OH_step_cov2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch2.ty.Contents (Elt F)) (L : List (View.Piece (Elt F) cc0_scratch2.ty.shape cc0_scratch2.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.OH xv c0 c1 hb n w) :
    ScatterFacts.OH xv c0 c1 hb (n + 1)
      (storeIdx ((Memref.whole cc0_scratch2).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [readCov_whole_cons]
  exact ScatterFacts.OH_step (F := F) xv c0 c1 hb hhb n hn w _ _
    (LoadFacts.row_hrow xv hx c0 c1 hb n hn off inb r c hoff hr hc hv hhv hs) (LoadFacts.col_hcol base n hbase) h hw

/-- Store `n` of ones as the first store of a window, whose load reads the second buffer as the window found it. -/
theorem OH_step_at2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch2.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.OH xv c0 c1 hb n g) :
    ScatterFacts.OH xv c0 c1 hb (n + 1)
      (storeIdx ((Memref.whole cc0_scratch2).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [Memref.readAt_whole]
  exact ScatterFacts.OH_step (F := F) xv c0 c1 hb hhb n hn g _ _
    (LoadFacts.row_hrow xv hx c0 c1 hb n hn off inb r c hoff hr hc hv hhv hs) (LoadFacts.col_hcol base n hbase) h hg

/-! ## `UN` through the second buffer's writes -/

/-- The contents after a newest write of the whole second buffer are that write's payload. -/
theorem UN_writes2 (xv : Vec F S26x512 .i32) (c0 c1 : Fin 26) (hb n : ℕ) (f w : cc0_scratch2.ty.Contents (Elt F))
    (L : List (View.Piece (Elt F) cc0_scratch2.ty.shape cc0_scratch2.ty.elt)) (hw : ScatterFacts.UN xv c0 c1 hb n w) :
    ScatterFacts.UN xv c0 c1 hb n ((Memref.whole cc0_scratch2).view.writes (Elt F) f (⟨Rect.whole _, w⟩ :: L)) := by
  rw [writes_whole_cons]; exact hw

/-- Store `n` of zeros whose load finds a newest write of the whole second buffer. -/
theorem UN_step_cov2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch2.ty.Contents (Elt F)) (L : List (View.Piece (Elt F) cc0_scratch2.ty.shape cc0_scratch2.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.UN xv c0 c1 hb n w) :
    ScatterFacts.UN xv c0 c1 hb (n + 1)
      (storeIdx ((Memref.whole cc0_scratch2).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [readCov_whole_cons]
  exact ScatterFacts.UN_step (F := F) xv hx c0 c1 hb hhb n hn w _ _
    (LoadFacts.row_hrow xv hx c0 c1 hb n hn off inb r c hoff hr hc hv hhv hs) (LoadFacts.col_hcol base n hbase) h hw

/-- Store `n` of zeros as the first store of a window, whose load reads the second buffer as the window found it. -/
theorem UN_step_at2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch2.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.UN xv c0 c1 hb n g) :
    ScatterFacts.UN xv c0 c1 hb (n + 1)
      (storeIdx ((Memref.whole cc0_scratch2).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [Memref.readAt_whole]
  exact ScatterFacts.UN_step (F := F) xv hx c0 c1 hb hhb n hn g _ _
    (LoadFacts.row_hrow xv hx c0 c1 hb n hn off inb r c hoff hr hc hv hhv hs) (LoadFacts.col_hcol base n hbase) h hg

end Cert.KernelIdeal.ScatterViews
-- ==== Proof.Pictures.lean ====
/-
  The buffers after the zeroing loops are zero everywhere.

  The zeroing claim `Z t 0` says the buffer is zero in every column below `16 t`. The buffer has 256 columns, so once
  sixteen trips are done it is zero everywhere: where a scatter of ones starts from.
-/
import proofs.«212700_g8504035246323_cont_9to1_m_53_19_alg».proof.Proof.ZeroFacts
import proofs.«212700_g8504035246323_cont_9to1_m_53_19_alg».proof.Proof.ZeroFacts2
import Idealize.ShloMosaic.Lib.ValueIdx

namespace Cert.KernelIdeal.Pictures

open Cert.KernelIdeal Cert.KernelIdeal.Gen Idealize.ShloMosaic

variable {F : FTy → Type} [FloatOps F]

/-- Zero in every column below `16 t` with `t ≥ 16` is zero in all 256 columns. -/
theorem Z_all {t : ℕ} (ht : 16 ≤ t) (g : Vec F S200x256 .i32) (h : ZeroFacts.Z (F := F) t 0 g) : ∀ j, g j = (0#32 : BitVec 32) :=
  fun j => h j (Or.inl (by have := ValueIdx.idx2_lt1 j; omega))

/-- The same for the second buffer's zeroing claim. -/
theorem Z_all2 {t : ℕ} (ht : 16 ≤ t) (g : Vec F S200x256 .i32) (h : ZeroFacts2.Z (F := F) t 0 g) : ∀ j, g j = (0#32 : BitVec 32) :=
  fun j => h j (Or.inl (by have := ValueIdx.idx2_lt1 j; omega))

/-- The first zeroing loop makes sixteen trips, -/
theorem trips1_ge : 16 ≤ k0_t1_loop.trips := by decide
/-- and so does the second. -/
theorem trips2_ge : 16 ≤ k0_t2_loop.trips := by decide

end Cert.KernelIdeal.Pictures
-- ==== Proof.Trip.lean ====
/-
  One trip of the main loop.

  Before trip `k` the copies of chunks `2 k` and `2 k + 1` out of the two buffers are in flight. The trip waits for the
  first; the buffer comes back holding chunk `2 k`'s picture. Thirty-two stores of zeros through the index vectors that
  wrote that picture erase it, thirty-two stores of ones write chunk `2 (k + 1)`'s, and the buffer is copied out to
  that chunk. The same happens to the second buffer with chunks `2 k + 1` and `2 (k + 1) + 1`. Every store's indices
  are in range because the table's entries are class numbers below 100. After the trip the two chunks that landed are
  part of the finished coding, the two chunks sent are in flight, and the chunks from `2 (k + 1) + 2` on are as the
  tile found them: the invariant one trip on.
-/
import proofs.«212700_g8504035246323_cont_9to1_m_53_19_alg».proof.Proof.LoopInv
import proofs.«212700_g8504035246323_cont_9to1_m_53_19_alg».proof.Proof.LibWholeWrites
import proofs.«212700_g8504035246323_cont_9to1_m_53_19_alg».proof.Proof.LoadFacts
import proofs.«212700_g8504035246323_cont_9to1_m_53_19_alg».proof.Proof.ChunkSep
import proofs.«212700_g8504035246323_cont_9to1_m_53_19_alg».proof.Proof.ScatterViews
import proofs.«212700_g8504035246323_cont_9to1_m_53_19_alg».proof.Proof.TripB

noncomputable section

namespace Cert.KernelIdeal.Trip

open Cert.KernelIdeal Cert.KernelIdeal.Gen Cert.KernelIdeal.Tile Cert.KernelIdeal.Contract Cert.KernelIdeal.Geometry Cert.KernelIdeal.LoopInv Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.KernelIdeal.main_v0_scv : Memref Cert.KernelIdeal.sig Kind.scVector Space.hbm Cert.KernelIdeal.S26x16384 EltTy.i32)
local notation "oW" => (Memref.whole Cert.KernelIdeal.main_v1_scv : Memref Cert.KernelIdeal.sig Kind.scVector Space.hbm Cert.KernelIdeal.S2600x16384 EltTy.i32)
local notation "xvW" => (Memref.whole Cert.KernelIdeal.cc0_scratch0 : Memref Cert.KernelIdeal.sig Kind.scVector Space.vmem Cert.KernelIdeal.S26x512 EltTy.i32)
local notation "b0W" => (Memref.whole Cert.KernelIdeal.cc0_scratch1 : Memref Cert.KernelIdeal.sig Kind.scVector Space.vmem Cert.KernelIdeal.S200x256 EltTy.i32)
local notation "b1W" => (Memref.whole Cert.KernelIdeal.cc0_scratch2 : Memref Cert.KernelIdeal.sig Kind.scVector Space.vmem Cert.KernelIdeal.S200x256 EltTy.i32)

variable (d : Dev nD) (L : grid0.Coords)

/-- A chunk of the coding held is the chunk's slice held: the slice's elements are the chunk. -/
theorem pts_oSl (q : Nat) (off : Fin 2 → Nat) (inb : ∀ a, off a + S200x256.size a ≤ S2600x16384.size a)
    (hoff : off = ![200 * (q / 2), 512 * wOf L + 256 * (q % 2)]) (f : Buf (Elt F) (oLoc d)) :
    (oLoc d ↦[chunk (wOf L) q]{fullShare} f : sProp 𝕄)
      = (((oW).slice (Rect.unit (s := S2600x16384) off S200x256.size inb) (fun _ => rfl)).view.loc (V d (cV L) (jV L))
          ↦[((oW).slice (Rect.unit (s := S2600x16384) off S200x256.size inb) (fun _ => rfl)).view.set]{fullShare} f) :=
  (congrArg (fun S : Finset S2600x16384.Idx => (oLoc d ↦[S]{fullShare} f : sProp 𝕄)) (Geometry.set_oSl L q off inb hoff)).symm

/-- A load from the tile's copy of the table returns class numbers. -/
theorem ld_lt (xv : Vec F S26x512 .i32) (hxv : ∀ i, (xv i : BitVec 32).toNat < 100) (r : LoadRect S26x512) (y : r.shape.Idx) :
    ((View.readAt (Elt F) (Memref.whole cc0_scratch0 : Memref sig .scVector .vmem S26x512 .i32).view r xv y) : BitVec 32).toNat < 100 := hxv _

set_option sl_exec.dischHeartbeats 200000 in
set_option maxHeartbeats 4000000 in
theorem trip (O : CellTallies nD τ sig (HIx 1)) (W : Waits sig (HIx 1))
    (xt : Vec F S26x16384 .i32) (hx : ∀ i, (xt i : BitVec 32).toNat < 100) (fv : Vec F S26x512 .i32) (fo : Vec F S2600x16384 .i32)
    (v5 : BitVec 32) (vld : Vec F S1x16 .i32) (k : Fin k0_t3_loop.trips) :
    tinv d L O W xt fv fo k.val ⟨⟩
      ⊢ wp frame (wpE (defs₀ (F := F)) 𝒱₀ (V d (cV L) (jV L)) none) Set.univ
          (k0_t3_body L xtW (Memref.isWhole_whole _) oW (Memref.isWhole_whole _) xvW (Memref.isWhole_whole _) b0W (Memref.isWhole_whole _) b1W (Memref.isWhole_whole _)
            cc0_scratch3 cc0_scratch4 cc0_scratch5 ZeroFacts.lanes k0_pay259 k0_pay260 v5 vld k ⟨⟩)
          fun r => tinv d L O W xt fv fo (k.val + 1) r := by
  have hxv : ∀ i, ((XvFacts.xvC L xt fv) i : BitVec 32).toNat < 100 := XvFacts.xvC_lt L xt fv hx
  have hk : k.val < 12 := lt_of_lt_of_eq k.isLt (by decide)
  unfold k0_t3_body
  unfold tinv
  rw [ChunkSep.tail_split (2 * k.val + 2) (by omega),
    pts_oSl d L (2 * k.val + 2) (k0_off69 L k) (k0_off69_inb L k) ((Geometry.off69_eq L k).trans (by rw [show 2 * (k.val + 1) = 2 * k.val + 2 by ring])) fo,
    pts_oSl d L (2 * k.val + 2 + 1) (k0_off135 L k) (k0_off135_inb L k) ((Geometry.off135_eq L k).trans (by rw [show 2 * (k.val + 1) + 1 = 2 * k.val + 2 + 1 by ring])) fo]
  iintro ⟨#Hmw, Hv, Hf3, Hf4, Hdone, ⟨Hn0, Hn1, Hrest⟩, %W', %hW', HO⟩
  rw [wp_bind]; rw [k0_part67_eq_skeleton]; unfold k0_part67_skel
  -- window 27: the wait for chunk 2 k's copy out of the first buffer
  rw [wp_bind]; rw [k0_part27_eq_skeleton]; unfold k0_part27_skel
  sl_exec
  ihave Hmw3 := (Transfers.MayWaits.elim (SemLoc.dma cc0_scratch3.sem)) $$ Hmw
  iapply (Transfers.wp_waitLocalO countersEmb 𝒱₀ (V d (cV L) (jV L)) none (default : HIx 1) (N := AMT) rfl) $$ [Hf3 HO Hmw3]
  · isplitl [Hf3]; · iexact Hf3
    isplitl [HO]; · iexact HO
    iexact Hmw3
  iintro ⟨HD, Hs3, HO⟩
  unfold deliv0
  icases HD with ⟨%g0, %hg0, H0, Hc0⟩
  unfold heldB0
  -- the rest of window 27 and window 28 up to its first store
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  -- window 48: the wait for chunk 2 k + 1's copy out of the second buffer
  ihave Hmw4 := (Transfers.MayWaits.elim (SemLoc.dma cc0_scratch4.sem)) $$ Hmw
  iapply (Transfers.wp_waitLocalO countersEmb 𝒱₀ (V d (cV L) (jV L)) none (default : HIx 1) (N := AMT) rfl) $$ [Hf4 HO Hmw4]
  · isplitl [Hf4]; · iexact Hf4
    isplitl [HO]; · iexact HO
    iexact Hmw4
  iintro ⟨HD, Hs4, HO⟩
  unfold deliv1
  icases HD with ⟨%g1, %hg1, H1, Hc1⟩
  unfold heldB1
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  have hpic0 : LoopInv.Pic L xt fv (2 * (k.val + 1)) ((b0W).view.writes (Elt F) g0 (trip.sl.H0_64 L xt fv k hxv g0)) := by
    unfold LoopInv.Pic
    try unfold trip.sl.H0_64
    refine ScatterViews.OH_writes _ _ _ _ 32 _ _ _ ?_
    try unfold trip.sl.f_62
    try unfold trip.sl.H0_63
    refine ScatterViews.OH_step_cov (XvFacts.xvC L xt fv) hxv _ _ _ (by omega) 31 (by omega) (k0_off68 k) (k0_off68_inb k) _ _ (Geometry.off68_eq k) (by rw [if_neg (by decide), LoopInv.row1_val (by omega)]; omega) (by omega) 100#32 (by decide) 240#32 (by decide) _ _ _ _ ?_
    try unfold trip.sl.f_61
    try unfold trip.sl.H0_62
    refine ScatterViews.OH_step_cov (XvFacts.xvC L xt fv) hxv _ _ _ (by omega) 30 (by omega) (k0_off67 k) (k0_off67_inb k) _ _ (Geometry.off67_eq k) (by rw [if_neg (by decide), LoopInv.row1_val (by omega)]; omega) (by omega) 100#32 (by decide) 224#32 (by decide) _ _ _ _ ?_
    try unfold trip.sl.f_60
    try unfold trip.sl.H0_61
    refine ScatterViews.OH_step_cov (XvFacts.xvC L xt fv) hxv _ _ _ (by omega) 29 (by omega) (k0_off66 k) (k0_off66_inb k) _ _ (Geometry.off66_eq k) (by rw [if_neg (by decide), LoopInv.row1_val (by omega)]; omega) (by omega) 100#32 (by decide) 208#32 (by decide) _ _ _ _ ?_
    try unfold trip.sl.f_59
    try unfold trip.sl.H0_60
    refine ScatterViews.OH_step_cov (XvFacts.xvC L xt fv) hxv _ _ _ (by omega) 28 (by omega) (k0_off65 k) (k0_off65_inb k) _ _ (Geometry.off65_eq k) (by rw [if_neg (by decide), LoopInv.row1_val (by omega)]; omega) (by omega) 100#32 (by decide) 192#32 (by decide) _ _ _ _ ?_
    try unfold trip.sl.f_58
    try unfold trip.sl.H0_59
    refine ScatterViews.OH_step_cov (XvFacts.xvC L xt fv) hxv _ _ _ (by omega) 27 (by omega) (k0_off64 k) (k0_off64_inb k) _ _ (Geometry.off64_eq k) (by rw [if_neg (by decide), LoopInv.row1_val (by omega)]; omega) (by omega) 100#32 (by decide) 176#32 (by decide) _ _ _ _ ?_
    try unfold trip.sl.f_57
    try unfold trip.sl.H0_58
    refine ScatterViews.OH_step_cov (XvFacts.xvC L xt fv) hxv _ _ _ (by omega) 26 (by omega) (k0_off63 k) (k0_off63_inb k) _ _ (Geometry.off63_eq k) (by rw [if_neg (by decide), LoopInv.row1_val (by omega)]; omega) (by omega) 100#32 (by decide) 160#32 (by decide) _ _ _ _ ?_
    try unfold trip.sl.f_56
    try unfold trip.sl.H0_57
    refine ScatterViews.OH_step_cov (XvFacts.xvC L xt fv) hxv _ _ _ (by omega) 25 (by omega) (k0_off62 k) (k0_off62_inb k) _ _ (Geometry.off62_eq k) (by rw [if_neg (by decide), LoopInv.row1_val (by omega)]; omega) (by omega) 100#32 (by decide) 144#32 (by decide) _ _ _ _ ?_
    try unfold trip.sl.f_55
    try unfold trip.sl.H0_56
    refine ScatterViews.OH_step_cov (XvFacts.xvC L xt fv) hxv _ _ _ (by omega) 24 (by omega) (k0_off61 k) (k0_off61_inb k) _ _ (Geometry.off61_eq k) (by rw [if_neg (by decide), LoopInv.row1_val (by omega)]; omega) (by omega) 100#32 (by decide) 128#32 (by decide) _ _ _ _ ?_
    try unfold trip.sl.f_54
    try unfold trip.sl.H0_55
    refine ScatterViews.OH_step_cov (XvFacts.xvC L xt fv) hxv _ _ _ (by omega) 23 (by omega) (k0_off60 k) (k0_off60_inb k) _ _ (Geometry.off60_eq k) (by rw [if_neg (by decide), LoopInv.row1_val (by omega)]; omega) (by omega) 100#32 (by decide) 112#32 (by decide) _ _ _ _ ?_
    try unfold trip.sl.f_53
    try unfold trip.sl.H0_54
    refine ScatterViews.OH_step_cov (XvFacts.xvC L xt fv) hxv _ _ _ (by omega) 22 (by omega) (k0_off59 k) (k0_off59_inb k) _ _ (Geometry.off59_eq k) (by rw [if_neg (by decide), LoopInv.row1_val (by omega)]; omega) (by omega) 100#32 (by decide) 96#32 (by decide) _ _ _ _ ?_
    try unfold trip.sl.f_52
    try unfold trip.sl.H0_53
    refine ScatterViews.OH_step_cov (XvFacts.xvC L xt fv) hxv _ _ _ (by omega) 21 (by omega) (k0_off58 k) (k0_off58_inb k) _ _ (Geometry.off58_eq k) (by rw [if_neg (by decide), LoopInv.row1_val (by omega)]; omega) (by omega) 100#32 (by decide) 80#32 (by decide) _ _ _ _ ?_
    try unfold trip.sl.f_51
    try unfold trip.sl.H0_52
    refine ScatterViews.OH_step_cov (XvFacts.xvC L xt fv) hxv _ _ _ (by omega) 20 (by omega) (k0_off57 k) (k0_off57_inb k) _ _ (Geometry.off57_eq k) (by rw [if_neg (by decide), LoopInv.row1_val (by omega)]; omega) (by omega) 100#32 (by decide) 64#32 (by decide) _ _ _ _ ?_
    try unfold trip.sl.f_50
    try unfold trip.sl.H0_51
    refine ScatterViews.OH_step_cov (XvFacts.xvC L xt fv) hxv _ _ _ (by omega) 19 (by omega) (k0_off56 k) (k0_off56_inb k) _ _ (Geometry.off56_eq k) (by rw [if_neg (by decide), LoopInv.row1_val (by omega)]; omega) (by omega) 100#32 (by decide) 48#32 (by decide) _ _ _ _ ?_
    try unfold trip.sl.f_49
    try unfold trip.sl.H0_50
    refine ScatterViews.OH_step_cov (XvFacts.xvC L xt fv) hxv _ _ _ (by omega) 18 (by omega) (k0_off55 k) (k0_off55_inb k) _ _ (Geometry.off55_eq k) (by rw [if_neg (by decide), LoopInv.row1_val (by omega)]; omega) (by omega) 100#32 (by decide) 32#32 (by decide) _ _ _ _ ?_
    try unfold trip.sl.f_48
    try unfold trip.sl.H0_49
    refine ScatterViews.OH_step_cov (XvFacts.xvC L xt fv) hxv _ _ _ (by omega) 17 (by omega) (k0_off54 k) (k0_off54_inb k) _ _ (Geometry.off54_eq k) (by rw [if_neg (by decide), LoopInv.row1_val (by omega)]; omega) (by omega) 100#32 (by decide) 16#32 (by decide) _ _ _ _ ?_
    try unfold trip.sl.f_47
    try unfold trip.sl.H0_48
    refine ScatterViews.OH_step_cov (XvFacts.xvC L xt fv) hxv _ _ _ (by omega) 16 (by omega) (k0_off53 k) (k0_off53_inb k) _ _ (Geometry.off53_eq k) (by rw [if_neg (by decide), LoopInv.row1_val (by omega)]; omega) (by omega) 100#32 (by decide) 0#32 (by decide) _ _ _ _ ?_
    try unfold trip.sl.f_46
    try unfold trip.sl.H0_47
    refine ScatterViews.OH_step_cov (XvFacts.xvC L xt fv) hxv _ _ _ (by omega) 15 (by omega) (k0_off52 k) (k0_off52_inb k) _ _ (Geometry.off52_eq k) (by rw [if_pos (by decide), LoopInv.row0_val (by omega)]; omega) (by omega) 0#32 (by decide) 240#32 (by decide) _ _ _ _ ?_
    try unfold trip.sl.f_45
    try unfold trip.sl.H0_46
    refine ScatterViews.OH_step_cov (XvFacts.xvC L xt fv) hxv _ _ _ (by omega) 14 (by omega) (k0_off51 k) (k0_off51_inb k) _ _ (Geometry.off51_eq k) (by rw [if_pos (by decide), LoopInv.row0_val (by omega)]; omega) (by omega) 0#32 (by decide) 224#32 (by decide) _ _ _ _ ?_
    try unfold trip.sl.f_44
    try unfold trip.sl.H0_45
    refine ScatterViews.OH_step_cov (XvFacts.xvC L xt fv) hxv _ _ _ (by omega) 13 (by omega) (k0_off50 k) (k0_off50_inb k) _ _ (Geometry.off50_eq k) (by rw [if_pos (by decide), LoopInv.row0_val (by omega)]; omega) (by omega) 0#32 (by decide) 208#32 (by decide) _ _ _ _ ?_
    try unfold trip.sl.f_43
    try unfold trip.sl.H0_44
    refine ScatterViews.OH_step_cov (XvFacts.xvC L xt fv) hxv _ _ _ (by omega) 12 (by omega) (k0_off49 k) (k0_off49_inb k) _ _ (Geometry.off49_eq k) (by rw [if_pos (by decide), LoopInv.row0_val (by omega)]; omega) (by omega) 0#32 (by decide) 192#32 (by decide) _ _ _ _ ?_
    try unfold trip.sl.f_42
    try unfold trip.sl.H0_43
    refine ScatterViews.OH_step_cov (XvFacts.xvC L xt fv) hxv _ _ _ (by omega) 11 (by omega) (k0_off48 k) (k0_off48_inb k) _ _ (Geometry.off48_eq k) (by rw [if_pos (by decide), LoopInv.row0_val (by omega)]; omega) (by omega) 0#32 (by decide) 176#32 (by decide) _ _ _ _ ?_
    try unfold trip.sl.f_41
    try unfold trip.sl.H0_42
    refine ScatterViews.OH_step_cov (XvFacts.xvC L xt fv) hxv _ _ _ (by omega) 10 (by omega) (k0_off47 k) (k0_off47_inb k) _ _ (Geometry.off47_eq k) (by rw [if_pos (by decide), LoopInv.row0_val (by omega)]; omega) (by omega) 0#32 (by decide) 160#32 (by decide) _ _ _ _ ?_
    try unfold trip.sl.f_40
    try unfold trip.sl.H0_41
    refine ScatterViews.OH_step_cov (XvFacts.xvC L xt fv) hxv _ _ _ (by omega) 9 (by omega) (k0_off46 k) (k0_off46_inb k) _ _ (Geometry.off46_eq k) (by rw [if_pos (by decide), LoopInv.row0_val (by omega)]; omega) (by omega) 0#32 (by decide) 144#32 (by decide) _ _ _ _ ?_
    try unfold trip.sl.f_39
    try unfold trip.sl.H0_40
    refine ScatterViews.OH_step_cov (XvFacts.xvC L xt fv) hxv _ _ _ (by omega) 8 (by omega) (k0_off45 k) (k0_off45_inb k) _ _ (Geometry.off45_eq k) (by rw [if_pos (by decide), LoopInv.row0_val (by omega)]; omega) (by omega) 0#32 (by decide) 128#32 (by decide) _ _ _ _ ?_
    try unfold trip.sl.f_38
    try unfold trip.sl.H0_39
    refine ScatterViews.OH_step_cov (XvFacts.xvC L xt fv) hxv _ _ _ (by omega) 7 (by omega) (k0_off44 k) (k0_off44_inb k) _ _ (Geometry.off44_eq k) (by rw [if_pos (by decide), LoopInv.row0_val (by omega)]; omega) (by omega) 0#32 (by decide) 112#32 (by decide) _ _ _ _ ?_
    try unfold trip.sl.f_37
    try unfold trip.sl.H0_38
    refine ScatterViews.OH_step_cov (XvFacts.xvC L xt fv) hxv _ _ _ (by omega) 6 (by omega) (k0_off43 k) (k0_off43_inb k) _ _ (Geometry.off43_eq k) (by rw [if_pos (by decide), LoopInv.row0_val (by omega)]; omega) (by omega) 0#32 (by decide) 96#32 (by decide) _ _ _ _ ?_
    try unfold trip.sl.f_36
    try unfold trip.sl.H0_37
    refine ScatterViews.OH_step_cov (XvFacts.xvC L xt fv) hxv _ _ _ (by omega) 5 (by omega) (k0_off42 k) (k0_off42_inb k) _ _ (Geometry.off42_eq k) (by rw [if_pos (by decide), LoopInv.row0_val (by omega)]; omega) (by omega) 0#32 (by decide) 80#32 (by decide) _ _ _ _ ?_
    try unfold trip.sl.f_35
    try unfold trip.sl.H0_36
    refine ScatterViews.OH_step_cov (XvFacts.xvC L xt fv) hxv _ _ _ (by omega) 4 (by omega) (k0_off41 k) (k0_off41_inb k) _ _ (Geometry.off41_eq k) (by rw [if_pos (by decide), LoopInv.row0_val (by omega)]; omega) (by omega) 0#32 (by decide) 64#32 (by decide) _ _ _ _ ?_
    try unfold trip.sl.f_34
    try unfold trip.sl.H0_35
    refine ScatterViews.OH_step_cov (XvFacts.xvC L xt fv) hxv _ _ _ (by omega) 3 (by omega) (k0_off40 k) (k0_off40_inb k) _ _ (Geometry.off40_eq k) (by rw [if_pos (by decide), LoopInv.row0_val (by omega)]; omega) (by omega) 0#32 (by decide) 48#32 (by decide) _ _ _ _ ?_
    try unfold trip.sl.f_33
    try unfold trip.sl.H0_34
    refine ScatterViews.OH_step_cov (XvFacts.xvC L xt fv) hxv _ _ _ (by omega) 2 (by omega) (k0_off39 k) (k0_off39_inb k) _ _ (Geometry.off39_eq k) (by rw [if_pos (by decide), LoopInv.row0_val (by omega)]; omega) (by omega) 0#32 (by decide) 32#32 (by decide) _ _ _ _ ?_
    try unfold trip.sl.f_32
    try unfold trip.sl.H0_33
    refine ScatterViews.OH_step_cov (XvFacts.xvC L xt fv) hxv _ _ _ (by omega) 1 (by omega) (k0_off38 k) (k0_off38_inb k) _ _ (Geometry.off38_eq k) (by rw [if_pos (by decide), LoopInv.row0_val (by omega)]; omega) (by omega) 0#32 (by decide) 16#32 (by decide) _ _ _ _ ?_
    try unfold trip.sl.f_31
    try unfold trip.sl.H0_32
    refine ScatterViews.OH_step_cov (XvFacts.xvC L xt fv) hxv _ _ _ (by omega) 0 (by omega) (k0_off37 k) (k0_off37_inb k) _ _ (Geometry.off37_eq k) (by rw [if_pos (by decide), LoopInv.row0_val (by omega)]; omega) (by omega) 0#32 (by decide) 0#32 (by decide) _ _ _ _ ?_
    refine ScatterFacts.OH_zero _ _ _ _ _ (ScatterFacts.UN_full (XvFacts.xvC L xt fv) (LoopInv.row0 (2 * k.val)) (LoopInv.row1 (2 * k.val)) (256 * ((2 * k.val) % 2)) _ ?_)
    try unfold trip.sl.f_30
    try unfold trip.sl.H0_31
    refine ScatterViews.UN_step_cov (XvFacts.xvC L xt fv) hxv _ _ _ (by omega) 31 (by omega) (k0_off36 k) (k0_off36_inb k) _ _ (Geometry.off36_eq k) (by rw [if_neg (by decide), LoopInv.row1_val (by omega)]; omega) (by omega) 100#32 (by decide) 240#32 (by decide) _ _ _ _ ?_
    try unfold trip.sl.f_29
    try unfold trip.sl.H0_30
    refine ScatterViews.UN_step_cov (XvFacts.xvC L xt fv) hxv _ _ _ (by omega) 30 (by omega) (k0_off35 k) (k0_off35_inb k) _ _ (Geometry.off35_eq k) (by rw [if_neg (by decide), LoopInv.row1_val (by omega)]; omega) (by omega) 100#32 (by decide) 224#32 (by decide) _ _ _ _ ?_
    try unfold trip.sl.f_28
    try unfold trip.sl.H0_29
    refine ScatterViews.UN_step_cov (XvFacts.xvC L xt fv) hxv _ _ _ (by omega) 29 (by omega) (k0_off34 k) (k0_off34_inb k) _ _ (Geometry.off34_eq k) (by rw [if_neg (by decide), LoopInv.row1_val (by omega)]; omega) (by omega) 100#32 (by decide) 208#32 (by decide) _ _ _ _ ?_
    try unfold trip.sl.f_27
    try unfold trip.sl.H0_28
    refine ScatterViews.UN_step_cov (XvFacts.xvC L xt fv) hxv _ _ _ (by omega) 28 (by omega) (k0_off33 k) (k0_off33_inb k) _ _ (Geometry.off33_eq k) (by rw [if_neg (by decide), LoopInv.row1_val (by omega)]; omega) (by omega) 100#32 (by decide) 192#32 (by decide) _ _ _ _ ?_
    try unfold trip.sl.f_26
    try unfold trip.sl.H0_27
    refine ScatterViews.UN_step_cov (XvFacts.xvC L xt fv) hxv _ _ _ (by omega) 27 (by omega) (k0_off32 k) (k0_off32_inb k) _ _ (Geometry.off32_eq k) (by rw [if_neg (by decide), LoopInv.row1_val (by omega)]; omega) (by omega) 100#32 (by decide) 176#32 (by decide) _ _ _ _ ?_
    try unfold trip.sl.f_25
    try unfold trip.sl.H0_26
    refine ScatterViews.UN_step_cov (XvFacts.xvC L xt fv) hxv _ _ _ (by omega) 26 (by omega) (k0_off31 k) (k0_off31_inb k) _ _ (Geometry.off31_eq k) (by rw [if_neg (by decide), LoopInv.row1_val (by omega)]; omega) (by omega) 100#32 (by decide) 160#32 (by decide) _ _ _ _ ?_
    try unfold trip.sl.f_24
    try unfold trip.sl.H0_25
    refine ScatterViews.UN_step_cov (XvFacts.xvC L xt fv) hxv _ _ _ (by omega) 25 (by omega) (k0_off30 k) (k0_off30_inb k) _ _ (Geometry.off30_eq k) (by rw [if_neg (by decide), LoopInv.row1_val (by omega)]; omega) (by omega) 100#32 (by decide) 144#32 (by decide) _ _ _ _ ?_
    try unfold trip.sl.f_23
    try unfold trip.sl.H0_24
    refine ScatterViews.UN_step_cov (XvFacts.xvC L xt fv) hxv _ _ _ (by omega) 24 (by omega) (k0_off29 k) (k0_off29_inb k) _ _ (Geometry.off29_eq k) (by rw [if_neg (by decide), LoopInv.row1_val (by omega)]; omega) (by omega) 100#32 (by decide) 128#32 (by decide) _ _ _ _ ?_
    try unfold trip.sl.f_22
    try unfold trip.sl.H0_23
    refine ScatterViews.UN_step_cov (XvFacts.xvC L xt fv) hxv _ _ _ (by omega) 23 (by omega) (k0_off28 k) (k0_off28_inb k) _ _ (Geometry.off28_eq k) (by rw [if_neg (by decide), LoopInv.row1_val (by omega)]; omega) (by omega) 100#32 (by decide) 112#32 (by decide) _ _ _ _ ?_
    try unfold trip.sl.f_21
    try unfold trip.sl.H0_22
    refine ScatterViews.UN_step_cov (XvFacts.xvC L xt fv) hxv _ _ _ (by omega) 22 (by omega) (k0_off27 k) (k0_off27_inb k) _ _ (Geometry.off27_eq k) (by rw [if_neg (by decide), LoopInv.row1_val (by omega)]; omega) (by omega) 100#32 (by decide) 96#32 (by decide) _ _ _ _ ?_
    try unfold trip.sl.f_20
    try unfold trip.sl.H0_21
    refine ScatterViews.UN_step_cov (XvFacts.xvC L xt fv) hxv _ _ _ (by omega) 21 (by omega) (k0_off26 k) (k0_off26_inb k) _ _ (Geometry.off26_eq k) (by rw [if_neg (by decide), LoopInv.row1_val (by omega)]; omega) (by omega) 100#32 (by decide) 80#32 (by decide) _ _ _ _ ?_
    try unfold trip.sl.f_19
    try unfold trip.sl.H0_20
    refine ScatterViews.UN_step_cov (XvFacts.xvC L xt fv) hxv _ _ _ (by omega) 20 (by omega) (k0_off25 k) (k0_off25_inb k) _ _ (Geometry.off25_eq k) (by rw [if_neg (by decide), LoopInv.row1_val (by omega)]; omega) (by omega) 100#32 (by decide) 64#32 (by decide) _ _ _ _ ?_
    try unfold trip.sl.f_18
    try unfold trip.sl.H0_19
    refine ScatterViews.UN_step_cov (XvFacts.xvC L xt fv) hxv _ _ _ (by omega) 19 (by omega) (k0_off24 k) (k0_off24_inb k) _ _ (Geometry.off24_eq k) (by rw [if_neg (by decide), LoopInv.row1_val (by omega)]; omega) (by omega) 100#32 (by decide) 48#32 (by decide) _ _ _ _ ?_
    try unfold trip.sl.f_17
    try unfold trip.sl.H0_18
    refine ScatterViews.UN_step_cov (XvFacts.xvC L xt fv) hxv _ _ _ (by omega) 18 (by omega) (k0_off23 k) (k0_off23_inb k) _ _ (Geometry.off23_eq k) (by rw [if_neg (by decide), LoopInv.row1_val (by omega)]; omega) (by omega) 100#32 (by decide) 32#32 (by decide) _ _ _ _ ?_
    try unfold trip.sl.f_16
    try unfold trip.sl.H0_17
    refine ScatterViews.UN_step_cov (XvFacts.xvC L xt fv) hxv _ _ _ (by omega) 17 (by omega) (k0_off22 k) (k0_off22_inb k) _ _ (Geometry.off22_eq k) (by rw [if_neg (by decide), LoopInv.row1_val (by omega)]; omega) (by omega) 100#32 (by decide) 16#32 (by decide) _ _ _ _ ?_
    try unfold trip.sl.f_15
    try unfold trip.sl.H0_16
    refine ScatterViews.UN_step_cov (XvFacts.xvC L xt fv) hxv _ _ _ (by omega) 16 (by omega) (k0_off21 k) (k0_off21_inb k) _ _ (Geometry.off21_eq k) (by rw [if_neg (by decide), LoopInv.row1_val (by omega)]; omega) (by omega) 100#32 (by decide) 0#32 (by decide) _ _ _ _ ?_
    try unfold trip.sl.f_14
    try unfold trip.sl.H0_15
    refine ScatterViews.UN_step_cov (XvFacts.xvC L xt fv) hxv _ _ _ (by omega) 15 (by omega) (k0_off20 k) (k0_off20_inb k) _ _ (Geometry.off20_eq k) (by rw [if_pos (by decide), LoopInv.row0_val (by omega)]; omega) (by omega) 0#32 (by decide) 240#32 (by decide) _ _ _ _ ?_
    try unfold trip.sl.f_13
    try unfold trip.sl.H0_14
    refine ScatterViews.UN_step_cov (XvFacts.xvC L xt fv) hxv _ _ _ (by omega) 14 (by omega) (k0_off19 k) (k0_off19_inb k) _ _ (Geometry.off19_eq k) (by rw [if_pos (by decide), LoopInv.row0_val (by omega)]; omega) (by omega) 0#32 (by decide) 224#32 (by decide) _ _ _ _ ?_
    try unfold trip.sl.f_12
    try unfold trip.sl.H0_13
    refine ScatterViews.UN_step_cov (XvFacts.xvC L xt fv) hxv _ _ _ (by omega) 13 (by omega) (k0_off18 k) (k0_off18_inb k) _ _ (Geometry.off18_eq k) (by rw [if_pos (by decide), LoopInv.row0_val (by omega)]; omega) (by omega) 0#32 (by decide) 208#32 (by decide) _ _ _ _ ?_
    try unfold trip.sl.f_11
    try unfold trip.sl.H0_12
    refine ScatterViews.UN_step_cov (XvFacts.xvC L xt fv) hxv _ _ _ (by omega) 12 (by omega) (k0_off17 k) (k0_off17_inb k) _ _ (Geometry.off17_eq k) (by rw [if_pos (by decide), LoopInv.row0_val (by omega)]; omega) (by omega) 0#32 (by decide) 192#32 (by decide) _ _ _ _ ?_
    try unfold trip.sl.f_10
    try unfold trip.sl.H0_11
    refine ScatterViews.UN_step_cov (XvFacts.xvC L xt fv) hxv _ _ _ (by omega) 11 (by omega) (k0_off16 k) (k0_off16_inb k) _ _ (Geometry.off16_eq k) (by rw [if_pos (by decide), LoopInv.row0_val (by omega)]; omega) (by omega) 0#32 (by decide) 176#32 (by decide) _ _ _ _ ?_
    try unfold trip.sl.f_9
    try unfold trip.sl.H0_10
    refine ScatterViews.UN_step_cov (XvFacts.xvC L xt fv) hxv _ _ _ (by omega) 10 (by omega) (k0_off15 k) (k0_off15_inb k) _ _ (Geometry.off15_eq k) (by rw [if_pos (by decide), LoopInv.row0_val (by omega)]; omega) (by omega) 0#32 (by decide) 160#32 (by decide) _ _ _ _ ?_
    try unfold trip.sl.f_8
    try unfold trip.sl.H0_9
    refine ScatterViews.UN_step_cov (XvFacts.xvC L xt fv) hxv _ _ _ (by omega) 9 (by omega) (k0_off14 k) (k0_off14_inb k) _ _ (Geometry.off14_eq k) (by rw [if_pos (by decide), LoopInv.row0_val (by omega)]; omega) (by omega) 0#32 (by decide) 144#32 (by decide) _ _ _ _ ?_
    try unfold trip.sl.f_7
    try unfold trip.sl.H0_8
    refine ScatterViews.UN_step_cov (XvFacts.xvC L xt fv) hxv _ _ _ (by omega) 8 (by omega) (k0_off13 k) (k0_off13_inb k) _ _ (Geometry.off13_eq k) (by rw [if_pos (by decide), LoopInv.row0_val (by omega)]; omega) (by omega) 0#32 (by decide) 128#32 (by decide) _ _ _ _ ?_
    try unfold trip.sl.f_6
    try unfold trip.sl.H0_7
    refine ScatterViews.UN_step_cov (XvFacts.xvC L xt fv) hxv _ _ _ (by omega) 7 (by omega) (k0_off12 k) (k0_off12_inb k) _ _ (Geometry.off12_eq k) (by rw [if_pos (by decide), LoopInv.row0_val (by omega)]; omega) (by omega) 0#32 (by decide) 112#32 (by decide) _ _ _ _ ?_
    try unfold trip.sl.f_5
    try unfold trip.sl.H0_6
    refine ScatterViews.UN_step_cov (XvFacts.xvC L xt fv) hxv _ _ _ (by omega) 6 (by omega) (k0_off11 k) (k0_off11_inb k) _ _ (Geometry.off11_eq k) (by rw [if_pos (by decide), LoopInv.row0_val (by omega)]; omega) (by omega) 0#32 (by decide) 96#32 (by decide) _ _ _ _ ?_
    try unfold trip.sl.f_4
    try unfold trip.sl.H0_5
    refine ScatterViews.UN_step_cov (XvFacts.xvC L xt fv) hxv _ _ _ (by omega) 5 (by omega) (k0_off10 k) (k0_off10_inb k) _ _ (Geometry.off10_eq k) (by rw [if_pos (by decide), LoopInv.row0_val (by omega)]; omega) (by omega) 0#32 (by decide) 80#32 (by decide) _ _ _ _ ?_
    try unfold trip.sl.f_3
    try unfold trip.sl.H0_4
    refine ScatterViews.UN_step_cov (XvFacts.xvC L xt fv) hxv _ _ _ (by omega) 4 (by omega) (k0_off9 k) (k0_off9_inb k) _ _ (Geometry.off9_eq k) (by rw [if_pos (by decide), LoopInv.row0_val (by omega)]; omega) (by omega) 0#32 (by decide) 64#32 (by decide) _ _ _ _ ?_
    try unfold trip.sl.f_2
    try unfold trip.sl.H0_3
    refine ScatterViews.UN_step_cov (XvFacts.xvC L xt fv) hxv _ _ _ (by omega) 3 (by omega) (k0_off8 k) (k0_off8_inb k) _ _ (Geometry.off8_eq k) (by rw [if_pos (by decide), LoopInv.row0_val (by omega)]; omega) (by omega) 0#32 (by decide) 48#32 (by decide) _ _ _ _ ?_
    try unfold trip.sl.f_1
    try unfold trip.sl.H0_2
    refine ScatterViews.UN_step_cov (XvFacts.xvC L xt fv) hxv _ _ _ (by omega) 2 (by omega) (k0_off7 k) (k0_off7_inb k) _ _ (Geometry.off7_eq k) (by rw [if_pos (by decide), LoopInv.row0_val (by omega)]; omega) (by omega) 0#32 (by decide) 32#32 (by decide) _ _ _ _ ?_
    try unfold trip.sl.f
    try unfold trip.sl.H0_1
    refine ScatterViews.UN_step_cov (XvFacts.xvC L xt fv) hxv _ _ _ (by omega) 1 (by omega) (k0_off6 k) (k0_off6_inb k) _ _ (Geometry.off6_eq k) (by rw [if_pos (by decide), LoopInv.row0_val (by omega)]; omega) (by omega) 0#32 (by decide) 16#32 (by decide) _ _ _ _ ?_
    refine ScatterViews.UN_step_at (XvFacts.xvC L xt fv) hxv _ _ _ (by omega) 0 (by omega) (k0_off5 k) (k0_off5_inb k) _ _ (Geometry.off5_eq k) (by rw [if_pos (by decide), LoopInv.row0_val (by omega)]; omega) (by omega) 0#32 (by decide) 0#32 (by decide) _ _ _ ?_
    exact ScatterFacts.UN_of_OH (XvFacts.xvC L xt fv) (LoopInv.row0 (2 * k.val)) (LoopInv.row1 (2 * k.val)) (256 * ((2 * k.val) % 2)) _ hg0
  have hpic1 : LoopInv.Pic L xt fv (2 * (k.val + 1) + 1) ((b1W).view.writes (Elt F) g1 (trip.sl.H1_64 L xt fv k hxv g1)) := by
    unfold LoopInv.Pic
    try unfold trip.sl.H1_64
    refine ScatterViews.OH_writes2 _ _ _ _ 32 _ _ _ ?_
    try unfold trip.sl.f_125
    try unfold trip.sl.H1_63
    refine ScatterViews.OH_step_cov2 (XvFacts.xvC L xt fv) hxv _ _ _ (by omega) 31 (by omega) (k0_off134 k) (k0_off134_inb k) _ _ (Geometry.off134_eq k) (by rw [if_neg (by decide), LoopInv.row1_val (by omega)]; omega) (by omega) 100#32 (by decide) 240#32 (by decide) _ _ _ _ ?_
    try unfold trip.sl.f_124
    try unfold trip.sl.H1_62
    refine ScatterViews.OH_step_cov2 (XvFacts.xvC L xt fv) hxv _ _ _ (by omega) 30 (by omega) (k0_off133 k) (k0_off133_inb k) _ _ (Geometry.off133_eq k) (by rw [if_neg (by decide), LoopInv.row1_val (by omega)]; omega) (by omega) 100#32 (by decide) 224#32 (by decide) _ _ _ _ ?_
    try unfold trip.sl.f_123
    try unfold trip.sl.H1_61
    refine ScatterViews.OH_step_cov2 (XvFacts.xvC L xt fv) hxv _ _ _ (by omega) 29 (by omega) (k0_off132 k) (k0_off132_inb k) _ _ (Geometry.off132_eq k) (by rw [if_neg (by decide), LoopInv.row1_val (by omega)]; omega) (by omega) 100#32 (by decide) 208#32 (by decide) _ _ _ _ ?_
    try unfold trip.sl.f_122
    try unfold trip.sl.H1_60
    refine ScatterViews.OH_step_cov2 (XvFacts.xvC L xt fv) hxv _ _ _ (by omega) 28 (by omega) (k0_off131 k) (k0_off131_inb k) _ _ (Geometry.off131_eq k) (by rw [if_neg (by decide), LoopInv.row1_val (by omega)]; omega) (by omega) 100#32 (by decide) 192#32 (by decide) _ _ _ _ ?_
    try unfold trip.sl.f_121
    try unfold trip.sl.H1_59
    refine ScatterViews.OH_step_cov2 (XvFacts.xvC L xt fv) hxv _ _ _ (by omega) 27 (by omega) (k0_off130 k) (k0_off130_inb k) _ _ (Geometry.off130_eq k) (by rw [if_neg (by decide), LoopInv.row1_val (by omega)]; omega) (by omega) 100#32 (by decide) 176#32 (by decide) _ _ _ _ ?_
    try unfold trip.sl.f_120
    try unfold trip.sl.H1_58
    refine ScatterViews.OH_step_cov2 (XvFacts.xvC L xt fv) hxv _ _ _ (by omega) 26 (by omega) (k0_off129 k) (k0_off129_inb k) _ _ (Geometry.off129_eq k) (by rw [if_neg (by decide), LoopInv.row1_val (by omega)]; omega) (by omega) 100#32 (by decide) 160#32 (by decide) _ _ _ _ ?_
    try unfold trip.sl.f_119
    try unfold trip.sl.H1_57
    refine ScatterViews.OH_step_cov2 (XvFacts.xvC L xt fv) hxv _ _ _ (by omega) 25 (by omega) (k0_off128 k) (k0_off128_inb k) _ _ (Geometry.off128_eq k) (by rw [if_neg (by decide), LoopInv.row1_val (by omega)]; omega) (by omega) 100#32 (by decide) 144#32 (by decide) _ _ _ _ ?_
    try unfold trip.sl.f_118
    try unfold trip.sl.H1_56
    refine ScatterViews.OH_step_cov2 (XvFacts.xvC L xt fv) hxv _ _ _ (by omega) 24 (by omega) (k0_off127 k) (k0_off127_inb k) _ _ (Geometry.off127_eq k) (by rw [if_neg (by decide), LoopInv.row1_val (by omega)]; omega) (by omega) 100#32 (by decide) 128#32 (by decide) _ _ _ _ ?_
    try unfold trip.sl.f_117
    try unfold trip.sl.H1_55
    refine ScatterViews.OH_step_cov2 (XvFacts.xvC L xt fv) hxv _ _ _ (by omega) 23 (by omega) (k0_off126 k) (k0_off126_inb k) _ _ (Geometry.off126_eq k) (by rw [if_neg (by decide), LoopInv.row1_val (by omega)]; omega) (by omega) 100#32 (by decide) 112#32 (by decide) _ _ _ _ ?_
    try unfold trip.sl.f_116
    try unfold trip.sl.H1_54
    refine ScatterViews.OH_step_cov2 (XvFacts.xvC L xt fv) hxv _ _ _ (by omega) 22 (by omega) (k0_off125 k) (k0_off125_inb k) _ _ (Geometry.off125_eq k) (by rw [if_neg (by decide), LoopInv.row1_val (by omega)]; omega) (by omega) 100#32 (by decide) 96#32 (by decide) _ _ _ _ ?_
    try unfold trip.sl.f_115
    try unfold trip.sl.H1_53
    refine ScatterViews.OH_step_cov2 (XvFacts.xvC L xt fv) hxv _ _ _ (by omega) 21 (by omega) (k0_off124 k) (k0_off124_inb k) _ _ (Geometry.off124_eq k) (by rw [if_neg (by decide), LoopInv.row1_val (by omega)]; omega) (by omega) 100#32 (by decide) 80#32 (by decide) _ _ _ _ ?_
    try unfold trip.sl.f_114
    try unfold trip.sl.H1_52
    refine ScatterViews.OH_step_cov2 (XvFacts.xvC L xt fv) hxv _ _ _ (by omega) 20 (by omega) (k0_off123 k) (k0_off123_inb k) _ _ (Geometry.off123_eq k) (by rw [if_neg (by decide), LoopInv.row1_val (by omega)]; omega) (by omega) 100#32 (by decide) 64#32 (by decide) _ _ _ _ ?_
    try unfold trip.sl.f_113
    try unfold trip.sl.H1_51
    refine ScatterViews.OH_step_cov2 (XvFacts.xvC L xt fv) hxv _ _ _ (by omega) 19 (by omega) (k0_off122 k) (k0_off122_inb k) _ _ (Geometry.off122_eq k) (by rw [if_neg (by decide), LoopInv.row1_val (by omega)]; omega) (by omega) 100#32 (by decide) 48#32 (by decide) _ _ _ _ ?_
    try unfold trip.sl.f_112
    try unfold trip.sl.H1_50
    refine ScatterViews.OH_step_cov2 (XvFacts.xvC L xt fv) hxv _ _ _ (by omega) 18 (by omega) (k0_off121 k) (k0_off121_inb k) _ _ (Geometry.off121_eq k) (by rw [if_neg (by decide), LoopInv.row1_val (by omega)]; omega) (by omega) 100#32 (by decide) 32#32 (by decide) _ _ _ _ ?_
    try unfold trip.sl.f_111
    try unfold trip.sl.H1_49
    refine ScatterViews.OH_step_cov2 (XvFacts.xvC L xt fv) hxv _ _ _ (by omega) 17 (by omega) (k0_off120 k) (k0_off120_inb k) _ _ (Geometry.off120_eq k) (by rw [if_neg (by decide), LoopInv.row1_val (by omega)]; omega) (by omega) 100#32 (by decide) 16#32 (by decide) _ _ _ _ ?_
    try unfold trip.sl.f_110
    try unfold trip.sl.H1_48
    refine ScatterViews.OH_step_cov2 (XvFacts.xvC L xt fv) hxv _ _ _ (by omega) 16 (by omega) (k0_off119 k) (k0_off119_inb k) _ _ (Geometry.off119_eq k) (by rw [if_neg (by decide), LoopInv.row1_val (by omega)]; omega) (by omega) 100#32 (by decide) 0#32 (by decide) _ _ _ _ ?_
    try unfold trip.sl.f_109
    try unfold trip.sl.H1_47
    refine ScatterViews.OH_step_cov2 (XvFacts.xvC L xt fv) hxv _ _ _ (by omega) 15 (by omega) (k0_off118 k) (k0_off118_inb k) _ _ (Geometry.off118_eq k) (by rw [if_pos (by decide), LoopInv.row0_val (by omega)]; omega) (by omega) 0#32 (by decide) 240#32 (by decide) _ _ _ _ ?_
    try unfold trip.sl.f_108
    try unfold trip.sl.H1_46
    refine ScatterViews.OH_step_cov2 (XvFacts.xvC L xt fv) hxv _ _ _ (by omega) 14 (by omega) (k0_off117 k) (k0_off117_inb k) _ _ (Geometry.off117_eq k) (by rw [if_pos (by decide), LoopInv.row0_val (by omega)]; omega) (by omega) 0#32 (by decide) 224#32 (by decide) _ _ _ _ ?_
    try unfold trip.sl.f_107
    try unfold trip.sl.H1_45
    refine ScatterViews.OH_step_cov2 (XvFacts.xvC L xt fv) hxv _ _ _ (by omega) 13 (by omega) (k0_off116 k) (k0_off116_inb k) _ _ (Geometry.off116_eq k) (by rw [if_pos (by decide), LoopInv.row0_val (by omega)]; omega) (by omega) 0#32 (by decide) 208#32 (by decide) _ _ _ _ ?_
    try unfold trip.sl.f_106
    try unfold trip.sl.H1_44
    refine ScatterViews.OH_step_cov2 (XvFacts.xvC L xt fv) hxv _ _ _ (by omega) 12 (by omega) (k0_off115 k) (k0_off115_inb k) _ _ (Geometry.off115_eq k) (by rw [if_pos (by decide), LoopInv.row0_val (by omega)]; omega) (by omega) 0#32 (by decide) 192#32 (by decide) _ _ _ _ ?_
    try unfold trip.sl.f_105
    try unfold trip.sl.H1_43
    refine ScatterViews.OH_step_cov2 (XvFacts.xvC L xt fv) hxv _ _ _ (by omega) 11 (by omega) (k0_off114 k) (k0_off114_inb k) _ _ (Geometry.off114_eq k) (by rw [if_pos (by decide), LoopInv.row0_val (by omega)]; omega) (by omega) 0#32 (by decide) 176#32 (by decide) _ _ _ _ ?_
    try unfold trip.sl.f_104
    try unfold trip.sl.H1_42
    refine ScatterViews.OH_step_cov2 (XvFacts.xvC L xt fv) hxv _ _ _ (by omega) 10 (by omega) (k0_off113 k) (k0_off113_inb k) _ _ (Geometry.off113_eq k) (by rw [if_pos (by decide), LoopInv.row0_val (by omega)]; omega) (by omega) 0#32 (by decide) 160#32 (by decide) _ _ _ _ ?_
    try unfold trip.sl.f_103
    try unfold trip.sl.H1_41
    refine ScatterViews.OH_step_cov2 (XvFacts.xvC L xt fv) hxv _ _ _ (by omega) 9 (by omega) (k0_off112 k) (k0_off112_inb k) _ _ (Geometry.off112_eq k) (by rw [if_pos (by decide), LoopInv.row0_val (by omega)]; omega) (by omega) 0#32 (by decide) 144#32 (by decide) _ _ _ _ ?_
    try unfold trip.sl.f_102
    try unfold trip.sl.H1_40
    refine ScatterViews.OH_step_cov2 (XvFacts.xvC L xt fv) hxv _ _ _ (by omega) 8 (by omega) (k0_off111 k) (k0_off111_inb k) _ _ (Geometry.off111_eq k) (by rw [if_pos (by decide), LoopInv.row0_val (by omega)]; omega) (by omega) 0#32 (by decide) 128#32 (by decide) _ _ _ _ ?_
    try unfold trip.sl.f_101
    try unfold trip.sl.H1_39
    refine ScatterViews.OH_step_cov2 (XvFacts.xvC L xt fv) hxv _ _ _ (by omega) 7 (by omega) (k0_off110 k) (k0_off110_inb k) _ _ (Geometry.off110_eq k) (by rw [if_pos (by decide), LoopInv.row0_val (by omega)]; omega) (by omega) 0#32 (by decide) 112#32 (by decide) _ _ _ _ ?_
    try unfold trip.sl.f_100
    try unfold trip.sl.H1_38
    refine ScatterViews.OH_step_cov2 (XvFacts.xvC L xt fv) hxv _ _ _ (by omega) 6 (by omega) (k0_off109 k) (k0_off109_inb k) _ _ (Geometry.off109_eq k) (by rw [if_pos (by decide), LoopInv.row0_val (by omega)]; omega) (by omega) 0#32 (by decide) 96#32 (by decide) _ _ _ _ ?_
    try unfold trip.sl.f_99
    try unfold trip.sl.H1_37
    refine ScatterViews.OH_step_cov2 (XvFacts.xvC L xt fv) hxv _ _ _ (by omega) 5 (by omega) (k0_off108 k) (k0_off108_inb k) _ _ (Geometry.off108_eq k) (by rw [if_pos (by decide), LoopInv.row0_val (by omega)]; omega) (by omega) 0#32 (by decide) 80#32 (by decide) _ _ _ _ ?_
    try unfold trip.sl.f_98
    try unfold trip.sl.H1_36
    refine ScatterViews.OH_step_cov2 (XvFacts.xvC L xt fv) hxv _ _ _ (by omega) 4 (by omega) (k0_off107 k) (k0_off107_inb k) _ _ (Geometry.off107_eq k) (by rw [if_pos (by decide), LoopInv.row0_val (by omega)]; omega) (by omega) 0#32 (by decide) 64#32 (by decide) _ _ _ _ ?_
    try unfold trip.sl.f_97
    try unfold trip.sl.H1_35
    refine ScatterViews.OH_step_cov2 (XvFacts.xvC L xt fv) hxv _ _ _ (by omega) 3 (by omega) (k0_off106 k) (k0_off106_inb k) _ _ (Geometry.off106_eq k) (by rw [if_pos (by decide), LoopInv.row0_val (by omega)]; omega) (by omega) 0#32 (by decide) 48#32 (by decide) _ _ _ _ ?_
    try unfold trip.sl.f_96
    try unfold trip.sl.H1_34
    refine ScatterViews.OH_step_cov2 (XvFacts.xvC L xt fv) hxv _ _ _ (by omega) 2 (by omega) (k0_off105 k) (k0_off105_inb k) _ _ (Geometry.off105_eq k) (by rw [if_pos (by decide), LoopInv.row0_val (by omega)]; omega) (by omega) 0#32 (by decide) 32#32 (by decide) _ _ _ _ ?_
    try unfold trip.sl.f_95
    try unfold trip.sl.H1_33
    refine ScatterViews.OH_step_cov2 (XvFacts.xvC L xt fv) hxv _ _ _ (by omega) 1 (by omega) (k0_off104 k) (k0_off104_inb k) _ _ (Geometry.off104_eq k) (by rw [if_pos (by decide), LoopInv.row0_val (by omega)]; omega) (by omega) 0#32 (by decide) 16#32 (by decide) _ _ _ _ ?_
    try unfold trip.sl.f_94
    try unfold trip.sl.H1_32
    refine ScatterViews.OH_step_cov2 (XvFacts.xvC L xt fv) hxv _ _ _ (by omega) 0 (by omega) (k0_off103 k) (k0_off103_inb k) _ _ (Geometry.off103_eq k) (by rw [if_pos (by decide), LoopInv.row0_val (by omega)]; omega) (by omega) 0#32 (by decide) 0#32 (by decide) _ _ _ _ ?_
    refine ScatterFacts.OH_zero _ _ _ _ _ (ScatterFacts.UN_full (XvFacts.xvC L xt fv) (LoopInv.row0 (2 * k.val + 1)) (LoopInv.row1 (2 * k.val + 1)) (256 * ((2 * k.val + 1) % 2)) _ ?_)
    try unfold trip.sl.f_93
    try unfold trip.sl.H1_31
    refine ScatterViews.UN_step_cov2 (XvFacts.xvC L xt fv) hxv _ _ _ (by omega) 31 (by omega) (k0_off102 k) (k0_off102_inb k) _ _ (Geometry.off102_eq k) (by rw [if_neg (by decide), LoopInv.row1_val (by omega)]; omega) (by omega) 100#32 (by decide) 240#32 (by decide) _ _ _ _ ?_
    try unfold trip.sl.f_92
    try unfold trip.sl.H1_30
    refine ScatterViews.UN_step_cov2 (XvFacts.xvC L xt fv) hxv _ _ _ (by omega) 30 (by omega) (k0_off101 k) (k0_off101_inb k) _ _ (Geometry.off101_eq k) (by rw [if_neg (by decide), LoopInv.row1_val (by omega)]; omega) (by omega) 100#32 (by decide) 224#32 (by decide) _ _ _ _ ?_
    try unfold trip.sl.f_91
    try unfold trip.sl.H1_29
    refine ScatterViews.UN_step_cov2 (XvFacts.xvC L xt fv) hxv _ _ _ (by omega) 29 (by omega) (k0_off100 k) (k0_off100_inb k) _ _ (Geometry.off100_eq k) (by rw [if_neg (by decide), LoopInv.row1_val (by omega)]; omega) (by omega) 100#32 (by decide) 208#32 (by decide) _ _ _ _ ?_
    try unfold trip.sl.f_90
    try unfold trip.sl.H1_28
    refine ScatterViews.UN_step_cov2 (XvFacts.xvC L xt fv) hxv _ _ _ (by omega) 28 (by omega) (k0_off99 k) (k0_off99_inb k) _ _ (Geometry.off99_eq k) (by rw [if_neg (by decide), LoopInv.row1_val (by omega)]; omega) (by omega) 100#32 (by decide) 192#32 (by decide) _ _ _ _ ?_
    try unfold trip.sl.f_89
    try unfold trip.sl.H1_27
    refine ScatterViews.UN_step_cov2 (XvFacts.xvC L xt fv) hxv _ _ _ (by omega) 27 (by omega) (k0_off98 k) (k0_off98_inb k) _ _ (Geometry.off98_eq k) (by rw [if_neg (by decide), LoopInv.row1_val (by omega)]; omega) (by omega) 100#32 (by decide) 176#32 (by decide) _ _ _ _ ?_
    try unfold trip.sl.f_88
    try unfold trip.sl.H1_26
    refine ScatterViews.UN_step_cov2 (XvFacts.xvC L xt fv) hxv _ _ _ (by omega) 26 (by omega) (k0_off97 k) (k0_off97_inb k) _ _ (Geometry.off97_eq k) (by rw [if_neg (by decide), LoopInv.row1_val (by omega)]; omega) (by omega) 100#32 (by decide) 160#32 (by decide) _ _ _ _ ?_
    try unfold trip.sl.f_87
    try unfold trip.sl.H1_25
    refine ScatterViews.UN_step_cov2 (XvFacts.xvC L xt fv) hxv _ _ _ (by omega) 25 (by omega) (k0_off96 k) (k0_off96_inb k) _ _ (Geometry.off96_eq k) (by rw [if_neg (by decide), LoopInv.row1_val (by omega)]; omega) (by omega) 100#32 (by decide) 144#32 (by decide) _ _ _ _ ?_
    try unfold trip.sl.f_86
    try unfold trip.sl.H1_24
    refine ScatterViews.UN_step_cov2 (XvFacts.xvC L xt fv) hxv _ _ _ (by omega) 24 (by omega) (k0_off95 k) (k0_off95_inb k) _ _ (Geometry.off95_eq k) (by rw [if_neg (by decide), LoopInv.row1_val (by omega)]; omega) (by omega) 100#32 (by decide) 128#32 (by decide) _ _ _ _ ?_
    try unfold trip.sl.f_85
    try unfold trip.sl.H1_23
    refine ScatterViews.UN_step_cov2 (XvFacts.xvC L xt fv) hxv _ _ _ (by omega) 23 (by omega) (k0_off94 k) (k0_off94_inb k) _ _ (Geometry.off94_eq k) (by rw [if_neg (by decide), LoopInv.row1_val (by omega)]; omega) (by omega) 100#32 (by decide) 112#32 (by decide) _ _ _ _ ?_
    try unfold trip.sl.f_84
    try unfold trip.sl.H1_22
    refine ScatterViews.UN_step_cov2 (XvFacts.xvC L xt fv) hxv _ _ _ (by omega) 22 (by omega) (k0_off93 k) (k0_off93_inb k) _ _ (Geometry.off93_eq k) (by rw [if_neg (by decide), LoopInv.row1_val (by omega)]; omega) (by omega) 100#32 (by decide) 96#32 (by decide) _ _ _ _ ?_
    try unfold trip.sl.f_83
    try unfold trip.sl.H1_21
    refine ScatterViews.UN_step_cov2 (XvFacts.xvC L xt fv) hxv _ _ _ (by omega) 21 (by omega) (k0_off92 k) (k0_off92_inb k) _ _ (Geometry.off92_eq k) (by rw [if_neg (by decide), LoopInv.row1_val (by omega)]; omega) (by omega) 100#32 (by decide) 80#32 (by decide) _ _ _ _ ?_
    try unfold trip.sl.f_82
    try unfold trip.sl.H1_20
    refine ScatterViews.UN_step_cov2 (XvFacts.xvC L xt fv) hxv _ _ _ (by omega) 20 (by omega) (k0_off91 k) (k0_off91_inb k) _ _ (Geometry.off91_eq k) (by rw [if_neg (by decide), LoopInv.row1_val (by omega)]; omega) (by omega) 100#32 (by decide) 64#32 (by decide) _ _ _ _ ?_
    try unfold trip.sl.f_81
    try unfold trip.sl.H1_19
    refine ScatterViews.UN_step_cov2 (XvFacts.xvC L xt fv) hxv _ _ _ (by omega) 19 (by omega) (k0_off90 k) (k0_off90_inb k) _ _ (Geometry.off90_eq k) (by rw [if_neg (by decide), LoopInv.row1_val (by omega)]; omega) (by omega) 100#32 (by decide) 48#32 (by decide) _ _ _ _ ?_
    try unfold trip.sl.f_80
    try unfold trip.sl.H1_18
    refine ScatterViews.UN_step_cov2 (XvFacts.xvC L xt fv) hxv _ _ _ (by omega) 18 (by omega) (k0_off89 k) (k0_off89_inb k) _ _ (Geometry.off89_eq k) (by rw [if_neg (by decide), LoopInv.row1_val (by omega)]; omega) (by omega) 100#32 (by decide) 32#32 (by decide) _ _ _ _ ?_
    try unfold trip.sl.f_79
    try unfold trip.sl.H1_17
    refine ScatterViews.UN_step_cov2 (XvFacts.xvC L xt fv) hxv _ _ _ (by omega) 17 (by omega) (k0_off88 k) (k0_off88_inb k) _ _ (Geometry.off88_eq k) (by rw [if_neg (by decide), LoopInv.row1_val (by omega)]; omega) (by omega) 100#32 (by decide) 16#32 (by decide) _ _ _ _ ?_
    try unfold trip.sl.f_78
    try unfold trip.sl.H1_16
    refine ScatterViews.UN_step_cov2 (XvFacts.xvC L xt fv) hxv _ _ _ (by omega) 16 (by omega) (k0_off87 k) (k0_off87_inb k) _ _ (Geometry.off87_eq k) (by rw [if_neg (by decide), LoopInv.row1_val (by omega)]; omega) (by omega) 100#32 (by decide) 0#32 (by decide) _ _ _ _ ?_
    try unfold trip.sl.f_77
    try unfold trip.sl.H1_15
    refine ScatterViews.UN_step_cov2 (XvFacts.xvC L xt fv) hxv _ _ _ (by omega) 15 (by omega) (k0_off86 k) (k0_off86_inb k) _ _ (Geometry.off86_eq k) (by rw [if_pos (by decide), LoopInv.row0_val (by omega)]; omega) (by omega) 0#32 (by decide) 240#32 (by decide) _ _ _ _ ?_
    try unfold trip.sl.f_76
    try unfold trip.sl.H1_14
    refine ScatterViews.UN_step_cov2 (XvFacts.xvC L xt fv) hxv _ _ _ (by omega) 14 (by omega) (k0_off85 k) (k0_off85_inb k) _ _ (Geometry.off85_eq k) (by rw [if_pos (by decide), LoopInv.row0_val (by omega)]; omega) (by omega) 0#32 (by decide) 224#32 (by decide) _ _ _ _ ?_
    try unfold trip.sl.f_75
    try unfold trip.sl.H1_13
    refine ScatterViews.UN_step_cov2 (XvFacts.xvC L xt fv) hxv _ _ _ (by omega) 13 (by omega) (k0_off84 k) (k0_off84_inb k) _ _ (Geometry.off84_eq k) (by rw [if_pos (by decide), LoopInv.row0_val (by omega)]; omega) (by omega) 0#32 (by decide) 208#32 (by decide) _ _ _ _ ?_
    try unfold trip.sl.f_74
    try unfold trip.sl.H1_12
    refine ScatterViews.UN_step_cov2 (XvFacts.xvC L xt fv) hxv _ _ _ (by omega) 12 (by omega) (k0_off83 k) (k0_off83_inb k) _ _ (Geometry.off83_eq k) (by rw [if_pos (by decide), LoopInv.row0_val (by omega)]; omega) (by omega) 0#32 (by decide) 192#32 (by decide) _ _ _ _ ?_
    try unfold trip.sl.f_73
    try unfold trip.sl.H1_11
    refine ScatterViews.UN_step_cov2 (XvFacts.xvC L xt fv) hxv _ _ _ (by omega) 11 (by omega) (k0_off82 k) (k0_off82_inb k) _ _ (Geometry.off82_eq k) (by rw [if_pos (by decide), LoopInv.row0_val (by omega)]; omega) (by omega) 0#32 (by decide) 176#32 (by decide) _ _ _ _ ?_
    try unfold trip.sl.f_72
    try unfold trip.sl.H1_10
    refine ScatterViews.UN_step_cov2 (XvFacts.xvC L xt fv) hxv _ _ _ (by omega) 10 (by omega) (k0_off81 k) (k0_off81_inb k) _ _ (Geometry.off81_eq k) (by rw [if_pos (by decide), LoopInv.row0_val (by omega)]; omega) (by omega) 0#32 (by decide) 160#32 (by decide) _ _ _ _ ?_
    try unfold trip.sl.f_71
    try unfold trip.sl.H1_9
    refine ScatterViews.UN_step_cov2 (XvFacts.xvC L xt fv) hxv _ _ _ (by omega) 9 (by omega) (k0_off80 k) (k0_off80_inb k) _ _ (Geometry.off80_eq k) (by rw [if_pos (by decide), LoopInv.row0_val (by omega)]; omega) (by omega) 0#32 (by decide) 144#32 (by decide) _ _ _ _ ?_
    try unfold trip.sl.f_70
    try unfold trip.sl.H1_8
    refine ScatterViews.UN_step_cov2 (XvFacts.xvC L xt fv) hxv _ _ _ (by omega) 8 (by omega) (k0_off79 k) (k0_off79_inb k) _ _ (Geometry.off79_eq k) (by rw [if_pos (by decide), LoopInv.row0_val (by omega)]; omega) (by omega) 0#32 (by decide) 128#32 (by decide) _ _ _ _ ?_
    try unfold trip.sl.f_69
    try unfold trip.sl.H1_7
    refine ScatterViews.UN_step_cov2 (XvFacts.xvC L xt fv) hxv _ _ _ (by omega) 7 (by omega) (k0_off78 k) (k0_off78_inb k) _ _ (Geometry.off78_eq k) (by rw [if_pos (by decide), LoopInv.row0_val (by omega)]; omega) (by omega) 0#32 (by decide) 112#32 (by decide) _ _ _ _ ?_
    try unfold trip.sl.f_68
    try unfold trip.sl.H1_6
    refine ScatterViews.UN_step_cov2 (XvFacts.xvC L xt fv) hxv _ _ _ (by omega) 6 (by omega) (k0_off77 k) (k0_off77_inb k) _ _ (Geometry.off77_eq k) (by rw [if_pos (by decide), LoopInv.row0_val (by omega)]; omega) (by omega) 0#32 (by decide) 96#32 (by decide) _ _ _ _ ?_
    try unfold trip.sl.f_67
    try unfold trip.sl.H1_5
    refine ScatterViews.UN_step_cov2 (XvFacts.xvC L xt fv) hxv _ _ _ (by omega) 5 (by omega) (k0_off76 k) (k0_off76_inb k) _ _ (Geometry.off76_eq k) (by rw [if_pos (by decide), LoopInv.row0_val (by omega)]; omega) (by omega) 0#32 (by decide) 80#32 (by decide) _ _ _ _ ?_
    try unfold trip.sl.f_66
    try unfold trip.sl.H1_4
    refine ScatterViews.UN_step_cov2 (XvFacts.xvC L xt fv) hxv _ _ _ (by omega) 4 (by omega) (k0_off75 k) (k0_off75_inb k) _ _ (Geometry.off75_eq k) (by rw [if_pos (by decide), LoopInv.row0_val (by omega)]; omega) (by omega) 0#32 (by decide) 64#32 (by decide) _ _ _ _ ?_
    try unfold trip.sl.f_65
    try unfold trip.sl.H1_3
    refine ScatterViews.UN_step_cov2 (XvFacts.xvC L xt fv) hxv _ _ _ (by omega) 3 (by omega) (k0_off74 k) (k0_off74_inb k) _ _ (Geometry.off74_eq k) (by rw [if_pos (by decide), LoopInv.row0_val (by omega)]; omega) (by omega) 0#32 (by decide) 48#32 (by decide) _ _ _ _ ?_
    try unfold trip.sl.f_64
    try unfold trip.sl.H1_2
    refine ScatterViews.UN_step_cov2 (XvFacts.xvC L xt fv) hxv _ _ _ (by omega) 2 (by omega) (k0_off73 k) (k0_off73_inb k) _ _ (Geometry.off73_eq k) (by rw [if_pos (by decide), LoopInv.row0_val (by omega)]; omega) (by omega) 0#32 (by decide) 32#32 (by decide) _ _ _ _ ?_
    try unfold trip.sl.f_63
    try unfold trip.sl.H1_1
    refine ScatterViews.UN_step_cov2 (XvFacts.xvC L xt fv) hxv _ _ _ (by omega) 1 (by omega) (k0_off72 k) (k0_off72_inb k) _ _ (Geometry.off72_eq k) (by rw [if_pos (by decide), LoopInv.row0_val (by omega)]; omega) (by omega) 0#32 (by decide) 16#32 (by decide) _ _ _ _ ?_
    refine ScatterViews.UN_step_at2 (XvFacts.xvC L xt fv) hxv _ _ _ (by omega) 0 (by omega) (k0_off71 k) (k0_off71_inb k) _ _ (Geometry.off71_eq k) (by rw [if_pos (by decide), LoopInv.row0_val (by omega)]; omega) (by omega) 0#32 (by decide) 0#32 (by decide) _ _ _ ?_
    exact ScatterFacts.UN_of_OH (XvFacts.xvC L xt fv) (LoopInv.row0 (2 * k.val + 1)) (LoopInv.row1 (2 * k.val + 1)) (256 * ((2 * k.val + 1) % 2)) _ hg1
  -- the trip's end: the invariant one trip on
  sl_step
  icases H0 with -
  icases H1 with -
  unfold trip.sl.dma8
  unfold trip.sl.dma11
  ihave Hf3 := (TripB.flight0_exec d L xt hx fv fo (2 * (k.val + 1)) (by omega) (k0_off69 L k) (k0_off69_inb L k) (Geometry.off69_eq L k) _ hpic0 _ _ _) $$ Hs3
  ihave Hf4 := (TripB.flight1_exec d L xt hx fv fo (2 * (k.val + 1) + 1) (by omega) (k0_off135 L k) (k0_off135_inb L k) (Geometry.off135_eq L k) _ hpic1 _ _ _) $$ Hs4
  isplitr; · iexact Hmw
  isplitl [Hv]; · iexact Hv
  isplitl [Hf3]; · iexact Hf3
  isplitl [Hf4]; · iexact Hf4
  isplitl [Hdone Hc0 Hc1]
  · rw [show 2 * (k.val + 1) = 2 * k.val + 2 by ring, ChunkSep.range_add_two]
    isplitl [Hdone]; · iexact Hdone
    isplitl [Hc0]; · iexact Hc0
    iexact Hc1
  isplitl [Hrest]
  · rw [show 2 * (k.val + 1) + 2 = 2 * k.val + 2 + 2 by ring]; iexact Hrest
  iexists (insert (SemLoc.dma cc0_scratch4.sem, (default : HIx 1)) (insert (SemLoc.dma cc0_scratch3.sem, (default : HIx 1)) W')); isplitr
  · ipureintro
    intro p hp
    rcases Finset.mem_insert.mp hp with hp | hp
    · subst hp; exact .inr rfl
    rcases Finset.mem_insert.mp hp with hp | hp
    · subst hp; exact .inr rfl
    · exact hW' p hp
  · iexact HO

end Cert.KernelIdeal.Trip

end
-- ==== Proof.Prefix.lean ====
/-
  The run of the tile's program.

  The tile fetches its slab of the transposed table, zeroes its first buffer, writes chunk 0's one-hot picture into it
  (32 stores of ones, sixteen lanes each) and starts copying the buffer out to chunk 0 of its output slab; it does the
  same with the second buffer and chunk 1. Then, twelve times, once the two copies in flight have landed it takes the
  ones out of the two buffers again, writes the pictures of the next two chunks and starts copying those. At the end it
  waits for the last two copies. Every one of the 26 chunks of the slab then holds its part of the coding of the
  transposed table, the table's slab is as it was, and the buffers and semaphores are back.

  A scatter's index vectors stay inside the 200 x 256 buffer: a row index is a class number below 100 plus 0 or 100, a
  column index a multiple of sixteen up to 240 plus a lane number below 16.
-/
import proofs.«212700_g8504035246323_cont_9to1_m_53_19_alg».proof.Proof.TileBase
import proofs.«212700_g8504035246323_cont_9to1_m_53_19_alg».proof.Proof.LibWholeWrites
import proofs.«212700_g8504035246323_cont_9to1_m_53_19_alg».proof.Proof.ZeroFacts
import proofs.«212700_g8504035246323_cont_9to1_m_53_19_alg».proof.Proof.ZeroViews
import proofs.«212700_g8504035246323_cont_9to1_m_53_19_alg».proof.Proof.TileBase2
import proofs.«212700_g8504035246323_cont_9to1_m_53_19_alg».proof.Proof.ZeroTrip
import proofs.«212700_g8504035246323_cont_9to1_m_53_19_alg».proof.Proof.ZeroFacts2
import proofs.«212700_g8504035246323_cont_9to1_m_53_19_alg».proof.Proof.ZeroViews2
import proofs.«212700_g8504035246323_cont_9to1_m_53_19_alg».proof.Proof.ZeroTrip2
import proofs.«212700_g8504035246323_cont_9to1_m_53_19_alg».proof.Proof.XvFacts
import proofs.«212700_g8504035246323_cont_9to1_m_53_19_alg».proof.Proof.Geometry
import proofs.«212700_g8504035246323_cont_9to1_m_53_19_alg».proof.Proof.ChunkSep
import proofs.«212700_g8504035246323_cont_9to1_m_53_19_alg».proof.Proof.LoopInv
import proofs.«212700_g8504035246323_cont_9to1_m_53_19_alg».proof.Proof.TileBody
import proofs.«212700_g8504035246323_cont_9to1_m_53_19_alg».proof.Proof.TripB
import proofs.«212700_g8504035246323_cont_9to1_m_53_19_alg».proof.Proof.LoopEnds
import proofs.«212700_g8504035246323_cont_9to1_m_53_19_alg».proof.Proof.ScatterViews
import proofs.«212700_g8504035246323_cont_9to1_m_53_19_alg».proof.Proof.Pictures
import proofs.«212700_g8504035246323_cont_9to1_m_53_19_alg».proof.Proof.Trip

noncomputable section

namespace Cert.KernelIdeal.Prefix

open Cert.KernelIdeal.ZeroTrip Cert.KernelIdeal.ZeroTrip2
open Cert.KernelIdeal Cert.KernelIdeal.Gen Cert.KernelIdeal.Tile Cert.KernelIdeal.ZeroFacts Cert.KernelIdeal.ZeroViews Cert.Lib.WholeWrites
open Cert.KernelIdeal.Geometry Cert.KernelIdeal.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xvW" => (Memref.whole Cert.KernelIdeal.cc0_scratch0 : Memref Cert.KernelIdeal.sig Kind.scVector Space.vmem Cert.KernelIdeal.S26x512 EltTy.i32)

/-- A scatter's range check, from a bound on its row vector and a bound on its column vector. -/
theorem chk_intro (row col : IVec S16 32) (h0 : ∀ x, (row x).toNat < 200) (h1 : ∀ x, (col x).toNat < 256) (a : Fin 2) (x : S16.Idx) :
    ((![row, col] : Fin 2 → IVec S16 32) a x).toNat < S200x256.size a := by
  match a with
  | 0 => exact h0 x
  | 1 => exact h1 x

/-- A row vector: loaded entries below 100, plus 0 or 100. -/
theorem row_lt (ld : Vec F S1x16 .i32) (hld : ∀ y, (ld y : BitVec 32).toNat < 100) (half : BitVec 32) (hh : half.toNat ≤ 100)
    (hs : S1x16.ShapeCasts S16) (x : S16.Idx) : (addi (shapeCast S16 ld hs) (broadcast S16 half) x).toNat < 200 := by
  have h1 : (shapeCast S16 ld hs x : BitVec 32).toNat < 100 := hld _
  simp only [addi, IntOp.addi, broadcast, BitVec.toNat_add]
  omega

/-- A column vector: a multiple of sixteen up to 240, plus the lane. -/
theorem col_lt (base : BitVec 32) (hb : base.toNat ≤ 240) (x : S16.Idx) : (addi (broadcast S16 base) ZeroFacts.lanes x).toNat < 256 := by
  have hx : (x 0).val < 16 := (x 0).isLt
  simp only [addi, IntOp.addi, broadcast, iota, List.foldl, BitVec.toNat_add, BitVec.toNat_ofNat, Matrix.cons_val_zero]
  omega

/-- The first two chunks of the output, as the program slices them. -/
abbrev oSl0 (L : grid0.Coords) : Memref sig .scVector .hbm S200x256 .i32 :=
  (Memref.whole main_v1_scv : Memref sig .scVector .hbm S2600x16384 .i32).slice (Rect.unit (s := S2600x16384) (k0_off2 L) S200x256.size (k0_off2_inb L)) (fun _ => rfl)
abbrev oSl1 (L : grid0.Coords) : Memref sig .scVector .hbm S200x256 .i32 :=
  (Memref.whole main_v1_scv : Memref sig .scVector .hbm S2600x16384 .i32).slice (Rect.unit (s := S2600x16384) (k0_off3 L) S200x256.size (k0_off3_inb L)) (fun _ => rfl)

/-- The zeroing loops' invariants: the columns below sixteen times the trip counter are zero. -/
def zinv (d : Dev nD) (L : grid0.Coords) (t : Nat) (_ : PUnit) : sProp 𝕄 := iprop(∃ g, ⌜ZeroFacts.Z (F := F) t 0 g⌝ ∗ heldB0 (F := F) d L g)
def zinv2 (d : Dev nD) (L : grid0.Coords) (t : Nat) (_ : PUnit) : sProp 𝕄 := iprop(∃ g, ⌜ZeroFacts2.Z (F := F) t 0 g⌝ ∗ heldB1 (F := F) d L g)

set_option maxHeartbeats 4000000 in
/-- The run of the tile's program. -/
theorem tile_run : TileBody.TileRun (F := F) := by
  intro d L O W hO xt hx fo fv f0 f1
  rw [cc0__onehot_body_eq_skeleton]; unfold cc0__onehot_body_skel
  unfold TileBody.heldQ
  have e0 : (((oSl0 L).view.loc (V d (cV L) (jV L)) ↦[(oSl0 L).view.set]{fullShare} fo) : sProp 𝕄)
      = (oLoc d ↦[chunk (wOf L) 0]{fullShare} (fo : Buf (Elt F) (oLoc d))) := by
    rw [Geometry.set_oSl L 0 (k0_off2 L) (k0_off2_inb L) (Geometry.off2_eq L)]
  have e1 : (((oSl1 L).view.loc (V d (cV L) (jV L)) ↦[(oSl1 L).view.set]{fullShare} fo) : sProp 𝕄)
      = (oLoc d ↦[chunk (wOf L) 1]{fullShare} (fo : Buf (Elt F) (oLoc d))) := by
    rw [Geometry.set_oSl L 1 (k0_off3 L) (k0_off3_inb L) (Geometry.off3_eq L)]
  rw [← ChunkSep.tail_all, ChunkSep.tail_split 0 (by decide)]
  iintro ⟨#Hlv, Hx, ⟨Hc0, Hc1, Htail⟩, Hv, H0, H1, Hs3, Hs4, Hs5, HO⟩
  ihave Ho0 := (Entails.of_eq e0.symm) $$ Hc0
  ihave Ho1 := (Entails.of_eq e1.symm) $$ Hc1
  ihave Hmw := ((K (F := F)).mayWaits_none (thr := V d (cV L) (jV L)) hO) $$ Hlv
  have hxs : ∀ i, ((View.write (Elt F) (xvW).view fv (XvFacts.slabRead L xt) Finset.univ) i : BitVec 32).toNat < 100 := fun i => XvFacts.xvC_lt L xt fv hx i
  -- the fetch of the table's slab, then the first zeroing loop
  rw [wp_bind]; rw [k0_part68_eq_skeleton]; unfold k0_part68_skel; unfold SparseCore.vectorStoreIdx
  sl_exec
  sl_for (zinv (F := F) d L) $$ [H0]
  case region =>
    intro k acc
    unfold tile_run.sl.prog.body_1
    unfold zinv
    iintro ⟨%g, %hg, H0⟩
    iapply (zero_trip (F := F) d L k g hg) $$ H0
  · unfold zinv
    iexists f0
    isplitr
    · ipureintro; intro j hj; exfalso; rcases hj with hj | ⟨_, _, h3⟩ <;> omega
    · iexact H0
  iintro %_ HI
  unfold zinv
  icases HI with ⟨%g0, %hg0, H0⟩
  unfold heldB0
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_for (zinv2 (F := F) d L) $$ [H1]
  case region =>
    intro k acc
    unfold tile_run.sl.prog.body_2
    unfold zinv2
    iintro ⟨%g, %hg, H1⟩
    iapply (zero_trip2 (F := F) d L _ _ _ k g hg) $$ H1
  · unfold zinv2
    iexists f1
    isplitr
    · ipureintro; intro j hj; exfalso; rcases hj with hj | ⟨_, _, h3⟩ <;> omega
    · iexact H1
  iintro %_ HI
  unfold zinv2
  icases HI with ⟨%g1, %hg1, H1⟩
  unfold heldB1
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  -- the two buffers' pictures once their 32 stores of ones are in
  have hpic0 : LoopInv.Pic L xt fv 0 ((Memref.whole cc0_scratch1 : Memref sig .scVector .vmem S200x256 .i32).view.writes (Elt F) g0 (tile_run.sl.H0_32 L xt fv hxs g0)) := by
    unfold LoopInv.Pic
    try unfold tile_run.sl.H0_32
    refine ScatterViews.OH_writes _ _ _ _ 32 _ _ _ ?_
    try unfold tile_run.sl.f_30
    try unfold tile_run.sl.H0_31
    try unfold tile_run.sl.v200 tile_run.sl.v198_ld
    try unfold tile_run.sl.v2
    refine ScatterViews.OH_step_cov _ (XvFacts.xvC_lt L xt fv hx) _ _ _ (by decide) 31 (by decide) _ _ 1 240 rfl (by decide) (by decide) _ (by decide) _ (by decide) _ _ _ _ ?_
    try unfold tile_run.sl.f_29
    try unfold tile_run.sl.H0_30
    try unfold tile_run.sl.v194 tile_run.sl.v192_ld
    try unfold tile_run.sl.v2
    refine ScatterViews.OH_step_cov _ (XvFacts.xvC_lt L xt fv hx) _ _ _ (by decide) 30 (by decide) _ _ 1 224 rfl (by decide) (by decide) _ (by decide) _ (by decide) _ _ _ _ ?_
    try unfold tile_run.sl.f_28
    try unfold tile_run.sl.H0_29
    try unfold tile_run.sl.v188 tile_run.sl.v186_ld
    try unfold tile_run.sl.v2
    refine ScatterViews.OH_step_cov _ (XvFacts.xvC_lt L xt fv hx) _ _ _ (by decide) 29 (by decide) _ _ 1 208 rfl (by decide) (by decide) _ (by decide) _ (by decide) _ _ _ _ ?_
    try unfold tile_run.sl.f_27
    try unfold tile_run.sl.H0_28
    try unfold tile_run.sl.v182 tile_run.sl.v180_ld
    try unfold tile_run.sl.v2
    refine ScatterViews.OH_step_cov _ (XvFacts.xvC_lt L xt fv hx) _ _ _ (by decide) 28 (by decide) _ _ 1 192 rfl (by decide) (by decide) _ (by decide) _ (by decide) _ _ _ _ ?_
    try unfold tile_run.sl.f_26
    try unfold tile_run.sl.H0_27
    try unfold tile_run.sl.v176 tile_run.sl.v174_ld
    try unfold tile_run.sl.v2
    refine ScatterViews.OH_step_cov _ (XvFacts.xvC_lt L xt fv hx) _ _ _ (by decide) 27 (by decide) _ _ 1 176 rfl (by decide) (by decide) _ (by decide) _ (by decide) _ _ _ _ ?_
    try unfold tile_run.sl.f_25
    try unfold tile_run.sl.H0_26
    try unfold tile_run.sl.v170 tile_run.sl.v168_ld
    try unfold tile_run.sl.v2
    refine ScatterViews.OH_step_cov _ (XvFacts.xvC_lt L xt fv hx) _ _ _ (by decide) 26 (by decide) _ _ 1 160 rfl (by decide) (by decide) _ (by decide) _ (by decide) _ _ _ _ ?_
    try unfold tile_run.sl.f_24
    try unfold tile_run.sl.H0_25
    try unfold tile_run.sl.v164 tile_run.sl.v162_ld
    try unfold tile_run.sl.v2
    refine ScatterViews.OH_step_cov _ (XvFacts.xvC_lt L xt fv hx) _ _ _ (by decide) 25 (by decide) _ _ 1 144 rfl (by decide) (by decide) _ (by decide) _ (by decide) _ _ _ _ ?_
    try unfold tile_run.sl.f_23
    try unfold tile_run.sl.H0_24
    try unfold tile_run.sl.v158 tile_run.sl.v156_ld
    try unfold tile_run.sl.v2
    refine ScatterViews.OH_step_cov _ (XvFacts.xvC_lt L xt fv hx) _ _ _ (by decide) 24 (by decide) _ _ 1 128 rfl (by decide) (by decide) _ (by decide) _ (by decide) _ _ _ _ ?_
    try unfold tile_run.sl.f_22
    try unfold tile_run.sl.H0_23
    try unfold tile_run.sl.v152 tile_run.sl.v150_ld
    try unfold tile_run.sl.v2
    refine ScatterViews.OH_step_cov _ (XvFacts.xvC_lt L xt fv hx) _ _ _ (by decide) 23 (by decide) _ _ 1 112 rfl (by decide) (by decide) _ (by decide) _ (by decide) _ _ _ _ ?_
    try unfold tile_run.sl.f_21
    try unfold tile_run.sl.H0_22
    try unfold tile_run.sl.v146 tile_run.sl.v144_ld
    try unfold tile_run.sl.v2
    refine ScatterViews.OH_step_cov _ (XvFacts.xvC_lt L xt fv hx) _ _ _ (by decide) 22 (by decide) _ _ 1 96 rfl (by decide) (by decide) _ (by decide) _ (by decide) _ _ _ _ ?_
    try unfold tile_run.sl.f_20
    try unfold tile_run.sl.H0_21
    try unfold tile_run.sl.v140 tile_run.sl.v138_ld
    try unfold tile_run.sl.v2
    refine ScatterViews.OH_step_cov _ (XvFacts.xvC_lt L xt fv hx) _ _ _ (by decide) 21 (by decide) _ _ 1 80 rfl (by decide) (by decide) _ (by decide) _ (by decide) _ _ _ _ ?_
    try unfold tile_run.sl.f_19
    try unfold tile_run.sl.H0_20
    try unfold tile_run.sl.v134 tile_run.sl.v132_ld
    try unfold tile_run.sl.v2
    refine ScatterViews.OH_step_cov _ (XvFacts.xvC_lt L xt fv hx) _ _ _ (by decide) 20 (by decide) _ _ 1 64 rfl (by decide) (by decide) _ (by decide) _ (by decide) _ _ _ _ ?_
    try unfold tile_run.sl.f_18
    try unfold tile_run.sl.H0_19
    try unfold tile_run.sl.v128 tile_run.sl.v126_ld
    try unfold tile_run.sl.v2
    refine ScatterViews.OH_step_cov _ (XvFacts.xvC_lt L xt fv hx) _ _ _ (by decide) 19 (by decide) _ _ 1 48 rfl (by decide) (by decide) _ (by decide) _ (by decide) _ _ _ _ ?_
    try unfold tile_run.sl.f_17
    try unfold tile_run.sl.H0_18
    try unfold tile_run.sl.v122 tile_run.sl.v120_ld
    try unfold tile_run.sl.v2
    refine ScatterViews.OH_step_cov _ (XvFacts.xvC_lt L xt fv hx) _ _ _ (by decide) 18 (by decide) _ _ 1 32 rfl (by decide) (by decide) _ (by decide) _ (by decide) _ _ _ _ ?_
    try unfold tile_run.sl.f_16
    try unfold tile_run.sl.H0_17
    try unfold tile_run.sl.v116 tile_run.sl.v114_ld
    try unfold tile_run.sl.v2
    refine ScatterViews.OH_step_cov _ (XvFacts.xvC_lt L xt fv hx) _ _ _ (by decide) 17 (by decide) _ _ 1 16 rfl (by decide) (by decide) _ (by decide) _ (by decide) _ _ _ _ ?_
    try unfold tile_run.sl.f_15
    try unfold tile_run.sl.H0_16
    try unfold tile_run.sl.v110 tile_run.sl.v108_ld
    try unfold tile_run.sl.v2
    refine ScatterViews.OH_step_cov _ (XvFacts.xvC_lt L xt fv hx) _ _ _ (by decide) 16 (by decide) _ _ 1 0 rfl (by decide) (by decide) _ (by decide) _ (by decide) _ _ _ _ ?_
    try unfold tile_run.sl.f_14
    try unfold tile_run.sl.H0_15
    try unfold tile_run.sl.v104 tile_run.sl.v102_ld
    try unfold tile_run.sl.v2
    refine ScatterViews.OH_step_cov _ (XvFacts.xvC_lt L xt fv hx) _ _ _ (by decide) 15 (by decide) _ _ 0 240 rfl (by decide) (by decide) _ (by decide) _ (by decide) _ _ _ _ ?_
    try unfold tile_run.sl.f_13
    try unfold tile_run.sl.H0_14
    try unfold tile_run.sl.v98 tile_run.sl.v96_ld
    try unfold tile_run.sl.v2
    refine ScatterViews.OH_step_cov _ (XvFacts.xvC_lt L xt fv hx) _ _ _ (by decide) 14 (by decide) _ _ 0 224 rfl (by decide) (by decide) _ (by decide) _ (by decide) _ _ _ _ ?_
    try unfold tile_run.sl.f_12
    try unfold tile_run.sl.H0_13
    try unfold tile_run.sl.v92 tile_run.sl.v90_ld
    try unfold tile_run.sl.v2
    refine ScatterViews.OH_step_cov _ (XvFacts.xvC_lt L xt fv hx) _ _ _ (by decide) 13 (by decide) _ _ 0 208 rfl (by decide) (by decide) _ (by decide) _ (by decide) _ _ _ _ ?_
    try unfold tile_run.sl.f_11
    try unfold tile_run.sl.H0_12
    try unfold tile_run.sl.v86 tile_run.sl.v84_ld
    try unfold tile_run.sl.v2
    refine ScatterViews.OH_step_cov _ (XvFacts.xvC_lt L xt fv hx) _ _ _ (by decide) 12 (by decide) _ _ 0 192 rfl (by decide) (by decide) _ (by decide) _ (by decide) _ _ _ _ ?_
    try unfold tile_run.sl.f_10
    try unfold tile_run.sl.H0_11
    try unfold tile_run.sl.v80 tile_run.sl.v78_ld
    try unfold tile_run.sl.v2
    refine ScatterViews.OH_step_cov _ (XvFacts.xvC_lt L xt fv hx) _ _ _ (by decide) 11 (by decide) _ _ 0 176 rfl (by decide) (by decide) _ (by decide) _ (by decide) _ _ _ _ ?_
    try unfold tile_run.sl.f_9
    try unfold tile_run.sl.H0_10
    try unfold tile_run.sl.v74 tile_run.sl.v72_ld
    try unfold tile_run.sl.v2
    refine ScatterViews.OH_step_cov _ (XvFacts.xvC_lt L xt fv hx) _ _ _ (by decide) 10 (by decide) _ _ 0 160 rfl (by decide) (by decide) _ (by decide) _ (by decide) _ _ _ _ ?_
    try unfold tile_run.sl.f_8
    try unfold tile_run.sl.H0_9
    try unfold tile_run.sl.v68 tile_run.sl.v66_ld
    try unfold tile_run.sl.v2
    refine ScatterViews.OH_step_cov _ (XvFacts.xvC_lt L xt fv hx) _ _ _ (by decide) 9 (by decide) _ _ 0 144 rfl (by decide) (by decide) _ (by decide) _ (by decide) _ _ _ _ ?_
    try unfold tile_run.sl.f_7
    try unfold tile_run.sl.H0_8
    try unfold tile_run.sl.v62 tile_run.sl.v60_ld
    try unfold tile_run.sl.v2
    refine ScatterViews.OH_step_cov _ (XvFacts.xvC_lt L xt fv hx) _ _ _ (by decide) 8 (by decide) _ _ 0 128 rfl (by decide) (by decide) _ (by decide) _ (by decide) _ _ _ _ ?_
    try unfold tile_run.sl.f_6
    try unfold tile_run.sl.H0_7
    try unfold tile_run.sl.v56 tile_run.sl.v54_ld
    try unfold tile_run.sl.v2
    refine ScatterViews.OH_step_cov _ (XvFacts.xvC_lt L xt fv hx) _ _ _ (by decide) 7 (by decide) _ _ 0 112 rfl (by decide) (by decide) _ (by decide) _ (by decide) _ _ _ _ ?_
    try unfold tile_run.sl.f_5
    try unfold tile_run.sl.H0_6
    try unfold tile_run.sl.v50 tile_run.sl.v48_ld
    try unfold tile_run.sl.v2
    refine ScatterViews.OH_step_cov _ (XvFacts.xvC_lt L xt fv hx) _ _ _ (by decide) 6 (by decide) _ _ 0 96 rfl (by decide) (by decide) _ (by decide) _ (by decide) _ _ _ _ ?_
    try unfold tile_run.sl.f_4
    try unfold tile_run.sl.H0_5
    try unfold tile_run.sl.v44 tile_run.sl.v42_ld
    try unfold tile_run.sl.v2
    refine ScatterViews.OH_step_cov _ (XvFacts.xvC_lt L xt fv hx) _ _ _ (by decide) 5 (by decide) _ _ 0 80 rfl (by decide) (by decide) _ (by decide) _ (by decide) _ _ _ _ ?_
    try unfold tile_run.sl.f_3
    try unfold tile_run.sl.H0_4
    try unfold tile_run.sl.v38 tile_run.sl.v36_ld
    try unfold tile_run.sl.v2
    refine ScatterViews.OH_step_cov _ (XvFacts.xvC_lt L xt fv hx) _ _ _ (by decide) 4 (by decide) _ _ 0 64 rfl (by decide) (by decide) _ (by decide) _ (by decide) _ _ _ _ ?_
    try unfold tile_run.sl.f_2
    try unfold tile_run.sl.H0_3
    try unfold tile_run.sl.v32 tile_run.sl.v30_ld
    try unfold tile_run.sl.v2
    refine ScatterViews.OH_step_cov _ (XvFacts.xvC_lt L xt fv hx) _ _ _ (by decide) 3 (by decide) _ _ 0 48 rfl (by decide) (by decide) _ (by decide) _ (by decide) _ _ _ _ ?_
    try unfold tile_run.sl.f_1
    try unfold tile_run.sl.H0_2
    try unfold tile_run.sl.v26 tile_run.sl.v24_ld
    try unfold tile_run.sl.v2
    refine ScatterViews.OH_step_cov _ (XvFacts.xvC_lt L xt fv hx) _ _ _ (by decide) 2 (by decide) _ _ 0 32 rfl (by decide) (by decide) _ (by decide) _ (by decide) _ _ _ _ ?_
    try unfold tile_run.sl.f
    try unfold tile_run.sl.H0_1
    try unfold tile_run.sl.v20 tile_run.sl.v18_ld
    try unfold tile_run.sl.v2
    refine ScatterViews.OH_step_cov _ (XvFacts.xvC_lt L xt fv hx) _ _ _ (by decide) 1 (by decide) _ _ 0 16 rfl (by decide) (by decide) _ (by decide) _ (by decide) _ _ _ _ ?_
    try unfold tile_run.sl.v14 tile_run.sl.v12_ld
    try unfold tile_run.sl.v2
    refine ScatterViews.OH_step_at _ (XvFacts.xvC_lt L xt fv hx) _ _ _ (by decide) 0 (by decide) _ _ 0 0 rfl (by decide) (by decide) _ (by decide) _ (by decide) _ _ _ ?_
    exact ScatterFacts.OH_zero _ _ _ _ _ (Pictures.Z_all (by decide) g0 hg0)
  have hpic1 : LoopInv.Pic L xt fv 1 ((Memref.whole cc0_scratch2 : Memref sig .scVector .vmem S200x256 .i32).view.writes (Elt F) g1 (tile_run.sl.H1_32 L xt fv hxs g1)) := by
    unfold LoopInv.Pic
    try unfold tile_run.sl.H1_32
    refine ScatterViews.OH_writes2 _ _ _ _ 32 _ _ _ ?_
    try unfold tile_run.sl.f_61
    try unfold tile_run.sl.H1_31
    try unfold tile_run.sl.v396 tile_run.sl.v394_ld
    try unfold tile_run.sl.v2
    refine ScatterViews.OH_step_cov2 _ (XvFacts.xvC_lt L xt fv hx) _ _ _ (by decide) 31 (by decide) _ _ 1 496 rfl (by decide) (by decide) _ (by decide) _ (by decide) _ _ _ _ ?_
    try unfold tile_run.sl.f_60
    try unfold tile_run.sl.H1_30
    try unfold tile_run.sl.v390 tile_run.sl.v388_ld
    try unfold tile_run.sl.v2
    refine ScatterViews.OH_step_cov2 _ (XvFacts.xvC_lt L xt fv hx) _ _ _ (by decide) 30 (by decide) _ _ 1 480 rfl (by decide) (by decide) _ (by decide) _ (by decide) _ _ _ _ ?_
    try unfold tile_run.sl.f_59
    try unfold tile_run.sl.H1_29
    try unfold tile_run.sl.v384 tile_run.sl.v382_ld
    try unfold tile_run.sl.v2
    refine ScatterViews.OH_step_cov2 _ (XvFacts.xvC_lt L xt fv hx) _ _ _ (by decide) 29 (by decide) _ _ 1 464 rfl (by decide) (by decide) _ (by decide) _ (by decide) _ _ _ _ ?_
    try unfold tile_run.sl.f_58
    try unfold tile_run.sl.H1_28
    try unfold tile_run.sl.v378 tile_run.sl.v376_ld
    try unfold tile_run.sl.v2
    refine ScatterViews.OH_step_cov2 _ (XvFacts.xvC_lt L xt fv hx) _ _ _ (by decide) 28 (by decide) _ _ 1 448 rfl (by decide) (by decide) _ (by decide) _ (by decide) _ _ _ _ ?_
    try unfold tile_run.sl.f_57
    try unfold tile_run.sl.H1_27
    try unfold tile_run.sl.v372 tile_run.sl.v370_ld
    try unfold tile_run.sl.v2
    refine ScatterViews.OH_step_cov2 _ (XvFacts.xvC_lt L xt fv hx) _ _ _ (by decide) 27 (by decide) _ _ 1 432 rfl (by decide) (by decide) _ (by decide) _ (by decide) _ _ _ _ ?_
    try unfold tile_run.sl.f_56
    try unfold tile_run.sl.H1_26
    try unfold tile_run.sl.v366 tile_run.sl.v364_ld
    try unfold tile_run.sl.v2
    refine ScatterViews.OH_step_cov2 _ (XvFacts.xvC_lt L xt fv hx) _ _ _ (by decide) 26 (by decide) _ _ 1 416 rfl (by decide) (by decide) _ (by decide) _ (by decide) _ _ _ _ ?_
    try unfold tile_run.sl.f_55
    try unfold tile_run.sl.H1_25
    try unfold tile_run.sl.v360 tile_run.sl.v358_ld
    try unfold tile_run.sl.v2
    refine ScatterViews.OH_step_cov2 _ (XvFacts.xvC_lt L xt fv hx) _ _ _ (by decide) 25 (by decide) _ _ 1 400 rfl (by decide) (by decide) _ (by decide) _ (by decide) _ _ _ _ ?_
    try unfold tile_run.sl.f_54
    try unfold tile_run.sl.H1_24
    try unfold tile_run.sl.v354 tile_run.sl.v352_ld
    try unfold tile_run.sl.v2
    refine ScatterViews.OH_step_cov2 _ (XvFacts.xvC_lt L xt fv hx) _ _ _ (by decide) 24 (by decide) _ _ 1 384 rfl (by decide) (by decide) _ (by decide) _ (by decide) _ _ _ _ ?_
    try unfold tile_run.sl.f_53
    try unfold tile_run.sl.H1_23
    try unfold tile_run.sl.v348 tile_run.sl.v346_ld
    try unfold tile_run.sl.v2
    refine ScatterViews.OH_step_cov2 _ (XvFacts.xvC_lt L xt fv hx) _ _ _ (by decide) 23 (by decide) _ _ 1 368 rfl (by decide) (by decide) _ (by decide) _ (by decide) _ _ _ _ ?_
    try unfold tile_run.sl.f_52
    try unfold tile_run.sl.H1_22
    try unfold tile_run.sl.v342 tile_run.sl.v340_ld
    try unfold tile_run.sl.v2
    refine ScatterViews.OH_step_cov2 _ (XvFacts.xvC_lt L xt fv hx) _ _ _ (by decide) 22 (by decide) _ _ 1 352 rfl (by decide) (by decide) _ (by decide) _ (by decide) _ _ _ _ ?_
    try unfold tile_run.sl.f_51
    try unfold tile_run.sl.H1_21
    try unfold tile_run.sl.v336 tile_run.sl.v334_ld
    try unfold tile_run.sl.v2
    refine ScatterViews.OH_step_cov2 _ (XvFacts.xvC_lt L xt fv hx) _ _ _ (by decide) 21 (by decide) _ _ 1 336 rfl (by decide) (by decide) _ (by decide) _ (by decide) _ _ _ _ ?_
    try unfold tile_run.sl.f_50
    try unfold tile_run.sl.H1_20
    try unfold tile_run.sl.v330 tile_run.sl.v328_ld
    try unfold tile_run.sl.v2
    refine ScatterViews.OH_step_cov2 _ (XvFacts.xvC_lt L xt fv hx) _ _ _ (by decide) 20 (by decide) _ _ 1 320 rfl (by decide) (by decide) _ (by decide) _ (by decide) _ _ _ _ ?_
    try unfold tile_run.sl.f_49
    try unfold tile_run.sl.H1_19
    try unfold tile_run.sl.v324 tile_run.sl.v322_ld
    try unfold tile_run.sl.v2
    refine ScatterViews.OH_step_cov2 _ (XvFacts.xvC_lt L xt fv hx) _ _ _ (by decide) 19 (by decide) _ _ 1 304 rfl (by decide) (by decide) _ (by decide) _ (by decide) _ _ _ _ ?_
    try unfold tile_run.sl.f_48
    try unfold tile_run.sl.H1_18
    try unfold tile_run.sl.v318 tile_run.sl.v316_ld
    try unfold tile_run.sl.v2
    refine ScatterViews.OH_step_cov2 _ (XvFacts.xvC_lt L xt fv hx) _ _ _ (by decide) 18 (by decide) _ _ 1 288 rfl (by decide) (by decide) _ (by decide) _ (by decide) _ _ _ _ ?_
    try unfold tile_run.sl.f_47
    try unfold tile_run.sl.H1_17
    try unfold tile_run.sl.v312 tile_run.sl.v310_ld
    try unfold tile_run.sl.v2
    refine ScatterViews.OH_step_cov2 _ (XvFacts.xvC_lt L xt fv hx) _ _ _ (by decide) 17 (by decide) _ _ 1 272 rfl (by decide) (by decide) _ (by decide) _ (by decide) _ _ _ _ ?_
    try unfold tile_run.sl.f_46
    try unfold tile_run.sl.H1_16
    try unfold tile_run.sl.v306 tile_run.sl.v304_ld
    try unfold tile_run.sl.v2
    refine ScatterViews.OH_step_cov2 _ (XvFacts.xvC_lt L xt fv hx) _ _ _ (by decide) 16 (by decide) _ _ 1 256 rfl (by decide) (by decide) _ (by decide) _ (by decide) _ _ _ _ ?_
    try unfold tile_run.sl.f_45
    try unfold tile_run.sl.H1_15
    try unfold tile_run.sl.v300 tile_run.sl.v298_ld
    try unfold tile_run.sl.v2
    refine ScatterViews.OH_step_cov2 _ (XvFacts.xvC_lt L xt fv hx) _ _ _ (by decide) 15 (by decide) _ _ 0 496 rfl (by decide) (by decide) _ (by decide) _ (by decide) _ _ _ _ ?_
    try unfold tile_run.sl.f_44
    try unfold tile_run.sl.H1_14
    try unfold tile_run.sl.v294 tile_run.sl.v292_ld
    try unfold tile_run.sl.v2
    refine ScatterViews.OH_step_cov2 _ (XvFacts.xvC_lt L xt fv hx) _ _ _ (by decide) 14 (by decide) _ _ 0 480 rfl (by decide) (by decide) _ (by decide) _ (by decide) _ _ _ _ ?_
    try unfold tile_run.sl.f_43
    try unfold tile_run.sl.H1_13
    try unfold tile_run.sl.v288 tile_run.sl.v286_ld
    try unfold tile_run.sl.v2
    refine ScatterViews.OH_step_cov2 _ (XvFacts.xvC_lt L xt fv hx) _ _ _ (by decide) 13 (by decide) _ _ 0 464 rfl (by decide) (by decide) _ (by decide) _ (by decide) _ _ _ _ ?_
    try unfold tile_run.sl.f_42
    try unfold tile_run.sl.H1_12
    try unfold tile_run.sl.v282 tile_run.sl.v280_ld
    try unfold tile_run.sl.v2
    refine ScatterViews.OH_step_cov2 _ (XvFacts.xvC_lt L xt fv hx) _ _ _ (by decide) 12 (by decide) _ _ 0 448 rfl (by decide) (by decide) _ (by decide) _ (by decide) _ _ _ _ ?_
    try unfold tile_run.sl.f_41
    try unfold tile_run.sl.H1_11
    try unfold tile_run.sl.v276 tile_run.sl.v274_ld
    try unfold tile_run.sl.v2
    refine ScatterViews.OH_step_cov2 _ (XvFacts.xvC_lt L xt fv hx) _ _ _ (by decide) 11 (by decide) _ _ 0 432 rfl (by decide) (by decide) _ (by decide) _ (by decide) _ _ _ _ ?_
    try unfold tile_run.sl.f_40
    try unfold tile_run.sl.H1_10
    try unfold tile_run.sl.v270 tile_run.sl.v268_ld
    try unfold tile_run.sl.v2
    refine ScatterViews.OH_step_cov2 _ (XvFacts.xvC_lt L xt fv hx) _ _ _ (by decide) 10 (by decide) _ _ 0 416 rfl (by decide) (by decide) _ (by decide) _ (by decide) _ _ _ _ ?_
    try unfold tile_run.sl.f_39
    try unfold tile_run.sl.H1_9
    try unfold tile_run.sl.v264 tile_run.sl.v262_ld
    try unfold tile_run.sl.v2
    refine ScatterViews.OH_step_cov2 _ (XvFacts.xvC_lt L xt fv hx) _ _ _ (by decide) 9 (by decide) _ _ 0 400 rfl (by decide) (by decide) _ (by decide) _ (by decide) _ _ _ _ ?_
    try unfold tile_run.sl.f_38
    try unfold tile_run.sl.H1_8
    try unfold tile_run.sl.v258 tile_run.sl.v256_ld
    try unfold tile_run.sl.v2
    refine ScatterViews.OH_step_cov2 _ (XvFacts.xvC_lt L xt fv hx) _ _ _ (by decide) 8 (by decide) _ _ 0 384 rfl (by decide) (by decide) _ (by decide) _ (by decide) _ _ _ _ ?_
    try unfold tile_run.sl.f_37
    try unfold tile_run.sl.H1_7
    try unfold tile_run.sl.v252 tile_run.sl.v250_ld
    try unfold tile_run.sl.v2
    refine ScatterViews.OH_step_cov2 _ (XvFacts.xvC_lt L xt fv hx) _ _ _ (by decide) 7 (by decide) _ _ 0 368 rfl (by decide) (by decide) _ (by decide) _ (by decide) _ _ _ _ ?_
    try unfold tile_run.sl.f_36
    try unfold tile_run.sl.H1_6
    try unfold tile_run.sl.v246 tile_run.sl.v244_ld
    try unfold tile_run.sl.v2
    refine ScatterViews.OH_step_cov2 _ (XvFacts.xvC_lt L xt fv hx) _ _ _ (by decide) 6 (by decide) _ _ 0 352 rfl (by decide) (by decide) _ (by decide) _ (by decide) _ _ _ _ ?_
    try unfold tile_run.sl.f_35
    try unfold tile_run.sl.H1_5
    try unfold tile_run.sl.v240 tile_run.sl.v238_ld
    try unfold tile_run.sl.v2
    refine ScatterViews.OH_step_cov2 _ (XvFacts.xvC_lt L xt fv hx) _ _ _ (by decide) 5 (by decide) _ _ 0 336 rfl (by decide) (by decide) _ (by decide) _ (by decide) _ _ _ _ ?_
    try unfold tile_run.sl.f_34
    try unfold tile_run.sl.H1_4
    try unfold tile_run.sl.v234 tile_run.sl.v232_ld
    try unfold tile_run.sl.v2
    refine ScatterViews.OH_step_cov2 _ (XvFacts.xvC_lt L xt fv hx) _ _ _ (by decide) 4 (by decide) _ _ 0 320 rfl (by decide) (by decide) _ (by decide) _ (by decide) _ _ _ _ ?_
    try unfold tile_run.sl.f_33
    try unfold tile_run.sl.H1_3
    try unfold tile_run.sl.v228 tile_run.sl.v226_ld
    try unfold tile_run.sl.v2
    refine ScatterViews.OH_step_cov2 _ (XvFacts.xvC_lt L xt fv hx) _ _ _ (by decide) 3 (by decide) _ _ 0 304 rfl (by decide) (by decide) _ (by decide) _ (by decide) _ _ _ _ ?_
    try unfold tile_run.sl.f_32
    try unfold tile_run.sl.H1_2
    try unfold tile_run.sl.v222 tile_run.sl.v220_ld
    try unfold tile_run.sl.v2
    refine ScatterViews.OH_step_cov2 _ (XvFacts.xvC_lt L xt fv hx) _ _ _ (by decide) 2 (by decide) _ _ 0 288 rfl (by decide) (by decide) _ (by decide) _ (by decide) _ _ _ _ ?_
    try unfold tile_run.sl.f_31
    try unfold tile_run.sl.H1_1
    try unfold tile_run.sl.v216 tile_run.sl.v214_ld
    try unfold tile_run.sl.v2
    refine ScatterViews.OH_step_cov2 _ (XvFacts.xvC_lt L xt fv hx) _ _ _ (by decide) 1 (by decide) _ _ 0 272 rfl (by decide) (by decide) _ (by decide) _ (by decide) _ _ _ _ ?_
    try unfold tile_run.sl.v210 tile_run.sl.v208_ld
    try unfold tile_run.sl.v2
    refine ScatterViews.OH_step_at2 _ (XvFacts.xvC_lt L xt fv hx) _ _ _ (by decide) 0 (by decide) _ _ 0 256 rfl (by decide) (by decide) _ (by decide) _ (by decide) _ _ _ ?_
    exact ScatterFacts.OH_zero _ _ _ _ _ (Pictures.Z_all2 (by decide) g1 hg1)
  -- the two copies out, as the loop's invariant names them
  unfold tile_run.sl.dma5 tile_run.sl.dma8
  ihave HF0 := (TripB.flight0_exec d L xt hx fv fo 0 (by decide) (k0_off2 L) (k0_off2_inb L) (Geometry.off2_eq L) _ hpic0 (SemLoc.dma cc0_scratch3.sem) (default : HIx 1) LoopInv.AMT) $$ [Hs3]
  · iexact Hs3
  ihave HF1 := (TripB.flight1_exec d L xt hx fv fo 1 (by decide) (k0_off3 L) (k0_off3_inb L) (Geometry.off3_eq L) _ hpic1 (SemLoc.dma cc0_scratch4.sem) (default : HIx 1) LoopInv.AMT) $$ [Hs4]
  · iexact Hs4
  have hW' : ∀ p ∈ insert ((SemLoc.dma cc0_scratch5.sem : SemLoc sig), (default : HIx 1)) W, p ∈ W ∨ p.2 = none := by
    intro p hp
    rcases Finset.mem_insert.1 hp with rfl | h
    · exact Or.inr rfl
    · exact Or.inl h
  -- the main loop
  sl_for (LoopInv.tinv (F := F) d L O W xt fv fo) $$ [Hv HF0 HF1 Htail HO]
  case region =>
    intro k acc
    unfold tile_run.sl.prog.body_3
    exact Trip.trip (F := F) d L O W xt hx fv fo _ _ k
  · iapply (LoopEnds.tinv_zero (F := F) d L O W xt fv fo _ hW')
    isplitr; · iexact Hmw
    isplitl [Hv]; · iexact Hv
    isplitl [HF0]; · iexact HF0
    isplitl [HF1]; · iexact HF1
    isplitl [Htail]; · iexact Htail
    iexact HO
  iintro %_ HI
  -- after the last trip: chunks 24 and 25 are in flight, the rest has landed
  rw [show Scf.trips k0_t3_loop.lb k0_t3_loop.ub k0_t3_loop.st = 12 from by decide]
  ihave HL := (LoopEnds.tinv_last (F := F) d L O W xt fv fo) $$ HI
  icases HL with ⟨HM, Hv, HF0, HF1, HLand, HR, ⟨%W', %hW'', HO⟩⟩
  sl_exec
  ihave Hmw3 := (Transfers.MayWaits.elim (SemLoc.dma cc0_scratch3.sem)) $$ Hmw
  iapply (Transfers.wp_waitLocalO countersEmb 𝒱₀ (V d (cV L) (jV L)) none (default : HIx 1) (N := LoopInv.AMT) rfl) $$ [HF0 HO Hmw3]
  · isplitl [HF0]; · iexact HF0
    isplitl [HO]; · iexact HO
    iexact Hmw3
  iintro ⟨HD0, Hs3, HO⟩
  sl_exec
  ihave Hmw4 := (Transfers.MayWaits.elim (SemLoc.dma cc0_scratch4.sem)) $$ Hmw
  iapply (Transfers.wp_waitLocalO countersEmb 𝒱₀ (V d (cV L) (jV L)) none (default : HIx 1) (N := LoopInv.AMT) rfl) $$ [HF1 HO Hmw4]
  · isplitl [HF1]; · iexact HF1
    isplitl [HO]; · iexact HO
    iexact Hmw4
  iintro ⟨HD1, Hs4, HO⟩
  sl_step
  -- everything the run hands back
  iclear H0 H1 HM
  iapply (LoopEnds.finish (F := F) d L O W xt fv fo)
  isplitl [Hx]; · iexact Hx
  isplitl [Hv]; · iexact Hv
  isplitl [HD0]; · iexact HD0
  isplitl [HD1]; · iexact HD1
  isplitl [HLand]; · iexact HLand
  isplitl [HR]; · iexact HR
  isplitl [Hs3]; · iexact Hs3
  isplitl [Hs4]; · iexact Hs4
  isplitl [Hs5]; · iexact Hs5
  iexists (insert ((SemLoc.dma cc0_scratch4.sem : SemLoc sig), (default : HIx 1)) (insert ((SemLoc.dma cc0_scratch3.sem : SemLoc sig), (default : HIx 1)) W'))
  isplitr
  · ipureintro
    intro p hp
    rcases Finset.mem_insert.1 hp with rfl | hp
    · exact Or.inr rfl
    rcases Finset.mem_insert.1 hp with rfl | hp
    · exact Or.inr rfl
    exact hW'' p hp
  · iexact HO

end Cert.KernelIdeal.Prefix

end
-- ==== Proof.K_TileBase.lean ====
/-
  The tile's view of the kernel: the program as the launch theorem reads it, the ghost state (the launch handshakes'
  rounds beside the transfers' counters), the tile a grid point runs on, and its first buffer held whole.
-/
import proofs.«212700_g8504035246323_cont_9to1_m_53_19_alg».proof.Defs
import Idealize.ShloMosaic.Lib.SparseCore.Launch
import Idealize.ShloMosaic.Lib.SparseCore.Ops
import Idealize.ShloMosaic.Lib.StableHlo.Run
import Idealize.ShloMosaic.Lib.Pipeline.Kit
import Idealize.ShloMosaic.Lib.Tactic
import proofs.«212700_g8504035246323_cont_9to1_m_53_19_alg».proof.Proof.Gen.Kernel
import proofs.«212700_g8504035246323_cont_9to1_m_53_19_alg».proof.Proof.Gen.Kernel.Skeleton

noncomputable section

namespace Cert.Kernel.Tile

open Cert.Kernel Cert.Kernel.Gen

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

abbrev ΛP : Labels := Pipeline.Sig Λ₀ (Fin 0) fun p => (pcfgs (F := F) p).Adm
abbrev K : SparseCore.Cfg τ sig (ΛP (F := F)) 1 := sc (F := F)
abbrev 𝒱₀ : Variants := Variants.none

abbrev UH : Type := URounds (GSem nD τ sig) ℕ
abbrev UU : Type := UH × Counters

/-- The SparseCore and the vector subcore a grid point runs on. -/
abbrev cV (L : grid0.Coords) : Fin τ.nSC := (L 0).castLE hcore0
abbrev jV (L : grid0.Coords) : Fin τ.nSub := (L 1).castLE hsub0

variable [FloatOps F]

/-- The first buffer held whole at contents `g`. -/
def heldB0 (d : Dev nD) (L : grid0.Coords)
    (g : Buf (Elt F) ((Memref.whole cc0_scratch1 : Memref sig .scVector .vmem S200x256 .i32).view.loc (V d (cV L) (jV L)))) :
    sProp (MT nD τ sig (HIx 1) (Elt F) ℕ UU ℕ) :=
  ((Memref.whole cc0_scratch1 : Memref sig .scVector .vmem S200x256 .i32).view.loc (V d (cV L) (jV L)) ↦{fullShare} g)

end Cert.Kernel.Tile

end
-- ==== Proof.K_Spec.lean ====
/-
  What the kernel is to compute: the one-hot coding of a table of class numbers.

  `x` is a table of 16384 rows and 26 columns of class numbers below 100. Its coding has 2600 columns: column
  `100 c + v` of row `r` is 1 when `x[r, c] = v` and 0 otherwise. The kernel works on the transposed table and writes
  the transposed coding, 2600 rows of 16384 entries; transposing that back gives the coding of `x`.
-/
import proofs.«212700_g8504035246323_cont_9to1_m_53_19_alg».proof.Kernel
import Idealize.ShloMosaic.Lib.ValueIdx
import Idealize.ShloMosaic.Lib.Pipeline.Value

namespace Cert.Kernel.Spec

open Cert.Kernel Idealize.ShloMosaic Idealize.ShloMosaic.ValueIdx

theorem div100_lt26 {n : Nat} (h : n < 2600) : n / 100 < 26 := by omega

/-- The coding of `x`: entry `(r, 100 c + v)` is 1 exactly when `x[r, c] = v`. -/
def oneHot (x : IVec S16384x26 32) : IVec S16384x2600 32 :=
  fun j => if (x (ix2 (j 0) ⟨(j 1).val / 100, div100_lt26 (j 1).isLt⟩)).toNat = (j 1).val % 100 then 1#32 else 0#32

/-- The same for the transposed table `xt`, transposed: entry `(100 c + v, r)` is 1 exactly when `xt[c, r] = v`. -/
def oneHotT (xt : IVec S26x16384 32) : IVec S2600x16384 32 :=
  fun j => if (xt (ix2 ⟨(j 0).val / 100, div100_lt26 (j 0).isLt⟩ (j 1))).toNat = (j 0).val % 100 then 1#32 else 0#32

/-- Transposing the table, coding it transposed and transposing back is coding the table. -/
theorem transpose_oneHotT (x : IVec S16384x26 32) (h1 : S16384x26.Transposes [1, 0] S26x16384)
    (h2 : S2600x16384.Transposes [1, 0] S16384x2600) :
    transpose S16384x2600 [1, 0] (oneHotT (transpose S26x16384 [1, 0] x h1)) h2 = oneHot x := by
  funext j
  rw [transpose_apply [1, 0] _ h2 j (ix2 (j 1) (j 0)) (fun b => by match b with | ⟨0, _⟩ => rfl | ⟨1, _⟩ => rfl)]
  unfold oneHotT oneHot
  rw [transpose_apply [1, 0] x h1 _ (ix2 (j 0) ⟨(j 1).val / 100, div100_lt26 (j 1).isLt⟩)
    (fun b => by match b with | ⟨0, _⟩ => rfl | ⟨1, _⟩ => rfl)]

end Cert.Kernel.Spec
-- ==== Proof.K_Contract.lean ====
/-
  What one tile owes the launch, as a statement.

  Tile `w = 2 s + c` (vector subcore `s` of SparseCore `c`) is handed the 512 columns `512 w .. 512 w + 511` of the
  transposed table (26 rows) and of the transposed coding (2600 rows). From the table's slab, whose entries are class
  numbers below 100, it must leave the coding's slab holding the one-hot coding of the table, the table's slab as it
  found it, and its own scratch storage and semaphores as the launch lent them.
-/
import proofs.«212700_g8504035246323_cont_9to1_m_53_19_alg».proof.Proof.K_TileBase
import proofs.«212700_g8504035246323_cont_9to1_m_53_19_alg».proof.Proof.K_Spec

noncomputable section

namespace Cert.Kernel.Contract

open Cert.Kernel Cert.Kernel.Gen Cert.Kernel.Tile

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

/-- The tile a grid point `(c, s)` is: `2 s + c`. -/
def wOf (L : grid0.Coords) : Nat := 2 * (L 1).val + (L 0).val

/-- The 512 columns of tile `w`, in the transposed table and in the transposed coding. -/
def slabX (w : Nat) : Finset S26x16384.Idx := Finset.univ.filter fun j => 512 * w ≤ (j 1).val ∧ (j 1).val < 512 * w + 512
def slabO (w : Nat) : Finset S2600x16384.Idx := Finset.univ.filter fun j => 512 * w ≤ (j 1).val ∧ (j 1).val < 512 * w + 512

/-- The transposed table and the transposed coding, as locations of device `d` (the TensorCore's arrays). -/
abbrev xtLoc (d : Dev nD) : Loc nD τ sig := (SparseCore.T d).loc main_v0
abbrev oLoc (d : Dev nD) : Loc nD τ sig := (SparseCore.T d).loc main_v1

variable [FloatOps F]

/-- The tile's task, from its slabs to its slabs. -/
def TileContract : Prop :=
  ∀ (d : Dev nD) (L : grid0.Coords) (O : CellTallies nD τ sig (HIx 1)) (W : Waits sig (HIx 1)), (∀ g, O g none = 0) →
    ∀ (xt : IVec S26x16384 32), (∀ i, (xt i).toNat < 100) → ∀ (o0 : IVec S2600x16384 32),
    (iprop(levAts (K (F := F)).L (K (F := F)).lev ∗ emp
        ∗ ((xtLoc d ↦[slabX (wOf L)]{fullShare} (xt : Buf (Elt F) (xtLoc d))) ∗ (oLoc d ↦[slabO (wOf L)]{fullShare} (o0 : Buf (Elt F) (oLoc d))))
        ∗ scopedBufs (V d (cV L) (jV L)) ∗ scopedSems0 (V d (cV L) (jV L)) ∗ owes (V d (cV L) (jV L)) O W)
      : sProp (MT nD τ sig (HIx 1) (Elt F) ℕ UU ℕ))
      ⊢ wp frame (wpE (defs₀ (F := F)) 𝒱₀ (V d (cV L) (jV L)) none) Set.univ
          (cc0__onehot_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5)
          fun _ => iprop(((xtLoc d ↦[slabX (wOf L)]{fullShare} (xt : Buf (Elt F) (xtLoc d)))
              ∗ (oLoc d ↦[slabO (wOf L)]{fullShare} (Spec.oneHotT xt : Buf (Elt F) (oLoc d))))
            ∗ scopedBufs (V d (cV L) (jV L)) ∗ scopedSems0 (V d (cV L) (jV L))
            ∗ ∃ W', ⌜∀ p ∈ W', p ∈ W ∨ p.2 = none⌝ ∗ owes (V d (cV L) (jV L)) O W')

end Cert.Kernel.Contract

end
-- ==== Proof.K_Launch.lean ====
/-
  The launch of the kernel program.

  @main on the TensorCore transposes the table, calls the SparseCore kernel on the grid of 2 SparseCores by 16 vector
  subcores, and transposes what the kernel wrote back. Vector subcore `i` of SparseCore `c` is tile `2 i + c`: it is
  handed the 512 columns from `512 (2 i + c)` on of the transposed table and of the transposed coding's array, and by
  the tile's contract hands them back, the coding's slab at the one-hot coding of the table's. The thirty-two slabs are
  pairwise disjoint and cover the arrays (`(j 1) / 512` is the tile of index `j`), so the call takes the two arrays whole
  and returns them whole, the second at the coding of the first; the second transpose then leaves the coding of the
  table itself (`Spec.transpose_oneHotT`). No thread signals another: the ghost state is the launch handshakes' rounds
  beside the transfers' counters, the kernel's proof consumes nothing of the launch's, and the launch element drops
  the counters.
-/
import proofs.«212700_g8504035246323_cont_9to1_m_53_19_alg».proof.Proof.K_Contract

noncomputable section

namespace Cert.Kernel.Launch

open Cert.Kernel Cert.Kernel.Gen Cert.Kernel.Tile Cert.Kernel.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (held held_split held_sdiff_result wp_hlo_within)
open Idealize.ShloMosaic.Tactic
open Idealize.ShloMosaic.ValueIdx

variable {F : FTy → Type}

/-! ## The program as the launch theorem reads it -/

abbrev D [FloatOps F] : Defs nD τ sig (Elt F) (ΛP (F := F)) := Pipeline.defs pcfgs defs₀
abbrev 𝒱 : Variants := 𝒱₀.lift
abbrev v₀ : 𝒱.V := Sum.inl none

theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

local notation "𝕄" => MT nD τ sig (HIx 1) (Elt F) ℕ UU ℕ

/-- The handshakes' rounds sit in the left factor of the ghost state; the transfers' counters in the right. -/
abbrev EH : Emb UH (MT nD τ sig (HIx 1) (Elt F) ℕ UU ℕ) := embL

variable (m : (ℓ : Loc nD τ sig) → Buf (Elt F) ℓ) (ρ : Dev nD → PrngReg)

/-- The table, its transpose's array, the coding's and the result's, as locations of device `d`. -/
abbrev aLoc (d : Dev nD) : Loc nD τ sig := (SparseCore.T d).loc main_arg0
abbrev rLoc (d : Dev nD) : Loc nD τ sig := (SparseCore.T d).loc main_v2

/-- The transposed table: what the first operation of the program leaves for the kernel. -/
def xt (d : Dev nD) : IVec S26x16384 32 := transpose S26x16384 [1, 0] (m (aLoc d) : IVec S16384x26 32) transposes_S16384x26_S26x16384_1_0

variable [FloatOps F]

/-- What tile `w` is handed: its slab of the transposed table and its slab of the coding's array as launched; -/
def goS (d : Dev nD) (w : Nat) : sProp 𝕄 :=
  iprop((xtLoc d ↦[slabX w]{fullShare} (xt m d : Buf (Elt F) (xtLoc d))) ∗ (oLoc d ↦[slabO w]{fullShare} (m (oLoc d))))
/-- and what it hands back: the table's slab as it was, the coding's slab at the coding. -/
def tdS (d : Dev nD) (w : Nat) : sProp 𝕄 :=
  iprop((xtLoc d ↦[slabX w]{fullShare} (xt m d : Buf (Elt F) (xtLoc d))) ∗ (oLoc d ↦[slabO w]{fullShare} (Spec.oneHotT (xt m d) : Buf (Elt F) (oLoc d))))

instance goS_storable (d : Dev nD) (w : Nat) : BI.Storable (upEmb : UEmb _ 𝕄) (goS m d w) := by unfold goS; infer_instance
instance tdS_storable (d : Dev nD) (w : Nat) : BI.Storable (upEmb : UEmb _ 𝕄) (tdS m d w) := by unfold tdS; infer_instance

/-- The one call's payloads: vector subcore `i` of SparseCore `c` is tile `2 i + c`; a SparseCore is handed its sixteen
    tiles' slabs together. The kernel's proof consumes nothing of the launch's. -/
def P : (K (F := F)).Pay (nD := nD) (Val := Elt F) (Name := ℕ) (U := UU) where
  st := fun q d c => bigSep Finset.univ fun i : Fin ((K (F := F)).nSub q) => goS m d (2 * i.val + c.val)
  dn := fun q d c => bigSep Finset.univ fun i : Fin ((K (F := F)).nSub q) => tdS m d (2 * i.val + c.val)
  go := fun _ d c i => goS m d (2 * i.val + c.val)
  td := fun _ d c i => tdS m d (2 * i.val + c.val)
  x := fun _ _ => iprop(emp)

instance P_storable : (P (F := F) m).IsStorable where
  st _ d c := by unfold P; infer_instance
  dn _ d c := by unfold P; infer_instance
  go _ _ _ _ := by unfold P; infer_instance
  td _ _ _ _ := by unfold P; infer_instance

/-! ## The launch theorem's obligations -/

def coordsV (c : Fin (grid0.bound 0)) (s : Fin (grid0.bound 1)) : grid0.Coords :=
  fun | 0 => c | 1 => s | ⟨_ + 2, h⟩ => absurd h (Nat.not_lt.2 (Nat.le_add_left _ _))

theorem defs₀_vector (c : Fin τ.nSC) (s : Fin τ.nSub) :
    defs₀ (F := F) (.scVector c s) 0 ()
      = SparseCore.onTile hcore0 hsub0 (fun c s => cc0__onehot_body (coordsV c s)
          (Memref.whole main_v0_scv) (Memref.isWhole_whole _) (Memref.whole main_v1_scv) (Memref.isWhole_whole _)
          (Memref.whole cc0_scratch0) (Memref.isWhole_whole _) (Memref.whole cc0_scratch1) (Memref.isWhole_whole _)
          (Memref.whole cc0_scratch2) (Memref.isWhole_whole _) cc0_scratch3 cc0_scratch4 cc0_scratch5) ⟨⟩ c s := rfl

omit [FloatOps F] in
theorem obl_post {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

/-- The entries of the transposed table are entries of the table. -/
theorem xt_lt (hpre : ∀ (c : Dev nD) (i : S16384x26.Idx), ((m (aLoc c) i : BitVec 32)).toNat < 100) (d : Dev nD) (j : S26x16384.Idx) :
    (xt m d j).toNat < 100 := by
  unfold xt
  rw [transpose_apply [1, 0] _ transposes_S16384x26_S26x16384_1_0 j (ix2 (j 1) (j 0)) (fun b => by match b with | ⟨0, _⟩ => rfl | ⟨1, _⟩ => rfl)]
  exact hpre d _

/-- The tile's task, as the launch theorem asks for it, from the tile's contract. -/
theorem tileObl (htile : TileContract (F := F)) (hpre : ∀ (c : Dev nD) (i : S16384x26.Idx), ((m (aLoc c) i : BitVec 32)).toNat < 100) :
    (K (F := F)).TileObl (D (F := F)) 𝒱 (P m) v₀ 0 := by
  intro d c i O W hO _ _
  -- the kernel owes nothing for a protocol of its own
  simp only [show (P m).ox = fun _ _ => 0 from rfl, add_zero]
  change _ ⊢ wp _ _ _ (Pipeline.liftProg (defs₀ (F := F) (.scVector ((K (F := F)).core 0 c) ((K (F := F)).sub 0 i)) 0 ())) _
  refine BI.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_vector]; simp only [SparseCore.onTile, hc, and_self, ↓reduceDIte]
  exact (htile d (coordsV ⟨_, hc.1⟩ ⟨_, hc.2⟩) O W hO (xt m d) (xt_lt m hpre d) (m (oLoc d))).trans (wp_mono frame _ _ fun _ => obl_post)

/-- A SparseCore's operands are its tiles' slabs together, and so are its results. -/
theorem vecSplit : (K (F := F)).VecSplit' (P m) 0 := by
  intro d c
  show (bigSep Finset.univ fun i : Fin ((K (F := F)).nSub 0) => goS m d (2 * i.val + c.val)) ⊢ |={Set.univ}=> iprop(
      (bigSep Finset.univ fun i : Fin ((K (F := F)).nSub 0) => goS m d (2 * i.val + c.val))
      ∗ ((bigSep Finset.univ fun i : Fin ((K (F := F)).nSub 0) => tdS m d (2 * i.val + c.val))
          -∗ bigSep Finset.univ fun i : Fin ((K (F := F)).nSub 0) => tdS m d (2 * i.val + c.val)))
  iintro H; imodintro
  isplitl [H]; · iexact H
  iintro H; iexact H

/-! ## The launch element: the handshakes' rounds; nothing of the kernel's own -/

def u₀ : UU := (initOf (K (F := F)).hsCells (K (F := F)).hsToks, 1)

omit [FloatOps F] in
theorem bigSep_emp' {I : Type} (s : Finset I) : (bigSep s fun _ => iprop(emp)) = (iprop(emp) : sProp 𝕄) := bigSep_emp_const s

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  unfold u₀
  iintro Hu
  ihave H := (ownU_pair _ _) $$ Hu
  icases H with ⟨HH, -⟩
  imodintro
  isplitl [HH]; · iexact HH
  isplitr; · rw [bigSep_emp']; iempintro
  unfold P; dsimp only
  rw [show (bigSep Finset.univ fun _ : Thread nD τ => bigSep Finset.univ fun _ : Fin 1 => (iprop(emp) : sProp 𝕄)) = iprop(emp) from by
    rw [bigSep_congr fun _ _ => bigSep_emp' _, bigSep_emp']]
  iempintro

/-! ## The arrays, whole, are the thirty-two tiles' slabs -/

/-- Grid point `(c, i)`'s tile. -/
abbrev wP (p : Fin 2 × Fin 16) : Nat := 2 * p.2.val + p.1.val

theorem wP_inj {p p' : Fin 2 × Fin 16} (h : p ≠ p') : wP p ≠ wP p' := by
  intro e
  apply h
  have h1 := p.1.isLt; have h2 := p'.1.isLt
  exact Prod.ext (Fin.ext (by unfold wP at e; omega)) (Fin.ext (by unfold wP at e; omega))

theorem slabX_disjoint : ∀ p ∈ (Finset.univ : Finset (Fin 2 × Fin 16)), ∀ p' ∈ (Finset.univ : Finset (Fin 2 × Fin 16)), p ≠ p' →
    Disjoint (slabX (wP p)) (slabX (wP p')) := by
  intro p _ p' _ h
  have := wP_inj h
  unfold slabX
  exact Finset.disjoint_filter.mpr fun j _ h1 h2 => by omega
theorem slabO_disjoint : ∀ p ∈ (Finset.univ : Finset (Fin 2 × Fin 16)), ∀ p' ∈ (Finset.univ : Finset (Fin 2 × Fin 16)), p ≠ p' →
    Disjoint (slabO (wP p)) (slabO (wP p')) := by
  intro p _ p' _ h
  have := wP_inj h
  unfold slabO
  exact Finset.disjoint_filter.mpr fun j _ h1 h2 => by omega

theorem slabX_cover : (Finset.univ : Finset (Fin 2 × Fin 16)).biUnion (fun p => slabX (wP p)) = Finset.univ := by
  refine Finset.eq_univ_iff_forall.mpr fun j => Finset.mem_biUnion.mpr ?_
  have hj : (j 1).val < 16384 := (j 1).isLt
  refine ⟨(⟨(j 1).val / 512 % 2, by omega⟩, ⟨(j 1).val / 512 / 2, by omega⟩), Finset.mem_univ _, ?_⟩
  unfold slabX wP
  refine Finset.mem_filter.mpr ⟨Finset.mem_univ _, ?_⟩
  dsimp only
  omega
theorem slabO_cover : (Finset.univ : Finset (Fin 2 × Fin 16)).biUnion (fun p => slabO (wP p)) = Finset.univ := by
  refine Finset.eq_univ_iff_forall.mpr fun j => Finset.mem_biUnion.mpr ?_
  have hj : (j 1).val < 16384 := (j 1).isLt
  refine ⟨(⟨(j 1).val / 512 % 2, by omega⟩, ⟨(j 1).val / 512 / 2, by omega⟩), Finset.mem_univ _, ?_⟩
  unfold slabO wP
  refine Finset.mem_filter.mpr ⟨Finset.mem_univ _, ?_⟩
  dsimp only
  omega

omit [FloatOps F] in
theorem xPts_slabs (d : Dev nD) (f : Buf (Elt F) (xtLoc d)) :
    (xtLoc d ↦{fullShare} f : sProp 𝕄) = bigSep Finset.univ fun p : Fin 2 × Fin 16 => xtLoc d ↦[slabX (wP p)]{fullShare} f := by
  rw [← pointsTo_biUnion Finset.univ (ℓ := xtLoc d) (fun p => slabX (wP p)) slabX_disjoint, slabX_cover]; try rfl
omit [FloatOps F] in
theorem oPts_slabs (d : Dev nD) (f : Buf (Elt F) (oLoc d)) :
    (oLoc d ↦{fullShare} f : sProp 𝕄) = bigSep Finset.univ fun p : Fin 2 × Fin 16 => oLoc d ↦[slabO (wP p)]{fullShare} f := by
  rw [← pointsTo_biUnion Finset.univ (ℓ := oLoc d) (fun p => slabO (wP p)) slabO_disjoint, slabO_cover]; try rfl

/-- What the call takes for the two SparseCores: the transposed table and the coding's array, whole; -/
theorem st0_eq (d : Dev nD) : (bigSep Finset.univ fun c : Fin ((K (F := F)).nCore 0) => (P m).st 0 d c)
    = iprop((xtLoc d ↦{fullShare} (xt m d : Buf (Elt F) (xtLoc d))) ∗ (oLoc d ↦{fullShare} (m (oLoc d)))) := by
  show (bigSep (Finset.univ : Finset (Fin 2)) fun c => bigSep (Finset.univ : Finset (Fin 16)) fun i => goS m d (2 * i.val + c.val)) = _
  rw [← bigSep_univ_prod (fun p : Fin 2 × Fin 16 => goS m d (wP p))]
  unfold goS
  rw [bigSep_sep', ← xPts_slabs, ← oPts_slabs]
/-- and what it hands back: the table as it was, the array at the coding. -/
theorem dn0_eq (d : Dev nD) : (bigSep Finset.univ fun c : Fin ((K (F := F)).nCore 0) => (P m).dn 0 d c)
    = iprop((xtLoc d ↦{fullShare} (xt m d : Buf (Elt F) (xtLoc d))) ∗ (oLoc d ↦{fullShare} (Spec.oneHotT (xt m d) : Buf (Elt F) (oLoc d)))) := by
  show (bigSep (Finset.univ : Finset (Fin 2)) fun c => bigSep (Finset.univ : Finset (Fin 16)) fun i => tdS m d (2 * i.val + c.val)) = _
  rw [← bigSep_univ_prod (fun p : Fin 2 × Fin 16 => tdS m d (wP p))]
  unfold tdS
  rw [bigSep_sep', ← xPts_slabs, ← oPts_slabs]

/-! ## @main on the TensorCore -/

abbrev a' : DevRef τ sig := Proc.devRef .tc (main_arg0 : Ref sig .tc)
abbrev x' : DevRef τ sig := Proc.devRef .tc (main_v0 : Ref sig .tc)
abbrev o' : DevRef τ sig := Proc.devRef .tc (main_v1 : Ref sig .tc)
abbrev r' : DevRef τ sig := Proc.devRef .tc (main_v2 : Ref sig .tc)

/-- The two host operations: the table transposed, the coding transposed back. -/
abbrev opT1 : HloOp τ sig (Elt F) := StableHlo.unary main_arg0 main_v0
  ((transpose S26x16384 [1, 0] · transposes_S16384x26_S26x16384_1_0) : (⟨S16384x26, .i32⟩ : BufTy).Contents (Elt F) → (⟨S26x16384, .i32⟩ : BufTy).Contents (Elt F))
abbrev opT2 : HloOp τ sig (Elt F) := StableHlo.unary main_v1 main_v2
  ((transpose S16384x2600 [1, 0] · transposes_S2600x16384_S16384x2600_1_0) : (⟨S2600x16384, .i32⟩ : BufTy).Contents (Elt F) → (⟨S16384x2600, .i32⟩ : BufTy).Contents (Elt F))

/-- The TensorCore's arrays, all unscoped: the table, its transpose, the coding transposed, the coding. -/
abbrev S4 : Finset (DevRef τ sig) := {a', x', o', r'}

omit [FloatOps F] in
theorem held_S4 (d : Dev nD) (W : Valuation τ sig (Elt F)) :
    (held (T d) S4 W : sProp 𝕄) = iprop((aLoc d ↦{fullShare} W a') ∗ (xtLoc d ↦{fullShare} W x') ∗ (oLoc d ↦{fullShare} W o') ∗ rLoc d ↦{fullShare} W r') := by
  unfold held S4
  rw [SparseCore.bigSep_insert' (by decide), SparseCore.bigSep_insert' (by decide), SparseCore.bigSep_insert' (by decide), bigSep_singleton]

omit [FloatOps F] in
theorem unscopedBufs_eq (d : Dev nD) (W : (b : Ref sig .tc) → Buf (Elt F) ((d.tc : Thread nD τ).loc b)) :
    (unscopedBufs d W : sProp 𝕄) = iprop((aLoc d ↦{fullShare} W main_arg0) ∗ (xtLoc d ↦{fullShare} W main_v0) ∗ (oLoc d ↦{fullShare} W main_v1) ∗ rLoc d ↦{fullShare} W main_v2) := by
  unfold unscopedBufs
  rw [show (Finset.univ.filter fun b : Ref sig .tc => ¬ b.isScoped) = {main_arg0, main_v0, main_v1, main_v2} by decide,
    SparseCore.bigSep_insert' (by decide), SparseCore.bigSep_insert' (by decide), SparseCore.bigSep_insert' (by decide), bigSep_singleton]

/-- The launch valuation; -/
def V0 (d : Dev nD) : Valuation τ sig (Elt F) := fun b => m (d, b)
/-- after the first transpose; after the call, the coding's array at the coding. -/
def V1 (d : Dev nD) : Valuation τ sig (Elt F) := (opT1 (F := F)).result (V0 m d)
def V2 (d : Dev nD) : Valuation τ sig (Elt F) := Function.update (V1 m d) o' (Spec.oneHotT (xt m d) : Buf (Elt F) (oLoc d))

theorem unscoped_held (d : Dev nD) : (unscopedBufs d (fun b => m ((SparseCore.T d).loc b)) : sProp 𝕄) = held (T d) S4 (V0 m d) := by
  rw [unscopedBufs_eq, held_S4]; rfl

theorem V1_a (d : Dev nD) : V1 m d a' = m (aLoc d) := StableHlo.unary_result_ne _ _ _ _ _ _ (show (main_arg0 : Ref sig .tc) ≠ main_v0 by decide)
theorem V1_x (d : Dev nD) : V1 m d x' = (xt m d : Buf (Elt F) (xtLoc d)) := StableHlo.unary_result _ _ _ _ _ _
theorem V1_o (d : Dev nD) : V1 m d o' = m (oLoc d) := StableHlo.unary_result_ne _ _ _ _ _ _ (show (main_v1 : Ref sig .tc) ≠ main_v0 by decide)
theorem V1_r (d : Dev nD) : V1 m d r' = m (rLoc d) := StableHlo.unary_result_ne _ _ _ _ _ _ (show (main_v2 : Ref sig .tc) ≠ main_v0 by decide)

theorem V2_a (d : Dev nD) : V2 m d a' = m (aLoc d) := (Function.update_of_ne (show a' ≠ o' by decide) _ _).trans (V1_a m d)
theorem V2_x (d : Dev nD) : V2 m d x' = (xt m d : Buf (Elt F) (xtLoc d)) := (Function.update_of_ne (show x' ≠ o' by decide) _ _).trans (V1_x m d)
theorem V2_o (d : Dev nD) : V2 m d o' = (Spec.oneHotT (xt m d) : Buf (Elt F) (oLoc d)) := Function.update_self _ _ _
theorem V2_r (d : Dev nD) : V2 m d r' = m (rLoc d) := (Function.update_of_ne (show r' ≠ o' by decide) _ _).trans (V1_r m d)

theorem hT1 : (opT1 (F := F)).bufs ⊆ S4 := show ({a', x'} : Finset (DevRef τ sig)) ⊆ S4 by decide
theorem hT2 : (opT2 (F := F)).bufs ⊆ S4 := show ({o', r'} : Finset (DevRef τ sig)) ⊆ S4 by decide

/-- The coding of the table, as the second transpose leaves it. -/
def res (d : Dev nD) : IVec S16384x2600 32 := transpose S16384x2600 [1, 0] (Spec.oneHotT (xt m d)) transposes_S2600x16384_S16384x2600_1_0

theorem V3_a (d : Dev nD) : (opT2 (F := F)).result (V2 m d) a' = m (aLoc d) :=
  (StableHlo.unary_result_ne _ _ _ _ _ _ (show (main_arg0 : Ref sig .tc) ≠ main_v2 by decide)).trans (V2_a m d)
theorem V3_r (d : Dev nD) : (opT2 (F := F)).result (V2 m d) r' = (res m d : Buf (Elt F) (rLoc d)) :=
  (StableHlo.unary_result _ _ _ _ _ _).trans
    (congrArg (fun v : IVec S2600x16384 32 => transpose S16384x2600 [1, 0] v transposes_S2600x16384_S16384x2600_1_0) (V2_o m d))

/-- What @main leaves the claim: the table as launched, the result at the coding. -/
abbrev FIN (d : Dev nD) : sProp 𝕄 := iprop((aLoc d ↦{fullShare} m (aLoc d)) ∗ rLoc d ↦{fullShare} (res m d : Buf (Elt F) (rLoc d)))

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d) := by
  unfold SparseCore.Cfg.tcRes
  rw [unscoped_held]
  simp only [main, wp_bind, wp_pure]
  iintro ⟨#Hctx, Hst, ⟨Hb, Hheld, -, -⟩, -⟩
  iapply (wp_hlo_within 𝒱 (SparseCore.T d) none Set.univ (op := opT1) (S := S4) hT1 (V := V0 m d)) $$ [Hb Hheld]
  · isplitl [Hb]; · iexact Hb
    iexact Hheld
  iintro ⟨Hb, Hheld⟩
  ihave Hh := (Entails.of_eq (held_S4 (F := F) d _)) $$ Hheld
  icases Hh with ⟨Ha, Hx, Ho, Hr⟩
  rw [wp_ret]; imodintro
  -- the call: the transposed table and the coding's array to the two SparseCores and back
  iapply ((K (F := F)).wp_run (D (F := F)) 𝒱 (EH := EH) (P := P m) κ d 0) $$ [Hst Hx Ho Hb Ha Hr]
  isplitr; · iexact Hctx
  isplitl [Hst]; · iexact Hst
  isplitl [Hx Ho]
  · rw [st0_eq]
    isplitl [Hx]
    · iapply (Entails.of_eq (congrArg (fun v => (xtLoc d ↦{fullShare} v : sProp 𝕄)) (V1_x m d))); iexact Hx
    · iapply (Entails.of_eq (congrArg (fun v => (oLoc d ↦{fullShare} v : sProp 𝕄)) (V1_o m d))); iexact Ho
  iintro ⟨Hst, Hdn⟩
  ihave Hdn' := (Entails.of_eq (dn0_eq m d)) $$ Hdn
  icases Hdn' with ⟨Hx, Ho⟩
  -- the second transpose, over the coding's array and the result
  iapply (wp_hlo_within 𝒱 (SparseCore.T d) none Set.univ (op := opT2) (S := S4) hT2 (V := V2 m d)) $$ [Hb Ha Hx Ho Hr]
  · isplitl [Hb]; · iexact Hb
    rw [held_S4, V2_a, V2_x, V2_o, V2_r]
    isplitl [Ha]; · iapply (Entails.of_eq (congrArg (fun v => (aLoc d ↦{fullShare} v : sProp 𝕄)) (V1_a m d))); iexact Ha
    isplitl [Hx]; · iexact Hx
    isplitl [Ho]; · iexact Ho
    iapply (Entails.of_eq (congrArg (fun v => (rLoc d ↦{fullShare} v : sProp 𝕄)) (V1_r m d))); iexact Hr
  iintro ⟨Hb, Hheld⟩
  ihave Hh := (Entails.of_eq (held_S4 (F := F) d _)) $$ Hheld
  icases Hh with ⟨Ha, -, -, Hr⟩
  rw [wp_ret]; imodintro; imodintro
  isplitl [Hst]; · iexact Hst
  isplitl [Ha]
  · iapply (Entails.of_eq (congrArg (fun v => (aLoc d ↦{fullShare} v : sProp 𝕄)) (V3_a m d))); iexact Ha
  · iapply (Entails.of_eq (congrArg (fun v => (rLoc d ↦{fullShare} v : sProp 𝕄)) (V3_r m d))); iexact Hr

/-- What the claim reads off the final memory of device `d`. -/
def fq (d : Dev nD) (s' : Phys nD τ sig (Elt F)) : Prop :=
  s'.mem.mem (rLoc d) = (res m d : Buf (Elt F) (rLoc d)) ∧ s'.mem.mem (aLoc d) = m (aLoc d)

theorem hfin (d : Dev nD) (s' : Phys nD τ sig (Elt F)) : iprop(FIN m d ∗ SI s') ⊢ (⌜fq m d s'⌝ : sProp 𝕄) := by
  iintro ⟨⟨Ha, Hr⟩, HSI⟩
  ihave H := (persistent_entails_right (SI_pointsTo_agree (st := s') (ℓ := aLoc d) (I := Finset.univ) (q := fullShare) (f := m (aLoc d)))) $$ [HSI Ha]
  · isplitl [HSI] <;> iassumption
  icases H with ⟨%h1, HSI, -⟩
  ihave H := (SI_pointsTo_agree (st := s') (ℓ := rLoc d) (I := Finset.univ) (q := fullShare) (f := (res m d : Buf (Elt F) (rLoc d)))) $$ [HSI Hr]
  · isplitl [HSI] <;> iassumption
  icases H with %h2
  ipureintro; exact ⟨funext fun i => h2 i (Finset.mem_univ i), funext fun i => h1 i (Finset.mem_univ i)⟩

/-- Transposing the table, coding it transposed and transposing back is coding the table. -/
theorem res_eq (d : Dev nD) : res m d = Spec.oneHot (m (aLoc d) : IVec S16384x26 32) :=
  Spec.transpose_oneHotT _ _ _

/-! ## The program's run -/

def QC : PUnit × MemSt nD τ sig (Elt F) → Prop := fun r => ∀ c : Dev nD,
  r.2.mem (rLoc c) = (Spec.oneHot (m (aLoc c) : IVec S16384x26 32) : Buf (Elt F) (rLoc c)) ∧ r.2.mem (aLoc c) = m (aLoc c)

theorem run_main' [∀ e, Nonempty (Elt F e)] (htile : TileContract (F := F))
    (hpre : ∀ (c : Dev nD) (i : S16384x26.Idx), ((m (aLoc c) i : BitVec 32)).toNat < 100) :
    θ_run (Cert.Kernel.defs (F := F)) (Cert.Kernel.threads (F := F)) ⟨m, fun _ => 0, ρ⟩ (QC m) :=
  SparseCore.Cfg.θ_run_sc (K := K (F := F)) (D := D (F := F)) (𝒱 := 𝒱) (EH := EH) (P := P m) facts v₀
    (fun q hq => match q with | 0 => nomatch hq)
    (fun q _ => match q with | 0 => tileObl m htile hpre)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m)
    (fun s' h c => ⟨(h c).1.trans (res_eq m c), (h c).2⟩)

/-- The kernel program's run, from the tile's contract: on every device the result is the one-hot coding of the table,
    and the table is as it was. -/
theorem run_main {F : FTy → Type} [FloatOps F] [∀ e, Nonempty (Elt F e)]
    (htile : Cert.Kernel.Contract.TileContract (F := F))
    (m : (ℓ : Loc nD τ sig) → Buf (Elt F) ℓ) (ρ : Dev nD → PrngReg)
    (hpre : ∀ (c : Dev nD) (i : S16384x26.Idx), ((m ((c.tc : Thread nD τ).loc main_arg0) i : BitVec 32)).toNat < 100) :
    θ_run (Cert.Kernel.defs (F := F)) (Cert.Kernel.threads (F := F)) ⟨m, fun _ => 0, ρ⟩ (fun r => ∀ c : Dev nD,
      r.2.mem ((c.tc : Thread nD τ).loc main_v2) = Cert.Kernel.Spec.oneHot (m ((c.tc : Thread nD τ).loc main_arg0))
      ∧ r.2.mem ((c.tc : Thread nD τ).loc main_arg0) = m ((c.tc : Thread nD τ).loc main_arg0)) :=
  run_main' m ρ htile hpre

end Cert.Kernel.Launch

end
-- ==== Proof.K_TileBase2.lean ====
/-
  The tile's second buffer held whole.
-/
import proofs.«212700_g8504035246323_cont_9to1_m_53_19_alg».proof.Proof.K_TileBase

noncomputable section

namespace Cert.Kernel.Tile

open Cert.Kernel Cert.Kernel.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The second buffer held whole at contents `g`. -/
def heldB1 (d : Dev nD) (L : grid0.Coords)
    (g : Buf (Elt F) ((Memref.whole cc0_scratch2 : Memref sig .scVector .vmem S200x256 .i32).view.loc (V d (cV L) (jV L)))) :
    sProp (MT nD τ sig (HIx 1) (Elt F) ℕ UU ℕ) :=
  ((Memref.whole cc0_scratch2 : Memref sig .scVector .vmem S200x256 .i32).view.loc (V d (cV L) (jV L)) ↦{fullShare} g)

end Cert.Kernel.Tile

end
-- ==== Proof.K_Geometry.lean ====
/-
  The geometry of one tile's work.

  Tile `w` owns columns `512 w .. 512 w + 511` of the transposed coding (2600 rows). It writes them as 26 chunks: chunk
  `q` is rows `200 (q / 2) .. 200 (q / 2) + 199` and columns `512 w + 256 (q % 2) .. + 255`. The chunks are pairwise
  disjoint and make up the slab, so holding the slab is holding the 26 chunks apart. The slices the program copies through
  are these chunks (and the table's slab), by the closed forms of the offsets the program computes in 32-bit arithmetic.
-/
import proofs.«212700_g8504035246323_cont_9to1_m_53_19_alg».proof.Proof.K_Contract
import Idealize.ShloMosaic.Lib.Pipeline.Value

noncomputable section

namespace Cert.Kernel.Geometry

open Cert.Kernel Cert.Kernel.Gen Cert.Kernel.Tile Cert.Kernel.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

/-- Chunk `q` of tile `w`'s slab of the coding: rows `200 (q / 2) .. 200 (q / 2) + 199`, columns
    `512 w + 256 (q % 2) .. + 255`. -/
def chunk (w q : Nat) : Finset S2600x16384.Idx := Finset.univ.filter fun j =>
  200 * (q / 2) ≤ (j 0).val ∧ (j 0).val < 200 * (q / 2) + 200 ∧ 512 * w + 256 * (q % 2) ≤ (j 1).val ∧ (j 1).val < 512 * w + 256 * (q % 2) + 256

theorem mem_chunk {w q : Nat} {j : S2600x16384.Idx} : j ∈ chunk w q ↔
    200 * (q / 2) ≤ (j 0).val ∧ (j 0).val < 200 * (q / 2) + 200 ∧ 512 * w + 256 * (q % 2) ≤ (j 1).val ∧ (j 1).val < 512 * w + 256 * (q % 2) + 256 := by
  simp only [chunk, Finset.mem_filter, Finset.mem_univ, true_and]

theorem mem_slabO {w : Nat} {j : S2600x16384.Idx} : j ∈ slabO w ↔ 512 * w ≤ (j 1).val ∧ (j 1).val < 512 * w + 512 := by
  simp only [slabO, Finset.mem_filter, Finset.mem_univ, true_and]

theorem mem_slabX {w : Nat} {j : S26x16384.Idx} : j ∈ slabX w ↔ 512 * w ≤ (j 1).val ∧ (j 1).val < 512 * w + 512 := by
  simp only [slabX, Finset.mem_filter, Finset.mem_univ, true_and]

/-- Two different chunks differ in their band of rows or in their half of the columns. -/
theorem chunk_disjoint (w : Nat) {q q' : Nat} (hq : q < 26) (hq' : q' < 26) (h : q ≠ q') : Disjoint (chunk w q) (chunk w q') := by
  rw [Finset.disjoint_left]
  intro j hj hj'
  rw [mem_chunk] at hj hj'
  omega

/-- The 26 chunks make up the slab: entry `(r, 512 w + x)` lies in chunk `2 (r / 200) + x / 256`. -/
theorem chunk_cover (w : Nat) : (Finset.range 26).biUnion (chunk w) = slabO w := by
  ext j
  rw [Finset.mem_biUnion, mem_slabO]
  constructor
  · rintro ⟨q, _, hj⟩
    rw [mem_chunk] at hj
    omega
  · intro hj
    have h0 : (j 0).val < 2600 := (j 0).isLt
    refine ⟨2 * ((j 0).val / 200) + ((j 1).val - 512 * w) / 256, Finset.mem_range.mpr (by omega), mem_chunk.mpr ?_⟩
    omega

variable {F : FTy → Type}

/-- The slab held is its 26 chunks held, each apart from the others. -/
theorem slab_split (d : Dev nD) (w : Nat) (f : Buf (Elt F) (oLoc d)) :
    (oLoc d ↦[slabO w]{fullShare} f : sProp (MT nD τ sig (Idealize.ShloMosaic.SparseCore.Cfg.HIx 1) (Elt F) ℕ Tile.UU ℕ))
      = Idealize.SL.BI.bigSep (Finset.range 26) fun q => oLoc d ↦[chunk w q]{fullShare} f := by
  rw [← pointsTo_biUnion (Finset.range 26) (ℓ := oLoc d) (chunk w)
    (fun q hq q' hq' h => chunk_disjoint w (Finset.mem_range.mp hq) (Finset.mem_range.mp hq') h), chunk_cover]

/-! ## The sets of the program's slices -/

/-- The table's slice is the tile's slab of the table: all 26 rows, columns `512 w .. 512 w + 511`. -/
theorem set_xtSl (L : grid0.Coords) :
    ((Memref.whole main_v0_scv : Memref sig .scVector .hbm S26x16384 .i32).slice
      (Rect.unit (s := S26x16384) (k0_off1 L) S26x512.size (k0_off1_inb L)) (fun _ => rfl)).view.set = slabX (wOf L) := by
  refine (View.set_slice_whole main_v0_scv _).trans ?_
  ext j
  rw [Rect.mem_set_unit, mem_slabX, k0_off1_eq]
  refine Fin.forall_fin_two.trans ?_
  have h0 : (j 0).val < 26 := (j 0).isLt
  show (0 ≤ (j 0).val ∧ (j 0).val < 0 + 26)
      ∧ (1024 * (L 1).val + 512 * (L 0).val ≤ (j 1).val ∧ (j 1).val < 1024 * (L 1).val + 512 * (L 0).val + 512) ↔ _
  unfold wOf
  omega

/-- A 200 x 256 slice of the coding placed at chunk `q`'s corner is chunk `q`. -/
theorem set_oSl (L : grid0.Coords) (q : Nat) (off : Fin 2 → Nat) (inb : ∀ a, off a + S200x256.size a ≤ S2600x16384.size a)
    (hoff : off = ![200 * (q / 2), 512 * wOf L + 256 * (q % 2)]) :
    ((Memref.whole main_v1_scv : Memref sig .scVector .hbm S2600x16384 .i32).slice
      (Rect.unit (s := S2600x16384) off S200x256.size inb) (fun _ => rfl)).view.set = chunk (wOf L) q := by
  subst hoff
  refine (View.set_slice_whole main_v1_scv _).trans ?_
  ext j
  rw [Rect.mem_set_unit, mem_chunk]
  refine Fin.forall_fin_two.trans ?_
  show (200 * (q / 2) ≤ (j 0).val ∧ (j 0).val < 200 * (q / 2) + 200)
      ∧ (512 * wOf L + 256 * (q % 2) ≤ (j 1).val ∧ (j 1).val < 512 * wOf L + 256 * (q % 2) + 256) ↔ _
  omega

/-! ## The offsets of the copies out, in closed form

  The program computes each in 32-bit arithmetic from the grid point `(c, s)` and the loop's variable; over the 32 grid
  points and the 12 trips these are finitely many evaluations. `1024 s + 512 c = 512 (2 s + c)`. -/

theorem off2_eq (L : grid0.Coords) : k0_off2 L = ![200 * (0 / 2), 512 * wOf L + 256 * (0 % 2)] := by
  revert L; decide +kernel
theorem off3_eq (L : grid0.Coords) : k0_off3 L = ![200 * (1 / 2), 512 * wOf L + 256 * (1 % 2)] := by
  revert L; decide +kernel

theorem off69_eq (L : grid0.Coords) (k : Fin k0_t3_loop.trips) :
    k0_off69 L k = ![200 * ((2 * (k.val + 1)) / 2), 512 * wOf L + 256 * ((2 * (k.val + 1)) % 2)] := by
  revert L k; decide +kernel
theorem off135_eq (L : grid0.Coords) (k : Fin k0_t3_loop.trips) :
    k0_off135 L k = ![200 * ((2 * (k.val + 1) + 1) / 2), 512 * wOf L + 256 * ((2 * (k.val + 1) + 1) % 2)] := by
  revert L k; decide +kernel

/-- The slices the main loop's waits name are the chunks sent two steps before: `2 k` and `2 k + 1` in trip `k`. -/
theorem off4_eq (L : grid0.Coords) (k : Fin k0_t3_loop.trips) :
    k0_off4 L k = ![200 * ((2 * k.val) / 2), 512 * wOf L + 256 * ((2 * k.val) % 2)] := by
  revert L k; decide +kernel
theorem off70_eq (L : grid0.Coords) (k : Fin k0_t3_loop.trips) :
    k0_off70 L k = ![200 * ((2 * k.val + 1) / 2), 512 * wOf L + 256 * ((2 * k.val + 1) % 2)] := by
  revert L k; decide +kernel

/-! ## The offsets of the main loop's loads, in closed form

  The table's copy is 26 x 512. Writing chunk `q` reads its rows `2 (q / 2)` and `2 (q / 2) + 1`, columns
  `256 (q % 2) .. + 255`, sixteen at a time: load `s = 0 .. 31` reads row `2 (q / 2) + s / 16` from column
  `256 (q % 2) + 16 (s % 16)`. In trip `k` the first buffer undoes chunk `2 k` (offsets 5 + s) and takes chunk
  `2 (k + 1)` (offsets 37 + s); the second undoes chunk `2 k + 1` (offsets 71 + s) and takes chunk `2 (k + 1) + 1`
  (offsets 103 + s). Each is twelve evaluations. -/

theorem off5_eq (k : Fin k0_t3_loop.trips) : k0_off5 k = ![2 * k.val + 0 / 16, 16 * (0 % 16)] := by
  revert k; decide +kernel
theorem off6_eq (k : Fin k0_t3_loop.trips) : k0_off6 k = ![2 * k.val + 1 / 16, 16 * (1 % 16)] := by
  revert k; decide +kernel
theorem off7_eq (k : Fin k0_t3_loop.trips) : k0_off7 k = ![2 * k.val + 2 / 16, 16 * (2 % 16)] := by
  revert k; decide +kernel
theorem off8_eq (k : Fin k0_t3_loop.trips) : k0_off8 k = ![2 * k.val + 3 / 16, 16 * (3 % 16)] := by
  revert k; decide +kernel
theorem off9_eq (k : Fin k0_t3_loop.trips) : k0_off9 k = ![2 * k.val + 4 / 16, 16 * (4 % 16)] := by
  revert k; decide +kernel
theorem off10_eq (k : Fin k0_t3_loop.trips) : k0_off10 k = ![2 * k.val + 5 / 16, 16 * (5 % 16)] := by
  revert k; decide +kernel
theorem off11_eq (k : Fin k0_t3_loop.trips) : k0_off11 k = ![2 * k.val + 6 / 16, 16 * (6 % 16)] := by
  revert k; decide +kernel
theorem off12_eq (k : Fin k0_t3_loop.trips) : k0_off12 k = ![2 * k.val + 7 / 16, 16 * (7 % 16)] := by
  revert k; decide +kernel
theorem off13_eq (k : Fin k0_t3_loop.trips) : k0_off13 k = ![2 * k.val + 8 / 16, 16 * (8 % 16)] := by
  revert k; decide +kernel
theorem off14_eq (k : Fin k0_t3_loop.trips) : k0_off14 k = ![2 * k.val + 9 / 16, 16 * (9 % 16)] := by
  revert k; decide +kernel
theorem off15_eq (k : Fin k0_t3_loop.trips) : k0_off15 k = ![2 * k.val + 10 / 16, 16 * (10 % 16)] := by
  revert k; decide +kernel
theorem off16_eq (k : Fin k0_t3_loop.trips) : k0_off16 k = ![2 * k.val + 11 / 16, 16 * (11 % 16)] := by
  revert k; decide +kernel
theorem off17_eq (k : Fin k0_t3_loop.trips) : k0_off17 k = ![2 * k.val + 12 / 16, 16 * (12 % 16)] := by
  revert k; decide +kernel
theorem off18_eq (k : Fin k0_t3_loop.trips) : k0_off18 k = ![2 * k.val + 13 / 16, 16 * (13 % 16)] := by
  revert k; decide +kernel
theorem off19_eq (k : Fin k0_t3_loop.trips) : k0_off19 k = ![2 * k.val + 14 / 16, 16 * (14 % 16)] := by
  revert k; decide +kernel
theorem off20_eq (k : Fin k0_t3_loop.trips) : k0_off20 k = ![2 * k.val + 15 / 16, 16 * (15 % 16)] := by
  revert k; decide +kernel
theorem off21_eq (k : Fin k0_t3_loop.trips) : k0_off21 k = ![2 * k.val + 16 / 16, 16 * (16 % 16)] := by
  revert k; decide +kernel
theorem off22_eq (k : Fin k0_t3_loop.trips) : k0_off22 k = ![2 * k.val + 17 / 16, 16 * (17 % 16)] := by
  revert k; decide +kernel
theorem off23_eq (k : Fin k0_t3_loop.trips) : k0_off23 k = ![2 * k.val + 18 / 16, 16 * (18 % 16)] := by
  revert k; decide +kernel
theorem off24_eq (k : Fin k0_t3_loop.trips) : k0_off24 k = ![2 * k.val + 19 / 16, 16 * (19 % 16)] := by
  revert k; decide +kernel
theorem off25_eq (k : Fin k0_t3_loop.trips) : k0_off25 k = ![2 * k.val + 20 / 16, 16 * (20 % 16)] := by
  revert k; decide +kernel
theorem off26_eq (k : Fin k0_t3_loop.trips) : k0_off26 k = ![2 * k.val + 21 / 16, 16 * (21 % 16)] := by
  revert k; decide +kernel
theorem off27_eq (k : Fin k0_t3_loop.trips) : k0_off27 k = ![2 * k.val + 22 / 16, 16 * (22 % 16)] := by
  revert k; decide +kernel
theorem off28_eq (k : Fin k0_t3_loop.trips) : k0_off28 k = ![2 * k.val + 23 / 16, 16 * (23 % 16)] := by
  revert k; decide +kernel
theorem off29_eq (k : Fin k0_t3_loop.trips) : k0_off29 k = ![2 * k.val + 24 / 16, 16 * (24 % 16)] := by
  revert k; decide +kernel
theorem off30_eq (k : Fin k0_t3_loop.trips) : k0_off30 k = ![2 * k.val + 25 / 16, 16 * (25 % 16)] := by
  revert k; decide +kernel
theorem off31_eq (k : Fin k0_t3_loop.trips) : k0_off31 k = ![2 * k.val + 26 / 16, 16 * (26 % 16)] := by
  revert k; decide +kernel
theorem off32_eq (k : Fin k0_t3_loop.trips) : k0_off32 k = ![2 * k.val + 27 / 16, 16 * (27 % 16)] := by
  revert k; decide +kernel
theorem off33_eq (k : Fin k0_t3_loop.trips) : k0_off33 k = ![2 * k.val + 28 / 16, 16 * (28 % 16)] := by
  revert k; decide +kernel
theorem off34_eq (k : Fin k0_t3_loop.trips) : k0_off34 k = ![2 * k.val + 29 / 16, 16 * (29 % 16)] := by
  revert k; decide +kernel
theorem off35_eq (k : Fin k0_t3_loop.trips) : k0_off35 k = ![2 * k.val + 30 / 16, 16 * (30 % 16)] := by
  revert k; decide +kernel
theorem off36_eq (k : Fin k0_t3_loop.trips) : k0_off36 k = ![2 * k.val + 31 / 16, 16 * (31 % 16)] := by
  revert k; decide +kernel
theorem off37_eq (k : Fin k0_t3_loop.trips) : k0_off37 k = ![2 * (k.val + 1) + 0 / 16, 16 * (0 % 16)] := by
  revert k; decide +kernel
theorem off38_eq (k : Fin k0_t3_loop.trips) : k0_off38 k = ![2 * (k.val + 1) + 1 / 16, 16 * (1 % 16)] := by
  revert k; decide +kernel
theorem off39_eq (k : Fin k0_t3_loop.trips) : k0_off39 k = ![2 * (k.val + 1) + 2 / 16, 16 * (2 % 16)] := by
  revert k; decide +kernel
theorem off40_eq (k : Fin k0_t3_loop.trips) : k0_off40 k = ![2 * (k.val + 1) + 3 / 16, 16 * (3 % 16)] := by
  revert k; decide +kernel
theorem off41_eq (k : Fin k0_t3_loop.trips) : k0_off41 k = ![2 * (k.val + 1) + 4 / 16, 16 * (4 % 16)] := by
  revert k; decide +kernel
theorem off42_eq (k : Fin k0_t3_loop.trips) : k0_off42 k = ![2 * (k.val + 1) + 5 / 16, 16 * (5 % 16)] := by
  revert k; decide +kernel
theorem off43_eq (k : Fin k0_t3_loop.trips) : k0_off43 k = ![2 * (k.val + 1) + 6 / 16, 16 * (6 % 16)] := by
  revert k; decide +kernel
theorem off44_eq (k : Fin k0_t3_loop.trips) : k0_off44 k = ![2 * (k.val + 1) + 7 / 16, 16 * (7 % 16)] := by
  revert k; decide +kernel
theorem off45_eq (k : Fin k0_t3_loop.trips) : k0_off45 k = ![2 * (k.val + 1) + 8 / 16, 16 * (8 % 16)] := by
  revert k; decide +kernel
theorem off46_eq (k : Fin k0_t3_loop.trips) : k0_off46 k = ![2 * (k.val + 1) + 9 / 16, 16 * (9 % 16)] := by
  revert k; decide +kernel
theorem off47_eq (k : Fin k0_t3_loop.trips) : k0_off47 k = ![2 * (k.val + 1) + 10 / 16, 16 * (10 % 16)] := by
  revert k; decide +kernel
theorem off48_eq (k : Fin k0_t3_loop.trips) : k0_off48 k = ![2 * (k.val + 1) + 11 / 16, 16 * (11 % 16)] := by
  revert k; decide +kernel
theorem off49_eq (k : Fin k0_t3_loop.trips) : k0_off49 k = ![2 * (k.val + 1) + 12 / 16, 16 * (12 % 16)] := by
  revert k; decide +kernel
theorem off50_eq (k : Fin k0_t3_loop.trips) : k0_off50 k = ![2 * (k.val + 1) + 13 / 16, 16 * (13 % 16)] := by
  revert k; decide +kernel
theorem off51_eq (k : Fin k0_t3_loop.trips) : k0_off51 k = ![2 * (k.val + 1) + 14 / 16, 16 * (14 % 16)] := by
  revert k; decide +kernel
theorem off52_eq (k : Fin k0_t3_loop.trips) : k0_off52 k = ![2 * (k.val + 1) + 15 / 16, 16 * (15 % 16)] := by
  revert k; decide +kernel
theorem off53_eq (k : Fin k0_t3_loop.trips) : k0_off53 k = ![2 * (k.val + 1) + 16 / 16, 16 * (16 % 16)] := by
  revert k; decide +kernel
theorem off54_eq (k : Fin k0_t3_loop.trips) : k0_off54 k = ![2 * (k.val + 1) + 17 / 16, 16 * (17 % 16)] := by
  revert k; decide +kernel
theorem off55_eq (k : Fin k0_t3_loop.trips) : k0_off55 k = ![2 * (k.val + 1) + 18 / 16, 16 * (18 % 16)] := by
  revert k; decide +kernel
theorem off56_eq (k : Fin k0_t3_loop.trips) : k0_off56 k = ![2 * (k.val + 1) + 19 / 16, 16 * (19 % 16)] := by
  revert k; decide +kernel
theorem off57_eq (k : Fin k0_t3_loop.trips) : k0_off57 k = ![2 * (k.val + 1) + 20 / 16, 16 * (20 % 16)] := by
  revert k; decide +kernel
theorem off58_eq (k : Fin k0_t3_loop.trips) : k0_off58 k = ![2 * (k.val + 1) + 21 / 16, 16 * (21 % 16)] := by
  revert k; decide +kernel
theorem off59_eq (k : Fin k0_t3_loop.trips) : k0_off59 k = ![2 * (k.val + 1) + 22 / 16, 16 * (22 % 16)] := by
  revert k; decide +kernel
theorem off60_eq (k : Fin k0_t3_loop.trips) : k0_off60 k = ![2 * (k.val + 1) + 23 / 16, 16 * (23 % 16)] := by
  revert k; decide +kernel
theorem off61_eq (k : Fin k0_t3_loop.trips) : k0_off61 k = ![2 * (k.val + 1) + 24 / 16, 16 * (24 % 16)] := by
  revert k; decide +kernel
theorem off62_eq (k : Fin k0_t3_loop.trips) : k0_off62 k = ![2 * (k.val + 1) + 25 / 16, 16 * (25 % 16)] := by
  revert k; decide +kernel
theorem off63_eq (k : Fin k0_t3_loop.trips) : k0_off63 k = ![2 * (k.val + 1) + 26 / 16, 16 * (26 % 16)] := by
  revert k; decide +kernel
theorem off64_eq (k : Fin k0_t3_loop.trips) : k0_off64 k = ![2 * (k.val + 1) + 27 / 16, 16 * (27 % 16)] := by
  revert k; decide +kernel
theorem off65_eq (k : Fin k0_t3_loop.trips) : k0_off65 k = ![2 * (k.val + 1) + 28 / 16, 16 * (28 % 16)] := by
  revert k; decide +kernel
theorem off66_eq (k : Fin k0_t3_loop.trips) : k0_off66 k = ![2 * (k.val + 1) + 29 / 16, 16 * (29 % 16)] := by
  revert k; decide +kernel
theorem off67_eq (k : Fin k0_t3_loop.trips) : k0_off67 k = ![2 * (k.val + 1) + 30 / 16, 16 * (30 % 16)] := by
  revert k; decide +kernel
theorem off68_eq (k : Fin k0_t3_loop.trips) : k0_off68 k = ![2 * (k.val + 1) + 31 / 16, 16 * (31 % 16)] := by
  revert k; decide +kernel
theorem off71_eq (k : Fin k0_t3_loop.trips) : k0_off71 k = ![2 * k.val + 0 / 16, 256 + 16 * (0 % 16)] := by
  revert k; decide +kernel
theorem off72_eq (k : Fin k0_t3_loop.trips) : k0_off72 k = ![2 * k.val + 1 / 16, 256 + 16 * (1 % 16)] := by
  revert k; decide +kernel
theorem off73_eq (k : Fin k0_t3_loop.trips) : k0_off73 k = ![2 * k.val + 2 / 16, 256 + 16 * (2 % 16)] := by
  revert k; decide +kernel
theorem off74_eq (k : Fin k0_t3_loop.trips) : k0_off74 k = ![2 * k.val + 3 / 16, 256 + 16 * (3 % 16)] := by
  revert k; decide +kernel
theorem off75_eq (k : Fin k0_t3_loop.trips) : k0_off75 k = ![2 * k.val + 4 / 16, 256 + 16 * (4 % 16)] := by
  revert k; decide +kernel
theorem off76_eq (k : Fin k0_t3_loop.trips) : k0_off76 k = ![2 * k.val + 5 / 16, 256 + 16 * (5 % 16)] := by
  revert k; decide +kernel
theorem off77_eq (k : Fin k0_t3_loop.trips) : k0_off77 k = ![2 * k.val + 6 / 16, 256 + 16 * (6 % 16)] := by
  revert k; decide +kernel
theorem off78_eq (k : Fin k0_t3_loop.trips) : k0_off78 k = ![2 * k.val + 7 / 16, 256 + 16 * (7 % 16)] := by
  revert k; decide +kernel
theorem off79_eq (k : Fin k0_t3_loop.trips) : k0_off79 k = ![2 * k.val + 8 / 16, 256 + 16 * (8 % 16)] := by
  revert k; decide +kernel
theorem off80_eq (k : Fin k0_t3_loop.trips) : k0_off80 k = ![2 * k.val + 9 / 16, 256 + 16 * (9 % 16)] := by
  revert k; decide +kernel
theorem off81_eq (k : Fin k0_t3_loop.trips) : k0_off81 k = ![2 * k.val + 10 / 16, 256 + 16 * (10 % 16)] := by
  revert k; decide +kernel
theorem off82_eq (k : Fin k0_t3_loop.trips) : k0_off82 k = ![2 * k.val + 11 / 16, 256 + 16 * (11 % 16)] := by
  revert k; decide +kernel
theorem off83_eq (k : Fin k0_t3_loop.trips) : k0_off83 k = ![2 * k.val + 12 / 16, 256 + 16 * (12 % 16)] := by
  revert k; decide +kernel
theorem off84_eq (k : Fin k0_t3_loop.trips) : k0_off84 k = ![2 * k.val + 13 / 16, 256 + 16 * (13 % 16)] := by
  revert k; decide +kernel
theorem off85_eq (k : Fin k0_t3_loop.trips) : k0_off85 k = ![2 * k.val + 14 / 16, 256 + 16 * (14 % 16)] := by
  revert k; decide +kernel
theorem off86_eq (k : Fin k0_t3_loop.trips) : k0_off86 k = ![2 * k.val + 15 / 16, 256 + 16 * (15 % 16)] := by
  revert k; decide +kernel
theorem off87_eq (k : Fin k0_t3_loop.trips) : k0_off87 k = ![2 * k.val + 16 / 16, 256 + 16 * (16 % 16)] := by
  revert k; decide +kernel
theorem off88_eq (k : Fin k0_t3_loop.trips) : k0_off88 k = ![2 * k.val + 17 / 16, 256 + 16 * (17 % 16)] := by
  revert k; decide +kernel
theorem off89_eq (k : Fin k0_t3_loop.trips) : k0_off89 k = ![2 * k.val + 18 / 16, 256 + 16 * (18 % 16)] := by
  revert k; decide +kernel
theorem off90_eq (k : Fin k0_t3_loop.trips) : k0_off90 k = ![2 * k.val + 19 / 16, 256 + 16 * (19 % 16)] := by
  revert k; decide +kernel
theorem off91_eq (k : Fin k0_t3_loop.trips) : k0_off91 k = ![2 * k.val + 20 / 16, 256 + 16 * (20 % 16)] := by
  revert k; decide +kernel
theorem off92_eq (k : Fin k0_t3_loop.trips) : k0_off92 k = ![2 * k.val + 21 / 16, 256 + 16 * (21 % 16)] := by
  revert k; decide +kernel
theorem off93_eq (k : Fin k0_t3_loop.trips) : k0_off93 k = ![2 * k.val + 22 / 16, 256 + 16 * (22 % 16)] := by
  revert k; decide +kernel
theorem off94_eq (k : Fin k0_t3_loop.trips) : k0_off94 k = ![2 * k.val + 23 / 16, 256 + 16 * (23 % 16)] := by
  revert k; decide +kernel
theorem off95_eq (k : Fin k0_t3_loop.trips) : k0_off95 k = ![2 * k.val + 24 / 16, 256 + 16 * (24 % 16)] := by
  revert k; decide +kernel
theorem off96_eq (k : Fin k0_t3_loop.trips) : k0_off96 k = ![2 * k.val + 25 / 16, 256 + 16 * (25 % 16)] := by
  revert k; decide +kernel
theorem off97_eq (k : Fin k0_t3_loop.trips) : k0_off97 k = ![2 * k.val + 26 / 16, 256 + 16 * (26 % 16)] := by
  revert k; decide +kernel
theorem off98_eq (k : Fin k0_t3_loop.trips) : k0_off98 k = ![2 * k.val + 27 / 16, 256 + 16 * (27 % 16)] := by
  revert k; decide +kernel
theorem off99_eq (k : Fin k0_t3_loop.trips) : k0_off99 k = ![2 * k.val + 28 / 16, 256 + 16 * (28 % 16)] := by
  revert k; decide +kernel
theorem off100_eq (k : Fin k0_t3_loop.trips) : k0_off100 k = ![2 * k.val + 29 / 16, 256 + 16 * (29 % 16)] := by
  revert k; decide +kernel
theorem off101_eq (k : Fin k0_t3_loop.trips) : k0_off101 k = ![2 * k.val + 30 / 16, 256 + 16 * (30 % 16)] := by
  revert k; decide +kernel
theorem off102_eq (k : Fin k0_t3_loop.trips) : k0_off102 k = ![2 * k.val + 31 / 16, 256 + 16 * (31 % 16)] := by
  revert k; decide +kernel
theorem off103_eq (k : Fin k0_t3_loop.trips) : k0_off103 k = ![2 * (k.val + 1) + 0 / 16, 256 + 16 * (0 % 16)] := by
  revert k; decide +kernel
theorem off104_eq (k : Fin k0_t3_loop.trips) : k0_off104 k = ![2 * (k.val + 1) + 1 / 16, 256 + 16 * (1 % 16)] := by
  revert k; decide +kernel
theorem off105_eq (k : Fin k0_t3_loop.trips) : k0_off105 k = ![2 * (k.val + 1) + 2 / 16, 256 + 16 * (2 % 16)] := by
  revert k; decide +kernel
theorem off106_eq (k : Fin k0_t3_loop.trips) : k0_off106 k = ![2 * (k.val + 1) + 3 / 16, 256 + 16 * (3 % 16)] := by
  revert k; decide +kernel
theorem off107_eq (k : Fin k0_t3_loop.trips) : k0_off107 k = ![2 * (k.val + 1) + 4 / 16, 256 + 16 * (4 % 16)] := by
  revert k; decide +kernel
theorem off108_eq (k : Fin k0_t3_loop.trips) : k0_off108 k = ![2 * (k.val + 1) + 5 / 16, 256 + 16 * (5 % 16)] := by
  revert k; decide +kernel
theorem off109_eq (k : Fin k0_t3_loop.trips) : k0_off109 k = ![2 * (k.val + 1) + 6 / 16, 256 + 16 * (6 % 16)] := by
  revert k; decide +kernel
theorem off110_eq (k : Fin k0_t3_loop.trips) : k0_off110 k = ![2 * (k.val + 1) + 7 / 16, 256 + 16 * (7 % 16)] := by
  revert k; decide +kernel
theorem off111_eq (k : Fin k0_t3_loop.trips) : k0_off111 k = ![2 * (k.val + 1) + 8 / 16, 256 + 16 * (8 % 16)] := by
  revert k; decide +kernel
theorem off112_eq (k : Fin k0_t3_loop.trips) : k0_off112 k = ![2 * (k.val + 1) + 9 / 16, 256 + 16 * (9 % 16)] := by
  revert k; decide +kernel
theorem off113_eq (k : Fin k0_t3_loop.trips) : k0_off113 k = ![2 * (k.val + 1) + 10 / 16, 256 + 16 * (10 % 16)] := by
  revert k; decide +kernel
theorem off114_eq (k : Fin k0_t3_loop.trips) : k0_off114 k = ![2 * (k.val + 1) + 11 / 16, 256 + 16 * (11 % 16)] := by
  revert k; decide +kernel
theorem off115_eq (k : Fin k0_t3_loop.trips) : k0_off115 k = ![2 * (k.val + 1) + 12 / 16, 256 + 16 * (12 % 16)] := by
  revert k; decide +kernel
theorem off116_eq (k : Fin k0_t3_loop.trips) : k0_off116 k = ![2 * (k.val + 1) + 13 / 16, 256 + 16 * (13 % 16)] := by
  revert k; decide +kernel
theorem off117_eq (k : Fin k0_t3_loop.trips) : k0_off117 k = ![2 * (k.val + 1) + 14 / 16, 256 + 16 * (14 % 16)] := by
  revert k; decide +kernel
theorem off118_eq (k : Fin k0_t3_loop.trips) : k0_off118 k = ![2 * (k.val + 1) + 15 / 16, 256 + 16 * (15 % 16)] := by
  revert k; decide +kernel
theorem off119_eq (k : Fin k0_t3_loop.trips) : k0_off119 k = ![2 * (k.val + 1) + 16 / 16, 256 + 16 * (16 % 16)] := by
  revert k; decide +kernel
theorem off120_eq (k : Fin k0_t3_loop.trips) : k0_off120 k = ![2 * (k.val + 1) + 17 / 16, 256 + 16 * (17 % 16)] := by
  revert k; decide +kernel
theorem off121_eq (k : Fin k0_t3_loop.trips) : k0_off121 k = ![2 * (k.val + 1) + 18 / 16, 256 + 16 * (18 % 16)] := by
  revert k; decide +kernel
theorem off122_eq (k : Fin k0_t3_loop.trips) : k0_off122 k = ![2 * (k.val + 1) + 19 / 16, 256 + 16 * (19 % 16)] := by
  revert k; decide +kernel
theorem off123_eq (k : Fin k0_t3_loop.trips) : k0_off123 k = ![2 * (k.val + 1) + 20 / 16, 256 + 16 * (20 % 16)] := by
  revert k; decide +kernel
theorem off124_eq (k : Fin k0_t3_loop.trips) : k0_off124 k = ![2 * (k.val + 1) + 21 / 16, 256 + 16 * (21 % 16)] := by
  revert k; decide +kernel
theorem off125_eq (k : Fin k0_t3_loop.trips) : k0_off125 k = ![2 * (k.val + 1) + 22 / 16, 256 + 16 * (22 % 16)] := by
  revert k; decide +kernel
theorem off126_eq (k : Fin k0_t3_loop.trips) : k0_off126 k = ![2 * (k.val + 1) + 23 / 16, 256 + 16 * (23 % 16)] := by
  revert k; decide +kernel
theorem off127_eq (k : Fin k0_t3_loop.trips) : k0_off127 k = ![2 * (k.val + 1) + 24 / 16, 256 + 16 * (24 % 16)] := by
  revert k; decide +kernel
theorem off128_eq (k : Fin k0_t3_loop.trips) : k0_off128 k = ![2 * (k.val + 1) + 25 / 16, 256 + 16 * (25 % 16)] := by
  revert k; decide +kernel
theorem off129_eq (k : Fin k0_t3_loop.trips) : k0_off129 k = ![2 * (k.val + 1) + 26 / 16, 256 + 16 * (26 % 16)] := by
  revert k; decide +kernel
theorem off130_eq (k : Fin k0_t3_loop.trips) : k0_off130 k = ![2 * (k.val + 1) + 27 / 16, 256 + 16 * (27 % 16)] := by
  revert k; decide +kernel
theorem off131_eq (k : Fin k0_t3_loop.trips) : k0_off131 k = ![2 * (k.val + 1) + 28 / 16, 256 + 16 * (28 % 16)] := by
  revert k; decide +kernel
theorem off132_eq (k : Fin k0_t3_loop.trips) : k0_off132 k = ![2 * (k.val + 1) + 29 / 16, 256 + 16 * (29 % 16)] := by
  revert k; decide +kernel
theorem off133_eq (k : Fin k0_t3_loop.trips) : k0_off133 k = ![2 * (k.val + 1) + 30 / 16, 256 + 16 * (30 % 16)] := by
  revert k; decide +kernel
theorem off134_eq (k : Fin k0_t3_loop.trips) : k0_off134 k = ![2 * (k.val + 1) + 31 / 16, 256 + 16 * (31 % 16)] := by
  revert k; decide +kernel

end Cert.Kernel.Geometry

end
-- ==== Proof.K_Scoped.lean ====
/-
  A vector subcore's own storage, opened: among the buffers it owns are the kernel's three scratch buffers, and among
  the semaphore cells it owns are the kernel's three transfer semaphores. What a subcore is handed at its launch is
  therefore these six, each named, and the rest.
-/
import proofs.«212700_g8504035246323_cont_9to1_m_53_19_alg».proof.Proof.K_TileBase
import Idealize.ShloMosaic.Lib.SparseCore.Launch

noncomputable section

namespace Cert.Kernel.Scoped

open Cert.Kernel Cert.Kernel.Gen Cert.Kernel.Tile

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The side conditions the launch asks of the program: the sequencer's two launch semaphores are two, none of the four
    launch semaphores is scoped, no buffer of a SparseCore's own is reassigned per task, and no call gives the sequencer
    a body of its own. -/
theorem facts : (K (F := F)).Facts :=
  ⟨show sc_start ≠ sc_taskDone by decide, show (SemLoc.reg sc_start : SemLoc sig).isScoped .scScalar = false by decide,
    show (SemLoc.reg sc_taskDone : SemLoc sig).isScoped .scScalar = false by decide, show (SemLoc.reg sc_go : SemLoc sig).isScoped .scVector = false by decide,
    show (SemLoc.reg sc_done : SemLoc sig).isScoped .tc = false by decide, show ∀ (b : DevRef τ sig) (c : Fin τ.nSC), b.owner = .sc c → sig.taskShared b.table b.idx = false by decide,
    fun _ => rfl⟩

variable (d : Dev nD) (L : grid0.Coords)

/-- The three transfer semaphores of the subcore a grid point runs on, as cells. -/
abbrev semA : GSem nD τ sig := (V d (cV L) (jV L), SemLoc.dma cc0_scratch3.sem)
abbrev semB : GSem nD τ sig := (V d (cV L) (jV L), SemLoc.dma cc0_scratch4.sem)
abbrev semC : GSem nD τ sig := (V d (cV L) (jV L), SemLoc.dma cc0_scratch5.sem)

/-- The three transfer semaphores are among the subcore's own cells: they are them, at zero, and the rest at zero. -/
theorem ownSems0_V :
    (ownSems0 (V d (cV L) (jV L)) : sProp 𝕄)
      = iprop(semVal (semA d L) 0 ∗ semVal (semB d L) 0 ∗ semVal (semC d L) 0
          ∗ bigSep ((((ownCells (V d (cV L) (jV L))).erase (semA d L)).erase (semB d L)).erase (semC d L))
              fun g => semVal g 0) := by
  unfold SparseCore.Cfg.ownSems0
  rw [SparseCore.bigSep_erase' ((mem_ownCells (g := semA d L)).mpr ⟨rfl, by
      show (SemLoc.dma cc0_scratch3.sem : SemLoc sig).isScoped .scVector = true; decide⟩),
    SparseCore.bigSep_erase' (Finset.mem_erase.mpr ⟨by simp [semA, semB]; decide, (mem_ownCells (g := semB d L)).mpr ⟨rfl, by
      show (SemLoc.dma cc0_scratch4.sem : SemLoc sig).isScoped .scVector = true; decide⟩⟩),
    SparseCore.bigSep_erase' (Finset.mem_erase.mpr ⟨by simp [semB, semC]; decide, Finset.mem_erase.mpr ⟨by simp [semA, semC]; decide,
      (mem_ownCells (g := semC d L)).mpr ⟨rfl, by show (SemLoc.dma cc0_scratch5.sem : SemLoc sig).isScoped .scVector = true; decide⟩⟩⟩)]

/-- The three scratch buffers are among the subcore's own: they are them, at some contents, and the rest. -/
theorem ownBufs_V :
    (ownBufs (V d (cV L) (jV L)) : sProp 𝕄)
      = iprop((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f)) := by
  unfold SparseCore.Cfg.ownBufs
  refine (SparseCore.bigSep_erase' (SparseCore.Cfg.mem_ownRefs_of_owner (p := Proc.scVector (cV L) (jV L))
    (b := (Proc.scVector (cV L) (jV L)).devRef cc0_scratch0) rfl)).trans ?_
  rw [SparseCore.bigSep_erase' (Finset.mem_erase.mpr ⟨fun e => absurd (Proc.devRef_injective _ e) (show (cc0_scratch1 : Ref sig .scVector) ≠ cc0_scratch0 by decide),
    SparseCore.Cfg.mem_ownRefs_of_owner (p := Proc.scVector (cV L) (jV L)) (b := (Proc.scVector (cV L) (jV L)).devRef cc0_scratch1) rfl⟩),
    SparseCore.bigSep_erase' (Finset.mem_erase.mpr ⟨fun e => absurd (Proc.devRef_injective _ e) (show (cc0_scratch2 : Ref sig .scVector) ≠ cc0_scratch1 by decide),
      Finset.mem_erase.mpr ⟨fun e => absurd (Proc.devRef_injective _ e) (show (cc0_scratch2 : Ref sig .scVector) ≠ cc0_scratch0 by decide),
    SparseCore.Cfg.mem_ownRefs_of_owner (p := Proc.scVector (cV L) (jV L)) (b := (Proc.scVector (cV L) (jV L)).devRef cc0_scratch2) rfl⟩⟩)]

/-- Both at once: what the subcore is handed at its launch is its three scratch buffers at some contents, the rest of
    its buffers, its three transfer semaphores at zero, and the rest of its cells at zero. -/
theorem scoped_open (hF : (K (F := F)).Facts) :
    (iprop(scopedBufs (V d (cV L) (jV L)) ∗ scopedSems0 (V d (cV L) (jV L))) : sProp 𝕄)
      = iprop(((∃ f, (V d (cV L) (jV L)).loc cc0_scratch0 ↦{fullShare} f) ∗ (∃ f, (V d (cV L) (jV L)).loc cc0_scratch1 ↦{fullShare} f)
          ∗ (∃ f, (V d (cV L) (jV L)).loc cc0_scratch2 ↦{fullShare} f)
          ∗ bigSep ((((ownRefs (τ := τ) (.scVector (cV L) (jV L))).erase ((Proc.scVector (cV L) (jV L)).devRef cc0_scratch0)).erase
              ((Proc.scVector (cV L) (jV L)).devRef cc0_scratch1)).erase ((Proc.scVector (cV L) (jV L)).devRef cc0_scratch2))
              fun b => iprop(∃ f, ((d, b) : Loc nD τ sig) ↦{fullShare} f))
        ∗ (semVal (semA d L) 0 ∗ semVal (semB d L) 0 ∗ semVal (semC d L) 0
          ∗ bigSep ((((ownCells (V d (cV L) (jV L))).erase (semA d L)).erase (semB d L)).erase (semC d L))
              fun g => semVal g 0)) := by
  rw [(K (F := F)).scopedBufs_V hF d (cV L) (jV L), SparseCore.Cfg.scopedSems0_V (Val := Elt F) d (cV L) (jV L), ownSems0_V, ownBufs_V]

end Cert.Kernel.Scoped

end
-- ==== Proof.K_TileBody.lean ====
/-
  The tile's task from its run.

  The run of the tile's program is stated over what the executor reads: the table's slab held as the program's own
  slice of the transposed table, the output slab as its 26 chunks, the three scratch buffers and the three semaphores
  named. The launch hands the tile its slabs whole and its scratch storage and semaphores as two bundles; opening the
  bundles, splitting the output slab into chunks, running, and folding everything back gives the task the launch asks.
-/
import proofs.«212700_g8504035246323_cont_9to1_m_53_19_alg».proof.Proof.K_TileBase2
import proofs.«212700_g8504035246323_cont_9to1_m_53_19_alg».proof.Proof.K_Contract
import proofs.«212700_g8504035246323_cont_9to1_m_53_19_alg».proof.Proof.K_Geometry
import proofs.«212700_g8504035246323_cont_9to1_m_53_19_alg».proof.Proof.K_Scoped

noncomputable section

namespace Cert.Kernel.TileBody

open Cert.Kernel Cert.Kernel.Gen Cert.Kernel.Tile Cert.Kernel.Contract Cert.Kernel.Geometry

open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type}

local notation "𝕄" => MT nD τ sig (HIx 1) (Elt F) ℕ UU ℕ

/-- The table's slab as the program slices it. -/
abbrev xtSl (L : grid0.Coords) : Memref sig .scVector .hbm S26x512 .i32 :=
  (Memref.whole main_v0_scv : Memref sig .scVector .hbm S26x16384 .i32).slice (Rect.unit (s := S26x16384) (k0_off1 L) S26x512.size (k0_off1_inb L)) (fun _ => rfl)

/-- The slab of the transposed table is the program's slice of it. -/
theorem pts_xt (d : Dev nD) (L : grid0.Coords) (f : Buf (Elt F) (xtLoc d)) :
    (((xtSl L).view.loc (V d (cV L) (jV L)) ↦[(xtSl L).view.set]{fullShare} f) : sProp 𝕄) = (xtLoc d ↦[slabX (wOf L)]{fullShare} f) := by
  rw [set_xtSl]

variable [FloatOps F]

/-- What the run starts from. -/
def heldQ (d : Dev nD) (L : grid0.Coords) (O : CellTallies nD τ sig (HIx 1)) (W : Waits sig (HIx 1))
    (xt : Vec F S26x16384 .i32) (fo : Vec F S2600x16384 .i32) (fv : Vec F S26x512 .i32) (f0 f1 : Vec F S200x256 .i32) : sProp 𝕄 :=
  iprop(((xtSl L).view.loc (V d (cV L) (jV L)) ↦[(xtSl L).view.set]{fullShare} xt)
    ∗ (bigSep (Finset.range 26) fun q => oLoc d ↦[chunk (wOf L) q]{fullShare} (fo : Buf (Elt F) (oLoc d)))
    ∗ ((Memref.whole cc0_scratch0 : Memref sig .scVector .vmem S26x512 .i32).view.loc (V d (cV L) (jV L)) ↦{fullShare} fv)
    ∗ heldB0 (F := F) d L f0 ∗ heldB1 (F := F) d L f1
    ∗ semVal (V d (cV L) (jV L), SemLoc.dma cc0_scratch3.sem) 0 ∗ semVal (V d (cV L) (jV L), SemLoc.dma cc0_scratch4.sem) 0
    ∗ semVal (V d (cV L) (jV L), SemLoc.dma cc0_scratch5.sem) 0 ∗ owes (V d (cV L) (jV L)) O W)

/-- What the run ends with. -/
def postQ (d : Dev nD) (L : grid0.Coords) (O : CellTallies nD τ sig (HIx 1)) (W : Waits sig (HIx 1)) (xt : Vec F S26x16384 .i32) : sProp 𝕄 :=
  iprop(((xtSl L).view.loc (V d (cV L) (jV L)) ↦[(xtSl L).view.set]{fullShare} xt)
    ∗ (bigSep (Finset.range 26) fun q => oLoc d ↦[chunk (wOf L) q]{fullShare} (Spec.oneHotT xt : Buf (Elt F) (oLoc d)))
    ∗ (∃ fv, (Memref.whole cc0_scratch0 : Memref sig .scVector .vmem S26x512 .i32).view.loc (V d (cV L) (jV L)) ↦{fullShare} fv)
    ∗ (∃ f0, heldB0 (F := F) d L f0) ∗ (∃ f1, heldB1 (F := F) d L f1)
    ∗ semVal (V d (cV L) (jV L), SemLoc.dma cc0_scratch3.sem) 0 ∗ semVal (V d (cV L) (jV L), SemLoc.dma cc0_scratch4.sem) 0
    ∗ semVal (V d (cV L) (jV L), SemLoc.dma cc0_scratch5.sem) 0
    ∗ ∃ W', ⌜∀ p ∈ W', p ∈ W ∨ p.2 = none⌝ ∗ owes (V d (cV L) (jV L)) O W')

/-- The run of the tile's program. -/
def TileRun : Prop :=
  ∀ (d : Dev nD) (L : grid0.Coords) (O : CellTallies nD τ sig (HIx 1)) (W : Waits sig (HIx 1)), (∀ g, O g none = 0) →
    ∀ (xt : Vec F S26x16384 .i32), (∀ i, (xt i : BitVec 32).toNat < 100) → ∀ (fo : Vec F S2600x16384 .i32) (fv : Vec F S26x512 .i32) (f0 f1 : Vec F S200x256 .i32),
    (iprop(levAts (K (F := F)).L (K (F := F)).lev ∗ heldQ (F := F) d L O W xt fo fv f0 f1) : sProp 𝕄)
      ⊢ wp frame (wpE (defs₀ (F := F)) 𝒱₀ (V d (cV L) (jV L)) none) Set.univ
          (cc0__onehot_body L (Memref.whole main_v0_scv) (Memref.isWhole_whole _) (Memref.whole main_v1_scv) (Memref.isWhole_whole _)
            (Memref.whole cc0_scratch0) (Memref.isWhole_whole _) (Memref.whole cc0_scratch1) (Memref.isWhole_whole _)
            (Memref.whole cc0_scratch2) (Memref.isWhole_whole _) cc0_scratch3 cc0_scratch4 cc0_scratch5)
          fun _ => postQ (F := F) d L O W xt

/-- The rest of the tile's own storage and semaphores, untouched by the run. -/
abbrev restB (d : Dev nD) (L : grid0.Coords) : sProp 𝕄 :=
  bigSep ((((ownRefs (τ := τ) (.scVector (cV L) (jV L))).erase ((Proc.scVector (cV L) (jV L)).devRef cc0_scratch0)).erase
      ((Proc.scVector (cV L) (jV L)).devRef cc0_scratch1)).erase ((Proc.scVector (cV L) (jV L)).devRef cc0_scratch2))
    fun b => iprop(∃ f, ((d, b) : Loc nD τ sig) ↦{fullShare} f)
abbrev restS (d : Dev nD) (L : grid0.Coords) : sProp 𝕄 :=
  bigSep ((((ownCells (V d (cV L) (jV L))).erase (Scoped.semA d L)).erase (Scoped.semB d L)).erase (Scoped.semC d L)) fun g => semVal g 0

theorem tile_body (hrun : TileRun (F := F)) : TileContract (F := F) := by
  intro d L O W hO xt hx o0
  have hF := Scoped.facts (F := F)
  refine BI.Entails.trans ?pre (BI.Entails.trans (wp_frame_r frame _ _ (Q := fun _ => postQ (F := F) d L O W xt) (R := iprop(restB (F := F) d L ∗ restS (F := F) d L)))
    (wp_mono frame _ _ fun _ => ?post))
  case pre =>
    show (_ : sProp 𝕄) ⊢ (_ : sProp 𝕄)
    iintro ⟨#Hlv, -, ⟨Hx, Ho⟩, Hsb, Hss, HO⟩
    ihave Hsc := (Entails.of_eq (Scoped.scoped_open (F := F) d L hF)) $$ [Hsb Hss]
    · isplitl [Hsb] <;> iassumption
    icases Hsc with ⟨⟨⟨%fv, Hv⟩, ⟨%f0, H0⟩, ⟨%f1, H1⟩, Hbufs⟩, ⟨HsA, HsB, HsC, Hsems⟩⟩
    ihave Ho' := (Entails.of_eq (slab_split (F := F) d (wOf L) _)) $$ Ho
    ihave Hx' := (Entails.of_eq (pts_xt (F := F) d L _).symm) $$ Hx
    isplitr [Hbufs Hsems]
    · iapply (hrun d L O W hO xt hx o0 fv f0 f1)
      isplitr; · iexact Hlv
      unfold heldQ heldB0 heldB1
      isplitl [Hx']; · iexact Hx'
      isplitl [Ho']; · iexact Ho'
      isplitl [Hv]; · iexact Hv
      isplitl [H0]; · iexact H0
      isplitl [H1]; · iexact H1
      isplitl [HsA]; · iexact HsA
      isplitl [HsB]; · iexact HsB
      isplitl [HsC]; · iexact HsC
      iexact HO
    · isplitl [Hbufs] <;> iassumption
  case post =>
    show (_ : sProp 𝕄) ⊢ (_ : sProp 𝕄)
    unfold postQ heldB0 heldB1
    iintro ⟨⟨Hx, Ho, Hv, H0, H1, HsA, HsB, HsC, HO⟩, Hbufs, Hsems⟩
    isplitl [Hx Ho]
    · isplitl [Hx]
      · iapply (Entails.of_eq (pts_xt (F := F) d L _)); iexact Hx
      · iapply (Entails.of_eq (slab_split (F := F) d (wOf L) _).symm); iexact Ho
    ihave Hsc := (Entails.of_eq (Scoped.scoped_open (F := F) d L hF).symm) $$ [Hv H0 H1 Hbufs HsA HsB HsC Hsems]
    · isplitl [Hv H0 H1 Hbufs]
      · isplitl [Hv]; · iexact Hv
        isplitl [H0]; · iexact H0
        isplitl [H1]; · iexact H1
        iexact Hbufs
      · isplitl [HsA]; · iexact HsA
        isplitl [HsB]; · iexact HsB
        isplitl [HsC]; · iexact HsC
        iexact Hsems
    icases Hsc with ⟨Hsb, Hss⟩
    isplitl [Hsb]; · iexact Hsb
    isplitl [Hss]; · iexact Hss
    iexact HO

end Cert.Kernel.TileBody

end
-- ==== Proof.K_ZeroFacts.lean ====
/-
  Zeroing a 200 x 256 buffer sixteen columns at a time.

  Trip `k` of the zeroing loop stores zero through sixteen lanes at (row `c`, columns `16 k + lane`), once for each row
  `c = 0 .. 199`. After the stores for rows below `n` the buffer is zero in every column below `16 k` (earlier trips) and,
  in columns `16 k .. 16 k + 15`, in every row below `n`. One more store moves `n` up by one.
-/
import proofs.«212700_g8504035246323_cont_9to1_m_53_19_alg».proof.Proof.Gen.Kernel.Skeleton
import proofs.«212700_g8504035246323_cont_9to1_m_53_19_alg».proof.Proof.LibStoreIdx

namespace Cert.Kernel.ZeroFacts

open Cert.Kernel Cert.Kernel.Gen Idealize.ShloMosaic Cert.Lib.StoreIdx

variable {F : FTy → Type} [FloatOps F]

/-- The lane numbers `0 .. 15`. -/
abbrev lanes : IVec S16 32 := iota .scVector S16 32 [0] iota_S16_d0_w32_scVector

theorem trips1 : k0_t1_loop.trips = 16 := by decide

/-- Lane `x` of trip `k` addresses column `16 k + x`. -/
theorem col_toNat (k : Fin k0_t1_loop.trips) (x : S16.Idx) :
    (k0_pay1 lanes 0#32 1#32 k x).toNat = 16 * k.val + (x 0).val := by
  have hk : k.val < 16 := lt_of_lt_of_eq k.isLt trips1
  have hx : (x 0).val < 16 := (x 0).isLt
  unfold k0_pay1
  simp only [addi, IntOp.addi, broadcast, Scalar.muli, IntOp.muli, Scf.iv, iota, List.foldl]
  have h16 : (16#32 : BitVec 32).toNat = 16 := rfl
  simp only [BitVec.toNat_add, BitVec.toNat_mul, BitVec.toNat_ofNat, h16, Matrix.cons_val_zero]
  omega

/-- A zeroing store's indices are in range: row `c < 200`, column `16 k + lane < 256`. -/
theorem zero_chk (k : Fin k0_t1_loop.trips) (c : BitVec 32) (hc : c.toNat < 200) (a : Fin 2) (x : S16.Idx) :
    ((![broadcast S16 c, k0_pay1 lanes 0#32 1#32 k] : Fin 2 → IVec S16 32) a x).toNat < S200x256.size a := by
  have hk : k.val < 16 := lt_of_lt_of_eq k.isLt trips1
  have hx : (x 0).val < 16 := (x 0).isLt
  match a with
  | 0 => exact hc
  | 1 =>
    show (k0_pay1 lanes 0#32 1#32 k x).toNat < 256
    rw [col_toNat]; omega

/-- Zero in the columns below `16 k`, and in rows below `n` of the next sixteen columns. -/
def Z (k n : Nat) (g : Vec F S200x256 .i32) : Prop :=
  ∀ j : S200x256.Idx, ((j 1).val < 16 * k ∨ (16 * k ≤ (j 1).val ∧ (j 1).val < 16 * k + 16 ∧ (j 0).val < n)) → g j = (0#32 : BitVec 32)

/-- The store for row `n` of trip `k` extends the zeroed rows by one. -/
theorem Z_step (k : Fin k0_t1_loop.trips) (n : Nat) (c : BitVec 32) (hc : c.toNat = n) (g : Vec F S200x256 .i32)
    (h : ∀ a x, ((![broadcast S16 c, k0_pay1 lanes 0#32 1#32 k] : Fin 2 → IVec S16 32) a x).toNat < S200x256.size a)
    (hg : Z (F := F) k.val n g) :
    Z (F := F) k.val (n + 1) (storeIdx g ![broadcast S16 c, k0_pay1 lanes 0#32 1#32 k] k0_pay260 (fun _ => 1#1) false h) := by
  intro j hj
  show storeIdx g _ (fun _ => (0#32 : BitVec 32)) (fun _ => 1#1) false h j = 0#32
  rw [storeIdx_const]
  split
  · rfl
  · rename_i hno
    apply hg
    rcases hj with hj | ⟨h1, h2, h3⟩
    · exact .inl hj
    · refine .inr ⟨h1, h2, ?_⟩
      by_contra hlt
      have hrow : (j 0).val = n := by omega
      apply hno
      refine ⟨⟨(j 1).val - 16 * k.val, (by show _ < 16; omega)⟩, fun a => ?_⟩
      match a with
      | 0 => exact hrow.trans hc.symm
      | 1 =>
        refine Eq.trans ?_ (col_toNat k _).symm
        show (j 1).val = 16 * k.val + ((j 1).val - 16 * k.val)
        omega

/-- After all 200 rows the next trip's claim holds; before the first row it is this trip's. -/
theorem Z_full (k : Nat) (g : Vec F S200x256 .i32) (hg : Z (F := F) k 200 g) : Z (F := F) (k + 1) 0 g := by
  intro j hj
  apply hg
  have hr : (j 0).val < 200 := (j 0).isLt
  rcases hj with hj | ⟨_, _, h3⟩
  · by_cases hc : (j 1).val < 16 * k
    · exact .inl hc
    · exact .inr ⟨by omega, by omega, hr⟩
  · omega

end Cert.Kernel.ZeroFacts
-- ==== Proof.K_ZeroViews.lean ====
/-
  The zeroing claim read through a buffer's list of writes.

  A store through index vectors is, on the machine, a load of the whole buffer followed by a store of the whole
  buffer. So after such a store the buffer's newest write covers it whole, and what the next one loads is that
  write's payload. The zeroing claim `Z k n` therefore passes from one payload to the next by the one-store step.
-/
import Idealize.ShloMosaic.Lib.Exec
import proofs.«212700_g8504035246323_cont_9to1_m_53_19_alg».proof.Proof.LibWholeWrites
import proofs.«212700_g8504035246323_cont_9to1_m_53_19_alg».proof.Proof.K_ZeroFacts

namespace Cert.Kernel.ZeroViews

open Cert.Kernel Cert.Kernel.Gen Cert.Kernel.ZeroFacts Cert.Lib.WholeWrites Idealize.ShloMosaic

variable {F : FTy → Type} [FloatOps F] [∀ e, Nonempty (Elt F e)]

/-- The contents after a newest write of the whole first buffer are that write's payload. -/
theorem Z_writes (k n : Nat) (f w : cc0_scratch1.ty.Contents (Elt F))
    (L : List (View.Piece (Elt F) cc0_scratch1.ty.shape cc0_scratch1.ty.elt)) (hw : Z (F := F) k n w) :
    Z (F := F) k n ((Memref.whole cc0_scratch1).view.writes (Elt F) f (⟨Rect.whole _, w⟩ :: L)) := by
  rw [writes_whole_cons]; exact hw

/-- A store for row `n` whose load finds a newest write of the whole buffer. -/
theorem Z_step_cov (k : Fin k0_t1_loop.trips) (n : Nat) (c : BitVec 32) (hc : c.toNat = n) (w : cc0_scratch1.ty.Contents (Elt F))
    (L : List (View.Piece (Elt F) cc0_scratch1.ty.shape cc0_scratch1.ty.elt))
    (h : ∀ a x, ((![broadcast S16 c, k0_pay1 lanes 0#32 1#32 k] : Fin 2 → IVec S16 32) a x).toNat < S200x256.size a)
    (hw : Z (F := F) k.val n w) :
    Z (F := F) k.val (n + 1)
      (storeIdx ((Memref.whole cc0_scratch1).view.readCov (⟨Rect.whole _, w⟩ :: L) (LoadRect.whole _))
        ![broadcast S16 c, k0_pay1 lanes 0#32 1#32 k] k0_pay260 (fun _ => 1#1) false h) := by
  rw [readCov_whole_cons]; exact Z_step k n c hc w h hw

/-- The first store of a window, whose load reads the buffer as the window found it. -/
theorem Z_step_at (k : Fin k0_t1_loop.trips) (n : Nat) (c : BitVec 32) (hc : c.toNat = n) (g : cc0_scratch1.ty.Contents (Elt F))
    (h : ∀ a x, ((![broadcast S16 c, k0_pay1 lanes 0#32 1#32 k] : Fin 2 → IVec S16 32) a x).toNat < S200x256.size a)
    (hg : Z (F := F) k.val n g) :
    Z (F := F) k.val (n + 1)
      (storeIdx ((Memref.whole cc0_scratch1).view.readAt (Elt F) (LoadRect.whole _) g)
        ![broadcast S16 c, k0_pay1 lanes 0#32 1#32 k] k0_pay260 (fun _ => 1#1) false h) := by
  rw [Memref.readAt_whole]; exact Z_step k n c hc g h hg

end Cert.Kernel.ZeroViews
-- ==== Proof.K_ZeroSegsA.lean ====
/-
  The first zeroing loop, window by window (windows 1 to 7 of a trip).

  A trip zeroes sixteen columns of the first buffer, row by row; the printed trip is cut into windows of sixty
  statements. Each window, run alone from a buffer zero below row `r` of the trip's columns (and in all earlier columns),
  leaves it zero below row `r + 15` (`r + 13` for the first), and returns the row vector whose range check it made last.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_ZeroFacts
import proofs.«212700_g8504035246323_cont_9to1_m_53_19_alg».proof.Proof.K_ZeroViews

noncomputable section

namespace Cert.Kernel.ZeroSegs

open Cert.Kernel Cert.Kernel.Gen Cert.Kernel.Tile Cert.Kernel.ZeroFacts Cert.Kernel.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- Window 1 of a zeroing trip: rows 0 to 12 of the trip's sixteen columns. -/
theorem seg1 (k : Fin k0_t1_loop.trips) (g : Buf (Elt F) ((b0W).view.loc (V d (cV L) (jV L)))) (hg : Z (F := F) k.val 0 g) :
    (heldB0 (F := F) d L g : sProp 𝕄)
      ⊢ (wp frame (wpE (defs₀ (F := F)) 𝒱₀ (V d (cV L) (jV L)) none) Set.univ
          (k0_part1 L xtW (Memref.isWhole_whole _) oW (Memref.isWhole_whole _) xvW (Memref.isWhole_whole _)
            b0W (Memref.isWhole_whole _) b1W (Memref.isWhole_whole _) cc0_scratch3 cc0_scratch4 cc0_scratch5
            lanes k0_pay260 0#32 1#32 k)
          fun r => iprop(⌜r.1 = k0_pay1 lanes 0#32 1#32 k ∧ r.2.1 = broadcast S16 13#32⌝ ∗ ∃ g', ⌜Z (F := F) k.val 13 g'⌝ ∗ heldB0 (F := F) d L g') : sProp 𝕄) := by
  simp only [k0_part1_eq_skeleton]; unfold k0_part1_skel
  unfold SparseCore.vectorStoreIdx
  unfold heldB0
  iintro H0
  sl_exec (disch := exact zero_chk k _ (by decide))
  sl_step
  isplitr
  · ipureintro; exact ⟨rfl, rfl⟩
  iexists _
  isplitr
  swap
  · iexact H0
  ipureintro
  refine Z_writes k.val 13 _ _ _ ?_
  unfold seg1.sl.f_11 seg1.sl.H0_12
  refine Z_step_cov k 12 _ rfl _ _ _ ?_
  unfold seg1.sl.f_10 seg1.sl.H0_11
  refine Z_step_cov k 11 _ rfl _ _ _ ?_
  unfold seg1.sl.f_9 seg1.sl.H0_10
  refine Z_step_cov k 10 _ rfl _ _ _ ?_
  unfold seg1.sl.f_8 seg1.sl.H0_9
  refine Z_step_cov k 9 _ rfl _ _ _ ?_
  unfold seg1.sl.f_7 seg1.sl.H0_8
  refine Z_step_cov k 8 _ rfl _ _ _ ?_
  unfold seg1.sl.f_6 seg1.sl.H0_7
  refine Z_step_cov k 7 _ rfl _ _ _ ?_
  unfold seg1.sl.f_5 seg1.sl.H0_6
  refine Z_step_cov k 6 _ rfl _ _ _ ?_
  unfold seg1.sl.f_4 seg1.sl.H0_5
  refine Z_step_cov k 5 _ rfl _ _ _ ?_
  unfold seg1.sl.f_3 seg1.sl.H0_4
  refine Z_step_cov k 4 _ rfl _ _ _ ?_
  unfold seg1.sl.f_2 seg1.sl.H0_3
  refine Z_step_cov k 3 _ rfl _ _ _ ?_
  unfold seg1.sl.f_1 seg1.sl.H0_2
  refine Z_step_cov k 2 _ rfl _ _ _ ?_
  unfold seg1.sl.f seg1.sl.H0_1
  refine Z_step_cov k 1 _ rfl _ _ _ ?_
  refine Z_step_at k 0 _ rfl _ _ ?_
  exact hg

/-- Window 2 of a zeroing trip: rows 13 to 27. -/
theorem seg2 (k : Fin k0_t1_loop.trips) (g : Buf (Elt F) ((b0W).view.loc (V d (cV L) (jV L))))
    (hw : k0_chk14 (k0_pay1 lanes 0#32 1#32 k) (broadcast S16 13#32)) (hg : Z (F := F) k.val 13 g) :
    (heldB0 (F := F) d L g : sProp 𝕄)
      ⊢ (wp frame (wpE (defs₀ (F := F)) 𝒱₀ (V d (cV L) (jV L)) none) Set.univ
          (k0_part2 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 13#32) hw)
          fun r => iprop(⌜r.1 = broadcast S16 28#32⌝ ∗ ∃ g', ⌜Z (F := F) k.val 28 g'⌝ ∗ heldB0 (F := F) d L g') : sProp 𝕄) := by
  simp only [k0_part2_eq_skeleton]; unfold k0_part2_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 28 _ _ _ ?_
  unfold seg2.sl.f_13 seg2.sl.H0_14
  refine Z_step_cov k 27 _ rfl _ _ _ ?_
  unfold seg2.sl.f_12 seg2.sl.H0_13
  refine Z_step_cov k 26 _ rfl _ _ _ ?_
  unfold seg2.sl.f_11 seg2.sl.H0_12
  refine Z_step_cov k 25 _ rfl _ _ _ ?_
  unfold seg2.sl.f_10 seg2.sl.H0_11
  refine Z_step_cov k 24 _ rfl _ _ _ ?_
  unfold seg2.sl.f_9 seg2.sl.H0_10
  refine Z_step_cov k 23 _ rfl _ _ _ ?_
  unfold seg2.sl.f_8 seg2.sl.H0_9
  refine Z_step_cov k 22 _ rfl _ _ _ ?_
  unfold seg2.sl.f_7 seg2.sl.H0_8
  refine Z_step_cov k 21 _ rfl _ _ _ ?_
  unfold seg2.sl.f_6 seg2.sl.H0_7
  refine Z_step_cov k 20 _ rfl _ _ _ ?_
  unfold seg2.sl.f_5 seg2.sl.H0_6
  refine Z_step_cov k 19 _ rfl _ _ _ ?_
  unfold seg2.sl.f_4 seg2.sl.H0_5
  refine Z_step_cov k 18 _ rfl _ _ _ ?_
  unfold seg2.sl.f_3 seg2.sl.H0_4
  refine Z_step_cov k 17 _ rfl _ _ _ ?_
  unfold seg2.sl.f_2 seg2.sl.H0_3
  refine Z_step_cov k 16 _ rfl _ _ _ ?_
  unfold seg2.sl.f_1 seg2.sl.H0_2
  refine Z_step_cov k 15 _ rfl _ _ _ ?_
  unfold seg2.sl.f seg2.sl.H0_1
  refine Z_step_cov k 14 _ rfl _ _ _ ?_
  refine Z_step_at k 13 _ rfl _ _ ?_
  exact hg

/-- Window 3 of a zeroing trip: rows 28 to 42. -/
theorem seg3 (k : Fin k0_t1_loop.trips) (g : Buf (Elt F) ((b0W).view.loc (V d (cV L) (jV L))))
    (hw : k0_chk29 (k0_pay1 lanes 0#32 1#32 k) (broadcast S16 28#32)) (hg : Z (F := F) k.val 28 g) :
    (heldB0 (F := F) d L g : sProp 𝕄)
      ⊢ (wp frame (wpE (defs₀ (F := F)) 𝒱₀ (V d (cV L) (jV L)) none) Set.univ
          (k0_part3 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 28#32) hw)
          fun r => iprop(⌜r.1 = broadcast S16 43#32⌝ ∗ ∃ g', ⌜Z (F := F) k.val 43 g'⌝ ∗ heldB0 (F := F) d L g') : sProp 𝕄) := by
  simp only [k0_part3_eq_skeleton]; unfold k0_part3_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 43 _ _ _ ?_
  unfold seg3.sl.f_13 seg3.sl.H0_14
  refine Z_step_cov k 42 _ rfl _ _ _ ?_
  unfold seg3.sl.f_12 seg3.sl.H0_13
  refine Z_step_cov k 41 _ rfl _ _ _ ?_
  unfold seg3.sl.f_11 seg3.sl.H0_12
  refine Z_step_cov k 40 _ rfl _ _ _ ?_
  unfold seg3.sl.f_10 seg3.sl.H0_11
  refine Z_step_cov k 39 _ rfl _ _ _ ?_
  unfold seg3.sl.f_9 seg3.sl.H0_10
  refine Z_step_cov k 38 _ rfl _ _ _ ?_
  unfold seg3.sl.f_8 seg3.sl.H0_9
  refine Z_step_cov k 37 _ rfl _ _ _ ?_
  unfold seg3.sl.f_7 seg3.sl.H0_8
  refine Z_step_cov k 36 _ rfl _ _ _ ?_
  unfold seg3.sl.f_6 seg3.sl.H0_7
  refine Z_step_cov k 35 _ rfl _ _ _ ?_
  unfold seg3.sl.f_5 seg3.sl.H0_6
  refine Z_step_cov k 34 _ rfl _ _ _ ?_
  unfold seg3.sl.f_4 seg3.sl.H0_5
  refine Z_step_cov k 33 _ rfl _ _ _ ?_
  unfold seg3.sl.f_3 seg3.sl.H0_4
  refine Z_step_cov k 32 _ rfl _ _ _ ?_
  unfold seg3.sl.f_2 seg3.sl.H0_3
  refine Z_step_cov k 31 _ rfl _ _ _ ?_
  unfold seg3.sl.f_1 seg3.sl.H0_2
  refine Z_step_cov k 30 _ rfl _ _ _ ?_
  unfold seg3.sl.f seg3.sl.H0_1
  refine Z_step_cov k 29 _ rfl _ _ _ ?_
  refine Z_step_at k 28 _ rfl _ _ ?_
  exact hg

/-- Window 4 of a zeroing trip: rows 43 to 57. -/
theorem seg4 (k : Fin k0_t1_loop.trips) (g : Buf (Elt F) ((b0W).view.loc (V d (cV L) (jV L))))
    (hw : k0_chk44 (k0_pay1 lanes 0#32 1#32 k) (broadcast S16 43#32)) (hg : Z (F := F) k.val 43 g) :
    (heldB0 (F := F) d L g : sProp 𝕄)
      ⊢ (wp frame (wpE (defs₀ (F := F)) 𝒱₀ (V d (cV L) (jV L)) none) Set.univ
          (k0_part4 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 43#32) hw)
          fun r => iprop(⌜r.1 = broadcast S16 58#32⌝ ∗ ∃ g', ⌜Z (F := F) k.val 58 g'⌝ ∗ heldB0 (F := F) d L g') : sProp 𝕄) := by
  simp only [k0_part4_eq_skeleton]; unfold k0_part4_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 58 _ _ _ ?_
  unfold seg4.sl.f_13 seg4.sl.H0_14
  refine Z_step_cov k 57 _ rfl _ _ _ ?_
  unfold seg4.sl.f_12 seg4.sl.H0_13
  refine Z_step_cov k 56 _ rfl _ _ _ ?_
  unfold seg4.sl.f_11 seg4.sl.H0_12
  refine Z_step_cov k 55 _ rfl _ _ _ ?_
  unfold seg4.sl.f_10 seg4.sl.H0_11
  refine Z_step_cov k 54 _ rfl _ _ _ ?_
  unfold seg4.sl.f_9 seg4.sl.H0_10
  refine Z_step_cov k 53 _ rfl _ _ _ ?_
  unfold seg4.sl.f_8 seg4.sl.H0_9
  refine Z_step_cov k 52 _ rfl _ _ _ ?_
  unfold seg4.sl.f_7 seg4.sl.H0_8
  refine Z_step_cov k 51 _ rfl _ _ _ ?_
  unfold seg4.sl.f_6 seg4.sl.H0_7
  refine Z_step_cov k 50 _ rfl _ _ _ ?_
  unfold seg4.sl.f_5 seg4.sl.H0_6
  refine Z_step_cov k 49 _ rfl _ _ _ ?_
  unfold seg4.sl.f_4 seg4.sl.H0_5
  refine Z_step_cov k 48 _ rfl _ _ _ ?_
  unfold seg4.sl.f_3 seg4.sl.H0_4
  refine Z_step_cov k 47 _ rfl _ _ _ ?_
  unfold seg4.sl.f_2 seg4.sl.H0_3
  refine Z_step_cov k 46 _ rfl _ _ _ ?_
  unfold seg4.sl.f_1 seg4.sl.H0_2
  refine Z_step_cov k 45 _ rfl _ _ _ ?_
  unfold seg4.sl.f seg4.sl.H0_1
  refine Z_step_cov k 44 _ rfl _ _ _ ?_
  refine Z_step_at k 43 _ rfl _ _ ?_
  exact hg

/-- Window 5 of a zeroing trip: rows 58 to 72. -/
theorem seg5 (k : Fin k0_t1_loop.trips) (g : Buf (Elt F) ((b0W).view.loc (V d (cV L) (jV L))))
    (hw : k0_chk59 (k0_pay1 lanes 0#32 1#32 k) (broadcast S16 58#32)) (hg : Z (F := F) k.val 58 g) :
    (heldB0 (F := F) d L g : sProp 𝕄)
      ⊢ (wp frame (wpE (defs₀ (F := F)) 𝒱₀ (V d (cV L) (jV L)) none) Set.univ
          (k0_part5 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 58#32) hw)
          fun r => iprop(⌜r.1 = broadcast S16 73#32⌝ ∗ ∃ g', ⌜Z (F := F) k.val 73 g'⌝ ∗ heldB0 (F := F) d L g') : sProp 𝕄) := by
  simp only [k0_part5_eq_skeleton]; unfold k0_part5_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 73 _ _ _ ?_
  unfold seg5.sl.f_13 seg5.sl.H0_14
  refine Z_step_cov k 72 _ rfl _ _ _ ?_
  unfold seg5.sl.f_12 seg5.sl.H0_13
  refine Z_step_cov k 71 _ rfl _ _ _ ?_
  unfold seg5.sl.f_11 seg5.sl.H0_12
  refine Z_step_cov k 70 _ rfl _ _ _ ?_
  unfold seg5.sl.f_10 seg5.sl.H0_11
  refine Z_step_cov k 69 _ rfl _ _ _ ?_
  unfold seg5.sl.f_9 seg5.sl.H0_10
  refine Z_step_cov k 68 _ rfl _ _ _ ?_
  unfold seg5.sl.f_8 seg5.sl.H0_9
  refine Z_step_cov k 67 _ rfl _ _ _ ?_
  unfold seg5.sl.f_7 seg5.sl.H0_8
  refine Z_step_cov k 66 _ rfl _ _ _ ?_
  unfold seg5.sl.f_6 seg5.sl.H0_7
  refine Z_step_cov k 65 _ rfl _ _ _ ?_
  unfold seg5.sl.f_5 seg5.sl.H0_6
  refine Z_step_cov k 64 _ rfl _ _ _ ?_
  unfold seg5.sl.f_4 seg5.sl.H0_5
  refine Z_step_cov k 63 _ rfl _ _ _ ?_
  unfold seg5.sl.f_3 seg5.sl.H0_4
  refine Z_step_cov k 62 _ rfl _ _ _ ?_
  unfold seg5.sl.f_2 seg5.sl.H0_3
  refine Z_step_cov k 61 _ rfl _ _ _ ?_
  unfold seg5.sl.f_1 seg5.sl.H0_2
  refine Z_step_cov k 60 _ rfl _ _ _ ?_
  unfold seg5.sl.f seg5.sl.H0_1
  refine Z_step_cov k 59 _ rfl _ _ _ ?_
  refine Z_step_at k 58 _ rfl _ _ ?_
  exact hg

/-- Window 6 of a zeroing trip: rows 73 to 87. -/
theorem seg6 (k : Fin k0_t1_loop.trips) (g : Buf (Elt F) ((b0W).view.loc (V d (cV L) (jV L))))
    (hw : k0_chk74 (k0_pay1 lanes 0#32 1#32 k) (broadcast S16 73#32)) (hg : Z (F := F) k.val 73 g) :
    (heldB0 (F := F) d L g : sProp 𝕄)
      ⊢ (wp frame (wpE (defs₀ (F := F)) 𝒱₀ (V d (cV L) (jV L)) none) Set.univ
          (k0_part6 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 73#32) hw)
          fun r => iprop(⌜r.1 = broadcast S16 88#32⌝ ∗ ∃ g', ⌜Z (F := F) k.val 88 g'⌝ ∗ heldB0 (F := F) d L g') : sProp 𝕄) := by
  simp only [k0_part6_eq_skeleton]; unfold k0_part6_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 88 _ _ _ ?_
  unfold seg6.sl.f_13 seg6.sl.H0_14
  refine Z_step_cov k 87 _ rfl _ _ _ ?_
  unfold seg6.sl.f_12 seg6.sl.H0_13
  refine Z_step_cov k 86 _ rfl _ _ _ ?_
  unfold seg6.sl.f_11 seg6.sl.H0_12
  refine Z_step_cov k 85 _ rfl _ _ _ ?_
  unfold seg6.sl.f_10 seg6.sl.H0_11
  refine Z_step_cov k 84 _ rfl _ _ _ ?_
  unfold seg6.sl.f_9 seg6.sl.H0_10
  refine Z_step_cov k 83 _ rfl _ _ _ ?_
  unfold seg6.sl.f_8 seg6.sl.H0_9
  refine Z_step_cov k 82 _ rfl _ _ _ ?_
  unfold seg6.sl.f_7 seg6.sl.H0_8
  refine Z_step_cov k 81 _ rfl _ _ _ ?_
  unfold seg6.sl.f_6 seg6.sl.H0_7
  refine Z_step_cov k 80 _ rfl _ _ _ ?_
  unfold seg6.sl.f_5 seg6.sl.H0_6
  refine Z_step_cov k 79 _ rfl _ _ _ ?_
  unfold seg6.sl.f_4 seg6.sl.H0_5
  refine Z_step_cov k 78 _ rfl _ _ _ ?_
  unfold seg6.sl.f_3 seg6.sl.H0_4
  refine Z_step_cov k 77 _ rfl _ _ _ ?_
  unfold seg6.sl.f_2 seg6.sl.H0_3
  refine Z_step_cov k 76 _ rfl _ _ _ ?_
  unfold seg6.sl.f_1 seg6.sl.H0_2
  refine Z_step_cov k 75 _ rfl _ _ _ ?_
  unfold seg6.sl.f seg6.sl.H0_1
  refine Z_step_cov k 74 _ rfl _ _ _ ?_
  refine Z_step_at k 73 _ rfl _ _ ?_
  exact hg

/-- Window 7 of a zeroing trip: rows 88 to 102. -/
theorem seg7 (k : Fin k0_t1_loop.trips) (g : Buf (Elt F) ((b0W).view.loc (V d (cV L) (jV L))))
    (hw : k0_chk89 (k0_pay1 lanes 0#32 1#32 k) (broadcast S16 88#32)) (hg : Z (F := F) k.val 88 g) :
    (heldB0 (F := F) d L g : sProp 𝕄)
      ⊢ (wp frame (wpE (defs₀ (F := F)) 𝒱₀ (V d (cV L) (jV L)) none) Set.univ
          (k0_part7 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 88#32) hw)
          fun r => iprop(⌜r.1 = broadcast S16 103#32⌝ ∗ ∃ g', ⌜Z (F := F) k.val 103 g'⌝ ∗ heldB0 (F := F) d L g') : sProp 𝕄) := by
  simp only [k0_part7_eq_skeleton]; unfold k0_part7_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 103 _ _ _ ?_
  unfold seg7.sl.f_13 seg7.sl.H0_14
  refine Z_step_cov k 102 _ rfl _ _ _ ?_
  unfold seg7.sl.f_12 seg7.sl.H0_13
  refine Z_step_cov k 101 _ rfl _ _ _ ?_
  unfold seg7.sl.f_11 seg7.sl.H0_12
  refine Z_step_cov k 100 _ rfl _ _ _ ?_
  unfold seg7.sl.f_10 seg7.sl.H0_11
  refine Z_step_cov k 99 _ rfl _ _ _ ?_
  unfold seg7.sl.f_9 seg7.sl.H0_10
  refine Z_step_cov k 98 _ rfl _ _ _ ?_
  unfold seg7.sl.f_8 seg7.sl.H0_9
  refine Z_step_cov k 97 _ rfl _ _ _ ?_
  unfold seg7.sl.f_7 seg7.sl.H0_8
  refine Z_step_cov k 96 _ rfl _ _ _ ?_
  unfold seg7.sl.f_6 seg7.sl.H0_7
  refine Z_step_cov k 95 _ rfl _ _ _ ?_
  unfold seg7.sl.f_5 seg7.sl.H0_6
  refine Z_step_cov k 94 _ rfl _ _ _ ?_
  unfold seg7.sl.f_4 seg7.sl.H0_5
  refine Z_step_cov k 93 _ rfl _ _ _ ?_
  unfold seg7.sl.f_3 seg7.sl.H0_4
  refine Z_step_cov k 92 _ rfl _ _ _ ?_
  unfold seg7.sl.f_2 seg7.sl.H0_3
  refine Z_step_cov k 91 _ rfl _ _ _ ?_
  unfold seg7.sl.f_1 seg7.sl.H0_2
  refine Z_step_cov k 90 _ rfl _ _ _ ?_
  unfold seg7.sl.f seg7.sl.H0_1
  refine Z_step_cov k 89 _ rfl _ _ _ ?_
  refine Z_step_at k 88 _ rfl _ _ ?_
  exact hg

end Cert.Kernel.ZeroSegs

end
-- ==== Proof.K_ZeroSegsB.lean ====
/-
  The first zeroing loop, window by window (windows 8 to 13 of a trip).

  A trip zeroes sixteen columns of the first buffer, row by row; the printed trip is cut into windows of sixty
  statements. Each window, run alone from a buffer zero below row `r` of the trip's columns (and in all earlier columns),
  leaves it zero below row `r + 15` (`r + 13` for the first), and returns the row vector whose range check it made last.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_ZeroFacts
import proofs.«212700_g8504035246323_cont_9to1_m_53_19_alg».proof.Proof.K_ZeroViews

noncomputable section

namespace Cert.Kernel.ZeroSegs

open Cert.Kernel Cert.Kernel.Gen Cert.Kernel.Tile Cert.Kernel.ZeroFacts Cert.Kernel.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- Window 8 of a zeroing trip: rows 103 to 117. -/
theorem seg8 (k : Fin k0_t1_loop.trips) (g : Buf (Elt F) ((b0W).view.loc (V d (cV L) (jV L))))
    (hw : k0_chk104 (k0_pay1 lanes 0#32 1#32 k) (broadcast S16 103#32)) (hg : Z (F := F) k.val 103 g) :
    (heldB0 (F := F) d L g : sProp 𝕄)
      ⊢ (wp frame (wpE (defs₀ (F := F)) 𝒱₀ (V d (cV L) (jV L)) none) Set.univ
          (k0_part8 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 103#32) hw)
          fun r => iprop(⌜r.1 = broadcast S16 118#32⌝ ∗ ∃ g', ⌜Z (F := F) k.val 118 g'⌝ ∗ heldB0 (F := F) d L g') : sProp 𝕄) := by
  simp only [k0_part8_eq_skeleton]; unfold k0_part8_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 118 _ _ _ ?_
  unfold seg8.sl.f_13 seg8.sl.H0_14
  refine Z_step_cov k 117 _ rfl _ _ _ ?_
  unfold seg8.sl.f_12 seg8.sl.H0_13
  refine Z_step_cov k 116 _ rfl _ _ _ ?_
  unfold seg8.sl.f_11 seg8.sl.H0_12
  refine Z_step_cov k 115 _ rfl _ _ _ ?_
  unfold seg8.sl.f_10 seg8.sl.H0_11
  refine Z_step_cov k 114 _ rfl _ _ _ ?_
  unfold seg8.sl.f_9 seg8.sl.H0_10
  refine Z_step_cov k 113 _ rfl _ _ _ ?_
  unfold seg8.sl.f_8 seg8.sl.H0_9
  refine Z_step_cov k 112 _ rfl _ _ _ ?_
  unfold seg8.sl.f_7 seg8.sl.H0_8
  refine Z_step_cov k 111 _ rfl _ _ _ ?_
  unfold seg8.sl.f_6 seg8.sl.H0_7
  refine Z_step_cov k 110 _ rfl _ _ _ ?_
  unfold seg8.sl.f_5 seg8.sl.H0_6
  refine Z_step_cov k 109 _ rfl _ _ _ ?_
  unfold seg8.sl.f_4 seg8.sl.H0_5
  refine Z_step_cov k 108 _ rfl _ _ _ ?_
  unfold seg8.sl.f_3 seg8.sl.H0_4
  refine Z_step_cov k 107 _ rfl _ _ _ ?_
  unfold seg8.sl.f_2 seg8.sl.H0_3
  refine Z_step_cov k 106 _ rfl _ _ _ ?_
  unfold seg8.sl.f_1 seg8.sl.H0_2
  refine Z_step_cov k 105 _ rfl _ _ _ ?_
  unfold seg8.sl.f seg8.sl.H0_1
  refine Z_step_cov k 104 _ rfl _ _ _ ?_
  refine Z_step_at k 103 _ rfl _ _ ?_
  exact hg

/-- Window 9 of a zeroing trip: rows 118 to 132. -/
theorem seg9 (k : Fin k0_t1_loop.trips) (g : Buf (Elt F) ((b0W).view.loc (V d (cV L) (jV L))))
    (hw : k0_chk119 (k0_pay1 lanes 0#32 1#32 k) (broadcast S16 118#32)) (hg : Z (F := F) k.val 118 g) :
    (heldB0 (F := F) d L g : sProp 𝕄)
      ⊢ (wp frame (wpE (defs₀ (F := F)) 𝒱₀ (V d (cV L) (jV L)) none) Set.univ
          (k0_part9 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 118#32) hw)
          fun r => iprop(⌜r.1 = broadcast S16 133#32⌝ ∗ ∃ g', ⌜Z (F := F) k.val 133 g'⌝ ∗ heldB0 (F := F) d L g') : sProp 𝕄) := by
  simp only [k0_part9_eq_skeleton]; unfold k0_part9_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 133 _ _ _ ?_
  unfold seg9.sl.f_13 seg9.sl.H0_14
  refine Z_step_cov k 132 _ rfl _ _ _ ?_
  unfold seg9.sl.f_12 seg9.sl.H0_13
  refine Z_step_cov k 131 _ rfl _ _ _ ?_
  unfold seg9.sl.f_11 seg9.sl.H0_12
  refine Z_step_cov k 130 _ rfl _ _ _ ?_
  unfold seg9.sl.f_10 seg9.sl.H0_11
  refine Z_step_cov k 129 _ rfl _ _ _ ?_
  unfold seg9.sl.f_9 seg9.sl.H0_10
  refine Z_step_cov k 128 _ rfl _ _ _ ?_
  unfold seg9.sl.f_8 seg9.sl.H0_9
  refine Z_step_cov k 127 _ rfl _ _ _ ?_
  unfold seg9.sl.f_7 seg9.sl.H0_8
  refine Z_step_cov k 126 _ rfl _ _ _ ?_
  unfold seg9.sl.f_6 seg9.sl.H0_7
  refine Z_step_cov k 125 _ rfl _ _ _ ?_
  unfold seg9.sl.f_5 seg9.sl.H0_6
  refine Z_step_cov k 124 _ rfl _ _ _ ?_
  unfold seg9.sl.f_4 seg9.sl.H0_5
  refine Z_step_cov k 123 _ rfl _ _ _ ?_
  unfold seg9.sl.f_3 seg9.sl.H0_4
  refine Z_step_cov k 122 _ rfl _ _ _ ?_
  unfold seg9.sl.f_2 seg9.sl.H0_3
  refine Z_step_cov k 121 _ rfl _ _ _ ?_
  unfold seg9.sl.f_1 seg9.sl.H0_2
  refine Z_step_cov k 120 _ rfl _ _ _ ?_
  unfold seg9.sl.f seg9.sl.H0_1
  refine Z_step_cov k 119 _ rfl _ _ _ ?_
  refine Z_step_at k 118 _ rfl _ _ ?_
  exact hg

/-- Window 10 of a zeroing trip: rows 133 to 147. -/
theorem seg10 (k : Fin k0_t1_loop.trips) (g : Buf (Elt F) ((b0W).view.loc (V d (cV L) (jV L))))
    (hw : k0_chk134 (k0_pay1 lanes 0#32 1#32 k) (broadcast S16 133#32)) (hg : Z (F := F) k.val 133 g) :
    (heldB0 (F := F) d L g : sProp 𝕄)
      ⊢ (wp frame (wpE (defs₀ (F := F)) 𝒱₀ (V d (cV L) (jV L)) none) Set.univ
          (k0_part10 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 133#32) hw)
          fun r => iprop(⌜r.1 = broadcast S16 148#32⌝ ∗ ∃ g', ⌜Z (F := F) k.val 148 g'⌝ ∗ heldB0 (F := F) d L g') : sProp 𝕄) := by
  simp only [k0_part10_eq_skeleton]; unfold k0_part10_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 148 _ _ _ ?_
  unfold seg10.sl.f_13 seg10.sl.H0_14
  refine Z_step_cov k 147 _ rfl _ _ _ ?_
  unfold seg10.sl.f_12 seg10.sl.H0_13
  refine Z_step_cov k 146 _ rfl _ _ _ ?_
  unfold seg10.sl.f_11 seg10.sl.H0_12
  refine Z_step_cov k 145 _ rfl _ _ _ ?_
  unfold seg10.sl.f_10 seg10.sl.H0_11
  refine Z_step_cov k 144 _ rfl _ _ _ ?_
  unfold seg10.sl.f_9 seg10.sl.H0_10
  refine Z_step_cov k 143 _ rfl _ _ _ ?_
  unfold seg10.sl.f_8 seg10.sl.H0_9
  refine Z_step_cov k 142 _ rfl _ _ _ ?_
  unfold seg10.sl.f_7 seg10.sl.H0_8
  refine Z_step_cov k 141 _ rfl _ _ _ ?_
  unfold seg10.sl.f_6 seg10.sl.H0_7
  refine Z_step_cov k 140 _ rfl _ _ _ ?_
  unfold seg10.sl.f_5 seg10.sl.H0_6
  refine Z_step_cov k 139 _ rfl _ _ _ ?_
  unfold seg10.sl.f_4 seg10.sl.H0_5
  refine Z_step_cov k 138 _ rfl _ _ _ ?_
  unfold seg10.sl.f_3 seg10.sl.H0_4
  refine Z_step_cov k 137 _ rfl _ _ _ ?_
  unfold seg10.sl.f_2 seg10.sl.H0_3
  refine Z_step_cov k 136 _ rfl _ _ _ ?_
  unfold seg10.sl.f_1 seg10.sl.H0_2
  refine Z_step_cov k 135 _ rfl _ _ _ ?_
  unfold seg10.sl.f seg10.sl.H0_1
  refine Z_step_cov k 134 _ rfl _ _ _ ?_
  refine Z_step_at k 133 _ rfl _ _ ?_
  exact hg

/-- Window 11 of a zeroing trip: rows 148 to 162. -/
theorem seg11 (k : Fin k0_t1_loop.trips) (g : Buf (Elt F) ((b0W).view.loc (V d (cV L) (jV L))))
    (hw : k0_chk149 (k0_pay1 lanes 0#32 1#32 k) (broadcast S16 148#32)) (hg : Z (F := F) k.val 148 g) :
    (heldB0 (F := F) d L g : sProp 𝕄)
      ⊢ (wp frame (wpE (defs₀ (F := F)) 𝒱₀ (V d (cV L) (jV L)) none) Set.univ
          (k0_part11 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 148#32) hw)
          fun r => iprop(⌜r.1 = broadcast S16 163#32⌝ ∗ ∃ g', ⌜Z (F := F) k.val 163 g'⌝ ∗ heldB0 (F := F) d L g') : sProp 𝕄) := by
  simp only [k0_part11_eq_skeleton]; unfold k0_part11_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 163 _ _ _ ?_
  unfold seg11.sl.f_13 seg11.sl.H0_14
  refine Z_step_cov k 162 _ rfl _ _ _ ?_
  unfold seg11.sl.f_12 seg11.sl.H0_13
  refine Z_step_cov k 161 _ rfl _ _ _ ?_
  unfold seg11.sl.f_11 seg11.sl.H0_12
  refine Z_step_cov k 160 _ rfl _ _ _ ?_
  unfold seg11.sl.f_10 seg11.sl.H0_11
  refine Z_step_cov k 159 _ rfl _ _ _ ?_
  unfold seg11.sl.f_9 seg11.sl.H0_10
  refine Z_step_cov k 158 _ rfl _ _ _ ?_
  unfold seg11.sl.f_8 seg11.sl.H0_9
  refine Z_step_cov k 157 _ rfl _ _ _ ?_
  unfold seg11.sl.f_7 seg11.sl.H0_8
  refine Z_step_cov k 156 _ rfl _ _ _ ?_
  unfold seg11.sl.f_6 seg11.sl.H0_7
  refine Z_step_cov k 155 _ rfl _ _ _ ?_
  unfold seg11.sl.f_5 seg11.sl.H0_6
  refine Z_step_cov k 154 _ rfl _ _ _ ?_
  unfold seg11.sl.f_4 seg11.sl.H0_5
  refine Z_step_cov k 153 _ rfl _ _ _ ?_
  unfold seg11.sl.f_3 seg11.sl.H0_4
  refine Z_step_cov k 152 _ rfl _ _ _ ?_
  unfold seg11.sl.f_2 seg11.sl.H0_3
  refine Z_step_cov k 151 _ rfl _ _ _ ?_
  unfold seg11.sl.f_1 seg11.sl.H0_2
  refine Z_step_cov k 150 _ rfl _ _ _ ?_
  unfold seg11.sl.f seg11.sl.H0_1
  refine Z_step_cov k 149 _ rfl _ _ _ ?_
  refine Z_step_at k 148 _ rfl _ _ ?_
  exact hg

/-- Window 12 of a zeroing trip: rows 163 to 177. -/
theorem seg12 (k : Fin k0_t1_loop.trips) (g : Buf (Elt F) ((b0W).view.loc (V d (cV L) (jV L))))
    (hw : k0_chk164 (k0_pay1 lanes 0#32 1#32 k) (broadcast S16 163#32)) (hg : Z (F := F) k.val 163 g) :
    (heldB0 (F := F) d L g : sProp 𝕄)
      ⊢ (wp frame (wpE (defs₀ (F := F)) 𝒱₀ (V d (cV L) (jV L)) none) Set.univ
          (k0_part12 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 163#32) hw)
          fun r => iprop(⌜r.1 = broadcast S16 178#32⌝ ∗ ∃ g', ⌜Z (F := F) k.val 178 g'⌝ ∗ heldB0 (F := F) d L g') : sProp 𝕄) := by
  simp only [k0_part12_eq_skeleton]; unfold k0_part12_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 178 _ _ _ ?_
  unfold seg12.sl.f_13 seg12.sl.H0_14
  refine Z_step_cov k 177 _ rfl _ _ _ ?_
  unfold seg12.sl.f_12 seg12.sl.H0_13
  refine Z_step_cov k 176 _ rfl _ _ _ ?_
  unfold seg12.sl.f_11 seg12.sl.H0_12
  refine Z_step_cov k 175 _ rfl _ _ _ ?_
  unfold seg12.sl.f_10 seg12.sl.H0_11
  refine Z_step_cov k 174 _ rfl _ _ _ ?_
  unfold seg12.sl.f_9 seg12.sl.H0_10
  refine Z_step_cov k 173 _ rfl _ _ _ ?_
  unfold seg12.sl.f_8 seg12.sl.H0_9
  refine Z_step_cov k 172 _ rfl _ _ _ ?_
  unfold seg12.sl.f_7 seg12.sl.H0_8
  refine Z_step_cov k 171 _ rfl _ _ _ ?_
  unfold seg12.sl.f_6 seg12.sl.H0_7
  refine Z_step_cov k 170 _ rfl _ _ _ ?_
  unfold seg12.sl.f_5 seg12.sl.H0_6
  refine Z_step_cov k 169 _ rfl _ _ _ ?_
  unfold seg12.sl.f_4 seg12.sl.H0_5
  refine Z_step_cov k 168 _ rfl _ _ _ ?_
  unfold seg12.sl.f_3 seg12.sl.H0_4
  refine Z_step_cov k 167 _ rfl _ _ _ ?_
  unfold seg12.sl.f_2 seg12.sl.H0_3
  refine Z_step_cov k 166 _ rfl _ _ _ ?_
  unfold seg12.sl.f_1 seg12.sl.H0_2
  refine Z_step_cov k 165 _ rfl _ _ _ ?_
  unfold seg12.sl.f seg12.sl.H0_1
  refine Z_step_cov k 164 _ rfl _ _ _ ?_
  refine Z_step_at k 163 _ rfl _ _ ?_
  exact hg

/-- Window 13 of a zeroing trip: rows 178 to 192. -/
theorem seg13 (k : Fin k0_t1_loop.trips) (g : Buf (Elt F) ((b0W).view.loc (V d (cV L) (jV L))))
    (hw : k0_chk179 (k0_pay1 lanes 0#32 1#32 k) (broadcast S16 178#32)) (hg : Z (F := F) k.val 178 g) :
    (heldB0 (F := F) d L g : sProp 𝕄)
      ⊢ (wp frame (wpE (defs₀ (F := F)) 𝒱₀ (V d (cV L) (jV L)) none) Set.univ
          (k0_part13 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay1 lanes 0#32 1#32 k) (broadcast S16 178#32) hw)
          fun r => iprop(⌜r.1 = broadcast S16 193#32⌝ ∗ ∃ g', ⌜Z (F := F) k.val 193 g'⌝ ∗ heldB0 (F := F) d L g') : sProp 𝕄) := by
  simp only [k0_part13_eq_skeleton]; unfold k0_part13_skel
  unfold SparseCore.vectorStoreIdx
  unfold heldB0
  iintro H0
  sl_exec (disch := exact zero_chk k _ (by decide))
  sl_step
  isplitr
  · ipureintro; rfl
  iexists _
  isplitr
  swap
  · iexact H0
  ipureintro
  refine Z_writes k.val 193 _ _ _ ?_
  unfold seg13.sl.f_13 seg13.sl.H0_14
  refine Z_step_cov k 192 _ rfl _ _ _ ?_
  unfold seg13.sl.f_12 seg13.sl.H0_13
  refine Z_step_cov k 191 _ rfl _ _ _ ?_
  unfold seg13.sl.f_11 seg13.sl.H0_12
  refine Z_step_cov k 190 _ rfl _ _ _ ?_
  unfold seg13.sl.f_10 seg13.sl.H0_11
  refine Z_step_cov k 189 _ rfl _ _ _ ?_
  unfold seg13.sl.f_9 seg13.sl.H0_10
  refine Z_step_cov k 188 _ rfl _ _ _ ?_
  unfold seg13.sl.f_8 seg13.sl.H0_9
  refine Z_step_cov k 187 _ rfl _ _ _ ?_
  unfold seg13.sl.f_7 seg13.sl.H0_8
  refine Z_step_cov k 186 _ rfl _ _ _ ?_
  unfold seg13.sl.f_6 seg13.sl.H0_7
  refine Z_step_cov k 185 _ rfl _ _ _ ?_
  unfold seg13.sl.f_5 seg13.sl.H0_6
  refine Z_step_cov k 184 _ rfl _ _ _ ?_
  unfold seg13.sl.f_4 seg13.sl.H0_5
  refine Z_step_cov k 183 _ rfl _ _ _ ?_
  unfold seg13.sl.f_3 seg13.sl.H0_4
  refine Z_step_cov k 182 _ rfl _ _ _ ?_
  unfold seg13.sl.f_2 seg13.sl.H0_3
  refine Z_step_cov k 181 _ rfl _ _ _ ?_
  unfold seg13.sl.f_1 seg13.sl.H0_2
  refine Z_step_cov k 180 _ rfl _ _ _ ?_
  unfold seg13.sl.f seg13.sl.H0_1
  refine Z_step_cov k 179 _ rfl _ _ _ ?_
  refine Z_step_at k 178 _ rfl _ _ ?_
  exact hg

end Cert.Kernel.ZeroSegs

end
-- ==== Proof.K_ZeroTrip.lean ====
/-
  One trip of the first zeroing loop: the thirteen windows in order, then the last seven rows.

  Each window hands the next the row vector it checked last; the buffer's zeroed rows grow from 0 to 193 over the
  windows and to 200 over the remaining stores, which is the next trip's starting claim.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_ZeroFacts
import proofs.«212700_g8504035246323_cont_9to1_m_53_19_alg».proof.Proof.K_ZeroViews
import proofs.«212700_g8504035246323_cont_9to1_m_53_19_alg».proof.Proof.K_ZeroSegsA
import proofs.«212700_g8504035246323_cont_9to1_m_53_19_alg».proof.Proof.K_ZeroSegsB

noncomputable section

namespace Cert.Kernel.ZeroTrip

open Cert.Kernel.ZeroSegs
open Cert.Kernel Cert.Kernel.Gen Cert.Kernel.Tile Cert.Kernel.ZeroFacts Cert.Kernel.ZeroViews Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- One trip of the first zeroing loop: sixteen more columns of the first buffer are zero. -/
theorem zero_trip (k : Fin k0_t1_loop.trips) (g : Buf (Elt F) ((b0W).view.loc (V d (cV L) (jV L)))) (hg : Z (F := F) k.val 0 g) :
    (heldB0 (F := F) d L g : sProp 𝕄)
      ⊢ (wp frame (wpE (defs₀ (F := F)) 𝒱₀ (V d (cV L) (jV L)) none) Set.univ
          (k0_t1_body L xtW (Memref.isWhole_whole _) oW (Memref.isWhole_whole _) xvW (Memref.isWhole_whole _)
            b0W (Memref.isWhole_whole _) b1W (Memref.isWhole_whole _) cc0_scratch3 cc0_scratch4 cc0_scratch5
            lanes k ⟨⟩)
          fun _ => iprop(∃ g', ⌜Z (F := F) (k.val + 1) 0 g'⌝ ∗ heldB0 (F := F) d L g') : sProp 𝕄) := by
  unfold k0_t1_body
  rw [wp_bind]
  refine (seg1 d L k g hg).trans (wp_mono frame _ _ fun r => ?_)
  obtain ⟨v411, vr, hw⟩ := r
  iintro ⟨%hr, %g1, %hg1, H0⟩
  obtain ⟨rfl, rfl⟩ := hr
  dsimp only
  rw [wp_bind]
  iapply ((seg2 d L k g1 hw hg1).trans (wp_mono frame _ _ fun r => ?c2)) $$ H0
  case c2 =>
  obtain ⟨vr, hw⟩ := r
  iintro ⟨%hr, %g2, %hg2, H0⟩
  obtain rfl := hr
  dsimp only
  rw [wp_bind]
  iapply ((seg3 d L k g2 hw hg2).trans (wp_mono frame _ _ fun r => ?c3)) $$ H0
  case c3 =>
  obtain ⟨vr, hw⟩ := r
  iintro ⟨%hr, %g3, %hg3, H0⟩
  obtain rfl := hr
  dsimp only
  rw [wp_bind]
  iapply ((seg4 d L k g3 hw hg3).trans (wp_mono frame _ _ fun r => ?c4)) $$ H0
  case c4 =>
  obtain ⟨vr, hw⟩ := r
  iintro ⟨%hr, %g4, %hg4, H0⟩
  obtain rfl := hr
  dsimp only
  rw [wp_bind]
  iapply ((seg5 d L k g4 hw hg4).trans (wp_mono frame _ _ fun r => ?c5)) $$ H0
  case c5 =>
  obtain ⟨vr, hw⟩ := r
  iintro ⟨%hr, %g5, %hg5, H0⟩
  obtain rfl := hr
  dsimp only
  rw [wp_bind]
  iapply ((seg6 d L k g5 hw hg5).trans (wp_mono frame _ _ fun r => ?c6)) $$ H0
  case c6 =>
  obtain ⟨vr, hw⟩ := r
  iintro ⟨%hr, %g6, %hg6, H0⟩
  obtain rfl := hr
  dsimp only
  rw [wp_bind]
  iapply ((seg7 d L k g6 hw hg6).trans (wp_mono frame _ _ fun r => ?c7)) $$ H0
  case c7 =>
  obtain ⟨vr, hw⟩ := r
  iintro ⟨%hr, %g7, %hg7, H0⟩
  obtain rfl := hr
  dsimp only
  rw [wp_bind]
  iapply ((seg8 d L k g7 hw hg7).trans (wp_mono frame _ _ fun r => ?c8)) $$ H0
  case c8 =>
  obtain ⟨vr, hw⟩ := r
  iintro ⟨%hr, %g8, %hg8, H0⟩
  obtain rfl := hr
  dsimp only
  rw [wp_bind]
  iapply ((seg9 d L k g8 hw hg8).trans (wp_mono frame _ _ fun r => ?c9)) $$ H0
  case c9 =>
  obtain ⟨vr, hw⟩ := r
  iintro ⟨%hr, %g9, %hg9, H0⟩
  obtain rfl := hr
  dsimp only
  rw [wp_bind]
  iapply ((seg10 d L k g9 hw hg9).trans (wp_mono frame _ _ fun r => ?c10)) $$ H0
  case c10 =>
  obtain ⟨vr, hw⟩ := r
  iintro ⟨%hr, %g10, %hg10, H0⟩
  obtain rfl := hr
  dsimp only
  rw [wp_bind]
  iapply ((seg11 d L k g10 hw hg10).trans (wp_mono frame _ _ fun r => ?c11)) $$ H0
  case c11 =>
  obtain ⟨vr, hw⟩ := r
  iintro ⟨%hr, %g11, %hg11, H0⟩
  obtain rfl := hr
  dsimp only
  rw [wp_bind]
  iapply ((seg12 d L k g11 hw hg11).trans (wp_mono frame _ _ fun r => ?c12)) $$ H0
  case c12 =>
  obtain ⟨vr, hw⟩ := r
  iintro ⟨%hr, %g12, %hg12, H0⟩
  obtain rfl := hr
  dsimp only
  rw [wp_bind]
  iapply ((seg13 d L k g12 hw hg12).trans (wp_mono frame _ _ fun r => ?c13)) $$ H0
  case c13 =>
  obtain ⟨vr, hw⟩ := r
  iintro ⟨%hr, %g13, %hg13, H0⟩
  obtain rfl := hr
  dsimp only
  unfold SparseCore.vectorStoreIdx
  unfold heldB0
  sl_exec (disch := exact zero_chk k _ (by decide))
  sl_step
  iexists _
  isplitr
  swap
  · iexact H0
  ipureintro
  refine Z_full k.val _ ?_
  refine Z_writes k.val 200 _ _ _ ?_
  unfold zero_trip.sl.f_5 zero_trip.sl.H0_6
  refine Z_step_cov k 199 _ rfl _ _ _ ?_
  unfold zero_trip.sl.f_4 zero_trip.sl.H0_5
  refine Z_step_cov k 198 _ rfl _ _ _ ?_
  unfold zero_trip.sl.f_3 zero_trip.sl.H0_4
  refine Z_step_cov k 197 _ rfl _ _ _ ?_
  unfold zero_trip.sl.f_2 zero_trip.sl.H0_3
  refine Z_step_cov k 196 _ rfl _ _ _ ?_
  unfold zero_trip.sl.f_1 zero_trip.sl.H0_2
  refine Z_step_cov k 195 _ rfl _ _ _ ?_
  unfold zero_trip.sl.f zero_trip.sl.H0_1
  refine Z_step_cov k 194 _ rfl _ _ _ ?_
  refine Z_step_at k 193 _ rfl _ _ ?_
  exact hg13

end Cert.Kernel.ZeroTrip

end
-- ==== Proof.K_ZeroFacts2.lean ====
/-
  Zeroing the second 200 x 256 buffer sixteen columns at a time (the second zeroing loop).

  Trip `k` of the zeroing loop stores zero through sixteen lanes at (row `c`, columns `16 k + lane`), once for each row
  `c = 0 .. 199`. After the stores for rows below `n` the buffer is zero in every column below `16 k` (earlier trips) and,
  in columns `16 k .. 16 k + 15`, in every row below `n`. One more store moves `n` up by one.
-/
import proofs.«212700_g8504035246323_cont_9to1_m_53_19_alg».proof.Proof.Gen.Kernel.Skeleton
import proofs.«212700_g8504035246323_cont_9to1_m_53_19_alg».proof.Proof.LibStoreIdx

namespace Cert.Kernel.ZeroFacts2

open Cert.Kernel Cert.Kernel.Gen Idealize.ShloMosaic Cert.Lib.StoreIdx

variable {F : FTy → Type} [FloatOps F]

/-- The lane numbers `0 .. 15`. -/
abbrev lanes : IVec S16 32 := iota .scVector S16 32 [0] iota_S16_d0_w32_scVector

theorem trips1 : k0_t2_loop.trips = 16 := by decide

/-- Lane `x` of trip `k` addresses column `16 k + x`. -/
theorem col_toNat (k : Fin k0_t2_loop.trips) (x : S16.Idx) :
    (k0_pay2 lanes 0#32 1#32 k x).toNat = 16 * k.val + (x 0).val := by
  have hk : k.val < 16 := lt_of_lt_of_eq k.isLt trips1
  have hx : (x 0).val < 16 := (x 0).isLt
  unfold k0_pay2
  simp only [addi, IntOp.addi, broadcast, Scalar.muli, IntOp.muli, Scf.iv, iota, List.foldl]
  have h16 : (16#32 : BitVec 32).toNat = 16 := rfl
  simp only [BitVec.toNat_add, BitVec.toNat_mul, BitVec.toNat_ofNat, h16, Matrix.cons_val_zero]
  omega

/-- A zeroing store's indices are in range: row `c < 200`, column `16 k + lane < 256`. -/
theorem zero_chk (k : Fin k0_t2_loop.trips) (c : BitVec 32) (hc : c.toNat < 200) (a : Fin 2) (x : S16.Idx) :
    ((![broadcast S16 c, k0_pay2 lanes 0#32 1#32 k] : Fin 2 → IVec S16 32) a x).toNat < S200x256.size a := by
  have hk : k.val < 16 := lt_of_lt_of_eq k.isLt trips1
  have hx : (x 0).val < 16 := (x 0).isLt
  match a with
  | 0 => exact hc
  | 1 =>
    show (k0_pay2 lanes 0#32 1#32 k x).toNat < 256
    rw [col_toNat]; omega

/-- Zero in the columns below `16 k`, and in rows below `n` of the next sixteen columns. -/
def Z (k n : Nat) (g : Vec F S200x256 .i32) : Prop :=
  ∀ j : S200x256.Idx, ((j 1).val < 16 * k ∨ (16 * k ≤ (j 1).val ∧ (j 1).val < 16 * k + 16 ∧ (j 0).val < n)) → g j = (0#32 : BitVec 32)

/-- The store for row `n` of trip `k` extends the zeroed rows by one. -/
theorem Z_step (k : Fin k0_t2_loop.trips) (n : Nat) (c : BitVec 32) (hc : c.toNat = n) (g : Vec F S200x256 .i32)
    (h : ∀ a x, ((![broadcast S16 c, k0_pay2 lanes 0#32 1#32 k] : Fin 2 → IVec S16 32) a x).toNat < S200x256.size a)
    (hg : Z (F := F) k.val n g) :
    Z (F := F) k.val (n + 1) (storeIdx g ![broadcast S16 c, k0_pay2 lanes 0#32 1#32 k] k0_pay260 (fun _ => 1#1) false h) := by
  intro j hj
  show storeIdx g _ (fun _ => (0#32 : BitVec 32)) (fun _ => 1#1) false h j = 0#32
  rw [storeIdx_const]
  split
  · rfl
  · rename_i hno
    apply hg
    rcases hj with hj | ⟨h1, h2, h3⟩
    · exact .inl hj
    · refine .inr ⟨h1, h2, ?_⟩
      by_contra hlt
      have hrow : (j 0).val = n := by omega
      apply hno
      refine ⟨⟨(j 1).val - 16 * k.val, (by show _ < 16; omega)⟩, fun a => ?_⟩
      match a with
      | 0 => exact hrow.trans hc.symm
      | 1 =>
        refine Eq.trans ?_ (col_toNat k _).symm
        show (j 1).val = 16 * k.val + ((j 1).val - 16 * k.val)
        omega

/-- After all 200 rows the next trip's claim holds; before the first row it is this trip's. -/
theorem Z_full (k : Nat) (g : Vec F S200x256 .i32) (hg : Z (F := F) k 200 g) : Z (F := F) (k + 1) 0 g := by
  intro j hj
  apply hg
  have hr : (j 0).val < 200 := (j 0).isLt
  rcases hj with hj | ⟨_, _, h3⟩
  · by_cases hc : (j 1).val < 16 * k
    · exact .inl hc
    · exact .inr ⟨by omega, by omega, hr⟩
  · omega

end Cert.Kernel.ZeroFacts2
-- ==== Proof.K_ZeroViews2.lean ====
/-
  The zeroing claim read through the second buffer's list of writes.

  A store through index vectors is, on the machine, a load of the whole buffer followed by a store of the whole
  buffer. So after such a store the buffer's newest write covers it whole, and what the next one loads is that
  write's payload. The zeroing claim `Z k n` therefore passes from one payload to the next by the one-store step.
-/
import Idealize.ShloMosaic.Lib.Exec
import proofs.«212700_g8504035246323_cont_9to1_m_53_19_alg».proof.Proof.LibWholeWrites
import proofs.«212700_g8504035246323_cont_9to1_m_53_19_alg».proof.Proof.K_ZeroFacts2

namespace Cert.Kernel.ZeroViews2

open Cert.Kernel Cert.Kernel.Gen Cert.Kernel.ZeroFacts2 Cert.Lib.WholeWrites Idealize.ShloMosaic

variable {F : FTy → Type} [FloatOps F] [∀ e, Nonempty (Elt F e)]

/-- The contents after a newest write of the whole second buffer are that write's payload. -/
theorem Z_writes (k n : Nat) (f w : cc0_scratch2.ty.Contents (Elt F))
    (L : List (View.Piece (Elt F) cc0_scratch2.ty.shape cc0_scratch2.ty.elt)) (hw : Z (F := F) k n w) :
    Z (F := F) k n ((Memref.whole cc0_scratch2).view.writes (Elt F) f (⟨Rect.whole _, w⟩ :: L)) := by
  rw [writes_whole_cons]; exact hw

/-- A store for row `n` whose load finds a newest write of the whole buffer. -/
theorem Z_step_cov (k : Fin k0_t2_loop.trips) (n : Nat) (c : BitVec 32) (hc : c.toNat = n) (w : cc0_scratch2.ty.Contents (Elt F))
    (L : List (View.Piece (Elt F) cc0_scratch2.ty.shape cc0_scratch2.ty.elt))
    (h : ∀ a x, ((![broadcast S16 c, k0_pay2 lanes 0#32 1#32 k] : Fin 2 → IVec S16 32) a x).toNat < S200x256.size a)
    (hw : Z (F := F) k.val n w) :
    Z (F := F) k.val (n + 1)
      (storeIdx ((Memref.whole cc0_scratch2).view.readCov (⟨Rect.whole _, w⟩ :: L) (LoadRect.whole _))
        ![broadcast S16 c, k0_pay2 lanes 0#32 1#32 k] k0_pay260 (fun _ => 1#1) false h) := by
  rw [readCov_whole_cons]; exact Z_step k n c hc w h hw

/-- The first store of a window, whose load reads the buffer as the window found it. -/
theorem Z_step_at (k : Fin k0_t2_loop.trips) (n : Nat) (c : BitVec 32) (hc : c.toNat = n) (g : cc0_scratch2.ty.Contents (Elt F))
    (h : ∀ a x, ((![broadcast S16 c, k0_pay2 lanes 0#32 1#32 k] : Fin 2 → IVec S16 32) a x).toNat < S200x256.size a)
    (hg : Z (F := F) k.val n g) :
    Z (F := F) k.val (n + 1)
      (storeIdx ((Memref.whole cc0_scratch2).view.readAt (Elt F) (LoadRect.whole _) g)
        ![broadcast S16 c, k0_pay2 lanes 0#32 1#32 k] k0_pay260 (fun _ => 1#1) false h) := by
  rw [Memref.readAt_whole]; exact Z_step k n c hc g h hg

end Cert.Kernel.ZeroViews2
-- ==== Proof.K_ZeroSegs2A.lean ====
/-
  The second zeroing loop, window by window (windows 1 to 7 of a trip): as the first loop's, on the second buffer.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_TileBase2
import proofs.«212700_g8504035246323_cont_9to1_m_53_19_alg».proof.Proof.K_ZeroFacts2
import proofs.«212700_g8504035246323_cont_9to1_m_53_19_alg».proof.Proof.K_ZeroViews2

noncomputable section

namespace Cert.Kernel.ZeroSegs2

open Cert.Kernel Cert.Kernel.Gen Cert.Kernel.Tile Cert.Kernel.ZeroFacts2 Cert.Kernel.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- Window 1 of a zeroing trip: rows 0 to 12 of the trip's sixteen columns. -/
theorem segb1 (k : Fin k0_t2_loop.trips) (g : Buf (Elt F) ((b1W).view.loc (V d (cV L) (jV L)))) (hg : Z (F := F) k.val 0 g) :
    (heldB1 (F := F) d L g : sProp 𝕄)
      ⊢ (wp frame (wpE (defs₀ (F := F)) 𝒱₀ (V d (cV L) (jV L)) none) Set.univ
          (k0_part14 L xtW (Memref.isWhole_whole _) oW (Memref.isWhole_whole _) xvW (Memref.isWhole_whole _)
            b0W (Memref.isWhole_whole _) b1W (Memref.isWhole_whole _) cc0_scratch3 cc0_scratch4 cc0_scratch5
            lanes k0_pay260 0#32 1#32 k)
          fun r => iprop(⌜r.1 = k0_pay2 lanes 0#32 1#32 k ∧ r.2.1 = broadcast S16 13#32⌝ ∗ ∃ g', ⌜Z (F := F) k.val 13 g'⌝ ∗ heldB1 (F := F) d L g') : sProp 𝕄) := by
  simp only [k0_part14_eq_skeleton]; unfold k0_part14_skel
  unfold SparseCore.vectorStoreIdx
  unfold heldB1
  iintro H0
  sl_exec (disch := exact zero_chk k _ (by decide))
  sl_step
  isplitr
  · ipureintro; exact ⟨rfl, rfl⟩
  iexists _
  isplitr
  swap
  · iexact H0
  ipureintro
  refine Z_writes k.val 13 _ _ _ ?_
  unfold segb1.sl.f_11 segb1.sl.H0_12
  refine Z_step_cov k 12 _ rfl _ _ _ ?_
  unfold segb1.sl.f_10 segb1.sl.H0_11
  refine Z_step_cov k 11 _ rfl _ _ _ ?_
  unfold segb1.sl.f_9 segb1.sl.H0_10
  refine Z_step_cov k 10 _ rfl _ _ _ ?_
  unfold segb1.sl.f_8 segb1.sl.H0_9
  refine Z_step_cov k 9 _ rfl _ _ _ ?_
  unfold segb1.sl.f_7 segb1.sl.H0_8
  refine Z_step_cov k 8 _ rfl _ _ _ ?_
  unfold segb1.sl.f_6 segb1.sl.H0_7
  refine Z_step_cov k 7 _ rfl _ _ _ ?_
  unfold segb1.sl.f_5 segb1.sl.H0_6
  refine Z_step_cov k 6 _ rfl _ _ _ ?_
  unfold segb1.sl.f_4 segb1.sl.H0_5
  refine Z_step_cov k 5 _ rfl _ _ _ ?_
  unfold segb1.sl.f_3 segb1.sl.H0_4
  refine Z_step_cov k 4 _ rfl _ _ _ ?_
  unfold segb1.sl.f_2 segb1.sl.H0_3
  refine Z_step_cov k 3 _ rfl _ _ _ ?_
  unfold segb1.sl.f_1 segb1.sl.H0_2
  refine Z_step_cov k 2 _ rfl _ _ _ ?_
  unfold segb1.sl.f segb1.sl.H0_1
  refine Z_step_cov k 1 _ rfl _ _ _ ?_
  refine Z_step_at k 0 _ rfl _ _ ?_
  exact hg

/-- Window 2 of a zeroing trip: rows 13 to 27. -/
theorem segb2 (k : Fin k0_t2_loop.trips) (g : Buf (Elt F) ((b1W).view.loc (V d (cV L) (jV L))))
    (hw : k0_chk246 (k0_pay2 lanes 0#32 1#32 k) (broadcast S16 13#32)) (hg : Z (F := F) k.val 13 g) :
    (heldB1 (F := F) d L g : sProp 𝕄)
      ⊢ (wp frame (wpE (defs₀ (F := F)) 𝒱₀ (V d (cV L) (jV L)) none) Set.univ
          (k0_part15 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 13#32) hw)
          fun r => iprop(⌜r.1 = broadcast S16 28#32⌝ ∗ ∃ g', ⌜Z (F := F) k.val 28 g'⌝ ∗ heldB1 (F := F) d L g') : sProp 𝕄) := by
  simp only [k0_part15_eq_skeleton]; unfold k0_part15_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 28 _ _ _ ?_
  unfold segb2.sl.f_13 segb2.sl.H0_14
  refine Z_step_cov k 27 _ rfl _ _ _ ?_
  unfold segb2.sl.f_12 segb2.sl.H0_13
  refine Z_step_cov k 26 _ rfl _ _ _ ?_
  unfold segb2.sl.f_11 segb2.sl.H0_12
  refine Z_step_cov k 25 _ rfl _ _ _ ?_
  unfold segb2.sl.f_10 segb2.sl.H0_11
  refine Z_step_cov k 24 _ rfl _ _ _ ?_
  unfold segb2.sl.f_9 segb2.sl.H0_10
  refine Z_step_cov k 23 _ rfl _ _ _ ?_
  unfold segb2.sl.f_8 segb2.sl.H0_9
  refine Z_step_cov k 22 _ rfl _ _ _ ?_
  unfold segb2.sl.f_7 segb2.sl.H0_8
  refine Z_step_cov k 21 _ rfl _ _ _ ?_
  unfold segb2.sl.f_6 segb2.sl.H0_7
  refine Z_step_cov k 20 _ rfl _ _ _ ?_
  unfold segb2.sl.f_5 segb2.sl.H0_6
  refine Z_step_cov k 19 _ rfl _ _ _ ?_
  unfold segb2.sl.f_4 segb2.sl.H0_5
  refine Z_step_cov k 18 _ rfl _ _ _ ?_
  unfold segb2.sl.f_3 segb2.sl.H0_4
  refine Z_step_cov k 17 _ rfl _ _ _ ?_
  unfold segb2.sl.f_2 segb2.sl.H0_3
  refine Z_step_cov k 16 _ rfl _ _ _ ?_
  unfold segb2.sl.f_1 segb2.sl.H0_2
  refine Z_step_cov k 15 _ rfl _ _ _ ?_
  unfold segb2.sl.f segb2.sl.H0_1
  refine Z_step_cov k 14 _ rfl _ _ _ ?_
  refine Z_step_at k 13 _ rfl _ _ ?_
  exact hg

/-- Window 3 of a zeroing trip: rows 28 to 42. -/
theorem segb3 (k : Fin k0_t2_loop.trips) (g : Buf (Elt F) ((b1W).view.loc (V d (cV L) (jV L))))
    (hw : k0_chk261 (k0_pay2 lanes 0#32 1#32 k) (broadcast S16 28#32)) (hg : Z (F := F) k.val 28 g) :
    (heldB1 (F := F) d L g : sProp 𝕄)
      ⊢ (wp frame (wpE (defs₀ (F := F)) 𝒱₀ (V d (cV L) (jV L)) none) Set.univ
          (k0_part16 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 28#32) hw)
          fun r => iprop(⌜r.1 = broadcast S16 43#32⌝ ∗ ∃ g', ⌜Z (F := F) k.val 43 g'⌝ ∗ heldB1 (F := F) d L g') : sProp 𝕄) := by
  simp only [k0_part16_eq_skeleton]; unfold k0_part16_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 43 _ _ _ ?_
  unfold segb3.sl.f_13 segb3.sl.H0_14
  refine Z_step_cov k 42 _ rfl _ _ _ ?_
  unfold segb3.sl.f_12 segb3.sl.H0_13
  refine Z_step_cov k 41 _ rfl _ _ _ ?_
  unfold segb3.sl.f_11 segb3.sl.H0_12
  refine Z_step_cov k 40 _ rfl _ _ _ ?_
  unfold segb3.sl.f_10 segb3.sl.H0_11
  refine Z_step_cov k 39 _ rfl _ _ _ ?_
  unfold segb3.sl.f_9 segb3.sl.H0_10
  refine Z_step_cov k 38 _ rfl _ _ _ ?_
  unfold segb3.sl.f_8 segb3.sl.H0_9
  refine Z_step_cov k 37 _ rfl _ _ _ ?_
  unfold segb3.sl.f_7 segb3.sl.H0_8
  refine Z_step_cov k 36 _ rfl _ _ _ ?_
  unfold segb3.sl.f_6 segb3.sl.H0_7
  refine Z_step_cov k 35 _ rfl _ _ _ ?_
  unfold segb3.sl.f_5 segb3.sl.H0_6
  refine Z_step_cov k 34 _ rfl _ _ _ ?_
  unfold segb3.sl.f_4 segb3.sl.H0_5
  refine Z_step_cov k 33 _ rfl _ _ _ ?_
  unfold segb3.sl.f_3 segb3.sl.H0_4
  refine Z_step_cov k 32 _ rfl _ _ _ ?_
  unfold segb3.sl.f_2 segb3.sl.H0_3
  refine Z_step_cov k 31 _ rfl _ _ _ ?_
  unfold segb3.sl.f_1 segb3.sl.H0_2
  refine Z_step_cov k 30 _ rfl _ _ _ ?_
  unfold segb3.sl.f segb3.sl.H0_1
  refine Z_step_cov k 29 _ rfl _ _ _ ?_
  refine Z_step_at k 28 _ rfl _ _ ?_
  exact hg

/-- Window 4 of a zeroing trip: rows 43 to 57. -/
theorem segb4 (k : Fin k0_t2_loop.trips) (g : Buf (Elt F) ((b1W).view.loc (V d (cV L) (jV L))))
    (hw : k0_chk276 (k0_pay2 lanes 0#32 1#32 k) (broadcast S16 43#32)) (hg : Z (F := F) k.val 43 g) :
    (heldB1 (F := F) d L g : sProp 𝕄)
      ⊢ (wp frame (wpE (defs₀ (F := F)) 𝒱₀ (V d (cV L) (jV L)) none) Set.univ
          (k0_part17 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 43#32) hw)
          fun r => iprop(⌜r.1 = broadcast S16 58#32⌝ ∗ ∃ g', ⌜Z (F := F) k.val 58 g'⌝ ∗ heldB1 (F := F) d L g') : sProp 𝕄) := by
  simp only [k0_part17_eq_skeleton]; unfold k0_part17_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 58 _ _ _ ?_
  unfold segb4.sl.f_13 segb4.sl.H0_14
  refine Z_step_cov k 57 _ rfl _ _ _ ?_
  unfold segb4.sl.f_12 segb4.sl.H0_13
  refine Z_step_cov k 56 _ rfl _ _ _ ?_
  unfold segb4.sl.f_11 segb4.sl.H0_12
  refine Z_step_cov k 55 _ rfl _ _ _ ?_
  unfold segb4.sl.f_10 segb4.sl.H0_11
  refine Z_step_cov k 54 _ rfl _ _ _ ?_
  unfold segb4.sl.f_9 segb4.sl.H0_10
  refine Z_step_cov k 53 _ rfl _ _ _ ?_
  unfold segb4.sl.f_8 segb4.sl.H0_9
  refine Z_step_cov k 52 _ rfl _ _ _ ?_
  unfold segb4.sl.f_7 segb4.sl.H0_8
  refine Z_step_cov k 51 _ rfl _ _ _ ?_
  unfold segb4.sl.f_6 segb4.sl.H0_7
  refine Z_step_cov k 50 _ rfl _ _ _ ?_
  unfold segb4.sl.f_5 segb4.sl.H0_6
  refine Z_step_cov k 49 _ rfl _ _ _ ?_
  unfold segb4.sl.f_4 segb4.sl.H0_5
  refine Z_step_cov k 48 _ rfl _ _ _ ?_
  unfold segb4.sl.f_3 segb4.sl.H0_4
  refine Z_step_cov k 47 _ rfl _ _ _ ?_
  unfold segb4.sl.f_2 segb4.sl.H0_3
  refine Z_step_cov k 46 _ rfl _ _ _ ?_
  unfold segb4.sl.f_1 segb4.sl.H0_2
  refine Z_step_cov k 45 _ rfl _ _ _ ?_
  unfold segb4.sl.f segb4.sl.H0_1
  refine Z_step_cov k 44 _ rfl _ _ _ ?_
  refine Z_step_at k 43 _ rfl _ _ ?_
  exact hg

/-- Window 5 of a zeroing trip: rows 58 to 72. -/
theorem segb5 (k : Fin k0_t2_loop.trips) (g : Buf (Elt F) ((b1W).view.loc (V d (cV L) (jV L))))
    (hw : k0_chk291 (k0_pay2 lanes 0#32 1#32 k) (broadcast S16 58#32)) (hg : Z (F := F) k.val 58 g) :
    (heldB1 (F := F) d L g : sProp 𝕄)
      ⊢ (wp frame (wpE (defs₀ (F := F)) 𝒱₀ (V d (cV L) (jV L)) none) Set.univ
          (k0_part18 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 58#32) hw)
          fun r => iprop(⌜r.1 = broadcast S16 73#32⌝ ∗ ∃ g', ⌜Z (F := F) k.val 73 g'⌝ ∗ heldB1 (F := F) d L g') : sProp 𝕄) := by
  simp only [k0_part18_eq_skeleton]; unfold k0_part18_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 73 _ _ _ ?_
  unfold segb5.sl.f_13 segb5.sl.H0_14
  refine Z_step_cov k 72 _ rfl _ _ _ ?_
  unfold segb5.sl.f_12 segb5.sl.H0_13
  refine Z_step_cov k 71 _ rfl _ _ _ ?_
  unfold segb5.sl.f_11 segb5.sl.H0_12
  refine Z_step_cov k 70 _ rfl _ _ _ ?_
  unfold segb5.sl.f_10 segb5.sl.H0_11
  refine Z_step_cov k 69 _ rfl _ _ _ ?_
  unfold segb5.sl.f_9 segb5.sl.H0_10
  refine Z_step_cov k 68 _ rfl _ _ _ ?_
  unfold segb5.sl.f_8 segb5.sl.H0_9
  refine Z_step_cov k 67 _ rfl _ _ _ ?_
  unfold segb5.sl.f_7 segb5.sl.H0_8
  refine Z_step_cov k 66 _ rfl _ _ _ ?_
  unfold segb5.sl.f_6 segb5.sl.H0_7
  refine Z_step_cov k 65 _ rfl _ _ _ ?_
  unfold segb5.sl.f_5 segb5.sl.H0_6
  refine Z_step_cov k 64 _ rfl _ _ _ ?_
  unfold segb5.sl.f_4 segb5.sl.H0_5
  refine Z_step_cov k 63 _ rfl _ _ _ ?_
  unfold segb5.sl.f_3 segb5.sl.H0_4
  refine Z_step_cov k 62 _ rfl _ _ _ ?_
  unfold segb5.sl.f_2 segb5.sl.H0_3
  refine Z_step_cov k 61 _ rfl _ _ _ ?_
  unfold segb5.sl.f_1 segb5.sl.H0_2
  refine Z_step_cov k 60 _ rfl _ _ _ ?_
  unfold segb5.sl.f segb5.sl.H0_1
  refine Z_step_cov k 59 _ rfl _ _ _ ?_
  refine Z_step_at k 58 _ rfl _ _ ?_
  exact hg

/-- Window 6 of a zeroing trip: rows 73 to 87. -/
theorem segb6 (k : Fin k0_t2_loop.trips) (g : Buf (Elt F) ((b1W).view.loc (V d (cV L) (jV L))))
    (hw : k0_chk306 (k0_pay2 lanes 0#32 1#32 k) (broadcast S16 73#32)) (hg : Z (F := F) k.val 73 g) :
    (heldB1 (F := F) d L g : sProp 𝕄)
      ⊢ (wp frame (wpE (defs₀ (F := F)) 𝒱₀ (V d (cV L) (jV L)) none) Set.univ
          (k0_part19 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 73#32) hw)
          fun r => iprop(⌜r.1 = broadcast S16 88#32⌝ ∗ ∃ g', ⌜Z (F := F) k.val 88 g'⌝ ∗ heldB1 (F := F) d L g') : sProp 𝕄) := by
  simp only [k0_part19_eq_skeleton]; unfold k0_part19_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 88 _ _ _ ?_
  unfold segb6.sl.f_13 segb6.sl.H0_14
  refine Z_step_cov k 87 _ rfl _ _ _ ?_
  unfold segb6.sl.f_12 segb6.sl.H0_13
  refine Z_step_cov k 86 _ rfl _ _ _ ?_
  unfold segb6.sl.f_11 segb6.sl.H0_12
  refine Z_step_cov k 85 _ rfl _ _ _ ?_
  unfold segb6.sl.f_10 segb6.sl.H0_11
  refine Z_step_cov k 84 _ rfl _ _ _ ?_
  unfold segb6.sl.f_9 segb6.sl.H0_10
  refine Z_step_cov k 83 _ rfl _ _ _ ?_
  unfold segb6.sl.f_8 segb6.sl.H0_9
  refine Z_step_cov k 82 _ rfl _ _ _ ?_
  unfold segb6.sl.f_7 segb6.sl.H0_8
  refine Z_step_cov k 81 _ rfl _ _ _ ?_
  unfold segb6.sl.f_6 segb6.sl.H0_7
  refine Z_step_cov k 80 _ rfl _ _ _ ?_
  unfold segb6.sl.f_5 segb6.sl.H0_6
  refine Z_step_cov k 79 _ rfl _ _ _ ?_
  unfold segb6.sl.f_4 segb6.sl.H0_5
  refine Z_step_cov k 78 _ rfl _ _ _ ?_
  unfold segb6.sl.f_3 segb6.sl.H0_4
  refine Z_step_cov k 77 _ rfl _ _ _ ?_
  unfold segb6.sl.f_2 segb6.sl.H0_3
  refine Z_step_cov k 76 _ rfl _ _ _ ?_
  unfold segb6.sl.f_1 segb6.sl.H0_2
  refine Z_step_cov k 75 _ rfl _ _ _ ?_
  unfold segb6.sl.f segb6.sl.H0_1
  refine Z_step_cov k 74 _ rfl _ _ _ ?_
  refine Z_step_at k 73 _ rfl _ _ ?_
  exact hg

/-- Window 7 of a zeroing trip: rows 88 to 102. -/
theorem segb7 (k : Fin k0_t2_loop.trips) (g : Buf (Elt F) ((b1W).view.loc (V d (cV L) (jV L))))
    (hw : k0_chk321 (k0_pay2 lanes 0#32 1#32 k) (broadcast S16 88#32)) (hg : Z (F := F) k.val 88 g) :
    (heldB1 (F := F) d L g : sProp 𝕄)
      ⊢ (wp frame (wpE (defs₀ (F := F)) 𝒱₀ (V d (cV L) (jV L)) none) Set.univ
          (k0_part20 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 88#32) hw)
          fun r => iprop(⌜r.1 = broadcast S16 103#32⌝ ∗ ∃ g', ⌜Z (F := F) k.val 103 g'⌝ ∗ heldB1 (F := F) d L g') : sProp 𝕄) := by
  simp only [k0_part20_eq_skeleton]; unfold k0_part20_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 103 _ _ _ ?_
  unfold segb7.sl.f_13 segb7.sl.H0_14
  refine Z_step_cov k 102 _ rfl _ _ _ ?_
  unfold segb7.sl.f_12 segb7.sl.H0_13
  refine Z_step_cov k 101 _ rfl _ _ _ ?_
  unfold segb7.sl.f_11 segb7.sl.H0_12
  refine Z_step_cov k 100 _ rfl _ _ _ ?_
  unfold segb7.sl.f_10 segb7.sl.H0_11
  refine Z_step_cov k 99 _ rfl _ _ _ ?_
  unfold segb7.sl.f_9 segb7.sl.H0_10
  refine Z_step_cov k 98 _ rfl _ _ _ ?_
  unfold segb7.sl.f_8 segb7.sl.H0_9
  refine Z_step_cov k 97 _ rfl _ _ _ ?_
  unfold segb7.sl.f_7 segb7.sl.H0_8
  refine Z_step_cov k 96 _ rfl _ _ _ ?_
  unfold segb7.sl.f_6 segb7.sl.H0_7
  refine Z_step_cov k 95 _ rfl _ _ _ ?_
  unfold segb7.sl.f_5 segb7.sl.H0_6
  refine Z_step_cov k 94 _ rfl _ _ _ ?_
  unfold segb7.sl.f_4 segb7.sl.H0_5
  refine Z_step_cov k 93 _ rfl _ _ _ ?_
  unfold segb7.sl.f_3 segb7.sl.H0_4
  refine Z_step_cov k 92 _ rfl _ _ _ ?_
  unfold segb7.sl.f_2 segb7.sl.H0_3
  refine Z_step_cov k 91 _ rfl _ _ _ ?_
  unfold segb7.sl.f_1 segb7.sl.H0_2
  refine Z_step_cov k 90 _ rfl _ _ _ ?_
  unfold segb7.sl.f segb7.sl.H0_1
  refine Z_step_cov k 89 _ rfl _ _ _ ?_
  refine Z_step_at k 88 _ rfl _ _ ?_
  exact hg

end Cert.Kernel.ZeroSegs2

end
-- ==== Proof.K_ZeroSegs2B.lean ====
/-
  The second zeroing loop, window by window (windows 8 to 13 of a trip): as the first loop's, on the second buffer.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_TileBase2
import proofs.«212700_g8504035246323_cont_9to1_m_53_19_alg».proof.Proof.K_ZeroFacts2
import proofs.«212700_g8504035246323_cont_9to1_m_53_19_alg».proof.Proof.K_ZeroViews2

noncomputable section

namespace Cert.Kernel.ZeroSegs2

open Cert.Kernel Cert.Kernel.Gen Cert.Kernel.Tile Cert.Kernel.ZeroFacts2 Cert.Kernel.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- Window 8 of a zeroing trip: rows 103 to 117. -/
theorem segb8 (k : Fin k0_t2_loop.trips) (g : Buf (Elt F) ((b1W).view.loc (V d (cV L) (jV L))))
    (hw : k0_chk336 (k0_pay2 lanes 0#32 1#32 k) (broadcast S16 103#32)) (hg : Z (F := F) k.val 103 g) :
    (heldB1 (F := F) d L g : sProp 𝕄)
      ⊢ (wp frame (wpE (defs₀ (F := F)) 𝒱₀ (V d (cV L) (jV L)) none) Set.univ
          (k0_part21 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 103#32) hw)
          fun r => iprop(⌜r.1 = broadcast S16 118#32⌝ ∗ ∃ g', ⌜Z (F := F) k.val 118 g'⌝ ∗ heldB1 (F := F) d L g') : sProp 𝕄) := by
  simp only [k0_part21_eq_skeleton]; unfold k0_part21_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 118 _ _ _ ?_
  unfold segb8.sl.f_13 segb8.sl.H0_14
  refine Z_step_cov k 117 _ rfl _ _ _ ?_
  unfold segb8.sl.f_12 segb8.sl.H0_13
  refine Z_step_cov k 116 _ rfl _ _ _ ?_
  unfold segb8.sl.f_11 segb8.sl.H0_12
  refine Z_step_cov k 115 _ rfl _ _ _ ?_
  unfold segb8.sl.f_10 segb8.sl.H0_11
  refine Z_step_cov k 114 _ rfl _ _ _ ?_
  unfold segb8.sl.f_9 segb8.sl.H0_10
  refine Z_step_cov k 113 _ rfl _ _ _ ?_
  unfold segb8.sl.f_8 segb8.sl.H0_9
  refine Z_step_cov k 112 _ rfl _ _ _ ?_
  unfold segb8.sl.f_7 segb8.sl.H0_8
  refine Z_step_cov k 111 _ rfl _ _ _ ?_
  unfold segb8.sl.f_6 segb8.sl.H0_7
  refine Z_step_cov k 110 _ rfl _ _ _ ?_
  unfold segb8.sl.f_5 segb8.sl.H0_6
  refine Z_step_cov k 109 _ rfl _ _ _ ?_
  unfold segb8.sl.f_4 segb8.sl.H0_5
  refine Z_step_cov k 108 _ rfl _ _ _ ?_
  unfold segb8.sl.f_3 segb8.sl.H0_4
  refine Z_step_cov k 107 _ rfl _ _ _ ?_
  unfold segb8.sl.f_2 segb8.sl.H0_3
  refine Z_step_cov k 106 _ rfl _ _ _ ?_
  unfold segb8.sl.f_1 segb8.sl.H0_2
  refine Z_step_cov k 105 _ rfl _ _ _ ?_
  unfold segb8.sl.f segb8.sl.H0_1
  refine Z_step_cov k 104 _ rfl _ _ _ ?_
  refine Z_step_at k 103 _ rfl _ _ ?_
  exact hg

/-- Window 9 of a zeroing trip: rows 118 to 132. -/
theorem segb9 (k : Fin k0_t2_loop.trips) (g : Buf (Elt F) ((b1W).view.loc (V d (cV L) (jV L))))
    (hw : k0_chk351 (k0_pay2 lanes 0#32 1#32 k) (broadcast S16 118#32)) (hg : Z (F := F) k.val 118 g) :
    (heldB1 (F := F) d L g : sProp 𝕄)
      ⊢ (wp frame (wpE (defs₀ (F := F)) 𝒱₀ (V d (cV L) (jV L)) none) Set.univ
          (k0_part22 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 118#32) hw)
          fun r => iprop(⌜r.1 = broadcast S16 133#32⌝ ∗ ∃ g', ⌜Z (F := F) k.val 133 g'⌝ ∗ heldB1 (F := F) d L g') : sProp 𝕄) := by
  simp only [k0_part22_eq_skeleton]; unfold k0_part22_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 133 _ _ _ ?_
  unfold segb9.sl.f_13 segb9.sl.H0_14
  refine Z_step_cov k 132 _ rfl _ _ _ ?_
  unfold segb9.sl.f_12 segb9.sl.H0_13
  refine Z_step_cov k 131 _ rfl _ _ _ ?_
  unfold segb9.sl.f_11 segb9.sl.H0_12
  refine Z_step_cov k 130 _ rfl _ _ _ ?_
  unfold segb9.sl.f_10 segb9.sl.H0_11
  refine Z_step_cov k 129 _ rfl _ _ _ ?_
  unfold segb9.sl.f_9 segb9.sl.H0_10
  refine Z_step_cov k 128 _ rfl _ _ _ ?_
  unfold segb9.sl.f_8 segb9.sl.H0_9
  refine Z_step_cov k 127 _ rfl _ _ _ ?_
  unfold segb9.sl.f_7 segb9.sl.H0_8
  refine Z_step_cov k 126 _ rfl _ _ _ ?_
  unfold segb9.sl.f_6 segb9.sl.H0_7
  refine Z_step_cov k 125 _ rfl _ _ _ ?_
  unfold segb9.sl.f_5 segb9.sl.H0_6
  refine Z_step_cov k 124 _ rfl _ _ _ ?_
  unfold segb9.sl.f_4 segb9.sl.H0_5
  refine Z_step_cov k 123 _ rfl _ _ _ ?_
  unfold segb9.sl.f_3 segb9.sl.H0_4
  refine Z_step_cov k 122 _ rfl _ _ _ ?_
  unfold segb9.sl.f_2 segb9.sl.H0_3
  refine Z_step_cov k 121 _ rfl _ _ _ ?_
  unfold segb9.sl.f_1 segb9.sl.H0_2
  refine Z_step_cov k 120 _ rfl _ _ _ ?_
  unfold segb9.sl.f segb9.sl.H0_1
  refine Z_step_cov k 119 _ rfl _ _ _ ?_
  refine Z_step_at k 118 _ rfl _ _ ?_
  exact hg

/-- Window 10 of a zeroing trip: rows 133 to 147. -/
theorem segb10 (k : Fin k0_t2_loop.trips) (g : Buf (Elt F) ((b1W).view.loc (V d (cV L) (jV L))))
    (hw : k0_chk366 (k0_pay2 lanes 0#32 1#32 k) (broadcast S16 133#32)) (hg : Z (F := F) k.val 133 g) :
    (heldB1 (F := F) d L g : sProp 𝕄)
      ⊢ (wp frame (wpE (defs₀ (F := F)) 𝒱₀ (V d (cV L) (jV L)) none) Set.univ
          (k0_part23 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 133#32) hw)
          fun r => iprop(⌜r.1 = broadcast S16 148#32⌝ ∗ ∃ g', ⌜Z (F := F) k.val 148 g'⌝ ∗ heldB1 (F := F) d L g') : sProp 𝕄) := by
  simp only [k0_part23_eq_skeleton]; unfold k0_part23_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 148 _ _ _ ?_
  unfold segb10.sl.f_13 segb10.sl.H0_14
  refine Z_step_cov k 147 _ rfl _ _ _ ?_
  unfold segb10.sl.f_12 segb10.sl.H0_13
  refine Z_step_cov k 146 _ rfl _ _ _ ?_
  unfold segb10.sl.f_11 segb10.sl.H0_12
  refine Z_step_cov k 145 _ rfl _ _ _ ?_
  unfold segb10.sl.f_10 segb10.sl.H0_11
  refine Z_step_cov k 144 _ rfl _ _ _ ?_
  unfold segb10.sl.f_9 segb10.sl.H0_10
  refine Z_step_cov k 143 _ rfl _ _ _ ?_
  unfold segb10.sl.f_8 segb10.sl.H0_9
  refine Z_step_cov k 142 _ rfl _ _ _ ?_
  unfold segb10.sl.f_7 segb10.sl.H0_8
  refine Z_step_cov k 141 _ rfl _ _ _ ?_
  unfold segb10.sl.f_6 segb10.sl.H0_7
  refine Z_step_cov k 140 _ rfl _ _ _ ?_
  unfold segb10.sl.f_5 segb10.sl.H0_6
  refine Z_step_cov k 139 _ rfl _ _ _ ?_
  unfold segb10.sl.f_4 segb10.sl.H0_5
  refine Z_step_cov k 138 _ rfl _ _ _ ?_
  unfold segb10.sl.f_3 segb10.sl.H0_4
  refine Z_step_cov k 137 _ rfl _ _ _ ?_
  unfold segb10.sl.f_2 segb10.sl.H0_3
  refine Z_step_cov k 136 _ rfl _ _ _ ?_
  unfold segb10.sl.f_1 segb10.sl.H0_2
  refine Z_step_cov k 135 _ rfl _ _ _ ?_
  unfold segb10.sl.f segb10.sl.H0_1
  refine Z_step_cov k 134 _ rfl _ _ _ ?_
  refine Z_step_at k 133 _ rfl _ _ ?_
  exact hg

/-- Window 11 of a zeroing trip: rows 148 to 162. -/
theorem segb11 (k : Fin k0_t2_loop.trips) (g : Buf (Elt F) ((b1W).view.loc (V d (cV L) (jV L))))
    (hw : k0_chk381 (k0_pay2 lanes 0#32 1#32 k) (broadcast S16 148#32)) (hg : Z (F := F) k.val 148 g) :
    (heldB1 (F := F) d L g : sProp 𝕄)
      ⊢ (wp frame (wpE (defs₀ (F := F)) 𝒱₀ (V d (cV L) (jV L)) none) Set.univ
          (k0_part24 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 148#32) hw)
          fun r => iprop(⌜r.1 = broadcast S16 163#32⌝ ∗ ∃ g', ⌜Z (F := F) k.val 163 g'⌝ ∗ heldB1 (F := F) d L g') : sProp 𝕄) := by
  simp only [k0_part24_eq_skeleton]; unfold k0_part24_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 163 _ _ _ ?_
  unfold segb11.sl.f_13 segb11.sl.H0_14
  refine Z_step_cov k 162 _ rfl _ _ _ ?_
  unfold segb11.sl.f_12 segb11.sl.H0_13
  refine Z_step_cov k 161 _ rfl _ _ _ ?_
  unfold segb11.sl.f_11 segb11.sl.H0_12
  refine Z_step_cov k 160 _ rfl _ _ _ ?_
  unfold segb11.sl.f_10 segb11.sl.H0_11
  refine Z_step_cov k 159 _ rfl _ _ _ ?_
  unfold segb11.sl.f_9 segb11.sl.H0_10
  refine Z_step_cov k 158 _ rfl _ _ _ ?_
  unfold segb11.sl.f_8 segb11.sl.H0_9
  refine Z_step_cov k 157 _ rfl _ _ _ ?_
  unfold segb11.sl.f_7 segb11.sl.H0_8
  refine Z_step_cov k 156 _ rfl _ _ _ ?_
  unfold segb11.sl.f_6 segb11.sl.H0_7
  refine Z_step_cov k 155 _ rfl _ _ _ ?_
  unfold segb11.sl.f_5 segb11.sl.H0_6
  refine Z_step_cov k 154 _ rfl _ _ _ ?_
  unfold segb11.sl.f_4 segb11.sl.H0_5
  refine Z_step_cov k 153 _ rfl _ _ _ ?_
  unfold segb11.sl.f_3 segb11.sl.H0_4
  refine Z_step_cov k 152 _ rfl _ _ _ ?_
  unfold segb11.sl.f_2 segb11.sl.H0_3
  refine Z_step_cov k 151 _ rfl _ _ _ ?_
  unfold segb11.sl.f_1 segb11.sl.H0_2
  refine Z_step_cov k 150 _ rfl _ _ _ ?_
  unfold segb11.sl.f segb11.sl.H0_1
  refine Z_step_cov k 149 _ rfl _ _ _ ?_
  refine Z_step_at k 148 _ rfl _ _ ?_
  exact hg

/-- Window 12 of a zeroing trip: rows 163 to 177. -/
theorem segb12 (k : Fin k0_t2_loop.trips) (g : Buf (Elt F) ((b1W).view.loc (V d (cV L) (jV L))))
    (hw : k0_chk396 (k0_pay2 lanes 0#32 1#32 k) (broadcast S16 163#32)) (hg : Z (F := F) k.val 163 g) :
    (heldB1 (F := F) d L g : sProp 𝕄)
      ⊢ (wp frame (wpE (defs₀ (F := F)) 𝒱₀ (V d (cV L) (jV L)) none) Set.univ
          (k0_part25 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 163#32) hw)
          fun r => iprop(⌜r.1 = broadcast S16 178#32⌝ ∗ ∃ g', ⌜Z (F := F) k.val 178 g'⌝ ∗ heldB1 (F := F) d L g') : sProp 𝕄) := by
  simp only [k0_part25_eq_skeleton]; unfold k0_part25_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 178 _ _ _ ?_
  unfold segb12.sl.f_13 segb12.sl.H0_14
  refine Z_step_cov k 177 _ rfl _ _ _ ?_
  unfold segb12.sl.f_12 segb12.sl.H0_13
  refine Z_step_cov k 176 _ rfl _ _ _ ?_
  unfold segb12.sl.f_11 segb12.sl.H0_12
  refine Z_step_cov k 175 _ rfl _ _ _ ?_
  unfold segb12.sl.f_10 segb12.sl.H0_11
  refine Z_step_cov k 174 _ rfl _ _ _ ?_
  unfold segb12.sl.f_9 segb12.sl.H0_10
  refine Z_step_cov k 173 _ rfl _ _ _ ?_
  unfold segb12.sl.f_8 segb12.sl.H0_9
  refine Z_step_cov k 172 _ rfl _ _ _ ?_
  unfold segb12.sl.f_7 segb12.sl.H0_8
  refine Z_step_cov k 171 _ rfl _ _ _ ?_
  unfold segb12.sl.f_6 segb12.sl.H0_7
  refine Z_step_cov k 170 _ rfl _ _ _ ?_
  unfold segb12.sl.f_5 segb12.sl.H0_6
  refine Z_step_cov k 169 _ rfl _ _ _ ?_
  unfold segb12.sl.f_4 segb12.sl.H0_5
  refine Z_step_cov k 168 _ rfl _ _ _ ?_
  unfold segb12.sl.f_3 segb12.sl.H0_4
  refine Z_step_cov k 167 _ rfl _ _ _ ?_
  unfold segb12.sl.f_2 segb12.sl.H0_3
  refine Z_step_cov k 166 _ rfl _ _ _ ?_
  unfold segb12.sl.f_1 segb12.sl.H0_2
  refine Z_step_cov k 165 _ rfl _ _ _ ?_
  unfold segb12.sl.f segb12.sl.H0_1
  refine Z_step_cov k 164 _ rfl _ _ _ ?_
  refine Z_step_at k 163 _ rfl _ _ ?_
  exact hg

/-- Window 13 of a zeroing trip: rows 178 to 192. -/
theorem segb13 (k : Fin k0_t2_loop.trips) (g : Buf (Elt F) ((b1W).view.loc (V d (cV L) (jV L))))
    (hw : k0_chk411 (k0_pay2 lanes 0#32 1#32 k) (broadcast S16 178#32)) (hg : Z (F := F) k.val 178 g) :
    (heldB1 (F := F) d L g : sProp 𝕄)
      ⊢ (wp frame (wpE (defs₀ (F := F)) 𝒱₀ (V d (cV L) (jV L)) none) Set.univ
          (k0_part26 L xtW (Memref.isWhole_whole _) oW (Memref.isWhole_whole _) xvW (Memref.isWhole_whole _)
            b0W (Memref.isWhole_whole _) b1W (Memref.isWhole_whole _) cc0_scratch3 cc0_scratch4 cc0_scratch5
            k0_pay260 (k0_pay2 lanes 0#32 1#32 k) (broadcast S16 178#32) hw)
          fun r => iprop(⌜r.1 = broadcast S16 193#32⌝ ∗ ∃ g', ⌜Z (F := F) k.val 193 g'⌝ ∗ heldB1 (F := F) d L g') : sProp 𝕄) := by
  simp only [k0_part26_eq_skeleton]; unfold k0_part26_skel
  unfold SparseCore.vectorStoreIdx
  unfold heldB1
  iintro H0
  sl_exec (disch := exact zero_chk k _ (by decide))
  sl_step
  isplitr
  · ipureintro; rfl
  iexists _
  isplitr
  swap
  · iexact H0
  ipureintro
  refine Z_writes k.val 193 _ _ _ ?_
  unfold segb13.sl.f_13 segb13.sl.H0_14
  refine Z_step_cov k 192 _ rfl _ _ _ ?_
  unfold segb13.sl.f_12 segb13.sl.H0_13
  refine Z_step_cov k 191 _ rfl _ _ _ ?_
  unfold segb13.sl.f_11 segb13.sl.H0_12
  refine Z_step_cov k 190 _ rfl _ _ _ ?_
  unfold segb13.sl.f_10 segb13.sl.H0_11
  refine Z_step_cov k 189 _ rfl _ _ _ ?_
  unfold segb13.sl.f_9 segb13.sl.H0_10
  refine Z_step_cov k 188 _ rfl _ _ _ ?_
  unfold segb13.sl.f_8 segb13.sl.H0_9
  refine Z_step_cov k 187 _ rfl _ _ _ ?_
  unfold segb13.sl.f_7 segb13.sl.H0_8
  refine Z_step_cov k 186 _ rfl _ _ _ ?_
  unfold segb13.sl.f_6 segb13.sl.H0_7
  refine Z_step_cov k 185 _ rfl _ _ _ ?_
  unfold segb13.sl.f_5 segb13.sl.H0_6
  refine Z_step_cov k 184 _ rfl _ _ _ ?_
  unfold segb13.sl.f_4 segb13.sl.H0_5
  refine Z_step_cov k 183 _ rfl _ _ _ ?_
  unfold segb13.sl.f_3 segb13.sl.H0_4
  refine Z_step_cov k 182 _ rfl _ _ _ ?_
  unfold segb13.sl.f_2 segb13.sl.H0_3
  refine Z_step_cov k 181 _ rfl _ _ _ ?_
  unfold segb13.sl.f_1 segb13.sl.H0_2
  refine Z_step_cov k 180 _ rfl _ _ _ ?_
  unfold segb13.sl.f segb13.sl.H0_1
  refine Z_step_cov k 179 _ rfl _ _ _ ?_
  refine Z_step_at k 178 _ rfl _ _ ?_
  exact hg

end Cert.Kernel.ZeroSegs2

end
-- ==== Proof.K_ZeroTrip2.lean ====
/-
  One trip of the second zeroing loop: the thirteen windows in order, then the last seven rows.

  Each window hands the next the row vector it checked last; the buffer's zeroed rows grow from 0 to 193 over the
  windows and to 200 over the remaining stores, which is the next trip's starting claim.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_TileBase2
import proofs.«212700_g8504035246323_cont_9to1_m_53_19_alg».proof.Proof.K_ZeroFacts2
import proofs.«212700_g8504035246323_cont_9to1_m_53_19_alg».proof.Proof.K_ZeroViews2
import proofs.«212700_g8504035246323_cont_9to1_m_53_19_alg».proof.Proof.K_ZeroSegs2A
import proofs.«212700_g8504035246323_cont_9to1_m_53_19_alg».proof.Proof.K_ZeroSegs2B

noncomputable section

namespace Cert.Kernel.ZeroTrip2

open Cert.Kernel.ZeroSegs2
open Cert.Kernel Cert.Kernel.Gen Cert.Kernel.Tile Cert.Kernel.ZeroFacts2 Cert.Kernel.ZeroViews2 Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- One trip of the second zeroing loop: sixteen more columns of the second buffer are zero. -/
theorem zero_trip2 (v3 : IVec S16 32) (v5 c1 : BitVec 32) (k : Fin k0_t2_loop.trips) (g : Buf (Elt F) ((b1W).view.loc (V d (cV L) (jV L)))) (hg : Z (F := F) k.val 0 g) :
    (heldB1 (F := F) d L g : sProp 𝕄)
      ⊢ (wp frame (wpE (defs₀ (F := F)) 𝒱₀ (V d (cV L) (jV L)) none) Set.univ
          (k0_t2_body L xtW (Memref.isWhole_whole _) oW (Memref.isWhole_whole _) xvW (Memref.isWhole_whole _)
            b0W (Memref.isWhole_whole _) b1W (Memref.isWhole_whole _) cc0_scratch3 cc0_scratch4 cc0_scratch5
            lanes v3 k0_pay260 v5 c1 k ⟨⟩)
          fun _ => iprop(∃ g', ⌜Z (F := F) (k.val + 1) 0 g'⌝ ∗ heldB1 (F := F) d L g') : sProp 𝕄) := by
  unfold k0_t2_body
  rw [wp_bind]
  refine (segb1 d L k g hg).trans (wp_mono frame _ _ fun r => ?_)
  obtain ⟨v411, vr, hw⟩ := r
  iintro ⟨%hr, %g1, %hg1, H0⟩
  obtain ⟨rfl, rfl⟩ := hr
  dsimp only
  rw [wp_bind]
  iapply ((segb2 d L k g1 hw hg1).trans (wp_mono frame _ _ fun r => ?c2)) $$ H0
  case c2 =>
  obtain ⟨vr, hw⟩ := r
  iintro ⟨%hr, %g2, %hg2, H0⟩
  obtain rfl := hr
  dsimp only
  rw [wp_bind]
  iapply ((segb3 d L k g2 hw hg2).trans (wp_mono frame _ _ fun r => ?c3)) $$ H0
  case c3 =>
  obtain ⟨vr, hw⟩ := r
  iintro ⟨%hr, %g3, %hg3, H0⟩
  obtain rfl := hr
  dsimp only
  rw [wp_bind]
  iapply ((segb4 d L k g3 hw hg3).trans (wp_mono frame _ _ fun r => ?c4)) $$ H0
  case c4 =>
  obtain ⟨vr, hw⟩ := r
  iintro ⟨%hr, %g4, %hg4, H0⟩
  obtain rfl := hr
  dsimp only
  rw [wp_bind]
  iapply ((segb5 d L k g4 hw hg4).trans (wp_mono frame _ _ fun r => ?c5)) $$ H0
  case c5 =>
  obtain ⟨vr, hw⟩ := r
  iintro ⟨%hr, %g5, %hg5, H0⟩
  obtain rfl := hr
  dsimp only
  rw [wp_bind]
  iapply ((segb6 d L k g5 hw hg5).trans (wp_mono frame _ _ fun r => ?c6)) $$ H0
  case c6 =>
  obtain ⟨vr, hw⟩ := r
  iintro ⟨%hr, %g6, %hg6, H0⟩
  obtain rfl := hr
  dsimp only
  rw [wp_bind]
  iapply ((segb7 d L k g6 hw hg6).trans (wp_mono frame _ _ fun r => ?c7)) $$ H0
  case c7 =>
  obtain ⟨vr, hw⟩ := r
  iintro ⟨%hr, %g7, %hg7, H0⟩
  obtain rfl := hr
  dsimp only
  rw [wp_bind]
  iapply ((segb8 d L k g7 hw hg7).trans (wp_mono frame _ _ fun r => ?c8)) $$ H0
  case c8 =>
  obtain ⟨vr, hw⟩ := r
  iintro ⟨%hr, %g8, %hg8, H0⟩
  obtain rfl := hr
  dsimp only
  rw [wp_bind]
  iapply ((segb9 d L k g8 hw hg8).trans (wp_mono frame _ _ fun r => ?c9)) $$ H0
  case c9 =>
  obtain ⟨vr, hw⟩ := r
  iintro ⟨%hr, %g9, %hg9, H0⟩
  obtain rfl := hr
  dsimp only
  rw [wp_bind]
  iapply ((segb10 d L k g9 hw hg9).trans (wp_mono frame _ _ fun r => ?c10)) $$ H0
  case c10 =>
  obtain ⟨vr, hw⟩ := r
  iintro ⟨%hr, %g10, %hg10, H0⟩
  obtain rfl := hr
  dsimp only
  rw [wp_bind]
  iapply ((segb11 d L k g10 hw hg10).trans (wp_mono frame _ _ fun r => ?c11)) $$ H0
  case c11 =>
  obtain ⟨vr, hw⟩ := r
  iintro ⟨%hr, %g11, %hg11, H0⟩
  obtain rfl := hr
  dsimp only
  rw [wp_bind]
  iapply ((segb12 d L k g11 hw hg11).trans (wp_mono frame _ _ fun r => ?c12)) $$ H0
  case c12 =>
  obtain ⟨vr, hw⟩ := r
  iintro ⟨%hr, %g12, %hg12, H0⟩
  obtain rfl := hr
  dsimp only
  rw [wp_bind]
  iapply ((segb13 d L k g12 hw hg12).trans (wp_mono frame _ _ fun r => ?c13)) $$ H0
  case c13 =>
  obtain ⟨vr, hw⟩ := r
  iintro ⟨%hr, %g13, %hg13, H0⟩
  obtain rfl := hr
  dsimp only
  unfold SparseCore.vectorStoreIdx
  unfold heldB1
  sl_exec (disch := exact zero_chk k _ (by decide))
  sl_step
  iexists _
  isplitr
  swap
  · iexact H0
  ipureintro
  refine Z_full k.val _ ?_
  refine Z_writes k.val 200 _ _ _ ?_
  unfold zero_trip2.sl.f_5 zero_trip2.sl.H0_6
  refine Z_step_cov k 199 _ rfl _ _ _ ?_
  unfold zero_trip2.sl.f_4 zero_trip2.sl.H0_5
  refine Z_step_cov k 198 _ rfl _ _ _ ?_
  unfold zero_trip2.sl.f_3 zero_trip2.sl.H0_4
  refine Z_step_cov k 197 _ rfl _ _ _ ?_
  unfold zero_trip2.sl.f_2 zero_trip2.sl.H0_3
  refine Z_step_cov k 196 _ rfl _ _ _ ?_
  unfold zero_trip2.sl.f_1 zero_trip2.sl.H0_2
  refine Z_step_cov k 195 _ rfl _ _ _ ?_
  unfold zero_trip2.sl.f zero_trip2.sl.H0_1
  refine Z_step_cov k 194 _ rfl _ _ _ ?_
  refine Z_step_at k 193 _ rfl _ _ ?_
  exact hg13

end Cert.Kernel.ZeroTrip2

end
-- ==== Proof.K_XvFacts.lean ====
/-
  The table as the tile fetched it, and the range of a scatter's indices.

  The tile's copy of the table is the slab of the transposed table it was handed: 26 rows, its 512 columns. Its entries
  are class numbers below 100, so a scatter's row index (an entry, plus 0 or 100) stays below 200, and its column index
  (a multiple of sixteen up to 240, plus a lane) stays below 256.
-/
import proofs.«212700_g8504035246323_cont_9to1_m_53_19_alg».proof.Proof.K_TileBase
import proofs.«212700_g8504035246323_cont_9to1_m_53_19_alg».proof.Proof.K_ZeroFacts

noncomputable section

namespace Cert.Kernel.XvFacts

open Cert.Kernel Cert.Kernel.Gen Cert.Kernel.Tile Cert.Kernel.ZeroFacts Idealize.ShloMosaic

variable {F : FTy → Type} [FloatOps F]

/-- The tile's slab of the transposed table, as the copy reads it. -/
def slabRead (L : grid0.Coords) (fx : Vec F S26x16384 .i32) : Vec F S26x512 .i32 :=
  ReadAs.same.apply (View.read (Elt F)
    ((Memref.whole main_v0_scv : Memref sig .scVector .hbm S26x16384 .i32).slice (Rect.unit (s := S26x16384) (k0_off1 L) S26x512.size (k0_off1_inb L)) (fun _ => rfl)).view fx)

/-- The tile's copy of the table once the fetch has landed. -/
def xvC (L : grid0.Coords) (fx : Vec F S26x16384 .i32) (fv : Vec F S26x512 .i32) : Vec F S26x512 .i32 :=
  View.write (Elt F) (Memref.whole cc0_scratch0 : Memref sig .scVector .vmem S26x512 .i32).view fv (slabRead L fx) Finset.univ

theorem xvC_eq (L : grid0.Coords) (fx : Vec F S26x16384 .i32) (fv : Vec F S26x512 .i32) : xvC L fx fv = slabRead L fx :=
  View.write_whole_univ cc0_scratch0 fv (slabRead L fx)

/-- Every entry of the fetched table is an entry of the transposed table. -/
theorem xvC_lt (L : grid0.Coords) (fx : Vec F S26x16384 .i32) (fv : Vec F S26x512 .i32) (hfx : ∀ i, (fx i : BitVec 32).toNat < 100)
    (i : S26x512.Idx) : (xvC L fx fv i : BitVec 32).toNat < 100 := by
  rw [xvC_eq]; exact hfx _

/-- A scatter's indices are in range: an entry below 100 plus 0 or 100, and a lane of a sixteen-column block. -/
theorem scat_chk (ld : IVec S1x16 32) (hld : ∀ y, (ld y).toNat < 100) (half base : BitVec 32) (hh : half.toNat ≤ 100) (hb : base.toNat ≤ 240)
    (hs : S1x16.ShapeCasts S16) (a : Fin 2) (x : S16.Idx) :
    ((![addi (shapeCast S16 ld hs) (broadcast S16 half), addi (broadcast S16 base) lanes] : Fin 2 → IVec S16 32) a x).toNat < S200x256.size a := by
  have hx : (x 0).val < 16 := (x 0).isLt
  match a with
  | 0 =>
    show (addi (shapeCast S16 ld hs) (broadcast S16 half) x).toNat < 200
    have h1 : (shapeCast S16 ld hs x).toNat < 100 := hld _
    simp only [addi, IntOp.addi, broadcast, BitVec.toNat_add]
    omega
  | 1 =>
    show (addi (broadcast S16 base) lanes x).toNat < 256
    simp only [addi, IntOp.addi, broadcast, iota, List.foldl, BitVec.toNat_add, BitVec.toNat_ofNat, Matrix.cons_val_zero]
    omega

end Cert.Kernel.XvFacts

end
-- ==== Proof.K_LoopInv.lean ====
/-
  The main loop's invariant.

  Before trip `k` (`k = 0 .. 12`; the loop makes trips 0 .. 11) chunks `2 k` and `2 k + 1` of the tile's output slab are
  being copied out of the first and the second buffer; every earlier chunk has landed and holds its part of the
  coding; every later chunk is still as the tile found it. What a copy delivers when it lands is stated once, the same
  for every chunk: the buffer back, holding the chunk's one-hot picture, and the chunk of the output holding the coding.
-/
import proofs.«212700_g8504035246323_cont_9to1_m_53_19_alg».proof.Proof.K_TileBase2
import proofs.«212700_g8504035246323_cont_9to1_m_53_19_alg».proof.Proof.K_Contract
import proofs.«212700_g8504035246323_cont_9to1_m_53_19_alg».proof.Proof.K_XvFacts
import proofs.«212700_g8504035246323_cont_9to1_m_53_19_alg».proof.Proof.ScatterFacts
import proofs.«212700_g8504035246323_cont_9to1_m_53_19_alg».proof.Proof.K_Geometry

noncomputable section

namespace Cert.Kernel.LoopInv

open Cert.Kernel Cert.Kernel.Gen Cert.Kernel.Tile Cert.Kernel.Contract Cert.Kernel.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The two table rows chunk `q` codes: `2 (q / 2)` and the next. -/
def row0 (q : Nat) : Fin 26 := ⟨(2 * (q / 2)) % 26, Nat.mod_lt _ (by decide)⟩
def row1 (q : Nat) : Fin 26 := ⟨(2 * (q / 2) + 1) % 26, Nat.mod_lt _ (by decide)⟩
theorem row0_val {q : Nat} (hq : q < 26) : (row0 q).val = 2 * (q / 2) := by unfold row0; show (2 * (q / 2)) % 26 = _; omega
theorem row1_val {q : Nat} (hq : q < 26) : (row1 q).val = 2 * (q / 2) + 1 := by unfold row1; show (2 * (q / 2) + 1) % 26 = _; omega

/-- A buffer holds chunk `q`'s finished picture of the table copy. -/
def Pic (L : grid0.Coords) (xt : Vec F S26x16384 .i32) (fv : Vec F S26x512 .i32) (q : Nat) (g : Vec F S200x256 .i32) : Prop :=
  ScatterFacts.OH (XvFacts.xvC L xt fv) (row0 q) (row1 q) (256 * (q % 2)) 32 g

/-- What chunk `q`'s copy out of the first buffer delivers when it lands. -/
def deliv0 (d : Dev nD) (L : grid0.Coords) (xt : Vec F S26x16384 .i32) (fv : Vec F S26x512 .i32) (q : Nat) : sProp 𝕄 :=
  iprop(∃ g, ⌜Pic L xt fv q g⌝ ∗ heldB0 (F := F) d L g ∗ (oLoc d ↦[chunk (wOf L) q]{fullShare} (Spec.oneHotT xt : Buf (Elt F) (oLoc d))))
/-- The same out of the second buffer. -/
def deliv1 (d : Dev nD) (L : grid0.Coords) (xt : Vec F S26x16384 .i32) (fv : Vec F S26x512 .i32) (q : Nat) : sProp 𝕄 :=
  iprop(∃ g, ⌜Pic L xt fv q g⌝ ∗ heldB1 (F := F) d L g ∗ (oLoc d ↦[chunk (wOf L) q]{fullShare} (Spec.oneHotT xt : Buf (Elt F) (oLoc d))))

/-- The units one copy of a 200 x 256 buffer of 32-bit words credits its semaphore. -/
abbrev AMT : Nat := 1638400

/-- The invariant before trip `k`. -/
def tinv (d : Dev nD) (L : grid0.Coords) (O : CellTallies nD τ sig (HIx 1)) (W : Waits sig (HIx 1))
    (xt : Vec F S26x16384 .i32) (fv : Vec F S26x512 .i32) (fo : Vec F S2600x16384 .i32) (k : Nat) (_ : PUnit) : sProp 𝕄 :=
  iprop(Transfers.MayWaits (V d (cV L) (jV L)) (none : HIx 1) O
    ∗ ((Memref.whole cc0_scratch0 : Memref sig .scVector .vmem S26x512 .i32).view.loc (V d (cV L) (jV L)) ↦{fullShare} XvFacts.xvC L xt fv)
    ∗ Transfers.Flight countersEmb (V d (cV L) (jV L)) (SemLoc.dma cc0_scratch3.sem) (default : HIx 1) AMT (deliv0 d L xt fv (2 * k))
    ∗ Transfers.Flight countersEmb (V d (cV L) (jV L)) (SemLoc.dma cc0_scratch4.sem) (default : HIx 1) AMT (deliv1 d L xt fv (2 * k + 1))
    ∗ (bigSep (Finset.range (2 * k)) fun q => oLoc d ↦[chunk (wOf L) q]{fullShare} (Spec.oneHotT xt : Buf (Elt F) (oLoc d)))
    ∗ (bigSep ((Finset.range 26).filter fun q => 2 * k + 2 ≤ q) fun q => oLoc d ↦[chunk (wOf L) q]{fullShare} (fo : Buf (Elt F) (oLoc d)))
    ∗ ∃ W', ⌜∀ p ∈ W', p ∈ W ∨ p.2 = none⌝ ∗ owes (V d (cV L) (jV L)) O W')

end Cert.Kernel.LoopInv

end
-- ==== Proof.K_ChunkValue.lean ====
/-
  What a chunk of the coding holds after its buffer is copied out.

  The tile's copy of the table is its slab of the transposed table: entry `(c, col)` of the copy is entry
  `(c, 512 w + col)` of the table. A buffer finished for chunk `q` holds 1 at `(r, cc)` exactly when the copy's row
  `2 (q / 2) + r / 100` holds `r % 100` in column `256 (q % 2) + cc`. Copied through the slice whose corner is
  `(200 (q / 2), 512 w + 256 (q % 2))`, it lands at `(200 (q / 2) + r, 512 w + 256 (q % 2) + cc)`; since
  `(200 (q / 2) + r) / 100 = 2 (q / 2) + r / 100` and `(200 (q / 2) + r) % 100 = r % 100`, that entry is the one-hot coding
  of the table there.
-/
import proofs.«212700_g8504035246323_cont_9to1_m_53_19_alg».proof.Proof.K_Geometry
import proofs.«212700_g8504035246323_cont_9to1_m_53_19_alg».proof.Proof.ScatterFacts
import proofs.«212700_g8504035246323_cont_9to1_m_53_19_alg».proof.Proof.K_XvFacts
import proofs.«212700_g8504035246323_cont_9to1_m_53_19_alg».proof.Proof.K_Spec
import proofs.«212700_g8504035246323_cont_9to1_m_53_19_alg».proof.Proof.K_Contract

noncomputable section

namespace Cert.Kernel.ChunkValue

open Cert.Kernel Cert.Kernel.Gen Cert.Kernel.Tile Cert.Kernel.Contract Cert.Kernel.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

theorem wOf_lt (L : grid0.Coords) : wOf L < 32 := by
  have h0 : (L 0).val < 2 := (L 0).isLt
  have h1 : (L 1).val < 16 := (L 1).isLt
  unfold wOf; omega

/-- Entry `(c, col)` of the tile's copy of the table is entry `(c, 512 w + col)` of the table. -/
theorem slabRead_apply (L : grid0.Coords) (xt : Vec F S26x16384 .i32) (i : S26x512.Idx) :
    ∃ h : 512 * wOf L + (i 1).val < 16384,
      XvFacts.slabRead L xt i = xt (ValueIdx.ix2 (i 0) ⟨512 * wOf L + (i 1).val, h⟩) := by
  have hi1 : (i 1).val < 512 := ValueIdx.idx2_lt1 i
  have hw := wOf_lt L
  refine ⟨by omega, ?_⟩
  show xt ((Rect.unit (s := S26x16384) (k0_off1 L) S26x512.size (k0_off1_inb L)).emb i) = _
  congr 1
  funext a
  apply Fin.ext
  rw [Rect.emb_apply, Rect.off_unit, Rect.stride_unit]
  have hoff0 : k0_off1 L 0 = 0 := by rw [k0_off1_eq]; rfl
  have hoff1 : k0_off1 L 1 = 1024 * (L 1).val + 512 * (L 0).val := by rw [k0_off1_eq]; rfl
  match a with
  | ⟨0, _⟩ => show k0_off1 L 0 + 1 * (i 0).val = (i 0).val; omega
  | ⟨1, _⟩ =>
    show k0_off1 L 1 + 1 * (i 1).val = 512 * wOf L + (i 1).val
    unfold wOf; omega

/-- The same for the copy once it has landed in the tile's storage. -/
theorem xvC_at (L : grid0.Coords) (xt : Vec F S26x16384 .i32) (fv : Vec F S26x512 .i32) (c : Fin 26) (col : Nat)
    (hcol : col < 512) (h : 512 * wOf L + col < 16384) :
    XvFacts.xvC L xt fv (ValueIdx.ix2 c ⟨col, hcol⟩) = xt (ValueIdx.ix2 c ⟨512 * wOf L + col, h⟩) := by
  rw [XvFacts.xvC_eq]
  obtain ⟨_, e⟩ := slabRead_apply L xt (ValueIdx.ix2 c ⟨col, hcol⟩)
  exact e

/-- A buffer written whole through a 200 x 256 slice of the coding: the entry at the slice's corner plus `j` takes the
    buffer's entry `j`. -/
theorem write_oSl_apply (off : Fin 2 → Nat) (inb : ∀ a, off a + S200x256.size a ≤ S2600x16384.size a)
    (fo : Vec F S2600x16384 .i32) (g : Vec F S200x256 .i32) (j : S200x256.Idx) (i : S2600x16384.Idx)
    (h0 : (i 0).val = off 0 + (j 0).val) (h1 : (i 1).val = off 1 + (j 1).val) :
    View.write (Elt F) ((Memref.whole main_v1_scv : Memref sig .scVector .hbm S2600x16384 .i32).slice
      (Rect.unit (s := S2600x16384) off S200x256.size inb) (fun _ => rfl)).view fo g Finset.univ i = g j := by
  have hemb : ((Memref.whole main_v1_scv : Memref sig .scVector .hbm S2600x16384 .i32).slice
      (Rect.unit (s := S2600x16384) off S200x256.size inb) (fun _ => rfl)).view.emb j = i := by
    funext a
    apply Fin.ext
    show ((Rect.unit (s := S2600x16384) off S200x256.size inb).emb j a : Nat) = (i a).val
    rw [Rect.emb_apply, Rect.off_unit, Rect.stride_unit]
    match a with
    | ⟨0, _⟩ => show off 0 + 1 * (j 0).val = (i 0).val; omega
    | ⟨1, _⟩ => show off 1 + 1 * (j 1).val = (i 1).val; omega
  have hw := View.write_emb_of_mem (v := ((Memref.whole main_v1_scv : Memref sig .scVector .hbm S2600x16384 .i32).slice
      (Rect.unit (s := S2600x16384) off S200x256.size inb) (fun _ => rfl)).view) (Val := Elt F) fo g (Finset.mem_univ j)
  rw [hemb] at hw
  exact hw

/-- A points-to assertion on a set sees the contents on that set only. -/
theorem pointsTo_congr_on {ℓ : Loc nD τ sig} (S : Finset (Idx ℓ)) (f f' : Buf (Elt F) ℓ) (h : ∀ i ∈ S, f i = f' i) :
    (ℓ ↦[S]{fullShare} f : sProp (MT nD τ sig (Idealize.ShloMosaic.SparseCore.Cfg.HIx 1) (Elt F) ℕ Tile.UU ℕ))
      = ℓ ↦[S]{fullShare} f' :=
  pointsTo_congr h

/-- On its chunk, the coding after the copy of a finished buffer is the one-hot coding of the table: entry
    `(200 (q / 2) + r, 512 w + 256 (q % 2) + cc)` takes the buffer's `(r, cc)`, which is 1 exactly when the table's row
    `2 (q / 2) + r / 100` holds `r % 100` in that column; and `(200 (q / 2) + r) / 100 = 2 (q / 2) + r / 100`,
    `(200 (q / 2) + r) % 100 = r % 100`. -/
theorem chunk_value (L : grid0.Coords) (q : Nat) (hq : q < 26) (off : Fin 2 → Nat)
    (inb : ∀ a, off a + S200x256.size a ≤ S2600x16384.size a)
    (hoff : off = ![200 * (q / 2), 512 * wOf L + 256 * (q % 2)])
    (xt : Vec F S26x16384 .i32) (hx : ∀ i, (xt i : BitVec 32).toNat < 100) (fv : Vec F S26x512 .i32)
    (fo : Vec F S2600x16384 .i32) (g : Vec F S200x256 .i32)
    (c0 c1 : Fin 26) (hc0 : c0.val = 2 * (q / 2)) (hc1 : c1.val = 2 * (q / 2) + 1)
    (hg : ScatterFacts.OH (XvFacts.xvC L xt fv) c0 c1 (256 * (q % 2)) 32 g) :
    ∀ i ∈ chunk (wOf L) q,
      View.write (Elt F) ((Memref.whole main_v1_scv : Memref sig .scVector .hbm S2600x16384 .i32).slice
        (Rect.unit (s := S2600x16384) off S200x256.size inb) (fun _ => rfl)).view fo g Finset.univ i
        = Spec.oneHotT xt i := by
  intro i hi
  rw [mem_chunk] at hi
  obtain ⟨h1, h2, h3, h4⟩ := hi
  have hq2 : q % 2 < 2 := Nat.mod_lt _ (by omega)
  have hw := wOf_lt L
  have hr : (i 0).val - 200 * (q / 2) < 200 := by omega
  have hcc : (i 1).val - (512 * wOf L + 256 * (q % 2)) < 256 := by omega
  have hi0 : (i 0).val < 2600 := (i 0).isLt
  have hi1 : (i 1).val < 16384 := (i 1).isLt
  rw [write_oSl_apply off inb fo g (ValueIdx.ix2 ⟨_, hr⟩ ⟨_, hcc⟩) i
    (by rw [hoff]; show (i 0).val = 200 * (q / 2) + ((i 0).val - 200 * (q / 2)); omega)
    (by rw [hoff]; show (i 1).val = 512 * wOf L + 256 * (q % 2) + ((i 1).val - (512 * wOf L + 256 * (q % 2))); omega)]
  have hcol : 256 * (q % 2) + ((i 1).val - (512 * wOf L + 256 * (q % 2))) < 512 := by omega
  have hOH := ScatterFacts.OH_full (XvFacts.xvC L xt fv) (XvFacts.xvC_lt L xt fv hx) c0 c1 (256 * (q % 2)) (by omega) g hg
    (ValueIdx.ix2 ⟨_, hr⟩ ⟨_, hcc⟩)
  have hX := xvC_at L xt fv (if (i 0).val - 200 * (q / 2) < 100 then c0 else c1)
    (256 * (q % 2) + ((i 1).val - (512 * wOf L + 256 * (q % 2)))) hcol (by omega)
  rw [hOH]
  unfold Spec.oneHotT
  refine if_congr ?_ rfl rfl
  show (XvFacts.xvC L xt fv (ValueIdx.ix2 (if (i 0).val - 200 * (q / 2) < 100 then c0 else c1)
      ⟨256 * (q % 2) + ((i 1).val - (512 * wOf L + 256 * (q % 2))), hcol⟩) : BitVec 32).toNat
        = ((i 0).val - 200 * (q / 2)) % 100 ↔ _
  rw [hX]
  have e : (ValueIdx.ix2 (if (i 0).val - 200 * (q / 2) < 100 then c0 else c1)
      (⟨512 * wOf L + (256 * (q % 2) + ((i 1).val - (512 * wOf L + 256 * (q % 2)))), by omega⟩ : Fin 16384) : S26x16384.Idx)
      = ValueIdx.ix2 ⟨(i 0).val / 100, Spec.div100_lt26 (i 0).isLt⟩ (i 1) := by
    funext a
    apply Fin.ext
    match a with
    | ⟨0, _⟩ =>
      show (if (i 0).val - 200 * (q / 2) < 100 then c0 else c1).val = (i 0).val / 100
      by_cases hlt : (i 0).val - 200 * (q / 2) < 100
      · rw [if_pos hlt, hc0]; omega
      · rw [if_neg hlt, hc1]; omega
    | ⟨1, _⟩ =>
      show 512 * wOf L + (256 * (q % 2) + ((i 1).val - (512 * wOf L + 256 * (q % 2)))) = (i 1).val
      omega
  rw [e]
  have e2 : ((i 0).val - 200 * (q / 2)) % 100 = (i 0).val % 100 := by omega
  rw [e2]
  exact Iff.rfl

end Cert.Kernel.ChunkValue

end
-- ==== Proof.K_ChunkSep.lean ====
/-
  Chunks apart and chunks delivered.

  The tile's slab of the coding is held as 26 chunks apart. The main loop's invariant speaks of the first `2 k` chunks
  (landed), of chunks `2 k` and `2 k + 1` (in flight) and of the chunks from `2 k + 2` on (untouched); the first part
  of this file moves two chunks at a time between those ranges. The second part says what a chunk's copy delivers when it
  lands: the chunk of the coding, written with the finished buffer through the chunk's slice, holds the one-hot coding
  of the table there, and the buffer comes back whole.
-/
import proofs.«212700_g8504035246323_cont_9to1_m_53_19_alg».proof.Proof.K_LoopInv
import proofs.«212700_g8504035246323_cont_9to1_m_53_19_alg».proof.Proof.K_ChunkValue
import proofs.«212700_g8504035246323_cont_9to1_m_53_19_alg».proof.Proof.K_Geometry
import proofs.«212700_g8504035246323_cont_9to1_m_53_19_alg».proof.Proof.K_TileBase2

noncomputable section

namespace Cert.Kernel.ChunkSep

open Cert.Kernel Cert.Kernel.Gen Cert.Kernel.Tile Cert.Kernel.Contract Cert.Kernel.Geometry
open Cert.Kernel.ChunkValue Cert.Kernel.LoopInv

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## Chunk numbers: the first `n` and the last from `n` on -/

/-- Two more chunks after the first `n`. -/
theorem range_add_two (n : ℕ) (Φ : ℕ → sProp 𝕄) :
    bigSep (Finset.range (n + 2)) Φ = iprop(bigSep (Finset.range n) Φ ∗ Φ n ∗ Φ (n + 1)) := by
  have e : Finset.range (n + 2) = insert (n + 1) (insert n (Finset.range n)) := by
    ext q
    simp only [Finset.mem_range, Finset.mem_insert]
    omega
  rw [e, bigSep_insert (by simp only [Finset.mem_insert, Finset.mem_range]; omega),
    bigSep_insert (by simp only [Finset.mem_range]; omega)]
  refine equiv_iff.mp
    ⟨(show iprop(Φ (n + 1) ∗ Φ n ∗ bigSep (Finset.range n) Φ) ⊢ iprop(bigSep (Finset.range n) Φ ∗ Φ n ∗ Φ (n + 1)) from ?_),
     (show iprop(bigSep (Finset.range n) Φ ∗ Φ n ∗ Φ (n + 1)) ⊢ iprop(Φ (n + 1) ∗ Φ n ∗ bigSep (Finset.range n) Φ) from ?_)⟩
  · iintro ⟨H1, H0, HR⟩
    isplitl [HR]; · iexact HR
    isplitl [H0]; · iexact H0
    iexact H1
  · iintro ⟨HR, H0, H1⟩
    isplitl [H1]; · iexact H1
    isplitl [H0]; · iexact H0
    iexact HR

/-- The chunks from `n` on are chunk `n`, chunk `n + 1` and those from `n + 2` on. -/
theorem tail_split (n : ℕ) (hn : n + 1 < 26) (Φ : ℕ → sProp 𝕄) :
    bigSep ((Finset.range 26).filter fun q => n ≤ q) Φ
      = iprop(Φ n ∗ Φ (n + 1) ∗ bigSep ((Finset.range 26).filter fun q => n + 2 ≤ q) Φ) := by
  have e : ((Finset.range 26).filter fun q => n ≤ q)
      = insert n (insert (n + 1) ((Finset.range 26).filter fun q => n + 2 ≤ q)) := by
    ext q
    simp only [Finset.mem_filter, Finset.mem_range, Finset.mem_insert]
    omega
  rw [e, bigSep_insert (by simp only [Finset.mem_insert, Finset.mem_filter, Finset.mem_range]; omega),
    bigSep_insert (by simp only [Finset.mem_filter, Finset.mem_range]; omega)]
  rfl

/-- From 0 on: all 26. -/
theorem tail_all (Φ : ℕ → sProp 𝕄) :
    bigSep ((Finset.range 26).filter fun q => 0 ≤ q) Φ = bigSep (Finset.range 26) Φ := by
  rw [Finset.filter_true_of_mem fun q _ => Nat.zero_le q]

/-- From 26 on: none. -/
theorem tail_none (Φ : ℕ → sProp 𝕄) :
    bigSep ((Finset.range 26).filter fun q => 26 ≤ q) Φ = iprop(emp) := by
  rw [Finset.filter_false_of_mem fun q hq => by have := Finset.mem_range.mp hq; omega]
  rfl

/-! ## What a chunk's copy delivers -/

/-- The chunk of the coding, written with a finished buffer through the chunk's slice, holds the coding there: the
    slice's elements are the chunk, and on the chunk the written array is the one-hot coding. -/
theorem oSl_pts (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ) : sProp 𝕄)
      = (oLoc d ↦[chunk (wOf L) q]{fullShare} (Spec.oneHotT xt : Buf (Elt F) (oLoc d))) := by
  refine Eq.trans (congrArg (fun S : Finset S2600x16384.Idx =>
    (oLoc d ↦[S]{fullShare} (View.write (Elt F) ((Memref.whole main_v1_scv : Memref sig .scVector .hbm S2600x16384 .i32).slice (Rect.unit (s := S2600x16384) off S200x256.size inb) (fun _ => rfl)).view fo g Finset.univ : Buf (Elt F) (oLoc d)) : sProp 𝕄))
    (set_oSl L q off inb hoff)) ?_
  exact pointsTo_congr_on (ℓ := oLoc d) (chunk (wOf L) q) _ _
    (chunk_value L q hq off inb hoff xt hx fv fo g (row0 q) (row1 q) (row0_val hq) (row1_val hq) hpic)

/-- What lands when chunk `q`'s copy out of the first buffer does: the chunk holding the coding, and the buffer back
    whole with its picture. -/
theorem deliv0_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch1 : Memref sig .scVector .vmem S200x256 .i32).view.loc (V d (cV L) (jV L)) ↦[(Memref.whole cc0_scratch1 : Memref sig .scVector .vmem S200x256 .i32).view.set]{fullShare} g)) : sProp 𝕄)
      ⊢ deliv0 d L xt fv q := by
  rw [oSl_pts d L xt hx fv fo q hq off inb hoff g hpic]
  unfold deliv0 heldB0
  simp only [Memref.view_whole, View.set_whole]
  iintro ⟨Ho, Hb⟩
  iexists g
  isplitr
  · ipureintro; exact hpic
  isplitl [Hb]
  · iexact Hb
  · iexact Ho

/-- The same out of the second buffer. -/
theorem deliv1_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch2 : Memref sig .scVector .vmem S200x256 .i32).view.loc (V d (cV L) (jV L)) ↦[(Memref.whole cc0_scratch2 : Memref sig .scVector .vmem S200x256 .i32).view.set]{fullShare} g)) : sProp 𝕄)
      ⊢ deliv1 d L xt fv q := by
  rw [oSl_pts d L xt hx fv fo q hq off inb hoff g hpic]
  unfold deliv1 heldB1
  simp only [Memref.view_whole, View.set_whole]
  iintro ⟨Ho, Hb⟩
  iexists g
  isplitr
  · ipureintro; exact hpic
  isplitl [Hb]
  · iexact Hb
  · iexact Ho

/-- A flight that delivers the written chunk and the buffer delivers what the invariant names. -/
theorem flight0_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) (N : ℕ) :
    (Transfers.Flight countersEmb (V d (cV L) (jV L)) (SemLoc.dma cc0_scratch3.sem) (default : HIx 1) N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch1 : Memref sig .scVector .vmem S200x256 .i32).view.loc (V d (cV L) (jV L)) ↦[(Memref.whole cc0_scratch1 : Memref sig .scVector .vmem S200x256 .i32).view.set]{fullShare} g)) : sProp 𝕄)
      ⊢ Transfers.Flight countersEmb (V d (cV L) (jV L)) (SemLoc.dma cc0_scratch3.sem) (default : HIx 1) N (deliv0 d L xt fv q) :=
  Transfers.Flight_mono countersEmb (V d (cV L) (jV L)) (deliv0_of d L xt hx fv fo q hq off inb hoff g hpic)

theorem flight1_of (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (g : Vec F S200x256 .i32) (hpic : Pic L xt fv q g) (N : ℕ) :
    (Transfers.Flight countersEmb (V d (cV L) (jV L)) (SemLoc.dma cc0_scratch4.sem) (default : HIx 1) N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo g Finset.univ)
        ∗ ((Memref.whole cc0_scratch2 : Memref sig .scVector .vmem S200x256 .i32).view.loc (V d (cV L) (jV L)) ↦[(Memref.whole cc0_scratch2 : Memref sig .scVector .vmem S200x256 .i32).view.set]{fullShare} g)) : sProp 𝕄)
      ⊢ Transfers.Flight countersEmb (V d (cV L) (jV L)) (SemLoc.dma cc0_scratch4.sem) (default : HIx 1) N (deliv1 d L xt fv q) :=
  Transfers.Flight_mono countersEmb (V d (cV L) (jV L)) (deliv1_of d L xt hx fv fo q hq off inb hoff g hpic)

end Cert.Kernel.ChunkSep

end
-- ==== Proof.K_TripB.lean ====
/-
  The delivery of a chunk's copy, in the spelling the copy's run leaves it.

  When the program enqueues the copy of a finished buffer to a chunk's slice, the run records the chunk's contents as
  one write of the whole slice, with the payload the copy read from the buffer. A whole buffer read is its contents, and a
  write of the whole of a slice is the write through the slice; so on the slice's elements this is the array the earlier
  statements speak of, and the flight delivers what the main loop's invariant names.
-/
import proofs.«212700_g8504035246323_cont_9to1_m_53_19_alg».proof.Proof.K_ChunkSep

noncomputable section

namespace Cert.Kernel.TripB

open Cert.Kernel Cert.Kernel.Gen Cert.Kernel.Tile Cert.Kernel.Contract Cert.Kernel.Geometry
open Cert.Kernel.ChunkValue Cert.Kernel.LoopInv Cert.Kernel.ChunkSep

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-! ## The delivery as the copy's run spells it

  The run records the destination's contents as one write of the whole slice with the payload the copy read from the
  buffer. Reading a whole buffer gives its contents, and a write of the whole of a slice is the write through the slice:
  on the slice's elements the two spellings hold the same array. -/

/-- One write of the whole slice is the write through the slice, on the slice's elements. -/
theorem writes_whole_eq_on (off : Fin 2 → Nat) (inb : ∀ a, off a + S200x256.size a ≤ S2600x16384.size a)
    (fo : Vec F S2600x16384 .i32) (w : Vec F S200x256 .i32) :
    ∀ i ∈ ((Memref.whole main_v1_scv : Memref sig .scVector .hbm S2600x16384 .i32).slice (Rect.unit (s := S2600x16384) off S200x256.size inb) (fun _ => rfl)).view.set,
      ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, w⟩] i
        = View.write (Elt F) ((Memref.whole main_v1_scv : Memref sig .scVector .hbm S2600x16384 .i32).slice (Rect.unit (s := S2600x16384) off S200x256.size inb) (fun _ => rfl)).view fo w Finset.univ i := by
  intro i hi
  obtain ⟨x, -, rfl⟩ := Finset.mem_map.mp hi
  rw [View.write_emb_of_mem _ _ (Finset.mem_univ x)]
  have h := View.write_emb_of_mem (v := ((Memref.whole main_v1_scv : Memref sig .scVector .hbm S2600x16384 .i32).slice (Rect.unit (s := S2600x16384) off S200x256.size inb) (fun _ => rfl)).view.slice (Rect.whole (Rect.unit (s := S2600x16384) off S200x256.size inb).shape)) (Val := Elt F) fo w (Finset.mem_univ x)
  have hx : (Rect.whole (Rect.unit (s := S2600x16384) off S200x256.size inb).shape).emb x = x := by
    funext a; apply Fin.ext; show 0 + 1 * (x a : Nat) = (x a : Nat); omega
  rw [View.emb_slice, Function.Embedding.trans_apply, hx] at h
  exact h

/-- What lands, in the run's spelling, when chunk `q`'s copy out of the first buffer does. -/
theorem deliv0_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩])
        ∗ ((Memref.whole cc0_scratch1 : Memref sig .scVector .vmem S200x256 .i32).view.loc (V d (cV L) (jV L)) ↦[(Memref.whole cc0_scratch1 : Memref sig .scVector .vmem S200x256 .i32).view.set]{fullShare} C)) : sProp 𝕄)
      ⊢ deliv0 d L xt fv q := by
  have e : ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩]) : sProp 𝕄)
      = (((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo C Finset.univ) :=
    pointsTo_congr_on (ℓ := ((Memref.whole main_v1_scv : Memref sig .scVector .hbm S2600x16384 .i32).slice (Rect.unit (s := S2600x16384) off S200x256.size inb) (fun _ => rfl)).view.loc (V d (cV L) (jV L))) ((Memref.whole main_v1_scv : Memref sig .scVector .hbm S2600x16384 .i32).slice (Rect.unit (s := S2600x16384) off S200x256.size inb) (fun _ => rfl)).view.set _ _ (writes_whole_eq_on off inb fo C)
  rw [e]
  exact deliv0_of d L xt hx fv fo q hq off inb hoff C hpic

/-- The same out of the second buffer. -/
theorem deliv1_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) :
    (iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩])
        ∗ ((Memref.whole cc0_scratch2 : Memref sig .scVector .vmem S200x256 .i32).view.loc (V d (cV L) (jV L)) ↦[(Memref.whole cc0_scratch2 : Memref sig .scVector .vmem S200x256 .i32).view.set]{fullShare} C)) : sProp 𝕄)
      ⊢ deliv1 d L xt fv q := by
  have e : ((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩]) : sProp 𝕄)
      = (((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} View.write (Elt F) ((Memref.whole main_v1_scv : Memref sig .scVector .hbm S2600x16384 .i32).slice (Rect.unit (s := S2600x16384) off S200x256.size inb) (fun _ => rfl)).view fo C Finset.univ) :=
    pointsTo_congr_on (ℓ := ((Memref.whole main_v1_scv : Memref sig .scVector .hbm S2600x16384 .i32).slice (Rect.unit (s := S2600x16384) off S200x256.size inb) (fun _ => rfl)).view.loc (V d (cV L) (jV L))) ((Memref.whole main_v1_scv : Memref sig .scVector .hbm S2600x16384 .i32).slice (Rect.unit (s := S2600x16384) off S200x256.size inb) (fun _ => rfl)).view.set _ _ (writes_whole_eq_on off inb fo C)
  rw [e]
  exact deliv1_of d L xt hx fv fo q hq off inb hoff C hpic

/-- A flight delivering the run's spelling delivers what the invariant names; the semaphore, the index and the amount are
    whatever the flight's are. -/
theorem flight0_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) (sm : SemLoc sig) (ι : HIx 1) (N : ℕ) :
    (Transfers.Flight countersEmb (V d (cV L) (jV L)) sm ι N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch1 : Memref sig .scVector .vmem S200x256 .i32).view C)⟩])
        ∗ ((Memref.whole cc0_scratch1 : Memref sig .scVector .vmem S200x256 .i32).view.loc (V d (cV L) (jV L)) ↦[(Memref.whole cc0_scratch1 : Memref sig .scVector .vmem S200x256 .i32).view.set]{fullShare} C)) : sProp 𝕄)
      ⊢ Transfers.Flight countersEmb (V d (cV L) (jV L)) sm ι N (deliv0 d L xt fv q) :=
  Transfers.Flight_mono countersEmb (V d (cV L) (jV L)) (deliv0_exec d L xt hx fv fo q hq off inb hoff C hpic)

theorem flight1_exec (d : Dev nD) (L : grid0.Coords) (xt : Vec F S26x16384 .i32) (hx : ∀ i, (xt i : BitVec 32).toNat < 100)
    (fv : Vec F S26x512 .i32) (fo : Vec F S2600x16384 .i32) (q : Nat) (hq : q < 26) (off : Fin 2 → Nat)
    (inb : ∀ a, off a + S200x256.size a ≤ S2600x16384.size a) (hoff : off = ![200 * (q / 2), 512 * wOf L + 256 * (q % 2)])
    (C : Vec F S200x256 .i32) (hpic : Pic L xt fv q C) (sm : SemLoc sig) (ι : HIx 1) (N : ℕ) :
    (Transfers.Flight countersEmb (V d (cV L) (jV L)) sm ι N
        iprop((((Memref.whole main_v1_scv : Memref sig .scVector .hbm S2600x16384 .i32).slice (Rect.unit (s := S2600x16384) off S200x256.size inb) (fun _ => rfl)).view.loc (V d (cV L) (jV L)) ↦[((Memref.whole main_v1_scv : Memref sig .scVector .hbm S2600x16384 .i32).slice (Rect.unit (s := S2600x16384) off S200x256.size inb) (fun _ => rfl)).view.set]{fullShare} ((Memref.whole main_v1_scv : Memref sig .scVector .hbm S2600x16384 .i32).slice (Rect.unit (s := S2600x16384) off S200x256.size inb) (fun _ => rfl)).view.writes (Elt F) fo [⟨Rect.whole (Rect.unit (s := S2600x16384) off S200x256.size inb).shape, ReadAs.same.apply (View.read (Elt F) (Memref.whole cc0_scratch2 : Memref sig .scVector .vmem S200x256 .i32).view C)⟩])
        ∗ ((Memref.whole cc0_scratch2 : Memref sig .scVector .vmem S200x256 .i32).view.loc (V d (cV L) (jV L)) ↦[(Memref.whole cc0_scratch2 : Memref sig .scVector .vmem S200x256 .i32).view.set]{fullShare} C)) : sProp 𝕄)
      ⊢ Transfers.Flight countersEmb (V d (cV L) (jV L)) sm ι N (deliv1 d L xt fv q) :=
  Transfers.Flight_mono countersEmb (V d (cV L) (jV L)) (deliv1_exec d L xt hx fv fo q hq off inb hoff C hpic)

end Cert.Kernel.TripB

end
-- ==== Proof.K_LoopEnds.lean ====
/-
  The two ends of the main loop.

  Before the first trip chunks 0 and 1 are in flight out of the two buffers, no chunk has landed, and chunks 2 .. 25 are
  as the tile found them: that is the loop's invariant at 0. After the last trip the invariant at 12 speaks of chunks 24
  and 25 in flight, chunks 0 .. 23 landed and no chunk left; once the two flights have landed, the 26 chunks together
  are the tile's slab of the coding, the two buffers are back, and everything the run must hand back is there.
-/
import proofs.«212700_g8504035246323_cont_9to1_m_53_19_alg».proof.Proof.K_LoopInv
import proofs.«212700_g8504035246323_cont_9to1_m_53_19_alg».proof.Proof.K_ChunkSep
import proofs.«212700_g8504035246323_cont_9to1_m_53_19_alg».proof.Proof.K_TileBody
import proofs.«212700_g8504035246323_cont_9to1_m_53_19_alg».proof.Proof.K_Geometry

noncomputable section

namespace Cert.Kernel.LoopEnds

open Cert.Kernel Cert.Kernel.Gen Cert.Kernel.Tile Cert.Kernel.Contract Cert.Kernel.Geometry

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

local notation "𝕄" => MT nD τ sig (HIx 1) (Elt F) ℕ UU ℕ

/-- The invariant before the first trip, from the two flights at their deliveries for chunks 0 and 1: nothing has
    landed yet, and the chunks from 2 on are untouched. -/
theorem tinv_zero (d : Dev nD) (L : grid0.Coords) (O : CellTallies nD τ sig (HIx 1)) (W : Waits sig (HIx 1))
    (xt : Vec F S26x16384 .i32) (fv : Vec F S26x512 .i32) (fo : Vec F S2600x16384 .i32)
    (W' : Waits sig (HIx 1)) (hW' : ∀ p ∈ W', p ∈ W ∨ p.2 = none) :
    (iprop(Transfers.MayWaits (V d (cV L) (jV L)) (none : HIx 1) O
        ∗ ((Memref.whole cc0_scratch0 : Memref sig .scVector .vmem S26x512 .i32).view.loc (V d (cV L) (jV L)) ↦{fullShare} XvFacts.xvC L xt fv)
        ∗ Transfers.Flight countersEmb (V d (cV L) (jV L)) (SemLoc.dma cc0_scratch3.sem) (default : HIx 1) LoopInv.AMT (LoopInv.deliv0 d L xt fv 0)
        ∗ Transfers.Flight countersEmb (V d (cV L) (jV L)) (SemLoc.dma cc0_scratch4.sem) (default : HIx 1) LoopInv.AMT (LoopInv.deliv1 d L xt fv 1)
        ∗ (bigSep ((Finset.range 26).filter fun q => 2 ≤ q) fun q => oLoc d ↦[chunk (wOf L) q]{fullShare} (fo : Buf (Elt F) (oLoc d)))
        ∗ owes (V d (cV L) (jV L)) O W') : sProp 𝕄)
      ⊢ LoopInv.tinv d L O W xt fv fo 0 ⟨⟩ := by
  unfold LoopInv.tinv
  rw [show Finset.range (2 * 0) = (∅ : Finset ℕ) from rfl, bigSep_empty]
  iintro ⟨HM, Hv, HF0, HF1, HR, HO⟩
  isplitl [HM]; · iexact HM
  isplitl [Hv]; · iexact Hv
  isplitl [HF0]; · iexact HF0
  isplitl [HF1]; · iexact HF1
  isplitr [HR HO]; · iempintro
  isplitl [HR]; · iexact HR
  iexists W'
  isplitr
  · ipureintro; exact hW'
  · iexact HO

/-- The invariant after the last trip, with its chunk numbers written out: chunks 24 and 25 in flight, chunks 0 .. 23
    landed, none left untouched. -/
theorem tinv_last (d : Dev nD) (L : grid0.Coords) (O : CellTallies nD τ sig (HIx 1)) (W : Waits sig (HIx 1))
    (xt : Vec F S26x16384 .i32) (fv : Vec F S26x512 .i32) (fo : Vec F S2600x16384 .i32) :
    LoopInv.tinv d L O W xt fv fo 12 ⟨⟩
      ⊢ (iprop(Transfers.MayWaits (V d (cV L) (jV L)) (none : HIx 1) O
        ∗ ((Memref.whole cc0_scratch0 : Memref sig .scVector .vmem S26x512 .i32).view.loc (V d (cV L) (jV L)) ↦{fullShare} XvFacts.xvC L xt fv)
        ∗ Transfers.Flight countersEmb (V d (cV L) (jV L)) (SemLoc.dma cc0_scratch3.sem) (default : HIx 1) LoopInv.AMT (LoopInv.deliv0 d L xt fv 24)
        ∗ Transfers.Flight countersEmb (V d (cV L) (jV L)) (SemLoc.dma cc0_scratch4.sem) (default : HIx 1) LoopInv.AMT (LoopInv.deliv1 d L xt fv 25)
        ∗ (bigSep (Finset.range 24) fun q => oLoc d ↦[chunk (wOf L) q]{fullShare} (Spec.oneHotT xt : Buf (Elt F) (oLoc d)))
        ∗ (bigSep ((Finset.range 26).filter fun q => 26 ≤ q) fun q => oLoc d ↦[chunk (wOf L) q]{fullShare} (fo : Buf (Elt F) (oLoc d)))
        ∗ ∃ W', ⌜∀ p ∈ W', p ∈ W ∨ p.2 = none⌝ ∗ owes (V d (cV L) (jV L)) O W') : sProp 𝕄) := by
  unfold LoopInv.tinv
  exact .refl

/-- After the last trip and the two last waits: the two last chunks have landed beside the first 24, which makes the
    slab's 26 chunks; the buffers came back with them; nothing is left untouched. -/
theorem finish (d : Dev nD) (L : grid0.Coords) (O : CellTallies nD τ sig (HIx 1)) (W : Waits sig (HIx 1))
    (xt : Vec F S26x16384 .i32) (fv : Vec F S26x512 .i32) (fo : Vec F S2600x16384 .i32) :
    (iprop(((TileBody.xtSl L).view.loc (V d (cV L) (jV L)) ↦[(TileBody.xtSl L).view.set]{fullShare} xt)
        ∗ ((Memref.whole cc0_scratch0 : Memref sig .scVector .vmem S26x512 .i32).view.loc (V d (cV L) (jV L)) ↦{fullShare} XvFacts.xvC L xt fv)
        ∗ LoopInv.deliv0 d L xt fv 24 ∗ LoopInv.deliv1 d L xt fv 25
        ∗ (bigSep (Finset.range 24) fun q => oLoc d ↦[chunk (wOf L) q]{fullShare} (Spec.oneHotT xt : Buf (Elt F) (oLoc d)))
        ∗ (bigSep ((Finset.range 26).filter fun q => 26 ≤ q) fun q => oLoc d ↦[chunk (wOf L) q]{fullShare} (fo : Buf (Elt F) (oLoc d)))
        ∗ semVal ((V d (cV L) (jV L)), SemLoc.dma cc0_scratch3.sem) 0 ∗ semVal ((V d (cV L) (jV L)), SemLoc.dma cc0_scratch4.sem) 0
        ∗ semVal ((V d (cV L) (jV L)), SemLoc.dma cc0_scratch5.sem) 0
        ∗ ∃ W', ⌜∀ p ∈ W', p ∈ W ∨ p.2 = none⌝ ∗ owes (V d (cV L) (jV L)) O W') : sProp 𝕄)
      ⊢ TileBody.postQ d L O W xt := by
  have e26 : bigSep (Finset.range 26) (fun q => oLoc d ↦[chunk (wOf L) q]{fullShare} (Spec.oneHotT xt : Buf (Elt F) (oLoc d)))
      = (iprop(bigSep (Finset.range 24) (fun q => oLoc d ↦[chunk (wOf L) q]{fullShare} (Spec.oneHotT xt : Buf (Elt F) (oLoc d)))
          ∗ (oLoc d ↦[chunk (wOf L) 24]{fullShare} (Spec.oneHotT xt : Buf (Elt F) (oLoc d)))
          ∗ (oLoc d ↦[chunk (wOf L) 25]{fullShare} (Spec.oneHotT xt : Buf (Elt F) (oLoc d)))) : sProp 𝕄) :=
    ChunkSep.range_add_two 24 _
  unfold TileBody.postQ LoopInv.deliv0 LoopInv.deliv1
  rw [ChunkSep.tail_none]
  iintro ⟨Hx, Hv, ⟨%g0, %_hp0, H0, HL24⟩, ⟨%g1, %_hp1, H1, HL25⟩, HL, -, HsA, HsB, HsC, HO⟩
  isplitl [Hx]; · iexact Hx
  isplitl [HL HL24 HL25]
  · iapply (Entails.of_eq e26.symm)
    isplitl [HL]; · iexact HL
    isplitl [HL24]; · iexact HL24
    iexact HL25
  isplitl [Hv]; · iexists _; iexact Hv
  isplitl [H0]; · iexists g0; iexact H0
  isplitl [H1]; · iexists g1; iexact H1
  isplitl [HsA]; · iexact HsA
  isplitl [HsB]; · iexact HsB
  isplitl [HsC]; · iexact HsC
  iexact HO

end Cert.Kernel.LoopEnds

end
-- ==== Proof.K_LoadFacts.lean ====
/-
  The index vectors of a scatter's store, read lane by lane.

  A store of a chunk addresses the buffer through a row vector and a column vector. The row vector is a load of sixteen
  consecutive entries of one row of the 26 x 512 table of class numbers — row `r`, columns `c .. c + 15` — recast from
  one row of sixteen to a vector of sixteen lanes, plus a constant `hv` (0 for the first half of the chunk, 100 for the
  second): lane `x` holds `xv[r, c + x] + hv`, and since the class numbers are below 100 and `hv ≤ 100` the 32-bit sum is
  the sum of naturals (`row_of_load`). The column vector is a constant `base ≤ 240` plus the lane number: lane `x` holds
  `base + x` (`col_of_base`). `row_hrow` and `col_hcol` restate the two for store `n` of a chunk with table rows `c0`,
  `c1` and column base `hb`: `r` is `c0` or `c1` by the half `n / 16`, `c = hb + 16 (n % 16)`, `hv = 100 (n / 16)` and
  `base = 16 (n % 16)`.
-/
import proofs.«212700_g8504035246323_cont_9to1_m_53_19_alg».proof.Proof.Gen.Kernel.Skeleton
import Idealize.ShloMosaic.Lib.ValueIdx
import Idealize.ShloMosaic.Lib.ValueLayout

namespace Cert.Kernel.LoadFacts

open Cert.Kernel Cert.Kernel.Gen Idealize.ShloMosaic

variable {F : FTy → Type} [FloatOps F]

/-- A load of one row segment of sixteen entries, starting at row `r`, column `c`, read at its entry `i`: the table's
    entry in row `r`, column `c + i`. -/
theorem load_at (xv : Vec F S26x512 .i32) (r c : Nat)
    (inb : ∀ a, (![r, c] : Fin 2 → Nat) a + S1x16.size a ≤ S26x512.size a) (i : Fin 16) (hr : r < 26) (hc : c + i.val < 512) :
    (View.readAt (Elt F) (Memref.whole cc0_scratch0 : Memref sig .scVector .vmem S26x512 .i32).view (Rect.unit (s := S26x512) ![r, c] S1x16.size inb).toLoadRect xv) (ValueIdx.ix2 (0 : Fin 1) i)
      = xv (ValueIdx.ix2 ⟨r, hr⟩ ⟨c + i.val, hc⟩) := by
  show xv ((Rect.unit (s := S26x512) ![r, c] S1x16.size inb).toLoadRect.idx (ValueIdx.ix2 (0 : Fin 1) i)) = _
  congr 1
  funext a
  match a with
  | ⟨0, _⟩ => exact Fin.ext (by show r + 1 * 0 = r; omega)
  | ⟨1, _⟩ => exact Fin.ext (by show c + 1 * i.val = c + i.val; omega)

/-- The row vector of a scatter's store: the loaded class numbers, each below 100, plus the half's offset `hv ≤ 100`;
    no sum wraps around. -/
theorem row_of_load (xv : Vec F S26x512 .i32) (hx : ∀ i, (xv i : BitVec 32).toNat < 100) (off : Fin 2 → Nat)
    (inb : ∀ a, off a + S1x16.size a ≤ S26x512.size a)
    (r c : Nat) (hoff : off = ![r, c]) (hv : BitVec 32) (hhv : hv.toNat ≤ 100) (hs : S1x16.ShapeCasts S16) (x : S16.Idx) :
    ∃ (hr : r < 26) (hc : c + (x 0).val < 512),
      (addi (shapeCast S16 (View.readAt (Elt F) (Memref.whole cc0_scratch0 : Memref sig .scVector .vmem S26x512 .i32).view (Rect.unit (s := S26x512) off S1x16.size inb).toLoadRect xv) hs) (broadcast S16 hv) x).toNat
        = (xv (ValueIdx.ix2 ⟨r, hr⟩ ⟨c + (x 0).val, hc⟩) : BitVec 32).toNat + hv.toNat := by
  subst hoff
  have h0 : r + 1 ≤ 26 := inb 0
  have h1 : c + 16 ≤ 512 := inb 1
  have hx0 : (x 0).val < 16 := (x 0).isLt
  have hr : r < 26 := by omega
  have hc : c + (x 0).val < 512 := by omega
  refine ⟨hr, hc, ?_⟩
  have key : shapeCast S16 (View.readAt (Elt F) (Memref.whole cc0_scratch0 : Memref sig .scVector .vmem S26x512 .i32).view (Rect.unit (s := S26x512) ![r, c] S1x16.size inb).toLoadRect xv) hs x = xv (ValueIdx.ix2 ⟨r, hr⟩ ⟨c + (x 0).val, hc⟩) := by
    have e := ValueIdx.shapeCast_1a_a_apply (a := 16) (View.readAt (Elt F) (Memref.whole cc0_scratch0 : Memref sig .scVector .vmem S26x512 .i32).view (Rect.unit (s := S26x512) ![r, c] S1x16.size inb).toLoadRect xv) hs (x 0)
    refine Eq.trans ?_ (e.trans (load_at xv r c inb (x 0) hr hc))
    exact congrArg (shapeCast S16 _ hs) (ValueIdx.eq_ix1 x)
  show (IntOp.addi (shapeCast S16 (View.readAt (Elt F) (Memref.whole cc0_scratch0 : Memref sig .scVector .vmem S26x512 .i32).view (Rect.unit (s := S26x512) ![r, c] S1x16.size inb).toLoadRect xv) hs x) hv).toNat = _
  rw [key]
  have b := hx (ValueIdx.ix2 ⟨r, hr⟩ ⟨c + (x 0).val, hc⟩)
  unfold IntOp.addi
  rw [BitVec.toNat_add, Nat.mod_eq_of_lt (by omega)]

/-- The column vector of a scatter's store: the block's first column plus the lane number. -/
theorem col_of_base (base : BitVec 32) (hb : base.toNat ≤ 240) (x : S16.Idx) :
    (addi (broadcast S16 base) (iota .scVector S16 32 [0] iota_S16_d0_w32_scVector) x).toNat = base.toNat + (x 0).val := by
  have hx0 : (x 0).val < 16 := (x 0).isLt
  simp only [addi, IntOp.addi, broadcast, iota, List.foldl]
  simp only [BitVec.toNat_add, BitVec.toNat_ofNat, Matrix.cons_val_zero]
  omega

/-- The row vector of store `n` of a chunk, in the form the scatter's step lemmas take it: the load starts in row
    `c0` (first half) or `c1` (second half) at column `hb + 16 (n % 16)`, and the half's offset is `100 (n / 16)`. -/
theorem row_hrow (xv : Vec F S26x512 .i32) (hx : ∀ i, (xv i : BitVec 32).toNat < 100) (c0 c1 : Fin 26) (hb n : Nat) (hn : n < 32)
    (off : Fin 2 → Nat) (inb : ∀ a, off a + S1x16.size a ≤ S26x512.size a) (r c : Nat) (hoff : off = ![r, c])
    (hr : r = (if n < 16 then c0 else c1).val) (hc : c = hb + 16 * (n % 16))
    (hv : BitVec 32) (hhv : hv.toNat = 100 * (n / 16)) (hs : S1x16.ShapeCasts S16) :
    ∀ x : S16.Idx, ∃ h : hb + 16 * (n % 16) + (x 0).val < 512,
      (addi (shapeCast S16 (View.readAt (Elt F) (Memref.whole cc0_scratch0 : Memref sig .scVector .vmem S26x512 .i32).view (Rect.unit (s := S26x512) off S1x16.size inb).toLoadRect xv) hs) (broadcast S16 hv) x).toNat
        = (xv (ValueIdx.ix2 (if n < 16 then c0 else c1) ⟨hb + 16 * (n % 16) + (x 0).val, h⟩) : BitVec 32).toNat + 100 * (n / 16) := by
  intro x
  obtain ⟨hr', hc', e⟩ := row_of_load xv hx off inb r c hoff hv (by omega) hs x
  subst hr hc
  exact ⟨hc', e.trans (by rw [hhv])⟩

/-- The column vector of store `n` of a chunk, in the form the scatter's step lemmas take it. -/
theorem col_hcol (base : BitVec 32) (n : Nat) (hbase : base.toNat = 16 * (n % 16)) :
    ∀ x : S16.Idx, (addi (broadcast S16 base) (iota .scVector S16 32 [0] iota_S16_d0_w32_scVector) x).toNat
      = 16 * (n % 16) + (x 0).val := by
  intro x
  rw [col_of_base base (by omega) x, hbase]

end Cert.Kernel.LoadFacts
-- ==== Proof.K_ScatterViews.lean ====
/-
  The scatter's claims read through a buffer's list of writes.

  A store through index vectors is, on the machine, a load of the whole buffer followed by a store of the whole buffer.
  So after such a store the buffer's newest write covers it whole, and what the next one loads is that write's payload.
  The claims `OH n` (ones stand exactly at the entries of the stores below `n`) and `UN n` (ones stand exactly at the
  entries of the stores from `n` on) therefore pass from one payload to the next by the one-store steps. The store's
  index vectors are spelt as the program computes them — the row vector a load of sixteen table entries plus the half's
  offset, the column vector the block's first column plus the lane number — and are read lane by lane here.
-/
import Idealize.ShloMosaic.Lib.Exec
import proofs.«212700_g8504035246323_cont_9to1_m_53_19_alg».proof.Proof.LibWholeWrites
import proofs.«212700_g8504035246323_cont_9to1_m_53_19_alg».proof.Proof.ScatterFacts
import proofs.«212700_g8504035246323_cont_9to1_m_53_19_alg».proof.Proof.K_LoadFacts

namespace Cert.Kernel.ScatterViews

open Cert.Kernel Cert.Kernel.Gen Cert.Lib.WholeWrites Idealize.ShloMosaic

variable {F : FTy → Type} [FloatOps F] [∀ e, Nonempty (Elt F e)]

/-! ## `OH` through the first buffer's writes -/

/-- The contents after a newest write of the whole first buffer are that write's payload. -/
theorem OH_writes (xv : Vec F S26x512 .i32) (c0 c1 : Fin 26) (hb n : ℕ) (f w : cc0_scratch1.ty.Contents (Elt F))
    (L : List (View.Piece (Elt F) cc0_scratch1.ty.shape cc0_scratch1.ty.elt)) (hw : ScatterFacts.OH xv c0 c1 hb n w) :
    ScatterFacts.OH xv c0 c1 hb n ((Memref.whole cc0_scratch1).view.writes (Elt F) f (⟨Rect.whole _, w⟩ :: L)) := by
  rw [writes_whole_cons]; exact hw

/-- Store `n` of ones whose load finds a newest write of the whole first buffer. -/
theorem OH_step_cov (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch1.ty.Contents (Elt F)) (L : List (View.Piece (Elt F) cc0_scratch1.ty.shape cc0_scratch1.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.OH xv c0 c1 hb n w) :
    ScatterFacts.OH xv c0 c1 hb (n + 1)
      (storeIdx ((Memref.whole cc0_scratch1).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [readCov_whole_cons]
  exact ScatterFacts.OH_step (F := F) xv c0 c1 hb hhb n hn w _ _
    (LoadFacts.row_hrow xv hx c0 c1 hb n hn off inb r c hoff hr hc hv hhv hs) (LoadFacts.col_hcol base n hbase) h hw

/-- Store `n` of ones as the first store of a window, whose load reads the first buffer as the window found it. -/
theorem OH_step_at (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch1.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.OH xv c0 c1 hb n g) :
    ScatterFacts.OH xv c0 c1 hb (n + 1)
      (storeIdx ((Memref.whole cc0_scratch1).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [Memref.readAt_whole]
  exact ScatterFacts.OH_step (F := F) xv c0 c1 hb hhb n hn g _ _
    (LoadFacts.row_hrow xv hx c0 c1 hb n hn off inb r c hoff hr hc hv hhv hs) (LoadFacts.col_hcol base n hbase) h hg

/-! ## `UN` through the first buffer's writes -/

/-- The contents after a newest write of the whole first buffer are that write's payload. -/
theorem UN_writes (xv : Vec F S26x512 .i32) (c0 c1 : Fin 26) (hb n : ℕ) (f w : cc0_scratch1.ty.Contents (Elt F))
    (L : List (View.Piece (Elt F) cc0_scratch1.ty.shape cc0_scratch1.ty.elt)) (hw : ScatterFacts.UN xv c0 c1 hb n w) :
    ScatterFacts.UN xv c0 c1 hb n ((Memref.whole cc0_scratch1).view.writes (Elt F) f (⟨Rect.whole _, w⟩ :: L)) := by
  rw [writes_whole_cons]; exact hw

/-- Store `n` of zeros whose load finds a newest write of the whole first buffer. -/
theorem UN_step_cov (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch1.ty.Contents (Elt F)) (L : List (View.Piece (Elt F) cc0_scratch1.ty.shape cc0_scratch1.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.UN xv c0 c1 hb n w) :
    ScatterFacts.UN xv c0 c1 hb (n + 1)
      (storeIdx ((Memref.whole cc0_scratch1).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [readCov_whole_cons]
  exact ScatterFacts.UN_step (F := F) xv hx c0 c1 hb hhb n hn w _ _
    (LoadFacts.row_hrow xv hx c0 c1 hb n hn off inb r c hoff hr hc hv hhv hs) (LoadFacts.col_hcol base n hbase) h hw

/-- Store `n` of zeros as the first store of a window, whose load reads the first buffer as the window found it. -/
theorem UN_step_at (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch1.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.UN xv c0 c1 hb n g) :
    ScatterFacts.UN xv c0 c1 hb (n + 1)
      (storeIdx ((Memref.whole cc0_scratch1).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [Memref.readAt_whole]
  exact ScatterFacts.UN_step (F := F) xv hx c0 c1 hb hhb n hn g _ _
    (LoadFacts.row_hrow xv hx c0 c1 hb n hn off inb r c hoff hr hc hv hhv hs) (LoadFacts.col_hcol base n hbase) h hg

/-! ## `OH` through the second buffer's writes -/

/-- The contents after a newest write of the whole second buffer are that write's payload. -/
theorem OH_writes2 (xv : Vec F S26x512 .i32) (c0 c1 : Fin 26) (hb n : ℕ) (f w : cc0_scratch2.ty.Contents (Elt F))
    (L : List (View.Piece (Elt F) cc0_scratch2.ty.shape cc0_scratch2.ty.elt)) (hw : ScatterFacts.OH xv c0 c1 hb n w) :
    ScatterFacts.OH xv c0 c1 hb n ((Memref.whole cc0_scratch2).view.writes (Elt F) f (⟨Rect.whole _, w⟩ :: L)) := by
  rw [writes_whole_cons]; exact hw

/-- Store `n` of ones whose load finds a newest write of the whole second buffer. -/
theorem OH_step_cov2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch2.ty.Contents (Elt F)) (L : List (View.Piece (Elt F) cc0_scratch2.ty.shape cc0_scratch2.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.OH xv c0 c1 hb n w) :
    ScatterFacts.OH xv c0 c1 hb (n + 1)
      (storeIdx ((Memref.whole cc0_scratch2).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [readCov_whole_cons]
  exact ScatterFacts.OH_step (F := F) xv c0 c1 hb hhb n hn w _ _
    (LoadFacts.row_hrow xv hx c0 c1 hb n hn off inb r c hoff hr hc hv hhv hs) (LoadFacts.col_hcol base n hbase) h hw

/-- Store `n` of ones as the first store of a window, whose load reads the second buffer as the window found it. -/
theorem OH_step_at2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch2.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.OH xv c0 c1 hb n g) :
    ScatterFacts.OH xv c0 c1 hb (n + 1)
      (storeIdx ((Memref.whole cc0_scratch2).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay259 (fun _ => 1#1) false h) := by
  rw [Memref.readAt_whole]
  exact ScatterFacts.OH_step (F := F) xv c0 c1 hb hhb n hn g _ _
    (LoadFacts.row_hrow xv hx c0 c1 hb n hn off inb r c hoff hr hc hv hhv hs) (LoadFacts.col_hcol base n hbase) h hg

/-! ## `UN` through the second buffer's writes -/

/-- The contents after a newest write of the whole second buffer are that write's payload. -/
theorem UN_writes2 (xv : Vec F S26x512 .i32) (c0 c1 : Fin 26) (hb n : ℕ) (f w : cc0_scratch2.ty.Contents (Elt F))
    (L : List (View.Piece (Elt F) cc0_scratch2.ty.shape cc0_scratch2.ty.elt)) (hw : ScatterFacts.UN xv c0 c1 hb n w) :
    ScatterFacts.UN xv c0 c1 hb n ((Memref.whole cc0_scratch2).view.writes (Elt F) f (⟨Rect.whole _, w⟩ :: L)) := by
  rw [writes_whole_cons]; exact hw

/-- Store `n` of zeros whose load finds a newest write of the whole second buffer. -/
theorem UN_step_cov2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (w : cc0_scratch2.ty.Contents (Elt F)) (L : List (View.Piece (Elt F) cc0_scratch2.ty.shape cc0_scratch2.ty.elt))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hw : ScatterFacts.UN xv c0 c1 hb n w) :
    ScatterFacts.UN xv c0 c1 hb (n + 1)
      (storeIdx ((Memref.whole cc0_scratch2).view.readCov (⟨Rect.whole _, w⟩ :: L) (LoadRect.whole _))
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [readCov_whole_cons]
  exact ScatterFacts.UN_step (F := F) xv hx c0 c1 hb hhb n hn w _ _
    (LoadFacts.row_hrow xv hx c0 c1 hb n hn off inb r c hoff hr hc hv hhv hs) (LoadFacts.col_hcol base n hbase) h hw

/-- Store `n` of zeros as the first store of a window, whose load reads the second buffer as the window found it. -/
theorem UN_step_at2 (xv : Vec F S26x512 .i32) (hx : ∀ i, (xv i : BitVec 32).toNat < 100) (c0 c1 : Fin 26) (hb : ℕ) (hhb : hb + 256 ≤ 512) (n : ℕ) (hn : n < 32)
    (off : Fin 2 → ℕ) (inb : ∀ a, off a + S1x16.size a ≤ S26x512.size a) (r c : ℕ) (hoff : off = ![r, c])
    (hr : r = (if n < 16 then c0 else c1).val) (hc : c = hb + 16 * (n % 16))
    (hv : BitVec 32) (hhv : hv.toNat = 100 * (n / 16)) (base : BitVec 32) (hbase : base.toNat = 16 * (n % 16)) (hs : S1x16.ShapeCasts S16)
    (g : cc0_scratch2.ty.Contents (Elt F))
    (h : ∀ a x, ((![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] : Fin 2 → IVec S16 32) a x).toNat < S200x256.size a)
    (hg : ScatterFacts.UN xv c0 c1 hb n g) :
    ScatterFacts.UN xv c0 c1 hb (n + 1)
      (storeIdx ((Memref.whole cc0_scratch2).view.readAt (Elt F) (LoadRect.whole _) g)
        ![addi (shapeCast S16 (View.readAt (Elt F) (Memref.whole cc0_scratch0 : Memref sig .scVector .vmem S26x512 .i32).view (Rect.unit (s := S26x512) off S1x16.size inb).toLoadRect xv) hs) (broadcast S16 hv),
          addi (broadcast S16 base) (iota .scVector S16 32 [0] iota_S16_d0_w32_scVector)] k0_pay260 (fun _ => 1#1) false h) := by
  rw [Memref.readAt_whole]
  exact ScatterFacts.UN_step (F := F) xv hx c0 c1 hb hhb n hn g _ _
    (LoadFacts.row_hrow xv hx c0 c1 hb n hn off inb r c hoff hr hc hv hhv hs) (LoadFacts.col_hcol base n hbase) h hg

end Cert.Kernel.ScatterViews
-- ==== Proof.K_Pictures.lean ====
/-
  The buffers after the zeroing loops are zero everywhere.

  The zeroing claim `Z t 0` says the buffer is zero in every column below `16 t`. The buffer has 256 columns, so once
  sixteen trips are done it is zero everywhere: where a scatter of ones starts from.
-/
import proofs.«212700_g8504035246323_cont_9to1_m_53_19_alg».proof.Proof.K_ZeroFacts
import proofs.«212700_g8504035246323_cont_9to1_m_53_19_alg».proof.Proof.K_ZeroFacts2
import Idealize.ShloMosaic.Lib.ValueIdx

namespace Cert.Kernel.Pictures

open Cert.Kernel Cert.Kernel.Gen Idealize.ShloMosaic

variable {F : FTy → Type} [FloatOps F]

/-- Zero in every column below `16 t` with `t ≥ 16` is zero in all 256 columns. -/
theorem Z_all {t : ℕ} (ht : 16 ≤ t) (g : Vec F S200x256 .i32) (h : ZeroFacts.Z (F := F) t 0 g) : ∀ j, g j = (0#32 : BitVec 32) :=
  fun j => h j (Or.inl (by have := ValueIdx.idx2_lt1 j; omega))

/-- The same for the second buffer's zeroing claim. -/
theorem Z_all2 {t : ℕ} (ht : 16 ≤ t) (g : Vec F S200x256 .i32) (h : ZeroFacts2.Z (F := F) t 0 g) : ∀ j, g j = (0#32 : BitVec 32) :=
  fun j => h j (Or.inl (by have := ValueIdx.idx2_lt1 j; omega))

/-- The first zeroing loop makes sixteen trips, -/
theorem trips1_ge : 16 ≤ k0_t1_loop.trips := by decide
/-- and so does the second. -/
theorem trips2_ge : 16 ≤ k0_t2_loop.trips := by decide

end Cert.Kernel.Pictures
-- ==== Proof.K_Trip.lean ====
/-
  One trip of the main loop.

  Before trip `k` the copies of chunks `2 k` and `2 k + 1` out of the two buffers are in flight. The trip waits for the
  first; the buffer comes back holding chunk `2 k`'s picture. Thirty-two stores of zeros through the index vectors that
  wrote that picture erase it, thirty-two stores of ones write chunk `2 (k + 1)`'s, and the buffer is copied out to
  that chunk. The same happens to the second buffer with chunks `2 k + 1` and `2 (k + 1) + 1`. Every store's indices
  are in range because the table's entries are class numbers below 100. After the trip the two chunks that landed are
  part of the finished coding, the two chunks sent are in flight, and the chunks from `2 (k + 1) + 2` on are as the
  tile found them: the invariant one trip on.
-/
import proofs.«212700_g8504035246323_cont_9to1_m_53_19_alg».proof.Proof.K_LoopInv
import proofs.«212700_g8504035246323_cont_9to1_m_53_19_alg».proof.Proof.LibWholeWrites
import proofs.«212700_g8504035246323_cont_9to1_m_53_19_alg».proof.Proof.K_LoadFacts
import proofs.«212700_g8504035246323_cont_9to1_m_53_19_alg».proof.Proof.K_ChunkSep
import proofs.«212700_g8504035246323_cont_9to1_m_53_19_alg».proof.Proof.K_ScatterViews
import proofs.«212700_g8504035246323_cont_9to1_m_53_19_alg».proof.Proof.K_TripB

noncomputable section

namespace Cert.Kernel.Trip

open Cert.Kernel Cert.Kernel.Gen Cert.Kernel.Tile Cert.Kernel.Contract Cert.Kernel.Geometry Cert.Kernel.LoopInv Cert.Lib.WholeWrites

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xtW" => (Memref.whole Cert.Kernel.main_v0_scv : Memref Cert.Kernel.sig Kind.scVector Space.hbm Cert.Kernel.S26x16384 EltTy.i32)
local notation "oW" => (Memref.whole Cert.Kernel.main_v1_scv : Memref Cert.Kernel.sig Kind.scVector Space.hbm Cert.Kernel.S2600x16384 EltTy.i32)
local notation "xvW" => (Memref.whole Cert.Kernel.cc0_scratch0 : Memref Cert.Kernel.sig Kind.scVector Space.vmem Cert.Kernel.S26x512 EltTy.i32)
local notation "b0W" => (Memref.whole Cert.Kernel.cc0_scratch1 : Memref Cert.Kernel.sig Kind.scVector Space.vmem Cert.Kernel.S200x256 EltTy.i32)
local notation "b1W" => (Memref.whole Cert.Kernel.cc0_scratch2 : Memref Cert.Kernel.sig Kind.scVector Space.vmem Cert.Kernel.S200x256 EltTy.i32)

variable (d : Dev nD) (L : grid0.Coords)

/-- A chunk of the coding held is the chunk's slice held: the slice's elements are the chunk. -/
theorem pts_oSl (q : Nat) (off : Fin 2 → Nat) (inb : ∀ a, off a + S200x256.size a ≤ S2600x16384.size a)
    (hoff : off = ![200 * (q / 2), 512 * wOf L + 256 * (q % 2)]) (f : Buf (Elt F) (oLoc d)) :
    (oLoc d ↦[chunk (wOf L) q]{fullShare} f : sProp 𝕄)
      = (((oW).slice (Rect.unit (s := S2600x16384) off S200x256.size inb) (fun _ => rfl)).view.loc (V d (cV L) (jV L))
          ↦[((oW).slice (Rect.unit (s := S2600x16384) off S200x256.size inb) (fun _ => rfl)).view.set]{fullShare} f) :=
  (congrArg (fun S : Finset S2600x16384.Idx => (oLoc d ↦[S]{fullShare} f : sProp 𝕄)) (Geometry.set_oSl L q off inb hoff)).symm

/-- A load from the tile's copy of the table returns class numbers. -/
theorem ld_lt (xv : Vec F S26x512 .i32) (hxv : ∀ i, (xv i : BitVec 32).toNat < 100) (r : LoadRect S26x512) (y : r.shape.Idx) :
    ((View.readAt (Elt F) (Memref.whole cc0_scratch0 : Memref sig .scVector .vmem S26x512 .i32).view r xv y) : BitVec 32).toNat < 100 := hxv _

set_option sl_exec.dischHeartbeats 200000 in
set_option maxHeartbeats 4000000 in
theorem trip (O : CellTallies nD τ sig (HIx 1)) (W : Waits sig (HIx 1))
    (xt : Vec F S26x16384 .i32) (hx : ∀ i, (xt i : BitVec 32).toNat < 100) (fv : Vec F S26x512 .i32) (fo : Vec F S2600x16384 .i32)
    (v5 : BitVec 32) (vld : Vec F S1x16 .i32) (k : Fin k0_t3_loop.trips) :
    tinv d L O W xt fv fo k.val ⟨⟩
      ⊢ wp frame (wpE (defs₀ (F := F)) 𝒱₀ (V d (cV L) (jV L)) none) Set.univ
          (k0_t3_body L xtW (Memref.isWhole_whole _) oW (Memref.isWhole_whole _) xvW (Memref.isWhole_whole _) b0W (Memref.isWhole_whole _) b1W (Memref.isWhole_whole _)
            cc0_scratch3 cc0_scratch4 cc0_scratch5 ZeroFacts.lanes k0_pay259 k0_pay260 v5 vld k ⟨⟩)
          fun r => tinv d L O W xt fv fo (k.val + 1) r := by
  have hxv : ∀ i, ((XvFacts.xvC L xt fv) i : BitVec 32).toNat < 100 := XvFacts.xvC_lt L xt fv hx
  have hk : k.val < 12 := lt_of_lt_of_eq k.isLt (by decide)
  unfold k0_t3_body
  unfold tinv
  rw [ChunkSep.tail_split (2 * k.val + 2) (by omega),
    pts_oSl d L (2 * k.val + 2) (k0_off69 L k) (k0_off69_inb L k) ((Geometry.off69_eq L k).trans (by rw [show 2 * (k.val + 1) = 2 * k.val + 2 by ring])) fo,
    pts_oSl d L (2 * k.val + 2 + 1) (k0_off135 L k) (k0_off135_inb L k) ((Geometry.off135_eq L k).trans (by rw [show 2 * (k.val + 1) + 1 = 2 * k.val + 2 + 1 by ring])) fo]
  iintro ⟨#Hmw, Hv, Hf3, Hf4, Hdone, ⟨Hn0, Hn1, Hrest⟩, %W', %hW', HO⟩
  rw [wp_bind]; rw [k0_part67_eq_skeleton]; unfold k0_part67_skel
  -- window 27: the wait for chunk 2 k's copy out of the first buffer
  rw [wp_bind]; rw [k0_part27_eq_skeleton]; unfold k0_part27_skel
  sl_exec
  ihave Hmw3 := (Transfers.MayWaits.elim (SemLoc.dma cc0_scratch3.sem)) $$ Hmw
  iapply (Transfers.wp_waitLocalO countersEmb 𝒱₀ (V d (cV L) (jV L)) none (default : HIx 1) (N := AMT) rfl) $$ [Hf3 HO Hmw3]
  · isplitl [Hf3]; · iexact Hf3
    isplitl [HO]; · iexact HO
    iexact Hmw3
  iintro ⟨HD, Hs3, HO⟩
  unfold deliv0
  icases HD with ⟨%g0, %hg0, H0, Hc0⟩
  unfold heldB0
  -- the rest of window 27 and window 28 up to its first store
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  -- window 48: the wait for chunk 2 k + 1's copy out of the second buffer
  ihave Hmw4 := (Transfers.MayWaits.elim (SemLoc.dma cc0_scratch4.sem)) $$ Hmw
  iapply (Transfers.wp_waitLocalO countersEmb 𝒱₀ (V d (cV L) (jV L)) none (default : HIx 1) (N := AMT) rfl) $$ [Hf4 HO Hmw4]
  · isplitl [Hf4]; · iexact Hf4
    isplitl [HO]; · iexact HO
    iexact Hmw4
  iintro ⟨HD, Hs4, HO⟩
  unfold deliv1
  icases HD with ⟨%g1, %hg1, H1, Hc1⟩
  unfold heldB1
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  unfold SparseCore.vectorStoreIdx
  sl_exec (disch := (refine XvFacts.scat_chk _ (fun y => ?_) _ _ (by decide) (by decide) _; exact ld_lt _ hxv _ _))
  have hpic0 : LoopInv.Pic L xt fv (2 * (k.val + 1)) ((b0W).view.writes (Elt F) g0 (trip.sl.H0_64 L xt fv k hxv g0)) := by
    unfold LoopInv.Pic
    try unfold trip.sl.H0_64
    refine ScatterViews.OH_writes _ _ _ _ 32 _ _ _ ?_
    try unfold trip.sl.f_62
    try unfold trip.sl.H0_63
    refine ScatterViews.OH_step_cov (XvFacts.xvC L xt fv) hxv _ _ _ (by omega) 31 (by omega) (k0_off68 k) (k0_off68_inb k) _ _ (Geometry.off68_eq k) (by rw [if_neg (by decide), LoopInv.row1_val (by omega)]; omega) (by omega) 100#32 (by decide) 240#32 (by decide) _ _ _ _ ?_
    try unfold trip.sl.f_61
    try unfold trip.sl.H0_62
    refine ScatterViews.OH_step_cov (XvFacts.xvC L xt fv) hxv _ _ _ (by omega) 30 (by omega) (k0_off67 k) (k0_off67_inb k) _ _ (Geometry.off67_eq k) (by rw [if_neg (by decide), LoopInv.row1_val (by omega)]; omega) (by omega) 100#32 (by decide) 224#32 (by decide) _ _ _ _ ?_
    try unfold trip.sl.f_60
    try unfold trip.sl.H0_61
    refine ScatterViews.OH_step_cov (XvFacts.xvC L xt fv) hxv _ _ _ (by omega) 29 (by omega) (k0_off66 k) (k0_off66_inb k) _ _ (Geometry.off66_eq k) (by rw [if_neg (by decide), LoopInv.row1_val (by omega)]; omega) (by omega) 100#32 (by decide) 208#32 (by decide) _ _ _ _ ?_
    try unfold trip.sl.f_59
    try unfold trip.sl.H0_60
    refine ScatterViews.OH_step_cov (XvFacts.xvC L xt fv) hxv _ _ _ (by omega) 28 (by omega) (k0_off65 k) (k0_off65_inb k) _ _ (Geometry.off65_eq k) (by rw [if_neg (by decide), LoopInv.row1_val (by omega)]; omega) (by omega) 100#32 (by decide) 192#32 (by decide) _ _ _ _ ?_
    try unfold trip.sl.f_58
    try unfold trip.sl.H0_59
    refine ScatterViews.OH_step_cov (XvFacts.xvC L xt fv) hxv _ _ _ (by omega) 27 (by omega) (k0_off64 k) (k0_off64_inb k) _ _ (Geometry.off64_eq k) (by rw [if_neg (by decide), LoopInv.row1_val (by omega)]; omega) (by omega) 100#32 (by decide) 176#32 (by decide) _ _ _ _ ?_
    try unfold trip.sl.f_57
    try unfold trip.sl.H0_58
    refine ScatterViews.OH_step_cov (XvFacts.xvC L xt fv) hxv _ _ _ (by omega) 26 (by omega) (k0_off63 k) (k0_off63_inb k) _ _ (Geometry.off63_eq k) (by rw [if_neg (by decide), LoopInv.row1_val (by omega)]; omega) (by omega) 100#32 (by decide) 160#32 (by decide) _ _ _ _ ?_
    try unfold trip.sl.f_56
    try unfold trip.sl.H0_57
    refine ScatterViews.OH_step_cov (XvFacts.xvC L xt fv) hxv _ _ _ (by omega) 25 (by omega) (k0_off62 k) (k0_off62_inb k) _ _ (Geometry.off62_eq k) (by rw [if_neg (by decide), LoopInv.row1_val (by omega)]; omega) (by omega) 100#32 (by decide) 144#32 (by decide) _ _ _ _ ?_
    try unfold trip.sl.f_55
    try unfold trip.sl.H0_56
    refine ScatterViews.OH_step_cov (XvFacts.xvC L xt fv) hxv _ _ _ (by omega) 24 (by omega) (k0_off61 k) (k0_off61_inb k) _ _ (Geometry.off61_eq k) (by rw [if_neg (by decide), LoopInv.row1_val (by omega)]; omega) (by omega) 100#32 (by decide) 128#32 (by decide) _ _ _ _ ?_
    try unfold trip.sl.f_54
    try unfold trip.sl.H0_55
    refine ScatterViews.OH_step_cov (XvFacts.xvC L xt fv) hxv _ _ _ (by omega) 23 (by omega) (k0_off60 k) (k0_off60_inb k) _ _ (Geometry.off60_eq k) (by rw [if_neg (by decide), LoopInv.row1_val (by omega)]; omega) (by omega) 100#32 (by decide) 112#32 (by decide) _ _ _ _ ?_
    try unfold trip.sl.f_53
    try unfold trip.sl.H0_54
    refine ScatterViews.OH_step_cov (XvFacts.xvC L xt fv) hxv _ _ _ (by omega) 22 (by omega) (k0_off59 k) (k0_off59_inb k) _ _ (Geometry.off59_eq k) (by rw [if_neg (by decide), LoopInv.row1_val (by omega)]; omega) (by omega) 100#32 (by decide) 96#32 (by decide) _ _ _ _ ?_
    try unfold trip.sl.f_52
    try unfold trip.sl.H0_53
    refine ScatterViews.OH_step_cov (XvFacts.xvC L xt fv) hxv _ _ _ (by omega) 21 (by omega) (k0_off58 k) (k0_off58_inb k) _ _ (Geometry.off58_eq k) (by rw [if_neg (by decide), LoopInv.row1_val (by omega)]; omega) (by omega) 100#32 (by decide) 80#32 (by decide) _ _ _ _ ?_
    try unfold trip.sl.f_51
    try unfold trip.sl.H0_52
    refine ScatterViews.OH_step_cov (XvFacts.xvC L xt fv) hxv _ _ _ (by omega) 20 (by omega) (k0_off57 k) (k0_off57_inb k) _ _ (Geometry.off57_eq k) (by rw [if_neg (by decide), LoopInv.row1_val (by omega)]; omega) (by omega) 100#32 (by decide) 64#32 (by decide) _ _ _ _ ?_
    try unfold trip.sl.f_50
    try unfold trip.sl.H0_51
    refine ScatterViews.OH_step_cov (XvFacts.xvC L xt fv) hxv _ _ _ (by omega) 19 (by omega) (k0_off56 k) (k0_off56_inb k) _ _ (Geometry.off56_eq k) (by rw [if_neg (by decide), LoopInv.row1_val (by omega)]; omega) (by omega) 100#32 (by decide) 48#32 (by decide) _ _ _ _ ?_
    try unfold trip.sl.f_49
    try unfold trip.sl.H0_50
    refine ScatterViews.OH_step_cov (XvFacts.xvC L xt fv) hxv _ _ _ (by omega) 18 (by omega) (k0_off55 k) (k0_off55_inb k) _ _ (Geometry.off55_eq k) (by rw [if_neg (by decide), LoopInv.row1_val (by omega)]; omega) (by omega) 100#32 (by decide) 32#32 (by decide) _ _ _ _ ?_
    try unfold trip.sl.f_48
    try unfold trip.sl.H0_49
    refine ScatterViews.OH_step_cov (XvFacts.xvC L xt fv) hxv _ _ _ (by omega) 17 (by omega) (k0_off54 k) (k0_off54_inb k) _ _ (Geometry.off54_eq k) (by rw [if_neg (by decide), LoopInv.row1_val (by omega)]; omega) (by omega) 100#32 (by decide) 16#32 (by decide) _ _ _ _ ?_
    try unfold trip.sl.f_47
    try unfold trip.sl.H0_48
    refine ScatterViews.OH_step_cov (XvFacts.xvC L xt fv) hxv _ _ _ (by omega) 16 (by omega) (k0_off53 k) (k0_off53_inb k) _ _ (Geometry.off53_eq k) (by rw [if_neg (by decide), LoopInv.row1_val (by omega)]; omega) (by omega) 100#32 (by decide) 0#32 (by decide) _ _ _ _ ?_
    try unfold trip.sl.f_46
    try unfold trip.sl.H0_47
    refine ScatterViews.OH_step_cov (XvFacts.xvC L xt fv) hxv _ _ _ (by omega) 15 (by omega) (k0_off52 k) (k0_off52_inb k) _ _ (Geometry.off52_eq k) (by rw [if_pos (by decide), LoopInv.row0_val (by omega)]; omega) (by omega) 0#32 (by decide) 240#32 (by decide) _ _ _ _ ?_
    try unfold trip.sl.f_45
    try unfold trip.sl.H0_46
    refine ScatterViews.OH_step_cov (XvFacts.xvC L xt fv) hxv _ _ _ (by omega) 14 (by omega) (k0_off51 k) (k0_off51_inb k) _ _ (Geometry.off51_eq k) (by rw [if_pos (by decide), LoopInv.row0_val (by omega)]; omega) (by omega) 0#32 (by decide) 224#32 (by decide) _ _ _ _ ?_
    try unfold trip.sl.f_44
    try unfold trip.sl.H0_45
    refine ScatterViews.OH_step_cov (XvFacts.xvC L xt fv) hxv _ _ _ (by omega) 13 (by omega) (k0_off50 k) (k0_off50_inb k) _ _ (Geometry.off50_eq k) (by rw [if_pos (by decide), LoopInv.row0_val (by omega)]; omega) (by omega) 0#32 (by decide) 208#32 (by decide) _ _ _ _ ?_
    try unfold trip.sl.f_43
    try unfold trip.sl.H0_44
    refine ScatterViews.OH_step_cov (XvFacts.xvC L xt fv) hxv _ _ _ (by omega) 12 (by omega) (k0_off49 k) (k0_off49_inb k) _ _ (Geometry.off49_eq k) (by rw [if_pos (by decide), LoopInv.row0_val (by omega)]; omega) (by omega) 0#32 (by decide) 192#32 (by decide) _ _ _ _ ?_
    try unfold trip.sl.f_42
    try unfold trip.sl.H0_43
    refine ScatterViews.OH_step_cov (XvFacts.xvC L xt fv) hxv _ _ _ (by omega) 11 (by omega) (k0_off48 k) (k0_off48_inb k) _ _ (Geometry.off48_eq k) (by rw [if_pos (by decide), LoopInv.row0_val (by omega)]; omega) (by omega) 0#32 (by decide) 176#32 (by decide) _ _ _ _ ?_
    try unfold trip.sl.f_41
    try unfold trip.sl.H0_42
    refine ScatterViews.OH_step_cov (XvFacts.xvC L xt fv) hxv _ _ _ (by omega) 10 (by omega) (k0_off47 k) (k0_off47_inb k) _ _ (Geometry.off47_eq k) (by rw [if_pos (by decide), LoopInv.row0_val (by omega)]; omega) (by omega) 0#32 (by decide) 160#32 (by decide) _ _ _ _ ?_
    try unfold trip.sl.f_40
    try unfold trip.sl.H0_41
    refine ScatterViews.OH_step_cov (XvFacts.xvC L xt fv) hxv _ _ _ (by omega) 9 (by omega) (k0_off46 k) (k0_off46_inb k) _ _ (Geometry.off46_eq k) (by rw [if_pos (by decide), LoopInv.row0_val (by omega)]; omega) (by omega) 0#32 (by decide) 144#32 (by decide) _ _ _ _ ?_
    try unfold trip.sl.f_39
    try unfold trip.sl.H0_40
    refine ScatterViews.OH_step_cov (XvFacts.xvC L xt fv) hxv _ _ _ (by omega) 8 (by omega) (k0_off45 k) (k0_off45_inb k) _ _ (Geometry.off45_eq k) (by rw [if_pos (by decide), LoopInv.row0_val (by omega)]; omega) (by omega) 0#32 (by decide) 128#32 (by decide) _ _ _ _ ?_
    try unfold trip.sl.f_38
    try unfold trip.sl.H0_39
    refine ScatterViews.OH_step_cov (XvFacts.xvC L xt fv) hxv _ _ _ (by omega) 7 (by omega) (k0_off44 k) (k0_off44_inb k) _ _ (Geometry.off44_eq k) (by rw [if_pos (by decide), LoopInv.row0_val (by omega)]; omega) (by omega) 0#32 (by decide) 112#32 (by decide) _ _ _ _ ?_
    try unfold trip.sl.f_37
    try unfold trip.sl.H0_38
    refine ScatterViews.OH_step_cov (XvFacts.xvC L xt fv) hxv _ _ _ (by omega) 6 (by omega) (k0_off43 k) (k0_off43_inb k) _ _ (Geometry.off43_eq k) (by rw [if_pos (by decide), LoopInv.row0_val (by omega)]; omega) (by omega) 0#32 (by decide) 96#32 (by decide) _ _ _ _ ?_
    try unfold trip.sl.f_36
    try unfold trip.sl.H0_37
    refine ScatterViews.OH_step_cov (XvFacts.xvC L xt fv) hxv _ _ _ (by omega) 5 (by omega) (k0_off42 k) (k0_off42_inb k) _ _ (Geometry.off42_eq k) (by rw [if_pos (by decide), LoopInv.row0_val (by omega)]; omega) (by omega) 0#32 (by decide) 80#32 (by decide) _ _ _ _ ?_
    try unfold trip.sl.f_35
    try unfold trip.sl.H0_36
    refine ScatterViews.OH_step_cov (XvFacts.xvC L xt fv) hxv _ _ _ (by omega) 4 (by omega) (k0_off41 k) (k0_off41_inb k) _ _ (Geometry.off41_eq k) (by rw [if_pos (by decide), LoopInv.row0_val (by omega)]; omega) (by omega) 0#32 (by decide) 64#32 (by decide) _ _ _ _ ?_
    try unfold trip.sl.f_34
    try unfold trip.sl.H0_35
    refine ScatterViews.OH_step_cov (XvFacts.xvC L xt fv) hxv _ _ _ (by omega) 3 (by omega) (k0_off40 k) (k0_off40_inb k) _ _ (Geometry.off40_eq k) (by rw [if_pos (by decide), LoopInv.row0_val (by omega)]; omega) (by omega) 0#32 (by decide) 48#32 (by decide) _ _ _ _ ?_
    try unfold trip.sl.f_33
    try unfold trip.sl.H0_34
    refine ScatterViews.OH_step_cov (XvFacts.xvC L xt fv) hxv _ _ _ (by omega) 2 (by omega) (k0_off39 k) (k0_off39_inb k) _ _ (Geometry.off39_eq k) (by rw [if_pos (by decide), LoopInv.row0_val (by omega)]; omega) (by omega) 0#32 (by decide) 32#32 (by decide) _ _ _ _ ?_
    try unfold trip.sl.f_32
    try unfold trip.sl.H0_33
    refine ScatterViews.OH_step_cov (XvFacts.xvC L xt fv) hxv _ _ _ (by omega) 1 (by omega) (k0_off38 k) (k0_off38_inb k) _ _ (Geometry.off38_eq k) (by rw [if_pos (by decide), LoopInv.row0_val (by omega)]; omega) (by omega) 0#32 (by decide) 16#32 (by decide) _ _ _ _ ?_
    try unfold trip.sl.f_31
    try unfold trip.sl.H0_32
    refine ScatterViews.OH_step_cov (XvFacts.xvC L xt fv) hxv _ _ _ (by omega) 0 (by omega) (k0_off37 k) (k0_off37_inb k) _ _ (Geometry.off37_eq k) (by rw [if_pos (by decide), LoopInv.row0_val (by omega)]; omega) (by omega) 0#32 (by decide) 0#32 (by decide) _ _ _ _ ?_
    refine ScatterFacts.OH_zero _ _ _ _ _ (ScatterFacts.UN_full (XvFacts.xvC L xt fv) (LoopInv.row0 (2 * k.val)) (LoopInv.row1 (2 * k.val)) (256 * ((2 * k.val) % 2)) _ ?_)
    try unfold trip.sl.f_30
    try unfold trip.sl.H0_31
    refine ScatterViews.UN_step_cov (XvFacts.xvC L xt fv) hxv _ _ _ (by omega) 31 (by omega) (k0_off36 k) (k0_off36_inb k) _ _ (Geometry.off36_eq k) (by rw [if_neg (by decide), LoopInv.row1_val (by omega)]; omega) (by omega) 100#32 (by decide) 240#32 (by decide) _ _ _ _ ?_
    try unfold trip.sl.f_29
    try unfold trip.sl.H0_30
    refine ScatterViews.UN_step_cov (XvFacts.xvC L xt fv) hxv _ _ _ (by omega) 30 (by omega) (k0_off35 k) (k0_off35_inb k) _ _ (Geometry.off35_eq k) (by rw [if_neg (by decide), LoopInv.row1_val (by omega)]; omega) (by omega) 100#32 (by decide) 224#32 (by decide) _ _ _ _ ?_
    try unfold trip.sl.f_28
    try unfold trip.sl.H0_29
    refine ScatterViews.UN_step_cov (XvFacts.xvC L xt fv) hxv _ _ _ (by omega) 29 (by omega) (k0_off34 k) (k0_off34_inb k) _ _ (Geometry.off34_eq k) (by rw [if_neg (by decide), LoopInv.row1_val (by omega)]; omega) (by omega) 100#32 (by decide) 208#32 (by decide) _ _ _ _ ?_
    try unfold trip.sl.f_27
    try unfold trip.sl.H0_28
    refine ScatterViews.UN_step_cov (XvFacts.xvC L xt fv) hxv _ _ _ (by omega) 28 (by omega) (k0_off33 k) (k0_off33_inb k) _ _ (Geometry.off33_eq k) (by rw [if_neg (by decide), LoopInv.row1_val (by omega)]; omega) (by omega) 100#32 (by decide) 192#32 (by decide) _ _ _ _ ?_
    try unfold trip.sl.f_26
    try unfold trip.sl.H0_27
    refine ScatterViews.UN_step_cov (XvFacts.xvC L xt fv) hxv _ _ _ (by omega) 27 (by omega) (k0_off32 k) (k0_off32_inb k) _ _ (Geometry.off32_eq k) (by rw [if_neg (by decide), LoopInv.row1_val (by omega)]; omega) (by omega) 100#32 (by decide) 176#32 (by decide) _ _ _ _ ?_
    try unfold trip.sl.f_25
    try unfold trip.sl.H0_26
    refine ScatterViews.UN_step_cov (XvFacts.xvC L xt fv) hxv _ _ _ (by omega) 26 (by omega) (k0_off31 k) (k0_off31_inb k) _ _ (Geometry.off31_eq k) (by rw [if_neg (by decide), LoopInv.row1_val (by omega)]; omega) (by omega) 100#32 (by decide) 160#32 (by decide) _ _ _ _ ?_
    try unfold trip.sl.f_24
    try unfold trip.sl.H0_25
    refine ScatterViews.UN_step_cov (XvFacts.xvC L xt fv) hxv _ _ _ (by omega) 25 (by omega) (k0_off30 k) (k0_off30_inb k) _ _ (Geometry.off30_eq k) (by rw [if_neg (by decide), LoopInv.row1_val (by omega)]; omega) (by omega) 100#32 (by decide) 144#32 (by decide) _ _ _ _ ?_
    try unfold trip.sl.f_23
    try unfold trip.sl.H0_24
    refine ScatterViews.UN_step_cov (XvFacts.xvC L xt fv) hxv _ _ _ (by omega) 24 (by omega) (k0_off29 k) (k0_off29_inb k) _ _ (Geometry.off29_eq k) (by rw [if_neg (by decide), LoopInv.row1_val (by omega)]; omega) (by omega) 100#32 (by decide) 128#32 (by decide) _ _ _ _ ?_
    try unfold trip.sl.f_22
    try unfold trip.sl.H0_23
    refine ScatterViews.UN_step_cov (XvFacts.xvC L xt fv) hxv _ _ _ (by omega) 23 (by omega) (k0_off28 k) (k0_off28_inb k) _ _ (Geometry.off28_eq k) (by rw [if_neg (by decide), LoopInv.row1_val (by omega)]; omega) (by omega) 100#32 (by decide) 112#32 (by decide) _ _ _ _ ?_
    try unfold trip.sl.f_21
    try unfold trip.sl.H0_22
    refine ScatterViews.UN_step_cov (XvFacts.xvC L xt fv) hxv _ _ _ (by omega) 22 (by omega) (k0_off27 k) (k0_off27_inb k) _ _ (Geometry.off27_eq k) (by rw [if_neg (by decide), LoopInv.row1_val (by omega)]; omega) (by omega) 100#32 (by decide) 96#32 (by decide) _ _ _ _ ?_
    try unfold trip.sl.f_20
    try unfold trip.sl.H0_21
    refine ScatterViews.UN_step_cov (XvFacts.xvC L xt fv) hxv _ _ _ (by omega) 21 (by omega) (k0_off26 k) (k0_off26_inb k) _ _ (Geometry.off26_eq k) (by rw [if_neg (by decide), LoopInv.row1_val (by omega)]; omega) (by omega) 100#32 (by decide) 80#32 (by decide) _ _ _ _ ?_
    try unfold trip.sl.f_19
    try unfold trip.sl.H0_20
    refine ScatterViews.UN_step_cov (XvFacts.xvC L xt fv) hxv _ _ _ (by omega) 20 (by omega) (k0_off25 k) (k0_off25_inb k) _ _ (Geometry.off25_eq k) (by rw [if_neg (by decide), LoopInv.row1_val (by omega)]; omega) (by omega) 100#32 (by decide) 64#32 (by decide) _ _ _ _ ?_
    try unfold trip.sl.f_18
    try unfold trip.sl.H0_19
    refine ScatterViews.UN_step_cov (XvFacts.xvC L xt fv) hxv _ _ _ (by omega) 19 (by omega) (k0_off24 k) (k0_off24_inb k) _ _ (Geometry.off24_eq k) (by rw [if_neg (by decide), LoopInv.row1_val (by omega)]; omega) (by omega) 100#32 (by decide) 48#32 (by decide) _ _ _ _ ?_
    try unfold trip.sl.f_17
    try unfold trip.sl.H0_18
    refine ScatterViews.UN_step_cov (XvFacts.xvC L xt fv) hxv _ _ _ (by omega) 18 (by omega) (k0_off23 k) (k0_off23_inb k) _ _ (Geometry.off23_eq k) (by rw [if_neg (by decide), LoopInv.row1_val (by omega)]; omega) (by omega) 100#32 (by decide) 32#32 (by decide) _ _ _ _ ?_
    try unfold trip.sl.f_16
    try unfold trip.sl.H0_17
    refine ScatterViews.UN_step_cov (XvFacts.xvC L xt fv) hxv _ _ _ (by omega) 17 (by omega) (k0_off22 k) (k0_off22_inb k) _ _ (Geometry.off22_eq k) (by rw [if_neg (by decide), LoopInv.row1_val (by omega)]; omega) (by omega) 100#32 (by decide) 16#32 (by decide) _ _ _ _ ?_
    try unfold trip.sl.f_15
    try unfold trip.sl.H0_16
    refine ScatterViews.UN_step_cov (XvFacts.xvC L xt fv) hxv _ _ _ (by omega) 16 (by omega) (k0_off21 k) (k0_off21_inb k) _ _ (Geometry.off21_eq k) (by rw [if_neg (by decide), LoopInv.row1_val (by omega)]; omega) (by omega) 100#32 (by decide) 0#32 (by decide) _ _ _ _ ?_
    try unfold trip.sl.f_14
    try unfold trip.sl.H0_15
    refine ScatterViews.UN_step_cov (XvFacts.xvC L xt fv) hxv _ _ _ (by omega) 15 (by omega) (k0_off20 k) (k0_off20_inb k) _ _ (Geometry.off20_eq k) (by rw [if_pos (by decide), LoopInv.row0_val (by omega)]; omega) (by omega) 0#32 (by decide) 240#32 (by decide) _ _ _ _ ?_
    try unfold trip.sl.f_13
    try unfold trip.sl.H0_14
    refine ScatterViews.UN_step_cov (XvFacts.xvC L xt fv) hxv _ _ _ (by omega) 14 (by omega) (k0_off19 k) (k0_off19_inb k) _ _ (Geometry.off19_eq k) (by rw [if_pos (by decide), LoopInv.row0_val (by omega)]; omega) (by omega) 0#32 (by decide) 224#32 (by decide) _ _ _ _ ?_
    try unfold trip.sl.f_12
    try unfold trip.sl.H0_13
    refine ScatterViews.UN_step_cov (XvFacts.xvC L xt fv) hxv _ _ _ (by omega) 13 (by omega) (k0_off18 k) (k0_off18_inb k) _ _ (Geometry.off18_eq k) (by rw [if_pos (by decide), LoopInv.row0_val (by omega)]; omega) (by omega) 0#32 (by decide) 208#32 (by decide) _ _ _ _ ?_
    try unfold trip.sl.f_11
    try unfold trip.sl.H0_12
    refine ScatterViews.UN_step_cov (XvFacts.xvC L xt fv) hxv _ _ _ (by omega) 12 (by omega) (k0_off17 k) (k0_off17_inb k) _ _ (Geometry.off17_eq k) (by rw [if_pos (by decide), LoopInv.row0_val (by omega)]; omega) (by omega) 0#32 (by decide) 192#32 (by decide) _ _ _ _ ?_
    try unfold trip.sl.f_10
    try unfold trip.sl.H0_11
    refine ScatterViews.UN_step_cov (XvFacts.xvC L xt fv) hxv _ _ _ (by omega) 11 (by omega) (k0_off16 k) (k0_off16_inb k) _ _ (Geometry.off16_eq k) (by rw [if_pos (by decide), LoopInv.row0_val (by omega)]; omega) (by omega) 0#32 (by decide) 176#32 (by decide) _ _ _ _ ?_
    try unfold trip.sl.f_9
    try unfold trip.sl.H0_10
    refine ScatterViews.UN_step_cov (XvFacts.xvC L xt fv) hxv _ _ _ (by omega) 10 (by omega) (k0_off15 k) (k0_off15_inb k) _ _ (Geometry.off15_eq k) (by rw [if_pos (by decide), LoopInv.row0_val (by omega)]; omega) (by omega) 0#32 (by decide) 160#32 (by decide) _ _ _ _ ?_
    try unfold trip.sl.f_8
    try unfold trip.sl.H0_9
    refine ScatterViews.UN_step_cov (XvFacts.xvC L xt fv) hxv _ _ _ (by omega) 9 (by omega) (k0_off14 k) (k0_off14_inb k) _ _ (Geometry.off14_eq k) (by rw [if_pos (by decide), LoopInv.row0_val (by omega)]; omega) (by omega) 0#32 (by decide) 144#32 (by decide) _ _ _ _ ?_
    try unfold trip.sl.f_7
    try unfold trip.sl.H0_8
    refine ScatterViews.UN_step_cov (XvFacts.xvC L xt fv) hxv _ _ _ (by omega) 8 (by omega) (k0_off13 k) (k0_off13_inb k) _ _ (Geometry.off13_eq k) (by rw [if_pos (by decide), LoopInv.row0_val (by omega)]; omega) (by omega) 0#32 (by decide) 128#32 (by decide) _ _ _ _ ?_
    try unfold trip.sl.f_6
    try unfold trip.sl.H0_7
    refine ScatterViews.UN_step_cov (XvFacts.xvC L xt fv) hxv _ _ _ (by omega) 7 (by omega) (k0_off12 k) (k0_off12_inb k) _ _ (Geometry.off12_eq k) (by rw [if_pos (by decide), LoopInv.row0_val (by omega)]; omega) (by omega) 0#32 (by decide) 112#32 (by decide) _ _ _ _ ?_
    try unfold trip.sl.f_5
    try unfold trip.sl.H0_6
    refine ScatterViews.UN_step_cov (XvFacts.xvC L xt fv) hxv _ _ _ (by omega) 6 (by omega) (k0_off11 k) (k0_off11_inb k) _ _ (Geometry.off11_eq k) (by rw [if_pos (by decide), LoopInv.row0_val (by omega)]; omega) (by omega) 0#32 (by decide) 96#32 (by decide) _ _ _ _ ?_
    try unfold trip.sl.f_4
    try unfold trip.sl.H0_5
    refine ScatterViews.UN_step_cov (XvFacts.xvC L xt fv) hxv _ _ _ (by omega) 5 (by omega) (k0_off10 k) (k0_off10_inb k) _ _ (Geometry.off10_eq k) (by rw [if_pos (by decide), LoopInv.row0_val (by omega)]; omega) (by omega) 0#32 (by decide) 80#32 (by decide) _ _ _ _ ?_
    try unfold trip.sl.f_3
    try unfold trip.sl.H0_4
    refine ScatterViews.UN_step_cov (XvFacts.xvC L xt fv) hxv _ _ _ (by omega) 4 (by omega) (k0_off9 k) (k0_off9_inb k) _ _ (Geometry.off9_eq k) (by rw [if_pos (by decide), LoopInv.row0_val (by omega)]; omega) (by omega) 0#32 (by decide) 64#32 (by decide) _ _ _ _ ?_
    try unfold trip.sl.f_2
    try unfold trip.sl.H0_3
    refine ScatterViews.UN_step_cov (XvFacts.xvC L xt fv) hxv _ _ _ (by omega) 3 (by omega) (k0_off8 k) (k0_off8_inb k) _ _ (Geometry.off8_eq k) (by rw [if_pos (by decide), LoopInv.row0_val (by omega)]; omega) (by omega) 0#32 (by decide) 48#32 (by decide) _ _ _ _ ?_
    try unfold trip.sl.f_1
    try unfold trip.sl.H0_2
    refine ScatterViews.UN_step_cov (XvFacts.xvC L xt fv) hxv _ _ _ (by omega) 2 (by omega) (k0_off7 k) (k0_off7_inb k) _ _ (Geometry.off7_eq k) (by rw [if_pos (by decide), LoopInv.row0_val (by omega)]; omega) (by omega) 0#32 (by decide) 32#32 (by decide) _ _ _ _ ?_
    try unfold trip.sl.f
    try unfold trip.sl.H0_1
    refine ScatterViews.UN_step_cov (XvFacts.xvC L xt fv) hxv _ _ _ (by omega) 1 (by omega) (k0_off6 k) (k0_off6_inb k) _ _ (Geometry.off6_eq k) (by rw [if_pos (by decide), LoopInv.row0_val (by omega)]; omega) (by omega) 0#32 (by decide) 16#32 (by decide) _ _ _ _ ?_
    refine ScatterViews.UN_step_at (XvFacts.xvC L xt fv) hxv _ _ _ (by omega) 0 (by omega) (k0_off5 k) (k0_off5_inb k) _ _ (Geometry.off5_eq k) (by rw [if_pos (by decide), LoopInv.row0_val (by omega)]; omega) (by omega) 0#32 (by decide) 0#32 (by decide) _ _ _ ?_
    exact ScatterFacts.UN_of_OH (XvFacts.xvC L xt fv) (LoopInv.row0 (2 * k.val)) (LoopInv.row1 (2 * k.val)) (256 * ((2 * k.val) % 2)) _ hg0
  have hpic1 : LoopInv.Pic L xt fv (2 * (k.val + 1) + 1) ((b1W).view.writes (Elt F) g1 (trip.sl.H1_64 L xt fv k hxv g1)) := by
    unfold LoopInv.Pic
    try unfold trip.sl.H1_64
    refine ScatterViews.OH_writes2 _ _ _ _ 32 _ _ _ ?_
    try unfold trip.sl.f_125
    try unfold trip.sl.H1_63
    refine ScatterViews.OH_step_cov2 (XvFacts.xvC L xt fv) hxv _ _ _ (by omega) 31 (by omega) (k0_off134 k) (k0_off134_inb k) _ _ (Geometry.off134_eq k) (by rw [if_neg (by decide), LoopInv.row1_val (by omega)]; omega) (by omega) 100#32 (by decide) 240#32 (by decide) _ _ _ _ ?_
    try unfold trip.sl.f_124
    try unfold trip.sl.H1_62
    refine ScatterViews.OH_step_cov2 (XvFacts.xvC L xt fv) hxv _ _ _ (by omega) 30 (by omega) (k0_off133 k) (k0_off133_inb k) _ _ (Geometry.off133_eq k) (by rw [if_neg (by decide), LoopInv.row1_val (by omega)]; omega) (by omega) 100#32 (by decide) 224#32 (by decide) _ _ _ _ ?_
    try unfold trip.sl.f_123
    try unfold trip.sl.H1_61
    refine ScatterViews.OH_step_cov2 (XvFacts.xvC L xt fv) hxv _ _ _ (by omega) 29 (by omega) (k0_off132 k) (k0_off132_inb k) _ _ (Geometry.off132_eq k) (by rw [if_neg (by decide), LoopInv.row1_val (by omega)]; omega) (by omega) 100#32 (by decide) 208#32 (by decide) _ _ _ _ ?_
    try unfold trip.sl.f_122
    try unfold trip.sl.H1_60
    refine ScatterViews.OH_step_cov2 (XvFacts.xvC L xt fv) hxv _ _ _ (by omega) 28 (by omega) (k0_off131 k) (k0_off131_inb k) _ _ (Geometry.off131_eq k) (by rw [if_neg (by decide), LoopInv.row1_val (by omega)]; omega) (by omega) 100#32 (by decide) 192#32 (by decide) _ _ _ _ ?_
    try unfold trip.sl.f_121
    try unfold trip.sl.H1_59
    refine ScatterViews.OH_step_cov2 (XvFacts.xvC L xt fv) hxv _ _ _ (by omega) 27 (by omega) (k0_off130 k) (k0_off130_inb k) _ _ (Geometry.off130_eq k) (by rw [if_neg (by decide), LoopInv.row1_val (by omega)]; omega) (by omega) 100#32 (by decide) 176#32 (by decide) _ _ _ _ ?_
    try unfold trip.sl.f_120
    try unfold trip.sl.H1_58
    refine ScatterViews.OH_step_cov2 (XvFacts.xvC L xt fv) hxv _ _ _ (by omega) 26 (by omega) (k0_off129 k) (k0_off129_inb k) _ _ (Geometry.off129_eq k) (by rw [if_neg (by decide), LoopInv.row1_val (by omega)]; omega) (by omega) 100#32 (by decide) 160#32 (by decide) _ _ _ _ ?_
    try unfold trip.sl.f_119
    try unfold trip.sl.H1_57
    refine ScatterViews.OH_step_cov2 (XvFacts.xvC L xt fv) hxv _ _ _ (by omega) 25 (by omega) (k0_off128 k) (k0_off128_inb k) _ _ (Geometry.off128_eq k) (by rw [if_neg (by decide), LoopInv.row1_val (by omega)]; omega) (by omega) 100#32 (by decide) 144#32 (by decide) _ _ _ _ ?_
    try unfold trip.sl.f_118
    try unfold trip.sl.H1_56
    refine ScatterViews.OH_step_cov2 (XvFacts.xvC L xt fv) hxv _ _ _ (by omega) 24 (by omega) (k0_off127 k) (k0_off127_inb k) _ _ (Geometry.off127_eq k) (by rw [if_neg (by decide), LoopInv.row1_val (by omega)]; omega) (by omega) 100#32 (by decide) 128#32 (by decide) _ _ _ _ ?_
    try unfold trip.sl.f_117
    try unfold trip.sl.H1_55
    refine ScatterViews.OH_step_cov2 (XvFacts.xvC L xt fv) hxv _ _ _ (by omega) 23 (by omega) (k0_off126 k) (k0_off126_inb k) _ _ (Geometry.off126_eq k) (by rw [if_neg (by decide), LoopInv.row1_val (by omega)]; omega) (by omega) 100#32 (by decide) 112#32 (by decide) _ _ _ _ ?_
    try unfold trip.sl.f_116
    try unfold trip.sl.H1_54
    refine ScatterViews.OH_step_cov2 (XvFacts.xvC L xt fv) hxv _ _ _ (by omega) 22 (by omega) (k0_off125 k) (k0_off125_inb k) _ _ (Geometry.off125_eq k) (by rw [if_neg (by decide), LoopInv.row1_val (by omega)]; omega) (by omega) 100#32 (by decide) 96#32 (by decide) _ _ _ _ ?_
    try unfold trip.sl.f_115
    try unfold trip.sl.H1_53
    refine ScatterViews.OH_step_cov2 (XvFacts.xvC L xt fv) hxv _ _ _ (by omega) 21 (by omega) (k0_off124 k) (k0_off124_inb k) _ _ (Geometry.off124_eq k) (by rw [if_neg (by decide), LoopInv.row1_val (by omega)]; omega) (by omega) 100#32 (by decide) 80#32 (by decide) _ _ _ _ ?_
    try unfold trip.sl.f_114
    try unfold trip.sl.H1_52
    refine ScatterViews.OH_step_cov2 (XvFacts.xvC L xt fv) hxv _ _ _ (by omega) 20 (by omega) (k0_off123 k) (k0_off123_inb k) _ _ (Geometry.off123_eq k) (by rw [if_neg (by decide), LoopInv.row1_val (by omega)]; omega) (by omega) 100#32 (by decide) 64#32 (by decide) _ _ _ _ ?_
    try unfold trip.sl.f_113
    try unfold trip.sl.H1_51
    refine ScatterViews.OH_step_cov2 (XvFacts.xvC L xt fv) hxv _ _ _ (by omega) 19 (by omega) (k0_off122 k) (k0_off122_inb k) _ _ (Geometry.off122_eq k) (by rw [if_neg (by decide), LoopInv.row1_val (by omega)]; omega) (by omega) 100#32 (by decide) 48#32 (by decide) _ _ _ _ ?_
    try unfold trip.sl.f_112
    try unfold trip.sl.H1_50
    refine ScatterViews.OH_step_cov2 (XvFacts.xvC L xt fv) hxv _ _ _ (by omega) 18 (by omega) (k0_off121 k) (k0_off121_inb k) _ _ (Geometry.off121_eq k) (by rw [if_neg (by decide), LoopInv.row1_val (by omega)]; omega) (by omega) 100#32 (by decide) 32#32 (by decide) _ _ _ _ ?_
    try unfold trip.sl.f_111
    try unfold trip.sl.H1_49
    refine ScatterViews.OH_step_cov2 (XvFacts.xvC L xt fv) hxv _ _ _ (by omega) 17 (by omega) (k0_off120 k) (k0_off120_inb k) _ _ (Geometry.off120_eq k) (by rw [if_neg (by decide), LoopInv.row1_val (by omega)]; omega) (by omega) 100#32 (by decide) 16#32 (by decide) _ _ _ _ ?_
    try unfold trip.sl.f_110
    try unfold trip.sl.H1_48
    refine ScatterViews.OH_step_cov2 (XvFacts.xvC L xt fv) hxv _ _ _ (by omega) 16 (by omega) (k0_off119 k) (k0_off119_inb k) _ _ (Geometry.off119_eq k) (by rw [if_neg (by decide), LoopInv.row1_val (by omega)]; omega) (by omega) 100#32 (by decide) 0#32 (by decide) _ _ _ _ ?_
    try unfold trip.sl.f_109
    try unfold trip.sl.H1_47
    refine ScatterViews.OH_step_cov2 (XvFacts.xvC L xt fv) hxv _ _ _ (by omega) 15 (by omega) (k0_off118 k) (k0_off118_inb k) _ _ (Geometry.off118_eq k) (by rw [if_pos (by decide), LoopInv.row0_val (by omega)]; omega) (by omega) 0#32 (by decide) 240#32 (by decide) _ _ _ _ ?_
    try unfold trip.sl.f_108
    try unfold trip.sl.H1_46
    refine ScatterViews.OH_step_cov2 (XvFacts.xvC L xt fv) hxv _ _ _ (by omega) 14 (by omega) (k0_off117 k) (k0_off117_inb k) _ _ (Geometry.off117_eq k) (by rw [if_pos (by decide), LoopInv.row0_val (by omega)]; omega) (by omega) 0#32 (by decide) 224#32 (by decide) _ _ _ _ ?_
    try unfold trip.sl.f_107
    try unfold trip.sl.H1_45
    refine ScatterViews.OH_step_cov2 (XvFacts.xvC L xt fv) hxv _ _ _ (by omega) 13 (by omega) (k0_off116 k) (k0_off116_inb k) _ _ (Geometry.off116_eq k) (by rw [if_pos (by decide), LoopInv.row0_val (by omega)]; omega) (by omega) 0#32 (by decide) 208#32 (by decide) _ _ _ _ ?_
    try unfold trip.sl.f_106
    try unfold trip.sl.H1_44
    refine ScatterViews.OH_step_cov2 (XvFacts.xvC L xt fv) hxv _ _ _ (by omega) 12 (by omega) (k0_off115 k) (k0_off115_inb k) _ _ (Geometry.off115_eq k) (by rw [if_pos (by decide), LoopInv.row0_val (by omega)]; omega) (by omega) 0#32 (by decide) 192#32 (by decide) _ _ _ _ ?_
    try unfold trip.sl.f_105
    try unfold trip.sl.H1_43
    refine ScatterViews.OH_step_cov2 (XvFacts.xvC L xt fv) hxv _ _ _ (by omega) 11 (by omega) (k0_off114 k) (k0_off114_inb k) _ _ (Geometry.off114_eq k) (by rw [if_pos (by decide), LoopInv.row0_val (by omega)]; omega) (by omega) 0#32 (by decide) 176#32 (by decide) _ _ _ _ ?_
    try unfold trip.sl.f_104
    try unfold trip.sl.H1_42
    refine ScatterViews.OH_step_cov2 (XvFacts.xvC L xt fv) hxv _ _ _ (by omega) 10 (by omega) (k0_off113 k) (k0_off113_inb k) _ _ (Geometry.off113_eq k) (by rw [if_pos (by decide), LoopInv.row0_val (by omega)]; omega) (by omega) 0#32 (by decide) 160#32 (by decide) _ _ _ _ ?_
    try unfold trip.sl.f_103
    try unfold trip.sl.H1_41
    refine ScatterViews.OH_step_cov2 (XvFacts.xvC L xt fv) hxv _ _ _ (by omega) 9 (by omega) (k0_off112 k) (k0_off112_inb k) _ _ (Geometry.off112_eq k) (by rw [if_pos (by decide), LoopInv.row0_val (by omega)]; omega) (by omega) 0#32 (by decide) 144#32 (by decide) _ _ _ _ ?_
    try unfold trip.sl.f_102
    try unfold trip.sl.H1_40
    refine ScatterViews.OH_step_cov2 (XvFacts.xvC L xt fv) hxv _ _ _ (by omega) 8 (by omega) (k0_off111 k) (k0_off111_inb k) _ _ (Geometry.off111_eq k) (by rw [if_pos (by decide), LoopInv.row0_val (by omega)]; omega) (by omega) 0#32 (by decide) 128#32 (by decide) _ _ _ _ ?_
    try unfold trip.sl.f_101
    try unfold trip.sl.H1_39
    refine ScatterViews.OH_step_cov2 (XvFacts.xvC L xt fv) hxv _ _ _ (by omega) 7 (by omega) (k0_off110 k) (k0_off110_inb k) _ _ (Geometry.off110_eq k) (by rw [if_pos (by decide), LoopInv.row0_val (by omega)]; omega) (by omega) 0#32 (by decide) 112#32 (by decide) _ _ _ _ ?_
    try unfold trip.sl.f_100
    try unfold trip.sl.H1_38
    refine ScatterViews.OH_step_cov2 (XvFacts.xvC L xt fv) hxv _ _ _ (by omega) 6 (by omega) (k0_off109 k) (k0_off109_inb k) _ _ (Geometry.off109_eq k) (by rw [if_pos (by decide), LoopInv.row0_val (by omega)]; omega) (by omega) 0#32 (by decide) 96#32 (by decide) _ _ _ _ ?_
    try unfold trip.sl.f_99
    try unfold trip.sl.H1_37
    refine ScatterViews.OH_step_cov2 (XvFacts.xvC L xt fv) hxv _ _ _ (by omega) 5 (by omega) (k0_off108 k) (k0_off108_inb k) _ _ (Geometry.off108_eq k) (by rw [if_pos (by decide), LoopInv.row0_val (by omega)]; omega) (by omega) 0#32 (by decide) 80#32 (by decide) _ _ _ _ ?_
    try unfold trip.sl.f_98
    try unfold trip.sl.H1_36
    refine ScatterViews.OH_step_cov2 (XvFacts.xvC L xt fv) hxv _ _ _ (by omega) 4 (by omega) (k0_off107 k) (k0_off107_inb k) _ _ (Geometry.off107_eq k) (by rw [if_pos (by decide), LoopInv.row0_val (by omega)]; omega) (by omega) 0#32 (by decide) 64#32 (by decide) _ _ _ _ ?_
    try unfold trip.sl.f_97
    try unfold trip.sl.H1_35
    refine ScatterViews.OH_step_cov2 (XvFacts.xvC L xt fv) hxv _ _ _ (by omega) 3 (by omega) (k0_off106 k) (k0_off106_inb k) _ _ (Geometry.off106_eq k) (by rw [if_pos (by decide), LoopInv.row0_val (by omega)]; omega) (by omega) 0#32 (by decide) 48#32 (by decide) _ _ _ _ ?_
    try unfold trip.sl.f_96
    try unfold trip.sl.H1_34
    refine ScatterViews.OH_step_cov2 (XvFacts.xvC L xt fv) hxv _ _ _ (by omega) 2 (by omega) (k0_off105 k) (k0_off105_inb k) _ _ (Geometry.off105_eq k) (by rw [if_pos (by decide), LoopInv.row0_val (by omega)]; omega) (by omega) 0#32 (by decide) 32#32 (by decide) _ _ _ _ ?_
    try unfold trip.sl.f_95
    try unfold trip.sl.H1_33
    refine ScatterViews.OH_step_cov2 (XvFacts.xvC L xt fv) hxv _ _ _ (by omega) 1 (by omega) (k0_off104 k) (k0_off104_inb k) _ _ (Geometry.off104_eq k) (by rw [if_pos (by decide), LoopInv.row0_val (by omega)]; omega) (by omega) 0#32 (by decide) 16#32 (by decide) _ _ _ _ ?_
    try unfold trip.sl.f_94
    try unfold trip.sl.H1_32
    refine ScatterViews.OH_step_cov2 (XvFacts.xvC L xt fv) hxv _ _ _ (by omega) 0 (by omega) (k0_off103 k) (k0_off103_inb k) _ _ (Geometry.off103_eq k) (by rw [if_pos (by decide), LoopInv.row0_val (by omega)]; omega) (by omega) 0#32 (by decide) 0#32 (by decide) _ _ _ _ ?_
    refine ScatterFacts.OH_zero _ _ _ _ _ (ScatterFacts.UN_full (XvFacts.xvC L xt fv) (LoopInv.row0 (2 * k.val + 1)) (LoopInv.row1 (2 * k.val + 1)) (256 * ((2 * k.val + 1) % 2)) _ ?_)
    try unfold trip.sl.f_93
    try unfold trip.sl.H1_31
    refine ScatterViews.UN_step_cov2 (XvFacts.xvC L xt fv) hxv _ _ _ (by omega) 31 (by omega) (k0_off102 k) (k0_off102_inb k) _ _ (Geometry.off102_eq k) (by rw [if_neg (by decide), LoopInv.row1_val (by omega)]; omega) (by omega) 100#32 (by decide) 240#32 (by decide) _ _ _ _ ?_
    try unfold trip.sl.f_92
    try unfold trip.sl.H1_30
    refine ScatterViews.UN_step_cov2 (XvFacts.xvC L xt fv) hxv _ _ _ (by omega) 30 (by omega) (k0_off101 k) (k0_off101_inb k) _ _ (Geometry.off101_eq k) (by rw [if_neg (by decide), LoopInv.row1_val (by omega)]; omega) (by omega) 100#32 (by decide) 224#32 (by decide) _ _ _ _ ?_
    try unfold trip.sl.f_91
    try unfold trip.sl.H1_29
    refine ScatterViews.UN_step_cov2 (XvFacts.xvC L xt fv) hxv _ _ _ (by omega) 29 (by omega) (k0_off100 k) (k0_off100_inb k) _ _ (Geometry.off100_eq k) (by rw [if_neg (by decide), LoopInv.row1_val (by omega)]; omega) (by omega) 100#32 (by decide) 208#32 (by decide) _ _ _ _ ?_
    try unfold trip.sl.f_90
    try unfold trip.sl.H1_28
    refine ScatterViews.UN_step_cov2 (XvFacts.xvC L xt fv) hxv _ _ _ (by omega) 28 (by omega) (k0_off99 k) (k0_off99_inb k) _ _ (Geometry.off99_eq k) (by rw [if_neg (by decide), LoopInv.row1_val (by omega)]; omega) (by omega) 100#32 (by decide) 192#32 (by decide) _ _ _ _ ?_
    try unfold trip.sl.f_89
    try unfold trip.sl.H1_27
    refine ScatterViews.UN_step_cov2 (XvFacts.xvC L xt fv) hxv _ _ _ (by omega) 27 (by omega) (k0_off98 k) (k0_off98_inb k) _ _ (Geometry.off98_eq k) (by rw [if_neg (by decide), LoopInv.row1_val (by omega)]; omega) (by omega) 100#32 (by decide) 176#32 (by decide) _ _ _ _ ?_
    try unfold trip.sl.f_88
    try unfold trip.sl.H1_26
    refine ScatterViews.UN_step_cov2 (XvFacts.xvC L xt fv) hxv _ _ _ (by omega) 26 (by omega) (k0_off97 k) (k0_off97_inb k) _ _ (Geometry.off97_eq k) (by rw [if_neg (by decide), LoopInv.row1_val (by omega)]; omega) (by omega) 100#32 (by decide) 160#32 (by decide) _ _ _ _ ?_
    try unfold trip.sl.f_87
    try unfold trip.sl.H1_25
    refine ScatterViews.UN_step_cov2 (XvFacts.xvC L xt fv) hxv _ _ _ (by omega) 25 (by omega) (k0_off96 k) (k0_off96_inb k) _ _ (Geometry.off96_eq k) (by rw [if_neg (by decide), LoopInv.row1_val (by omega)]; omega) (by omega) 100#32 (by decide) 144#32 (by decide) _ _ _ _ ?_
    try unfold trip.sl.f_86
    try unfold trip.sl.H1_24
    refine ScatterViews.UN_step_cov2 (XvFacts.xvC L xt fv) hxv _ _ _ (by omega) 24 (by omega) (k0_off95 k) (k0_off95_inb k) _ _ (Geometry.off95_eq k) (by rw [if_neg (by decide), LoopInv.row1_val (by omega)]; omega) (by omega) 100#32 (by decide) 128#32 (by decide) _ _ _ _ ?_
    try unfold trip.sl.f_85
    try unfold trip.sl.H1_23
    refine ScatterViews.UN_step_cov2 (XvFacts.xvC L xt fv) hxv _ _ _ (by omega) 23 (by omega) (k0_off94 k) (k0_off94_inb k) _ _ (Geometry.off94_eq k) (by rw [if_neg (by decide), LoopInv.row1_val (by omega)]; omega) (by omega) 100#32 (by decide) 112#32 (by decide) _ _ _ _ ?_
    try unfold trip.sl.f_84
    try unfold trip.sl.H1_22
    refine ScatterViews.UN_step_cov2 (XvFacts.xvC L xt fv) hxv _ _ _ (by omega) 22 (by omega) (k0_off93 k) (k0_off93_inb k) _ _ (Geometry.off93_eq k) (by rw [if_neg (by decide), LoopInv.row1_val (by omega)]; omega) (by omega) 100#32 (by decide) 96#32 (by decide) _ _ _ _ ?_
    try unfold trip.sl.f_83
    try unfold trip.sl.H1_21
    refine ScatterViews.UN_step_cov2 (XvFacts.xvC L xt fv) hxv _ _ _ (by omega) 21 (by omega) (k0_off92 k) (k0_off92_inb k) _ _ (Geometry.off92_eq k) (by rw [if_neg (by decide), LoopInv.row1_val (by omega)]; omega) (by omega) 100#32 (by decide) 80#32 (by decide) _ _ _ _ ?_
    try unfold trip.sl.f_82
    try unfold trip.sl.H1_20
    refine ScatterViews.UN_step_cov2 (XvFacts.xvC L xt fv) hxv _ _ _ (by omega) 20 (by omega) (k0_off91 k) (k0_off91_inb k) _ _ (Geometry.off91_eq k) (by rw [if_neg (by decide), LoopInv.row1_val (by omega)]; omega) (by omega) 100#32 (by decide) 64#32 (by decide) _ _ _ _ ?_
    try unfold trip.sl.f_81
    try unfold trip.sl.H1_19
    refine ScatterViews.UN_step_cov2 (XvFacts.xvC L xt fv) hxv _ _ _ (by omega) 19 (by omega) (k0_off90 k) (k0_off90_inb k) _ _ (Geometry.off90_eq k) (by rw [if_neg (by decide), LoopInv.row1_val (by omega)]; omega) (by omega) 100#32 (by decide) 48#32 (by decide) _ _ _ _ ?_
    try unfold trip.sl.f_80
    try unfold trip.sl.H1_18
    refine ScatterViews.UN_step_cov2 (XvFacts.xvC L xt fv) hxv _ _ _ (by omega) 18 (by omega) (k0_off89 k) (k0_off89_inb k) _ _ (Geometry.off89_eq k) (by rw [if_neg (by decide), LoopInv.row1_val (by omega)]; omega) (by omega) 100#32 (by decide) 32#32 (by decide) _ _ _ _ ?_
    try unfold trip.sl.f_79
    try unfold trip.sl.H1_17
    refine ScatterViews.UN_step_cov2 (XvFacts.xvC L xt fv) hxv _ _ _ (by omega) 17 (by omega) (k0_off88 k) (k0_off88_inb k) _ _ (Geometry.off88_eq k) (by rw [if_neg (by decide), LoopInv.row1_val (by omega)]; omega) (by omega) 100#32 (by decide) 16#32 (by decide) _ _ _ _ ?_
    try unfold trip.sl.f_78
    try unfold trip.sl.H1_16
    refine ScatterViews.UN_step_cov2 (XvFacts.xvC L xt fv) hxv _ _ _ (by omega) 16 (by omega) (k0_off87 k) (k0_off87_inb k) _ _ (Geometry.off87_eq k) (by rw [if_neg (by decide), LoopInv.row1_val (by omega)]; omega) (by omega) 100#32 (by decide) 0#32 (by decide) _ _ _ _ ?_
    try unfold trip.sl.f_77
    try unfold trip.sl.H1_15
    refine ScatterViews.UN_step_cov2 (XvFacts.xvC L xt fv) hxv _ _ _ (by omega) 15 (by omega) (k0_off86 k) (k0_off86_inb k) _ _ (Geometry.off86_eq k) (by rw [if_pos (by decide), LoopInv.row0_val (by omega)]; omega) (by omega) 0#32 (by decide) 240#32 (by decide) _ _ _ _ ?_
    try unfold trip.sl.f_76
    try unfold trip.sl.H1_14
    refine ScatterViews.UN_step_cov2 (XvFacts.xvC L xt fv) hxv _ _ _ (by omega) 14 (by omega) (k0_off85 k) (k0_off85_inb k) _ _ (Geometry.off85_eq k) (by rw [if_pos (by decide), LoopInv.row0_val (by omega)]; omega) (by omega) 0#32 (by decide) 224#32 (by decide) _ _ _ _ ?_
    try unfold trip.sl.f_75
    try unfold trip.sl.H1_13
    refine ScatterViews.UN_step_cov2 (XvFacts.xvC L xt fv) hxv _ _ _ (by omega) 13 (by omega) (k0_off84 k) (k0_off84_inb k) _ _ (Geometry.off84_eq k) (by rw [if_pos (by decide), LoopInv.row0_val (by omega)]; omega) (by omega) 0#32 (by decide) 208#32 (by decide) _ _ _ _ ?_
    try unfold trip.sl.f_74
    try unfold trip.sl.H1_12
    refine ScatterViews.UN_step_cov2 (XvFacts.xvC L xt fv) hxv _ _ _ (by omega) 12 (by omega) (k0_off83 k) (k0_off83_inb k) _ _ (Geometry.off83_eq k) (by rw [if_pos (by decide), LoopInv.row0_val (by omega)]; omega) (by omega) 0#32 (by decide) 192#32 (by decide) _ _ _ _ ?_
    try unfold trip.sl.f_73
    try unfold trip.sl.H1_11
    refine ScatterViews.UN_step_cov2 (XvFacts.xvC L xt fv) hxv _ _ _ (by omega) 11 (by omega) (k0_off82 k) (k0_off82_inb k) _ _ (Geometry.off82_eq k) (by rw [if_pos (by decide), LoopInv.row0_val (by omega)]; omega) (by omega) 0#32 (by decide) 176#32 (by decide) _ _ _ _ ?_
    try unfold trip.sl.f_72
    try unfold trip.sl.H1_10
    refine ScatterViews.UN_step_cov2 (XvFacts.xvC L xt fv) hxv _ _ _ (by omega) 10 (by omega) (k0_off81 k) (k0_off81_inb k) _ _ (Geometry.off81_eq k) (by rw [if_pos (by decide), LoopInv.row0_val (by omega)]; omega) (by omega) 0#32 (by decide) 160#32 (by decide) _ _ _ _ ?_
    try unfold trip.sl.f_71
    try unfold trip.sl.H1_9
    refine ScatterViews.UN_step_cov2 (XvFacts.xvC L xt fv) hxv _ _ _ (by omega) 9 (by omega) (k0_off80 k) (k0_off80_inb k) _ _ (Geometry.off80_eq k) (by rw [if_pos (by decide), LoopInv.row0_val (by omega)]; omega) (by omega) 0#32 (by decide) 144#32 (by decide) _ _ _ _ ?_
    try unfold trip.sl.f_70
    try unfold trip.sl.H1_8
    refine ScatterViews.UN_step_cov2 (XvFacts.xvC L xt fv) hxv _ _ _ (by omega) 8 (by omega) (k0_off79 k) (k0_off79_inb k) _ _ (Geometry.off79_eq k) (by rw [if_pos (by decide), LoopInv.row0_val (by omega)]; omega) (by omega) 0#32 (by decide) 128#32 (by decide) _ _ _ _ ?_
    try unfold trip.sl.f_69
    try unfold trip.sl.H1_7
    refine ScatterViews.UN_step_cov2 (XvFacts.xvC L xt fv) hxv _ _ _ (by omega) 7 (by omega) (k0_off78 k) (k0_off78_inb k) _ _ (Geometry.off78_eq k) (by rw [if_pos (by decide), LoopInv.row0_val (by omega)]; omega) (by omega) 0#32 (by decide) 112#32 (by decide) _ _ _ _ ?_
    try unfold trip.sl.f_68
    try unfold trip.sl.H1_6
    refine ScatterViews.UN_step_cov2 (XvFacts.xvC L xt fv) hxv _ _ _ (by omega) 6 (by omega) (k0_off77 k) (k0_off77_inb k) _ _ (Geometry.off77_eq k) (by rw [if_pos (by decide), LoopInv.row0_val (by omega)]; omega) (by omega) 0#32 (by decide) 96#32 (by decide) _ _ _ _ ?_
    try unfold trip.sl.f_67
    try unfold trip.sl.H1_5
    refine ScatterViews.UN_step_cov2 (XvFacts.xvC L xt fv) hxv _ _ _ (by omega) 5 (by omega) (k0_off76 k) (k0_off76_inb k) _ _ (Geometry.off76_eq k) (by rw [if_pos (by decide), LoopInv.row0_val (by omega)]; omega) (by omega) 0#32 (by decide) 80#32 (by decide) _ _ _ _ ?_
    try unfold trip.sl.f_66
    try unfold trip.sl.H1_4
    refine ScatterViews.UN_step_cov2 (XvFacts.xvC L xt fv) hxv _ _ _ (by omega) 4 (by omega) (k0_off75 k) (k0_off75_inb k) _ _ (Geometry.off75_eq k) (by rw [if_pos (by decide), LoopInv.row0_val (by omega)]; omega) (by omega) 0#32 (by decide) 64#32 (by decide) _ _ _ _ ?_
    try unfold trip.sl.f_65
    try unfold trip.sl.H1_3
    refine ScatterViews.UN_step_cov2 (XvFacts.xvC L xt fv) hxv _ _ _ (by omega) 3 (by omega) (k0_off74 k) (k0_off74_inb k) _ _ (Geometry.off74_eq k) (by rw [if_pos (by decide), LoopInv.row0_val (by omega)]; omega) (by omega) 0#32 (by decide) 48#32 (by decide) _ _ _ _ ?_
    try unfold trip.sl.f_64
    try unfold trip.sl.H1_2
    refine ScatterViews.UN_step_cov2 (XvFacts.xvC L xt fv) hxv _ _ _ (by omega) 2 (by omega) (k0_off73 k) (k0_off73_inb k) _ _ (Geometry.off73_eq k) (by rw [if_pos (by decide), LoopInv.row0_val (by omega)]; omega) (by omega) 0#32 (by decide) 32#32 (by decide) _ _ _ _ ?_
    try unfold trip.sl.f_63
    try unfold trip.sl.H1_1
    refine ScatterViews.UN_step_cov2 (XvFacts.xvC L xt fv) hxv _ _ _ (by omega) 1 (by omega) (k0_off72 k) (k0_off72_inb k) _ _ (Geometry.off72_eq k) (by rw [if_pos (by decide), LoopInv.row0_val (by omega)]; omega) (by omega) 0#32 (by decide) 16#32 (by decide) _ _ _ _ ?_
    refine ScatterViews.UN_step_at2 (XvFacts.xvC L xt fv) hxv _ _ _ (by omega) 0 (by omega) (k0_off71 k) (k0_off71_inb k) _ _ (Geometry.off71_eq k) (by rw [if_pos (by decide), LoopInv.row0_val (by omega)]; omega) (by omega) 0#32 (by decide) 0#32 (by decide) _ _ _ ?_
    exact ScatterFacts.UN_of_OH (XvFacts.xvC L xt fv) (LoopInv.row0 (2 * k.val + 1)) (LoopInv.row1 (2 * k.val + 1)) (256 * ((2 * k.val + 1) % 2)) _ hg1
  -- the trip's end: the invariant one trip on
  sl_step
  icases H0 with -
  icases H1 with -
  unfold trip.sl.dma8
  unfold trip.sl.dma11
  ihave Hf3 := (TripB.flight0_exec d L xt hx fv fo (2 * (k.val + 1)) (by omega) (k0_off69 L k) (k0_off69_inb L k) (Geometry.off69_eq L k) _ hpic0 _ _ _) $$ Hs3
  ihave Hf4 := (TripB.flight1_exec d L xt hx fv fo (2 * (k.val + 1) + 1) (by omega) (k0_off135 L k) (k0_off135_inb L k) (Geometry.off135_eq L k) _ hpic1 _ _ _) $$ Hs4
  isplitr; · iexact Hmw
  isplitl [Hv]; · iexact Hv
  isplitl [Hf3]; · iexact Hf3
  isplitl [Hf4]; · iexact Hf4
  isplitl [Hdone Hc0 Hc1]
  · rw [show 2 * (k.val + 1) = 2 * k.val + 2 by ring, ChunkSep.range_add_two]
    isplitl [Hdone]; · iexact Hdone
    isplitl [Hc0]; · iexact Hc0
    iexact Hc1
  isplitl [Hrest]
  · rw [show 2 * (k.val + 1) + 2 = 2 * k.val + 2 + 2 by ring]; iexact Hrest
  iexists (insert (SemLoc.dma cc0_scratch4.sem, (default : HIx 1)) (insert (SemLoc.dma cc0_scratch3.sem, (default : HIx 1)) W')); isplitr
  · ipureintro
    intro p hp
    rcases Finset.mem_insert.mp hp with hp | hp
    · subst hp; exact .inr rfl
    rcases Finset.mem_insert.mp hp with hp | hp
    · subst hp; exact .inr rfl
    · exact hW' p hp
  · iexact HO

end Cert.Kernel.Trip

end
-- ==== Proof.K_Prefix.lean ====
/-
  The run of the tile's program.

  The tile fetches its slab of the transposed table, zeroes its first buffer, writes chunk 0's one-hot picture into it
  (32 stores of ones, sixteen lanes each) and starts copying the buffer out to chunk 0 of its output slab; it does the
  same with the second buffer and chunk 1. Then, twelve times, once the two copies in flight have landed it takes the
  ones out of the two buffers again, writes the pictures of the next two chunks and starts copying those. At the end it
  waits for the last two copies. Every one of the 26 chunks of the slab then holds its part of the coding of the
  transposed table, the table's slab is as it was, and the buffers and semaphores are back.

  A scatter's index vectors stay inside the 200 x 256 buffer: a row index is a class number below 100 plus 0 or 100, a
  column index a multiple of sixteen up to 240 plus a lane number below 16.
-/
import proofs.«212700_g8504035246323_cont_9to1_m_53_19_alg».proof.Proof.K_TileBase
import proofs.«212700_g8504035246323_cont_9to1_m_53_19_alg».proof.Proof.LibWholeWrites
import proofs.«212700_g8504035246323_cont_9to1_m_53_19_alg».proof.Proof.K_ZeroFacts
import proofs.«212700_g8504035246323_cont_9to1_m_53_19_alg».proof.Proof.K_ZeroViews
import proofs.«212700_g8504035246323_cont_9to1_m_53_19_alg».proof.Proof.K_TileBase2
import proofs.«212700_g8504035246323_cont_9to1_m_53_19_alg».proof.Proof.K_ZeroTrip
import proofs.«212700_g8504035246323_cont_9to1_m_53_19_alg».proof.Proof.K_ZeroFacts2
import proofs.«212700_g8504035246323_cont_9to1_m_53_19_alg».proof.Proof.K_ZeroViews2
import proofs.«212700_g8504035246323_cont_9to1_m_53_19_alg».proof.Proof.K_ZeroTrip2
import proofs.«212700_g8504035246323_cont_9to1_m_53_19_alg».proof.Proof.K_XvFacts
import proofs.«212700_g8504035246323_cont_9to1_m_53_19_alg».proof.Proof.K_Geometry
import proofs.«212700_g8504035246323_cont_9to1_m_53_19_alg».proof.Proof.K_ChunkSep
import proofs.«212700_g8504035246323_cont_9to1_m_53_19_alg».proof.Proof.K_LoopInv
import proofs.«212700_g8504035246323_cont_9to1_m_53_19_alg».proof.Proof.K_TileBody
import proofs.«212700_g8504035246323_cont_9to1_m_53_19_alg».proof.Proof.K_TripB
import proofs.«212700_g8504035246323_cont_9to1_m_53_19_alg».proof.Proof.K_LoopEnds
import proofs.«212700_g8504035246323_cont_9to1_m_53_19_alg».proof.Proof.K_ScatterViews
import proofs.«212700_g8504035246323_cont_9to1_m_53_19_alg».proof.Proof.K_Pictures
import proofs.«212700_g8504035246323_cont_9to1_m_53_19_alg».proof.Proof.K_Trip

noncomputable section

namespace Cert.Kernel.Prefix

open Cert.Kernel.ZeroTrip Cert.Kernel.ZeroTrip2
open Cert.Kernel Cert.Kernel.Gen Cert.Kernel.Tile Cert.Kernel.ZeroFacts Cert.Kernel.ZeroViews Cert.Lib.WholeWrites
open Cert.Kernel.Geometry Cert.Kernel.Contract

open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable [FloatOps F]

local notation "xvW" => (Memref.whole Cert.Kernel.cc0_scratch0 : Memref Cert.Kernel.sig Kind.scVector Space.vmem Cert.Kernel.S26x512 EltTy.i32)

/-- A scatter's range check, from a bound on its row vector and a bound on its column vector. -/
theorem chk_intro (row col : IVec S16 32) (h0 : ∀ x, (row x).toNat < 200) (h1 : ∀ x, (col x).toNat < 256) (a : Fin 2) (x : S16.Idx) :
    ((![row, col] : Fin 2 → IVec S16 32) a x).toNat < S200x256.size a := by
  match a with
  | 0 => exact h0 x
  | 1 => exact h1 x

/-- A row vector: loaded entries below 100, plus 0 or 100. -/
theorem row_lt (ld : Vec F S1x16 .i32) (hld : ∀ y, (ld y : BitVec 32).toNat < 100) (half : BitVec 32) (hh : half.toNat ≤ 100)
    (hs : S1x16.ShapeCasts S16) (x : S16.Idx) : (addi (shapeCast S16 ld hs) (broadcast S16 half) x).toNat < 200 := by
  have h1 : (shapeCast S16 ld hs x : BitVec 32).toNat < 100 := hld _
  simp only [addi, IntOp.addi, broadcast, BitVec.toNat_add]
  omega

/-- A column vector: a multiple of sixteen up to 240, plus the lane. -/
theorem col_lt (base : BitVec 32) (hb : base.toNat ≤ 240) (x : S16.Idx) : (addi (broadcast S16 base) ZeroFacts.lanes x).toNat < 256 := by
  have hx : (x 0).val < 16 := (x 0).isLt
  simp only [addi, IntOp.addi, broadcast, iota, List.foldl, BitVec.toNat_add, BitVec.toNat_ofNat, Matrix.cons_val_zero]
  omega

/-- The first two chunks of the output, as the program slices them. -/
abbrev oSl0 (L : grid0.Coords) : Memref sig .scVector .hbm S200x256 .i32 :=
  (Memref.whole main_v1_scv : Memref sig .scVector .hbm S2600x16384 .i32).slice (Rect.unit (s := S2600x16384) (k0_off2 L) S200x256.size (k0_off2_inb L)) (fun _ => rfl)
abbrev oSl1 (L : grid0.Coords) : Memref sig .scVector .hbm S200x256 .i32 :=
  (Memref.whole main_v1_scv : Memref sig .scVector .hbm S2600x16384 .i32).slice (Rect.unit (s := S2600x16384) (k0_off3 L) S200x256.size (k0_off3_inb L)) (fun _ => rfl)

/-- The zeroing loops' invariants: the columns below sixteen times the trip counter are zero. -/
def zinv (d : Dev nD) (L : grid0.Coords) (t : Nat) (_ : PUnit) : sProp 𝕄 := iprop(∃ g, ⌜ZeroFacts.Z (F := F) t 0 g⌝ ∗ heldB0 (F := F) d L g)
def zinv2 (d : Dev nD) (L : grid0.Coords) (t : Nat) (_ : PUnit) : sProp 𝕄 := iprop(∃ g, ⌜ZeroFacts2.Z (F := F) t 0 g⌝ ∗ heldB1 (F := F) d L g)

set_option maxHeartbeats 4000000 in
/-- The run of the tile's program. -/
theorem tile_run : TileBody.TileRun (F := F) := by
  intro d L O W hO xt hx fo fv f0 f1
  rw [cc0__onehot_body_eq_skeleton]; unfold cc0__onehot_body_skel
  unfold TileBody.heldQ
  have e0 : (((oSl0 L).view.loc (V d (cV L) (jV L)) ↦[(oSl0 L).view.set]{fullShare} fo) : sProp 𝕄)
      = (oLoc d ↦[chunk (wOf L) 0]{fullShare} (fo : Buf (Elt F) (oLoc d))) := by
    rw [Geometry.set_oSl L 0 (k0_off2 L) (k0_off2_inb L) (Geometry.off2_eq L)]
  have e1 : (((oSl1 L).view.loc (V d (cV L) (jV L)) ↦[(oSl1 L).view.set]{fullShare} fo) : sProp 𝕄)
      = (oLoc d ↦[chunk (wOf L) 1]{fullShare} (fo : Buf (Elt F) (oLoc d))) := by
    rw [Geometry.set_oSl L 1 (k0_off3 L) (k0_off3_inb L) (Geometry.off3_eq L)]
  rw [← ChunkSep.tail_all, ChunkSep.tail_split 0 (by decide)]
  iintro ⟨#Hlv, Hx, ⟨Hc0, Hc1, Htail⟩, Hv, H0, H1, Hs3, Hs4, Hs5, HO⟩
  ihave Ho0 := (Entails.of_eq e0.symm) $$ Hc0
  ihave Ho1 := (Entails.of_eq e1.symm) $$ Hc1
  ihave Hmw := ((K (F := F)).mayWaits_none (thr := V d (cV L) (jV L)) hO) $$ Hlv
  have hxs : ∀ i, ((View.write (Elt F) (xvW).view fv (XvFacts.slabRead L xt) Finset.univ) i : BitVec 32).toNat < 100 := fun i => XvFacts.xvC_lt L xt fv hx i
  -- the fetch of the table's slab, then the first zeroing loop
  rw [wp_bind]; rw [k0_part68_eq_skeleton]; unfold k0_part68_skel; unfold SparseCore.vectorStoreIdx
  sl_exec
  sl_for (zinv (F := F) d L) $$ [H0]
  case region =>
    intro k acc
    unfold tile_run.sl.prog.body_1
    unfold zinv
    iintro ⟨%g, %hg, H0⟩
    iapply (zero_trip (F := F) d L k g hg) $$ H0
  · unfold zinv
    iexists f0
    isplitr
    · ipureintro; intro j hj; exfalso; rcases hj with hj | ⟨_, _, h3⟩ <;> omega
    · iexact H0
  iintro %_ HI
  unfold zinv
  icases HI with ⟨%g0, %hg0, H0⟩
  unfold heldB0
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_for (zinv2 (F := F) d L) $$ [H1]
  case region =>
    intro k acc
    unfold tile_run.sl.prog.body_2
    unfold zinv2
    iintro ⟨%g, %hg, H1⟩
    iapply (zero_trip2 (F := F) d L _ _ _ k g hg) $$ H1
  · unfold zinv2
    iexists f1
    isplitr
    · ipureintro; intro j hj; exfalso; rcases hj with hj | ⟨_, _, h3⟩ <;> omega
    · iexact H1
  iintro %_ HI
  unfold zinv2
  icases HI with ⟨%g1, %hg1, H1⟩
  unfold heldB1
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  sl_unfold [SparseCore.vectorStoreIdx]
  sl_exec (disch := (sl_unfold_run_names; refine chk_intro _ _ (fun x => ?_) (fun x => ?_); (refine row_lt _ ?_ _ (by decide) _ x; intro y; exact hxs _); exact col_lt _ (by decide) x))
  -- the two buffers' pictures once their 32 stores of ones are in
  have hpic0 : LoopInv.Pic L xt fv 0 ((Memref.whole cc0_scratch1 : Memref sig .scVector .vmem S200x256 .i32).view.writes (Elt F) g0 (tile_run.sl.H0_32 L xt fv hxs g0)) := by
    unfold LoopInv.Pic
    try unfold tile_run.sl.H0_32
    refine ScatterViews.OH_writes _ _ _ _ 32 _ _ _ ?_
    try unfold tile_run.sl.f_30
    try unfold tile_run.sl.H0_31
    try unfold tile_run.sl.v200 tile_run.sl.v198_ld
    try unfold tile_run.sl.v2
    refine ScatterViews.OH_step_cov _ (XvFacts.xvC_lt L xt fv hx) _ _ _ (by decide) 31 (by decide) _ _ 1 240 rfl (by decide) (by decide) _ (by decide) _ (by decide) _ _ _ _ ?_
    try unfold tile_run.sl.f_29
    try unfold tile_run.sl.H0_30
    try unfold tile_run.sl.v194 tile_run.sl.v192_ld
    try unfold tile_run.sl.v2
    refine ScatterViews.OH_step_cov _ (XvFacts.xvC_lt L xt fv hx) _ _ _ (by decide) 30 (by decide) _ _ 1 224 rfl (by decide) (by decide) _ (by decide) _ (by decide) _ _ _ _ ?_
    try unfold tile_run.sl.f_28
    try unfold tile_run.sl.H0_29
    try unfold tile_run.sl.v188 tile_run.sl.v186_ld
    try unfold tile_run.sl.v2
    refine ScatterViews.OH_step_cov _ (XvFacts.xvC_lt L xt fv hx) _ _ _ (by decide) 29 (by decide) _ _ 1 208 rfl (by decide) (by decide) _ (by decide) _ (by decide) _ _ _ _ ?_
    try unfold tile_run.sl.f_27
    try unfold tile_run.sl.H0_28
    try unfold tile_run.sl.v182 tile_run.sl.v180_ld
    try unfold tile_run.sl.v2
    refine ScatterViews.OH_step_cov _ (XvFacts.xvC_lt L xt fv hx) _ _ _ (by decide) 28 (by decide) _ _ 1 192 rfl (by decide) (by decide) _ (by decide) _ (by decide) _ _ _ _ ?_
    try unfold tile_run.sl.f_26
    try unfold tile_run.sl.H0_27
    try unfold tile_run.sl.v176 tile_run.sl.v174_ld
    try unfold tile_run.sl.v2
    refine ScatterViews.OH_step_cov _ (XvFacts.xvC_lt L xt fv hx) _ _ _ (by decide) 27 (by decide) _ _ 1 176 rfl (by decide) (by decide) _ (by decide) _ (by decide) _ _ _ _ ?_
    try unfold tile_run.sl.f_25
    try unfold tile_run.sl.H0_26
    try unfold tile_run.sl.v170 tile_run.sl.v168_ld
    try unfold tile_run.sl.v2
    refine ScatterViews.OH_step_cov _ (XvFacts.xvC_lt L xt fv hx) _ _ _ (by decide) 26 (by decide) _ _ 1 160 rfl (by decide) (by decide) _ (by decide) _ (by decide) _ _ _ _ ?_
    try unfold tile_run.sl.f_24
    try unfold tile_run.sl.H0_25
    try unfold tile_run.sl.v164 tile_run.sl.v162_ld
    try unfold tile_run.sl.v2
    refine ScatterViews.OH_step_cov _ (XvFacts.xvC_lt L xt fv hx) _ _ _ (by decide) 25 (by decide) _ _ 1 144 rfl (by decide) (by decide) _ (by decide) _ (by decide) _ _ _ _ ?_
    try unfold tile_run.sl.f_23
    try unfold tile_run.sl.H0_24
    try unfold tile_run.sl.v158 tile_run.sl.v156_ld
    try unfold tile_run.sl.v2
    refine ScatterViews.OH_step_cov _ (XvFacts.xvC_lt L xt fv hx) _ _ _ (by decide) 24 (by decide) _ _ 1 128 rfl (by decide) (by decide) _ (by decide) _ (by decide) _ _ _ _ ?_
    try unfold tile_run.sl.f_22
    try unfold tile_run.sl.H0_23
    try unfold tile_run.sl.v152 tile_run.sl.v150_ld
    try unfold tile_run.sl.v2
    refine ScatterViews.OH_step_cov _ (XvFacts.xvC_lt L xt fv hx) _ _ _ (by decide) 23 (by decide) _ _ 1 112 rfl (by decide) (by decide) _ (by decide) _ (by decide) _ _ _ _ ?_
    try unfold tile_run.sl.f_21
    try unfold tile_run.sl.H0_22
    try unfold tile_run.sl.v146 tile_run.sl.v144_ld
    try unfold tile_run.sl.v2
    refine ScatterViews.OH_step_cov _ (XvFacts.xvC_lt L xt fv hx) _ _ _ (by decide) 22 (by decide) _ _ 1 96 rfl (by decide) (by decide) _ (by decide) _ (by decide) _ _ _ _ ?_
    try unfold tile_run.sl.f_20
    try unfold tile_run.sl.H0_21
    try unfold tile_run.sl.v140 tile_run.sl.v138_ld
    try unfold tile_run.sl.v2
    refine ScatterViews.OH_step_cov _ (XvFacts.xvC_lt L xt fv hx) _ _ _ (by decide) 21 (by decide) _ _ 1 80 rfl (by decide) (by decide) _ (by decide) _ (by decide) _ _ _ _ ?_
    try unfold tile_run.sl.f_19
    try unfold tile_run.sl.H0_20
    try unfold tile_run.sl.v134 tile_run.sl.v132_ld
    try unfold tile_run.sl.v2
    refine ScatterViews.OH_step_cov _ (XvFacts.xvC_lt L xt fv hx) _ _ _ (by decide) 20 (by decide) _ _ 1 64 rfl (by decide) (by decide) _ (by decide) _ (by decide) _ _ _ _ ?_
    try unfold tile_run.sl.f_18
    try unfold tile_run.sl.H0_19
    try unfold tile_run.sl.v128 tile_run.sl.v126_ld
    try unfold tile_run.sl.v2
    refine ScatterViews.OH_step_cov _ (XvFacts.xvC_lt L xt fv hx) _ _ _ (by decide) 19 (by decide) _ _ 1 48 rfl (by decide) (by decide) _ (by decide) _ (by decide) _ _ _ _ ?_
    try unfold tile_run.sl.f_17
    try unfold tile_run.sl.H0_18
    try unfold tile_run.sl.v122 tile_run.sl.v120_ld
    try unfold tile_run.sl.v2
    refine ScatterViews.OH_step_cov _ (XvFacts.xvC_lt L xt fv hx) _ _ _ (by decide) 18 (by decide) _ _ 1 32 rfl (by decide) (by decide) _ (by decide) _ (by decide) _ _ _ _ ?_
    try unfold tile_run.sl.f_16
    try unfold tile_run.sl.H0_17
    try unfold tile_run.sl.v116 tile_run.sl.v114_ld
    try unfold tile_run.sl.v2
    refine ScatterViews.OH_step_cov _ (XvFacts.xvC_lt L xt fv hx) _ _ _ (by decide) 17 (by decide) _ _ 1 16 rfl (by decide) (by decide) _ (by decide) _ (by decide) _ _ _ _ ?_
    try unfold tile_run.sl.f_15
    try unfold tile_run.sl.H0_16
    try unfold tile_run.sl.v110 tile_run.sl.v108_ld
    try unfold tile_run.sl.v2
    refine ScatterViews.OH_step_cov _ (XvFacts.xvC_lt L xt fv hx) _ _ _ (by decide) 16 (by decide) _ _ 1 0 rfl (by decide) (by decide) _ (by decide) _ (by decide) _ _ _ _ ?_
    try unfold tile_run.sl.f_14
    try unfold tile_run.sl.H0_15
    try unfold tile_run.sl.v104 tile_run.sl.v102_ld
    try unfold tile_run.sl.v2
    refine ScatterViews.OH_step_cov _ (XvFacts.xvC_lt L xt fv hx) _ _ _ (by decide) 15 (by decide) _ _ 0 240 rfl (by decide) (by decide) _ (by decide) _ (by decide) _ _ _ _ ?_
    try unfold tile_run.sl.f_13
    try unfold tile_run.sl.H0_14
    try unfold tile_run.sl.v98 tile_run.sl.v96_ld
    try unfold tile_run.sl.v2
    refine ScatterViews.OH_step_cov _ (XvFacts.xvC_lt L xt fv hx) _ _ _ (by decide) 14 (by decide) _ _ 0 224 rfl (by decide) (by decide) _ (by decide) _ (by decide) _ _ _ _ ?_
    try unfold tile_run.sl.f_12
    try unfold tile_run.sl.H0_13
    try unfold tile_run.sl.v92 tile_run.sl.v90_ld
    try unfold tile_run.sl.v2
    refine ScatterViews.OH_step_cov _ (XvFacts.xvC_lt L xt fv hx) _ _ _ (by decide) 13 (by decide) _ _ 0 208 rfl (by decide) (by decide) _ (by decide) _ (by decide) _ _ _ _ ?_
    try unfold tile_run.sl.f_11
    try unfold tile_run.sl.H0_12
    try unfold tile_run.sl.v86 tile_run.sl.v84_ld
    try unfold tile_run.sl.v2
    refine ScatterViews.OH_step_cov _ (XvFacts.xvC_lt L xt fv hx) _ _ _ (by decide) 12 (by decide) _ _ 0 192 rfl (by decide) (by decide) _ (by decide) _ (by decide) _ _ _ _ ?_
    try unfold tile_run.sl.f_10
    try unfold tile_run.sl.H0_11
    try unfold tile_run.sl.v80 tile_run.sl.v78_ld
    try unfold tile_run.sl.v2
    refine ScatterViews.OH_step_cov _ (XvFacts.xvC_lt L xt fv hx) _ _ _ (by decide) 11 (by decide) _ _ 0 176 rfl (by decide) (by decide) _ (by decide) _ (by decide) _ _ _ _ ?_
    try unfold tile_run.sl.f_9
    try unfold tile_run.sl.H0_10
    try unfold tile_run.sl.v74 tile_run.sl.v72_ld
    try unfold tile_run.sl.v2
    refine ScatterViews.OH_step_cov _ (XvFacts.xvC_lt L xt fv hx) _ _ _ (by decide) 10 (by decide) _ _ 0 160 rfl (by decide) (by decide) _ (by decide) _ (by decide) _ _ _ _ ?_
    try unfold tile_run.sl.f_8
    try unfold tile_run.sl.H0_9
    try unfold tile_run.sl.v68 tile_run.sl.v66_ld
    try unfold tile_run.sl.v2
    refine ScatterViews.OH_step_cov _ (XvFacts.xvC_lt L xt fv hx) _ _ _ (by decide) 9 (by decide) _ _ 0 144 rfl (by decide) (by decide) _ (by decide) _ (by decide) _ _ _ _ ?_
    try unfold tile_run.sl.f_7
    try unfold tile_run.sl.H0_8
    try unfold tile_run.sl.v62 tile_run.sl.v60_ld
    try unfold tile_run.sl.v2
    refine ScatterViews.OH_step_cov _ (XvFacts.xvC_lt L xt fv hx) _ _ _ (by decide) 8 (by decide) _ _ 0 128 rfl (by decide) (by decide) _ (by decide) _ (by decide) _ _ _ _ ?_
    try unfold tile_run.sl.f_6
    try unfold tile_run.sl.H0_7
    try unfold tile_run.sl.v56 tile_run.sl.v54_ld
    try unfold tile_run.sl.v2
    refine ScatterViews.OH_step_cov _ (XvFacts.xvC_lt L xt fv hx) _ _ _ (by decide) 7 (by decide) _ _ 0 112 rfl (by decide) (by decide) _ (by decide) _ (by decide) _ _ _ _ ?_
    try unfold tile_run.sl.f_5
    try unfold tile_run.sl.H0_6
    try unfold tile_run.sl.v50 tile_run.sl.v48_ld
    try unfold tile_run.sl.v2
    refine ScatterViews.OH_step_cov _ (XvFacts.xvC_lt L xt fv hx) _ _ _ (by decide) 6 (by decide) _ _ 0 96 rfl (by decide) (by decide) _ (by decide) _ (by decide) _ _ _ _ ?_
    try unfold tile_run.sl.f_4
    try unfold tile_run.sl.H0_5
    try unfold tile_run.sl.v44 tile_run.sl.v42_ld
    try unfold tile_run.sl.v2
    refine ScatterViews.OH_step_cov _ (XvFacts.xvC_lt L xt fv hx) _ _ _ (by decide) 5 (by decide) _ _ 0 80 rfl (by decide) (by decide) _ (by decide) _ (by decide) _ _ _ _ ?_
    try unfold tile_run.sl.f_3
    try unfold tile_run.sl.H0_4
    try unfold tile_run.sl.v38 tile_run.sl.v36_ld
    try unfold tile_run.sl.v2
    refine ScatterViews.OH_step_cov _ (XvFacts.xvC_lt L xt fv hx) _ _ _ (by decide) 4 (by decide) _ _ 0 64 rfl (by decide) (by decide) _ (by decide) _ (by decide) _ _ _ _ ?_
    try unfold tile_run.sl.f_2
    try unfold tile_run.sl.H0_3
    try unfold tile_run.sl.v32 tile_run.sl.v30_ld
    try unfold tile_run.sl.v2
    refine ScatterViews.OH_step_cov _ (XvFacts.xvC_lt L xt fv hx) _ _ _ (by decide) 3 (by decide) _ _ 0 48 rfl (by decide) (by decide) _ (by decide) _ (by decide) _ _ _ _ ?_
    try unfold tile_run.sl.f_1
    try unfold tile_run.sl.H0_2
    try unfold tile_run.sl.v26 tile_run.sl.v24_ld
    try unfold tile_run.sl.v2
    refine ScatterViews.OH_step_cov _ (XvFacts.xvC_lt L xt fv hx) _ _ _ (by decide) 2 (by decide) _ _ 0 32 rfl (by decide) (by decide) _ (by decide) _ (by decide) _ _ _ _ ?_
    try unfold tile_run.sl.f
    try unfold tile_run.sl.H0_1
    try unfold tile_run.sl.v20 tile_run.sl.v18_ld
    try unfold tile_run.sl.v2
    refine ScatterViews.OH_step_cov _ (XvFacts.xvC_lt L xt fv hx) _ _ _ (by decide) 1 (by decide) _ _ 0 16 rfl (by decide) (by decide) _ (by decide) _ (by decide) _ _ _ _ ?_
    try unfold tile_run.sl.v14 tile_run.sl.v12_ld
    try unfold tile_run.sl.v2
    refine ScatterViews.OH_step_at _ (XvFacts.xvC_lt L xt fv hx) _ _ _ (by decide) 0 (by decide) _ _ 0 0 rfl (by decide) (by decide) _ (by decide) _ (by decide) _ _ _ ?_
    exact ScatterFacts.OH_zero _ _ _ _ _ (Pictures.Z_all (by decide) g0 hg0)
  have hpic1 : LoopInv.Pic L xt fv 1 ((Memref.whole cc0_scratch2 : Memref sig .scVector .vmem S200x256 .i32).view.writes (Elt F) g1 (tile_run.sl.H1_32 L xt fv hxs g1)) := by
    unfold LoopInv.Pic
    try unfold tile_run.sl.H1_32
    refine ScatterViews.OH_writes2 _ _ _ _ 32 _ _ _ ?_
    try unfold tile_run.sl.f_61
    try unfold tile_run.sl.H1_31
    try unfold tile_run.sl.v396 tile_run.sl.v394_ld
    try unfold tile_run.sl.v2
    refine ScatterViews.OH_step_cov2 _ (XvFacts.xvC_lt L xt fv hx) _ _ _ (by decide) 31 (by decide) _ _ 1 496 rfl (by decide) (by decide) _ (by decide) _ (by decide) _ _ _ _ ?_
    try unfold tile_run.sl.f_60
    try unfold tile_run.sl.H1_30
    try unfold tile_run.sl.v390 tile_run.sl.v388_ld
    try unfold tile_run.sl.v2
    refine ScatterViews.OH_step_cov2 _ (XvFacts.xvC_lt L xt fv hx) _ _ _ (by decide) 30 (by decide) _ _ 1 480 rfl (by decide) (by decide) _ (by decide) _ (by decide) _ _ _ _ ?_
    try unfold tile_run.sl.f_59
    try unfold tile_run.sl.H1_29
    try unfold tile_run.sl.v384 tile_run.sl.v382_ld
    try unfold tile_run.sl.v2
    refine ScatterViews.OH_step_cov2 _ (XvFacts.xvC_lt L xt fv hx) _ _ _ (by decide) 29 (by decide) _ _ 1 464 rfl (by decide) (by decide) _ (by decide) _ (by decide) _ _ _ _ ?_
    try unfold tile_run.sl.f_58
    try unfold tile_run.sl.H1_28
    try unfold tile_run.sl.v378 tile_run.sl.v376_ld
    try unfold tile_run.sl.v2
    refine ScatterViews.OH_step_cov2 _ (XvFacts.xvC_lt L xt fv hx) _ _ _ (by decide) 28 (by decide) _ _ 1 448 rfl (by decide) (by decide) _ (by decide) _ (by decide) _ _ _ _ ?_
    try unfold tile_run.sl.f_57
    try unfold tile_run.sl.H1_27
    try unfold tile_run.sl.v372 tile_run.sl.v370_ld
    try unfold tile_run.sl.v2
    refine ScatterViews.OH_step_cov2 _ (XvFacts.xvC_lt L xt fv hx) _ _ _ (by decide) 27 (by decide) _ _ 1 432 rfl (by decide) (by decide) _ (by decide) _ (by decide) _ _ _ _ ?_
    try unfold tile_run.sl.f_56
    try unfold tile_run.sl.H1_26
    try unfold tile_run.sl.v366 tile_run.sl.v364_ld
    try unfold tile_run.sl.v2
    refine ScatterViews.OH_step_cov2 _ (XvFacts.xvC_lt L xt fv hx) _ _ _ (by decide) 26 (by decide) _ _ 1 416 rfl (by decide) (by decide) _ (by decide) _ (by decide) _ _ _ _ ?_
    try unfold tile_run.sl.f_55
    try unfold tile_run.sl.H1_25
    try unfold tile_run.sl.v360 tile_run.sl.v358_ld
    try unfold tile_run.sl.v2
    refine ScatterViews.OH_step_cov2 _ (XvFacts.xvC_lt L xt fv hx) _ _ _ (by decide) 25 (by decide) _ _ 1 400 rfl (by decide) (by decide) _ (by decide) _ (by decide) _ _ _ _ ?_
    try unfold tile_run.sl.f_54
    try unfold tile_run.sl.H1_24
    try unfold tile_run.sl.v354 tile_run.sl.v352_ld
    try unfold tile_run.sl.v2
    refine ScatterViews.OH_step_cov2 _ (XvFacts.xvC_lt L xt fv hx) _ _ _ (by decide) 24 (by decide) _ _ 1 384 rfl (by decide) (by decide) _ (by decide) _ (by decide) _ _ _ _ ?_
    try unfold tile_run.sl.f_53
    try unfold tile_run.sl.H1_23
    try unfold tile_run.sl.v348 tile_run.sl.v346_ld
    try unfold tile_run.sl.v2
    refine ScatterViews.OH_step_cov2 _ (XvFacts.xvC_lt L xt fv hx) _ _ _ (by decide) 23 (by decide) _ _ 1 368 rfl (by decide) (by decide) _ (by decide) _ (by decide) _ _ _ _ ?_
    try unfold tile_run.sl.f_52
    try unfold tile_run.sl.H1_22
    try unfold tile_run.sl.v342 tile_run.sl.v340_ld
    try unfold tile_run.sl.v2
    refine ScatterViews.OH_step_cov2 _ (XvFacts.xvC_lt L xt fv hx) _ _ _ (by decide) 22 (by decide) _ _ 1 352 rfl (by decide) (by decide) _ (by decide) _ (by decide) _ _ _ _ ?_
    try unfold tile_run.sl.f_51
    try unfold tile_run.sl.H1_21
    try unfold tile_run.sl.v336 tile_run.sl.v334_ld
    try unfold tile_run.sl.v2
    refine ScatterViews.OH_step_cov2 _ (XvFacts.xvC_lt L xt fv hx) _ _ _ (by decide) 21 (by decide) _ _ 1 336 rfl (by decide) (by decide) _ (by decide) _ (by decide) _ _ _ _ ?_
    try unfold tile_run.sl.f_50
    try unfold tile_run.sl.H1_20
    try unfold tile_run.sl.v330 tile_run.sl.v328_ld
    try unfold tile_run.sl.v2
    refine ScatterViews.OH_step_cov2 _ (XvFacts.xvC_lt L xt fv hx) _ _ _ (by decide) 20 (by decide) _ _ 1 320 rfl (by decide) (by decide) _ (by decide) _ (by decide) _ _ _ _ ?_
    try unfold tile_run.sl.f_49
    try unfold tile_run.sl.H1_19
    try unfold tile_run.sl.v324 tile_run.sl.v322_ld
    try unfold tile_run.sl.v2
    refine ScatterViews.OH_step_cov2 _ (XvFacts.xvC_lt L xt fv hx) _ _ _ (by decide) 19 (by decide) _ _ 1 304 rfl (by decide) (by decide) _ (by decide) _ (by decide) _ _ _ _ ?_
    try unfold tile_run.sl.f_48
    try unfold tile_run.sl.H1_18
    try unfold tile_run.sl.v318 tile_run.sl.v316_ld
    try unfold tile_run.sl.v2
    refine ScatterViews.OH_step_cov2 _ (XvFacts.xvC_lt L xt fv hx) _ _ _ (by decide) 18 (by decide) _ _ 1 288 rfl (by decide) (by decide) _ (by decide) _ (by decide) _ _ _ _ ?_
    try unfold tile_run.sl.f_47
    try unfold tile_run.sl.H1_17
    try unfold tile_run.sl.v312 tile_run.sl.v310_ld
    try unfold tile_run.sl.v2
    refine ScatterViews.OH_step_cov2 _ (XvFacts.xvC_lt L xt fv hx) _ _ _ (by decide) 17 (by decide) _ _ 1 272 rfl (by decide) (by decide) _ (by decide) _ (by decide) _ _ _ _ ?_
    try unfold tile_run.sl.f_46
    try unfold tile_run.sl.H1_16
    try unfold tile_run.sl.v306 tile_run.sl.v304_ld
    try unfold tile_run.sl.v2
    refine ScatterViews.OH_step_cov2 _ (XvFacts.xvC_lt L xt fv hx) _ _ _ (by decide) 16 (by decide) _ _ 1 256 rfl (by decide) (by decide) _ (by decide) _ (by decide) _ _ _ _ ?_
    try unfold tile_run.sl.f_45
    try unfold tile_run.sl.H1_15
    try unfold tile_run.sl.v300 tile_run.sl.v298_ld
    try unfold tile_run.sl.v2
    refine ScatterViews.OH_step_cov2 _ (XvFacts.xvC_lt L xt fv hx) _ _ _ (by decide) 15 (by decide) _ _ 0 496 rfl (by decide) (by decide) _ (by decide) _ (by decide) _ _ _ _ ?_
    try unfold tile_run.sl.f_44
    try unfold tile_run.sl.H1_14
    try unfold tile_run.sl.v294 tile_run.sl.v292_ld
    try unfold tile_run.sl.v2
    refine ScatterViews.OH_step_cov2 _ (XvFacts.xvC_lt L xt fv hx) _ _ _ (by decide) 14 (by decide) _ _ 0 480 rfl (by decide) (by decide) _ (by decide) _ (by decide) _ _ _ _ ?_
    try unfold tile_run.sl.f_43
    try unfold tile_run.sl.H1_13
    try unfold tile_run.sl.v288 tile_run.sl.v286_ld
    try unfold tile_run.sl.v2
    refine ScatterViews.OH_step_cov2 _ (XvFacts.xvC_lt L xt fv hx) _ _ _ (by decide) 13 (by decide) _ _ 0 464 rfl (by decide) (by decide) _ (by decide) _ (by decide) _ _ _ _ ?_
    try unfold tile_run.sl.f_42
    try unfold tile_run.sl.H1_12
    try unfold tile_run.sl.v282 tile_run.sl.v280_ld
    try unfold tile_run.sl.v2
    refine ScatterViews.OH_step_cov2 _ (XvFacts.xvC_lt L xt fv hx) _ _ _ (by decide) 12 (by decide) _ _ 0 448 rfl (by decide) (by decide) _ (by decide) _ (by decide) _ _ _ _ ?_
    try unfold tile_run.sl.f_41
    try unfold tile_run.sl.H1_11
    try unfold tile_run.sl.v276 tile_run.sl.v274_ld
    try unfold tile_run.sl.v2
    refine ScatterViews.OH_step_cov2 _ (XvFacts.xvC_lt L xt fv hx) _ _ _ (by decide) 11 (by decide) _ _ 0 432 rfl (by decide) (by decide) _ (by decide) _ (by decide) _ _ _ _ ?_
    try unfold tile_run.sl.f_40
    try unfold tile_run.sl.H1_10
    try unfold tile_run.sl.v270 tile_run.sl.v268_ld
    try unfold tile_run.sl.v2
    refine ScatterViews.OH_step_cov2 _ (XvFacts.xvC_lt L xt fv hx) _ _ _ (by decide) 10 (by decide) _ _ 0 416 rfl (by decide) (by decide) _ (by decide) _ (by decide) _ _ _ _ ?_
    try unfold tile_run.sl.f_39
    try unfold tile_run.sl.H1_9
    try unfold tile_run.sl.v264 tile_run.sl.v262_ld
    try unfold tile_run.sl.v2
    refine ScatterViews.OH_step_cov2 _ (XvFacts.xvC_lt L xt fv hx) _ _ _ (by decide) 9 (by decide) _ _ 0 400 rfl (by decide) (by decide) _ (by decide) _ (by decide) _ _ _ _ ?_
    try unfold tile_run.sl.f_38
    try unfold tile_run.sl.H1_8
    try unfold tile_run.sl.v258 tile_run.sl.v256_ld
    try unfold tile_run.sl.v2
    refine ScatterViews.OH_step_cov2 _ (XvFacts.xvC_lt L xt fv hx) _ _ _ (by decide) 8 (by decide) _ _ 0 384 rfl (by decide) (by decide) _ (by decide) _ (by decide) _ _ _ _ ?_
    try unfold tile_run.sl.f_37
    try unfold tile_run.sl.H1_7
    try unfold tile_run.sl.v252 tile_run.sl.v250_ld
    try unfold tile_run.sl.v2
    refine ScatterViews.OH_step_cov2 _ (XvFacts.xvC_lt L xt fv hx) _ _ _ (by decide) 7 (by decide) _ _ 0 368 rfl (by decide) (by decide) _ (by decide) _ (by decide) _ _ _ _ ?_
    try unfold tile_run.sl.f_36
    try unfold tile_run.sl.H1_6
    try unfold tile_run.sl.v246 tile_run.sl.v244_ld
    try unfold tile_run.sl.v2
    refine ScatterViews.OH_step_cov2 _ (XvFacts.xvC_lt L xt fv hx) _ _ _ (by decide) 6 (by decide) _ _ 0 352 rfl (by decide) (by decide) _ (by decide) _ (by decide) _ _ _ _ ?_
    try unfold tile_run.sl.f_35
    try unfold tile_run.sl.H1_5
    try unfold tile_run.sl.v240 tile_run.sl.v238_ld
    try unfold tile_run.sl.v2
    refine ScatterViews.OH_step_cov2 _ (XvFacts.xvC_lt L xt fv hx) _ _ _ (by decide) 5 (by decide) _ _ 0 336 rfl (by decide) (by decide) _ (by decide) _ (by decide) _ _ _ _ ?_
    try unfold tile_run.sl.f_34
    try unfold tile_run.sl.H1_4
    try unfold tile_run.sl.v234 tile_run.sl.v232_ld
    try unfold tile_run.sl.v2
    refine ScatterViews.OH_step_cov2 _ (XvFacts.xvC_lt L xt fv hx) _ _ _ (by decide) 4 (by decide) _ _ 0 320 rfl (by decide) (by decide) _ (by decide) _ (by decide) _ _ _ _ ?_
    try unfold tile_run.sl.f_33
    try unfold tile_run.sl.H1_3
    try unfold tile_run.sl.v228 tile_run.sl.v226_ld
    try unfold tile_run.sl.v2
    refine ScatterViews.OH_step_cov2 _ (XvFacts.xvC_lt L xt fv hx) _ _ _ (by decide) 3 (by decide) _ _ 0 304 rfl (by decide) (by decide) _ (by decide) _ (by decide) _ _ _ _ ?_
    try unfold tile_run.sl.f_32
    try unfold tile_run.sl.H1_2
    try unfold tile_run.sl.v222 tile_run.sl.v220_ld
    try unfold tile_run.sl.v2
    refine ScatterViews.OH_step_cov2 _ (XvFacts.xvC_lt L xt fv hx) _ _ _ (by decide) 2 (by decide) _ _ 0 288 rfl (by decide) (by decide) _ (by decide) _ (by decide) _ _ _ _ ?_
    try unfold tile_run.sl.f_31
    try unfold tile_run.sl.H1_1
    try unfold tile_run.sl.v216 tile_run.sl.v214_ld
    try unfold tile_run.sl.v2
    refine ScatterViews.OH_step_cov2 _ (XvFacts.xvC_lt L xt fv hx) _ _ _ (by decide) 1 (by decide) _ _ 0 272 rfl (by decide) (by decide) _ (by decide) _ (by decide) _ _ _ _ ?_
    try unfold tile_run.sl.v210 tile_run.sl.v208_ld
    try unfold tile_run.sl.v2
    refine ScatterViews.OH_step_at2 _ (XvFacts.xvC_lt L xt fv hx) _ _ _ (by decide) 0 (by decide) _ _ 0 256 rfl (by decide) (by decide) _ (by decide) _ (by decide) _ _ _ ?_
    exact ScatterFacts.OH_zero _ _ _ _ _ (Pictures.Z_all2 (by decide) g1 hg1)
  -- the two copies out, as the loop's invariant names them
  unfold tile_run.sl.dma5 tile_run.sl.dma8
  ihave HF0 := (TripB.flight0_exec d L xt hx fv fo 0 (by decide) (k0_off2 L) (k0_off2_inb L) (Geometry.off2_eq L) _ hpic0 (SemLoc.dma cc0_scratch3.sem) (default : HIx 1) LoopInv.AMT) $$ [Hs3]
  · iexact Hs3
  ihave HF1 := (TripB.flight1_exec d L xt hx fv fo 1 (by decide) (k0_off3 L) (k0_off3_inb L) (Geometry.off3_eq L) _ hpic1 (SemLoc.dma cc0_scratch4.sem) (default : HIx 1) LoopInv.AMT) $$ [Hs4]
  · iexact Hs4
  have hW' : ∀ p ∈ insert ((SemLoc.dma cc0_scratch5.sem : SemLoc sig), (default : HIx 1)) W, p ∈ W ∨ p.2 = none := by
    intro p hp
    rcases Finset.mem_insert.1 hp with rfl | h
    · exact Or.inr rfl
    · exact Or.inl h
  -- the main loop
  sl_for (LoopInv.tinv (F := F) d L O W xt fv fo) $$ [Hv HF0 HF1 Htail HO]
  case region =>
    intro k acc
    unfold tile_run.sl.prog.body_3
    exact Trip.trip (F := F) d L O W xt hx fv fo _ _ k
  · iapply (LoopEnds.tinv_zero (F := F) d L O W xt fv fo _ hW')
    isplitr; · iexact Hmw
    isplitl [Hv]; · iexact Hv
    isplitl [HF0]; · iexact HF0
    isplitl [HF1]; · iexact HF1
    isplitl [Htail]; · iexact Htail
    iexact HO
  iintro %_ HI
  -- after the last trip: chunks 24 and 25 are in flight, the rest has landed
  rw [show Scf.trips k0_t3_loop.lb k0_t3_loop.ub k0_t3_loop.st = 12 from by decide]
  ihave HL := (LoopEnds.tinv_last (F := F) d L O W xt fv fo) $$ HI
  icases HL with ⟨HM, Hv, HF0, HF1, HLand, HR, ⟨%W', %hW'', HO⟩⟩
  sl_exec
  ihave Hmw3 := (Transfers.MayWaits.elim (SemLoc.dma cc0_scratch3.sem)) $$ Hmw
  iapply (Transfers.wp_waitLocalO countersEmb 𝒱₀ (V d (cV L) (jV L)) none (default : HIx 1) (N := LoopInv.AMT) rfl) $$ [HF0 HO Hmw3]
  · isplitl [HF0]; · iexact HF0
    isplitl [HO]; · iexact HO
    iexact Hmw3
  iintro ⟨HD0, Hs3, HO⟩
  sl_exec
  ihave Hmw4 := (Transfers.MayWaits.elim (SemLoc.dma cc0_scratch4.sem)) $$ Hmw
  iapply (Transfers.wp_waitLocalO countersEmb 𝒱₀ (V d (cV L) (jV L)) none (default : HIx 1) (N := LoopInv.AMT) rfl) $$ [HF1 HO Hmw4]
  · isplitl [HF1]; · iexact HF1
    isplitl [HO]; · iexact HO
    iexact Hmw4
  iintro ⟨HD1, Hs4, HO⟩
  sl_step
  -- everything the run hands back
  iclear H0 H1 HM
  iapply (LoopEnds.finish (F := F) d L O W xt fv fo)
  isplitl [Hx]; · iexact Hx
  isplitl [Hv]; · iexact Hv
  isplitl [HD0]; · iexact HD0
  isplitl [HD1]; · iexact HD1
  isplitl [HLand]; · iexact HLand
  isplitl [HR]; · iexact HR
  isplitl [Hs3]; · iexact Hs3
  isplitl [Hs4]; · iexact Hs4
  isplitl [Hs5]; · iexact Hs5
  iexists (insert ((SemLoc.dma cc0_scratch4.sem : SemLoc sig), (default : HIx 1)) (insert ((SemLoc.dma cc0_scratch3.sem : SemLoc sig), (default : HIx 1)) W'))
  isplitr
  · ipureintro
    intro p hp
    rcases Finset.mem_insert.1 hp with rfl | hp
    · exact Or.inr rfl
    rcases Finset.mem_insert.1 hp with rfl | hp
    · exact Or.inr rfl
    exact hW'' p hp
  · iexact HO

end Cert.Kernel.Prefix

end
-- ==== Proof.lean ====
/-
  The one-hot coding of a table of class numbers: 16384 rows, 26 columns, entries below 100; the coding has 2600 columns,
  column `100 c + v` of row `r` holding 1 exactly when `x[r, c] = v`. The kernel works transposed: each of 32 tiles takes
  512 columns of the transposed table and writes the same 512 columns of the transposed coding.
  The proof is cut as the program runs. From the tile's contract (its slab of the table in, its slab of the coding out,
  its own storage returned) the launch gives the whole run: on every device the result is the coding, the table
  unchanged. The contract follows from the run of the tile's program: it zeroes a 200 x 256 buffer once; then, for each of
  the slab's 26 chunks, it scatters ones at the entries two rows of the table name (the buffer is then the chunk's
  picture of the coding), copies the buffer out, and scatters zeros at the same entries, which empties the buffer again
  since an entry is named by at most one store. The chunks are disjoint and make up the slab, and on its chunk the copied
  picture is the coding. The kernel as printed, at machine words, and its idealization run alike; nothing was rewritten
  between them. The reference's result, read entry by entry, is the same coding of the same table.
-/
import proofs.«212700_g8504035246323_cont_9to1_m_53_19_alg».proof.Defs
import proofs.«212700_g8504035246323_cont_9to1_m_53_19_alg».proof.Proof.Assemble
import proofs.«212700_g8504035246323_cont_9to1_m_53_19_alg».proof.Proof.TileBody
import proofs.«212700_g8504035246323_cont_9to1_m_53_19_alg».proof.Proof.Prefix
import proofs.«212700_g8504035246323_cont_9to1_m_53_19_alg».proof.Proof.K_Launch
import proofs.«212700_g8504035246323_cont_9to1_m_53_19_alg».proof.Proof.K_TileBody
import proofs.«212700_g8504035246323_cont_9to1_m_53_19_alg».proof.Proof.K_Prefix

open Idealize.ShloMosaic in
theorem Cert.Proof.claim : Cert.Claim :=
  Cert.Proof.Assemble.claim_of (Cert.KernelIdeal.TileBody.tile_body Cert.KernelIdeal.Prefix.tile_run)
    (fun m ρ hpre => Cert.Kernel.Launch.run_main (F := Bits)
      (Cert.Kernel.TileBody.tile_body Cert.Kernel.Prefix.tile_run) m ρ hpre)
